-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v622) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x16x128 : Shape := ⟨4, ![1, 2048, 16, 128]⟩
abbrev S_ : Shape := ⟨0, ![]⟩

class Facts : Prop where
  bcast_S_S1x2048x16x128 : S_.BroadcastsInDim S1x2048x16x128 (![] : Fin 0 → Fin S1x2048x16x128.rank)
  reducesTo_S1x2048x16x128_S_d0_1_2_3 : S1x2048x16x128.ReducesTo [0, 1, 2, 3] S_
  h_S_ : 0 < S_.numel

variable [Facts]

def fn {F : FTy → Type} [FloatOps F] (main_arg0 : FVec F S1x2048x16x128 .f32) (main_arg1 : FVec F S1x2048x16x128 .f32) (main_arg2 : FVec F S1x2048x16x128 .f32) : IVec S_ 1 :=
  let main_v0 : FVec F S1x2048x16x128 .f32 := Host.absf main_arg0
  let main_cst : FVec F S_ .f32 := constant S_ .f32 0x7F800000#32
  let main_v1 : FVec F S1x2048x16x128 .f32 := broadcastInDim S1x2048x16x128 ![] bcast_S_S1x2048x16x128 main_cst
  let main_v2 : IVec S1x2048x16x128 1 := cmpf .olt main_v0 main_v1
  let main_c : IVec S_ 1 := constantI S_ 1 1#1
  let main_v3 : IVec S_ 1 := (fun x v => Host.reduce IntOp.andi x v reducesTo_S1x2048x16x128_S_d0_1_2_3 h_S_) main_v2 main_c
  let main_v4 : FVec F S1x2048x16x128 .f32 := Host.absf main_arg1
  let main_cst_0 : FVec F S_ .f32 := constant S_ .f32 0x7F800000#32
  let main_v5 : FVec F S1x2048x16x128 .f32 := broadcastInDim S1x2048x16x128 ![] bcast_S_S1x2048x16x128 main_cst_0
  let main_v6 : IVec S1x2048x16x128 1 := cmpf .olt main_v4 main_v5
  let main_c_1 : IVec S_ 1 := constantI S_ 1 1#1
  let main_v7 : IVec S_ 1 := (fun x v => Host.reduce IntOp.andi x v reducesTo_S1x2048x16x128_S_d0_1_2_3 h_S_) main_v6 main_c_1
  let main_v8 : IVec S_ 1 := andi main_v3 main_v7
  let main_v9 : FVec F S1x2048x16x128 .f32 := Host.absf main_arg2
  let main_cst_2 : FVec F S_ .f32 := constant S_ .f32 0x7F800000#32
  let main_v10 : FVec F S1x2048x16x128 .f32 := broadcastInDim S1x2048x16x128 ![] bcast_S_S1x2048x16x128 main_cst_2
  let main_v11 : IVec S1x2048x16x128 1 := cmpf .olt main_v9 main_v10
  let main_c_3 : IVec S_ 1 := constantI S_ 1 1#1
  let main_v12 : IVec S_ 1 := (fun x v => Host.reduce IntOp.andi x v reducesTo_S1x2048x16x128_S_d0_1_2_3 h_S_) main_v11 main_c_3
  let main_v13 : IVec S_ 1 := andi main_v8 main_v12
  main_v13
-- ==== Kernel.lean ====
abbrev S1x2048x16x128 : Shape := ⟨4, ![1, 2048, 16, 128]⟩
abbrev S2048x16x128 : Shape := ⟨3, ![2048, 16, 128]⟩
abbrev S16x2048x128 : Shape := ⟨3, ![16, 2048, 128]⟩
abbrev S2048x8x128 : Shape := ⟨3, ![2048, 8, 128]⟩
abbrev S1x2048x128 : Shape := ⟨3, ![1, 2048, 128]⟩
abbrev S2048x1x128 : Shape := ⟨3, ![2048, 1, 128]⟩
abbrev S2048x128 : Shape := ⟨2, ![2048, 128]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S128x256 : Shape := ⟨2, ![128, 256]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S1x64x128 : Shape := ⟨3, ![1, 64, 128]⟩
abbrev S32x256 : Shape := ⟨2, ![32, 256]⟩
abbrev S32x128 : Shape := ⟨2, ![32, 128]⟩
abbrev S32 : Shape := ⟨1, ![32]⟩
abbrev S32x1 : Shape := ⟨2, ![32, 1]⟩
abbrev S1x32x128 : Shape := ⟨3, ![1, 32, 128]⟩
abbrev S16x256 : Shape := ⟨2, ![16, 256]⟩
abbrev S16x128 : Shape := ⟨2, ![16, 128]⟩
abbrev S16 : Shape := ⟨1, ![16]⟩
abbrev S16x1 : Shape := ⟨2, ![16, 1]⟩
abbrev S1x16x128 : Shape := ⟨3, ![1, 16, 128]⟩
abbrev S8x256 : Shape := ⟨2, ![8, 256]⟩
abbrev S8x128 : Shape := ⟨2, ![8, 128]⟩
abbrev S8 : Shape := ⟨1, ![8]⟩
abbrev S8x1 : Shape := ⟨2, ![8, 1]⟩
abbrev S1x8x128 : Shape := ⟨3, ![1, 8, 128]⟩
abbrev S4x256 : Shape := ⟨2, ![4, 256]⟩
abbrev S4x128 : Shape := ⟨2, ![4, 128]⟩
abbrev S4 : Shape := ⟨1, ![4]⟩
abbrev S4x1 : Shape := ⟨2, ![4, 1]⟩
abbrev S1x4x128 : Shape := ⟨3, ![1, 4, 128]⟩
abbrev S2x256 : Shape := ⟨2, ![2, 256]⟩
abbrev S2x128 : Shape := ⟨2, ![2, 128]⟩
abbrev S2 : Shape := ⟨1, ![2]⟩
abbrev S2x1 : Shape := ⟨2, ![2, 1]⟩
abbrev S1x2x128 : Shape := ⟨3, ![1, 2, 128]⟩
abbrev S1x256 : Shape := ⟨2, ![1, 256]⟩
abbrev S1x128 : Shape := ⟨2, ![1, 128]⟩
abbrev S1 : Shape := ⟨1, ![1]⟩
abbrev S1x1 : Shape := ⟨2, ![1, 1]⟩
abbrev S1x1x128 : Shape := ⟨3, ![1, 1, 128]⟩
abbrev S_ : Shape := ⟨0, ![]⟩
abbrev S512x1x128 : Shape := ⟨3, ![512, 1, 128]⟩
abbrev S128x2048 : Shape := ⟨2, ![128, 2048]⟩
abbrev S128x1x128 : Shape := ⟨3, ![128, 1, 128]⟩

abbrev nBuf : Table → Nat
  | .hbm => 11
  | .local .tc .vmem => 16
  | .local .scVector .vmem => 1
  | _ => 0

abbrev bufTy : (tb : Table) → Fin (nBuf tb) → BufTy
  | .hbm, ⟨0, _⟩ => ⟨S1x2048x16x128, .f32⟩
  | .hbm, ⟨1, _⟩ => ⟨S1x2048x16x128, .f32⟩
  | .hbm, ⟨2, _⟩ => ⟨S1x2048x16x128, .f32⟩
  | .hbm, ⟨3, _⟩ => ⟨S2048x16x128, .f32⟩
  | .hbm, ⟨4, _⟩ => ⟨S2048x16x128, .f32⟩
  | .hbm, ⟨5, _⟩ => ⟨S2048x16x128, .f32⟩
  | .hbm, ⟨6, _⟩ => ⟨S16x2048x128, .bf16⟩
  | .hbm, ⟨7, _⟩ => ⟨S16x2048x128, .bf16⟩
  | .hbm, ⟨8, _⟩ => ⟨S16x2048x128, .f32⟩
  | .hbm, ⟨9, _⟩ => ⟨S2048x16x128, .f32⟩
  | .hbm, ⟨10, _⟩ => ⟨S1x2048x16x128, .f32⟩
  | .local .tc .vmem, ⟨0, _⟩ => ⟨S2048x8x128, .f32⟩
  | .local .tc .vmem, ⟨1, _⟩ => ⟨S2048x8x128, .f32⟩
  | .local .tc .vmem, ⟨2, _⟩ => ⟨S2048x8x128, .f32⟩
  | .local .tc .vmem, ⟨3, _⟩ => ⟨S2048x8x128, .f32⟩
  | .local .tc .vmem, ⟨4, _⟩ => ⟨S1x2048x128, .bf16⟩
  | .local .tc .vmem, ⟨5, _⟩ => ⟨S1x2048x128, .bf16⟩
  | .local .tc .vmem, ⟨6, _⟩ => ⟨S1x2048x128, .bf16⟩
  | .local .tc .vmem, ⟨7, _⟩ => ⟨S1x2048x128, .bf16⟩
  | .local .tc .vmem, ⟨8, _⟩ => ⟨S1x2048x128, .f32⟩
  | .local .tc .vmem, ⟨9, _⟩ => ⟨S1x2048x128, .f32⟩
  | .local .tc .vmem, ⟨10, _⟩ => ⟨S1x2048x128, .bf16⟩
  | .local .tc .vmem, ⟨11, _⟩ => ⟨S1x2048x128, .bf16⟩
  | .local .tc .vmem, ⟨12, _⟩ => ⟨S1x2048x128, .bf16⟩
  | .local .tc .vmem, ⟨13, _⟩ => ⟨S1x2048x128, .bf16⟩
  | .local .tc .vmem, ⟨14, _⟩ => ⟨S2048x8x128, .f32⟩
  | .local .tc .vmem, ⟨15, _⟩ => ⟨S2048x8x128, .f32⟩
  | .local .scVector .vmem, ⟨0, _⟩ => ⟨S512x128, .f32⟩
  | _, _ => ⟨S1x2048x16x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v0_scv : Ref sig .scVector := ⟨.hbm, 3, rfl⟩
abbrev main_v4_scv : Ref sig .scVector := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 8], ![false, false]⟩

def k0_off1 (i : grid0.Coords) : Fin 3 → Nat :=
  let c0 : Index := 0#32
  let arg1 : BitVec 32 := BitVec.ofNat 32 (i 1).val
  let v0 : Index := Scalar.indexCast arg1
  let c0_0 : Index := 0#32
  ![0, v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 16], ![false, false]⟩

def k1_off1 (i : grid1.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v29 c0_i32_11
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_13_r0 : BitVec 32 := 0#32
  ![v30.toNat, v18.toNat, 0]
def k1_off2 (i : grid1.Coords) (c0_i32_11 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v29 c0_i32_11
  let c0_i32_13_r1 : BitVec 32 := 0#32
  ![v18.toNat, v30.toNat, 0]
abbrev grid2 : Pipeline.Grid := ⟨2, ![2, 8], ![false, false]⟩

def k2_off1 (i : grid2.Coords) : Fin 3 → Nat :=
  let c0_12 : Index := 0#32
  let arg1 : BitVec 32 := BitVec.ofNat 32 (i 1).val
  let v20 : Index := Scalar.indexCast arg1
  let c0_13 : Index := 0#32
  ![0, v20.toNat, 0]
def k2_off2 (i : grid2.Coords) : Fin 3 → Nat :=
  let c128 : Index := 128#32
  let arg1 : BitVec 32 := BitVec.ofNat 32 (i 1).val
  let v35 : Index := Scalar.indexCast arg1
  let c0_18 : Index := 0#32
  ![128, v35.toNat, 0]
def k2_off3 (i : grid2.Coords) : Fin 3 → Nat :=
  let c256 : Index := 256#32
  let arg1 : BitVec 32 := BitVec.ofNat 32 (i 1).val
  let v50 : Index := Scalar.indexCast arg1
  let c0_23 : Index := 0#32
  ![256, v50.toNat, 0]
def k2_off4 (i : grid2.Coords) : Fin 3 → Nat :=
  let c384 : Index := 384#32
  let arg1 : BitVec 32 := BitVec.ofNat 32 (i 1).val
  let v65 : Index := Scalar.indexCast arg1
  let c0_28 : Index := 0#32
  ![384, v65.toNat, 0]
def k2_off5 (i : grid2.Coords) : Fin 3 → Nat :=
  let c512 : Index := 512#32
  let arg1 : BitVec 32 := BitVec.ofNat 32 (i 1).val
  let v80 : Index := Scalar.indexCast arg1
  let c0_33 : Index := 0#32
  ![512, v80.toNat, 0]
def k2_off6 (i : grid2.Coords) : Fin 3 → Nat :=
  let c640 : Index := 640#32
  let arg1 : BitVec 32 := BitVec.ofNat 32 (i 1).val
  let v95 : Index := Scalar.indexCast arg1
  let c0_38 : Index := 0#32
  ![640, v95.toNat, 0]
def k2_off7 (i : grid2.Coords) : Fin 3 → Nat :=
  let c768 : Index := 768#32
  let arg1 : BitVec 32 := BitVec.ofNat 32 (i 1).val
  let v110 : Index := Scalar.indexCast arg1
  let c0_43 : Index := 0#32
  ![768, v110.toNat, 0]
def k2_off8 (i : grid2.Coords) : Fin 3 → Nat :=
  let c896 : Index := 896#32
  let arg1 : BitVec 32 := BitVec.ofNat 32 (i 1).val
  let v125 : Index := Scalar.indexCast arg1
  let c0_48 : Index := 0#32
  ![896, v125.toNat, 0]
def k2_off9 (i : grid2.Coords) : Fin 3 → Nat :=
  let c1024 : Index := 1024#32
  let arg1 : BitVec 32 := BitVec.ofNat 32 (i 1).val
  let v140 : Index := Scalar.indexCast arg1
  let c0_53 : Index := 0#32
  ![1024, v140.toNat, 0]
def k2_off10 (i : grid2.Coords) : Fin 3 → Nat :=
  let c1152 : Index := 1152#32
  let arg1 : BitVec 32 := BitVec.ofNat 32 (i 1).val
  let v155 : Index := Scalar.indexCast arg1
  let c0_58 : Index := 0#32
  ![1152, v155.toNat, 0]
def k2_off11 (i : grid2.Coords) : Fin 3 → Nat :=
  let c1280 : Index := 1280#32
  let arg1 : BitVec 32 := BitVec.ofNat 32 (i 1).val
  let v170 : Index := Scalar.indexCast arg1
  let c0_63 : Index := 0#32
  ![1280, v170.toNat, 0]
def k2_off12 (i : grid2.Coords) : Fin 3 → Nat :=
  let c1408 : Index := 1408#32
  let arg1 : BitVec 32 := BitVec.ofNat 32 (i 1).val
  let v185 : Index := Scalar.indexCast arg1
  let c0_68 : Index := 0#32
  ![1408, v185.toNat, 0]
def k2_off13 (i : grid2.Coords) : Fin 3 → Nat :=
  let c1536 : Index := 1536#32
  let arg1 : BitVec 32 := BitVec.ofNat 32 (i 1).val
  let v200 : Index := Scalar.indexCast arg1
  let c0_73 : Index := 0#32
  ![1536, v200.toNat, 0]
def k2_off14 (i : grid2.Coords) : Fin 3 → Nat :=
  let c1664 : Index := 1664#32
  let arg1 : BitVec 32 := BitVec.ofNat 32 (i 1).val
  let v215 : Index := Scalar.indexCast arg1
  let c0_78 : Index := 0#32
  ![1664, v215.toNat, 0]
def k2_off15 (i : grid2.Coords) : Fin 3 → Nat :=
  let c1792 : Index := 1792#32
  let arg1 : BitVec 32 := BitVec.ofNat 32 (i 1).val
  let v230 : Index := Scalar.indexCast arg1
  let c0_83 : Index := 0#32
  ![1792, v230.toNat, 0]
def k2_off16 (i : grid2.Coords) : Fin 3 → Nat :=
  let c1920 : Index := 1920#32
  let arg1 : BitVec 32 := BitVec.ofNat 32 (i 1).val
  let v245 : Index := Scalar.indexCast arg1
  let c0_88 : Index := 0#32
  ![1920, v245.toNat, 0]
def cc2_transform_0 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x8x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x2048x16x128_S2048x16x128 : S1x2048x16x128.ShapeCasts S2048x16x128
  h_S2048x1x128 : 0 < S2048x1x128.numel
  shapeCasts_S2048x1x128_S2048x128 : S2048x1x128.ShapeCasts S2048x128
  shapeCasts_S2048x128_S1024x256 : S2048x128.ShapeCasts S1024x256
  slices_S1024x256_o0_0_S1024x128 : S1024x256.Slices ![0, 0] S1024x128
  slices_S1024x256_o0_128_S1024x128 : S1024x256.Slices ![0, 128] S1024x128
  reduces_S1024x128_S1024 : S1024x128.Reduces [1] S1024
  shapeCasts_S1024_S1024x1 : S1024.ShapeCasts S1024x1
  broadcasts_S1024x1_S1024x128 : S1024x1.Broadcasts S1024x128
  bitsLt_bf16_f32 : FTy.bits .bf16 < FTy.bits .f32
  inb_S1x2048x128_S1x1024x128_0_0_0 : ∀ a, (![0, 0, 0] : Fin 3 → Nat) a + S1x1024x128.size a ≤ S1x2048x128.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x2048x128_S1x1024x128_0_0_0 : (Rect.unit (s := S1x2048x128) ![0, 0, 0] S1x1024x128.size inb_S1x2048x128_S1x1024x128_0_0_0).PackedRows (EltTy.packing .bf16)
  shapeCasts_S1024x128_S512x256 : S1024x128.ShapeCasts S512x256
  slices_S512x256_o0_0_S512x128 : S512x256.Slices ![0, 0] S512x128
  slices_S512x256_o0_128_S512x128 : S512x256.Slices ![0, 128] S512x128
  reduces_S512x128_S512 : S512x128.Reduces [1] S512
  shapeCasts_S512_S512x1 : S512.ShapeCasts S512x1
  broadcasts_S512x1_S512x128 : S512x1.Broadcasts S512x128
  inb_S1x2048x128_S1x512x128_0_1024_0 : ∀ a, (![0, 1024, 0] : Fin 3 → Nat) a + S1x512x128.size a ≤ S1x2048x128.size a
  h_S1x512x128 : 0 < S1x512x128.numel
  shapeCasts_S1x512x128_S512x128 : S1x512x128.ShapeCasts S512x128
  shapeCasts_S512x128_S1x512x128 : S512x128.ShapeCasts S1x512x128
  packedbf16_S1x2048x128_S1x512x128_0_1024_0 : (Rect.unit (s := S1x2048x128) ![0, 1024, 0] S1x512x128.size inb_S1x2048x128_S1x512x128_0_1024_0).PackedRows (EltTy.packing .bf16)
  shapeCasts_S512x128_S256x256 : S512x128.ShapeCasts S256x256
  slices_S256x256_o0_0_S256x128 : S256x256.Slices ![0, 0] S256x128
  slices_S256x256_o0_128_S256x128 : S256x256.Slices ![0, 128] S256x128
  reduces_S256x128_S256 : S256x128.Reduces [1] S256
  shapeCasts_S256_S256x1 : S256.ShapeCasts S256x1
  broadcasts_S256x1_S256x128 : S256x1.Broadcasts S256x128
  inb_S1x2048x128_S1x256x128_0_1536_0 : ∀ a, (![0, 1536, 0] : Fin 3 → Nat) a + S1x256x128.size a ≤ S1x2048x128.size a
  h_S1x256x128 : 0 < S1x256x128.numel
  shapeCasts_S1x256x128_S256x128 : S1x256x128.ShapeCasts S256x128
  shapeCasts_S256x128_S1x256x128 : S256x128.ShapeCasts S1x256x128
  packedbf16_S1x2048x128_S1x256x128_0_1536_0 : (Rect.unit (s := S1x2048x128) ![0, 1536, 0] S1x256x128.size inb_S1x2048x128_S1x256x128_0_1536_0).PackedRows (EltTy.packing .bf16)
  shapeCasts_S256x128_S128x256 : S256x128.ShapeCasts S128x256
  slices_S128x256_o0_0_S128x128 : S128x256.Slices ![0, 0] S128x128
  slices_S128x256_o0_128_S128x128 : S128x256.Slices ![0, 128] S128x128
  reduces_S128x128_S128 : S128x128.Reduces [1] S128
  shapeCasts_S128_S128x1 : S128.ShapeCasts S128x1
  broadcasts_S128x1_S128x128 : S128x1.Broadcasts S128x128
  inb_S1x2048x128_S1x128x128_0_1792_0 : ∀ a, (![0, 1792, 0] : Fin 3 → Nat) a + S1x128x128.size a ≤ S1x2048x128.size a
  h_S1x128x128 : 0 < S1x128x128.numel
  shapeCasts_S1x128x128_S128x128 : S1x128x128.ShapeCasts S128x128
  shapeCasts_S128x128_S1x128x128 : S128x128.ShapeCasts S1x128x128
  packedbf16_S1x2048x128_S1x128x128_0_1792_0 : (Rect.unit (s := S1x2048x128) ![0, 1792, 0] S1x128x128.size inb_S1x2048x128_S1x128x128_0_1792_0).PackedRows (EltTy.packing .bf16)
  shapeCasts_S128x128_S64x256 : S128x128.ShapeCasts S64x256
  slices_S64x256_o0_0_S64x128 : S64x256.Slices ![0, 0] S64x128
  slices_S64x256_o0_128_S64x128 : S64x256.Slices ![0, 128] S64x128
  reduces_S64x128_S64 : S64x128.Reduces [1] S64
  shapeCasts_S64_S64x1 : S64.ShapeCasts S64x1
  broadcasts_S64x1_S64x128 : S64x1.Broadcasts S64x128
  inb_S1x2048x128_S1x64x128_0_1920_0 : ∀ a, (![0, 1920, 0] : Fin 3 → Nat) a + S1x64x128.size a ≤ S1x2048x128.size a
  h_S1x64x128 : 0 < S1x64x128.numel
  shapeCasts_S1x64x128_S64x128 : S1x64x128.ShapeCasts S64x128
  shapeCasts_S64x128_S1x64x128 : S64x128.ShapeCasts S1x64x128
  packedbf16_S1x2048x128_S1x64x128_0_1920_0 : (Rect.unit (s := S1x2048x128) ![0, 1920, 0] S1x64x128.size inb_S1x2048x128_S1x64x128_0_1920_0).PackedRows (EltTy.packing .bf16)
  shapeCasts_S64x128_S32x256 : S64x128.ShapeCasts S32x256
  slices_S32x256_o0_0_S32x128 : S32x256.Slices ![0, 0] S32x128
  slices_S32x256_o0_128_S32x128 : S32x256.Slices ![0, 128] S32x128
  reduces_S32x128_S32 : S32x128.Reduces [1] S32
  shapeCasts_S32_S32x1 : S32.ShapeCasts S32x1
  broadcasts_S32x1_S32x128 : S32x1.Broadcasts S32x128
  inb_S1x2048x128_S1x32x128_0_1984_0 : ∀ a, (![0, 1984, 0] : Fin 3 → Nat) a + S1x32x128.size a ≤ S1x2048x128.size a
  h_S1x32x128 : 0 < S1x32x128.numel
  shapeCasts_S1x32x128_S32x128 : S1x32x128.ShapeCasts S32x128
  shapeCasts_S32x128_S1x32x128 : S32x128.ShapeCasts S1x32x128
  packedbf16_S1x2048x128_S1x32x128_0_1984_0 : (Rect.unit (s := S1x2048x128) ![0, 1984, 0] S1x32x128.size inb_S1x2048x128_S1x32x128_0_1984_0).PackedRows (EltTy.packing .bf16)
  shapeCasts_S32x128_S16x256 : S32x128.ShapeCasts S16x256
  slices_S16x256_o0_0_S16x128 : S16x256.Slices ![0, 0] S16x128
  slices_S16x256_o0_128_S16x128 : S16x256.Slices ![0, 128] S16x128
  reduces_S16x128_S16 : S16x128.Reduces [1] S16
  shapeCasts_S16_S16x1 : S16.ShapeCasts S16x1
  broadcasts_S16x1_S16x128 : S16x1.Broadcasts S16x128
  inb_S1x2048x128_S1x16x128_0_2016_0 : ∀ a, (![0, 2016, 0] : Fin 3 → Nat) a + S1x16x128.size a ≤ S1x2048x128.size a
  h_S1x16x128 : 0 < S1x16x128.numel
  shapeCasts_S1x16x128_S16x128 : S1x16x128.ShapeCasts S16x128
  shapeCasts_S16x128_S1x16x128 : S16x128.ShapeCasts S1x16x128
  packedbf16_S1x2048x128_S1x16x128_0_2016_0 : (Rect.unit (s := S1x2048x128) ![0, 2016, 0] S1x16x128.size inb_S1x2048x128_S1x16x128_0_2016_0).PackedRows (EltTy.packing .bf16)
  shapeCasts_S16x128_S8x256 : S16x128.ShapeCasts S8x256
  slices_S8x256_o0_0_S8x128 : S8x256.Slices ![0, 0] S8x128
  slices_S8x256_o0_128_S8x128 : S8x256.Slices ![0, 128] S8x128
  reduces_S8x128_S8 : S8x128.Reduces [1] S8
  shapeCasts_S8_S8x1 : S8.ShapeCasts S8x1
  broadcasts_S8x1_S8x128 : S8x1.Broadcasts S8x128
  inb_S1x2048x128_S1x8x128_0_2032_0 : ∀ a, (![0, 2032, 0] : Fin 3 → Nat) a + S1x8x128.size a ≤ S1x2048x128.size a
  h_S1x8x128 : 0 < S1x8x128.numel
  shapeCasts_S1x8x128_S8x128 : S1x8x128.ShapeCasts S8x128
  shapeCasts_S8x128_S1x8x128 : S8x128.ShapeCasts S1x8x128
  packedbf16_S1x2048x128_S1x8x128_0_2032_0 : (Rect.unit (s := S1x2048x128) ![0, 2032, 0] S1x8x128.size inb_S1x2048x128_S1x8x128_0_2032_0).PackedRows (EltTy.packing .bf16)
  shapeCasts_S8x128_S4x256 : S8x128.ShapeCasts S4x256
  slices_S4x256_o0_0_S4x128 : S4x256.Slices ![0, 0] S4x128
  slices_S4x256_o0_128_S4x128 : S4x256.Slices ![0, 128] S4x128
  reduces_S4x128_S4 : S4x128.Reduces [1] S4
  shapeCasts_S4_S4x1 : S4.ShapeCasts S4x1
  broadcasts_S4x1_S4x128 : S4x1.Broadcasts S4x128
  inb_S1x2048x128_S1x4x128_0_2040_0 : ∀ a, (![0, 2040, 0] : Fin 3 → Nat) a + S1x4x128.size a ≤ S1x2048x128.size a
  h_S1x4x128 : 0 < S1x4x128.numel
  shapeCasts_S1x4x128_S4x128 : S1x4x128.ShapeCasts S4x128
  shapeCasts_S4x128_S1x4x128 : S4x128.ShapeCasts S1x4x128
  packedbf16_S1x2048x128_S1x4x128_0_2040_0 : (Rect.unit (s := S1x2048x128) ![0, 2040, 0] S1x4x128.size inb_S1x2048x128_S1x4x128_0_2040_0).PackedRows (EltTy.packing .bf16)
  shapeCasts_S4x128_S2x256 : S4x128.ShapeCasts S2x256
  slices_S2x256_o0_0_S2x128 : S2x256.Slices ![0, 0] S2x128
  slices_S2x256_o0_128_S2x128 : S2x256.Slices ![0, 128] S2x128
  reduces_S2x128_S2 : S2x128.Reduces [1] S2
  shapeCasts_S2_S2x1 : S2.ShapeCasts S2x1
  broadcasts_S2x1_S2x128 : S2x1.Broadcasts S2x128
  inb_S1x2048x128_S1x2x128_0_2044_0 : ∀ a, (![0, 2044, 0] : Fin 3 → Nat) a + S1x2x128.size a ≤ S1x2048x128.size a
  h_S1x2x128 : 0 < S1x2x128.numel
  shapeCasts_S1x2x128_S2x128 : S1x2x128.ShapeCasts S2x128
  shapeCasts_S2x128_S1x2x128 : S2x128.ShapeCasts S1x2x128
  packedbf16_S1x2048x128_S1x2x128_0_2044_0 : (Rect.unit (s := S1x2048x128) ![0, 2044, 0] S1x2x128.size inb_S1x2048x128_S1x2x128_0_2044_0).PackedRows (EltTy.packing .bf16)
  shapeCasts_S2x128_S1x256 : S2x128.ShapeCasts S1x256
  slices_S1x256_o0_0_S1x128 : S1x256.Slices ![0, 0] S1x128
  slices_S1x256_o0_128_S1x128 : S1x256.Slices ![0, 128] S1x128
  reduces_S1x128_S1 : S1x128.Reduces [1] S1
  shapeCasts_S1_S1x1 : S1.ShapeCasts S1x1
  broadcasts_S1x1_S1x128 : S1x1.Broadcasts S1x128
  inb_S1x2048x128_S1x1x128_0_2046_0 : ∀ a, (![0, 2046, 0] : Fin 3 → Nat) a + S1x1x128.size a ≤ S1x2048x128.size a
  h_S1x1x128 : 0 < S1x1x128.numel
  shapeCasts_S1x1x128_S1x128 : S1x1x128.ShapeCasts S1x128
  shapeCasts_S1x128_S1x1x128 : S1x128.ShapeCasts S1x1x128
  inb_S1x2048x128_S1x2x128_0_2046_0 : ∀ a, (![0, 2046, 0] : Fin 3 → Nat) a + S1x2x128.size a ≤ S1x2048x128.size a
  slices_S1x2x128_S1x1x128_0_0_0 : S1x2x128.Slices ![0, 0, 0] S1x1x128
  packedbf16_S1x2048x128_S1x2x128_0_2046_0 : (Rect.unit (s := S1x2048x128) ![0, 2046, 0] S1x2x128.size inb_S1x2048x128_S1x2x128_0_2046_0).PackedRows (EltTy.packing .bf16)
  inb_S1x2048x128_S1x1x128_0_2047_0 : ∀ a, (![0, 2047, 0] : Fin 3 → Nat) a + S1x1x128.size a ≤ S1x2048x128.size a
  slices_S1x2x128_S1x1x128_0_1_0 : S1x2x128.Slices ![0, 1, 0] S1x1x128
  squeezes_S512x1x128_S512x128 : S512x1x128.Squeezes S512x128
  squeezes_S1x512x128_S512x128 : S1x512x128.Squeezes S512x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S2048x128_o0_0_S128x128 : S2048x128.Slices ![0, 0] S128x128
  reduces_S128x2048_S128 : S128x2048.Reduces [1] S128
  h_S128x1x128 : 0 < S128x1x128.numel
  shapeCasts_S128x1x128_S128x128 : S128x1x128.ShapeCasts S128x128
  shapeCasts_S128x128_S128x1x128 : S128x128.ShapeCasts S128x1x128
  slices_S2048x128_o128_0_S128x128 : S2048x128.Slices ![128, 0] S128x128
  slices_S2048x128_o256_0_S128x128 : S2048x128.Slices ![256, 0] S128x128
  slices_S2048x128_o384_0_S128x128 : S2048x128.Slices ![384, 0] S128x128
  slices_S2048x128_o512_0_S128x128 : S2048x128.Slices ![512, 0] S128x128
  slices_S2048x128_o640_0_S128x128 : S2048x128.Slices ![640, 0] S128x128
  slices_S2048x128_o768_0_S128x128 : S2048x128.Slices ![768, 0] S128x128
  slices_S2048x128_o896_0_S128x128 : S2048x128.Slices ![896, 0] S128x128
  slices_S2048x128_o1024_0_S128x128 : S2048x128.Slices ![1024, 0] S128x128
  slices_S2048x128_o1152_0_S128x128 : S2048x128.Slices ![1152, 0] S128x128
  slices_S2048x128_o1280_0_S128x128 : S2048x128.Slices ![1280, 0] S128x128
  slices_S2048x128_o1408_0_S128x128 : S2048x128.Slices ![1408, 0] S128x128
  slices_S2048x128_o1536_0_S128x128 : S2048x128.Slices ![1536, 0] S128x128
  slices_S2048x128_o1664_0_S128x128 : S2048x128.Slices ![1664, 0] S128x128
  slices_S2048x128_o1792_0_S128x128 : S2048x128.Slices ![1792, 0] S128x128
  slices_S2048x128_o1920_0_S128x128 : S2048x128.Slices ![1920, 0] S128x128
  bcast_S2048x16x128_S1x2048x16x128_1_2_3 : S2048x16x128.BroadcastsInDim S1x2048x16x128 (![1, 2, 3] : Fin 3 → Fin S1x2048x16x128.rank)
  dot_S128x128_S2048x128_S128x2048_1_1_0_0_n_n_wf : DotDims.WF S128x128 S2048x128 S128x2048 [1] [1] [0] [0] [] []
  dot_S128x2048_S2048x128_S128x128_1_0_0_1_n_n_wf : DotDims.WF S128x2048 S2048x128 S128x128 [1] [0] [0] [1] [] []
  hcc1_scoped0 : 8 + S_.numel ≤ 20
  hcc1_scoped1 : 9 + S_.numel ≤ 20
  hcc1_scoped2 : 10 + S_.numel ≤ 20
  hcc1_scoped3 : 11 + S_.numel ≤ 20
  hscKind : ∀ q, scKind q ≠ .tc
  hscCore : ∀ q, scNCore q ≤ τ.nSC
  hscSub : ∀ q, scNSub q ≤ τ.nSub
  hrank0 : 0 < grid0.rank
  k0_off1_inb : ∀ i : grid0.Coords, ∀ a, (k0_off1 i) a + S2048x1x128.size a ≤ S2048x8x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8x128.size a ≤ S2048x16x128.size a
  hwx0_0 : ∀ i : grid0.Coords, EltTy.bits .f32 = 32 ∨ (Rect.block (s := S2048x16x128) S2048x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x8x128.size a ≤ S2048x16x128.size a
  hwx0_1 : ∀ i : grid0.Coords, EltTy.bits .f32 = 32 ∨ (Rect.block (s := S2048x16x128) S2048x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .bf16 = 32 ∨ (Rect.block (s := S16x2048x128) S1x2048x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .bf16 = 32 ∨ (Rect.block (s := S16x2048x128) S1x2048x128.size (cc0_transform_3 i) (hinb0_3 i)).WholeWords (EltTy.packing .bf16)
  hcore1 : grid1.bound 0 ≤ τ.nSC
  hsub1 : grid1.bound 1 ≤ τ.nSub
  k1_off1_inb : ∀ i : grid1.Coords, ∀ (r : Fin 2), ∀ a, (k1_off1 i (BitVec.ofNat 32 (512 * r.val))) a + S512x1x128.size a ≤ S2048x16x128.size a
  k1_off2_inb : ∀ i : grid1.Coords, ∀ (r : Fin 2), ∀ a, (k1_off2 i (BitVec.ofNat 32 (512 * r.val))) a + S1x512x128.size a ≤ S16x2048x128.size a
  hrank2 : 0 < grid2.rank
  k2_off1_inb : ∀ i : grid2.Coords, ∀ a, (k2_off1 i) a + S128x1x128.size a ≤ S2048x8x128.size a
  k2_off2_inb : ∀ i : grid2.Coords, ∀ a, (k2_off2 i) a + S128x1x128.size a ≤ S2048x8x128.size a
  k2_off3_inb : ∀ i : grid2.Coords, ∀ a, (k2_off3 i) a + S128x1x128.size a ≤ S2048x8x128.size a
  k2_off4_inb : ∀ i : grid2.Coords, ∀ a, (k2_off4 i) a + S128x1x128.size a ≤ S2048x8x128.size a
  k2_off5_inb : ∀ i : grid2.Coords, ∀ a, (k2_off5 i) a + S128x1x128.size a ≤ S2048x8x128.size a
  k2_off6_inb : ∀ i : grid2.Coords, ∀ a, (k2_off6 i) a + S128x1x128.size a ≤ S2048x8x128.size a
  k2_off7_inb : ∀ i : grid2.Coords, ∀ a, (k2_off7 i) a + S128x1x128.size a ≤ S2048x8x128.size a
  k2_off8_inb : ∀ i : grid2.Coords, ∀ a, (k2_off8 i) a + S128x1x128.size a ≤ S2048x8x128.size a
  k2_off9_inb : ∀ i : grid2.Coords, ∀ a, (k2_off9 i) a + S128x1x128.size a ≤ S2048x8x128.size a
  k2_off10_inb : ∀ i : grid2.Coords, ∀ a, (k2_off10 i) a + S128x1x128.size a ≤ S2048x8x128.size a
  k2_off11_inb : ∀ i : grid2.Coords, ∀ a, (k2_off11 i) a + S128x1x128.size a ≤ S2048x8x128.size a
  k2_off12_inb : ∀ i : grid2.Coords, ∀ a, (k2_off12 i) a + S128x1x128.size a ≤ S2048x8x128.size a
  k2_off13_inb : ∀ i : grid2.Coords, ∀ a, (k2_off13 i) a + S128x1x128.size a ≤ S2048x8x128.size a
  k2_off14_inb : ∀ i : grid2.Coords, ∀ a, (k2_off14 i) a + S128x1x128.size a ≤ S2048x8x128.size a
  k2_off15_inb : ∀ i : grid2.Coords, ∀ a, (k2_off15 i) a + S128x1x128.size a ≤ S2048x8x128.size a
  k2_off16_inb : ∀ i : grid2.Coords, ∀ a, (k2_off16 i) a + S128x1x128.size a ≤ S2048x8x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x128.size a ≤ S16x2048x128.size a
  hwx2_0 : ∀ i : grid2.Coords, EltTy.bits .f32 = 32 ∨ (Rect.block (s := S16x2048x128) S1x2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x128.size a ≤ S16x2048x128.size a
  hwx2_1 : ∀ i : grid2.Coords, EltTy.bits .bf16 = 32 ∨ (Rect.block (s := S16x2048x128) S1x2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x128.size a ≤ S16x2048x128.size a
  hwx2_2 : ∀ i : grid2.Coords, EltTy.bits .bf16 = 32 ∨ (Rect.block (s := S16x2048x128) S1x2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x8x128.size a ≤ S2048x16x128.size a
  hwx2_3 : ∀ i : grid2.Coords, EltTy.bits .f32 = 32 ∨ (Rect.block (s := S2048x16x128) S2048x8x128.size (cc2_transform_3 i) (hinb2_3 i)).WholeWords (EltTy.packing .f32)

variable [Facts₀]

abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
abbrev cc1_scoped3 : DmaSems sig S_ := SemArray.consecutive 11 S_ hcc1_scoped3
def dot_S128x128_S2048x128_S128x2048_1_1_0_0_n_n : DotDims S128x128 S2048x128 S128x2048 where
  lhsContracting := [1]
  rhsContracting := [1]
  lhsNonContracting := [0]
  rhsNonContracting := [0]
  lhsBatch := []
  rhsBatch := []
  wf := dot_S128x128_S2048x128_S128x2048_1_1_0_0_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_v1) S2048x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.ofSpec (Memref.whole main_v4) S1x2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S1x2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S1x2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S2048x8x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x2048x16x128 : Shape := ⟨4, ![1, 2048, 16, 128]⟩
abbrev S1x1024x16x128 : Shape := ⟨4, ![1, 1024, 16, 128]⟩
abbrev S_ : Shape := ⟨0, ![]⟩
abbrev S1x1024x2x16x128 : Shape := ⟨5, ![1, 1024, 2, 16, 128]⟩
abbrev S1x1024x16 : Shape := ⟨3, ![1, 1024, 16]⟩
abbrev S1x1024x1x16x128 : Shape := ⟨5, ![1, 1024, 1, 16, 128]⟩
abbrev S1x1024x16x1 : Shape := ⟨4, ![1, 1024, 16, 1]⟩
abbrev S1x512x16x128 : Shape := ⟨4, ![1, 512, 16, 128]⟩
abbrev S1x512x2x16x128 : Shape := ⟨5, ![1, 512, 2, 16, 128]⟩
abbrev S1x512x16 : Shape := ⟨3, ![1, 512, 16]⟩
abbrev S1x512x1x16x128 : Shape := ⟨5, ![1, 512, 1, 16, 128]⟩
abbrev S1x512x16x1 : Shape := ⟨4, ![1, 512, 16, 1]⟩
abbrev S1x256x16x128 : Shape := ⟨4, ![1, 256, 16, 128]⟩
abbrev S1x256x2x16x128 : Shape := ⟨5, ![1, 256, 2, 16, 128]⟩
abbrev S1x256x16 : Shape := ⟨3, ![1, 256, 16]⟩
abbrev S1x256x1x16x128 : Shape := ⟨5, ![1, 256, 1, 16, 128]⟩
abbrev S1x256x16x1 : Shape := ⟨4, ![1, 256, 16, 1]⟩
abbrev S1x128x16x128 : Shape := ⟨4, ![1, 128, 16, 128]⟩
abbrev S1x128x2x16x128 : Shape := ⟨5, ![1, 128, 2, 16, 128]⟩
abbrev S1x128x16 : Shape := ⟨3, ![1, 128, 16]⟩
abbrev S1x128x1x16x128 : Shape := ⟨5, ![1, 128, 1, 16, 128]⟩
abbrev S1x128x16x1 : Shape := ⟨4, ![1, 128, 16, 1]⟩
abbrev S1x64x16x128 : Shape := ⟨4, ![1, 64, 16, 128]⟩
abbrev S1x64x2x16x128 : Shape := ⟨5, ![1, 64, 2, 16, 128]⟩
abbrev S1x64x16 : Shape := ⟨3, ![1, 64, 16]⟩
abbrev S1x64x1x16x128 : Shape := ⟨5, ![1, 64, 1, 16, 128]⟩
abbrev S1x64x16x1 : Shape := ⟨4, ![1, 64, 16, 1]⟩
abbrev S1x32x16x128 : Shape := ⟨4, ![1, 32, 16, 128]⟩
abbrev S1x32x2x16x128 : Shape := ⟨5, ![1, 32, 2, 16, 128]⟩
abbrev S1x32x16 : Shape := ⟨3, ![1, 32, 16]⟩
abbrev S1x32x1x16x128 : Shape := ⟨5, ![1, 32, 1, 16, 128]⟩
abbrev S1x32x16x1 : Shape := ⟨4, ![1, 32, 16, 1]⟩
abbrev S1x16x16x128 : Shape := ⟨4, ![1, 16, 16, 128]⟩
abbrev S1x16x2x16x128 : Shape := ⟨5, ![1, 16, 2, 16, 128]⟩
abbrev S1x16x16 : Shape := ⟨3, ![1, 16, 16]⟩
abbrev S1x16x1x16x128 : Shape := ⟨5, ![1, 16, 1, 16, 128]⟩
abbrev S1x16x16x1 : Shape := ⟨4, ![1, 16, 16, 1]⟩
abbrev S1x8x16x128 : Shape := ⟨4, ![1, 8, 16, 128]⟩
abbrev S1x8x2x16x128 : Shape := ⟨5, ![1, 8, 2, 16, 128]⟩
abbrev S1x8x16 : Shape := ⟨3, ![1, 8, 16]⟩
abbrev S1x8x1x16x128 : Shape := ⟨5, ![1, 8, 1, 16, 128]⟩
abbrev S1x8x16x1 : Shape := ⟨4, ![1, 8, 16, 1]⟩
abbrev S1x4x16x128 : Shape := ⟨4, ![1, 4, 16, 128]⟩
abbrev S1x4x2x16x128 : Shape := ⟨5, ![1, 4, 2, 16, 128]⟩
abbrev S1x4x16 : Shape := ⟨3, ![1, 4, 16]⟩
abbrev S1x4x1x16x128 : Shape := ⟨5, ![1, 4, 1, 16, 128]⟩
abbrev S1x4x16x1 : Shape := ⟨4, ![1, 4, 16, 1]⟩
abbrev S1x2x16x128 : Shape := ⟨4, ![1, 2, 16, 128]⟩
abbrev S1x2x2x16x128 : Shape := ⟨5, ![1, 2, 2, 16, 128]⟩
abbrev S1x2x16 : Shape := ⟨3, ![1, 2, 16]⟩
abbrev S1x2x1x16x128 : Shape := ⟨5, ![1, 2, 1, 16, 128]⟩
abbrev S1x2x16x1 : Shape := ⟨4, ![1, 2, 16, 1]⟩
abbrev S1x1x16x128 : Shape := ⟨4, ![1, 1, 16, 128]⟩
abbrev S1x1x2x16x128 : Shape := ⟨5, ![1, 1, 2, 16, 128]⟩
abbrev S1x1x16 : Shape := ⟨3, ![1, 1, 16]⟩
abbrev S1x1x1x16x128 : Shape := ⟨5, ![1, 1, 1, 16, 128]⟩
abbrev S1x1x16x1 : Shape := ⟨4, ![1, 1, 16, 1]⟩
abbrev S1x2047x16x128 : Shape := ⟨4, ![1, 2047, 16, 128]⟩
abbrev S1x16x2048x2047 : Shape := ⟨4, ![1, 16, 2048, 2047]⟩
abbrev S1x16x2048 : Shape := ⟨3, ![1, 16, 2048]⟩
abbrev S1x16x2048x1 : Shape := ⟨4, ![1, 16, 2048, 1]⟩
abbrev S1x16x128x2048 : Shape := ⟨4, ![1, 16, 128, 2048]⟩

abbrev nBuf : Space → Nat
  | .hbm => 696
  | .vmem => 0
  | .smem => 0
  | _ => 0

abbrev hbmTy0_0 (i : Nat) : BufTy := match i % 128 with
  | 0 => ⟨S1x2048x16x128, .f32⟩
  | 1 => ⟨S1x2048x16x128, .f32⟩
  | 2 => ⟨S1x2048x16x128, .f32⟩
  | 3 => ⟨S1x1024x16x128, .f32⟩
  | 4 => ⟨S1x1024x16x128, .f32⟩
  | 5 => ⟨S1x1024x16x128, .f32⟩
  | 6 => ⟨S_, .f32⟩
  | 7 => ⟨S1x1024x16x128, .f32⟩
  | 8 => ⟨S1x1024x16x128, .f32⟩
  | 9 => ⟨S1x1024x16x128, .f32⟩
  | 10 => ⟨S1x1024x16x128, .f32⟩
  | 11 => ⟨S1x1024x16x128, .f32⟩
  | 12 => ⟨S_, .f32⟩
  | 13 => ⟨S1x1024x16x128, .f32⟩
  | 14 => ⟨S1x1024x16x128, .f32⟩
  | 15 => ⟨S1x1024x2x16x128, .f32⟩
  | 16 => ⟨S1x1024x2x16x128, .f32⟩
  | 17 => ⟨S1x1024x16, .f32⟩
  | 18 => ⟨S_, .f32⟩
  | 19 => ⟨S1x1024x16, .f32⟩
  | 20 => ⟨S1x1024x16, .f32⟩
  | 21 => ⟨S1x1024x1x16x128, .f32⟩
  | 22 => ⟨S1x1024x16x128, .f32⟩
  | 23 => ⟨S1x1024x16, .f32⟩
  | 24 => ⟨S_, .f32⟩
  | 25 => ⟨S1x1024x16, .f32⟩
  | 26 => ⟨S1x1024x16, .f32⟩
  | 27 => ⟨S1x1024x1x16x128, .f32⟩
  | 28 => ⟨S1x1024x16x128, .f32⟩
  | 29 => ⟨S1x1024x16, .f32⟩
  | 30 => ⟨S_, .f32⟩
  | 31 => ⟨S1x1024x16, .f32⟩
  | 32 => ⟨S1x1024x16, .f32⟩
  | 33 => ⟨S1x1024x16, .f32⟩
  | 34 => ⟨S1x1024x16, .f32⟩
  | 35 => ⟨S1x1024x16, .f32⟩
  | 36 => ⟨S1x1024x16, .f32⟩
  | 37 => ⟨S1x1024x16, .f32⟩
  | 38 => ⟨S1x1024x16, .f32⟩
  | 39 => ⟨S1x1024x16, .f32⟩
  | 40 => ⟨S1x1024x16, .f32⟩
  | 41 => ⟨S1x1024x16, .f32⟩
  | 42 => ⟨S1x1024x16, .f32⟩
  | 43 => ⟨S_, .f32⟩
  | 44 => ⟨S1x1024x16, .f32⟩
  | 45 => ⟨S1x1024x16, .f32⟩
  | 46 => ⟨S1x1024x16, .f32⟩
  | 47 => ⟨S1x1024x16, .f32⟩
  | 48 => ⟨S1x1024x16, .f32⟩
  | 49 => ⟨S1x1024x16x1, .f32⟩
  | 50 => ⟨S1x1024x16x128, .f32⟩
  | 51 => ⟨S1x1024x16x128, .f32⟩
  | 52 => ⟨S1x1024x16x1, .f32⟩
  | 53 => ⟨S1x1024x1x16x128, .f32⟩
  | 54 => ⟨S1x1024x16x128, .f32⟩
  | 55 => ⟨S1x1024x16x128, .f32⟩
  | 56 => ⟨S1x1024x16x128, .f32⟩
  | 57 => ⟨S1x1024x16x128, .f32⟩
  | 58 => ⟨S1x1024x16x1, .f32⟩
  | 59 => ⟨S1x1024x1x16x128, .f32⟩
  | 60 => ⟨S1x1024x16x128, .f32⟩
  | 61 => ⟨S1x1024x16x128, .f32⟩
  | 62 => ⟨S1x1024x16x128, .f32⟩
  | 63 => ⟨S1x1024x16x128, .f32⟩
  | 64 => ⟨S1x512x16x128, .f32⟩
  | 65 => ⟨S1x512x16x128, .f32⟩
  | 66 => ⟨S1x512x16x128, .f32⟩
  | 67 => ⟨S_, .f32⟩
  | 68 => ⟨S1x512x16x128, .f32⟩
  | 69 => ⟨S1x512x16x128, .f32⟩
  | 70 => ⟨S1x512x16x128, .f32⟩
  | 71 => ⟨S1x512x16x128, .f32⟩
  | 72 => ⟨S1x512x16x128, .f32⟩
  | 73 => ⟨S_, .f32⟩
  | 74 => ⟨S1x512x16x128, .f32⟩
  | 75 => ⟨S1x512x16x128, .f32⟩
  | 76 => ⟨S1x512x2x16x128, .f32⟩
  | 77 => ⟨S1x512x2x16x128, .f32⟩
  | 78 => ⟨S1x512x16, .f32⟩
  | 79 => ⟨S_, .f32⟩
  | 80 => ⟨S1x512x16, .f32⟩
  | 81 => ⟨S1x512x16, .f32⟩
  | 82 => ⟨S1x512x1x16x128, .f32⟩
  | 83 => ⟨S1x512x16x128, .f32⟩
  | 84 => ⟨S1x512x16, .f32⟩
  | 85 => ⟨S_, .f32⟩
  | 86 => ⟨S1x512x16, .f32⟩
  | 87 => ⟨S1x512x16, .f32⟩
  | 88 => ⟨S1x512x1x16x128, .f32⟩
  | 89 => ⟨S1x512x16x128, .f32⟩
  | 90 => ⟨S1x512x16, .f32⟩
  | 91 => ⟨S_, .f32⟩
  | 92 => ⟨S1x512x16, .f32⟩
  | 93 => ⟨S1x512x16, .f32⟩
  | 94 => ⟨S1x512x16, .f32⟩
  | 95 => ⟨S1x512x16, .f32⟩
  | 96 => ⟨S1x512x16, .f32⟩
  | 97 => ⟨S1x512x16, .f32⟩
  | 98 => ⟨S1x512x16, .f32⟩
  | 99 => ⟨S1x512x16, .f32⟩
  | 100 => ⟨S1x512x16, .f32⟩
  | 101 => ⟨S1x512x16, .f32⟩
  | 102 => ⟨S1x512x16, .f32⟩
  | 103 => ⟨S1x512x16, .f32⟩
  | 104 => ⟨S_, .f32⟩
  | 105 => ⟨S1x512x16, .f32⟩
  | 106 => ⟨S1x512x16, .f32⟩
  | 107 => ⟨S1x512x16, .f32⟩
  | 108 => ⟨S1x512x16, .f32⟩
  | 109 => ⟨S1x512x16, .f32⟩
  | 110 => ⟨S1x512x16x1, .f32⟩
  | 111 => ⟨S1x512x16x128, .f32⟩
  | 112 => ⟨S1x512x16x128, .f32⟩
  | 113 => ⟨S1x512x16x1, .f32⟩
  | 114 => ⟨S1x512x1x16x128, .f32⟩
  | 115 => ⟨S1x512x16x128, .f32⟩
  | 116 => ⟨S1x512x16x128, .f32⟩
  | 117 => ⟨S1x512x16x128, .f32⟩
  | 118 => ⟨S1x512x16x128, .f32⟩
  | 119 => ⟨S1x512x16x1, .f32⟩
  | 120 => ⟨S1x512x1x16x128, .f32⟩
  | 121 => ⟨S1x512x16x128, .f32⟩
  | 122 => ⟨S1x512x16x128, .f32⟩
  | 123 => ⟨S1x512x16x128, .f32⟩
  | 124 => ⟨S1x512x16x128, .f32⟩
  | 125 => ⟨S1x256x16x128, .f32⟩
  | 126 => ⟨S1x256x16x128, .f32⟩
  | 127 => ⟨S1x256x16x128, .f32⟩
  | _ => ⟨S1x2048x16x128, .f32⟩

abbrev hbmTy0_1 (i : Nat) : BufTy := match i % 128 with
  | 0 => ⟨S_, .f32⟩
  | 1 => ⟨S1x256x16x128, .f32⟩
  | 2 => ⟨S1x256x16x128, .f32⟩
  | 3 => ⟨S1x256x16x128, .f32⟩
  | 4 => ⟨S1x256x16x128, .f32⟩
  | 5 => ⟨S1x256x16x128, .f32⟩
  | 6 => ⟨S_, .f32⟩
  | 7 => ⟨S1x256x16x128, .f32⟩
  | 8 => ⟨S1x256x16x128, .f32⟩
  | 9 => ⟨S1x256x2x16x128, .f32⟩
  | 10 => ⟨S1x256x2x16x128, .f32⟩
  | 11 => ⟨S1x256x16, .f32⟩
  | 12 => ⟨S_, .f32⟩
  | 13 => ⟨S1x256x16, .f32⟩
  | 14 => ⟨S1x256x16, .f32⟩
  | 15 => ⟨S1x256x1x16x128, .f32⟩
  | 16 => ⟨S1x256x16x128, .f32⟩
  | 17 => ⟨S1x256x16, .f32⟩
  | 18 => ⟨S_, .f32⟩
  | 19 => ⟨S1x256x16, .f32⟩
  | 20 => ⟨S1x256x16, .f32⟩
  | 21 => ⟨S1x256x1x16x128, .f32⟩
  | 22 => ⟨S1x256x16x128, .f32⟩
  | 23 => ⟨S1x256x16, .f32⟩
  | 24 => ⟨S_, .f32⟩
  | 25 => ⟨S1x256x16, .f32⟩
  | 26 => ⟨S1x256x16, .f32⟩
  | 27 => ⟨S1x256x16, .f32⟩
  | 28 => ⟨S1x256x16, .f32⟩
  | 29 => ⟨S1x256x16, .f32⟩
  | 30 => ⟨S1x256x16, .f32⟩
  | 31 => ⟨S1x256x16, .f32⟩
  | 32 => ⟨S1x256x16, .f32⟩
  | 33 => ⟨S1x256x16, .f32⟩
  | 34 => ⟨S1x256x16, .f32⟩
  | 35 => ⟨S1x256x16, .f32⟩
  | 36 => ⟨S1x256x16, .f32⟩
  | 37 => ⟨S_, .f32⟩
  | 38 => ⟨S1x256x16, .f32⟩
  | 39 => ⟨S1x256x16, .f32⟩
  | 40 => ⟨S1x256x16, .f32⟩
  | 41 => ⟨S1x256x16, .f32⟩
  | 42 => ⟨S1x256x16, .f32⟩
  | 43 => ⟨S1x256x16x1, .f32⟩
  | 44 => ⟨S1x256x16x128, .f32⟩
  | 45 => ⟨S1x256x16x128, .f32⟩
  | 46 => ⟨S1x256x16x1, .f32⟩
  | 47 => ⟨S1x256x1x16x128, .f32⟩
  | 48 => ⟨S1x256x16x128, .f32⟩
  | 49 => ⟨S1x256x16x128, .f32⟩
  | 50 => ⟨S1x256x16x128, .f32⟩
  | 51 => ⟨S1x256x16x128, .f32⟩
  | 52 => ⟨S1x256x16x1, .f32⟩
  | 53 => ⟨S1x256x1x16x128, .f32⟩
  | 54 => ⟨S1x256x16x128, .f32⟩
  | 55 => ⟨S1x256x16x128, .f32⟩
  | 56 => ⟨S1x256x16x128, .f32⟩
  | 57 => ⟨S1x256x16x128, .f32⟩
  | 58 => ⟨S1x128x16x128, .f32⟩
  | 59 => ⟨S1x128x16x128, .f32⟩
  | 60 => ⟨S1x128x16x128, .f32⟩
  | 61 => ⟨S_, .f32⟩
  | 62 => ⟨S1x128x16x128, .f32⟩
  | 63 => ⟨S1x128x16x128, .f32⟩
  | 64 => ⟨S1x128x16x128, .f32⟩
  | 65 => ⟨S1x128x16x128, .f32⟩
  | 66 => ⟨S1x128x16x128, .f32⟩
  | 67 => ⟨S_, .f32⟩
  | 68 => ⟨S1x128x16x128, .f32⟩
  | 69 => ⟨S1x128x16x128, .f32⟩
  | 70 => ⟨S1x128x2x16x128, .f32⟩
  | 71 => ⟨S1x128x2x16x128, .f32⟩
  | 72 => ⟨S1x128x16, .f32⟩
  | 73 => ⟨S_, .f32⟩
  | 74 => ⟨S1x128x16, .f32⟩
  | 75 => ⟨S1x128x16, .f32⟩
  | 76 => ⟨S1x128x1x16x128, .f32⟩
  | 77 => ⟨S1x128x16x128, .f32⟩
  | 78 => ⟨S1x128x16, .f32⟩
  | 79 => ⟨S_, .f32⟩
  | 80 => ⟨S1x128x16, .f32⟩
  | 81 => ⟨S1x128x16, .f32⟩
  | 82 => ⟨S1x128x1x16x128, .f32⟩
  | 83 => ⟨S1x128x16x128, .f32⟩
  | 84 => ⟨S1x128x16, .f32⟩
  | 85 => ⟨S_, .f32⟩
  | 86 => ⟨S1x128x16, .f32⟩
  | 87 => ⟨S1x128x16, .f32⟩
  | 88 => ⟨S1x128x16, .f32⟩
  | 89 => ⟨S1x128x16, .f32⟩
  | 90 => ⟨S1x128x16, .f32⟩
  | 91 => ⟨S1x128x16, .f32⟩
  | 92 => ⟨S1x128x16, .f32⟩
  | 93 => ⟨S1x128x16, .f32⟩
  | 94 => ⟨S1x128x16, .f32⟩
  | 95 => ⟨S1x128x16, .f32⟩
  | 96 => ⟨S1x128x16, .f32⟩
  | 97 => ⟨S1x128x16, .f32⟩
  | 98 => ⟨S_, .f32⟩
  | 99 => ⟨S1x128x16, .f32⟩
  | 100 => ⟨S1x128x16, .f32⟩
  | 101 => ⟨S1x128x16, .f32⟩
  | 102 => ⟨S1x128x16, .f32⟩
  | 103 => ⟨S1x128x16, .f32⟩
  | 104 => ⟨S1x128x16x1, .f32⟩
  | 105 => ⟨S1x128x16x128, .f32⟩
  | 106 => ⟨S1x128x16x128, .f32⟩
  | 107 => ⟨S1x128x16x1, .f32⟩
  | 108 => ⟨S1x128x1x16x128, .f32⟩
  | 109 => ⟨S1x128x16x128, .f32⟩
  | 110 => ⟨S1x128x16x128, .f32⟩
  | 111 => ⟨S1x128x16x128, .f32⟩
  | 112 => ⟨S1x128x16x128, .f32⟩
  | 113 => ⟨S1x128x16x1, .f32⟩
  | 114 => ⟨S1x128x1x16x128, .f32⟩
  | 115 => ⟨S1x128x16x128, .f32⟩
  | 116 => ⟨S1x128x16x128, .f32⟩
  | 117 => ⟨S1x128x16x128, .f32⟩
  | 118 => ⟨S1x128x16x128, .f32⟩
  | 119 => ⟨S1x64x16x128, .f32⟩
  | 120 => ⟨S1x64x16x128, .f32⟩
  | 121 => ⟨S1x64x16x128, .f32⟩
  | 122 => ⟨S_, .f32⟩
  | 123 => ⟨S1x64x16x128, .f32⟩
  | 124 => ⟨S1x64x16x128, .f32⟩
  | 125 => ⟨S1x64x16x128, .f32⟩
  | 126 => ⟨S1x64x16x128, .f32⟩
  | 127 => ⟨S1x64x16x128, .f32⟩
  | _ => ⟨S1x2048x16x128, .f32⟩

abbrev hbmTy0_2 (i : Nat) : BufTy := match i % 128 with
  | 0 => ⟨S_, .f32⟩
  | 1 => ⟨S1x64x16x128, .f32⟩
  | 2 => ⟨S1x64x16x128, .f32⟩
  | 3 => ⟨S1x64x2x16x128, .f32⟩
  | 4 => ⟨S1x64x2x16x128, .f32⟩
  | 5 => ⟨S1x64x16, .f32⟩
  | 6 => ⟨S_, .f32⟩
  | 7 => ⟨S1x64x16, .f32⟩
  | 8 => ⟨S1x64x16, .f32⟩
  | 9 => ⟨S1x64x1x16x128, .f32⟩
  | 10 => ⟨S1x64x16x128, .f32⟩
  | 11 => ⟨S1x64x16, .f32⟩
  | 12 => ⟨S_, .f32⟩
  | 13 => ⟨S1x64x16, .f32⟩
  | 14 => ⟨S1x64x16, .f32⟩
  | 15 => ⟨S1x64x1x16x128, .f32⟩
  | 16 => ⟨S1x64x16x128, .f32⟩
  | 17 => ⟨S1x64x16, .f32⟩
  | 18 => ⟨S_, .f32⟩
  | 19 => ⟨S1x64x16, .f32⟩
  | 20 => ⟨S1x64x16, .f32⟩
  | 21 => ⟨S1x64x16, .f32⟩
  | 22 => ⟨S1x64x16, .f32⟩
  | 23 => ⟨S1x64x16, .f32⟩
  | 24 => ⟨S1x64x16, .f32⟩
  | 25 => ⟨S1x64x16, .f32⟩
  | 26 => ⟨S1x64x16, .f32⟩
  | 27 => ⟨S1x64x16, .f32⟩
  | 28 => ⟨S1x64x16, .f32⟩
  | 29 => ⟨S1x64x16, .f32⟩
  | 30 => ⟨S1x64x16, .f32⟩
  | 31 => ⟨S_, .f32⟩
  | 32 => ⟨S1x64x16, .f32⟩
  | 33 => ⟨S1x64x16, .f32⟩
  | 34 => ⟨S1x64x16, .f32⟩
  | 35 => ⟨S1x64x16, .f32⟩
  | 36 => ⟨S1x64x16, .f32⟩
  | 37 => ⟨S1x64x16x1, .f32⟩
  | 38 => ⟨S1x64x16x128, .f32⟩
  | 39 => ⟨S1x64x16x128, .f32⟩
  | 40 => ⟨S1x64x16x1, .f32⟩
  | 41 => ⟨S1x64x1x16x128, .f32⟩
  | 42 => ⟨S1x64x16x128, .f32⟩
  | 43 => ⟨S1x64x16x128, .f32⟩
  | 44 => ⟨S1x64x16x128, .f32⟩
  | 45 => ⟨S1x64x16x128, .f32⟩
  | 46 => ⟨S1x64x16x1, .f32⟩
  | 47 => ⟨S1x64x1x16x128, .f32⟩
  | 48 => ⟨S1x64x16x128, .f32⟩
  | 49 => ⟨S1x64x16x128, .f32⟩
  | 50 => ⟨S1x64x16x128, .f32⟩
  | 51 => ⟨S1x64x16x128, .f32⟩
  | 52 => ⟨S1x32x16x128, .f32⟩
  | 53 => ⟨S1x32x16x128, .f32⟩
  | 54 => ⟨S1x32x16x128, .f32⟩
  | 55 => ⟨S_, .f32⟩
  | 56 => ⟨S1x32x16x128, .f32⟩
  | 57 => ⟨S1x32x16x128, .f32⟩
  | 58 => ⟨S1x32x16x128, .f32⟩
  | 59 => ⟨S1x32x16x128, .f32⟩
  | 60 => ⟨S1x32x16x128, .f32⟩
  | 61 => ⟨S_, .f32⟩
  | 62 => ⟨S1x32x16x128, .f32⟩
  | 63 => ⟨S1x32x16x128, .f32⟩
  | 64 => ⟨S1x32x2x16x128, .f32⟩
  | 65 => ⟨S1x32x2x16x128, .f32⟩
  | 66 => ⟨S1x32x16, .f32⟩
  | 67 => ⟨S_, .f32⟩
  | 68 => ⟨S1x32x16, .f32⟩
  | 69 => ⟨S1x32x16, .f32⟩
  | 70 => ⟨S1x32x1x16x128, .f32⟩
  | 71 => ⟨S1x32x16x128, .f32⟩
  | 72 => ⟨S1x32x16, .f32⟩
  | 73 => ⟨S_, .f32⟩
  | 74 => ⟨S1x32x16, .f32⟩
  | 75 => ⟨S1x32x16, .f32⟩
  | 76 => ⟨S1x32x1x16x128, .f32⟩
  | 77 => ⟨S1x32x16x128, .f32⟩
  | 78 => ⟨S1x32x16, .f32⟩
  | 79 => ⟨S_, .f32⟩
  | 80 => ⟨S1x32x16, .f32⟩
  | 81 => ⟨S1x32x16, .f32⟩
  | 82 => ⟨S1x32x16, .f32⟩
  | 83 => ⟨S1x32x16, .f32⟩
  | 84 => ⟨S1x32x16, .f32⟩
  | 85 => ⟨S1x32x16, .f32⟩
  | 86 => ⟨S1x32x16, .f32⟩
  | 87 => ⟨S1x32x16, .f32⟩
  | 88 => ⟨S1x32x16, .f32⟩
  | 89 => ⟨S1x32x16, .f32⟩
  | 90 => ⟨S1x32x16, .f32⟩
  | 91 => ⟨S1x32x16, .f32⟩
  | 92 => ⟨S_, .f32⟩
  | 93 => ⟨S1x32x16, .f32⟩
  | 94 => ⟨S1x32x16, .f32⟩
  | 95 => ⟨S1x32x16, .f32⟩
  | 96 => ⟨S1x32x16, .f32⟩
  | 97 => ⟨S1x32x16, .f32⟩
  | 98 => ⟨S1x32x16x1, .f32⟩
  | 99 => ⟨S1x32x16x128, .f32⟩
  | 100 => ⟨S1x32x16x128, .f32⟩
  | 101 => ⟨S1x32x16x1, .f32⟩
  | 102 => ⟨S1x32x1x16x128, .f32⟩
  | 103 => ⟨S1x32x16x128, .f32⟩
  | 104 => ⟨S1x32x16x128, .f32⟩
  | 105 => ⟨S1x32x16x128, .f32⟩
  | 106 => ⟨S1x32x16x128, .f32⟩
  | 107 => ⟨S1x32x16x1, .f32⟩
  | 108 => ⟨S1x32x1x16x128, .f32⟩
  | 109 => ⟨S1x32x16x128, .f32⟩
  | 110 => ⟨S1x32x16x128, .f32⟩
  | 111 => ⟨S1x32x16x128, .f32⟩
  | 112 => ⟨S1x32x16x128, .f32⟩
  | 113 => ⟨S1x16x16x128, .f32⟩
  | 114 => ⟨S1x16x16x128, .f32⟩
  | 115 => ⟨S1x16x16x128, .f32⟩
  | 116 => ⟨S_, .f32⟩
  | 117 => ⟨S1x16x16x128, .f32⟩
  | 118 => ⟨S1x16x16x128, .f32⟩
  | 119 => ⟨S1x16x16x128, .f32⟩
  | 120 => ⟨S1x16x16x128, .f32⟩
  | 121 => ⟨S1x16x16x128, .f32⟩
  | 122 => ⟨S_, .f32⟩
  | 123 => ⟨S1x16x16x128, .f32⟩
  | 124 => ⟨S1x16x16x128, .f32⟩
  | 125 => ⟨S1x16x2x16x128, .f32⟩
  | 126 => ⟨S1x16x2x16x128, .f32⟩
  | 127 => ⟨S1x16x16, .f32⟩
  | _ => ⟨S1x2048x16x128, .f32⟩

abbrev hbmTy0_3 (i : Nat) : BufTy := match i % 128 with
  | 0 => ⟨S_, .f32⟩
  | 1 => ⟨S1x16x16, .f32⟩
  | 2 => ⟨S1x16x16, .f32⟩
  | 3 => ⟨S1x16x1x16x128, .f32⟩
  | 4 => ⟨S1x16x16x128, .f32⟩
  | 5 => ⟨S1x16x16, .f32⟩
  | 6 => ⟨S_, .f32⟩
  | 7 => ⟨S1x16x16, .f32⟩
  | 8 => ⟨S1x16x16, .f32⟩
  | 9 => ⟨S1x16x1x16x128, .f32⟩
  | 10 => ⟨S1x16x16x128, .f32⟩
  | 11 => ⟨S1x16x16, .f32⟩
  | 12 => ⟨S_, .f32⟩
  | 13 => ⟨S1x16x16, .f32⟩
  | 14 => ⟨S1x16x16, .f32⟩
  | 15 => ⟨S1x16x16, .f32⟩
  | 16 => ⟨S1x16x16, .f32⟩
  | 17 => ⟨S1x16x16, .f32⟩
  | 18 => ⟨S1x16x16, .f32⟩
  | 19 => ⟨S1x16x16, .f32⟩
  | 20 => ⟨S1x16x16, .f32⟩
  | 21 => ⟨S1x16x16, .f32⟩
  | 22 => ⟨S1x16x16, .f32⟩
  | 23 => ⟨S1x16x16, .f32⟩
  | 24 => ⟨S1x16x16, .f32⟩
  | 25 => ⟨S_, .f32⟩
  | 26 => ⟨S1x16x16, .f32⟩
  | 27 => ⟨S1x16x16, .f32⟩
  | 28 => ⟨S1x16x16, .f32⟩
  | 29 => ⟨S1x16x16, .f32⟩
  | 30 => ⟨S1x16x16, .f32⟩
  | 31 => ⟨S1x16x16x1, .f32⟩
  | 32 => ⟨S1x16x16x128, .f32⟩
  | 33 => ⟨S1x16x16x128, .f32⟩
  | 34 => ⟨S1x16x16x1, .f32⟩
  | 35 => ⟨S1x16x1x16x128, .f32⟩
  | 36 => ⟨S1x16x16x128, .f32⟩
  | 37 => ⟨S1x16x16x128, .f32⟩
  | 38 => ⟨S1x16x16x128, .f32⟩
  | 39 => ⟨S1x16x16x128, .f32⟩
  | 40 => ⟨S1x16x16x1, .f32⟩
  | 41 => ⟨S1x16x1x16x128, .f32⟩
  | 42 => ⟨S1x16x16x128, .f32⟩
  | 43 => ⟨S1x16x16x128, .f32⟩
  | 44 => ⟨S1x16x16x128, .f32⟩
  | 45 => ⟨S1x16x16x128, .f32⟩
  | 46 => ⟨S1x8x16x128, .f32⟩
  | 47 => ⟨S1x8x16x128, .f32⟩
  | 48 => ⟨S1x8x16x128, .f32⟩
  | 49 => ⟨S_, .f32⟩
  | 50 => ⟨S1x8x16x128, .f32⟩
  | 51 => ⟨S1x8x16x128, .f32⟩
  | 52 => ⟨S1x8x16x128, .f32⟩
  | 53 => ⟨S1x8x16x128, .f32⟩
  | 54 => ⟨S1x8x16x128, .f32⟩
  | 55 => ⟨S_, .f32⟩
  | 56 => ⟨S1x8x16x128, .f32⟩
  | 57 => ⟨S1x8x16x128, .f32⟩
  | 58 => ⟨S1x8x2x16x128, .f32⟩
  | 59 => ⟨S1x8x2x16x128, .f32⟩
  | 60 => ⟨S1x8x16, .f32⟩
  | 61 => ⟨S_, .f32⟩
  | 62 => ⟨S1x8x16, .f32⟩
  | 63 => ⟨S1x8x16, .f32⟩
  | 64 => ⟨S1x8x1x16x128, .f32⟩
  | 65 => ⟨S1x8x16x128, .f32⟩
  | 66 => ⟨S1x8x16, .f32⟩
  | 67 => ⟨S_, .f32⟩
  | 68 => ⟨S1x8x16, .f32⟩
  | 69 => ⟨S1x8x16, .f32⟩
  | 70 => ⟨S1x8x1x16x128, .f32⟩
  | 71 => ⟨S1x8x16x128, .f32⟩
  | 72 => ⟨S1x8x16, .f32⟩
  | 73 => ⟨S_, .f32⟩
  | 74 => ⟨S1x8x16, .f32⟩
  | 75 => ⟨S1x8x16, .f32⟩
  | 76 => ⟨S1x8x16, .f32⟩
  | 77 => ⟨S1x8x16, .f32⟩
  | 78 => ⟨S1x8x16, .f32⟩
  | 79 => ⟨S1x8x16, .f32⟩
  | 80 => ⟨S1x8x16, .f32⟩
  | 81 => ⟨S1x8x16, .f32⟩
  | 82 => ⟨S1x8x16, .f32⟩
  | 83 => ⟨S1x8x16, .f32⟩
  | 84 => ⟨S1x8x16, .f32⟩
  | 85 => ⟨S1x8x16, .f32⟩
  | 86 => ⟨S_, .f32⟩
  | 87 => ⟨S1x8x16, .f32⟩
  | 88 => ⟨S1x8x16, .f32⟩
  | 89 => ⟨S1x8x16, .f32⟩
  | 90 => ⟨S1x8x16, .f32⟩
  | 91 => ⟨S1x8x16, .f32⟩
  | 92 => ⟨S1x8x16x1, .f32⟩
  | 93 => ⟨S1x8x16x128, .f32⟩
  | 94 => ⟨S1x8x16x128, .f32⟩
  | 95 => ⟨S1x8x16x1, .f32⟩
  | 96 => ⟨S1x8x1x16x128, .f32⟩
  | 97 => ⟨S1x8x16x128, .f32⟩
  | 98 => ⟨S1x8x16x128, .f32⟩
  | 99 => ⟨S1x8x16x128, .f32⟩
  | 100 => ⟨S1x8x16x128, .f32⟩
  | 101 => ⟨S1x8x16x1, .f32⟩
  | 102 => ⟨S1x8x1x16x128, .f32⟩
  | 103 => ⟨S1x8x16x128, .f32⟩
  | 104 => ⟨S1x8x16x128, .f32⟩
  | 105 => ⟨S1x8x16x128, .f32⟩
  | 106 => ⟨S1x8x16x128, .f32⟩
  | 107 => ⟨S1x4x16x128, .f32⟩
  | 108 => ⟨S1x4x16x128, .f32⟩
  | 109 => ⟨S1x4x16x128, .f32⟩
  | 110 => ⟨S_, .f32⟩
  | 111 => ⟨S1x4x16x128, .f32⟩
  | 112 => ⟨S1x4x16x128, .f32⟩
  | 113 => ⟨S1x4x16x128, .f32⟩
  | 114 => ⟨S1x4x16x128, .f32⟩
  | 115 => ⟨S1x4x16x128, .f32⟩
  | 116 => ⟨S_, .f32⟩
  | 117 => ⟨S1x4x16x128, .f32⟩
  | 118 => ⟨S1x4x16x128, .f32⟩
  | 119 => ⟨S1x4x2x16x128, .f32⟩
  | 120 => ⟨S1x4x2x16x128, .f32⟩
  | 121 => ⟨S1x4x16, .f32⟩
  | 122 => ⟨S_, .f32⟩
  | 123 => ⟨S1x4x16, .f32⟩
  | 124 => ⟨S1x4x16, .f32⟩
  | 125 => ⟨S1x4x1x16x128, .f32⟩
  | 126 => ⟨S1x4x16x128, .f32⟩
  | 127 => ⟨S1x4x16, .f32⟩
  | _ => ⟨S1x2048x16x128, .f32⟩

abbrev hbmTy0_4 (i : Nat) : BufTy := match i % 128 with
  | 0 => ⟨S_, .f32⟩
  | 1 => ⟨S1x4x16, .f32⟩
  | 2 => ⟨S1x4x16, .f32⟩
  | 3 => ⟨S1x4x1x16x128, .f32⟩
  | 4 => ⟨S1x4x16x128, .f32⟩
  | 5 => ⟨S1x4x16, .f32⟩
  | 6 => ⟨S_, .f32⟩
  | 7 => ⟨S1x4x16, .f32⟩
  | 8 => ⟨S1x4x16, .f32⟩
  | 9 => ⟨S1x4x16, .f32⟩
  | 10 => ⟨S1x4x16, .f32⟩
  | 11 => ⟨S1x4x16, .f32⟩
  | 12 => ⟨S1x4x16, .f32⟩
  | 13 => ⟨S1x4x16, .f32⟩
  | 14 => ⟨S1x4x16, .f32⟩
  | 15 => ⟨S1x4x16, .f32⟩
  | 16 => ⟨S1x4x16, .f32⟩
  | 17 => ⟨S1x4x16, .f32⟩
  | 18 => ⟨S1x4x16, .f32⟩
  | 19 => ⟨S_, .f32⟩
  | 20 => ⟨S1x4x16, .f32⟩
  | 21 => ⟨S1x4x16, .f32⟩
  | 22 => ⟨S1x4x16, .f32⟩
  | 23 => ⟨S1x4x16, .f32⟩
  | 24 => ⟨S1x4x16, .f32⟩
  | 25 => ⟨S1x4x16x1, .f32⟩
  | 26 => ⟨S1x4x16x128, .f32⟩
  | 27 => ⟨S1x4x16x128, .f32⟩
  | 28 => ⟨S1x4x16x1, .f32⟩
  | 29 => ⟨S1x4x1x16x128, .f32⟩
  | 30 => ⟨S1x4x16x128, .f32⟩
  | 31 => ⟨S1x4x16x128, .f32⟩
  | 32 => ⟨S1x4x16x128, .f32⟩
  | 33 => ⟨S1x4x16x128, .f32⟩
  | 34 => ⟨S1x4x16x1, .f32⟩
  | 35 => ⟨S1x4x1x16x128, .f32⟩
  | 36 => ⟨S1x4x16x128, .f32⟩
  | 37 => ⟨S1x4x16x128, .f32⟩
  | 38 => ⟨S1x4x16x128, .f32⟩
  | 39 => ⟨S1x4x16x128, .f32⟩
  | 40 => ⟨S1x2x16x128, .f32⟩
  | 41 => ⟨S1x2x16x128, .f32⟩
  | 42 => ⟨S1x2x16x128, .f32⟩
  | 43 => ⟨S_, .f32⟩
  | 44 => ⟨S1x2x16x128, .f32⟩
  | 45 => ⟨S1x2x16x128, .f32⟩
  | 46 => ⟨S1x2x16x128, .f32⟩
  | 47 => ⟨S1x2x16x128, .f32⟩
  | 48 => ⟨S1x2x16x128, .f32⟩
  | 49 => ⟨S_, .f32⟩
  | 50 => ⟨S1x2x16x128, .f32⟩
  | 51 => ⟨S1x2x16x128, .f32⟩
  | 52 => ⟨S1x2x2x16x128, .f32⟩
  | 53 => ⟨S1x2x2x16x128, .f32⟩
  | 54 => ⟨S1x2x16, .f32⟩
  | 55 => ⟨S_, .f32⟩
  | 56 => ⟨S1x2x16, .f32⟩
  | 57 => ⟨S1x2x16, .f32⟩
  | 58 => ⟨S1x2x1x16x128, .f32⟩
  | 59 => ⟨S1x2x16x128, .f32⟩
  | 60 => ⟨S1x2x16, .f32⟩
  | 61 => ⟨S_, .f32⟩
  | 62 => ⟨S1x2x16, .f32⟩
  | 63 => ⟨S1x2x16, .f32⟩
  | 64 => ⟨S1x2x1x16x128, .f32⟩
  | 65 => ⟨S1x2x16x128, .f32⟩
  | 66 => ⟨S1x2x16, .f32⟩
  | 67 => ⟨S_, .f32⟩
  | 68 => ⟨S1x2x16, .f32⟩
  | 69 => ⟨S1x2x16, .f32⟩
  | 70 => ⟨S1x2x16, .f32⟩
  | 71 => ⟨S1x2x16, .f32⟩
  | 72 => ⟨S1x2x16, .f32⟩
  | 73 => ⟨S1x2x16, .f32⟩
  | 74 => ⟨S1x2x16, .f32⟩
  | 75 => ⟨S1x2x16, .f32⟩
  | 76 => ⟨S1x2x16, .f32⟩
  | 77 => ⟨S1x2x16, .f32⟩
  | 78 => ⟨S1x2x16, .f32⟩
  | 79 => ⟨S1x2x16, .f32⟩
  | 80 => ⟨S_, .f32⟩
  | 81 => ⟨S1x2x16, .f32⟩
  | 82 => ⟨S1x2x16, .f32⟩
  | 83 => ⟨S1x2x16, .f32⟩
  | 84 => ⟨S1x2x16, .f32⟩
  | 85 => ⟨S1x2x16, .f32⟩
  | 86 => ⟨S1x2x16x1, .f32⟩
  | 87 => ⟨S1x2x16x128, .f32⟩
  | 88 => ⟨S1x2x16x128, .f32⟩
  | 89 => ⟨S1x2x16x1, .f32⟩
  | 90 => ⟨S1x2x1x16x128, .f32⟩
  | 91 => ⟨S1x2x16x128, .f32⟩
  | 92 => ⟨S1x2x16x128, .f32⟩
  | 93 => ⟨S1x2x16x128, .f32⟩
  | 94 => ⟨S1x2x16x128, .f32⟩
  | 95 => ⟨S1x2x16x1, .f32⟩
  | 96 => ⟨S1x2x1x16x128, .f32⟩
  | 97 => ⟨S1x2x16x128, .f32⟩
  | 98 => ⟨S1x2x16x128, .f32⟩
  | 99 => ⟨S1x2x16x128, .f32⟩
  | 100 => ⟨S1x2x16x128, .f32⟩
  | 101 => ⟨S1x1x16x128, .f32⟩
  | 102 => ⟨S1x1x16x128, .f32⟩
  | 103 => ⟨S1x1x16x128, .f32⟩
  | 104 => ⟨S_, .f32⟩
  | 105 => ⟨S1x1x16x128, .f32⟩
  | 106 => ⟨S1x1x16x128, .f32⟩
  | 107 => ⟨S1x1x16x128, .f32⟩
  | 108 => ⟨S1x1x16x128, .f32⟩
  | 109 => ⟨S1x1x16x128, .f32⟩
  | 110 => ⟨S_, .f32⟩
  | 111 => ⟨S1x1x16x128, .f32⟩
  | 112 => ⟨S1x1x16x128, .f32⟩
  | 113 => ⟨S1x1x2x16x128, .f32⟩
  | 114 => ⟨S1x1x2x16x128, .f32⟩
  | 115 => ⟨S1x1x16, .f32⟩
  | 116 => ⟨S_, .f32⟩
  | 117 => ⟨S1x1x16, .f32⟩
  | 118 => ⟨S1x1x16, .f32⟩
  | 119 => ⟨S1x1x1x16x128, .f32⟩
  | 120 => ⟨S1x1x16x128, .f32⟩
  | 121 => ⟨S1x1x16, .f32⟩
  | 122 => ⟨S_, .f32⟩
  | 123 => ⟨S1x1x16, .f32⟩
  | 124 => ⟨S1x1x16, .f32⟩
  | 125 => ⟨S1x1x1x16x128, .f32⟩
  | 126 => ⟨S1x1x16x128, .f32⟩
  | 127 => ⟨S1x1x16, .f32⟩
  | _ => ⟨S1x2048x16x128, .f32⟩

abbrev hbmTy0_5 (i : Nat) : BufTy := match i % 128 with
  | 0 => ⟨S_, .f32⟩
  | 1 => ⟨S1x1x16, .f32⟩
  | 2 => ⟨S1x1x16, .f32⟩
  | 3 => ⟨S1x1x16, .f32⟩
  | 4 => ⟨S1x1x16, .f32⟩
  | 5 => ⟨S1x1x16, .f32⟩
  | 6 => ⟨S1x1x16, .f32⟩
  | 7 => ⟨S1x1x16, .f32⟩
  | 8 => ⟨S1x1x16, .f32⟩
  | 9 => ⟨S1x1x16, .f32⟩
  | 10 => ⟨S1x1x16, .f32⟩
  | 11 => ⟨S1x1x16, .f32⟩
  | 12 => ⟨S1x1x16, .f32⟩
  | 13 => ⟨S_, .f32⟩
  | 14 => ⟨S1x1x16, .f32⟩
  | 15 => ⟨S1x1x16, .f32⟩
  | 16 => ⟨S1x1x16, .f32⟩
  | 17 => ⟨S1x1x16, .f32⟩
  | 18 => ⟨S1x1x16, .f32⟩
  | 19 => ⟨S1x1x16x1, .f32⟩
  | 20 => ⟨S1x1x16x128, .f32⟩
  | 21 => ⟨S1x1x16x128, .f32⟩
  | 22 => ⟨S1x1x16x1, .f32⟩
  | 23 => ⟨S1x1x1x16x128, .f32⟩
  | 24 => ⟨S1x1x16x128, .f32⟩
  | 25 => ⟨S1x1x16x128, .f32⟩
  | 26 => ⟨S1x1x16x128, .f32⟩
  | 27 => ⟨S1x1x16x128, .f32⟩
  | 28 => ⟨S1x1x16x1, .f32⟩
  | 29 => ⟨S1x1x1x16x128, .f32⟩
  | 30 => ⟨S1x1x16x128, .f32⟩
  | 31 => ⟨S1x1x16x128, .f32⟩
  | 32 => ⟨S1x1x16x128, .f32⟩
  | 33 => ⟨S1x1x16x128, .f32⟩
  | 34 => ⟨S1x2047x16x128, .f32⟩
  | 35 => ⟨S1x2047x16x128, .f32⟩
  | 36 => ⟨S1x16x2048x2047, .f32⟩
  | 37 => ⟨S_, .f32⟩
  | 38 => ⟨S1x16x2048x2047, .f32⟩
  | 39 => ⟨S1x16x2048x2047, .f32⟩
  | 40 => ⟨S_, .f32⟩
  | 41 => ⟨S1x16x2048, .f32⟩
  | 42 => ⟨S_, .f32⟩
  | 43 => ⟨S1x16x2048, .f32⟩
  | 44 => ⟨S1x16x2048, .f32⟩
  | 45 => ⟨S1x16x2048x1, .f32⟩
  | 46 => ⟨S1x16x2048x2047, .f32⟩
  | 47 => ⟨S1x16x2048x2047, .f32⟩
  | 48 => ⟨S1x16x2048x2047, .f32⟩
  | 49 => ⟨S_, .f32⟩
  | 50 => ⟨S1x16x2048, .f32⟩
  | 51 => ⟨S1x16x2048x1, .f32⟩
  | 52 => ⟨S1x16x2048x2047, .f32⟩
  | 53 => ⟨S1x16x2048x2047, .f32⟩
  | 54 => ⟨S1x16x128x2048, .f32⟩
  | 55 => ⟨S1x2048x16x128, .f32⟩
  | _ => ⟨S1x2048x16x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x2048x16x128, .f32⟩

abbrev bufTy : (tb : Table) → Fin (tcTables nBuf tb) → BufTy
  | .hbm, ⟨i, _⟩ => hbmTy i
  | _, _ => ⟨S1x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_5 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_6 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_7 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_8 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_10 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_cst_11 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_cst_12 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_cst_13 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_cst_14 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_cst_15 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_cst_16 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_cst_17 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_cst_18 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_cst_19 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_cst_20 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_cst_21 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩
abbrev main_v192 : Ref sig .tc := ⟨.hbm, 218, rfl⟩
abbrev main_v193 : Ref sig .tc := ⟨.hbm, 219, rfl⟩
abbrev main_v194 : Ref sig .tc := ⟨.hbm, 220, rfl⟩
abbrev main_v195 : Ref sig .tc := ⟨.hbm, 221, rfl⟩
abbrev main_v196 : Ref sig .tc := ⟨.hbm, 222, rfl⟩
abbrev main_v197 : Ref sig .tc := ⟨.hbm, 223, rfl⟩
abbrev main_v198 : Ref sig .tc := ⟨.hbm, 224, rfl⟩
abbrev main_v199 : Ref sig .tc := ⟨.hbm, 225, rfl⟩
abbrev main_cst_22 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_cst_23 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_cst_24 : Ref sig .tc := ⟨.hbm, 256, rfl⟩
abbrev main_v228 : Ref sig .tc := ⟨.hbm, 257, rfl⟩
abbrev main_v229 : Ref sig .tc := ⟨.hbm, 258, rfl⟩
abbrev main_v230 : Ref sig .tc := ⟨.hbm, 259, rfl⟩
abbrev main_v231 : Ref sig .tc := ⟨.hbm, 260, rfl⟩
abbrev main_v232 : Ref sig .tc := ⟨.hbm, 261, rfl⟩
abbrev main_cst_25 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_v237 : Ref sig .tc := ⟨.hbm, 267, rfl⟩
abbrev main_cst_26 : Ref sig .tc := ⟨.hbm, 268, rfl⟩
abbrev main_v238 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_v242 : Ref sig .tc := ⟨.hbm, 273, rfl⟩
abbrev main_cst_27 : Ref sig .tc := ⟨.hbm, 274, rfl⟩
abbrev main_v243 : Ref sig .tc := ⟨.hbm, 275, rfl⟩
abbrev main_v244 : Ref sig .tc := ⟨.hbm, 276, rfl⟩
abbrev main_v245 : Ref sig .tc := ⟨.hbm, 277, rfl⟩
abbrev main_v246 : Ref sig .tc := ⟨.hbm, 278, rfl⟩
abbrev main_v247 : Ref sig .tc := ⟨.hbm, 279, rfl⟩
abbrev main_v248 : Ref sig .tc := ⟨.hbm, 280, rfl⟩
abbrev main_v249 : Ref sig .tc := ⟨.hbm, 281, rfl⟩
abbrev main_v250 : Ref sig .tc := ⟨.hbm, 282, rfl⟩
abbrev main_v251 : Ref sig .tc := ⟨.hbm, 283, rfl⟩
abbrev main_v252 : Ref sig .tc := ⟨.hbm, 284, rfl⟩
abbrev main_v253 : Ref sig .tc := ⟨.hbm, 285, rfl⟩
abbrev main_v254 : Ref sig .tc := ⟨.hbm, 286, rfl⟩
abbrev main_cst_28 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_cst_29 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_cst_30 : Ref sig .tc := ⟨.hbm, 317, rfl⟩
abbrev main_v283 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_cst_31 : Ref sig .tc := ⟨.hbm, 323, rfl⟩
abbrev main_v288 : Ref sig .tc := ⟨.hbm, 324, rfl⟩
abbrev main_v289 : Ref sig .tc := ⟨.hbm, 325, rfl⟩
abbrev main_v290 : Ref sig .tc := ⟨.hbm, 326, rfl⟩
abbrev main_v291 : Ref sig .tc := ⟨.hbm, 327, rfl⟩
abbrev main_v292 : Ref sig .tc := ⟨.hbm, 328, rfl⟩
abbrev main_cst_32 : Ref sig .tc := ⟨.hbm, 329, rfl⟩
abbrev main_v293 : Ref sig .tc := ⟨.hbm, 330, rfl⟩
abbrev main_v294 : Ref sig .tc := ⟨.hbm, 331, rfl⟩
abbrev main_v295 : Ref sig .tc := ⟨.hbm, 332, rfl⟩
abbrev main_v296 : Ref sig .tc := ⟨.hbm, 333, rfl⟩
abbrev main_v297 : Ref sig .tc := ⟨.hbm, 334, rfl⟩
abbrev main_cst_33 : Ref sig .tc := ⟨.hbm, 335, rfl⟩
abbrev main_v298 : Ref sig .tc := ⟨.hbm, 336, rfl⟩
abbrev main_v299 : Ref sig .tc := ⟨.hbm, 337, rfl⟩
abbrev main_v300 : Ref sig .tc := ⟨.hbm, 338, rfl⟩
abbrev main_v301 : Ref sig .tc := ⟨.hbm, 339, rfl⟩
abbrev main_v302 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_v308 : Ref sig .tc := ⟨.hbm, 346, rfl⟩
abbrev main_v309 : Ref sig .tc := ⟨.hbm, 347, rfl⟩
abbrev main_cst_34 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_v315 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_v321 : Ref sig .tc := ⟨.hbm, 360, rfl⟩
abbrev main_v322 : Ref sig .tc := ⟨.hbm, 361, rfl⟩
abbrev main_v323 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_v327 : Ref sig .tc := ⟨.hbm, 366, rfl⟩
abbrev main_v328 : Ref sig .tc := ⟨.hbm, 367, rfl⟩
abbrev main_v329 : Ref sig .tc := ⟨.hbm, 368, rfl⟩
abbrev main_v330 : Ref sig .tc := ⟨.hbm, 369, rfl⟩
abbrev main_v331 : Ref sig .tc := ⟨.hbm, 370, rfl⟩
abbrev main_v332 : Ref sig .tc := ⟨.hbm, 371, rfl⟩
abbrev main_cst_35 : Ref sig .tc := ⟨.hbm, 372, rfl⟩
abbrev main_v333 : Ref sig .tc := ⟨.hbm, 373, rfl⟩
abbrev main_v334 : Ref sig .tc := ⟨.hbm, 374, rfl⟩
abbrev main_v335 : Ref sig .tc := ⟨.hbm, 375, rfl⟩
abbrev main_v336 : Ref sig .tc := ⟨.hbm, 376, rfl⟩
abbrev main_v337 : Ref sig .tc := ⟨.hbm, 377, rfl⟩
abbrev main_cst_36 : Ref sig .tc := ⟨.hbm, 378, rfl⟩
abbrev main_v338 : Ref sig .tc := ⟨.hbm, 379, rfl⟩
abbrev main_v339 : Ref sig .tc := ⟨.hbm, 380, rfl⟩
abbrev main_v340 : Ref sig .tc := ⟨.hbm, 381, rfl⟩
abbrev main_v341 : Ref sig .tc := ⟨.hbm, 382, rfl⟩
abbrev main_v342 : Ref sig .tc := ⟨.hbm, 383, rfl⟩
abbrev main_cst_37 : Ref sig .tc := ⟨.hbm, 384, rfl⟩
abbrev main_v343 : Ref sig .tc := ⟨.hbm, 385, rfl⟩
abbrev main_v344 : Ref sig .tc := ⟨.hbm, 386, rfl⟩
abbrev main_v345 : Ref sig .tc := ⟨.hbm, 387, rfl⟩
abbrev main_v346 : Ref sig .tc := ⟨.hbm, 388, rfl⟩
abbrev main_v347 : Ref sig .tc := ⟨.hbm, 389, rfl⟩
abbrev main_cst_38 : Ref sig .tc := ⟨.hbm, 390, rfl⟩
abbrev main_v348 : Ref sig .tc := ⟨.hbm, 391, rfl⟩
abbrev main_v349 : Ref sig .tc := ⟨.hbm, 392, rfl⟩
abbrev main_v350 : Ref sig .tc := ⟨.hbm, 393, rfl⟩
abbrev main_v351 : Ref sig .tc := ⟨.hbm, 394, rfl⟩
abbrev main_v352 : Ref sig .tc := ⟨.hbm, 395, rfl⟩
abbrev main_cst_39 : Ref sig .tc := ⟨.hbm, 396, rfl⟩
abbrev main_v353 : Ref sig .tc := ⟨.hbm, 397, rfl⟩
abbrev main_v354 : Ref sig .tc := ⟨.hbm, 398, rfl⟩
abbrev main_v355 : Ref sig .tc := ⟨.hbm, 399, rfl⟩
abbrev main_v356 : Ref sig .tc := ⟨.hbm, 400, rfl⟩
abbrev main_v357 : Ref sig .tc := ⟨.hbm, 401, rfl⟩
abbrev main_v358 : Ref sig .tc := ⟨.hbm, 402, rfl⟩
abbrev main_v359 : Ref sig .tc := ⟨.hbm, 403, rfl⟩
abbrev main_v360 : Ref sig .tc := ⟨.hbm, 404, rfl⟩
abbrev main_v361 : Ref sig .tc := ⟨.hbm, 405, rfl⟩
abbrev main_v362 : Ref sig .tc := ⟨.hbm, 406, rfl⟩
abbrev main_v363 : Ref sig .tc := ⟨.hbm, 407, rfl⟩
abbrev main_v364 : Ref sig .tc := ⟨.hbm, 408, rfl⟩
abbrev main_cst_40 : Ref sig .tc := ⟨.hbm, 409, rfl⟩
abbrev main_v365 : Ref sig .tc := ⟨.hbm, 410, rfl⟩
abbrev main_v366 : Ref sig .tc := ⟨.hbm, 411, rfl⟩
abbrev main_v367 : Ref sig .tc := ⟨.hbm, 412, rfl⟩
abbrev main_v368 : Ref sig .tc := ⟨.hbm, 413, rfl⟩
abbrev main_v369 : Ref sig .tc := ⟨.hbm, 414, rfl⟩
abbrev main_v370 : Ref sig .tc := ⟨.hbm, 415, rfl⟩
abbrev main_v371 : Ref sig .tc := ⟨.hbm, 416, rfl⟩
abbrev main_v372 : Ref sig .tc := ⟨.hbm, 417, rfl⟩
abbrev main_v373 : Ref sig .tc := ⟨.hbm, 418, rfl⟩
abbrev main_v374 : Ref sig .tc := ⟨.hbm, 419, rfl⟩
abbrev main_v375 : Ref sig .tc := ⟨.hbm, 420, rfl⟩
abbrev main_v376 : Ref sig .tc := ⟨.hbm, 421, rfl⟩
abbrev main_v377 : Ref sig .tc := ⟨.hbm, 422, rfl⟩
abbrev main_v378 : Ref sig .tc := ⟨.hbm, 423, rfl⟩
abbrev main_v379 : Ref sig .tc := ⟨.hbm, 424, rfl⟩
abbrev main_v380 : Ref sig .tc := ⟨.hbm, 425, rfl⟩
abbrev main_v381 : Ref sig .tc := ⟨.hbm, 426, rfl⟩
abbrev main_v382 : Ref sig .tc := ⟨.hbm, 427, rfl⟩
abbrev main_v383 : Ref sig .tc := ⟨.hbm, 428, rfl⟩
abbrev main_v384 : Ref sig .tc := ⟨.hbm, 429, rfl⟩
abbrev main_v385 : Ref sig .tc := ⟨.hbm, 430, rfl⟩
abbrev main_v386 : Ref sig .tc := ⟨.hbm, 431, rfl⟩
abbrev main_v387 : Ref sig .tc := ⟨.hbm, 432, rfl⟩
abbrev main_cst_41 : Ref sig .tc := ⟨.hbm, 433, rfl⟩
abbrev main_v388 : Ref sig .tc := ⟨.hbm, 434, rfl⟩
abbrev main_v389 : Ref sig .tc := ⟨.hbm, 435, rfl⟩
abbrev main_v390 : Ref sig .tc := ⟨.hbm, 436, rfl⟩
abbrev main_v391 : Ref sig .tc := ⟨.hbm, 437, rfl⟩
abbrev main_v392 : Ref sig .tc := ⟨.hbm, 438, rfl⟩
abbrev main_cst_42 : Ref sig .tc := ⟨.hbm, 439, rfl⟩
abbrev main_v393 : Ref sig .tc := ⟨.hbm, 440, rfl⟩
abbrev main_v394 : Ref sig .tc := ⟨.hbm, 441, rfl⟩
abbrev main_v395 : Ref sig .tc := ⟨.hbm, 442, rfl⟩
abbrev main_v396 : Ref sig .tc := ⟨.hbm, 443, rfl⟩
abbrev main_v397 : Ref sig .tc := ⟨.hbm, 444, rfl⟩
abbrev main_cst_43 : Ref sig .tc := ⟨.hbm, 445, rfl⟩
abbrev main_v398 : Ref sig .tc := ⟨.hbm, 446, rfl⟩
abbrev main_v399 : Ref sig .tc := ⟨.hbm, 447, rfl⟩
abbrev main_v400 : Ref sig .tc := ⟨.hbm, 448, rfl⟩
abbrev main_v401 : Ref sig .tc := ⟨.hbm, 449, rfl⟩
abbrev main_v402 : Ref sig .tc := ⟨.hbm, 450, rfl⟩
abbrev main_cst_44 : Ref sig .tc := ⟨.hbm, 451, rfl⟩
abbrev main_v403 : Ref sig .tc := ⟨.hbm, 452, rfl⟩
abbrev main_v404 : Ref sig .tc := ⟨.hbm, 453, rfl⟩
abbrev main_v405 : Ref sig .tc := ⟨.hbm, 454, rfl⟩
abbrev main_v406 : Ref sig .tc := ⟨.hbm, 455, rfl⟩
abbrev main_v407 : Ref sig .tc := ⟨.hbm, 456, rfl⟩
abbrev main_cst_45 : Ref sig .tc := ⟨.hbm, 457, rfl⟩
abbrev main_v408 : Ref sig .tc := ⟨.hbm, 458, rfl⟩
abbrev main_v409 : Ref sig .tc := ⟨.hbm, 459, rfl⟩
abbrev main_v410 : Ref sig .tc := ⟨.hbm, 460, rfl⟩
abbrev main_v411 : Ref sig .tc := ⟨.hbm, 461, rfl⟩
abbrev main_v412 : Ref sig .tc := ⟨.hbm, 462, rfl⟩
abbrev main_v413 : Ref sig .tc := ⟨.hbm, 463, rfl⟩
abbrev main_v414 : Ref sig .tc := ⟨.hbm, 464, rfl⟩
abbrev main_v415 : Ref sig .tc := ⟨.hbm, 465, rfl⟩
abbrev main_v416 : Ref sig .tc := ⟨.hbm, 466, rfl⟩
abbrev main_v417 : Ref sig .tc := ⟨.hbm, 467, rfl⟩
abbrev main_v418 : Ref sig .tc := ⟨.hbm, 468, rfl⟩
abbrev main_v419 : Ref sig .tc := ⟨.hbm, 469, rfl⟩
abbrev main_cst_46 : Ref sig .tc := ⟨.hbm, 470, rfl⟩
abbrev main_v420 : Ref sig .tc := ⟨.hbm, 471, rfl⟩
abbrev main_v421 : Ref sig .tc := ⟨.hbm, 472, rfl⟩
abbrev main_v422 : Ref sig .tc := ⟨.hbm, 473, rfl⟩
abbrev main_v423 : Ref sig .tc := ⟨.hbm, 474, rfl⟩
abbrev main_v424 : Ref sig .tc := ⟨.hbm, 475, rfl⟩
abbrev main_v425 : Ref sig .tc := ⟨.hbm, 476, rfl⟩
abbrev main_v426 : Ref sig .tc := ⟨.hbm, 477, rfl⟩
abbrev main_v427 : Ref sig .tc := ⟨.hbm, 478, rfl⟩
abbrev main_v428 : Ref sig .tc := ⟨.hbm, 479, rfl⟩
abbrev main_v429 : Ref sig .tc := ⟨.hbm, 480, rfl⟩
abbrev main_v430 : Ref sig .tc := ⟨.hbm, 481, rfl⟩
abbrev main_v431 : Ref sig .tc := ⟨.hbm, 482, rfl⟩
abbrev main_v432 : Ref sig .tc := ⟨.hbm, 483, rfl⟩
abbrev main_v433 : Ref sig .tc := ⟨.hbm, 484, rfl⟩
abbrev main_v434 : Ref sig .tc := ⟨.hbm, 485, rfl⟩
abbrev main_v435 : Ref sig .tc := ⟨.hbm, 486, rfl⟩
abbrev main_v436 : Ref sig .tc := ⟨.hbm, 487, rfl⟩
abbrev main_v437 : Ref sig .tc := ⟨.hbm, 488, rfl⟩
abbrev main_v438 : Ref sig .tc := ⟨.hbm, 489, rfl⟩
abbrev main_v439 : Ref sig .tc := ⟨.hbm, 490, rfl⟩
abbrev main_v440 : Ref sig .tc := ⟨.hbm, 491, rfl⟩
abbrev main_v441 : Ref sig .tc := ⟨.hbm, 492, rfl⟩
abbrev main_v442 : Ref sig .tc := ⟨.hbm, 493, rfl⟩
abbrev main_cst_47 : Ref sig .tc := ⟨.hbm, 494, rfl⟩
abbrev main_v443 : Ref sig .tc := ⟨.hbm, 495, rfl⟩
abbrev main_v444 : Ref sig .tc := ⟨.hbm, 496, rfl⟩
abbrev main_v445 : Ref sig .tc := ⟨.hbm, 497, rfl⟩
abbrev main_v446 : Ref sig .tc := ⟨.hbm, 498, rfl⟩
abbrev main_v447 : Ref sig .tc := ⟨.hbm, 499, rfl⟩
abbrev main_cst_48 : Ref sig .tc := ⟨.hbm, 500, rfl⟩
abbrev main_v448 : Ref sig .tc := ⟨.hbm, 501, rfl⟩
abbrev main_v449 : Ref sig .tc := ⟨.hbm, 502, rfl⟩
abbrev main_v450 : Ref sig .tc := ⟨.hbm, 503, rfl⟩
abbrev main_v451 : Ref sig .tc := ⟨.hbm, 504, rfl⟩
abbrev main_v452 : Ref sig .tc := ⟨.hbm, 505, rfl⟩
abbrev main_cst_49 : Ref sig .tc := ⟨.hbm, 506, rfl⟩
abbrev main_v453 : Ref sig .tc := ⟨.hbm, 507, rfl⟩
abbrev main_v454 : Ref sig .tc := ⟨.hbm, 508, rfl⟩
abbrev main_v455 : Ref sig .tc := ⟨.hbm, 509, rfl⟩
abbrev main_v456 : Ref sig .tc := ⟨.hbm, 510, rfl⟩
abbrev main_v457 : Ref sig .tc := ⟨.hbm, 511, rfl⟩
abbrev main_cst_50 : Ref sig .tc := ⟨.hbm, 512, rfl⟩
abbrev main_v458 : Ref sig .tc := ⟨.hbm, 513, rfl⟩
abbrev main_v459 : Ref sig .tc := ⟨.hbm, 514, rfl⟩
abbrev main_v460 : Ref sig .tc := ⟨.hbm, 515, rfl⟩
abbrev main_v461 : Ref sig .tc := ⟨.hbm, 516, rfl⟩
abbrev main_v462 : Ref sig .tc := ⟨.hbm, 517, rfl⟩
abbrev main_cst_51 : Ref sig .tc := ⟨.hbm, 518, rfl⟩
abbrev main_v463 : Ref sig .tc := ⟨.hbm, 519, rfl⟩
abbrev main_v464 : Ref sig .tc := ⟨.hbm, 520, rfl⟩
abbrev main_v465 : Ref sig .tc := ⟨.hbm, 521, rfl⟩
abbrev main_v466 : Ref sig .tc := ⟨.hbm, 522, rfl⟩
abbrev main_v467 : Ref sig .tc := ⟨.hbm, 523, rfl⟩
abbrev main_v468 : Ref sig .tc := ⟨.hbm, 524, rfl⟩
abbrev main_v469 : Ref sig .tc := ⟨.hbm, 525, rfl⟩
abbrev main_v470 : Ref sig .tc := ⟨.hbm, 526, rfl⟩
abbrev main_v471 : Ref sig .tc := ⟨.hbm, 527, rfl⟩
abbrev main_v472 : Ref sig .tc := ⟨.hbm, 528, rfl⟩
abbrev main_v473 : Ref sig .tc := ⟨.hbm, 529, rfl⟩
abbrev main_v474 : Ref sig .tc := ⟨.hbm, 530, rfl⟩
abbrev main_cst_52 : Ref sig .tc := ⟨.hbm, 531, rfl⟩
abbrev main_v475 : Ref sig .tc := ⟨.hbm, 532, rfl⟩
abbrev main_v476 : Ref sig .tc := ⟨.hbm, 533, rfl⟩
abbrev main_v477 : Ref sig .tc := ⟨.hbm, 534, rfl⟩
abbrev main_v478 : Ref sig .tc := ⟨.hbm, 535, rfl⟩
abbrev main_v479 : Ref sig .tc := ⟨.hbm, 536, rfl⟩
abbrev main_v480 : Ref sig .tc := ⟨.hbm, 537, rfl⟩
abbrev main_v481 : Ref sig .tc := ⟨.hbm, 538, rfl⟩
abbrev main_v482 : Ref sig .tc := ⟨.hbm, 539, rfl⟩
abbrev main_v483 : Ref sig .tc := ⟨.hbm, 540, rfl⟩
abbrev main_v484 : Ref sig .tc := ⟨.hbm, 541, rfl⟩
abbrev main_v485 : Ref sig .tc := ⟨.hbm, 542, rfl⟩
abbrev main_v486 : Ref sig .tc := ⟨.hbm, 543, rfl⟩
abbrev main_v487 : Ref sig .tc := ⟨.hbm, 544, rfl⟩
abbrev main_v488 : Ref sig .tc := ⟨.hbm, 545, rfl⟩
abbrev main_v489 : Ref sig .tc := ⟨.hbm, 546, rfl⟩
abbrev main_v490 : Ref sig .tc := ⟨.hbm, 547, rfl⟩
abbrev main_v491 : Ref sig .tc := ⟨.hbm, 548, rfl⟩
abbrev main_v492 : Ref sig .tc := ⟨.hbm, 549, rfl⟩
abbrev main_v493 : Ref sig .tc := ⟨.hbm, 550, rfl⟩
abbrev main_v494 : Ref sig .tc := ⟨.hbm, 551, rfl⟩
abbrev main_v495 : Ref sig .tc := ⟨.hbm, 552, rfl⟩
abbrev main_v496 : Ref sig .tc := ⟨.hbm, 553, rfl⟩
abbrev main_v497 : Ref sig .tc := ⟨.hbm, 554, rfl⟩
abbrev main_cst_53 : Ref sig .tc := ⟨.hbm, 555, rfl⟩
abbrev main_v498 : Ref sig .tc := ⟨.hbm, 556, rfl⟩
abbrev main_v499 : Ref sig .tc := ⟨.hbm, 557, rfl⟩
abbrev main_v500 : Ref sig .tc := ⟨.hbm, 558, rfl⟩
abbrev main_v501 : Ref sig .tc := ⟨.hbm, 559, rfl⟩
abbrev main_v502 : Ref sig .tc := ⟨.hbm, 560, rfl⟩
abbrev main_cst_54 : Ref sig .tc := ⟨.hbm, 561, rfl⟩
abbrev main_v503 : Ref sig .tc := ⟨.hbm, 562, rfl⟩
abbrev main_v504 : Ref sig .tc := ⟨.hbm, 563, rfl⟩
abbrev main_v505 : Ref sig .tc := ⟨.hbm, 564, rfl⟩
abbrev main_v506 : Ref sig .tc := ⟨.hbm, 565, rfl⟩
abbrev main_v507 : Ref sig .tc := ⟨.hbm, 566, rfl⟩
abbrev main_cst_55 : Ref sig .tc := ⟨.hbm, 567, rfl⟩
abbrev main_v508 : Ref sig .tc := ⟨.hbm, 568, rfl⟩
abbrev main_v509 : Ref sig .tc := ⟨.hbm, 569, rfl⟩
abbrev main_v510 : Ref sig .tc := ⟨.hbm, 570, rfl⟩
abbrev main_v511 : Ref sig .tc := ⟨.hbm, 571, rfl⟩
abbrev main_v512 : Ref sig .tc := ⟨.hbm, 572, rfl⟩
abbrev main_cst_56 : Ref sig .tc := ⟨.hbm, 573, rfl⟩
abbrev main_v513 : Ref sig .tc := ⟨.hbm, 574, rfl⟩
abbrev main_v514 : Ref sig .tc := ⟨.hbm, 575, rfl⟩
abbrev main_v515 : Ref sig .tc := ⟨.hbm, 576, rfl⟩
abbrev main_v516 : Ref sig .tc := ⟨.hbm, 577, rfl⟩
abbrev main_v517 : Ref sig .tc := ⟨.hbm, 578, rfl⟩
abbrev main_cst_57 : Ref sig .tc := ⟨.hbm, 579, rfl⟩
abbrev main_v518 : Ref sig .tc := ⟨.hbm, 580, rfl⟩
abbrev main_v519 : Ref sig .tc := ⟨.hbm, 581, rfl⟩
abbrev main_v520 : Ref sig .tc := ⟨.hbm, 582, rfl⟩
abbrev main_v521 : Ref sig .tc := ⟨.hbm, 583, rfl⟩
abbrev main_v522 : Ref sig .tc := ⟨.hbm, 584, rfl⟩
abbrev main_v523 : Ref sig .tc := ⟨.hbm, 585, rfl⟩
abbrev main_v524 : Ref sig .tc := ⟨.hbm, 586, rfl⟩
abbrev main_v525 : Ref sig .tc := ⟨.hbm, 587, rfl⟩
abbrev main_v526 : Ref sig .tc := ⟨.hbm, 588, rfl⟩
abbrev main_v527 : Ref sig .tc := ⟨.hbm, 589, rfl⟩
abbrev main_v528 : Ref sig .tc := ⟨.hbm, 590, rfl⟩
abbrev main_v529 : Ref sig .tc := ⟨.hbm, 591, rfl⟩
abbrev main_cst_58 : Ref sig .tc := ⟨.hbm, 592, rfl⟩
abbrev main_v530 : Ref sig .tc := ⟨.hbm, 593, rfl⟩
abbrev main_v531 : Ref sig .tc := ⟨.hbm, 594, rfl⟩
abbrev main_v532 : Ref sig .tc := ⟨.hbm, 595, rfl⟩
abbrev main_v533 : Ref sig .tc := ⟨.hbm, 596, rfl⟩
abbrev main_v534 : Ref sig .tc := ⟨.hbm, 597, rfl⟩
abbrev main_v535 : Ref sig .tc := ⟨.hbm, 598, rfl⟩
abbrev main_v536 : Ref sig .tc := ⟨.hbm, 599, rfl⟩
abbrev main_v537 : Ref sig .tc := ⟨.hbm, 600, rfl⟩
abbrev main_v538 : Ref sig .tc := ⟨.hbm, 601, rfl⟩
abbrev main_v539 : Ref sig .tc := ⟨.hbm, 602, rfl⟩
abbrev main_v540 : Ref sig .tc := ⟨.hbm, 603, rfl⟩
abbrev main_v541 : Ref sig .tc := ⟨.hbm, 604, rfl⟩
abbrev main_v542 : Ref sig .tc := ⟨.hbm, 605, rfl⟩
abbrev main_v543 : Ref sig .tc := ⟨.hbm, 606, rfl⟩
abbrev main_v544 : Ref sig .tc := ⟨.hbm, 607, rfl⟩
abbrev main_v545 : Ref sig .tc := ⟨.hbm, 608, rfl⟩
abbrev main_v546 : Ref sig .tc := ⟨.hbm, 609, rfl⟩
abbrev main_v547 : Ref sig .tc := ⟨.hbm, 610, rfl⟩
abbrev main_v548 : Ref sig .tc := ⟨.hbm, 611, rfl⟩
abbrev main_v549 : Ref sig .tc := ⟨.hbm, 612, rfl⟩
abbrev main_v550 : Ref sig .tc := ⟨.hbm, 613, rfl⟩
abbrev main_v551 : Ref sig .tc := ⟨.hbm, 614, rfl⟩
abbrev main_v552 : Ref sig .tc := ⟨.hbm, 615, rfl⟩
abbrev main_cst_59 : Ref sig .tc := ⟨.hbm, 616, rfl⟩
abbrev main_v553 : Ref sig .tc := ⟨.hbm, 617, rfl⟩
abbrev main_v554 : Ref sig .tc := ⟨.hbm, 618, rfl⟩
abbrev main_v555 : Ref sig .tc := ⟨.hbm, 619, rfl⟩
abbrev main_v556 : Ref sig .tc := ⟨.hbm, 620, rfl⟩
abbrev main_v557 : Ref sig .tc := ⟨.hbm, 621, rfl⟩
abbrev main_cst_60 : Ref sig .tc := ⟨.hbm, 622, rfl⟩
abbrev main_v558 : Ref sig .tc := ⟨.hbm, 623, rfl⟩
abbrev main_v559 : Ref sig .tc := ⟨.hbm, 624, rfl⟩
abbrev main_v560 : Ref sig .tc := ⟨.hbm, 625, rfl⟩
abbrev main_v561 : Ref sig .tc := ⟨.hbm, 626, rfl⟩
abbrev main_v562 : Ref sig .tc := ⟨.hbm, 627, rfl⟩
abbrev main_cst_61 : Ref sig .tc := ⟨.hbm, 628, rfl⟩
abbrev main_v563 : Ref sig .tc := ⟨.hbm, 629, rfl⟩
abbrev main_v564 : Ref sig .tc := ⟨.hbm, 630, rfl⟩
abbrev main_v565 : Ref sig .tc := ⟨.hbm, 631, rfl⟩
abbrev main_v566 : Ref sig .tc := ⟨.hbm, 632, rfl⟩
abbrev main_v567 : Ref sig .tc := ⟨.hbm, 633, rfl⟩
abbrev main_cst_62 : Ref sig .tc := ⟨.hbm, 634, rfl⟩
abbrev main_v568 : Ref sig .tc := ⟨.hbm, 635, rfl⟩
abbrev main_v569 : Ref sig .tc := ⟨.hbm, 636, rfl⟩
abbrev main_v570 : Ref sig .tc := ⟨.hbm, 637, rfl⟩
abbrev main_v571 : Ref sig .tc := ⟨.hbm, 638, rfl⟩
abbrev main_v572 : Ref sig .tc := ⟨.hbm, 639, rfl⟩
abbrev main_cst_63 : Ref sig .tc := ⟨.hbm, 640, rfl⟩
abbrev main_v573 : Ref sig .tc := ⟨.hbm, 641, rfl⟩
abbrev main_v574 : Ref sig .tc := ⟨.hbm, 642, rfl⟩
abbrev main_v575 : Ref sig .tc := ⟨.hbm, 643, rfl⟩
abbrev main_v576 : Ref sig .tc := ⟨.hbm, 644, rfl⟩
abbrev main_v577 : Ref sig .tc := ⟨.hbm, 645, rfl⟩
abbrev main_v578 : Ref sig .tc := ⟨.hbm, 646, rfl⟩
abbrev main_v579 : Ref sig .tc := ⟨.hbm, 647, rfl⟩
abbrev main_v580 : Ref sig .tc := ⟨.hbm, 648, rfl⟩
abbrev main_v581 : Ref sig .tc := ⟨.hbm, 649, rfl⟩
abbrev main_v582 : Ref sig .tc := ⟨.hbm, 650, rfl⟩
abbrev main_v583 : Ref sig .tc := ⟨.hbm, 651, rfl⟩
abbrev main_v584 : Ref sig .tc := ⟨.hbm, 652, rfl⟩
abbrev main_cst_64 : Ref sig .tc := ⟨.hbm, 653, rfl⟩
abbrev main_v585 : Ref sig .tc := ⟨.hbm, 654, rfl⟩
abbrev main_v586 : Ref sig .tc := ⟨.hbm, 655, rfl⟩
abbrev main_v587 : Ref sig .tc := ⟨.hbm, 656, rfl⟩
abbrev main_v588 : Ref sig .tc := ⟨.hbm, 657, rfl⟩
abbrev main_v589 : Ref sig .tc := ⟨.hbm, 658, rfl⟩
abbrev main_v590 : Ref sig .tc := ⟨.hbm, 659, rfl⟩
abbrev main_v591 : Ref sig .tc := ⟨.hbm, 660, rfl⟩
abbrev main_v592 : Ref sig .tc := ⟨.hbm, 661, rfl⟩
abbrev main_v593 : Ref sig .tc := ⟨.hbm, 662, rfl⟩
abbrev main_v594 : Ref sig .tc := ⟨.hbm, 663, rfl⟩
abbrev main_v595 : Ref sig .tc := ⟨.hbm, 664, rfl⟩
abbrev main_v596 : Ref sig .tc := ⟨.hbm, 665, rfl⟩
abbrev main_v597 : Ref sig .tc := ⟨.hbm, 666, rfl⟩
abbrev main_v598 : Ref sig .tc := ⟨.hbm, 667, rfl⟩
abbrev main_v599 : Ref sig .tc := ⟨.hbm, 668, rfl⟩
abbrev main_v600 : Ref sig .tc := ⟨.hbm, 669, rfl⟩
abbrev main_v601 : Ref sig .tc := ⟨.hbm, 670, rfl⟩
abbrev main_v602 : Ref sig .tc := ⟨.hbm, 671, rfl⟩
abbrev main_v603 : Ref sig .tc := ⟨.hbm, 672, rfl⟩
abbrev main_v604 : Ref sig .tc := ⟨.hbm, 673, rfl⟩
abbrev main_v605 : Ref sig .tc := ⟨.hbm, 674, rfl⟩
abbrev main_v606 : Ref sig .tc := ⟨.hbm, 675, rfl⟩
abbrev main_v607 : Ref sig .tc := ⟨.hbm, 676, rfl⟩
abbrev main_cst_65 : Ref sig .tc := ⟨.hbm, 677, rfl⟩
abbrev main_v608 : Ref sig .tc := ⟨.hbm, 678, rfl⟩
abbrev main_v609 : Ref sig .tc := ⟨.hbm, 679, rfl⟩
abbrev main_cst_66 : Ref sig .tc := ⟨.hbm, 680, rfl⟩
abbrev main_v610 : Ref sig .tc := ⟨.hbm, 681, rfl⟩
abbrev main_cst_67 : Ref sig .tc := ⟨.hbm, 682, rfl⟩
abbrev main_v611 : Ref sig .tc := ⟨.hbm, 683, rfl⟩
abbrev main_v612 : Ref sig .tc := ⟨.hbm, 684, rfl⟩
abbrev main_v613 : Ref sig .tc := ⟨.hbm, 685, rfl⟩
abbrev main_v614 : Ref sig .tc := ⟨.hbm, 686, rfl⟩
abbrev main_v615 : Ref sig .tc := ⟨.hbm, 687, rfl⟩
abbrev main_v616 : Ref sig .tc := ⟨.hbm, 688, rfl⟩
abbrev main_cst_68 : Ref sig .tc := ⟨.hbm, 689, rfl⟩
abbrev main_v617 : Ref sig .tc := ⟨.hbm, 690, rfl⟩
abbrev main_v618 : Ref sig .tc := ⟨.hbm, 691, rfl⟩
abbrev main_v619 : Ref sig .tc := ⟨.hbm, 692, rfl⟩
abbrev main_v620 : Ref sig .tc := ⟨.hbm, 693, rfl⟩
abbrev main_v621 : Ref sig .tc := ⟨.hbm, 694, rfl⟩
abbrev main_v622 : Ref sig .tc := ⟨.hbm, 695, rfl⟩

abbrev nD : Nat := 1
abbrev τ : Topo := Topo.v7x

variable {F : FTy → Type} [FloatOps F]

class Facts₀ : Prop where
  slicesBy_S1x2048x16x128_S1x1024x16x128_0s1_0s2_0s1_0s1 : S1x2048x16x128.SlicesBy (![0, 0, 0, 0] : Fin 4 → Nat) ![1, 2, 1, 1] S1x1024x16x128
  slicesBy_S1x2048x16x128_S1x1024x16x128_0s1_1s2_0s1_0s1 : S1x2048x16x128.SlicesBy (![0, 1, 0, 0] : Fin 4 → Nat) ![1, 2, 1, 1] S1x1024x16x128
  bcast_S_S1x1024x16x128 : S_.BroadcastsInDim S1x1024x16x128 (![] : Fin 0 → Fin S1x1024x16x128.rank)
  shapeCasts_S1x2048x16x128_S1x1024x2x16x128 : S1x2048x16x128.ShapeCasts S1x1024x2x16x128
  bcast_S_S1x1024x16 : S_.BroadcastsInDim S1x1024x16 (![] : Fin 0 → Fin S1x1024x16.rank)
  slices_S1x1024x2x16x128_S1x1024x1x16x128_0_0_0_0_0 : S1x1024x2x16x128.Slices ![0, 0, 0, 0, 0] S1x1024x1x16x128
  shapeCasts_S1x1024x1x16x128_S1x1024x16x128 : S1x1024x1x16x128.ShapeCasts S1x1024x16x128
  slices_S1x1024x2x16x128_S1x1024x1x16x128_0_0_1_0_0 : S1x1024x2x16x128.Slices ![0, 0, 1, 0, 0] S1x1024x1x16x128
  bcast_S1x1024x16_S1x1024x16x1_0_1_2 : S1x1024x16.BroadcastsInDim S1x1024x16x1 (![0, 1, 2] : Fin 3 → Fin S1x1024x16x1.rank)
  bcast_S1x1024x16x1_S1x1024x16x128_0_1_2_3 : S1x1024x16x1.BroadcastsInDim S1x1024x16x128 (![0, 1, 2, 3] : Fin 4 → Fin S1x1024x16x128.rank)
  slicesBy_S1x1024x16x128_S1x512x16x128_0s1_0s2_0s1_0s1 : S1x1024x16x128.SlicesBy (![0, 0, 0, 0] : Fin 4 → Nat) ![1, 2, 1, 1] S1x512x16x128
  slicesBy_S1x1024x16x128_S1x512x16x128_0s1_1s2_0s1_0s1 : S1x1024x16x128.SlicesBy (![0, 1, 0, 0] : Fin 4 → Nat) ![1, 2, 1, 1] S1x512x16x128
  bcast_S_S1x512x16x128 : S_.BroadcastsInDim S1x512x16x128 (![] : Fin 0 → Fin S1x512x16x128.rank)
  shapeCasts_S1x1024x16x128_S1x512x2x16x128 : S1x1024x16x128.ShapeCasts S1x512x2x16x128
  bcast_S_S1x512x16 : S_.BroadcastsInDim S1x512x16 (![] : Fin 0 → Fin S1x512x16.rank)
  slices_S1x512x2x16x128_S1x512x1x16x128_0_0_0_0_0 : S1x512x2x16x128.Slices ![0, 0, 0, 0, 0] S1x512x1x16x128
  shapeCasts_S1x512x1x16x128_S1x512x16x128 : S1x512x1x16x128.ShapeCasts S1x512x16x128
  slices_S1x512x2x16x128_S1x512x1x16x128_0_0_1_0_0 : S1x512x2x16x128.Slices ![0, 0, 1, 0, 0] S1x512x1x16x128
  bcast_S1x512x16_S1x512x16x1_0_1_2 : S1x512x16.BroadcastsInDim S1x512x16x1 (![0, 1, 2] : Fin 3 → Fin S1x512x16x1.rank)
  bcast_S1x512x16x1_S1x512x16x128_0_1_2_3 : S1x512x16x1.BroadcastsInDim S1x512x16x128 (![0, 1, 2, 3] : Fin 4 → Fin S1x512x16x128.rank)
  slicesBy_S1x512x16x128_S1x256x16x128_0s1_0s2_0s1_0s1 : S1x512x16x128.SlicesBy (![0, 0, 0, 0] : Fin 4 → Nat) ![1, 2, 1, 1] S1x256x16x128
  slicesBy_S1x512x16x128_S1x256x16x128_0s1_1s2_0s1_0s1 : S1x512x16x128.SlicesBy (![0, 1, 0, 0] : Fin 4 → Nat) ![1, 2, 1, 1] S1x256x16x128
  bcast_S_S1x256x16x128 : S_.BroadcastsInDim S1x256x16x128 (![] : Fin 0 → Fin S1x256x16x128.rank)
  shapeCasts_S1x512x16x128_S1x256x2x16x128 : S1x512x16x128.ShapeCasts S1x256x2x16x128
  bcast_S_S1x256x16 : S_.BroadcastsInDim S1x256x16 (![] : Fin 0 → Fin S1x256x16.rank)
  slices_S1x256x2x16x128_S1x256x1x16x128_0_0_0_0_0 : S1x256x2x16x128.Slices ![0, 0, 0, 0, 0] S1x256x1x16x128
  shapeCasts_S1x256x1x16x128_S1x256x16x128 : S1x256x1x16x128.ShapeCasts S1x256x16x128
  slices_S1x256x2x16x128_S1x256x1x16x128_0_0_1_0_0 : S1x256x2x16x128.Slices ![0, 0, 1, 0, 0] S1x256x1x16x128
  bcast_S1x256x16_S1x256x16x1_0_1_2 : S1x256x16.BroadcastsInDim S1x256x16x1 (![0, 1, 2] : Fin 3 → Fin S1x256x16x1.rank)
  bcast_S1x256x16x1_S1x256x16x128_0_1_2_3 : S1x256x16x1.BroadcastsInDim S1x256x16x128 (![0, 1, 2, 3] : Fin 4 → Fin S1x256x16x128.rank)
  slicesBy_S1x256x16x128_S1x128x16x128_0s1_0s2_0s1_0s1 : S1x256x16x128.SlicesBy (![0, 0, 0, 0] : Fin 4 → Nat) ![1, 2, 1, 1] S1x128x16x128
  slicesBy_S1x256x16x128_S1x128x16x128_0s1_1s2_0s1_0s1 : S1x256x16x128.SlicesBy (![0, 1, 0, 0] : Fin 4 → Nat) ![1, 2, 1, 1] S1x128x16x128
  bcast_S_S1x128x16x128 : S_.BroadcastsInDim S1x128x16x128 (![] : Fin 0 → Fin S1x128x16x128.rank)
  shapeCasts_S1x256x16x128_S1x128x2x16x128 : S1x256x16x128.ShapeCasts S1x128x2x16x128
  bcast_S_S1x128x16 : S_.BroadcastsInDim S1x128x16 (![] : Fin 0 → Fin S1x128x16.rank)
  slices_S1x128x2x16x128_S1x128x1x16x128_0_0_0_0_0 : S1x128x2x16x128.Slices ![0, 0, 0, 0, 0] S1x128x1x16x128
  shapeCasts_S1x128x1x16x128_S1x128x16x128 : S1x128x1x16x128.ShapeCasts S1x128x16x128
  slices_S1x128x2x16x128_S1x128x1x16x128_0_0_1_0_0 : S1x128x2x16x128.Slices ![0, 0, 1, 0, 0] S1x128x1x16x128
  bcast_S1x128x16_S1x128x16x1_0_1_2 : S1x128x16.BroadcastsInDim S1x128x16x1 (![0, 1, 2] : Fin 3 → Fin S1x128x16x1.rank)
  bcast_S1x128x16x1_S1x128x16x128_0_1_2_3 : S1x128x16x1.BroadcastsInDim S1x128x16x128 (![0, 1, 2, 3] : Fin 4 → Fin S1x128x16x128.rank)
  slicesBy_S1x128x16x128_S1x64x16x128_0s1_0s2_0s1_0s1 : S1x128x16x128.SlicesBy (![0, 0, 0, 0] : Fin 4 → Nat) ![1, 2, 1, 1] S1x64x16x128
  slicesBy_S1x128x16x128_S1x64x16x128_0s1_1s2_0s1_0s1 : S1x128x16x128.SlicesBy (![0, 1, 0, 0] : Fin 4 → Nat) ![1, 2, 1, 1] S1x64x16x128
  bcast_S_S1x64x16x128 : S_.BroadcastsInDim S1x64x16x128 (![] : Fin 0 → Fin S1x64x16x128.rank)
  shapeCasts_S1x128x16x128_S1x64x2x16x128 : S1x128x16x128.ShapeCasts S1x64x2x16x128
  bcast_S_S1x64x16 : S_.BroadcastsInDim S1x64x16 (![] : Fin 0 → Fin S1x64x16.rank)
  slices_S1x64x2x16x128_S1x64x1x16x128_0_0_0_0_0 : S1x64x2x16x128.Slices ![0, 0, 0, 0, 0] S1x64x1x16x128
  shapeCasts_S1x64x1x16x128_S1x64x16x128 : S1x64x1x16x128.ShapeCasts S1x64x16x128
  slices_S1x64x2x16x128_S1x64x1x16x128_0_0_1_0_0 : S1x64x2x16x128.Slices ![0, 0, 1, 0, 0] S1x64x1x16x128
  bcast_S1x64x16_S1x64x16x1_0_1_2 : S1x64x16.BroadcastsInDim S1x64x16x1 (![0, 1, 2] : Fin 3 → Fin S1x64x16x1.rank)
  bcast_S1x64x16x1_S1x64x16x128_0_1_2_3 : S1x64x16x1.BroadcastsInDim S1x64x16x128 (![0, 1, 2, 3] : Fin 4 → Fin S1x64x16x128.rank)
  slicesBy_S1x64x16x128_S1x32x16x128_0s1_0s2_0s1_0s1 : S1x64x16x128.SlicesBy (![0, 0, 0, 0] : Fin 4 → Nat) ![1, 2, 1, 1] S1x32x16x128
  slicesBy_S1x64x16x128_S1x32x16x128_0s1_1s2_0s1_0s1 : S1x64x16x128.SlicesBy (![0, 1, 0, 0] : Fin 4 → Nat) ![1, 2, 1, 1] S1x32x16x128
  bcast_S_S1x32x16x128 : S_.BroadcastsInDim S1x32x16x128 (![] : Fin 0 → Fin S1x32x16x128.rank)
  shapeCasts_S1x64x16x128_S1x32x2x16x128 : S1x64x16x128.ShapeCasts S1x32x2x16x128
  bcast_S_S1x32x16 : S_.BroadcastsInDim S1x32x16 (![] : Fin 0 → Fin S1x32x16.rank)
  slices_S1x32x2x16x128_S1x32x1x16x128_0_0_0_0_0 : S1x32x2x16x128.Slices ![0, 0, 0, 0, 0] S1x32x1x16x128
  shapeCasts_S1x32x1x16x128_S1x32x16x128 : S1x32x1x16x128.ShapeCasts S1x32x16x128
  slices_S1x32x2x16x128_S1x32x1x16x128_0_0_1_0_0 : S1x32x2x16x128.Slices ![0, 0, 1, 0, 0] S1x32x1x16x128
  bcast_S1x32x16_S1x32x16x1_0_1_2 : S1x32x16.BroadcastsInDim S1x32x16x1 (![0, 1, 2] : Fin 3 → Fin S1x32x16x1.rank)
  bcast_S1x32x16x1_S1x32x16x128_0_1_2_3 : S1x32x16x1.BroadcastsInDim S1x32x16x128 (![0, 1, 2, 3] : Fin 4 → Fin S1x32x16x128.rank)
  slicesBy_S1x32x16x128_S1x16x16x128_0s1_0s2_0s1_0s1 : S1x32x16x128.SlicesBy (![0, 0, 0, 0] : Fin 4 → Nat) ![1, 2, 1, 1] S1x16x16x128
  slicesBy_S1x32x16x128_S1x16x16x128_0s1_1s2_0s1_0s1 : S1x32x16x128.SlicesBy (![0, 1, 0, 0] : Fin 4 → Nat) ![1, 2, 1, 1] S1x16x16x128
  bcast_S_S1x16x16x128 : S_.BroadcastsInDim S1x16x16x128 (![] : Fin 0 → Fin S1x16x16x128.rank)
  shapeCasts_S1x32x16x128_S1x16x2x16x128 : S1x32x16x128.ShapeCasts S1x16x2x16x128
  bcast_S_S1x16x16 : S_.BroadcastsInDim S1x16x16 (![] : Fin 0 → Fin S1x16x16.rank)
  slices_S1x16x2x16x128_S1x16x1x16x128_0_0_0_0_0 : S1x16x2x16x128.Slices ![0, 0, 0, 0, 0] S1x16x1x16x128
  shapeCasts_S1x16x1x16x128_S1x16x16x128 : S1x16x1x16x128.ShapeCasts S1x16x16x128
  slices_S1x16x2x16x128_S1x16x1x16x128_0_0_1_0_0 : S1x16x2x16x128.Slices ![0, 0, 1, 0, 0] S1x16x1x16x128
  bcast_S1x16x16_S1x16x16x1_0_1_2 : S1x16x16.BroadcastsInDim S1x16x16x1 (![0, 1, 2] : Fin 3 → Fin S1x16x16x1.rank)
  bcast_S1x16x16x1_S1x16x16x128_0_1_2_3 : S1x16x16x1.BroadcastsInDim S1x16x16x128 (![0, 1, 2, 3] : Fin 4 → Fin S1x16x16x128.rank)
  slicesBy_S1x16x16x128_S1x8x16x128_0s1_0s2_0s1_0s1 : S1x16x16x128.SlicesBy (![0, 0, 0, 0] : Fin 4 → Nat) ![1, 2, 1, 1] S1x8x16x128
  slicesBy_S1x16x16x128_S1x8x16x128_0s1_1s2_0s1_0s1 : S1x16x16x128.SlicesBy (![0, 1, 0, 0] : Fin 4 → Nat) ![1, 2, 1, 1] S1x8x16x128
  bcast_S_S1x8x16x128 : S_.BroadcastsInDim S1x8x16x128 (![] : Fin 0 → Fin S1x8x16x128.rank)
  shapeCasts_S1x16x16x128_S1x8x2x16x128 : S1x16x16x128.ShapeCasts S1x8x2x16x128
  bcast_S_S1x8x16 : S_.BroadcastsInDim S1x8x16 (![] : Fin 0 → Fin S1x8x16.rank)
  slices_S1x8x2x16x128_S1x8x1x16x128_0_0_0_0_0 : S1x8x2x16x128.Slices ![0, 0, 0, 0, 0] S1x8x1x16x128
  shapeCasts_S1x8x1x16x128_S1x8x16x128 : S1x8x1x16x128.ShapeCasts S1x8x16x128
  slices_S1x8x2x16x128_S1x8x1x16x128_0_0_1_0_0 : S1x8x2x16x128.Slices ![0, 0, 1, 0, 0] S1x8x1x16x128
  bcast_S1x8x16_S1x8x16x1_0_1_2 : S1x8x16.BroadcastsInDim S1x8x16x1 (![0, 1, 2] : Fin 3 → Fin S1x8x16x1.rank)
  bcast_S1x8x16x1_S1x8x16x128_0_1_2_3 : S1x8x16x1.BroadcastsInDim S1x8x16x128 (![0, 1, 2, 3] : Fin 4 → Fin S1x8x16x128.rank)
  slicesBy_S1x8x16x128_S1x4x16x128_0s1_0s2_0s1_0s1 : S1x8x16x128.SlicesBy (![0, 0, 0, 0] : Fin 4 → Nat) ![1, 2, 1, 1] S1x4x16x128
  slicesBy_S1x8x16x128_S1x4x16x128_0s1_1s2_0s1_0s1 : S1x8x16x128.SlicesBy (![0, 1, 0, 0] : Fin 4 → Nat) ![1, 2, 1, 1] S1x4x16x128
  bcast_S_S1x4x16x128 : S_.BroadcastsInDim S1x4x16x128 (![] : Fin 0 → Fin S1x4x16x128.rank)
  shapeCasts_S1x8x16x128_S1x4x2x16x128 : S1x8x16x128.ShapeCasts S1x4x2x16x128
  bcast_S_S1x4x16 : S_.BroadcastsInDim S1x4x16 (![] : Fin 0 → Fin S1x4x16.rank)
  slices_S1x4x2x16x128_S1x4x1x16x128_0_0_0_0_0 : S1x4x2x16x128.Slices ![0, 0, 0, 0, 0] S1x4x1x16x128
  shapeCasts_S1x4x1x16x128_S1x4x16x128 : S1x4x1x16x128.ShapeCasts S1x4x16x128
  slices_S1x4x2x16x128_S1x4x1x16x128_0_0_1_0_0 : S1x4x2x16x128.Slices ![0, 0, 1, 0, 0] S1x4x1x16x128
  bcast_S1x4x16_S1x4x16x1_0_1_2 : S1x4x16.BroadcastsInDim S1x4x16x1 (![0, 1, 2] : Fin 3 → Fin S1x4x16x1.rank)
  bcast_S1x4x16x1_S1x4x16x128_0_1_2_3 : S1x4x16x1.BroadcastsInDim S1x4x16x128 (![0, 1, 2, 3] : Fin 4 → Fin S1x4x16x128.rank)
  slicesBy_S1x4x16x128_S1x2x16x128_0s1_0s2_0s1_0s1 : S1x4x16x128.SlicesBy (![0, 0, 0, 0] : Fin 4 → Nat) ![1, 2, 1, 1] S1x2x16x128
  slicesBy_S1x4x16x128_S1x2x16x128_0s1_1s2_0s1_0s1 : S1x4x16x128.SlicesBy (![0, 1, 0, 0] : Fin 4 → Nat) ![1, 2, 1, 1] S1x2x16x128
  bcast_S_S1x2x16x128 : S_.BroadcastsInDim S1x2x16x128 (![] : Fin 0 → Fin S1x2x16x128.rank)
  shapeCasts_S1x4x16x128_S1x2x2x16x128 : S1x4x16x128.ShapeCasts S1x2x2x16x128
  bcast_S_S1x2x16 : S_.BroadcastsInDim S1x2x16 (![] : Fin 0 → Fin S1x2x16.rank)
  slices_S1x2x2x16x128_S1x2x1x16x128_0_0_0_0_0 : S1x2x2x16x128.Slices ![0, 0, 0, 0, 0] S1x2x1x16x128
  shapeCasts_S1x2x1x16x128_S1x2x16x128 : S1x2x1x16x128.ShapeCasts S1x2x16x128
  slices_S1x2x2x16x128_S1x2x1x16x128_0_0_1_0_0 : S1x2x2x16x128.Slices ![0, 0, 1, 0, 0] S1x2x1x16x128
  bcast_S1x2x16_S1x2x16x1_0_1_2 : S1x2x16.BroadcastsInDim S1x2x16x1 (![0, 1, 2] : Fin 3 → Fin S1x2x16x1.rank)
  bcast_S1x2x16x1_S1x2x16x128_0_1_2_3 : S1x2x16x1.BroadcastsInDim S1x2x16x128 (![0, 1, 2, 3] : Fin 4 → Fin S1x2x16x128.rank)
  slicesBy_S1x2x16x128_S1x1x16x128_0s1_0s2_0s1_0s1 : S1x2x16x128.SlicesBy (![0, 0, 0, 0] : Fin 4 → Nat) ![1, 2, 1, 1] S1x1x16x128
  slicesBy_S1x2x16x128_S1x1x16x128_0s1_1s2_0s1_0s1 : S1x2x16x128.SlicesBy (![0, 1, 0, 0] : Fin 4 → Nat) ![1, 2, 1, 1] S1x1x16x128
  bcast_S_S1x1x16x128 : S_.BroadcastsInDim S1x1x16x128 (![] : Fin 0 → Fin S1x1x16x128.rank)
  shapeCasts_S1x2x16x128_S1x1x2x16x128 : S1x2x16x128.ShapeCasts S1x1x2x16x128
  bcast_S_S1x1x16 : S_.BroadcastsInDim S1x1x16 (![] : Fin 0 → Fin S1x1x16.rank)
  slices_S1x1x2x16x128_S1x1x1x16x128_0_0_0_0_0 : S1x1x2x16x128.Slices ![0, 0, 0, 0, 0] S1x1x1x16x128
  shapeCasts_S1x1x1x16x128_S1x1x16x128 : S1x1x1x16x128.ShapeCasts S1x1x16x128
  slices_S1x1x2x16x128_S1x1x1x16x128_0_0_1_0_0 : S1x1x2x16x128.Slices ![0, 0, 1, 0, 0] S1x1x1x16x128
  bcast_S1x1x16_S1x1x16x1_0_1_2 : S1x1x16.BroadcastsInDim S1x1x16x1 (![0, 1, 2] : Fin 3 → Fin S1x1x16x1.rank)
  bcast_S1x1x16x1_S1x1x16x128_0_1_2_3 : S1x1x16x1.BroadcastsInDim S1x1x16x128 (![0, 1, 2, 3] : Fin 4 → Fin S1x1x16x128.rank)
  concatenates_S1x1024x16x128_S1x512x16x128_S1x256x16x128_S1x128x16x128_S1x64x16x128_S1x32x16x128_S1x16x16x128_S1x8x16x128_S1x4x16x128_S1x2x16x128_S1x1x16x128_S1x2047x16x128_d1 : Shape.Concatenates [S1x1024x16x128, S1x512x16x128, S1x256x16x128, S1x128x16x128, S1x64x16x128, S1x32x16x128, S1x16x16x128, S1x8x16x128, S1x4x16x128, S1x2x16x128, S1x1x16x128] S1x2047x16x128 1
  bcast_S_S1x16x2048x2047 : S_.BroadcastsInDim S1x16x2048x2047 (![] : Fin 0 → Fin S1x16x2048x2047.rank)
  reducesTo_S1x16x2048x2047_S1x16x2048_d3 : S1x16x2048x2047.ReducesTo [3] S1x16x2048
  h_S_ : 0 < S_.numel
  bcast_S_S1x16x2048 : S_.BroadcastsInDim S1x16x2048 (![] : Fin 0 → Fin S1x16x2048.rank)
  bcast_S1x16x2048_S1x16x2048x1_0_1_2 : S1x16x2048.BroadcastsInDim S1x16x2048x1 (![0, 1, 2] : Fin 3 → Fin S1x16x2048x1.rank)
  bcast_S1x16x2048x1_S1x16x2048x2047_0_1_2_3 : S1x16x2048x1.BroadcastsInDim S1x16x2048x2047 (![0, 1, 2, 3] : Fin 4 → Fin S1x16x2048x2047.rank)
  transposes_S1x16x128x2048_S1x2048x16x128_0_3_1_2 : S1x16x128x2048.Transposes [0, 3, 1, 2] S1x2048x16x128
  dot_S1x1024x16x128_S1x1024x16x128_S1x1024x16_3_3_n_n_012_012_wf : DotDims.WF S1x1024x16x128 S1x1024x16x128 S1x1024x16 [3] [3] [] [] [0, 1, 2] [0, 1, 2]
  dot_S1x512x16x128_S1x512x16x128_S1x512x16_3_3_n_n_012_012_wf : DotDims.WF S1x512x16x128 S1x512x16x128 S1x512x16 [3] [3] [] [] [0, 1, 2] [0, 1, 2]
  dot_S1x256x16x128_S1x256x16x128_S1x256x16_3_3_n_n_012_012_wf : DotDims.WF S1x256x16x128 S1x256x16x128 S1x256x16 [3] [3] [] [] [0, 1, 2] [0, 1, 2]
  dot_S1x128x16x128_S1x128x16x128_S1x128x16_3_3_n_n_012_012_wf : DotDims.WF S1x128x16x128 S1x128x16x128 S1x128x16 [3] [3] [] [] [0, 1, 2] [0, 1, 2]
  dot_S1x64x16x128_S1x64x16x128_S1x64x16_3_3_n_n_012_012_wf : DotDims.WF S1x64x16x128 S1x64x16x128 S1x64x16 [3] [3] [] [] [0, 1, 2] [0, 1, 2]
  dot_S1x32x16x128_S1x32x16x128_S1x32x16_3_3_n_n_012_012_wf : DotDims.WF S1x32x16x128 S1x32x16x128 S1x32x16 [3] [3] [] [] [0, 1, 2] [0, 1, 2]
  dot_S1x16x16x128_S1x16x16x128_S1x16x16_3_3_n_n_012_012_wf : DotDims.WF S1x16x16x128 S1x16x16x128 S1x16x16 [3] [3] [] [] [0, 1, 2] [0, 1, 2]
  dot_S1x8x16x128_S1x8x16x128_S1x8x16_3_3_n_n_012_012_wf : DotDims.WF S1x8x16x128 S1x8x16x128 S1x8x16 [3] [3] [] [] [0, 1, 2] [0, 1, 2]
  dot_S1x4x16x128_S1x4x16x128_S1x4x16_3_3_n_n_012_012_wf : DotDims.WF S1x4x16x128 S1x4x16x128 S1x4x16 [3] [3] [] [] [0, 1, 2] [0, 1, 2]
  dot_S1x2x16x128_S1x2x16x128_S1x2x16_3_3_n_n_012_012_wf : DotDims.WF S1x2x16x128 S1x2x16x128 S1x2x16 [3] [3] [] [] [0, 1, 2] [0, 1, 2]
  dot_S1x1x16x128_S1x1x16x128_S1x1x16_3_3_n_n_012_012_wf : DotDims.WF S1x1x16x128 S1x1x16x128 S1x1x16 [3] [3] [] [] [0, 1, 2] [0, 1, 2]
  dot_S1x2048x16x128_S1x2047x16x128_S1x16x2048x2047_3_3_1_1_02_02_wf : DotDims.WF S1x2048x16x128 S1x2047x16x128 S1x16x2048x2047 [3] [3] [1] [1] [0, 2] [0, 2]
  dot_S1x2047x16x128_S1x16x2048x2047_S1x16x128x2048_1_3_3_2_02_01_wf : DotDims.WF S1x2047x16x128 S1x16x2048x2047 S1x16x128x2048 [1] [3] [3] [2] [0, 2] [0, 1]

variable [Facts₀]

def dot_S1x1024x16x128_S1x1024x16x128_S1x1024x16_3_3_n_n_012_012 : DotDims S1x1024x16x128 S1x1024x16x128 S1x1024x16 where
  lhsContracting := [3]
  rhsContracting := [3]
  lhsNonContracting := []
  rhsNonContracting := []
  lhsBatch := [0, 1, 2]
  rhsBatch := [0, 1, 2]
  wf := dot_S1x1024x16x128_S1x1024x16x128_S1x1024x16_3_3_n_n_012_012_wf
def dot_S1x512x16x128_S1x512x16x128_S1x512x16_3_3_n_n_012_012 : DotDims S1x512x16x128 S1x512x16x128 S1x512x16 where
  lhsContracting := [3]
  rhsContracting := [3]
  lhsNonContracting := []
  rhsNonContracting := []
  lhsBatch := [0, 1, 2]
  rhsBatch := [0, 1, 2]
  wf := dot_S1x512x16x128_S1x512x16x128_S1x512x16_3_3_n_n_012_012_wf
def dot_S1x256x16x128_S1x256x16x128_S1x256x16_3_3_n_n_012_012 : DotDims S1x256x16x128 S1x256x16x128 S1x256x16 where
  lhsContracting := [3]
  rhsContracting := [3]
  lhsNonContracting := []
  rhsNonContracting := []
  lhsBatch := [0, 1, 2]
  rhsBatch := [0, 1, 2]
  wf := dot_S1x256x16x128_S1x256x16x128_S1x256x16_3_3_n_n_012_012_wf
def dot_S1x128x16x128_S1x128x16x128_S1x128x16_3_3_n_n_012_012 : DotDims S1x128x16x128 S1x128x16x128 S1x128x16 where
  lhsContracting := [3]
  rhsContracting := [3]
  lhsNonContracting := []
  rhsNonContracting := []
  lhsBatch := [0, 1, 2]
  rhsBatch := [0, 1, 2]
  wf := dot_S1x128x16x128_S1x128x16x128_S1x128x16_3_3_n_n_012_012_wf
def dot_S1x64x16x128_S1x64x16x128_S1x64x16_3_3_n_n_012_012 : DotDims S1x64x16x128 S1x64x16x128 S1x64x16 where
  lhsContracting := [3]
  rhsContracting := [3]
  lhsNonContracting := []
  rhsNonContracting := []
  lhsBatch := [0, 1, 2]
  rhsBatch := [0, 1, 2]
  wf := dot_S1x64x16x128_S1x64x16x128_S1x64x16_3_3_n_n_012_012_wf
def dot_S1x32x16x128_S1x32x16x128_S1x32x16_3_3_n_n_012_012 : DotDims S1x32x16x128 S1x32x16x128 S1x32x16 where
  lhsContracting := [3]
  rhsContracting := [3]
  lhsNonContracting := []
  rhsNonContracting := []
  lhsBatch := [0, 1, 2]
  rhsBatch := [0, 1, 2]
  wf := dot_S1x32x16x128_S1x32x16x128_S1x32x16_3_3_n_n_012_012_wf
def dot_S1x16x16x128_S1x16x16x128_S1x16x16_3_3_n_n_012_012 : DotDims S1x16x16x128 S1x16x16x128 S1x16x16 where
  lhsContracting := [3]
  rhsContracting := [3]
  lhsNonContracting := []
  rhsNonContracting := []
  lhsBatch := [0, 1, 2]
  rhsBatch := [0, 1, 2]
  wf := dot_S1x16x16x128_S1x16x16x128_S1x16x16_3_3_n_n_012_012_wf
def dot_S1x8x16x128_S1x8x16x128_S1x8x16_3_3_n_n_012_012 : DotDims S1x8x16x128 S1x8x16x128 S1x8x16 where
  lhsContracting := [3]
  rhsContracting := [3]
  lhsNonContracting := []
  rhsNonContracting := []
  lhsBatch := [0, 1, 2]
  rhsBatch := [0, 1, 2]
  wf := dot_S1x8x16x128_S1x8x16x128_S1x8x16_3_3_n_n_012_012_wf
def dot_S1x4x16x128_S1x4x16x128_S1x4x16_3_3_n_n_012_012 : DotDims S1x4x16x128 S1x4x16x128 S1x4x16 where
  lhsContracting := [3]
  rhsContracting := [3]
  lhsNonContracting := []
  rhsNonContracting := []
  lhsBatch := [0, 1, 2]
  rhsBatch := [0, 1, 2]
  wf := dot_S1x4x16x128_S1x4x16x128_S1x4x16_3_3_n_n_012_012_wf
def dot_S1x2x16x128_S1x2x16x128_S1x2x16_3_3_n_n_012_012 : DotDims S1x2x16x128 S1x2x16x128 S1x2x16 where
  lhsContracting := [3]
  rhsContracting := [3]
  lhsNonContracting := []
  rhsNonContracting := []
  lhsBatch := [0, 1, 2]
  rhsBatch := [0, 1, 2]
  wf := dot_S1x2x16x128_S1x2x16x128_S1x2x16_3_3_n_n_012_012_wf
def dot_S1x1x16x128_S1x1x16x128_S1x1x16_3_3_n_n_012_012 : DotDims S1x1x16x128 S1x1x16x128 S1x1x16 where
  lhsContracting := [3]
  rhsContracting := [3]
  lhsNonContracting := []
  rhsNonContracting := []
  lhsBatch := [0, 1, 2]
  rhsBatch := [0, 1, 2]
  wf := dot_S1x1x16x128_S1x1x16x128_S1x1x16_3_3_n_n_012_012_wf
def dot_S1x2048x16x128_S1x2047x16x128_S1x16x2048x2047_3_3_1_1_02_02 : DotDims S1x2048x16x128 S1x2047x16x128 S1x16x2048x2047 where
  lhsContracting := [3]
  rhsContracting := [3]
  lhsNonContracting := [1]
  rhsNonContracting := [1]
  lhsBatch := [0, 2]
  rhsBatch := [0, 2]
  wf := dot_S1x2048x16x128_S1x2047x16x128_S1x16x2048x2047_3_3_1_1_02_02_wf
def dot_S1x2047x16x128_S1x16x2048x2047_S1x16x128x2048_1_3_3_2_02_01 : DotDims S1x2047x16x128 S1x16x2048x2047 S1x16x128x2048 where
  lhsContracting := [1]
  rhsContracting := [3]
  lhsNonContracting := [3]
  rhsNonContracting := [2]
  lhsBatch := [0, 2]
  rhsBatch := [0, 1]
  wf := dot_S1x2047x16x128_S1x16x2048x2047_S1x16x128x2048_1_3_3_2_02_01_wf

class Facts : Prop extends Facts₀ where

variable [Facts]
-- ==== Proof.Common.lean ====
/-
  The program as the launch theorem sees it, and the ghost state every module of this proof shares.

  The program runs three kernels from @main on the TensorCore: a pipeline of sixteen points that builds, per head,
  the eleven levels of pooled keys and values; one SparseCore call whose thirty-two vector subcores copy the queries
  from [row, head, lane] order into [head, row, lane] order; a second pipeline of sixteen points that attends, per
  head, over the pooled nodes. The ghost state is a product of three round structures: the four launch handshakes of
  the SparseCore call, the vector subcores' own copy semaphores, and the two pipelines' staging semaphores.
-/
import proofs.«208975_g36283883717458_cont_8to1_b_1954_30_alg».proof.KernelIdeal
import proofs.«208975_g36283883717458_cont_8to1_b_1954_30_alg».proof.Proof.Gen.KernelIdeal
import Idealize.ShloMosaic.Lib.SparseCore.Launch
import Idealize.ShloMosaic.Lib.Pipeline.Regions
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the vector subcores' copy semaphores, the pipelines' staging semaphores -/

abbrev UH : Type := URounds (GSem nD τ sig) ℕ
abbrev UK : Type := URounds (GSem nD τ sig) Unit
abbrev UP : Type := URounds (GSem nD τ sig) Unit
abbrev UU : Type := UH × (UK × UP)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

end Cert.Proof.KI

end
-- ==== Proof.LaunchDefs.lean ====
/-
  @main's host operations and the TensorCore's thread states between @main's items.

  Between two items of @main the TensorCore holds every unscoped buffer whole, at a valuation: the launch contents, then
  each reshape's result, then what a kernel leaves in its output arrays. Beside the buffers it holds what it still owes
  the SparseCore launch's handshakes before the next call.
-/
import proofs.«208975_g36283883717458_cont_8to1_b_1954_30_alg».proof.Proof.Common
import proofs.«208975_g36283883717458_cont_8to1_b_1954_30_alg».proof.Proof.Gen.KernelIdeal.Launch
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

variable (m : (ℓ : Loc nD τ sig) → Buf (Elt F) ℓ) (ρ : Dev nD → PrngReg)

/-- The prefetched tables' admissible contents: neither pipeline has a table. -/
abbrev adm : (p : Fin 2) → (pcfgs (F := F) p).Adm := fun p => (cfgs p).toPCfg_adm

/-- The three reshapes that open @main and the broadcast that closes it. -/
abbrev opQ : HloOp τ sig (Elt F) := StableHlo.reshape main_arg0 main_v0 rfl shapeCasts_S1x2048x16x128_S2048x16x128
abbrev opK : HloOp τ sig (Elt F) := StableHlo.reshape main_arg1 main_v1 rfl shapeCasts_S1x2048x16x128_S2048x16x128
abbrev opV : HloOp τ sig (Elt F) := StableHlo.reshape main_arg2 main_v2 rfl shapeCasts_S1x2048x16x128_S2048x16x128
abbrev opB : HloOp τ sig (Elt F) := StableHlo.unary main_v5 main_v6 (broadcastInDim S1x2048x16x128 ![1, 2, 3] bcast_S2048x16x128_S1x2048x16x128_1_2_3 : (⟨S2048x16x128, .f32⟩ : BufTy).Contents (Elt F) → (⟨S1x2048x16x128, .f32⟩ : BufTy).Contents (Elt F))

/-- The TensorCore's unscoped buffers: the three arguments and @main's eight intermediate arrays. -/
abbrev uc : Finset (DevRef τ sig) := Pipeline.ucRefs τ sig

theorem sub_uc_pair (x y : Ref sig .tc) (op : HloOp τ sig (Elt F)) (h : op.bufs = {Proc.devRef (τ := τ) .tc x, Proc.devRef (τ := τ) .tc y}) : op.bufs ⊆ uc :=
  Pipeline.sub_ucRefs op (by
    rw [h]; intro b hb
    rcases Finset.mem_insert.mp hb with rfl | hb
    · exact StableHlo.devRef_mem_tcRefs x
    · cases Finset.mem_singleton.mp hb; exact StableHlo.devRef_mem_tcRefs y)
theorem opQ_sub : (opQ (F := F)).bufs ⊆ uc := sub_uc_pair main_arg0 main_v0 _ rfl
theorem opK_sub : (opK (F := F)).bufs ⊆ uc := sub_uc_pair main_arg1 main_v1 _ rfl
theorem opV_sub : (opV (F := F)).bufs ⊆ uc := sub_uc_pair main_arg2 main_v2 _ rfl
theorem opB_sub : (opB (F := F)).bufs ⊆ uc := sub_uc_pair main_v5 main_v6 _ rfl

/-- Core d's unscoped buffers at launch, and after the three reshapes. -/
abbrev V0 (d : Dev nD) : Valuation τ sig (Elt F) := fun b => m (d, b)
abbrev V1 (d : Dev nD) : Valuation τ sig (Elt F) := (opV (F := F)).result ((opK (F := F)).result ((opQ (F := F)).result (V0 m d)))

/-- What the TensorCore owes before call n, its recorded waits at or below that call's band. -/
def tcOw (d : Dev nD) (n : ℕ) : sProp 𝕄 :=
  iprop(∃ W, ⌜(K (F := F)).WBelow (SparseCore.T d) W (8 * n)⌝ ∗ owes (SparseCore.T d) ((K (F := F)).Otc d n) W)

/-- A pipeline's entry as @main calls it is the pipelines' own call, lifted to the extended body table. -/
theorem lift_call (p : Fin 2) :
    (Prog.lift (TpuEff.customCall (SparseCore.inner (Pipeline.entry p)) ()) : Prog (TpuEff nD τ sig (Elt F) (SparseCore.Sig (ΛP (F := F)) 1) .tc) PUnit)
      = SparseCore.liftProg (Prog.op (TpuEff.customCall (Pipeline.entry p) ()) fun _ => .ret ⟨⟩) := rfl

end Cert.Proof.KI

end
-- ==== Proof.Launch.lean ====
/-
  The launch: every weakly fair execution of the program's thirty-five threads ends, and what the final memory holds.

  @main on the TensorCore reshapes the three arguments, runs the tree-building pipeline, starts the SparseCore call
  and waits for it, runs the attention pipeline, and broadcasts the result. Here that is proved ONCE, from the kernels'
  pieces: each pipeline's region as a record (its proof data, the body's obligation, how the region is entered from
  and left at the TensorCore's thread state), the vector subcores' task and how a SparseCore's two operands split
  among its sixteen tasks, and the launch element of the ghost state. A region is met by lifting the pipelines' own
  call to the body table extended with the SparseCore dispatch; the SparseCore call takes the queries and the array
  it fills out of the held buffers and returns them; between items the TensorCore holds every unscoped buffer whole.
-/
import proofs.«208975_g36283883717458_cont_8to1_b_1954_30_alg».proof.Proof.LaunchDefs
import proofs.«208975_g36283883717458_cont_8to1_b_1954_30_alg».proof.Proof.Gen.KernelIdeal.Launch
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Cond

variable [∀ e, Nonempty (Elt F e)]
variable (m : (ℓ : Loc nD τ sig) → Buf (Elt F) ℓ) (ρ : Dev nD → PrngReg)
variable (rdats : (p : Fin 2) → (c : Dev nD) → RDat τ (Elt F) (HIx 1) ℕ UU ℕ (cfgs p) c)

set_option backward.isDefEq.respectTransparency.types false in
set_option maxHeartbeats 1000000 in
/-- One pipeline's region as @main meets it: from the region's entry state, the level facts and the pipeline's share
    of the staging semaphores' ghost state, to its exit state. -/
theorem region_step {p : Fin 2} (R : Pipeline.RDat.RegionSeg (pcfgs (F := F)) adm rdats (none : HIx 1) defs₀ 𝒱₀ (K (F := F)).L (K (F := F)).lev p)
    (d : Dev nD) (Φ : PUnit → sProp 𝕄) :
    iprop(boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (d.tc : Thread nD τ) ∗ R.post d) -∗ Φ ⟨⟩)
        -∗ wp frame (wpE ((K (F := F)).defs (D (F := F))) 𝒱 (SparseCore.T d) none) Set.univ (Prog.lift (TpuEff.customCall (SparseCore.inner (Pipeline.entry p)) ())) Φ) := by
  rw [lift_call]
  iintro ⟨Hb, Hpre, Hlev, Hg, Ht⟩ Hk
  iapply ((K (F := F)).wp_liftProg (D (F := F)) 𝒱 (SparseCore.T d) Set.univ none _ Φ)
  iapply (Pipeline.RDat.RegionSeg.wp (pcfgs (F := F)) adm rdats (none : HIx 1) cellOf_inj EP defs₀ 𝒱₀ (K (F := F)).L (K (F := F)).lev R d none (fun _ hu => nomatch hu) (fun _ => .ret ⟨⟩) Φ)
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

/-- The two buffers the SparseCore call takes: the queries in [row, head, lane] order and the array it fills. -/
abbrev bQ : DevRef τ sig := Proc.devRef .tc main_v0
abbrev bT : DevRef τ sig := Proc.devRef .tc main_v4
abbrev scSet : Finset (DevRef τ sig) := {bQ, bT}
theorem scSet_sub : (scSet : Finset (DevRef τ sig)) ⊆ uc := by decide
theorem bQ_ne_bT : (bQ : DevRef τ sig) ≠ bT := StableHlo.devRef_ne_of_ne (by decide)

omit [FloatOps F] [∀ e, Nonempty (Elt F e)] in
theorem held_scSet (d : Dev nD) (W : Valuation τ sig (Elt F)) :
    (StableHlo.held (SparseCore.T d) scSet W : sProp 𝕄) = iprop(((d, bQ) ↦{fullShare} W bQ) ∗ ((d, bT) ↦{fullShare} W bT)) := by
  unfold StableHlo.held scSet
  rw [SparseCore.bigSep_insert' (by rw [Finset.mem_singleton]; exact bQ_ne_bT), bigSep_singleton]

omit [FloatOps F] [∀ e, Nonempty (Elt F e)] in
/-- The held set with the call's two buffers taken out. -/
theorem held_take (d : Dev nD) (W : Valuation τ sig (Elt F)) :
    (StableHlo.held (SparseCore.T d) uc W : sProp 𝕄)
      = iprop((((d, bQ) ↦{fullShare} W bQ) ∗ ((d, bT) ↦{fullShare} W bT)) ∗ StableHlo.held (SparseCore.T d) (uc \ scSet) W) := by
  rw [StableHlo.held_sub_split (SparseCore.T d) scSet_sub W, held_scSet]

omit [FloatOps F] [∀ e, Nonempty (Elt F e)] in
/-- and put back, the filled array at its new contents. -/
theorem held_put (d : Dev nD) (W : Valuation τ sig (Elt F)) (t' : Buf (Elt F) (d, (bT : DevRef τ sig))) :
    (iprop((((d, bQ) ↦{fullShare} W bQ) ∗ ((d, bT) ↦{fullShare} t')) ∗ StableHlo.held (SparseCore.T d) (uc \ scSet) W) : sProp 𝕄)
      = StableHlo.held (SparseCore.T d) uc (Function.update W bT t') := by
  rw [held_take d (Function.update W bT t'), Function.update_of_ne bQ_ne_bT, Function.update_self,
    StableHlo.held_congr (SparseCore.T d) (S := uc \ scSet) (V := Function.update W bT t') (V' := W) fun b hb =>
      Function.update_of_ne (fun e => (Finset.mem_sdiff.mp hb).2 (by rw [e]; exact Finset.mem_insert_of_mem (Finset.mem_singleton_self _))) _ _]

/-- The rest of the TensorCore's handshake state before call n: its position on its done cell, the rounds reached, the
    start duties' tokens and credit for the calls still to come. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [∀ e, Nonempty (Elt F e)] in
theorem tcSt_split (d : Dev nD) (n : ℕ) : (K (F := F)).tcSt EH d n = iprop(tcOw (F := F) d n ∗ tcRest (F := F) d n) := rfl

variable (P : (K (F := F)).Pay (nD := nD) (Val := Elt F) (Name := ℕ) (U := UU))
variable (V2 : Dev nD → Valuation τ sig (Elt F)) (T' : (d : Dev nD) → Buf (Elt F) (d, (bT : DevRef τ sig)))
-- what is known of the valuation the attention pipeline leaves: its output array is constrained, not named
variable (G4 : (d : Dev nD) → Valuation τ sig (Elt F) → Prop)

/-- After the SparseCore call the filled array holds the reordered queries; nothing else has changed. -/
abbrev V3 (d : Dev nD) : Valuation τ sig (Elt F) := Function.update (V2 d) bT (T' d)

variable (R0 : Pipeline.RDat.RegionSeg (pcfgs (F := F)) adm rdats (none : HIx 1) defs₀ 𝒱₀ (K (F := F)).L (K (F := F)).lev 0)
variable (R1 : Pipeline.RDat.RegionSeg (pcfgs (F := F)) adm rdats (none : HIx 1) defs₀ 𝒱₀ (K (F := F)).L (K (F := F)).lev 1)

/-- What @main leaves on the TensorCore: every unscoped buffer whole, at the closing broadcast's result of a valuation the
    attention pipeline may leave. -/
def FIN (d : Dev nD) : sProp 𝕄 := iprop(∃ W4, ⌜G4 d W4⌝ ∗ StableHlo.held (SparseCore.T d) uc ((opB (F := F)).result W4))

/-- The pipelines' ghost state the launch deals each TensorCore. -/
abbrev Gd (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

set_option backward.isDefEq.respectTransparency.types false in
set_option maxHeartbeats 2000000 in
/-- @main on device d's TensorCore: three reshapes, the tree-building pipeline, the SparseCore call, the attention pipeline,
    the closing broadcast — given each region's record entered from and left at the thread states written here, and what
    the SparseCore call takes and returns. -/
theorem hmain
    (hpre0 : ∀ d, iprop(StableHlo.held (SparseCore.T d) uc (V1 m d) ∗ tcOw (F := F) d 0) ⊢ R0.pre d)
    (hpost0 : ∀ d, R0.post d ⊢ iprop(StableHlo.held (SparseCore.T d) uc (V2 d) ∗ tcOw (F := F) d 0))
    (hpre1 : ∀ d, iprop(StableHlo.held (SparseCore.T d) uc (V3 V2 T' d) ∗ tcOw (F := F) d 1) ⊢ R1.pre d)
    (hpost1 : ∀ d, R1.post d ⊢ iprop(∃ W4, ⌜G4 d W4⌝ ∗ StableHlo.held (SparseCore.T d) uc W4 ∗ tcOw (F := F) d 1))
    (hst : ∀ d, (bigSep Finset.univ fun c : Fin ((K (F := F)).nCore 0) => P.st 0 d c) = iprop(((d, bQ) ↦{fullShare} V2 d bQ) ∗ ((d, bT) ↦{fullShare} V2 d bT)))
    (hdn : ∀ d, (bigSep Finset.univ fun c : Fin ((K (F := F)).nCore 0) => P.dn 0 d c) = iprop(((d, bQ) ↦{fullShare} V2 d bQ) ∗ ((d, bT) ↦{fullShare} T' d)))
    (κ : GSem nD τ sig → ℕ) (d : Dev nD) :
    iprop((K (F := F)).ctx EH P κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN G4 d) := by
  unfold SparseCore.Cfg.tcRes
  rw [Pipeline.unscopedBufs_held d (V0 m d), tcSt_split, tcSt_split]
  simp only [main, wp_bind, wp_pure]
  iintro ⟨#Hctx, ⟨How, Hrest⟩, ⟨Hb, Hh, Hs0, Hg⟩, ⟨⟨Hg0, Ht0⟩, ⟨Hg1, Ht1⟩⟩⟩
  ihave #Hlev := (SparseCore.Cfg.ctx_levAts κ) $$ Hctx
  -- the three reshapes
  iapply (StableHlo.wp_hlo_within 𝒱 (SparseCore.T d) none Set.univ (op := opQ) opQ_sub (V := V0 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opK) opK_sub) $$ [Hb Hh]
  · isplitl [Hb]; · iexact Hb
    iexact Hh
  iintro ⟨Hb, Hh⟩
  rw [wp_ret]; imodintro
  iapply (StableHlo.wp_hlo_within 𝒱 (SparseCore.T d) none Set.univ (op := opV) opV_sub) $$ [Hb Hh]
  · isplitl [Hb]; · iexact Hb
    iexact Hh
  iintro ⟨Hb, Hh⟩
  rw [wp_ret]; imodintro
  -- the tree-building pipeline
  iapply (region_step rdats R0 d _) $$ [Hb Hh How Hg0 Ht0]
  · isplitl [Hb]; · iexact Hb
    isplitl [Hh How]
    · iapply (hpre0 d)
      isplitl [Hh]; · iexact Hh
      iexact How
    isplitr; · iexact Hlev
    isplitl [Hg0]; · iexact Hg0
    iexact Ht0
  iintro ⟨Hb, Hpost⟩
  ihave Hpost' := (hpost0 d) $$ Hpost
  icases Hpost' with ⟨Hh, How⟩
  -- the SparseCore call: the queries and the array it fills go out and come back
  ihave Hh' := (Entails.of_eq (held_take d (V2 d))) $$ Hh
  icases Hh' with ⟨⟨HQ, HT⟩, Hrst⟩
  iapply ((K (F := F)).wp_run (D (F := F)) 𝒱 (EH := EH) (P := P) κ d 0) $$ [How Hrest HQ HT Hb Hrst Hs0 Hg Hg1 Ht1]
  isplitr; · iexact Hctx
  isplitl [How Hrest]
  · rw [tcSt_split]
    isplitl [How]; · iexact How
    iexact Hrest
  isplitl [HQ HT]
  · rw [hst]
    isplitl [HQ]; · iexact HQ
    iexact HT
  iintro ⟨Hst, Hdn⟩
  ihave Hst' := (Entails.of_eq (tcSt_split (F := F) d _)) $$ Hst
  icases Hst' with ⟨How, Hrest⟩
  ihave Hdn' := (Entails.of_eq (hdn d)) $$ Hdn
  icases Hdn' with ⟨HQ, HT⟩
  ihave Hh := (Entails.of_eq (held_put d (V2 d) (T' d))) $$ [HQ HT Hrst]
  · isplitr [Hrst]
    · isplitl [HQ]; · iexact HQ
      iexact HT
    iexact Hrst
  -- the attention pipeline
  iapply (region_step rdats R1 d _) $$ [Hb Hh How Hg1 Ht1]
  · isplitl [Hb]; · iexact Hb
    isplitl [Hh How]
    · iapply (hpre1 d)
      isplitl [Hh]; · iexact Hh
      iexact How
    isplitr; · iexact Hlev
    isplitl [Hg1]; · iexact Hg1
    iexact Ht1
  iintro ⟨Hb, Hpost⟩
  ihave Hpost' := (hpost1 d) $$ Hpost
  icases Hpost' with ⟨%W4, %hG4, Hh, How⟩
  -- the closing broadcast
  iapply (StableHlo.wp_hlo_within 𝒱 (SparseCore.T d) none Set.univ (op := opB) opB_sub) $$ [Hb Hh]
  · isplitl [Hb]; · iexact Hb
    iexact Hh
  iintro ⟨Hb, Hh⟩
  rw [wp_ret]; imodintro
  imodintro
  isplitl [How Hrest]
  · isplitl [How]; · iexact How
    iexact Hrest
  unfold FIN
  iexists W4
  isplitr; · ipureintro; exact hG4
  iexact Hh

end Cond

section Run

variable [∀ e, Nonempty (Elt F e)]
variable (m : (ℓ : Loc nD τ sig) → Buf (Elt F) ℓ) (ρ : Dev nD → PrngReg)
variable (rdats : (p : Fin 2) → (c : Dev nD) → RDat τ (Elt F) (HIx 1) ℕ UU ℕ (cfgs p) c)
variable (P : (K (F := F)).Pay (nD := nD) (Val := Elt F) (Name := ℕ) (U := UU))
variable (V2 : Dev nD → Valuation τ sig (Elt F)) (T' : (d : Dev nD) → Buf (Elt F) (d, (bT : DevRef τ sig)))
variable (G4 : (d : Dev nD) → Valuation τ sig (Elt F) → Prop)
variable (R0 : Pipeline.RDat.RegionSeg (pcfgs (F := F)) adm rdats (none : HIx 1) defs₀ 𝒱₀ (K (F := F)).L (K (F := F)).lev 0)
variable (R1 : Pipeline.RDat.RegionSeg (pcfgs (F := F)) adm rdats (none : HIx 1) defs₀ 𝒱₀ (K (F := F)).L (K (F := F)).lev 1)

omit [FloatOps F] [∀ e, Nonempty (Elt F e)] in
theorem bigSep_F2 (Φ : Fin 2 → sProp 𝕄) : bigSep Finset.univ Φ = iprop(Φ (0 : Fin 2) ∗ Φ (1 : Fin 2)) :=
  bigSep_univ_eq_bigSepL [(0 : Fin 2), (1 : Fin 2)] (by decide) (by decide) Φ

/-- The launch element: the handshakes' rounds, the vector subcores' copy cells (an element uk₀ of the certificate's
    choosing, which its own lemma turns into the cells' kits), the two pipelines' staging cells. -/
def u₀ (uk₀ : UK) : UU :=
  (initOf (K (F := F)).hsCells (K (F := F)).hsToks,
    (uk₀, initOf (Pipeline.cells (Pipeline.pin (pcfgs (F := F)) adm) cellOf_inj) (Pipeline.launchToks (Pipeline.pin (pcfgs (F := F)) adm) cellOf_inj)))

omit [∀ e, Nonempty (Elt F e)] in
/-- The pipelines' ghost state, funded for every core and pipeline at once, dealt per TensorCore. -/
theorem deal_Gd_core (c : Dev nD) :
    (iprop((bigSep Finset.univ fun p : Fin 2 => Pipeline.cellsGhost (Pipeline.pin (pcfgs (F := F)) adm) EP p c)
        ∗ (bigSep Finset.univ fun p : Fin 2 => (Pipeline.toksInit (Pipeline.pin (pcfgs (F := F)) adm) EP p c : sProp 𝕄))) : sProp 𝕄)
      ⊢ Gd (F := F) c := by
  rw [bigSep_F2, bigSep_F2]
  iintro ⟨⟨A0, A1⟩, ⟨B0, B1⟩⟩
  isplitl [A0 B0]
  · isplitl [A0]; · iexact A0
    iexact B0
  isplitl [A1]; · iexact A1
  iexact B1

omit [∀ e, Nonempty (Elt F e)] in
theorem deal_Gd :
    (iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄))) : sProp 𝕄)
      ⊢ bigSep Finset.univ fun d : Dev nD => Gd (F := F) d := by
  rw [← bigSep_sep']
  exact bigSep_mono fun c _ => deal_Gd_core c

set_option backward.isDefEq.respectTransparency.types false in
theorem hu₀ (uk₀ : UK)
    (hkits : (BI.own (EK uk₀) : sProp 𝕄) ⊢ iprop(|==> bigSep Finset.univ fun thr : Thread nD τ => bigSep Finset.univ fun q : Fin 1 => P.x q thr)) :
    (iprop(ownU (u₀ (F := F) uk₀) ∗ P.oxCred ∗ (K (F := F)).freeSems0) : sProp 𝕄)
      ⊢ |={Set.univ}=> iprop(BI.own (EH (initOf (K (F := F)).hsCells (K (F := F)).hsToks)) ∗ (bigSep Finset.univ fun d : Dev nD => Gd (F := F) d)
          ∗ bigSep Finset.univ fun thr : Thread nD τ => bigSep Finset.univ fun q : Fin 1 => P.x q thr) := by
  unfold u₀
  iintro ⟨Hu, -, -⟩
  ihave H := (ownU_pair _ _) $$ Hu
  icases H with ⟨HH, HKP⟩
  ihave H2 := (own_pair_emb (embR (A := UH) (B := UK × UP)) uk₀ _) $$ HKP
  icases H2 with ⟨HK, HP⟩
  ihave HK' := (Entails.of_eq (show (BI.own (((Emb.inl : Emb UK (UK × UP)).trans (embR (A := UH) (B := UK × UP))) uk₀) : sProp 𝕄) = BI.own (EK uk₀) from rfl)) $$ HK
  ihave HP' := (Entails.of_eq (show (BI.own (((Emb.inr : Emb UP (UK × UP)).trans (embR (A := UH) (B := UK × UP))) (initOf (Pipeline.cells (Pipeline.pin (pcfgs (F := F)) adm) cellOf_inj) (Pipeline.launchToks (Pipeline.pin (pcfgs (F := F)) adm) cellOf_inj))) : sProp 𝕄)
      = BI.own (EP (initOf (Pipeline.cells (Pipeline.pin (pcfgs (F := F)) adm) cellOf_inj) (Pipeline.launchToks (Pipeline.pin (pcfgs (F := F)) adm) cellOf_inj))) from rfl)) $$ HP
  imod hkits $$ HK' with Hkits
  imod (Pipeline.fund_ghost (Pipeline.pin (pcfgs (F := F)) adm) EP cellOf_inj) $$ HP' with ⟨Hg, Ht⟩
  imodintro
  isplitl [HH]; · iexact HH
  isplitl [Hg Ht]
  · iapply deal_Gd
    isplitl [Hg]; · iexact Hg
    iexact Ht
  iexact Hkits

/-- What a final memory must hold on device d: every unscoped buffer of the TensorCore at the last valuation. -/
def fq (d : Dev nD) (s' : Phys nD τ sig (Elt F)) : Prop :=
  ∃ W4, G4 d W4 ∧ ∀ b ∈ (uc : Finset (DevRef τ sig)), s'.mem.mem (d, b) = (opB (F := F)).result W4 b

omit [∀ e, Nonempty (Elt F e)] in
theorem hfin (d : Dev nD) (s' : Phys nD τ sig (Elt F)) : iprop(FIN G4 d ∗ SI s') ⊢ (⌜fq G4 d s'⌝ : sProp 𝕄) := by
  unfold FIN StableHlo.held
  iintro ⟨⟨%W4, %hG4, Hh⟩, HSI⟩
  ihave Hr := (pointsTo_read_all (uc : Finset (DevRef τ sig)) (fun b => (d, b)) ((opB (F := F)).result W4) s') $$ [Hh HSI]
  · isplitl [Hh] <;> iassumption
  icases Hr with ⟨%h, -⟩
  ipureintro; exact ⟨W4, hG4, h⟩

/-- The run's post: on every device every unscoped buffer of the TensorCore — the three arguments, @main's intermediate
    arrays and its result — holds the last valuation's contents. -/
def QC : PUnit × MemSt nD τ sig (Elt F) → Prop := fun r =>
  ∀ c : Dev nD, ∃ W4, G4 c W4 ∧ ∀ b ∈ (uc : Finset (DevRef τ sig)), r.2.mem (c, b) = (opB (F := F)).result W4 b

/-- THE RUN, given the kernels' pieces: each region's record entered from and left at @main's thread states, the
    vector subcores' task and how a SparseCore's operands split among them, and the launch element of their cells. -/
theorem run_cond [P.IsStorable] (uk₀ : UK) (hheld : P.held = ∅)
    (htile : (K (F := F)).TileObl (D (F := F)) 𝒱 P v₀ 0) (hvec : (K (F := F)).VecSplit' P 0)
    (hkits : (BI.own (EK uk₀) : sProp 𝕄) ⊢ iprop(|==> bigSep Finset.univ fun thr : Thread nD τ => bigSep Finset.univ fun q : Fin 1 => P.x q thr))
    (hpre0 : ∀ d, iprop(StableHlo.held (SparseCore.T d) uc (V1 m d) ∗ tcOw (F := F) d 0) ⊢ R0.pre d)
    (hpost0 : ∀ d, R0.post d ⊢ iprop(StableHlo.held (SparseCore.T d) uc (V2 d) ∗ tcOw (F := F) d 0))
    (hpre1 : ∀ d, iprop(StableHlo.held (SparseCore.T d) uc (V3 V2 T' d) ∗ tcOw (F := F) d 1) ⊢ R1.pre d)
    (hpost1 : ∀ d, R1.post d ⊢ iprop(∃ W4, ⌜G4 d W4⌝ ∗ StableHlo.held (SparseCore.T d) uc W4 ∗ tcOw (F := F) d 1))
    (hst : ∀ d, (bigSep Finset.univ fun c : Fin ((K (F := F)).nCore 0) => P.st 0 d c) = iprop(((d, bQ) ↦{fullShare} V2 d bQ) ∗ ((d, bT) ↦{fullShare} V2 d bT)))
    (hdn : ∀ d, (bigSep Finset.univ fun c : Fin ((K (F := F)).nCore 0) => P.dn 0 d c) = iprop(((d, bQ) ↦{fullShare} V2 d bQ) ∗ ((d, bT) ↦{fullShare} T' d))) :
    θ_run (Cert.KernelIdeal.defs (F := F)) (Cert.KernelIdeal.threads (F := F)) ⟨m, fun _ => 0, ρ⟩ (QC G4) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => Gd (F := F) d) (FIN G4) (u₀ (F := F) uk₀) (hu₀ P uk₀ hkits)
    (hmain m ρ rdats P V2 T' G4 R0 R1 hpre0 hpost0 hpre1 hpost1 hst hdn) (fq G4) (hfin G4) (QC G4) (fun _ h => h) (hheld := hheld)

end Run

end Cert.Proof.KI

end
-- ==== Proof.ScSide.lean ====
/-
  The SparseCore call of the program: thirty-two vector subcores copy the queries from [row, head, lane] order
  into [head, row, lane] order. Vector subcore (c, s) takes head s and the rows 1024 c … 1024 c + 1023, in two
  chunks of 512 rows; each chunk goes from the query array into the subcore's 512 × 128 scratch and from the
  scratch into the transposed array, each of the four copies on a semaphore of its own and waited for before the
  scratch is touched again.

  Here: the transposed array as a function of the queries; the index sets a subcore's chunks occupy in the two
  arrays and that they tile both arrays; what the launch's handshakes carry; the body at a symbolic subcore; the
  ghost state of the subcores' copy semaphores.
-/
import proofs.«208975_g36283883717458_cont_8to1_b_1954_30_alg».proof.Proof.Common
import Idealize.ShloMosaic.Lib.SparseCore.Launch
import Idealize.ShloMosaic.Lib.Tactic
import Idealize.ShloMosaic.Lib.ValueLayout

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The value: the head axis brought to the front -/

/-- The query array and the transposed array, as locations of device `d`. -/
abbrev qLoc (d : Dev nD) : Loc nD τ sig := (SparseCore.T d).loc main_v0
abbrev oLoc (d : Dev nD) : Loc nD τ sig := (SparseCore.T d).loc main_v4

/-- The index of the query array that entry `j = (h, r, l)` of the transposed array is read from: `(r, h, l)`. -/
def trIdx (j : S16x2048x128.Idx) : S2048x16x128.Idx := ix3 (j 1) (j 0) (j 2)

/-- The transposed array: entry `(h, r, l)` is entry `(r, h, l)` of the queries. -/
def qT {d : Dev nD} (x : Buf (Elt F) (qLoc d)) : Buf (Elt F) (oLoc d) :=
  fun j => x (trIdx j)

theorem qT_apply {d : Dev nD} (x : Buf (Elt F) (qLoc d)) (h : Fin 16) (r : Fin 2048) (l : Fin 128) :
    qT x (ix3 h r l) = x (ix3 r h l) := rfl

/-! ## Where a subcore's chunks lie -/

/-- The offsets of chunk `r` of subcore `L` in the query array: rows from `1024 c + 512 r`, head `s`, every lane; -/
theorem k1_off1_eq0 : ∀ (L : grid1.Coords) (r : Fin 2), k1_off1 L (BitVec.ofNat 32 (512 * r.val)) 0 = 1024 * (L 0).val + 512 * r.val := by decide +kernel
theorem k1_off1_eq1 : ∀ (L : grid1.Coords) (r : Fin 2), k1_off1 L (BitVec.ofNat 32 (512 * r.val)) 1 = (L 1).val := by decide +kernel
theorem k1_off1_eq2 : ∀ (L : grid1.Coords) (r : Fin 2), k1_off1 L (BitVec.ofNat 32 (512 * r.val)) 2 = 0 := by decide +kernel
/-- and in the transposed array: head `s`, rows from `1024 c + 512 r`, every lane. -/
theorem k1_off2_eq0 : ∀ (L : grid1.Coords) (r : Fin 2), k1_off2 L (BitVec.ofNat 32 (512 * r.val)) 0 = (L 1).val := by decide +kernel
theorem k1_off2_eq1 : ∀ (L : grid1.Coords) (r : Fin 2), k1_off2 L (BitVec.ofNat 32 (512 * r.val)) 1 = 1024 * (L 0).val + 512 * r.val := by decide +kernel
theorem k1_off2_eq2 : ∀ (L : grid1.Coords) (r : Fin 2), k1_off2 L (BitVec.ofNat 32 (512 * r.val)) 2 = 0 := by decide +kernel

abbrev qV : Memref sig .scVector .hbm S2048x16x128 .f32 := Memref.whole main_v0_scv
abbrev oV : Memref sig .scVector .hbm S16x2048x128 .f32 := Memref.whole main_v4_scv
abbrev sV : Memref sig .scVector .vmem S512x128 .f32 := Memref.whole cc1_scratch0

/-- Chunk `r` of subcore `L` in the query array, as a rectangle: 512 rows, one head, every lane. -/
abbrev srcR (L : grid1.Coords) (r : Fin 2) : Rect S2048x16x128 :=
  Rect.unit (s := S2048x16x128) (k1_off1 L (BitVec.ofNat 32 (512 * r.val))) S512x1x128.size (k1_off1_inb L r)
/-- and in the transposed array: one head, 512 rows, every lane. -/
abbrev dstR (L : grid1.Coords) (r : Fin 2) : Rect S16x2048x128 :=
  Rect.unit (s := S16x2048x128) (k1_off2 L (BitVec.ofNat 32 (512 * r.val))) S1x512x128.size (k1_off2_inb L r)
/-- The two chunks as the body slices them, squeezed to 512 × 128. -/
abbrev srcM (L : grid1.Coords) (r : Fin 2) : Memref sig .scVector .hbm S512x128 .f32 :=
  ((qV : Memref sig .scVector .hbm S2048x16x128 .f32).slice (srcR L r) (fun _ => rfl)).squeeze S512x128 squeezes_S512x1x128_S512x128
abbrev dstM (L : grid1.Coords) (r : Fin 2) : Memref sig .scVector .hbm S512x128 .f32 :=
  ((oV : Memref sig .scVector .hbm S16x2048x128 .f32).slice (dstR L r) (fun _ => rfl)).squeeze S512x128 squeezes_S1x512x128_S512x128
abbrev srcSet (L : grid1.Coords) (r : Fin 2) : Finset S2048x16x128.Idx := (srcM L r).view.set
abbrev dstSet (L : grid1.Coords) (r : Fin 2) : Finset S16x2048x128.Idx := (dstM L r).view.set

theorem srcSet_eq (L : grid1.Coords) (r : Fin 2) : srcSet L r = (srcR L r).set := by
  show (((View.whole (main_v0_scv : Ref sig .scVector)).slice (srcR L r)).reshape S512x128 squeezes_S512x1x128_S512x128.numel_eq).set = _
  rw [View.set_reshape, View.set_slice]; exact Finset.map_refl
theorem dstSet_eq (L : grid1.Coords) (r : Fin 2) : dstSet L r = (dstR L r).set := by
  show (((View.whole (main_v4_scv : Ref sig .scVector)).slice (dstR L r)).reshape S512x128 squeezes_S1x512x128_S512x128.numel_eq).set = _
  rw [View.set_reshape, View.set_slice]; exact Finset.map_refl

/-- An index of the query array lies in chunk `r` of subcore `L` when its row is one of the chunk's 512 and its head
    is the subcore's. -/
theorem mem_srcSet {L : grid1.Coords} {r : Fin 2} {j : S2048x16x128.Idx} :
    j ∈ srcSet L r ↔ (1024 * (L 0).val + 512 * r.val ≤ (j 0).val ∧ (j 0).val < 1024 * (L 0).val + 512 * r.val + 512) ∧ (j 1).val = (L 1).val := by
  rw [srcSet_eq, Rect.mem_set_unit]
  have e0 : S512x1x128.size 0 = 512 := rfl
  have e1 : S512x1x128.size 1 = 1 := rfl
  have e2 : S512x1x128.size 2 = 128 := rfl
  constructor
  · intro h
    have h0 := h 0; have h1 := h 1
    rw [k1_off1_eq0 L r, e0] at h0; rw [k1_off1_eq1 L r, e1] at h1
    exact ⟨⟨h0.1, h0.2⟩, by omega⟩
  · rintro ⟨⟨h0, h0'⟩, h1⟩ a
    have hj2 : (j 2).val < 128 := (j 2).isLt
    match a with
    | 0 => rw [k1_off1_eq0 L r, e0]; exact ⟨h0, h0'⟩
    | 1 => rw [k1_off1_eq1 L r, e1]; omega
    | 2 => rw [k1_off1_eq2 L r, e2]; omega

/-- An index of the transposed array lies in chunk `r` of subcore `L` when its head is the subcore's and its row one
    of the chunk's. -/
theorem mem_dstSet {L : grid1.Coords} {r : Fin 2} {j : S16x2048x128.Idx} :
    j ∈ dstSet L r ↔ (j 0).val = (L 1).val ∧ (1024 * (L 0).val + 512 * r.val ≤ (j 1).val ∧ (j 1).val < 1024 * (L 0).val + 512 * r.val + 512) := by
  rw [dstSet_eq, Rect.mem_set_unit]
  have e0 : S1x512x128.size 0 = 1 := rfl
  have e1 : S1x512x128.size 1 = 512 := rfl
  have e2 : S1x512x128.size 2 = 128 := rfl
  constructor
  · intro h
    have h0 := h 0; have h1 := h 1
    rw [k1_off2_eq0 L r, e0] at h0; rw [k1_off2_eq1 L r, e1] at h1
    exact ⟨by omega, ⟨h1.1, h1.2⟩⟩
  · rintro ⟨h0, h1, h1'⟩ a
    have hj2 : (j 2).val < 128 := (j 2).isLt
    match a with
    | 0 => rw [k1_off2_eq0 L r, e0]; omega
    | 1 => rw [k1_off2_eq1 L r, e1]; exact ⟨h1, h1'⟩
    | 2 => rw [k1_off2_eq2 L r, e2]; omega

/-! ## The value a chunk's two copies leave -/

/-- An index `(x, y)` matched with shape `[a, 1, b]` is `(x, 0, y)`. -/
theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-- Element `(k0, k1)` of chunk `r` of subcore `L` sits in the query array at row `1024 c + 512 r + k0`, head `s`,
    lane `k1`. -/
theorem srcM_emb (L : grid1.Coords) (r : Fin 2) (k0 : Fin 512) (k1 : Fin 128) (a : Fin 3) :
    (((srcM L r).view.emb (ix2 k0 k1) : S2048x16x128.Idx) a : ℕ)
      = k1_off1 L (BitVec.ofNat 32 (512 * r.val)) a + ((ix3 k0 (⟨0, Nat.one_pos⟩ : Fin 1) k1 : (⟨3, ![512, 1, 128]⟩ : Shape).Idx) a : ℕ) := by
  have e : Shape.reshapeEquiv (s := S512x1x128) (s' := S512x128) squeezes_S512x1x128_S512x128.numel_eq (ix2 k0 k1)
      = ix3 k0 (⟨0, Nat.one_pos⟩ : Fin 1) k1 := reshapeEquiv_ix2_a1b _ k0 k1
  show k1_off1 L (BitVec.ofNat 32 (512 * r.val)) a
      + 1 * ((Shape.reshapeEquiv (s := S512x1x128) (s' := S512x128) squeezes_S512x1x128_S512x128.numel_eq (ix2 k0 k1) : S512x1x128.Idx) a : ℕ) = _
  rw [e, Nat.one_mul]
/-- and in the transposed array at head `s`, row `1024 c + 512 r + k0`, lane `k1`. -/
theorem dstM_emb (L : grid1.Coords) (r : Fin 2) (k0 : Fin 512) (k1 : Fin 128) (a : Fin 3) :
    (((dstM L r).view.emb (ix2 k0 k1) : S16x2048x128.Idx) a : ℕ)
      = k1_off2 L (BitVec.ofNat 32 (512 * r.val)) a + ((ix3 (⟨0, Nat.one_pos⟩ : Fin 1) k0 k1 : (⟨3, ![1, 512, 128]⟩ : Shape).Idx) a : ℕ) := by
  have e : Shape.reshapeEquiv (s := S1x512x128) (s' := S512x128) squeezes_S1x512x128_S512x128.numel_eq (ix2 k0 k1)
      = ix3 (⟨0, Nat.one_pos⟩ : Fin 1) k0 k1 := reshapeEquiv_ix2_1ab _ k0 k1
  show k1_off2 L (BitVec.ofNat 32 (512 * r.val)) a
      + 1 * ((Shape.reshapeEquiv (s := S1x512x128) (s' := S512x128) squeezes_S1x512x128_S512x128.numel_eq (ix2 k0 k1) : S1x512x128.Idx) a : ℕ) = _
  rw [e, Nat.one_mul]

/-- The place a chunk's element takes in the transposed array is, heads and rows exchanged, its place in the queries. -/
theorem tr_emb (L : grid1.Coords) (r : Fin 2) (k : S512x128.Idx) : trIdx ((dstM L r).view.emb k) = (srcM L r).view.emb k := by
  obtain ⟨k0, k1, rfl⟩ : ∃ (k0 : Fin 512) (k1 : Fin 128), k = ix2 k0 k1 := ⟨k 0, k 1, eq_ix2 k⟩
  funext a
  apply Fin.ext
  match a with
  | 0 =>
    show (((dstM L r).view.emb (ix2 k0 k1) : S16x2048x128.Idx) 1 : ℕ) = (((srcM L r).view.emb (ix2 k0 k1) : S2048x16x128.Idx) 0 : ℕ)
    rw [dstM_emb, srcM_emb, k1_off2_eq1, k1_off1_eq0]; rfl
  | 1 =>
    show (((dstM L r).view.emb (ix2 k0 k1) : S16x2048x128.Idx) 0 : ℕ) = (((srcM L r).view.emb (ix2 k0 k1) : S2048x16x128.Idx) 1 : ℕ)
    rw [dstM_emb, srcM_emb, k1_off2_eq0, k1_off1_eq1]; rfl
  | 2 =>
    show (((dstM L r).view.emb (ix2 k0 k1) : S16x2048x128.Idx) 2 : ℕ) = (((srcM L r).view.emb (ix2 k0 k1) : S2048x16x128.Idx) 2 : ℕ)
    rw [dstM_emb, srcM_emb, k1_off2_eq2, k1_off1_eq2]; rfl

/-- What chunk `r`'s write-out leaves in the transposed array: the scratch, holding the chunk as fetched from the
    queries `x`, written over any contents `fo`, is on the chunk's elements the transposed array of `x`. -/
theorem chunk_value {d : Dev nD} (L : grid1.Coords) (r : Fin 2) (x : Buf (Elt F) (qLoc d)) (fo : Buf (Elt F) (oLoc d)) :
    ∀ j ∈ dstSet L r, (dstM L r).view.write (Elt F) fo ((sV : Memref sig .scVector .vmem S512x128 .f32).view.read (Elt F) ((srcM L r).view.read (Elt F) x)) Finset.univ j = qT x j := by
  intro j hj
  obtain ⟨k, -, rfl⟩ := Finset.mem_map.mp hj
  rw [View.write_emb_of_mem _ _ (Finset.mem_univ k)]
  show (srcM L r).view.read (Elt F) x k = x (trIdx ((dstM L r).view.emb k))
  rw [tr_emb]; rfl

/-! ## The subcores' copy semaphores: their cells, schedule and ghost state -/

section Cells

variable (x : (d : Dev nD) → Buf (Elt F) (qLoc d)) (o : (d : Dev nD) → Buf (Elt F) (oLoc d))

/-- A subcore's four copy semaphores: chunk 0's fetch and write-out, chunk 1's fetch and write-out. -/
abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)

/-- What a fetch credits its semaphore (the scratch is its destination), and what a write-out does (a chunk of the
    transposed array is). -/
abbrev NA : ℕ := (sV : Memref sig .scVector .vmem S512x128 .f32).view.dmaCredit
abbrev NB : ℕ := sig.dmaCredit .scVector (Kind.scVector.table .hbm) (main_v4_scv : Ref sig .scVector).idx S512x128 .f32
theorem NA_pos : 0 < NA := View.dmaCredit_pos _ (by decide)
theorem NB_pos : 0 < NB := sig.dmaCredit_pos _ _ _ _ _ (by decide)

/-- A subcore's coordinates as the body's grid point. -/
def coordsV (c : Fin (grid1.bound 0)) (s : Fin (grid1.bound 1)) : grid1.Coords :=
  fun | 0 => c | 1 => s | ⟨_ + 2, h⟩ => absurd h (Nat.not_lt.2 (Nat.le_add_left _ _))
abbrev LV (c : Fin τ.nSC) (i : Fin τ.nSub) : grid1.Coords := coordsV ⟨c.val, c.isLt⟩ ⟨i.val, i.isLt⟩

abbrev sLoc (d : Dev nD) (c : Fin τ.nSC) (i : Fin τ.nSub) : Loc nD τ sig := (V d c i).loc cc1_scratch0

inductive CellKind | a0 | b0 | a1 | b1
  deriving DecidableEq

def cellKind (g : GSem nD τ sig) : Option CellKind :=
  match g with
  | ((_, .scVector _ _), sm) =>
      if sm = .dma cc1_scoped0.sem then some .a0 else if sm = .dma cc1_scoped1.sem then some .b0
      else if sm = .dma cc1_scoped2.sem then some .a1 else if sm = .dma cc1_scoped3.sem then some .b1 else none
  | _ => none

@[simp] theorem cellKind_0 (d : Dev nD) (c : Fin τ.nSC) (i : Fin τ.nSub) : cellKind (cell0 d c i) = some .a0 := by simp [cellKind]
@[simp] theorem cellKind_1 (d : Dev nD) (c : Fin τ.nSC) (i : Fin τ.nSub) : cellKind (cell1 d c i) = some .b0 := by
  simp [cellKind, show (cc1_scoped1.sem : DmaSem sig) ≠ cc1_scoped0.sem from by decide]
@[simp] theorem cellKind_2 (d : Dev nD) (c : Fin τ.nSC) (i : Fin τ.nSub) : cellKind (cell2 d c i) = some .a1 := by
  simp [cellKind, show (cc1_scoped2.sem : DmaSem sig) ≠ cc1_scoped0.sem from by decide, show (cc1_scoped2.sem : DmaSem sig) ≠ cc1_scoped1.sem from by decide]
@[simp] theorem cellKind_3 (d : Dev nD) (c : Fin τ.nSC) (i : Fin τ.nSub) : cellKind (cell3 d c i) = some .b1 := by
  simp [cellKind, show (cc1_scoped3.sem : DmaSem sig) ≠ cc1_scoped0.sem from by decide, show (cc1_scoped3.sem : DmaSem sig) ≠ cc1_scoped1.sem from by decide,
    show (cc1_scoped3.sem : DmaSem sig) ≠ cc1_scoped2.sem from by decide]

/-- What a fetch's landing hands back: the scratch holding chunk `r` as it stands in the queries, and the chunk's
    elements of the queries. -/
def payA (d : Dev nD) (c : Fin τ.nSC) (i : Fin τ.nSub) (r : Fin 2) : sProp 𝕄 :=
  iprop((sLoc d c i ↦{fullShare} (srcM (LV c i) r).view.read (Elt F) (x d)) ∗ qLoc d ↦[srcSet (LV c i) r]{fullShare} x d)
/-- What a write-out's landing hands back: chunk `r`'s elements of the transposed array at the transposed queries, and
    the scratch at some contents. -/
def payB (d : Dev nD) (c : Fin τ.nSC) (i : Fin τ.nSub) (r : Fin 2) : sProp 𝕄 :=
  iprop((oLoc d ↦[dstSet (LV c i) r]{fullShare} qT (x d)) ∗ ∃ f, sLoc d c i ↦{fullShare} f)

def kPay (g : GSem nD τ sig) : sProp 𝕄 :=
  match g with
  | ((d, .scVector c i), sm) =>
      if sm = .dma cc1_scoped0.sem then payA x d c i 0
      else if sm = .dma cc1_scoped1.sem then payB x d c i 0
      else if sm = .dma cc1_scoped2.sem then payA x d c i 1
      else payB x d c i 1
  | _ => iprop(emp)

/-- One duty on each copy semaphore, in its first round: the one copy it receives. -/
def kRd : Rounds.Schedule (GSem nD τ sig) Unit 𝕄 where
  duties g r := if (cellKind g).isSome ∧ r = 0 then {()} else ∅
  amount g _ _ := match cellKind g with | some .a0 => NA | some .a1 => NA | _ => NB
  payload g _ _ := kPay x g
  amount_pos g _ _ _ := by
    rcases cellKind g with _ | ⟨_ | _ | _ | _⟩
    · exact NB_pos
    · exact NA_pos
    · exact NB_pos
    · exact NA_pos
    · exact NB_pos

instance kRd_payload_storable (g : GSem nD τ sig) (r : ℕ) (u : Unit) : BI.Storable (upEmb : UEmb _ 𝕄) ((kRd (F := F) x).payload g r u) := by
  show BI.Storable upEmb (kPay x g)
  unfold kPay
  rcases g with ⟨⟨d, _ | c | ⟨c, i⟩⟩, sm⟩ <;> dsimp only <;> (repeat' split) <;> (try unfold payA) <;> (try unfold payB) <;> infer_instance

theorem kRd_duties₀ {g : GSem nD τ sig} (h : (cellKind g).isSome) : (kRd (F := F) x).duties g 0 = {()} := if_pos ⟨h, rfl⟩
theorem kRd_mem₀ {g : GSem nD τ sig} (h : (cellKind g).isSome) : () ∈ (kRd (F := F) x).duties g 0 := by
  rw [kRd_duties₀ x h]; exact Finset.mem_singleton_self _
theorem kRd_later (g : GSem nD τ sig) : ∀ r, 0 + 1 ≤ r → (kRd (F := F) x).duties g r = ∅ :=
  fun r hr => if_neg fun ⟨_, h⟩ => by omega
theorem kRd_back {g : GSem nD τ sig} (h : (cellKind g).isSome) :
    bigSep ((kRd (F := F) x).duties g 0 \ ∅) (fun u => (kRd (F := F) x).payload g 0 u) ⊢ (kRd (F := F) x).payload g 0 () := by
  rw [Finset.sdiff_empty, kRd_duties₀ x h, bigSep_singleton]
theorem kRd_expect {g : GSem nD τ sig} (h : (cellKind g).isSome) : (kRd (F := F) x).expect g 0 = (kRd (F := F) x).amount g 0 () := by
  unfold Rounds.Schedule.expect; rw [kRd_duties₀ x h]; exact Finset.sum_singleton _ _
theorem kRd_amount_0 (d : Dev nD) (c : Fin τ.nSC) (i : Fin τ.nSub) : (kRd (F := F) x).amount (cell0 d c i) 0 () = NA := by simp [kRd]
theorem kRd_amount_1 (d : Dev nD) (c : Fin τ.nSC) (i : Fin τ.nSub) : (kRd (F := F) x).amount (cell1 d c i) 0 () = NB := by simp [kRd]
theorem kRd_amount_2 (d : Dev nD) (c : Fin τ.nSC) (i : Fin τ.nSub) : (kRd (F := F) x).amount (cell2 d c i) 0 () = NA := by simp [kRd]
theorem kRd_amount_3 (d : Dev nD) (c : Fin τ.nSC) (i : Fin τ.nSub) : (kRd (F := F) x).amount (cell3 d c i) 0 () = NB := by simp [kRd]
theorem kRd_payload_0 (d : Dev nD) (c : Fin τ.nSC) (i : Fin τ.nSub) : (kRd (F := F) x).payload (cell0 d c i) 0 () = payA x d c i 0 := by
  show kPay x (cell0 d c i) = _; unfold kPay; exact if_pos rfl
theorem kRd_payload_1 (d : Dev nD) (c : Fin τ.nSC) (i : Fin τ.nSub) : (kRd (F := F) x).payload (cell1 d c i) 0 () = payB x d c i 0 := by
  show kPay x (cell1 d c i) = _; unfold kPay; exact (if_neg (by decide)).trans (if_pos rfl)
theorem kRd_payload_2 (d : Dev nD) (c : Fin τ.nSC) (i : Fin τ.nSub) : (kRd (F := F) x).payload (cell2 d c i) 0 () = payA x d c i 1 := by
  show kPay x (cell2 d c i) = _; unfold kPay; exact (if_neg (by decide)).trans ((if_neg (by decide)).trans (if_pos rfl))
theorem kRd_payload_3 (d : Dev nD) (c : Fin τ.nSC) (i : Fin τ.nSub) : (kRd (F := F) x).payload (cell3 d c i) 0 () = payB x d c i 1 := by
  show kPay x (cell3 d c i) = _; unfold kPay; exact (if_neg (by decide)).trans ((if_neg (by decide)).trans (if_neg (by decide)))

/-- A copy semaphore's ghost state at the launch: its round state, its owner's position before round 0, round 0
    reached, the token of its one duty. -/
def kit (g : GSem nD τ sig) : sProp 𝕄 :=
  iprop(roundState EK (kRd x) g 0 ∗ atPos EK g 0 ∅ 0 ∗ reached EK g 0 ∗ dutyTok EK g 0 ())

/-! ## What the handshakes carry -/

/-- A subcore's operands: its two chunks' elements of the queries, and of the transposed array at the launch's
    contents `o`; -/
def goRes (d : Dev nD) (L : grid1.Coords) : sProp 𝕄 :=
  iprop(((qLoc d ↦[srcSet L 0]{fullShare} x d) ∗ (qLoc d ↦[srcSet L 1]{fullShare} x d))
    ∗ ((oLoc d ↦[dstSet L 0]{fullShare} o d) ∗ (oLoc d ↦[dstSet L 1]{fullShare} o d)))
/-- its results: the same elements, those of the transposed array at the transposed queries. -/
def tdRes (d : Dev nD) (L : grid1.Coords) : sProp 𝕄 :=
  iprop(((qLoc d ↦[srcSet L 0]{fullShare} x d) ∗ (qLoc d ↦[srcSet L 1]{fullShare} x d))
    ∗ ((oLoc d ↦[dstSet L 0]{fullShare} qT (x d)) ∗ (oLoc d ↦[dstSet L 1]{fullShare} qT (x d))))

instance goRes_storable (d : Dev nD) (L : grid1.Coords) : BI.Storable (upEmb : UEmb _ 𝕄) (goRes x o d L) := by unfold goRes; infer_instance
instance tdRes_storable (d : Dev nD) (L : grid1.Coords) : BI.Storable (upEmb : UEmb _ 𝕄) (tdRes x d L) := by unfold tdRes; infer_instance

/-- The grid point of task `i` of SparseCore `c` of the call. -/
abbrev LP (c : Fin ((K (F := F)).nCore 0)) (i : Fin ((K (F := F)).nSub 0)) : grid1.Coords := coordsV ⟨c.val, c.isLt⟩ ⟨i.val, i.isLt⟩

/-- The call takes, per SparseCore, its sixteen subcores' operands, each subcore its own, and brings them back with
    the transposed array's elements at the transposed queries; a subcore is dealt its four semaphores' ghost state. -/
def P : (K (F := F)).Pay (nD := nD) (Val := Elt F) (Name := ℕ) (U := UU) where
  st := fun q d c => match q with | 0 => bigSep Finset.univ fun i : Fin ((K (F := F)).nSub 0) => goRes x o d (LP (F := F) c i)
  dn := fun q d c => match q with | 0 => bigSep Finset.univ fun i : Fin ((K (F := F)).nSub 0) => tdRes x d (LP (F := F) c i)
  go := fun q d c i => match q with | 0 => goRes x o d (LP (F := F) c i)
  td := fun q d c i => match q with | 0 => tdRes x d (LP (F := F) c i)
  x := fun q thr => match q, thr with
    | 0, (d, .scVector c i) => iprop(kit x (cell0 d c i) ∗ kit x (cell1 d c i) ∗ kit x (cell2 d c i) ∗ kit x (cell3 d c i))
    | _, _ => iprop(emp)

instance P_storable : (P (F := F) x o).IsStorable where
  st q d c := match q with
    | 0 => (inferInstance : BI.Storable (upEmb : UEmb _ 𝕄) (bigSep Finset.univ fun i : Fin ((K (F := F)).nSub 0) => goRes x o d (LP (F := F) c i)))
  dn q d c := match q with
    | 0 => (inferInstance : BI.Storable (upEmb : UEmb _ 𝕄) (bigSep Finset.univ fun i : Fin ((K (F := F)).nSub 0) => tdRes x d (LP (F := F) c i)))
  go q d c i := match q with
    | 0 => (inferInstance : BI.Storable (upEmb : UEmb _ 𝕄) (goRes x o d (LP (F := F) c i)))
  td q d c i := match q with
    | 0 => (inferInstance : BI.Storable (upEmb : UEmb _ 𝕄) (tdRes x d (LP (F := F) c i)))

end Cells

/-! ## The task of one subcore -/

section Tile

variable (x : (d : Dev nD) → Buf (Elt F) (qLoc d)) (o : (d : Dev nD) → Buf (Elt F) (oLoc d))
variable (d : Dev nD) (L : grid1.Coords)

abbrev cV (L : grid1.Coords) : Fin τ.nSC := (L 0).castLE hcore1
abbrev jV (L : grid1.Coords) : Fin τ.nSub := (L 1).castLE hsub1

theorem LV_cV : LV (cV L) (jV L) = L := by
  funext a
  match a with
  | 0 => rfl
  | 1 => rfl

/-- The scratch held whole is the scratch held through its whole-buffer view. -/
theorem pts_scratch (c : Fin τ.nSC) (i : Fin τ.nSub) (f : Buf (Elt F) (sLoc d c i)) :
    ((sV : Memref sig .scVector .vmem S512x128 .f32).view.loc (V d c i) ↦[(sV : Memref sig .scVector .vmem S512x128 .f32).view.set]{fullShare} f : sProp 𝕄)
      = sLoc d c i ↦{fullShare} f := by
  simp only [Memref.view_whole, View.set_whole]

theorem ownSems0_V (c : Fin τ.nSC) (i : Fin τ.nSub) :
    (ownSems0 (V d c i) : sProp 𝕄)
      = iprop(semVal (cell0 d c i) 0 ∗ semVal (cell1 d c i) 0 ∗ semVal (cell2 d c i) 0 ∗ semVal (cell3 d c i) 0
          ∗ bigSep (((((ownCells (V d c i)).erase (cell0 d c i)).erase (cell1 d c i)).erase (cell2 d c i)).erase (cell3 d c i))
              fun g => semVal g 0) := by
  have hne : ∀ {s s' : DmaSem sig}, s ≠ s' → ((V d c i, SemLoc.dma s) : GSem nD τ sig) ≠ (V d c i, SemLoc.dma s') :=
    fun h e => h (SemLoc.dma.inj (Prod.mk.inj e).2)
  have hm : ∀ s : DmaSem sig, (SemLoc.dma s : SemLoc sig).isScoped .scVector = true → ((V d c i, SemLoc.dma s) : GSem nD τ sig) ∈ ownCells (V d c i) :=
    fun s h => (mem_ownCells (g := (V d c i, SemLoc.dma s))).mpr ⟨rfl, h⟩
  unfold SparseCore.Cfg.ownSems0
  rw [SparseCore.bigSep_erase' (hm cc1_scoped0.sem (by decide)),
    SparseCore.bigSep_erase' (Finset.mem_erase.mpr ⟨hne (show (cc1_scoped1.sem : DmaSem sig) ≠ cc1_scoped0.sem by decide), hm cc1_scoped1.sem (by decide)⟩),
    SparseCore.bigSep_erase' (Finset.mem_erase.mpr ⟨hne (show (cc1_scoped2.sem : DmaSem sig) ≠ cc1_scoped1.sem by decide),
      Finset.mem_erase.mpr ⟨hne (show (cc1_scoped2.sem : DmaSem sig) ≠ cc1_scoped0.sem by decide), hm cc1_scoped2.sem (by decide)⟩⟩),
    SparseCore.bigSep_erase' (Finset.mem_erase.mpr ⟨hne (show (cc1_scoped3.sem : DmaSem sig) ≠ cc1_scoped2.sem by decide),
      Finset.mem_erase.mpr ⟨hne (show (cc1_scoped3.sem : DmaSem sig) ≠ cc1_scoped1.sem by decide),
        Finset.mem_erase.mpr ⟨hne (show (cc1_scoped3.sem : DmaSem sig) ≠ cc1_scoped0.sem by decide), hm cc1_scoped3.sem (by decide)⟩⟩⟩)]

/-- The scratch is among the subcore's own buffers. -/
theorem ownBufs_V (c : Fin τ.nSC) (i : Fin τ.nSub) :
    (ownBufs (V d c i) : sProp 𝕄)
      = iprop((∃ f, sLoc d c i ↦{fullShare} f)
          ∗ bigSep ((ownRefs (τ := τ) (.scVector c i)).erase ((Proc.scVector c i).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector c i) (b := (Proc.scVector c i).devRef cc1_scratch0) rfl)

end Tile

section Body

variable [FloatOps F]
variable (x : (d : Dev nD) → Buf (Elt F) (qLoc d)) (o : (d : Dev nD) → Buf (Elt F) (oLoc d))
variable (d : Dev nD) (L : grid1.Coords)

omit [FloatOps F] in
/-- Writing the whole scratch replaces its contents. -/
theorem scratch_write (c : Fin τ.nSC) (i : Fin τ.nSub) (fs : Buf (Elt F) (sLoc d c i)) (w : Buf (Elt F) (sLoc d c i)) :
    (sV : Memref sig .scVector .vmem S512x128 .f32).view.write (Elt F) fs w Finset.univ = w := View.write_whole_univ _ _ _

omit [FloatOps F] in
theorem payA_eq (r : Fin 2) :
    payA x d (cV L) (jV L) r
      = iprop((sLoc d (cV L) (jV L) ↦{fullShare} (srcM L r).view.read (Elt F) (x d)) ∗ qLoc d ↦[srcSet L r]{fullShare} x d) := by
  unfold payA; rw [LV_cV]
omit [FloatOps F] in
theorem payB_eq (r : Fin 2) :
    payB x d (cV L) (jV L) r = iprop((oLoc d ↦[dstSet L r]{fullShare} qT (x d)) ∗ ∃ f, sLoc d (cV L) (jV L) ↦{fullShare} f) := by
  unfold payB; rw [LV_cV]

/-- The task on vector subcore `(L 0, L 1)` of device `d`: per chunk, the fetch into the scratch and its wait, the
    write-out from the scratch and its wait. A fetch lands the chunk as it stands in the queries; the write-out then
    leaves, on the chunk's elements of the transposed array, the transposed queries (`chunk_value`). -/
theorem tile_body (hF : (K (F := F)).Facts) (O : CellTallies nD τ sig (HIx 1)) (W : Waits sig (HIx 1)) (hO : ∀ g, O g none = 0) :
    iprop(levAts (K (F := F)).L (K (F := F)).lev
        ∗ (kit x (cell0 d (cV L) (jV L)) ∗ kit x (cell1 d (cV L) (jV L)) ∗ kit x (cell2 d (cV L) (jV L)) ∗ kit x (cell3 d (cV L) (jV L)))
        ∗ goRes x o d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__q_gather_sc L qV (Memref.isWhole_whole _) oV (Memref.isWhole_whole _) sV (Memref.isWhole_whole _)
            cc1_scoped0 cc1_scoped1 cc1_scoped2 cc1_scoped3)
          fun _ => iprop(tdRes x d L ∗ scopedBufs (V d (cV L) (jV L)) ∗ scopedSems0 (V d (cV L) (jV L))
            ∗ ∃ W', ⌜∀ p ∈ W', p ∈ W ∨ p.2 = none⌝ ∗ owes (V d (cV L) (jV L)) O W') := by
  unfold cc1__q_gather_sc k1_part1
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kit goRes tdRes
  iintro ⟨#Hlv, ⟨⟨Hst0, Hat0, #Hr0, Htok0⟩, ⟨Hst1, Hat1, #Hr1, Htok1⟩, ⟨Hst2, Hat2, #Hr2, Htok2⟩, ⟨Hst3, Hat3, #Hr3, Htok3⟩⟩,
    ⟨⟨Hq0, Hq1⟩, ⟨Ho0, Ho1⟩⟩, ⟨⟨%fs, Hs⟩, Hbufs⟩, ⟨Hsem0, Hsem1, Hsem2, Hsem3, Hsems⟩, HO⟩
  imod ((Rounds.body_intro EK (kRd x) (cell0 d (cV L) (jV L))).trans inv_alloc) $$ [Hsem0 Hst0] with ⟨%κ0, #Hinv0⟩
  · isplitl [Hsem0] <;> iassumption
  imod ((Rounds.body_intro EK (kRd x) (cell1 d (cV L) (jV L))).trans inv_alloc) $$ [Hsem1 Hst1] with ⟨%κ1, #Hinv1⟩
  · isplitl [Hsem1] <;> iassumption
  imod ((Rounds.body_intro EK (kRd x) (cell2 d (cV L) (jV L))).trans inv_alloc) $$ [Hsem2 Hst2] with ⟨%κ2, #Hinv2⟩
  · isplitl [Hsem2] <;> iassumption
  imod ((Rounds.body_intro EK (kRd x) (cell3 d (cV L) (jV L))).trans inv_alloc) $$ [Hsem3 Hst3] with ⟨%κ3, #Hinv3⟩
  · isplitl [Hsem3] <;> iassumption
  -- chunk 0 is fetched: its elements of the queries read, the scratch written
  ihave Hs' := (Entails.of_eq (pts_scratch (F := F) d (cV L) (jV L) _).symm) $$ Hs
  iapply (Rounds.wp_copy_pointsTo 𝒱₀ EK (kRd x) (V d (cV L) (jV L)) none (src := srcM L 0) (dst := sV) (q := fullShare) (fs := x d) (fd := fs) (κ := κ0)
      (kRd_mem₀ x (by rw [cellKind_0]; rfl)) none NA rfl (kRd_amount_0 x d _ _) ?hpay0) $$ [Hq0 Hs' Htok0]
  case hpay0 =>
    rw [kRd_payload_0, payA_eq, pts_scratch, scratch_write]
  · isplitr; · iexact Hinv0
    isplitl [Hq0]; · iexact Hq0
    isplitl [Hs']; · iexact Hs'
    isplitl [Htok0]; · iexact Htok0
    iexact Hr0
  iintro Hcred
  iapply (Rounds.wp_wait_rest_token 𝒱₀ EK (kRd x) (V d (cV L) (jV L)) none (κ := κ0)
      (wpE_waitDma2_eq 𝒱₀ (V d (cV L) (jV L)) none Set.univ) (Set.mem_univ κ0) none (O := O) (W := W) (R := 0) (m := 0) (T := ∅)
      (by rw [Nat.zero_add, kRd_expect x (by rw [cellKind_0]; rfl), kRd_amount_0])) $$ [Hcred HO Hat0]
  · isplitr; · iexact Hinv0
    isplitl [Hcred]; · iexact Hcred
    isplitl [HO]; · iexact HO
    isplitr; · iapply ((K (F := F)).mayWait_none (SemLoc.dma cc1_scoped0.sem) hO); iexact Hlv
    iexact Hat0
  iintro ⟨HO, Hat0, -, Hpay⟩
  ihave Hp := ((kRd_back x (g := cell0 d (cV L) (jV L)) (by rw [cellKind_0]; rfl)).trans
    (Entails.of_eq ((kRd_payload_0 x d _ _).trans (payA_eq x d L 0)))) $$ Hpay
  icases Hp with ⟨Hs, Hq0⟩
  imod (Rounds.cell_close EK (kRd x) (Set.mem_univ κ0) (fun h => h) (R := 0 + 1) (kRd_later x (cell0 d _ _))) $$ [Hat0] with Hsem0
  · isplitr; · iexact Hinv0
    iexact Hat0
  -- chunk 0 is written out: the scratch read, the chunk's elements of the transposed array written
  ihave Hs' := (Entails.of_eq (pts_scratch (F := F) d (cV L) (jV L) _).symm) $$ Hs
  iapply (Rounds.wp_copy_pointsTo 𝒱₀ EK (kRd x) (V d (cV L) (jV L)) none (src := sV) (dst := dstM L 0) (q := fullShare)
      (fs := (srcM L 0).view.read (Elt F) (x d)) (fd := o d) (κ := κ1)
      (kRd_mem₀ x (by rw [cellKind_1]; rfl)) none NB rfl (kRd_amount_1 x d _ _) ?hpay1) $$ [Hs' Ho0 Htok1]
  case hpay1 =>
    rw [kRd_payload_1, payB_eq, pts_scratch, pointsTo_congr (ℓ := oLoc d) (q := fullShare) (chunk_value L 0 (x d) (o d))]
    iintro ⟨Ho, Hs⟩
    isplitl [Ho]; · iexact Ho
    iexists _; iexact Hs
  · isplitr; · iexact Hinv1
    isplitl [Hs']; · iexact Hs'
    isplitl [Ho0]; · iexact Ho0
    isplitl [Htok1]; · iexact Htok1
    iexact Hr1
  iintro Hcred
  iapply (Rounds.wp_wait_rest_token 𝒱₀ EK (kRd x) (V d (cV L) (jV L)) none (κ := κ1)
      (wpE_waitDma2_eq 𝒱₀ (V d (cV L) (jV L)) none Set.univ) (Set.mem_univ κ1) none (O := O) (W := (insert (SemLoc.dma cc1_scoped0.sem, none) W)) (R := 0) (m := 0) (T := ∅)
      (by rw [Nat.zero_add, kRd_expect x (by rw [cellKind_1]; rfl), kRd_amount_1]; try rfl)) $$ [Hcred HO Hat1]
  · isplitr; · iexact Hinv1
    isplitl [Hcred]; · iexact Hcred
    isplitl [HO]; · iexact HO
    isplitr; · iapply ((K (F := F)).mayWait_none (SemLoc.dma cc1_scoped1.sem) hO); iexact Hlv
    iexact Hat1
  iintro ⟨HO, Hat1, -, Hpay⟩
  ihave Hp := ((kRd_back x (g := cell1 d (cV L) (jV L)) (by rw [cellKind_1]; rfl)).trans
    (Entails.of_eq ((kRd_payload_1 x d _ _).trans (payB_eq x d L 0)))) $$ Hpay
  icases Hp with ⟨Ho0, ⟨%fs1, Hs⟩⟩
  imod (Rounds.cell_close EK (kRd x) (Set.mem_univ κ1) (fun h => h) (R := 0 + 1) (kRd_later x (cell1 d _ _))) $$ [Hat1] with Hsem1
  · isplitr; · iexact Hinv1
    iexact Hat1
  -- chunk 1 is fetched: its elements of the queries read, the scratch written
  ihave Hs' := (Entails.of_eq (pts_scratch (F := F) d (cV L) (jV L) _).symm) $$ Hs
  iapply (Rounds.wp_copy_pointsTo 𝒱₀ EK (kRd x) (V d (cV L) (jV L)) none (src := srcM L 1) (dst := sV) (q := fullShare) (fs := x d) (fd := fs1) (κ := κ2)
      (kRd_mem₀ x (by rw [cellKind_2]; rfl)) none NA rfl (kRd_amount_2 x d _ _) ?hpay2) $$ [Hq1 Hs' Htok2]
  case hpay2 =>
    rw [kRd_payload_2, payA_eq, pts_scratch, scratch_write]
  · isplitr; · iexact Hinv2
    isplitl [Hq1]; · iexact Hq1
    isplitl [Hs']; · iexact Hs'
    isplitl [Htok2]; · iexact Htok2
    iexact Hr2
  iintro Hcred
  iapply (Rounds.wp_wait_rest_token 𝒱₀ EK (kRd x) (V d (cV L) (jV L)) none (κ := κ2)
      (wpE_waitDma2_eq 𝒱₀ (V d (cV L) (jV L)) none Set.univ) (Set.mem_univ κ2) none (O := O) (W := (insert (SemLoc.dma cc1_scoped1.sem, none) (insert (SemLoc.dma cc1_scoped0.sem, none) W))) (R := 0) (m := 0) (T := ∅)
      (by rw [Nat.zero_add, kRd_expect x (by rw [cellKind_2]; rfl), kRd_amount_2])) $$ [Hcred HO Hat2]
  · isplitr; · iexact Hinv2
    isplitl [Hcred]; · iexact Hcred
    isplitl [HO]; · iexact HO
    isplitr; · iapply ((K (F := F)).mayWait_none (SemLoc.dma cc1_scoped2.sem) hO); iexact Hlv
    iexact Hat2
  iintro ⟨HO, Hat2, -, Hpay⟩
  ihave Hp := ((kRd_back x (g := cell2 d (cV L) (jV L)) (by rw [cellKind_2]; rfl)).trans
    (Entails.of_eq ((kRd_payload_2 x d _ _).trans (payA_eq x d L 1)))) $$ Hpay
  icases Hp with ⟨Hs, Hq1⟩
  imod (Rounds.cell_close EK (kRd x) (Set.mem_univ κ2) (fun h => h) (R := 0 + 1) (kRd_later x (cell2 d _ _))) $$ [Hat2] with Hsem2
  · isplitr; · iexact Hinv2
    iexact Hat2
  -- chunk 1 is written out: the scratch read, the chunk's elements of the transposed array written
  ihave Hs' := (Entails.of_eq (pts_scratch (F := F) d (cV L) (jV L) _).symm) $$ Hs
  iapply (Rounds.wp_copy_pointsTo 𝒱₀ EK (kRd x) (V d (cV L) (jV L)) none (src := sV) (dst := dstM L 1) (q := fullShare)
      (fs := (srcM L 1).view.read (Elt F) (x d)) (fd := o d) (κ := κ3)
      (kRd_mem₀ x (by rw [cellKind_3]; rfl)) none NB rfl (kRd_amount_3 x d _ _) ?hpay3) $$ [Hs' Ho1 Htok3]
  case hpay3 =>
    rw [kRd_payload_3, payB_eq, pts_scratch, pointsTo_congr (ℓ := oLoc d) (q := fullShare) (chunk_value L 1 (x d) (o d))]
    iintro ⟨Ho, Hs⟩
    isplitl [Ho]; · iexact Ho
    iexists _; iexact Hs
  · isplitr; · iexact Hinv3
    isplitl [Hs']; · iexact Hs'
    isplitl [Ho1]; · iexact Ho1
    isplitl [Htok3]; · iexact Htok3
    iexact Hr3
  iintro Hcred
  iapply (Rounds.wp_wait_rest_token 𝒱₀ EK (kRd x) (V d (cV L) (jV L)) none (κ := κ3)
      (wpE_waitDma2_eq 𝒱₀ (V d (cV L) (jV L)) none Set.univ) (Set.mem_univ κ3) none (O := O) (W := (insert (SemLoc.dma cc1_scoped2.sem, none) (insert (SemLoc.dma cc1_scoped1.sem, none) (insert (SemLoc.dma cc1_scoped0.sem, none) W)))) (R := 0) (m := 0) (T := ∅)
      (by rw [Nat.zero_add, kRd_expect x (by rw [cellKind_3]; rfl), kRd_amount_3]; try rfl)) $$ [Hcred HO Hat3]
  · isplitr; · iexact Hinv3
    isplitl [Hcred]; · iexact Hcred
    isplitl [HO]; · iexact HO
    isplitr; · iapply ((K (F := F)).mayWait_none (SemLoc.dma cc1_scoped3.sem) hO); iexact Hlv
    iexact Hat3
  iintro ⟨HO, Hat3, -, Hpay⟩
  ihave Hp := ((kRd_back x (g := cell3 d (cV L) (jV L)) (by rw [cellKind_3]; rfl)).trans
    (Entails.of_eq ((kRd_payload_3 x d _ _).trans (payB_eq x d L 1)))) $$ Hpay
  icases Hp with ⟨Ho1, ⟨%fs3, Hs⟩⟩
  imod (Rounds.cell_close EK (kRd x) (Set.mem_univ κ3) (fun h => h) (R := 0 + 1) (kRd_later x (cell3 d _ _))) $$ [Hat3] with Hsem3
  · isplitr; · iexact Hinv3
    iexact Hat3
  rw [wp_ret]; imodintro
  isplitl [Hq0 Hq1 Ho0 Ho1]
  · isplitl [Hq0 Hq1]
    · isplitl [Hq0]; · iexact Hq0
      iexact Hq1
    · isplitl [Ho0]; · iexact Ho0
      iexact Ho1
  isplitl [Hs Hbufs]
  · isplitl [Hs]
    · iexists _; iexact Hs
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc1_scoped3.sem, none) (insert (SemLoc.dma cc1_scoped2.sem, none)
    (insert (SemLoc.dma cc1_scoped1.sem, none) (insert (SemLoc.dma cc1_scoped0.sem, none) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Body

/-! ## The launch theorem's obligations -/

section Launch

variable [FloatOps F]
variable (x : (d : Dev nD) → Buf (Elt F) (qLoc d)) (o : (d : Dev nD) → Buf (Elt F) (oLoc d))

theorem defs₀_vector (c : Fin τ.nSC) (s : Fin τ.nSub) :
    defs₀ (F := F) (.scVector c s) 1 ⟨⟩
      = SparseCore.onTile hcore1 hsub1 (fun c s => cc1__q_gather_sc (coordsV c s)
          qV (Memref.isWhole_whole _) oV (Memref.isWhole_whole _) sV (Memref.isWhole_whole _)
          cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the call: every task, from its operands and its semaphores' ghost state to its results. -/
theorem tileObl : (K (F := F)).TileObl (D (F := F)) 𝒱 (P x o) v₀ 0 := by
  intro d c i O W hO _ _
  simp only [show (P x o).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x o d (coordsV ⟨_, hc.1⟩ ⟨_, hc.2⟩) facts O W hO).trans (wp_mono frame _ _ fun _ => obl_post)

/-- A SparseCore's operands are its sixteen tasks' operands, its results their results. -/
theorem vecSplit : (K (F := F)).VecSplit' (P x o) 0 := by
  intro d c
  show (bigSep Finset.univ fun i : Fin ((K (F := F)).nSub 0) => goRes x o d (LP (F := F) c i))
    ⊢ |={Set.univ}=> iprop((bigSep Finset.univ fun i : Fin ((K (F := F)).nSub 0) => goRes x o d (LP (F := F) c i))
      ∗ ((bigSep Finset.univ fun i : Fin ((K (F := F)).nSub 0) => tdRes x d (LP (F := F) c i))
          -∗ bigSep Finset.univ fun i : Fin ((K (F := F)).nSub 0) => tdRes x d (LP (F := F) c i)))
  iintro H; imodintro
  isplitl [H]; · iexact H
  iintro H; iexact H

end Launch

/-! ## The launch element of the copy semaphores' ghost state -/

section Kits

variable (x : (d : Dev nD) → Buf (Elt F) (qLoc d)) (o : (d : Dev nD) → Buf (Elt F) (oLoc d))

/-- Every subcore's cell on semaphore `sm`. -/
abbrev cellsOn (sm : SemLoc sig) : Finset (GSem nD τ sig) :=
  Finset.univ.image fun dci : Dev nD × Fin τ.nSC × Fin τ.nSub => ((V dci.1 dci.2.1 dci.2.2, sm) : GSem nD τ sig)

/-- The copy semaphores of all subcores, and the token of each one's duty. -/
def kCells : Finset (GSem nD τ sig) :=
  ((cellsOn (.dma cc1_scoped0.sem) ∪ cellsOn (.dma cc1_scoped1.sem)) ∪ cellsOn (.dma cc1_scoped2.sem)) ∪ cellsOn (.dma cc1_scoped3.sem)
def kToks : Finset (GSem nD τ sig × ℕ × Unit) := kCells.map ⟨fun g => (g, 0, ()), fun _ _ e => (Prod.mk.inj e).1⟩

theorem toks_eq : (bigSep kToks fun t => (dutyTok EK t.1 t.2.1 t.2.2 : sProp 𝕄)) = bigSep kCells fun g => dutyTok EK g 0 () := by
  unfold kToks; rw [bigSep_map]; rfl

theorem kits_intro : (BI.own (EK (initOf kCells kToks)) : sProp 𝕄) ⊢ iprop(|==> bigSep kCells (kit x)) := by
  iintro H
  imod (Rounds.fund EK (kRd x) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

theorem bigSep_emp' {I : Type} (s : Finset I) : (bigSep s fun _ => iprop(emp)) = (iprop(emp) : sProp 𝕄) := bigSep_emp_const s

theorem Px_T (d : Dev nD) : (bigSep Finset.univ fun q : Fin 1 => (P (F := F) x o).x q (SparseCore.T d)) = iprop(emp) :=
  bigSep_univ_of_subsingleton (0 : Fin 1)
theorem Px_S (d : Dev nD) (c : Fin τ.nSC) : (bigSep Finset.univ fun q : Fin 1 => (P (F := F) x o).x q (S d c)) = iprop(emp) :=
  bigSep_univ_of_subsingleton (0 : Fin 1)
theorem Px_V (d : Dev nD) (c : Fin τ.nSC) (i : Fin τ.nSub) :
    (bigSep Finset.univ fun q : Fin 1 => (P (F := F) x o).x q (V d c i))
      = iprop(kit x (cell0 d c i) ∗ kit x (cell1 d c i) ∗ kit x (cell2 d c i) ∗ kit x (cell3 d c i)) :=
  bigSep_univ_of_subsingleton (0 : Fin 1)

theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

theorem snd_of_mem_cellsOn {sm : SemLoc sig} {g : GSem nD τ sig} (h : g ∈ cellsOn sm) : g.2 = sm := by
  obtain ⟨a, -, rfl⟩ := Finset.mem_image.mp h; rfl

theorem kits_deal : (bigSep kCells (kit (F := F) x) : sProp 𝕄) ⊢ bigSep Finset.univ fun thr : Thread nD τ => bigSep Finset.univ fun q : Fin 1 => (P x o).x q thr := by
  rw [SparseCore.Cfg.bigSep_threads (fun thr : Thread nD τ => bigSep Finset.univ fun q : Fin 1 => (P x o).x q thr)]
  simp only [Px_T, Px_S, Px_V, bigSep_emp']
  unfold kCells
  rw [SparseCore.bigSep_union' ?d1, SparseCore.bigSep_union' ?d2, SparseCore.bigSep_union' ?d3,
    SparseCore.bigSep_image_of_injOn (inj3 _) (kit x), SparseCore.bigSep_image_of_injOn (inj3 _) (kit x),
    SparseCore.bigSep_image_of_injOn (inj3 _) (kit x), SparseCore.bigSep_image_of_injOn (inj3 _) (kit x)]
  case d1 =>
    refine Finset.disjoint_left.mpr fun g h1 h2 => ?_
    have e2 := snd_of_mem_cellsOn h2
    rcases Finset.mem_union.mp h1 with h1 | h1
    · rcases Finset.mem_union.mp h1 with h1 | h1
      · exact absurd ((snd_of_mem_cellsOn h1).symm.trans e2) (by decide)
      · exact absurd ((snd_of_mem_cellsOn h1).symm.trans e2) (by decide)
    · exact absurd ((snd_of_mem_cellsOn h1).symm.trans e2) (by decide)
  case d2 =>
    refine Finset.disjoint_left.mpr fun g h1 h2 => ?_
    have e2 := snd_of_mem_cellsOn h2
    rcases Finset.mem_union.mp h1 with h1 | h1
    · exact absurd ((snd_of_mem_cellsOn h1).symm.trans e2) (by decide)
    · exact absurd ((snd_of_mem_cellsOn h1).symm.trans e2) (by decide)
  case d3 =>
    refine Finset.disjoint_left.mpr fun g h1 h2 => ?_
    exact absurd ((snd_of_mem_cellsOn h1).symm.trans (snd_of_mem_cellsOn h2)) (by decide)
  rw [bigSep_sep' (Finset.univ : Finset (Dev nD × Fin τ.nSC × Fin τ.nSub)), bigSep_sep' (Finset.univ : Finset (Dev nD × Fin τ.nSC × Fin τ.nSub)),
    bigSep_sep' (Finset.univ : Finset (Dev nD × Fin τ.nSC × Fin τ.nSub))]
  iintro ⟨⟨⟨H0, H1⟩, H2⟩, H3⟩
  isplitr; · iempintro
  isplitr; · iempintro
  isplitl [H0]; · iexact H0
  isplitl [H1]; · iexact H1
  isplitl [H2]; · iexact H2
  iexact H3

/-- From the launch element of the copy semaphores' ghost state, every thread's share: each subcore its four
    semaphores' state, every other thread nothing. -/
theorem kits_deal_all : (BI.own (EK (initOf kCells kToks)) : sProp 𝕄)
    ⊢ iprop(|==> bigSep Finset.univ fun thr : Thread nD τ => bigSep Finset.univ fun q : Fin 1 => (P x o).x q thr) :=
  (kits_intro x).trans (BI.bupd_mono (kits_deal x o))

end Kits

/-! ## The chunks tile the two arrays -/

section Cover

/-- Chunk `t.2.2` of subcore `t.2.1` of SparseCore `t.1`, in the queries and in the transposed array. -/
abbrev srcK (t : Fin 2 × Fin 16 × Fin 2) : Finset S2048x16x128.Idx := srcSet (coordsV t.1 t.2.1) t.2.2
abbrev dstK (t : Fin 2 × Fin 16 × Fin 2) : Finset S16x2048x128.Idx := dstSet (coordsV t.1 t.2.1) t.2.2

theorem mem_srcK {t : Fin 2 × Fin 16 × Fin 2} {j : S2048x16x128.Idx} :
    j ∈ srcK t ↔ (1024 * t.1.val + 512 * t.2.2.val ≤ (j 0).val ∧ (j 0).val < 1024 * t.1.val + 512 * t.2.2.val + 512) ∧ (j 1).val = t.2.1.val := mem_srcSet
theorem mem_dstK {t : Fin 2 × Fin 16 × Fin 2} {j : S16x2048x128.Idx} :
    j ∈ dstK t ↔ (j 0).val = t.2.1.val ∧ (1024 * t.1.val + 512 * t.2.2.val ≤ (j 1).val ∧ (j 1).val < 1024 * t.1.val + 512 * t.2.2.val + 512) := mem_dstSet

theorem src_disjoint : ∀ t ∈ (Finset.univ : Finset (Fin 2 × Fin 16 × Fin 2)), ∀ t' ∈ (Finset.univ : Finset (Fin 2 × Fin 16 × Fin 2)),
    t ≠ t' → Disjoint (srcK t) (srcK t') := by
  intro t _ t' _ hne
  refine Finset.disjoint_left.mpr fun j h h' => hne ?_
  rw [mem_srcK] at h h'
  obtain ⟨c, i, r⟩ := t; obtain ⟨c', i', r'⟩ := t'
  have hc := c.isLt; have hc' := c'.isLt; have hr := r.isLt; have hr' := r'.isLt
  simp only at h h'
  have ec : c.val = c'.val := by omega
  have ei : i.val = i'.val := by omega
  have er : r.val = r'.val := by omega
  exact Prod.ext (Fin.ext ec) (Prod.ext (Fin.ext ei) (Fin.ext er))
theorem dst_disjoint : ∀ t ∈ (Finset.univ : Finset (Fin 2 × Fin 16 × Fin 2)), ∀ t' ∈ (Finset.univ : Finset (Fin 2 × Fin 16 × Fin 2)),
    t ≠ t' → Disjoint (dstK t) (dstK t') := by
  intro t _ t' _ hne
  refine Finset.disjoint_left.mpr fun j h h' => hne ?_
  rw [mem_dstK] at h h'
  obtain ⟨c, i, r⟩ := t; obtain ⟨c', i', r'⟩ := t'
  have hc := c.isLt; have hc' := c'.isLt; have hr := r.isLt; have hr' := r'.isLt
  simp only at h h'
  have ec : c.val = c'.val := by omega
  have ei : i.val = i'.val := by omega
  have er : r.val = r'.val := by omega
  exact Prod.ext (Fin.ext ec) (Prod.ext (Fin.ext ei) (Fin.ext er))

theorem src_cover : (Finset.univ : Finset (Fin 2 × Fin 16 × Fin 2)).biUnion srcK = Finset.univ := by
  ext j
  simp only [Finset.mem_biUnion, Finset.mem_univ, true_and, iff_true]
  have h0 : (j 0).val < 2048 := (j 0).isLt
  have h1 : (j 1).val < 16 := (j 1).isLt
  have hq : 1024 * ((j 0).val / 1024) + 512 * (((j 0).val % 1024) / 512) ≤ (j 0).val
      ∧ (j 0).val < 1024 * ((j 0).val / 1024) + 512 * (((j 0).val % 1024) / 512) + 512 := by omega
  exact ⟨(⟨(j 0).val / 1024, by omega⟩, ⟨(j 1).val, h1⟩, ⟨((j 0).val % 1024) / 512, by omega⟩), mem_srcK.mpr ⟨hq, rfl⟩⟩
theorem dst_cover : (Finset.univ : Finset (Fin 2 × Fin 16 × Fin 2)).biUnion dstK = Finset.univ := by
  ext j
  simp only [Finset.mem_biUnion, Finset.mem_univ, true_and, iff_true]
  have h0 : (j 0).val < 16 := (j 0).isLt
  have h1 : (j 1).val < 2048 := (j 1).isLt
  have hq : 1024 * ((j 1).val / 1024) + 512 * (((j 1).val % 1024) / 512) ≤ (j 1).val
      ∧ (j 1).val < 1024 * ((j 1).val / 1024) + 512 * (((j 1).val % 1024) / 512) + 512 := by omega
  exact ⟨(⟨(j 1).val / 1024, by omega⟩, ⟨(j 0).val, h0⟩, ⟨((j 1).val % 1024) / 512, by omega⟩), mem_dstK.mpr ⟨rfl, hq⟩⟩

theorem q_chunks (d : Dev nD) (f : Buf (Elt F) (qLoc d)) :
    (qLoc d ↦{fullShare} f : sProp 𝕄) = bigSep Finset.univ fun t : Fin 2 × Fin 16 × Fin 2 => qLoc d ↦[srcK t]{fullShare} f := by
  rw [← pointsTo_biUnion Finset.univ (ℓ := qLoc d) srcK src_disjoint, src_cover]; try rfl
theorem o_chunks (d : Dev nD) (f : Buf (Elt F) (oLoc d)) :
    (oLoc d ↦{fullShare} f : sProp 𝕄) = bigSep Finset.univ fun t : Fin 2 × Fin 16 × Fin 2 => oLoc d ↦[dstK t]{fullShare} f := by
  rw [← pointsTo_biUnion Finset.univ (ℓ := oLoc d) dstK dst_disjoint, dst_cover]; try rfl

/-- The queries held whole are the thirty-two subcores' two chunks each; -/
theorem q_split (d : Dev nD) (f : Buf (Elt F) (qLoc d)) :
    (qLoc d ↦{fullShare} f : sProp 𝕄)
      = bigSep Finset.univ fun c : Fin 2 => bigSep Finset.univ fun i : Fin 16 =>
          iprop((qLoc d ↦[srcSet (coordsV c i) 0]{fullShare} f) ∗ qLoc d ↦[srcSet (coordsV c i) 1]{fullShare} f) := by
  rw [q_chunks, bigSep_univ_prod]
  refine bigSep_congr fun c _ => ?_
  rw [bigSep_univ_prod]
  refine bigSep_congr fun i _ => ?_
  exact bigSep_univ_two _
/-- and so is the transposed array. -/
theorem o_split (d : Dev nD) (f : Buf (Elt F) (oLoc d)) :
    (oLoc d ↦{fullShare} f : sProp 𝕄)
      = bigSep Finset.univ fun c : Fin 2 => bigSep Finset.univ fun i : Fin 16 =>
          iprop((oLoc d ↦[dstSet (coordsV c i) 0]{fullShare} f) ∗ oLoc d ↦[dstSet (coordsV c i) 1]{fullShare} f) := by
  rw [o_chunks, bigSep_univ_prod]
  refine bigSep_congr fun c _ => ?_
  rw [bigSep_univ_prod]
  refine bigSep_congr fun i _ => ?_
  exact bigSep_univ_two _

variable (x : (d : Dev nD) → Buf (Elt F) (qLoc d)) (o : (d : Dev nD) → Buf (Elt F) (oLoc d))

/-- What the call takes from @main: the queries and the transposed array, whole; -/
theorem st_eq (d : Dev nD) :
    (bigSep Finset.univ fun c : Fin ((K (F := F)).nCore 0) => (P x o).st 0 d c)
      = iprop((qLoc d ↦{fullShare} x d) ∗ oLoc d ↦{fullShare} o d) := by
  rw [q_split, o_split]
  show (bigSep Finset.univ fun c : Fin 2 => bigSep Finset.univ fun i : Fin 16 => goRes x o d (coordsV c i)) = _
  unfold goRes
  simp only [bigSep_sep']
/-- and what it brings back: the queries, and the transposed array at the transposed queries. -/
theorem dn_eq (d : Dev nD) :
    (bigSep Finset.univ fun c : Fin ((K (F := F)).nCore 0) => (P x o).dn 0 d c)
      = iprop((qLoc d ↦{fullShare} x d) ∗ oLoc d ↦{fullShare} qT (x d)) := by
  rw [q_split, o_split]
  show (bigSep Finset.univ fun c : Fin 2 => bigSep Finset.univ fun i : Fin 16 => tdRes x d (coordsV c i)) = _
  unfold tdRes
  simp only [bigSep_sep']

end Cover

end Cert.Proof.KI

end
-- ==== Proof.TreeBody.lean ====
/-
  The first pipeline's body at one grid point: per head, eleven levels of pooled keys and pooled values.

  The body reads the head's column of the two staged inputs (all 2048 rows of one of the eight heads the staging
  buffers hold), and pools it level by level: level k stores a block of 2048 / 2^k rows of pooled keys and of pooled
  values (rounded to bf16) right after the block of level k - 1, so levels 1 to 10 fill rows 0 to 2045 in whole
  blocks; level 11 is the single row 2046, and row 2047 is set to zero. Rows 2046 and 2047 share their 32-bit words
  with each other only, and each is stored by reading the two-row block and writing it back with one row replaced.
  After both rows are replaced nothing of what the block held before is left, so what the two output buffers hold
  after the body is a function of the grid point and the two inputs alone.
-/
import proofs.«208975_g36283883717458_cont_8to1_b_1954_30_alg».proof.Proof.Common
import proofs.«208975_g36283883717458_cont_8to1_b_1954_30_alg».proof.Proof.Gen.KernelIdeal.Skeleton
import proofs.«208975_g36283883717458_cont_8to1_b_1954_30_alg».proof.Proof.Gen.KernelIdeal.Points
import Idealize.ShloMosaic.Lib.Pipeline.FrameBody
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rectangles the body reads and writes -/

/-- The head's column of a staged input: all 2048 rows of head `i 1` (of the eight the buffer holds), 128 lanes. -/
abbrev tIn (i : grid0.Coords) : Rect S2048x8x128 := Rect.unit (s := S2048x8x128) (k0_off1 i) S2048x1x128.size (k0_off1_inb i)

/-- Level k's block of rows of an output buffer (k = 1 … 10: 1024, 512, …, 2 rows, each right after the one before),
    and the last two rows, 2046 and 2047. -/
abbrev tR0 : Rect S1x2048x128 := Rect.unit (s := S1x2048x128) ![0, 0, 0] S1x1024x128.size inb_S1x2048x128_S1x1024x128_0_0_0
abbrev tR1024 : Rect S1x2048x128 := Rect.unit (s := S1x2048x128) ![0, 1024, 0] S1x512x128.size inb_S1x2048x128_S1x512x128_0_1024_0
abbrev tR1536 : Rect S1x2048x128 := Rect.unit (s := S1x2048x128) ![0, 1536, 0] S1x256x128.size inb_S1x2048x128_S1x256x128_0_1536_0
abbrev tR1792 : Rect S1x2048x128 := Rect.unit (s := S1x2048x128) ![0, 1792, 0] S1x128x128.size inb_S1x2048x128_S1x128x128_0_1792_0
abbrev tR1920 : Rect S1x2048x128 := Rect.unit (s := S1x2048x128) ![0, 1920, 0] S1x64x128.size inb_S1x2048x128_S1x64x128_0_1920_0
abbrev tR1984 : Rect S1x2048x128 := Rect.unit (s := S1x2048x128) ![0, 1984, 0] S1x32x128.size inb_S1x2048x128_S1x32x128_0_1984_0
abbrev tR2016 : Rect S1x2048x128 := Rect.unit (s := S1x2048x128) ![0, 2016, 0] S1x16x128.size inb_S1x2048x128_S1x16x128_0_2016_0
abbrev tR2032 : Rect S1x2048x128 := Rect.unit (s := S1x2048x128) ![0, 2032, 0] S1x8x128.size inb_S1x2048x128_S1x8x128_0_2032_0
abbrev tR2040 : Rect S1x2048x128 := Rect.unit (s := S1x2048x128) ![0, 2040, 0] S1x4x128.size inb_S1x2048x128_S1x4x128_0_2040_0
abbrev tR2044 : Rect S1x2048x128 := Rect.unit (s := S1x2048x128) ![0, 2044, 0] S1x2x128.size inb_S1x2048x128_S1x2x128_0_2044_0
abbrev tR2046 : Rect S1x2048x128 := Rect.unit (s := S1x2048x128) ![0, 2046, 0] S1x2x128.size inb_S1x2048x128_S1x2x128_0_2046_0

/-! ## Two rows replaced one after the other -/

/-- Every index of a two-row block lies in its first row or in its second. -/
theorem rows_cover (j : S1x2x128.Idx) (h0 : S1x2x128.Slices ![0, 0, 0] S1x1x128) (h1 : S1x2x128.Slices ![0, 1, 0] S1x1x128) :
    (∀ a : Fin S1x2x128.rank, (![0, 0, 0] : Fin 3 → Nat) a ≤ (j a).val ∧ (j a).val < (![0, 0, 0] : Fin 3 → Nat) a + S1x1x128.size (a.cast h0.1.symm))
    ∨ (∀ a : Fin S1x2x128.rank, (![0, 1, 0] : Fin 3 → Nat) a ≤ (j a).val ∧ (j a).val < (![0, 1, 0] : Fin 3 → Nat) a + S1x1x128.size (a.cast h1.1.symm)) := by
  have e0 : (j 0).val < 1 := (j 0).isLt
  have e1 : (j 1).val < 2 := (j 1).isLt
  have e2 : (j 2).val < 128 := (j 2).isLt
  by_cases hr : (j 1).val = 0
  · left
    refine Fin.forall_fin_succ.mpr ⟨?_, Fin.forall_fin_succ.mpr ⟨?_, Fin.forall_fin_succ.mpr ⟨?_, fun a => a.elim0⟩⟩⟩
    · show 0 ≤ (j 0).val ∧ (j 0).val < 0 + 1
      omega
    · show 0 ≤ (j 1).val ∧ (j 1).val < 0 + 1
      omega
    · show 0 ≤ (j 2).val ∧ (j 2).val < 0 + 128
      omega
  · right
    refine Fin.forall_fin_succ.mpr ⟨?_, Fin.forall_fin_succ.mpr ⟨?_, Fin.forall_fin_succ.mpr ⟨?_, fun a => a.elim0⟩⟩⟩
    · show 0 ≤ (j 0).val ∧ (j 0).val < 0 + 1
      omega
    · show 1 ≤ (j 1).val ∧ (j 1).val < 1 + 1
      omega
    · show 0 ≤ (j 2).val ∧ (j 2).val < 0 + 128
      omega

/-- A two-row block whose first row and then whose second row is replaced does not depend on what it held. -/
theorem two_rows {α : Type} (o o' : S1x2x128.Idx → α) (a b : S1x1x128.Idx → α)
    (h0 : S1x2x128.Slices ![0, 0, 0] S1x1x128) (h1 : S1x2x128.Slices ![0, 1, 0] S1x1x128) :
    updateSlice (updateSlice o a ![0, 0, 0] h0) b ![0, 1, 0] h1 = updateSlice (updateSlice o' a ![0, 0, 0] h0) b ![0, 1, 0] h1 := by
  funext j
  simp only [updateSlice]
  by_cases c1 : ∀ a : Fin S1x2x128.rank, (![0, 1, 0] : Fin 3 → Nat) a ≤ (j a).val ∧ (j a).val < (![0, 1, 0] : Fin 3 → Nat) a + S1x1x128.size (a.cast h1.1.symm)
  · simp only [dif_pos c1]
  · have c0 := (rows_cover j h0 h1).resolve_right c1
    simp only [dif_neg c1, dif_pos c0]

/-- The two-row block with first row `a` and second row `b`. -/
def tRows2 (a b : FVec F S1x1x128 .bf16) : Vec F S1x2x128 .bf16 :=
  updateSlice (updateSlice (fun _ => Classical.choice (Elt.nonempty F .bf16)) a ![0, 0, 0] slices_S1x2x128_S1x1x128_0_0_0) b ![0, 1, 0] slices_S1x2x128_S1x1x128_0_1_0

theorem tRows2_eq (o : Vec F S1x2x128 .bf16) (a b : FVec F S1x1x128 .bf16) :
    updateSlice (updateSlice o a ![0, 0, 0] slices_S1x2x128_S1x1x128_0_0_0) b ![0, 1, 0] slices_S1x2x128_S1x1x128_0_1_0 = tRows2 a b :=
  two_rows _ _ a b _ _

/-! ## What each level passes on to the next

The values the body's levels hand from one to the next, from the two columns read: level k's pooled keys and
pooled values before rounding, and the row statistics the next pooling weighs them by. Each is the body's own
expression for it, applied to the earlier ones. -/

/-- The constant 1e-9 (as f32) the pooling weights' denominators are kept above. -/
def tc22 : F .f32 := Scalar.ofBits .f32 0x3089705F#32

def t1 (i : grid0.Coords) (x0 x1 : Vec F S2048x8x128 .f32) : Vec F S2048x1x128 .f32 :=
  View.ld x0 (tIn i)
def t4 (i : grid0.Coords) (x0 x1 : Vec F S2048x8x128 .f32) : Vec F S2048x1x128 .f32 :=
  View.ld x1 (tIn i)
def t11 (i : grid0.Coords) (x0 x1 : Vec F S2048x8x128 .f32) : FVec F S1024x128 .f32 :=
  k0_pay5 (t4 i x0 x1)
def t14 (i : grid0.Coords) (x0 x1 : Vec F S2048x8x128 .f32) : FVec F S1024x128 .f32 :=
  k0_pay6 (t1 i x0 x1)
def t39 (i : grid0.Coords) (x0 x1 : Vec F S2048x8x128 .f32) : FVec F S1024x1 .f32 :=
  k0_pay14 (t1 i x0 x1)
def t44 (i : grid0.Coords) (x0 x1 : Vec F S2048x8x128 .f32) : FVec F S1024x128 .f32 :=
  k0_pay16 (t1 i x0 x1) (t4 i x0 x1)
def t45 (i : grid0.Coords) (x0 x1 : Vec F S2048x8x128 .f32) : FVec F S1024x1 .f32 :=
  k0_pay17 (t1 i x0 x1)
def t63 (i : grid0.Coords) (x0 x1 : Vec F S2048x8x128 .f32) : FVec F S512x128 .f32 :=
  k0_pay24 (t11 i x0 x1) (t39 i x0 x1) (t44 i x0 x1) (t45 i x0 x1)
def t64 (i : grid0.Coords) (x0 x1 : Vec F S2048x8x128 .f32) : FVec F S512x128 .f32 :=
  k0_pay25 (t11 i x0 x1) (t39 i x0 x1) (t44 i x0 x1) (t45 i x0 x1)
def t67 (i : grid0.Coords) (x0 x1 : Vec F S2048x8x128 .f32) : FVec F S512x128 .f32 :=
  k0_pay26 (t14 i x0 x1)
def t84 (i : grid0.Coords) (x0 x1 : Vec F S2048x8x128 .f32) : FVec F S512x1 .f32 :=
  k0_pay31 (t14 i x0 x1)
def t86 (i : grid0.Coords) (x0 x1 : Vec F S2048x8x128 .f32) : FVec F S512x1 .f32 :=
  k0_pay32 (t14 i x0 x1)
def t88 (i : grid0.Coords) (x0 x1 : Vec F S2048x8x128 .f32) : FVec F S512x1 .f32 :=
  k0_pay33 (t14 i x0 x1)
def t90 (i : grid0.Coords) (x0 x1 : Vec F S2048x8x128 .f32) : FVec F S512x1 .f32 :=
  k0_pay34 (t14 i x0 x1)
def t116 (i : grid0.Coords) (x0 x1 : Vec F S2048x8x128 .f32) : FVec F S256x128 .f32 :=
  k0_pay41 (t63 i x0 x1) (t64 i x0 x1) (t84 i x0 x1) (t86 i x0 x1) (t88 i x0 x1) (t90 i x0 x1) tc22
def t117 (i : grid0.Coords) (x0 x1 : Vec F S2048x8x128 .f32) : FVec F S256x128 .f32 :=
  k0_pay42 (t63 i x0 x1) (t64 i x0 x1) (t84 i x0 x1) (t86 i x0 x1) (t88 i x0 x1) (t90 i x0 x1) tc22
def t120 (i : grid0.Coords) (x0 x1 : Vec F S2048x8x128 .f32) : FVec F S256x128 .f32 :=
  k0_pay43 (t67 i x0 x1)
def t125 (i : grid0.Coords) (x0 x1 : Vec F S2048x8x128 .f32) : FVec F S256x1 .f32 :=
  k0_pay44 (t67 i x0 x1)
def t130 (i : grid0.Coords) (x0 x1 : Vec F S2048x8x128 .f32) : FVec F S256x1 .f32 :=
  k0_pay45 (t67 i x0 x1)
def t133 (i : grid0.Coords) (x0 x1 : Vec F S2048x8x128 .f32) : FVec F S256x1 .f32 :=
  k0_pay46 (t67 i x0 x1)
def t135 (i : grid0.Coords) (x0 x1 : Vec F S2048x8x128 .f32) : FVec F S256x1 .f32 :=
  k0_pay47 (t67 i x0 x1)
def t169 (i : grid0.Coords) (x0 x1 : Vec F S2048x8x128 .f32) : FVec F S128x128 .f32 :=
  k0_pay54 (t116 i x0 x1) (t117 i x0 x1) (t125 i x0 x1) (t130 i x0 x1) (t133 i x0 x1) (t135 i x0 x1)
def t170 (i : grid0.Coords) (x0 x1 : Vec F S2048x8x128 .f32) : FVec F S128x128 .f32 :=
  k0_pay55 (t116 i x0 x1) (t117 i x0 x1) (t125 i x0 x1) (t130 i x0 x1) (t133 i x0 x1) (t135 i x0 x1)
def t173 (i : grid0.Coords) (x0 x1 : Vec F S2048x8x128 .f32) : FVec F S128x128 .f32 :=
  k0_pay56 (t120 i x0 x1)
def t178 (i : grid0.Coords) (x0 x1 : Vec F S2048x8x128 .f32) : FVec F S128x1 .f32 :=
  k0_pay57 (t120 i x0 x1)
def t181 (i : grid0.Coords) (x0 x1 : Vec F S2048x8x128 .f32) : FVec F S128x1 .f32 :=
  k0_pay58 (t120 i x0 x1)
def t219 (i : grid0.Coords) (x0 x1 : Vec F S2048x8x128 .f32) : FVec F S64x128 .f32 :=
  k0_pay63 (t173 i x0 x1)
def t222 (i : grid0.Coords) (x0 x1 : Vec F S2048x8x128 .f32) : FVec F S64x128 .f32 :=
  k0_pay65 (t169 i x0 x1) (t170 i x0 x1) (t178 i x0 x1) (t181 i x0 x1)
def t223 (i : grid0.Coords) (x0 x1 : Vec F S2048x8x128 .f32) : FVec F S64x128 .f32 :=
  k0_pay66 (t169 i x0 x1) (t170 i x0 x1) (t178 i x0 x1) (t181 i x0 x1)
def t226 (i : grid0.Coords) (x0 x1 : Vec F S2048x8x128 .f32) : FVec F S64x128 .f32 :=
  k0_pay67 (t173 i x0 x1)
def t227 (i : grid0.Coords) (x0 x1 : Vec F S2048x8x128 .f32) : FVec F S64x128 .f32 :=
  k0_pay68 (t173 i x0 x1)
def t262 (i : grid0.Coords) (x0 x1 : Vec F S2048x8x128 .f32) : FVec F S64x128 .f32 :=
  k0_pay69 (t219 i x0 x1) (t222 i x0 x1) (t223 i x0 x1) (t226 i x0 x1) (t227 i x0 x1)
def t272 (i : grid0.Coords) (x0 x1 : Vec F S2048x8x128 .f32) : FVec F S32x128 .f32 :=
  k0_pay73 (t226 i x0 x1)
def t273 (i : grid0.Coords) (x0 x1 : Vec F S2048x8x128 .f32) : FVec F S32x128 .f32 :=
  k0_pay74 (t226 i x0 x1)
def t279 (i : grid0.Coords) (x0 x1 : Vec F S2048x8x128 .f32) : FVec F S32x128 .f32 :=
  k0_pay75 (t272 i x0 x1) (t273 i x0 x1)
def t315 (i : grid0.Coords) (x0 x1 : Vec F S2048x8x128 .f32) : FVec F S32x128 .f32 :=
  k0_pay76 (t262 i x0 x1) (t272 i x0 x1) (t273 i x0 x1)
def t320 (i : grid0.Coords) (x0 x1 : Vec F S2048x8x128 .f32) : FVec F S32x128 .bf16 :=
  k0_pay78 (t262 i x0 x1) (t272 i x0 x1) (t273 i x0 x1)
def t332 (i : grid0.Coords) (x0 x1 : Vec F S2048x8x128 .f32) : FVec F S16x128 .f32 :=
  k0_pay82 (t279 i x0 x1)
def t368 (i : grid0.Coords) (x0 x1 : Vec F S2048x8x128 .f32) : FVec F S16x128 .f32 :=
  k0_pay83 (t279 i x0 x1) (t315 i x0 x1)
def t369 (i : grid0.Coords) (x0 x1 : Vec F S2048x8x128 .f32) : FVec F S16x128 .bf16 :=
  k0_pay84 (t279 i x0 x1)
def t381 (i : grid0.Coords) (x0 x1 : Vec F S2048x8x128 .f32) : FVec F S8x128 .f32 :=
  k0_pay90 (t368 i x0 x1)
def t382 (i : grid0.Coords) (x0 x1 : Vec F S2048x8x128 .f32) : FVec F S8x128 .f32 :=
  k0_pay91 (t368 i x0 x1)
def t385 (i : grid0.Coords) (x0 x1 : Vec F S2048x8x128 .f32) : FVec F S8x128 .f32 :=
  k0_pay92 (t332 i x0 x1)
def t406 (i : grid0.Coords) (x0 x1 : Vec F S2048x8x128 .f32) : FVec F S8x1 .f32 :=
  k0_pay99 (t332 i x0 x1)
def t410 (i : grid0.Coords) (x0 x1 : Vec F S2048x8x128 .f32) : FVec F S8x1 .f32 :=
  k0_pay100 (t332 i x0 x1)
def t412 (i : grid0.Coords) (x0 x1 : Vec F S2048x8x128 .f32) : FVec F S8x1 .f32 :=
  k0_pay101 (t332 i x0 x1)
def t413 (i : grid0.Coords) (x0 x1 : Vec F S2048x8x128 .f32) : FVec F S8x1 .f32 :=
  k0_pay102 (t332 i x0 x1)
def t434 (i : grid0.Coords) (x0 x1 : Vec F S2048x8x128 .f32) : FVec F S4x128 .f32 :=
  k0_pay109 (t381 i x0 x1) (t382 i x0 x1) (t406 i x0 x1) (t410 i x0 x1) (t412 i x0 x1) (t413 i x0 x1)
def t435 (i : grid0.Coords) (x0 x1 : Vec F S2048x8x128 .f32) : FVec F S4x128 .f32 :=
  k0_pay110 (t381 i x0 x1) (t382 i x0 x1) (t406 i x0 x1) (t410 i x0 x1) (t412 i x0 x1) (t413 i x0 x1)
def t438 (i : grid0.Coords) (x0 x1 : Vec F S2048x8x128 .f32) : FVec F S4x128 .f32 :=
  k0_pay111 (t385 i x0 x1)
def t455 (i : grid0.Coords) (x0 x1 : Vec F S2048x8x128 .f32) : FVec F S4x1 .f32 :=
  k0_pay116 (t385 i x0 x1)
def t457 (i : grid0.Coords) (x0 x1 : Vec F S2048x8x128 .f32) : FVec F S4x1 .f32 :=
  k0_pay117 (t385 i x0 x1)
def t459 (i : grid0.Coords) (x0 x1 : Vec F S2048x8x128 .f32) : FVec F S4x1 .f32 :=
  k0_pay118 (t385 i x0 x1)
def t487 (i : grid0.Coords) (x0 x1 : Vec F S2048x8x128 .f32) : FVec F S2x128 .f32 :=
  k0_pay125 (t434 i x0 x1) (t435 i x0 x1) (t455 i x0 x1) (t457 i x0 x1) (t459 i x0 x1)
def t488 (i : grid0.Coords) (x0 x1 : Vec F S2048x8x128 .f32) : FVec F S2x128 .f32 :=
  k0_pay126 (t434 i x0 x1) (t435 i x0 x1) (t455 i x0 x1) (t457 i x0 x1) (t459 i x0 x1)
def t491 (i : grid0.Coords) (x0 x1 : Vec F S2048x8x128 .f32) : FVec F S2x128 .f32 :=
  k0_pay127 (t438 i x0 x1)
def t496 (i : grid0.Coords) (x0 x1 : Vec F S2048x8x128 .f32) : FVec F S2x1 .f32 :=
  k0_pay128 (t438 i x0 x1)
def t501 (i : grid0.Coords) (x0 x1 : Vec F S2048x8x128 .f32) : FVec F S2x1 .f32 :=
  k0_pay129 (t438 i x0 x1)
def t503 (i : grid0.Coords) (x0 x1 : Vec F S2048x8x128 .f32) : FVec F S2x1 .f32 :=
  k0_pay130 (t438 i x0 x1)
def t540 (i : grid0.Coords) (x0 x1 : Vec F S2048x8x128 .f32) : FVec F S1x128 .f32 :=
  k0_pay137 (t487 i x0 x1) (t488 i x0 x1) (t496 i x0 x1) (t501 i x0 x1) (t503 i x0 x1)
def t541 (i : grid0.Coords) (x0 x1 : Vec F S2048x8x128 .f32) : FVec F S1x128 .f32 :=
  k0_pay138 (t487 i x0 x1) (t488 i x0 x1) (t496 i x0 x1) (t501 i x0 x1) (t503 i x0 x1)
def t544 (i : grid0.Coords) (x0 x1 : Vec F S2048x8x128 .f32) : FVec F S1x128 .f32 :=
  k0_pay139 (t491 i x0 x1)
def t549 (i : grid0.Coords) (x0 x1 : Vec F S2048x8x128 .f32) : FVec F S1x1 .f32 :=
  k0_pay140 (t491 i x0 x1)
def t550 (i : grid0.Coords) (x0 x1 : Vec F S2048x8x128 .f32) : FVec F S1x128 .f32 :=
  k0_pay141 (t491 i x0 x1)

/-! ## What the body leaves in the two output buffers -/

/-- Levels 1 to 10 of the pooled keys: ten blocks of rows, LAST FIRST (rows 2044-2045 down to rows 0-1023). -/
def treeKtail (i : grid0.Coords) (x0 x1 : Vec F S2048x8x128 .f32) : List (View.Piece (Elt F) S1x2048x128 .bf16) :=
  [⟨tR2044, k0_pay132 (t491 i x0 x1)⟩,
    ⟨tR2040, k0_pay120 (t438 i x0 x1)⟩,
    ⟨tR2032, k0_pay104 (t385 i x0 x1)⟩,
    ⟨tR2016, k0_pay85 (t369 i x0 x1)⟩,
    ⟨tR1984, k0_pay77 (t272 i x0 x1) (t273 i x0 x1)⟩,
    ⟨tR1920, k0_pay70 (t226 i x0 x1)⟩,
    ⟨tR1792, k0_pay60 (t173 i x0 x1)⟩,
    ⟨tR1536, k0_pay49 (t120 i x0 x1)⟩,
    ⟨tR1024, k0_pay36 (t67 i x0 x1)⟩,
    ⟨tR0, k0_pay19 (t14 i x0 x1)⟩]

/-- The pooled keys' buffer after the body: level 11's row 2046 and the zero row 2047 over levels 1 to 10. -/
def treeK (i : grid0.Coords) (x0 x1 : Vec F S2048x8x128 .f32) : Vec F S1x2048x128 .bf16 :=
  View.canon (⟨tR2046, tRows2 (k0_pay142 (t544 i x0 x1)) (k0_pay144 (F := F))⟩ :: treeKtail i x0 x1)

/-- Levels 1 to 10 of the pooled values, likewise. -/
def treeVtail (i : grid0.Coords) (x0 x1 : Vec F S2048x8x128 .f32) : List (View.Piece (Elt F) S1x2048x128 .bf16) :=
  [⟨tR2044, k0_pay133 (t487 i x0 x1) (t488 i x0 x1) (t496 i x0 x1) (t501 i x0 x1) (t503 i x0 x1)⟩,
    ⟨tR2040, k0_pay121 (t434 i x0 x1) (t435 i x0 x1) (t455 i x0 x1) (t457 i x0 x1) (t459 i x0 x1)⟩,
    ⟨tR2032, k0_pay105 (t381 i x0 x1) (t382 i x0 x1) (t406 i x0 x1) (t410 i x0 x1) (t412 i x0 x1) (t413 i x0 x1)⟩,
    ⟨tR2016, k0_pay86 (t368 i x0 x1)⟩,
    ⟨tR1984, k0_pay79 (t320 i x0 x1)⟩,
    ⟨tR1920, k0_pay71 (t219 i x0 x1) (t222 i x0 x1) (t223 i x0 x1) (t226 i x0 x1) (t227 i x0 x1)⟩,
    ⟨tR1792, k0_pay61 (t169 i x0 x1) (t170 i x0 x1) (t178 i x0 x1) (t181 i x0 x1)⟩,
    ⟨tR1536, k0_pay50 (t116 i x0 x1) (t117 i x0 x1) (t125 i x0 x1) (t130 i x0 x1) (t133 i x0 x1) (t135 i x0 x1)⟩,
    ⟨tR1024, k0_pay37 (t63 i x0 x1) (t64 i x0 x1) (t84 i x0 x1) (t86 i x0 x1) (t88 i x0 x1) (t90 i x0 x1) tc22⟩,
    ⟨tR0, k0_pay20 (t11 i x0 x1) (t39 i x0 x1) (t44 i x0 x1) (t45 i x0 x1)⟩]

/-- The pooled values' buffer after the body. -/
def treeV (i : grid0.Coords) (x0 x1 : Vec F S2048x8x128 .f32) : Vec F S1x2048x128 .bf16 :=
  View.canon (⟨tR2046, tRows2 (k0_pay143 (t540 i x0 x1) (t541 i x0 x1) (t549 i x0 x1) (t550 i x0 x1)) (k0_pay1 (F := F))⟩ :: treeVtail i x0 x1)

/-- An index whose row lies in a block of rows lies in the block's rectangle. -/
theorem mem_rows {size : Fin 3 → ℕ} {o : ℕ} (inb : ∀ a, (![0, o, 0] : Fin 3 → ℕ) a + size a ≤ S1x2048x128.size a) (y : S1x2048x128.Idx)
    (hs0 : size 0 = 1) (hs2 : size 2 = 128) (h : o ≤ (y 1).val ∧ (y 1).val < o + size 1) :
    y ∈ (Rect.unit (s := S1x2048x128) ![0, o, 0] size inb).set := by
  rw [Rect.mem_set_unit]
  have e0 : (y 0).val < 1 := (y 0).isLt
  have e2 : (y 2).val < 128 := (y 2).isLt
  refine Fin.forall_fin_succ.mpr ⟨?_, Fin.forall_fin_succ.mpr ⟨?_, Fin.forall_fin_succ.mpr ⟨?_, fun a => a.elim0⟩⟩⟩
  · show 0 ≤ (y 0).val ∧ (y 0).val < 0 + size 0
    rw [hs0]; omega
  · exact h
  · show 0 ≤ (y 2).val ∧ (y 2).val < 0 + size 2
    rw [hs2]; omega

/-- The eleven blocks cover the 2048 rows: 1024 + 512 + … + 2 + 2. -/
theorem tree_cover (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (y : S1x2048x128.Idx) :
    ∃ pc ∈ ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16)), y ∈ pc.1.set := by
  have hr : (y 1).val < 2048 := (y 1).isLt
  by_cases h0 : 2046 ≤ (y 1).val
  · exact ⟨⟨tR2046, p0⟩, List.mem_cons_self, mem_rows inb_S1x2048x128_S1x2x128_0_2046_0 y rfl rfl ⟨by omega, by show (y 1).val < 2046 + 2; omega⟩⟩
  by_cases h1 : 2044 ≤ (y 1).val
  · exact ⟨⟨tR2044, p1⟩, List.mem_cons_of_mem _ (List.mem_cons_self), mem_rows inb_S1x2048x128_S1x2x128_0_2044_0 y rfl rfl ⟨by omega, by show (y 1).val < 2044 + 2; omega⟩⟩
  by_cases h2 : 2040 ≤ (y 1).val
  · exact ⟨⟨tR2040, p2⟩, List.mem_cons_of_mem _ (List.mem_cons_of_mem _ (List.mem_cons_self)), mem_rows inb_S1x2048x128_S1x4x128_0_2040_0 y rfl rfl ⟨by omega, by show (y 1).val < 2040 + 4; omega⟩⟩
  by_cases h3 : 2032 ≤ (y 1).val
  · exact ⟨⟨tR2032, p3⟩, List.mem_cons_of_mem _ (List.mem_cons_of_mem _ (List.mem_cons_of_mem _ (List.mem_cons_self))), mem_rows inb_S1x2048x128_S1x8x128_0_2032_0 y rfl rfl ⟨by omega, by show (y 1).val < 2032 + 8; omega⟩⟩
  by_cases h4 : 2016 ≤ (y 1).val
  · exact ⟨⟨tR2016, p4⟩, List.mem_cons_of_mem _ (List.mem_cons_of_mem _ (List.mem_cons_of_mem _ (List.mem_cons_of_mem _ (List.mem_cons_self)))), mem_rows inb_S1x2048x128_S1x16x128_0_2016_0 y rfl rfl ⟨by omega, by show (y 1).val < 2016 + 16; omega⟩⟩
  by_cases h5 : 1984 ≤ (y 1).val
  · exact ⟨⟨tR1984, p5⟩, List.mem_cons_of_mem _ (List.mem_cons_of_mem _ (List.mem_cons_of_mem _ (List.mem_cons_of_mem _ (List.mem_cons_of_mem _ (List.mem_cons_self))))), mem_rows inb_S1x2048x128_S1x32x128_0_1984_0 y rfl rfl ⟨by omega, by show (y 1).val < 1984 + 32; omega⟩⟩
  by_cases h6 : 1920 ≤ (y 1).val
  · exact ⟨⟨tR1920, p6⟩, List.mem_cons_of_mem _ (List.mem_cons_of_mem _ (List.mem_cons_of_mem _ (List.mem_cons_of_mem _ (List.mem_cons_of_mem _ (List.mem_cons_of_mem _ (List.mem_cons_self)))))), mem_rows inb_S1x2048x128_S1x64x128_0_1920_0 y rfl rfl ⟨by omega, by show (y 1).val < 1920 + 64; omega⟩⟩
  by_cases h7 : 1792 ≤ (y 1).val
  · exact ⟨⟨tR1792, p7⟩, List.mem_cons_of_mem _ (List.mem_cons_of_mem _ (List.mem_cons_of_mem _ (List.mem_cons_of_mem _ (List.mem_cons_of_mem _ (List.mem_cons_of_mem _ (List.mem_cons_of_mem _ (List.mem_cons_self))))))), mem_rows inb_S1x2048x128_S1x128x128_0_1792_0 y rfl rfl ⟨by omega, by show (y 1).val < 1792 + 128; omega⟩⟩
  by_cases h8 : 1536 ≤ (y 1).val
  · exact ⟨⟨tR1536, p8⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_rows inb_S1x2048x128_S1x256x128_0_1536_0 y rfl rfl ⟨by omega, by show (y 1).val < 1536 + 256; omega⟩⟩
  by_cases h9 : 1024 ≤ (y 1).val
  · exact ⟨⟨tR1024, p9⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_rows inb_S1x2048x128_S1x512x128_0_1024_0 y rfl rfl ⟨by omega, by show (y 1).val < 1024 + 512; omega⟩⟩
  exact ⟨⟨tR0, p10⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_rows inb_S1x2048x128_S1x1024x128_0_0_0 y rfl rfl ⟨by omega, by show (y 1).val < 0 + 1024; omega⟩⟩

/-- So do the pooled keys' pieces, whatever the last two rows' block is written with, -/
theorem treeK_cover (p0 : Vec F S1x2x128 .bf16) (i : grid0.Coords) (x0 x1 : Vec F S2048x8x128 .f32) (y : S1x2048x128.Idx) :
    ∃ pc ∈ ((⟨tR2046, p0⟩ : View.Piece (Elt F) S1x2048x128 .bf16) :: treeKtail i x0 x1), y ∈ pc.1.set :=
  tree_cover p0 _ _ _ _ _ _ _ _ _ _ y

/-- and the pooled values'. -/
theorem treeV_cover (p0 : Vec F S1x2x128 .bf16) (i : grid0.Coords) (x0 x1 : Vec F S2048x8x128 .f32) (y : S1x2048x128.Idx) :
    ∃ pc ∈ ((⟨tR2046, p0⟩ : View.Piece (Elt F) S1x2048x128 .bf16) :: treeVtail i x0 x1), y ∈ pc.1.set :=
  tree_cover p0 _ _ _ _ _ _ _ _ _ _ y

/-! ## The body's triple -/

/-- A rectangle written, read back whole and written again with the read-back changed: the first write drops out, and
    the second's payload is the change applied to the first's — whatever the buffer held before, when the pieces
    cover the shape. -/
theorem read_writes_twice {sg : RefSig} {κ : Kind} {sp : Space} {s : Shape} {e : EltTy} {Val : EltTy → Type} [∀ e, Nonempty (Val e)]
    (v : View sg κ sp s e) (f : v.ty.Contents Val) (R : Rect s) (w : R.shape.Idx → Val e)
    (W : (R.shape.Idx → Val e) → (R.shape.Idx → Val e)) (L : List (View.Piece Val s e))
    (hcov : ∀ y, ∃ pc ∈ ((⟨R, W w⟩ : View.Piece Val s e) :: L), y ∈ pc.1.set) :
    v.read Val (v.writes Val f (⟨R, W (v.readCov (⟨R, w⟩ :: L) R.toLoadRect)⟩ :: ⟨R, w⟩ :: L)) = View.canon (⟨R, W w⟩ :: L) := by
  rw [View.readCov_cons_toLoadRect, View.writes_cons_drop v f _ R w L (fun y hy => hy)]
  exact View.read_writes_eq_canon v f _ hcov

/-- What the body's stores leave in the pooled keys' buffer reads `treeK`: rows 2046 and 2047 are written through their
    two-row block twice, the second time over the first's read-back. -/
theorem treeK_of_run {sg : RefSig} {κ : Kind} {sp : Space} (v : View sg κ sp S1x2048x128 .bf16) (f : v.ty.Contents (Elt F))
    (o : Vec F S1x2x128 .bf16) (i : grid0.Coords) (x0 x1 : Vec F S2048x8x128 .f32) :
    v.read (Elt F) (v.writes (Elt F) f
      (⟨tR2046, (fun old => updateSlice old (k0_pay144 (F := F)) ![0, 1, 0] slices_S1x2x128_S1x1x128_0_1_0)
          (v.readCov (⟨tR2046, (fun old => updateSlice old (k0_pay142 (t544 i x0 x1)) ![0, 0, 0] slices_S1x2x128_S1x1x128_0_0_0) o⟩ :: treeKtail i x0 x1) tR2046.toLoadRect)⟩
        :: ⟨tR2046, (fun old => updateSlice old (k0_pay142 (t544 i x0 x1)) ![0, 0, 0] slices_S1x2x128_S1x1x128_0_0_0) o⟩ :: treeKtail i x0 x1))
      = treeK i x0 x1 :=
  (read_writes_twice v f tR2046 (updateSlice o (k0_pay142 (t544 i x0 x1)) ![0, 0, 0] slices_S1x2x128_S1x1x128_0_0_0)
      (fun old => updateSlice old (k0_pay144 (F := F)) ![0, 1, 0] slices_S1x2x128_S1x1x128_0_1_0) (treeKtail i x0 x1)
      (fun y => treeK_cover _ i x0 x1 y)).trans
    (congrArg (fun w => View.canon ((⟨tR2046, w⟩ : View.Piece (Elt F) S1x2048x128 .bf16) :: treeKtail i x0 x1))
      (tRows2_eq o (k0_pay142 (t544 i x0 x1)) (k0_pay144 (F := F))))

/-- The same of the pooled values' buffer. -/
theorem treeV_of_run {sg : RefSig} {κ : Kind} {sp : Space} (v : View sg κ sp S1x2048x128 .bf16) (f : v.ty.Contents (Elt F))
    (o : Vec F S1x2x128 .bf16) (i : grid0.Coords) (x0 x1 : Vec F S2048x8x128 .f32) :
    v.read (Elt F) (v.writes (Elt F) f
      (⟨tR2046, (fun old => updateSlice old (k0_pay1 (F := F)) ![0, 1, 0] slices_S1x2x128_S1x1x128_0_1_0)
          (v.readCov (⟨tR2046, (fun old => updateSlice old (k0_pay143 (t540 i x0 x1) (t541 i x0 x1) (t549 i x0 x1) (t550 i x0 x1)) ![0, 0, 0] slices_S1x2x128_S1x1x128_0_0_0) o⟩ :: treeVtail i x0 x1) tR2046.toLoadRect)⟩
        :: ⟨tR2046, (fun old => updateSlice old (k0_pay143 (t540 i x0 x1) (t541 i x0 x1) (t549 i x0 x1) (t550 i x0 x1)) ![0, 0, 0] slices_S1x2x128_S1x1x128_0_0_0) o⟩ :: treeVtail i x0 x1))
      = treeV i x0 x1 :=
  (read_writes_twice v f tR2046 (updateSlice o (k0_pay143 (t540 i x0 x1) (t541 i x0 x1) (t549 i x0 x1) (t550 i x0 x1)) ![0, 0, 0] slices_S1x2x128_S1x1x128_0_0_0)
      (fun old => updateSlice old (k0_pay1 (F := F)) ![0, 1, 0] slices_S1x2x128_S1x1x128_0_1_0) (treeVtail i x0 x1)
      (fun y => treeV_cover _ i x0 x1 y)).trans
    (congrArg (fun w => View.canon ((⟨tR2046, w⟩ : View.Piece (Elt F) S1x2048x128 .bf16) :: treeVtail i x0 x1))
      (tRows2_eq o (k0_pay143 (t540 i x0 x1) (t541 i x0 x1) (t549 i x0 x1) (t550 i x0 x1)) (k0_pay1 (F := F))))

set_option maxHeartbeats 4000000 in
/-- The body on whole staging memrefs, the two inputs' at read contents `x0`, `x1` and the two outputs' at anything,
    runs to the continuation holding the inputs' as they were and the outputs' at `treeK`, `treeV` of the inputs':
    the inputs' columns are read off contents the body never writes; every store's block is disjoint from the ones
    before it, except the last two rows' block, which is read back and rewritten. -/
theorem sound_tree (c : Dev nD) (E : Set ℕ) (i : grid0.Coords) (arg2 : Memref sig .tc .vmem S2048x8x128 .f32) (harg2 : arg2.IsWhole) (arg3 : Memref sig .tc .vmem S2048x8x128 .f32) (harg3 : arg3.IsWhole) (arg4 : Memref sig .tc .vmem S1x2048x128 .bf16) (harg4 : arg4.IsWhole) (arg5 : Memref sig .tc .vmem S1x2048x128 .bf16) (harg5 : arg5.IsWhole)
    (x0 x1 : Vec F S2048x8x128 .f32) (Kc : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (treeK i x0 x1) ∗ owns (c : Thread nD τ) arg5 fullShare (treeV i x0 x1)) -∗ Kc ⟨⟩))
      ⊢ wp frame (wpE (defs₀ (F := F)) Variants.none c none) E (cc0__tree_kernel i arg2 harg2 arg3 harg3 arg4 harg4 arg5 harg5) Kc := by
  simp only [cc0__tree_kernel_eq_skeleton]; unfold cc0__tree_kernel_skel
  unfold owns
  iintro ⟨⟨%f0, %hf0, H0⟩, ⟨%f1, %hf1, H1⟩, ⟨%d4, %f4, -, H4⟩, ⟨%d5, %f5, -, H5⟩, Hk⟩
  subst hf0 hf1
  sl_exec_parts
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact treeK_of_run arg4.view f4 (View.readAt (Elt F) arg4.view tR2046.toLoadRect f4) i (View.read (Elt F) arg2.view f0) (View.read (Elt F) arg3.view f1)
  iexists _; isplitr
  swap; · iexact H5
  ipureintro
  exact treeV_of_run arg5.view f5 (View.readAt (Elt F) arg5.view tR2046.toLoadRect f5) i (View.read (Elt F) arg2.view f0) (View.read (Elt F) arg3.view f1)

end Cert.Proof.KI

end
-- ==== Proof.Region0.lean ====
/-
  The first pipeline as the launch sees it: per core, what the pipeline's arrays hold when it is entered, what the body
  leaves in each window's staging buffer at each of the sixteen points, and the body's obligation at every point.

  The grid is two halves of eight heads. The two input windows stage, per half, all 2048 rows of the half's eight heads
  of the keys and of the values; they are fetched when the half changes and found in place at the other seven points.
  The two output windows stage one head's 2048 rows of pooled keys and pooled values, written back at every point. The
  body reads the head's column of the two inputs and fills the two outputs; it uses nothing else, signals nothing and
  waits for nothing, so what the core owes the launch handshakes rides through every point unchanged.
-/
import proofs.«208975_g36283883717458_cont_8to1_b_1954_30_alg».proof.Proof.LaunchDefs
import proofs.«208975_g36283883717458_cont_8to1_b_1954_30_alg».proof.Proof.TreeBody
import proofs.«208975_g36283883717458_cont_8to1_b_1954_30_alg».proof.Proof.Gen.KernelIdeal.Launch
import proofs.«208975_g36283883717458_cont_8to1_b_1954_30_alg».proof.Proof.Gen.KernelIdeal.Points
import Idealize.ShloMosaic.Lib.Pipeline.Regions
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The arrays as the pipeline finds them, and the windows' blocks -/

/-- Core `d`'s TensorCore buffers when the pipeline is entered: the launch contents after the three reshapes. -/
abbrev VR (d : Dev nD) (b : Ref sig .tc) : Buf (Elt F) ((d : Thread nD τ).loc b) := V1 m d b

/-- Window `w`'s block at point `t`, read off its array as the pipeline finds it. -/
def iblk0 (d : Dev nD) (w : Fin cfg0.W) (t : Fin cfg0.N) : ((cfg0.win w).xblock (cfg0.grid.coords t)).Idx → Elt F (cfg0.win w).elt :=
  ((cfg0.win w).blk t).view.read (Elt F) (VR m d (Pipeline.arrRef spec0 w))

/-- The invariant between points: the core's scoped buffers that are no staging buffer of this pipeline, each at some
    contents. The body touches none of them. -/
def Φ0 (d : Dev nD) : sProp 𝕄 :=
  Pipeline.scopedRest (Ix := HIx 1) (Name := ℕ) (U := UU) (Lvl := ℕ) (Val := Elt F) spec0 d

/-- The proof data of the first pipeline on core `d`: the arrays as the pipeline finds them; after the body at point
    `t` each input's buffer at its block and the two outputs' at the pooled keys and pooled values of the two input
    blocks, at the point's head; the invariant `Φ0`; full shares; what the core owes the launch handshakes before the
    first call, at every point; its recorded waits at or below level 0. -/
def dats0 (d : Dev nD) : Dat τ (Elt F) (HIx 1) ℕ UU ℕ cfg0 d where
  A w := VR m d (Pipeline.arrRef spec0 w)
  after w t := match w with
    | ⟨0, _⟩ => iblk0 m d 0 t
    | ⟨1, _⟩ => iblk0 m d 1 t
    | ⟨2, _⟩ => treeK (grid0.coords t) (iblk0 m d 0 t) (iblk0 m d 1 t)
    | ⟨3, _⟩ => treeV (grid0.coords t) (iblk0 m d 0 t) (iblk0 m d 1 t)
  Φ _ := Φ0 d
  q _ := fullShare
  owed _ := (K (F := F)).Otc d 0
  recorded _ := {p | (K (F := F)).lev (T d, p.1) p.2 ≤ 0}

theorem A0_eq (d : Dev nD) (w : Fin cfg0.W) : (dats0 m d).A w = VR m d (Pipeline.arrRef spec0 w) := by
  dsimp only [dats0]

theorem after0_0 (d : Dev nD) (t : Fin cfg0.N) : (dats0 m d).after 0 t = iblk0 m d 0 t := by dsimp only [dats0]
theorem after0_1 (d : Dev nD) (t : Fin cfg0.N) : (dats0 m d).after 1 t = iblk0 m d 1 t := by dsimp only [dats0]
theorem after0_2 (d : Dev nD) (t : Fin cfg0.N) :
    (dats0 m d).after 2 t = treeK (grid0.coords t) (iblk0 m d 0 t) (iblk0 m d 1 t) := by dsimp only [dats0]
theorem after0_3 (d : Dev nD) (t : Fin cfg0.N) :
    (dats0 m d).after 3 t = treeV (grid0.coords t) (iblk0 m d 0 t) (iblk0 m d 1 t) := by dsimp only [dats0]

/-- An input's current staging buffer holds its block at every point, fetched there or not: not fetched, the half has
    not changed, and the buffer still holds the block the previous point's body left in place. -/
theorem before0_0 (d : Dev nD) (t : Fin cfg0.N) (x) : (dats0 m d).before 0 t x = iblk0 m d 0 t :=
  ((dats0 m d).before_in_eq_fetched 0 rfl (fun _ => rfl) (fun _ _ _ => rfl)
    (fun t => by rw [after0_0]; unfold Dat.blockOf iblk0; rw [A0_eq]; try rfl) t x).trans
    (by unfold Dat.fetched Dat.blockOf iblk0; rw [A0_eq]; try rfl)
theorem before0_1 (d : Dev nD) (t : Fin cfg0.N) (x) : (dats0 m d).before 1 t x = iblk0 m d 1 t :=
  ((dats0 m d).before_in_eq_fetched 1 rfl (fun _ => rfl) (fun _ _ _ => rfl)
    (fun t => by rw [after0_1]; unfold Dat.blockOf iblk0; rw [A0_eq]; try rfl) t x).trans
    (by unfold Dat.fetched Dat.blockOf iblk0; rw [A0_eq]; try rfl)

/-! ## The body obligation, at a generic point -/

/-- What the body is called with at point `t`, the windows one by one, -/
def bodyPre0 (d : Dev nD) (t : Fin cfg0.N) : sProp 𝕄 :=
  iprop((dats0 m d).Φ t.castSucc ∗ (dats0 m d).owesAt (none : HIx 1) t.castSucc
    ∗ (∃ x, owns (d : Thread nD τ) (st0_0 t) fullShare ((dats0 m d).before 0 t x))
    ∗ (∃ x, owns (d : Thread nD τ) (st0_1 t) fullShare ((dats0 m d).before 1 t x))
    ∗ (∃ x, owns (d : Thread nD τ) (st0_2 t) fullShare ((dats0 m d).before 2 t x))
    ∗ (∃ x, owns (d : Thread nD τ) (st0_3 t) fullShare ((dats0 m d).before 3 t x)))

/-- and what it returns. -/
def bodyPost0 (d : Dev nD) (t : Fin cfg0.N) : sProp 𝕄 :=
  iprop((dats0 m d).Φ t.succ ∗ (dats0 m d).owesAt (none : HIx 1) t.succ
    ∗ owns (d : Thread nD τ) (st0_0 t) fullShare ((dats0 m d).after 0 t)
    ∗ owns (d : Thread nD τ) (st0_1 t) fullShare ((dats0 m d).after 1 t)
    ∗ owns (d : Thread nD τ) (st0_2 t) fullShare ((dats0 m d).after 2 t)
    ∗ owns (d : Thread nD τ) (st0_3 t) fullShare ((dats0 m d).after 3 t))

/-- The body at any point: the inputs' buffers hold their blocks, so the body's triple applies; the invariant and what
    the core owes pass through unread. -/
theorem sound_body0 (d : Dev nD) (t : Fin cfg0.N) :
    bodyPre0 m d t ⊢ wp frame (wpE (defs₀ (F := F)) Variants.none d none) Set.univ (bodyAt0 t) (fun _ => bodyPost0 m d t) := by
  unfold bodyPre0 bodyPost0 bodyAt0
  simp only [before0_0, before0_1]
  rw [show (dats0 m d).Φ t.succ = (dats0 m d).Φ t.castSucc from rfl,
    show (dats0 m d).owesAt (none : HIx 1) t.succ = (dats0 m d).owesAt (none : HIx 1) t.castSucc from rfl,
    after0_0, after0_1, after0_2, after0_3]
  iintro ⟨HΦ, Ho, ⟨%d0, H0⟩, ⟨%d1, H1⟩, ⟨%d2, H2⟩, ⟨%d3, H3⟩⟩
  iapply (sound_tree d Set.univ (grid0.coords t) _ _ _ _ _ _ _ _ (iblk0 m d 0 t) (iblk0 m d 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (d : Dev nD) : BodyObligation (dats0 (F := F) m d) (defs₀ (F := F)) Variants.none (none : HIx 1) Set.univ := fun t => by
  rw [bigSep_W0, bigSep_W0]
  exact sound_body0 m d t

end Cert.Proof.KI

end
-- ==== Proof.AttnBody.lean ====
/-
  The attention body as one triple.

  At a grid point the body reads three staged blocks whole: the queries of one head ([1, 2048, 128]), that head's
  pooled keys and its pooled values (both [1, 2048, 128], the last row zero). The queries are scaled once; then, for
  each of sixteen chunks of 128 query rows, the chunk's scores against all 2048 keys, their exponentials, the row sums
  less one, the exponentials' product with the values, and the quotient give a 128 x 128 tile. The tile of chunk j is
  stored into the output's staging buffer ([2048, 8, 128]) at rows 128 j … 128 j + 127 of ONE of its eight head
  columns, the point's second coordinate; the other seven columns keep what the buffer held. So what the buffer holds
  afterwards is its old contents with sixteen rectangles laid over it, each carrying its chunk's tile.

  Laying pieces over given contents: overlays; what a memory's listed writes read as is exactly that
  (read_writes_eq_overlays). The sixteen rectangles sit at rows 128 j on the first axis, at the point's head on the
  second and span the third; they are pairwise disjoint, an index whose head is another one lies in none of them
  (attnOut_of_head_ne), and an index of the point's head reads its chunk's tile at the row's remainder
  (attnOut_of_head_eq).
-/
import proofs.«208975_g36283883717458_cont_8to1_b_1954_30_alg».proof.Proof.Common
import proofs.«208975_g36283883717458_cont_8to1_b_1954_30_alg».proof.Proof.Gen.KernelIdeal.Skeleton
import proofs.«208975_g36283883717458_cont_8to1_b_1954_30_alg».proof.Proof.Gen.KernelIdeal.Points
import Idealize.ShloMosaic.Lib.Pipeline.FrameBody
import Idealize.ShloMosaic.Lib.Tactic
import Idealize.ShloMosaic.Lib.ValueIdx

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Pieces laid over given contents -/

section Overlays
variable {s : Shape} {e : EltTy} {Val : EltTy → Type}

/-- The contents d with the pieces of the list laid over it, the head of the list on top: at an index the payload of
    the first piece whose rectangle holds it, and d at an index no piece holds. -/
def overlays (d : s.Idx → Val e) : List (View.Piece Val s e) → s.Idx → Val e
  | [] => d
  | p :: L => p.1.overlay (overlays d L) p.2

/-- What a view reads after a list of unmasked writes (the last write first) is what it read before with the writes'
    pieces laid over it. -/
theorem read_writes_eq_overlays {sg : RefSig} {κ : Kind} {sp : Space} (v : View sg κ sp s e) (f : v.ty.Contents Val) :
    ∀ L : List (View.Piece Val s e), v.read Val (v.writes Val f L) = overlays (v.read Val f) L
  | [] => rfl
  | p :: L => by
    funext y
    by_cases hy : y ∈ p.1.set
    · obtain ⟨x, rfl⟩ : ∃ x, p.1.emb x = y := p.1.exists_idx_of_mem hy
      obtain ⟨r, w⟩ := p
      rw [View.read_writes_cons_emb]; exact (r.overlay_emb _ _ x).symm
    · have hy' : y ∉ Finset.univ.map p.1.emb := by rwa [Rect.map_emb_univ]
      rw [View.writes_cons, View.read_slice_write_of_not_mem p.1 _ _ _ hy']
      show _ = p.1.overlay (overlays (v.read Val f) L) p.2 y
      rw [Rect.overlay_of_not_mem _ _ _ hy, read_writes_eq_overlays v f L]

/-- An index no piece holds keeps the old contents. -/
theorem overlays_of_forall_not_mem (d : s.Idx → Val e) (y : s.Idx) :
    ∀ L : List (View.Piece Val s e), (∀ p ∈ L, y ∉ p.1.set) → overlays d L y = d y
  | [], _ => rfl
  | p :: L, h => by
    show p.1.overlay (overlays d L) p.2 y = d y
    rw [Rect.overlay_of_not_mem _ _ _ (h p List.mem_cons_self)]
    exact overlays_of_forall_not_mem d y L fun q hq => h q (List.mem_cons_of_mem _ hq)

/-- When every piece's payload is one function G read at the piece's own indices, an index some piece holds reads G. -/
theorem overlays_of_pieces (d : s.Idx → Val e) (G : s.Idx → Val e) :
    ∀ L : List (View.Piece Val s e), (∀ p ∈ L, ∀ x : p.1.shape.Idx, p.2 x = G (p.1.emb x)) →
      ∀ y : s.Idx, (∃ p ∈ L, y ∈ p.1.set) → overlays d L y = G y
  | [], _, _, h => by obtain ⟨_, hm, _⟩ := h; exact absurd hm List.not_mem_nil
  | p :: L, hG, y, h => by
    show p.1.overlay (overlays d L) p.2 y = G y
    by_cases hy : y ∈ p.1.set
    · obtain ⟨x, rfl⟩ : ∃ x, p.1.emb x = y := p.1.exists_idx_of_mem hy
      rw [Rect.overlay_emb]; exact hG p List.mem_cons_self x
    · rw [Rect.overlay_of_not_mem _ _ _ hy]
      refine overlays_of_pieces d G L (fun q hq => hG q (List.mem_cons_of_mem _ hq)) y ?_
      obtain ⟨q, hm, hq⟩ := h
      rcases List.mem_cons.mp hm with rfl | hm
      · exact absurd hq hy
      · exact ⟨q, hm, hq⟩

end Overlays

/-! ## The body's rectangles and tiles -/

/-- A staged input block, whole. -/
abbrev rIn : Rect S1x2048x128 :=
  Rect.unit (s := S1x2048x128) ![0, 0, 0] S1x2048x128.size inb_S1x2048x128_S1x2048x128_0_0_0

/-- The sixteen stores' rectangles: rows 128 (n - 1) … of the point's head column. -/
abbrev rO1 (i : grid2.Coords) : Rect S2048x8x128 := Rect.unit (s := S2048x8x128) (k2_off1 i) S128x1x128.size (k2_off1_inb i)
abbrev rO2 (i : grid2.Coords) : Rect S2048x8x128 := Rect.unit (s := S2048x8x128) (k2_off2 i) S128x1x128.size (k2_off2_inb i)
abbrev rO3 (i : grid2.Coords) : Rect S2048x8x128 := Rect.unit (s := S2048x8x128) (k2_off3 i) S128x1x128.size (k2_off3_inb i)
abbrev rO4 (i : grid2.Coords) : Rect S2048x8x128 := Rect.unit (s := S2048x8x128) (k2_off4 i) S128x1x128.size (k2_off4_inb i)
abbrev rO5 (i : grid2.Coords) : Rect S2048x8x128 := Rect.unit (s := S2048x8x128) (k2_off5 i) S128x1x128.size (k2_off5_inb i)
abbrev rO6 (i : grid2.Coords) : Rect S2048x8x128 := Rect.unit (s := S2048x8x128) (k2_off6 i) S128x1x128.size (k2_off6_inb i)
abbrev rO7 (i : grid2.Coords) : Rect S2048x8x128 := Rect.unit (s := S2048x8x128) (k2_off7 i) S128x1x128.size (k2_off7_inb i)
abbrev rO8 (i : grid2.Coords) : Rect S2048x8x128 := Rect.unit (s := S2048x8x128) (k2_off8 i) S128x1x128.size (k2_off8_inb i)
abbrev rO9 (i : grid2.Coords) : Rect S2048x8x128 := Rect.unit (s := S2048x8x128) (k2_off9 i) S128x1x128.size (k2_off9_inb i)
abbrev rO10 (i : grid2.Coords) : Rect S2048x8x128 := Rect.unit (s := S2048x8x128) (k2_off10 i) S128x1x128.size (k2_off10_inb i)
abbrev rO11 (i : grid2.Coords) : Rect S2048x8x128 := Rect.unit (s := S2048x8x128) (k2_off11 i) S128x1x128.size (k2_off11_inb i)
abbrev rO12 (i : grid2.Coords) : Rect S2048x8x128 := Rect.unit (s := S2048x8x128) (k2_off12 i) S128x1x128.size (k2_off12_inb i)
abbrev rO13 (i : grid2.Coords) : Rect S2048x8x128 := Rect.unit (s := S2048x8x128) (k2_off13 i) S128x1x128.size (k2_off13_inb i)
abbrev rO14 (i : grid2.Coords) : Rect S2048x8x128 := Rect.unit (s := S2048x8x128) (k2_off14 i) S128x1x128.size (k2_off14_inb i)
abbrev rO15 (i : grid2.Coords) : Rect S2048x8x128 := Rect.unit (s := S2048x8x128) (k2_off15 i) S128x1x128.size (k2_off15_inb i)
abbrev rO16 (i : grid2.Coords) : Rect S2048x8x128 := Rect.unit (s := S2048x8x128) (k2_off16 i) S128x1x128.size (k2_off16_inb i)

/-- The scaled queries, the keys and the values as the body holds them (each a function of its block alone). -/
def attnQ (x0 : Vec F S1x2048x128 .f32) : FVec F S2048x128 .bf16 := k2_pay2 (View.ld x0 rIn)
def attnK (x1 : Vec F S1x2048x128 .bf16) : FVec F S2048x128 .bf16 := k2_pay3 (View.ld x1 rIn)
def attnV (x2 : Vec F S1x2048x128 .bf16) : FVec F S2048x128 .bf16 := k2_pay4 (View.ld x2 rIn)

/-- Chunk j's tile: the quotient of the exponentials' product with the values by the row sums less one, for query
    rows 128 j … 128 j + 127, as a [128, 1, 128] block. -/
def attnPay (x0 : Vec F S1x2048x128 .f32) (x1 x2 : Vec F S1x2048x128 .bf16) : Fin 16 → FVec F S128x1x128 .f32
  | ⟨0, _⟩ => k2_pay5 (View.ld x0 rIn) (View.ld x1 rIn) (View.ld x2 rIn)
  | ⟨1, _⟩ => k2_pay7 (k2_pay6 (View.ld x0 rIn) (View.ld x1 rIn) (View.ld x2 rIn))
  | ⟨2, _⟩ => k2_pay8 (attnQ x0) (attnK x1) (attnV x2)
  | ⟨3, _⟩ => k2_pay9 (attnQ x0) (attnK x1) (attnV x2)
  | ⟨4, _⟩ => k2_pay13 (attnV x2) (k2_pay11 (attnQ x0) (attnK x1)) (k2_pay12 (attnQ x0) (attnK x1))
  | ⟨5, _⟩ => k2_pay14 (attnQ x0) (attnK x1) (attnV x2)
  | ⟨6, _⟩ => k2_pay15 (attnQ x0) (attnK x1) (attnV x2)
  | ⟨7, _⟩ => k2_pay17 (attnV x2) (k2_pay16 (attnQ x0) (attnK x1))
  | ⟨8, _⟩ => k2_pay18 (attnQ x0) (attnK x1) (attnV x2)
  | ⟨9, _⟩ => k2_pay19 (attnQ x0) (attnK x1) (attnV x2)
  | ⟨10, _⟩ => k2_pay20 (attnQ x0) (attnK x1) (attnV x2)
  | ⟨11, _⟩ => k2_pay21 (attnQ x0) (attnK x1) (attnV x2)
  | ⟨12, _⟩ => k2_pay23 (k2_pay22 (attnQ x0) (attnK x1) (attnV x2))
  | ⟨13, _⟩ => k2_pay24 (attnQ x0) (attnK x1) (attnV x2)
  | ⟨14, _⟩ => k2_pay25 (attnQ x0) (attnK x1) (attnV x2)
  | ⟨15, _⟩ => k2_pay1 (attnV x2) (k2_pay26 (attnQ x0) (attnK x1)) (k2_pay27 (attnQ x0) (attnK x1)) (k2_pay28 (F := F))
  | ⟨n + 16, h⟩ => absurd h (Nat.not_lt.2 (Nat.le_add_left 16 n))

/-- The sixteen stores as pieces, the last store first. -/
def attnPieces (i : grid2.Coords) (x0 : Vec F S1x2048x128 .f32) (x1 x2 : Vec F S1x2048x128 .bf16) :
    List (View.Piece (Elt F) S2048x8x128 .f32) :=
  [⟨rO16 i, attnPay x0 x1 x2 15⟩, ⟨rO15 i, attnPay x0 x1 x2 14⟩, ⟨rO14 i, attnPay x0 x1 x2 13⟩,
    ⟨rO13 i, attnPay x0 x1 x2 12⟩, ⟨rO12 i, attnPay x0 x1 x2 11⟩, ⟨rO11 i, attnPay x0 x1 x2 10⟩,
    ⟨rO10 i, attnPay x0 x1 x2 9⟩, ⟨rO9 i, attnPay x0 x1 x2 8⟩, ⟨rO8 i, attnPay x0 x1 x2 7⟩,
    ⟨rO7 i, attnPay x0 x1 x2 6⟩, ⟨rO6 i, attnPay x0 x1 x2 5⟩, ⟨rO5 i, attnPay x0 x1 x2 4⟩,
    ⟨rO4 i, attnPay x0 x1 x2 3⟩, ⟨rO3 i, attnPay x0 x1 x2 2⟩, ⟨rO2 i, attnPay x0 x1 x2 1⟩,
    ⟨rO1 i, attnPay x0 x1 x2 0⟩]

/-- What the output's staging buffer holds after the body at point i: its old contents d with the sixteen tiles laid
    over the point's head column. -/
def attnOut (i : grid2.Coords) (x0 : Vec F S1x2048x128 .f32) (x1 x2 : Vec F S1x2048x128 .bf16)
    (d : Vec F S2048x8x128 .f32) : Vec F S2048x8x128 .f32 :=
  overlays d (attnPieces i x0 x1 x2)

/-! ## The body's triple -/

set_option maxHeartbeats 1000000 in
/-- The body on whole staging memrefs, the three inputs' at contents x0, x1, x2 and the output's at d, runs to the
    continuation holding the inputs' as they were and the output's at attnOut: the three whole loads read x0, x1, x2,
    each of the sixteen stores writes its chunk's tile through its rectangle over what the buffer held, and the
    sixteen writes read back as the tiles laid over d. -/
theorem sound_attn (c : Dev nD) (E : Set ℕ) (i : grid2.Coords)
    (arg2 : Memref sig .tc .vmem S1x2048x128 .f32) (harg2 : arg2.IsWhole)
    (arg3 : Memref sig .tc .vmem S1x2048x128 .bf16) (harg3 : arg3.IsWhole)
    (arg4 : Memref sig .tc .vmem S1x2048x128 .bf16) (harg4 : arg4.IsWhole)
    (arg5 : Memref sig .tc .vmem S2048x8x128 .f32) (harg5 : arg5.IsWhole)
    (x0 : Vec F S1x2048x128 .f32) (x1 : Vec F S1x2048x128 .bf16) (x2 : Vec F S1x2048x128 .bf16)
    (d : Vec F S2048x8x128 .f32) (Kc : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare d
        ∗ (iprop(owns (c : Thread nD τ) arg2 fullShare x0 ∗ owns (c : Thread nD τ) arg3 fullShare x1
            ∗ owns (c : Thread nD τ) arg4 fullShare x2
            ∗ owns (c : Thread nD τ) arg5 fullShare (attnOut i x0 x1 x2 d)) -∗ Kc ⟨⟩))
      ⊢ wp frame (wpE (defs₀ (F := F)) Variants.none c none) E
          (cc2__attn_kernel i arg2 harg2 arg3 harg3 arg4 harg4 arg5 harg5) Kc := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact read_writes_eq_overlays _ _ _

/-! ## Reading what the body leaves -/

open Idealize.ShloMosaic.ValueIdx in
/-- The tile entry an index of the staging buffer reads when it lies in the point's head column: chunk (row / 128)'s
    tile at (row % 128, 0, lane). -/
def attnTileAt (x0 : Vec F S1x2048x128 .f32) (x1 x2 : Vec F S1x2048x128 .bf16) (y : S2048x8x128.Idx) : F .f32 :=
  attnPay x0 x1 x2 ⟨(y 0).val / 128, Nat.div_lt_of_lt_mul (y 0).isLt⟩
    (ix3 (⟨(y 0).val % 128, Nat.mod_lt _ (by decide)⟩ : Fin 128) (0 : Fin 1) (⟨(y 2).val, (y 2).isLt⟩ : Fin 128))

/-- A unit-stride [128, 1, 128] rectangle of the staging buffer holds only indices whose head is its offset's. -/
theorem head_of_mem_unit {off : Fin 3 → Nat} (inb) {y : S2048x8x128.Idx}
    (hm : y ∈ (Rect.unit (s := S2048x8x128) off S128x1x128.size inb).set) : (y 1).val = off 1 := by
  have h := (Rect.mem_set_unit.mp hm) 1
  have h1 : S128x1x128.size 1 = 1 := rfl
  omega

/-- The rectangle at rows 128 j, head h holds every index of head h whose row's quotient by 128 is j. -/
theorem mem_unit_chunk {off : Fin 3 → Nat} (inb) {y : S2048x8x128.Idx} (j : Fin 16) (h : Nat)
    (hoff : off = ![128 * j.val, h, 0]) (hj : (y 0).val / 128 = j.val) (hh : (y 1).val = h) :
    y ∈ (Rect.unit (s := S2048x8x128) off S128x1x128.size inb).set := by
  subst hoff
  rw [Rect.mem_set_unit]
  intro a
  have h2 : (y 2).val < 128 := (y 2).isLt
  match a with
  | ⟨0, _⟩ =>
    show 128 * j.val ≤ (y 0).val ∧ (y 0).val < 128 * j.val + 128
    omega
  | ⟨1, _⟩ =>
    show h ≤ (y 1).val ∧ (y 1).val < h + 1
    omega
  | ⟨2, _⟩ =>
    show 0 ≤ (y 2).val ∧ (y 2).val < 0 + 128
    omega

/-- A tile stored at rows 128 j reads, at the rectangle's own index x, the tile entry of the index it lands on. -/
theorem attnTileAt_emb (x0 : Vec F S1x2048x128 .f32) (x1 x2 : Vec F S1x2048x128 .bf16) (j : Fin 16) (h : Nat)
    {off : Fin 3 → Nat} (hoff : off = ![128 * j.val, h, 0]) (inb)
    (x : (Rect.unit (s := S2048x8x128) off S128x1x128.size inb).shape.Idx) :
    attnTileAt x0 x1 x2 ((Rect.unit (s := S2048x8x128) off S128x1x128.size inb).emb x) = attnPay x0 x1 x2 j x := by
  subst hoff
  have hx0 : (x 0).val < 128 := (x 0).isLt
  have hx1 : (x 1).val < 1 := (x 1).isLt
  unfold attnTileAt
  have e0 : (((Rect.unit (s := S2048x8x128) ![128 * j.val, h, 0] S128x1x128.size inb).emb x) 0).val
      = 128 * j.val + 1 * (x 0).val := rfl
  have e2 : (((Rect.unit (s := S2048x8x128) ![128 * j.val, h, 0] S128x1x128.size inb).emb x) 2).val
      = 0 + 1 * (x 2).val := rfl
  congr 1
  · exact Fin.ext (by show _ / 128 = j.val; rw [e0]; omega)
  · funext a
    match a with
    | ⟨0, _⟩ => exact Fin.ext (by show _ % 128 = (x 0).val; rw [e0]; omega)
    | ⟨1, _⟩ => exact Fin.ext (by show 0 = (x 1).val; omega)
    | ⟨2, _⟩ => exact Fin.ext (by show _ = (x 2).val; rw [e2]; omega)

/-- Every stored tile is attnTileAt read at the rectangle's own indices. -/
theorem attnPieces_agree (i : grid2.Coords) (x0 : Vec F S1x2048x128 .f32) (x1 x2 : Vec F S1x2048x128 .bf16) :
    ∀ p ∈ attnPieces i x0 x1 x2, ∀ x : p.1.shape.Idx, p.2 x = attnTileAt x0 x1 x2 (p.1.emb x) := by
  intro p hp
  simp only [attnPieces, List.mem_cons, List.not_mem_nil, or_false] at hp
  rcases hp with rfl | rfl | rfl | rfl | rfl | rfl | rfl | rfl | rfl | rfl | rfl | rfl | rfl | rfl | rfl | rfl
  · exact fun x => (attnTileAt_emb x0 x1 x2 15 (i 1).val (k2_off16_eq i) (k2_off16_inb i) x).symm
  · exact fun x => (attnTileAt_emb x0 x1 x2 14 (i 1).val (k2_off15_eq i) (k2_off15_inb i) x).symm
  · exact fun x => (attnTileAt_emb x0 x1 x2 13 (i 1).val (k2_off14_eq i) (k2_off14_inb i) x).symm
  · exact fun x => (attnTileAt_emb x0 x1 x2 12 (i 1).val (k2_off13_eq i) (k2_off13_inb i) x).symm
  · exact fun x => (attnTileAt_emb x0 x1 x2 11 (i 1).val (k2_off12_eq i) (k2_off12_inb i) x).symm
  · exact fun x => (attnTileAt_emb x0 x1 x2 10 (i 1).val (k2_off11_eq i) (k2_off11_inb i) x).symm
  · exact fun x => (attnTileAt_emb x0 x1 x2 9 (i 1).val (k2_off10_eq i) (k2_off10_inb i) x).symm
  · exact fun x => (attnTileAt_emb x0 x1 x2 8 (i 1).val (k2_off9_eq i) (k2_off9_inb i) x).symm
  · exact fun x => (attnTileAt_emb x0 x1 x2 7 (i 1).val (k2_off8_eq i) (k2_off8_inb i) x).symm
  · exact fun x => (attnTileAt_emb x0 x1 x2 6 (i 1).val (k2_off7_eq i) (k2_off7_inb i) x).symm
  · exact fun x => (attnTileAt_emb x0 x1 x2 5 (i 1).val (k2_off6_eq i) (k2_off6_inb i) x).symm
  · exact fun x => (attnTileAt_emb x0 x1 x2 4 (i 1).val (k2_off5_eq i) (k2_off5_inb i) x).symm
  · exact fun x => (attnTileAt_emb x0 x1 x2 3 (i 1).val (k2_off4_eq i) (k2_off4_inb i) x).symm
  · exact fun x => (attnTileAt_emb x0 x1 x2 2 (i 1).val (k2_off3_eq i) (k2_off3_inb i) x).symm
  · exact fun x => (attnTileAt_emb x0 x1 x2 1 (i 1).val (k2_off2_eq i) (k2_off2_inb i) x).symm
  · exact fun x => (attnTileAt_emb x0 x1 x2 0 (i 1).val (k2_off1_eq i) (k2_off1_inb i) x).symm

/-- Every piece lies in the point's head column. -/
theorem head_of_mem_attnPieces (i : grid2.Coords) (x0 : Vec F S1x2048x128 .f32) (x1 x2 : Vec F S1x2048x128 .bf16)
    (y : S2048x8x128.Idx) : ∀ p ∈ attnPieces i x0 x1 x2, y ∈ p.1.set → (y 1).val = (i 1).val := by
  intro p hp
  simp only [attnPieces, List.mem_cons, List.not_mem_nil, or_false] at hp
  rcases hp with rfl | rfl | rfl | rfl | rfl | rfl | rfl | rfl | rfl | rfl | rfl | rfl | rfl | rfl | rfl | rfl
  · exact fun hm => (head_of_mem_unit (k2_off16_inb i) hm).trans (by rw [k2_off16_eq]; rfl)
  · exact fun hm => (head_of_mem_unit (k2_off15_inb i) hm).trans (by rw [k2_off15_eq]; rfl)
  · exact fun hm => (head_of_mem_unit (k2_off14_inb i) hm).trans (by rw [k2_off14_eq]; rfl)
  · exact fun hm => (head_of_mem_unit (k2_off13_inb i) hm).trans (by rw [k2_off13_eq]; rfl)
  · exact fun hm => (head_of_mem_unit (k2_off12_inb i) hm).trans (by rw [k2_off12_eq]; rfl)
  · exact fun hm => (head_of_mem_unit (k2_off11_inb i) hm).trans (by rw [k2_off11_eq]; rfl)
  · exact fun hm => (head_of_mem_unit (k2_off10_inb i) hm).trans (by rw [k2_off10_eq]; rfl)
  · exact fun hm => (head_of_mem_unit (k2_off9_inb i) hm).trans (by rw [k2_off9_eq]; rfl)
  · exact fun hm => (head_of_mem_unit (k2_off8_inb i) hm).trans (by rw [k2_off8_eq]; rfl)
  · exact fun hm => (head_of_mem_unit (k2_off7_inb i) hm).trans (by rw [k2_off7_eq]; rfl)
  · exact fun hm => (head_of_mem_unit (k2_off6_inb i) hm).trans (by rw [k2_off6_eq]; rfl)
  · exact fun hm => (head_of_mem_unit (k2_off5_inb i) hm).trans (by rw [k2_off5_eq]; rfl)
  · exact fun hm => (head_of_mem_unit (k2_off4_inb i) hm).trans (by rw [k2_off4_eq]; rfl)
  · exact fun hm => (head_of_mem_unit (k2_off3_inb i) hm).trans (by rw [k2_off3_eq]; rfl)
  · exact fun hm => (head_of_mem_unit (k2_off2_inb i) hm).trans (by rw [k2_off2_eq]; rfl)
  · exact fun hm => (head_of_mem_unit (k2_off1_inb i) hm).trans (by rw [k2_off1_eq]; rfl)

/-- An index of the point's head column lies in the piece of its row's chunk. -/
theorem exists_mem_attnPieces (i : grid2.Coords) (x0 : Vec F S1x2048x128 .f32) (x1 x2 : Vec F S1x2048x128 .bf16)
    (y : S2048x8x128.Idx) (hy : (y 1).val = (i 1).val) : ∃ p ∈ attnPieces i x0 x1 x2, y ∈ p.1.set := by
  have hlt : (y 0).val / 128 < 16 := Nat.div_lt_of_lt_mul (y 0).isLt
  obtain ⟨j, hj⟩ : ∃ j : Fin 16, (y 0).val / 128 = j.val := ⟨⟨_, hlt⟩, rfl⟩
  have mem : ∀ (p : View.Piece (Elt F) S2048x8x128 .f32), p ∈ attnPieces i x0 x1 x2 → y ∈ p.1.set →
      ∃ p ∈ attnPieces i x0 x1 x2, y ∈ p.1.set := fun p hp hm => ⟨p, hp, hm⟩
  match j, hj with
  | ⟨0, _⟩, hj => exact mem ⟨rO1 i, attnPay x0 x1 x2 0⟩ (by simp [attnPieces]) (mem_unit_chunk (k2_off1_inb i) 0 _ (k2_off1_eq i) hj hy)
  | ⟨1, _⟩, hj => exact mem ⟨rO2 i, attnPay x0 x1 x2 1⟩ (by simp [attnPieces]) (mem_unit_chunk (k2_off2_inb i) 1 _ (k2_off2_eq i) hj hy)
  | ⟨2, _⟩, hj => exact mem ⟨rO3 i, attnPay x0 x1 x2 2⟩ (by simp [attnPieces]) (mem_unit_chunk (k2_off3_inb i) 2 _ (k2_off3_eq i) hj hy)
  | ⟨3, _⟩, hj => exact mem ⟨rO4 i, attnPay x0 x1 x2 3⟩ (by simp [attnPieces]) (mem_unit_chunk (k2_off4_inb i) 3 _ (k2_off4_eq i) hj hy)
  | ⟨4, _⟩, hj => exact mem ⟨rO5 i, attnPay x0 x1 x2 4⟩ (by simp [attnPieces]) (mem_unit_chunk (k2_off5_inb i) 4 _ (k2_off5_eq i) hj hy)
  | ⟨5, _⟩, hj => exact mem ⟨rO6 i, attnPay x0 x1 x2 5⟩ (by simp [attnPieces]) (mem_unit_chunk (k2_off6_inb i) 5 _ (k2_off6_eq i) hj hy)
  | ⟨6, _⟩, hj => exact mem ⟨rO7 i, attnPay x0 x1 x2 6⟩ (by simp [attnPieces]) (mem_unit_chunk (k2_off7_inb i) 6 _ (k2_off7_eq i) hj hy)
  | ⟨7, _⟩, hj => exact mem ⟨rO8 i, attnPay x0 x1 x2 7⟩ (by simp [attnPieces]) (mem_unit_chunk (k2_off8_inb i) 7 _ (k2_off8_eq i) hj hy)
  | ⟨8, _⟩, hj => exact mem ⟨rO9 i, attnPay x0 x1 x2 8⟩ (by simp [attnPieces]) (mem_unit_chunk (k2_off9_inb i) 8 _ (k2_off9_eq i) hj hy)
  | ⟨9, _⟩, hj => exact mem ⟨rO10 i, attnPay x0 x1 x2 9⟩ (by simp [attnPieces]) (mem_unit_chunk (k2_off10_inb i) 9 _ (k2_off10_eq i) hj hy)
  | ⟨10, _⟩, hj => exact mem ⟨rO11 i, attnPay x0 x1 x2 10⟩ (by simp [attnPieces]) (mem_unit_chunk (k2_off11_inb i) 10 _ (k2_off11_eq i) hj hy)
  | ⟨11, _⟩, hj => exact mem ⟨rO12 i, attnPay x0 x1 x2 11⟩ (by simp [attnPieces]) (mem_unit_chunk (k2_off12_inb i) 11 _ (k2_off12_eq i) hj hy)
  | ⟨12, _⟩, hj => exact mem ⟨rO13 i, attnPay x0 x1 x2 12⟩ (by simp [attnPieces]) (mem_unit_chunk (k2_off13_inb i) 12 _ (k2_off13_eq i) hj hy)
  | ⟨13, _⟩, hj => exact mem ⟨rO14 i, attnPay x0 x1 x2 13⟩ (by simp [attnPieces]) (mem_unit_chunk (k2_off14_inb i) 13 _ (k2_off14_eq i) hj hy)
  | ⟨14, _⟩, hj => exact mem ⟨rO15 i, attnPay x0 x1 x2 14⟩ (by simp [attnPieces]) (mem_unit_chunk (k2_off15_inb i) 14 _ (k2_off15_eq i) hj hy)
  | ⟨15, _⟩, hj => exact mem ⟨rO16 i, attnPay x0 x1 x2 15⟩ (by simp [attnPieces]) (mem_unit_chunk (k2_off16_inb i) 15 _ (k2_off16_eq i) hj hy)
  | ⟨n + 16, h⟩, _ => exact absurd h (Nat.not_lt.2 (Nat.le_add_left 16 n))

/-- At an index whose head is not the point's, the buffer holds what it held. -/
theorem attnOut_of_head_ne (i : grid2.Coords) (x0 : Vec F S1x2048x128 .f32) (x1 x2 : Vec F S1x2048x128 .bf16)
    (d : Vec F S2048x8x128 .f32) (y : S2048x8x128.Idx) (hy : (y 1).val ≠ (i 1).val) :
    attnOut i x0 x1 x2 d y = d y :=
  overlays_of_forall_not_mem d y _ fun p hp hm => hy (head_of_mem_attnPieces i x0 x1 x2 y p hp hm)

/-- At an index of the point's head it holds the row's chunk's tile at the row's remainder and the lane. -/
theorem attnOut_of_head_eq (i : grid2.Coords) (x0 : Vec F S1x2048x128 .f32) (x1 x2 : Vec F S1x2048x128 .bf16)
    (d : Vec F S2048x8x128 .f32) (y : S2048x8x128.Idx) (hy : (y 1).val = (i 1).val) :
    attnOut i x0 x1 x2 d y = attnTileAt x0 x1 x2 y :=
  overlays_of_pieces d (attnTileAt x0 x1 x2) _ (attnPieces_agree i x0 x1 x2) y (exists_mem_attnPieces i x0 x1 x2 y hy)

end Cert.Proof.KI

end
-- ==== Proof.Region1.lean ====
/-
  The second pipeline as the launch sees it: per core, what the pipeline's arrays hold when it is entered, how the
  body changes each window's staging buffer at each of the sixteen points, and the body's obligation at every point.

  The grid is two halves of eight heads. The three input windows stage one head's 2048 rows of the reordered queries,
  of the pooled keys and of the pooled values; each is fetched at every point. The output window stages, per half,
  all 2048 rows of the half's eight heads; the body at a point writes the point's head column into it and leaves the
  other seven columns as it found them, and the buffer is written back only at the last head of a half. At the first
  head of a half the buffer holds contents nothing states, so what the body leaves there is given as a relation
  between the contents it was handed and the contents it leaves: the handed contents with the head column laid over.
-/
import proofs.«208975_g36283883717458_cont_8to1_b_1954_30_alg».proof.Proof.LaunchDefs
import proofs.«208975_g36283883717458_cont_8to1_b_1954_30_alg».proof.Proof.AttnBody
import proofs.«208975_g36283883717458_cont_8to1_b_1954_30_alg».proof.Proof.Gen.KernelIdeal.Launch
import proofs.«208975_g36283883717458_cont_8to1_b_1954_30_alg».proof.Proof.Gen.KernelIdeal.Points
import Idealize.ShloMosaic.Lib.Pipeline.Regions
import Idealize.ShloMosaic.Lib.Pipeline.Frame
import Idealize.ShloMosaic.Lib.Pipeline.FrameBody

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [∀ e, Nonempty (Elt F e)]

local notation "𝕄" => MT nD τ sig (HIx 1) (Elt F) ℕ UU ℕ

variable (W : Dev nD → Valuation τ sig (Elt F))

/-! ## The arrays as the pipeline finds them, and the windows' blocks -/

/-- Core `d`'s TensorCore buffers when the pipeline is entered. -/
abbrev WR (d : Dev nD) (b : Ref sig .tc) : Buf (Elt F) ((d : Thread nD τ).loc b) := W d b

/-- Window `w`'s block at point `t`, read off its array as the pipeline finds it. -/
def iblk1 (d : Dev nD) (w : Fin cfg2.W) (t : Fin cfg2.N) : ((cfg2.win w).xblock (cfg2.grid.coords t)).Idx → Elt F (cfg2.win w).elt :=
  ((cfg2.win w).blk t).view.read (Elt F) (WR W d (Pipeline.arrRef spec2 w))

/-- The invariant between points: the core's scoped buffers that are no staging buffer of this pipeline, each at some
    contents. The body touches none of them. -/
def Φ1 (d : Dev nD) : sProp 𝕄 :=
  Pipeline.scopedRest (Ix := HIx 1) (Name := ℕ) (U := UU) (Lvl := ℕ) (Val := Elt F) spec2 d

/-- The proof data of the second pipeline on core `d`: the arrays as the pipeline finds them; the body at point `t`
    leaves each input's buffer as it found it and the output's buffer at what it found with the point's head column,
    computed from the three input blocks, laid over; the invariant `Φ1`; full shares; what the core owes the launch
    handshakes after the one SparseCore call, at every point; its recorded waits at or below that call's band. -/
def rdat1 (d : Dev nD) : RDat τ (Elt F) (HIx 1) ℕ UU ℕ cfg2 d where
  A w := WR W d (Pipeline.arrRef spec2 w)
  after w t Y X := match w with
    | ⟨0, _⟩ => X = Y
    | ⟨1, _⟩ => X = Y
    | ⟨2, _⟩ => X = Y
    | ⟨3, _⟩ => X = attnOut (grid2.coords t) (iblk1 W d 0 t) (iblk1 W d 1 t) (iblk1 W d 2 t) Y
  Φ _ := Φ1 d
  q _ := fullShare
  owed _ := (K (F := F)).Otc d 1
  recorded _ := {p | (K (F := F)).lev (T d, p.1) p.2 ≤ 8}

theorem A1_eq (d : Dev nD) (w : Fin cfg2.W) : (rdat1 W d).A w = WR W d (Pipeline.arrRef spec2 w) := by
  dsimp only [rdat1]

theorem after1_0 (d : Dev nD) (t : Fin cfg2.N) (Y X) : (rdat1 W d).after 0 t Y X = (X = Y) := by dsimp only [rdat1]
theorem after1_1 (d : Dev nD) (t : Fin cfg2.N) (Y X) : (rdat1 W d).after 1 t Y X = (X = Y) := by dsimp only [rdat1]
theorem after1_2 (d : Dev nD) (t : Fin cfg2.N) (Y X) : (rdat1 W d).after 2 t Y X = (X = Y) := by dsimp only [rdat1]
theorem after1_3 (d : Dev nD) (t : Fin cfg2.N) (Y X) :
    (rdat1 W d).after 3 t Y X = (X = attnOut (grid2.coords t) (iblk1 W d 0 t) (iblk1 W d 1 t) (iblk1 W d 2 t) Y) := by dsimp only [rdat1]

/-- An input's current staging buffer holds its block at every point: it is fetched at every point, and the fetch
    fills the whole buffer. -/
theorem finds1_0 (d : Dev nD) (t : Fin cfg2.N) {Y} (h : (rdat1 W d).Finds 0 t Y) : Y = iblk1 W d 0 t := by
  obtain ⟨x, e⟩ := ((rdat1 W d).finds_of_fetch (fetch2_0 t) Y).mp h
  rw [e]; unfold RDat.fetched RDat.blockOf iblk1; rw [A1_eq]; try rfl
theorem finds1_1 (d : Dev nD) (t : Fin cfg2.N) {Y} (h : (rdat1 W d).Finds 1 t Y) : Y = iblk1 W d 1 t := by
  obtain ⟨x, e⟩ := ((rdat1 W d).finds_of_fetch (fetch2_1 t) Y).mp h
  rw [e]; unfold RDat.fetched RDat.blockOf iblk1; rw [A1_eq]; try rfl
theorem finds1_2 (d : Dev nD) (t : Fin cfg2.N) {Y} (h : (rdat1 W d).Finds 2 t Y) : Y = iblk1 W d 2 t := by
  obtain ⟨x, e⟩ := ((rdat1 W d).finds_of_fetch (fetch2_2 t) Y).mp h
  rw [e]; unfold RDat.fetched RDat.blockOf iblk1; rw [A1_eq]; try rfl

/-! ## The body obligation, at a generic point -/

/-- The body at any point: the inputs' buffers hold their blocks, so the body's triple applies with them; the output's
    buffer comes back at the handed contents with the head column laid over; the invariant and what the core owes
    pass through unread. -/
theorem sound_body1 (d : Dev nD) (t : Fin cfg2.N) (Y : (w : Fin cfg2.W) → (cfg2.win w).block.Idx → Elt F (cfg2.win w).elt)
    (hY : ∀ w, (rdat1 W d).Finds w t (Y w)) :
    iprop((rdat1 W d).Φ t.castSucc ∗ (rdat1 W d).owesAt (none : HIx 1) t.castSucc
        ∗ owns (d : Thread nD τ) (st2_0 t) fullShare (Y 0) ∗ owns (d : Thread nD τ) (st2_1 t) fullShare (Y 1)
        ∗ owns (d : Thread nD τ) (st2_2 t) fullShare (Y 2) ∗ owns (d : Thread nD τ) (st2_3 t) fullShare (Y 3))
      ⊢ wp frame (wpE (defs₀ (F := F)) Variants.none d none) Set.univ (bodyAt2 t) fun _ =>
          iprop((rdat1 W d).Φ t.succ ∗ (rdat1 W d).owesAt (none : HIx 1) t.succ
            ∗ (∃ X, ⌜(rdat1 W d).after 0 t (Y 0) X⌝ ∗ owns (d : Thread nD τ) (st2_0 t) fullShare X)
            ∗ (∃ X, ⌜(rdat1 W d).after 1 t (Y 1) X⌝ ∗ owns (d : Thread nD τ) (st2_1 t) fullShare X)
            ∗ (∃ X, ⌜(rdat1 W d).after 2 t (Y 2) X⌝ ∗ owns (d : Thread nD τ) (st2_2 t) fullShare X)
            ∗ (∃ X, ⌜(rdat1 W d).after 3 t (Y 3) X⌝ ∗ owns (d : Thread nD τ) (st2_3 t) fullShare X)) := by
  have e0 := finds1_0 W d t (hY 0)
  have e1 := finds1_1 W d t (hY 1)
  have e2 := finds1_2 W d t (hY 2)
  unfold bodyAt2
  rw [show (rdat1 W d).Φ t.succ = (rdat1 W d).Φ t.castSucc from rfl,
    show (rdat1 W d).owesAt (none : HIx 1) t.succ = (rdat1 W d).owesAt (none : HIx 1) t.castSucc from rfl]
  simp only [after1_0, after1_1, after1_2, after1_3]
  iintro ⟨HΦ, Ho, H0, H1, H2, H3⟩
  iapply (sound_attn d Set.univ (grid2.coords t) _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists _; isplitr
  · ipureintro; rw [← e0, ← e1, ← e2]
  iexact H3

/-- The body obligation, at every point. -/
theorem body_obligation1 (d : Dev nD) : (rdat1 (F := F) W d).BodyObligation (defs₀ (F := F)) Variants.none (none : HIx 1) Set.univ := fun t Y hY => by
  rw [bigSep_W2, bigSep_W2]
  exact sound_body1 W d t Y hY

/-! ## The region as the launch meets it -/

section Region

variable (r0 : (c : Dev nD) → RDat τ (Elt F) (HIx 1) ℕ UU ℕ cfg0 c)

/-- The two pipelines' proof data, the second's as above. -/
def rdatsOf' : (p : Fin 2) → (c : Dev nD) → RDat τ (Elt F) (HIx 1) ℕ UU ℕ (cfgs p) c
  | ⟨0, _⟩, c => r0 c
  | ⟨1, _⟩, c => rdat1 W c

/-- The pipeline's kernel has no semaphore of its own. -/
abbrev osem1 : Fin 0 → SemLoc sig := fun k => k.elim0
theorem ownSemFacts1 : Pipeline.OwnSemFacts spec2 osem1 := by decide

theorem ownSems0_1 (c : Dev nD) :
    (Pipeline.ownSems0 (Ix := HIx 1) (Name := ℕ) (U := UU) (Lvl := ℕ) (Val := Elt F) (τ := τ) osem1 c : sProp 𝕄) = iprop(emp) := by
  unfold Pipeline.ownSems0; rw [show (Finset.univ : Finset (Fin 0)) = ∅ from rfl, BI.bigSep_empty]; rfl

theorem share1 (c : Dev nD) (w : Fin cfg2.W) : (rdat1 W c).share w = fullShare := by
  unfold RDat.share; split <;> rfl

/-- The buffers the pipeline does not window keep their contents when the output array's change. -/
theorem rest_update (c : Dev nD) (o5 : Buf (Elt F) ((c : Thread nD τ).loc main_v5)) :
    (Pipeline.unscopedRest (Ix := HIx 1) (Name := ℕ) (U := UU) (Lvl := ℕ) spec2 c
        (fun b : Ref sig .tc => (Function.update (W c) (Proc.devRef .tc main_v5) o5) b) : sProp 𝕄)
      = Pipeline.unscopedRest (Ix := HIx 1) (Name := ℕ) (U := UU) (Lvl := ℕ) spec2 c (WR W c) := by
  rw [unscopedRest2_eq, unscopedRest2_eq]
  simp only [WR]
  rw [Function.update_of_ne (by decide), Function.update_of_ne (by decide), Function.update_of_ne (by decide),
    Function.update_of_ne (by decide), Function.update_of_ne (by decide), Function.update_of_ne (by decide),
    Function.update_of_ne (by decide)]

end Region

section Region1

variable (r0 : (c : Dev nD) → RDat τ (Elt F) (HIx 1) ℕ UU ℕ cfg0 c)

/-- The pipeline's four arrays, the output's at `o5` and the inputs' as the pipeline found them, are the arrays of the
    buffers held at the valuation changed at the output array. -/
theorem arrs_update (c : Dev nD) (o5 : Buf (Elt F) ((c : Thread nD τ).loc main_v5)) :
    (bigSep Finset.univ fun w : Fin cfg2.W =>
        ((((c : Thread nD τ).loc (Pipeline.arrRef spec2 w)) ↦{fullShare}
          (fun b : Ref sig .tc => (Function.update (W c) (Proc.devRef .tc main_v5) o5) b) (Pipeline.arrRef spec2 w)) : sProp 𝕄))
      = iprop((((c : Thread nD τ).loc (Pipeline.arrRef spec2 0)) ↦{fullShare} WR W c (Pipeline.arrRef spec2 0))
          ∗ (((c : Thread nD τ).loc (Pipeline.arrRef spec2 1)) ↦{fullShare} WR W c (Pipeline.arrRef spec2 1))
          ∗ (((c : Thread nD τ).loc (Pipeline.arrRef spec2 2)) ↦{fullShare} WR W c (Pipeline.arrRef spec2 2))
          ∗ (((c : Thread nD τ).loc (Pipeline.arrRef spec2 3)) ↦{fullShare} o5)) := by
  rw [bigSep_W2]
  simp only [WR]
  rw [Function.update_of_ne (by decide), Function.update_of_ne (by decide), Function.update_of_ne (by decide)]
  congr 3

/-- The unscoped buffers held at the valuation changed at the output array: the pipeline's four arrays, the output's
    at the new contents, and the buffers the pipeline does not window. -/
theorem held_update (c : Dev nD) (o5 : Buf (Elt F) ((c : Thread nD τ).loc main_v5)) :
    (StableHlo.held (SparseCore.T c) uc (Function.update (W c) (Proc.devRef .tc main_v5) o5) : sProp 𝕄)
      = iprop(((((c : Thread nD τ).loc (Pipeline.arrRef spec2 0)) ↦{fullShare} WR W c (Pipeline.arrRef spec2 0))
          ∗ (((c : Thread nD τ).loc (Pipeline.arrRef spec2 1)) ↦{fullShare} WR W c (Pipeline.arrRef spec2 1))
          ∗ (((c : Thread nD τ).loc (Pipeline.arrRef spec2 2)) ↦{fullShare} WR W c (Pipeline.arrRef spec2 2))
          ∗ (((c : Thread nD τ).loc (Pipeline.arrRef spec2 3)) ↦{fullShare} o5))
        ∗ Pipeline.unscopedRest (Ix := HIx 1) (Name := ℕ) (U := UU) (Lvl := ℕ) spec2 c (WR W c)) := by
  rw [← Pipeline.unscopedBufs_held, Pipeline.unscopedBufs_split cfgs 1 launch2.win.arr_unscoped launch2.win.arr_inj c]
  show iprop((bigSep Finset.univ fun w : Fin cfg2.W =>
        ((((c : Thread nD τ).loc (Pipeline.arrRef spec2 w)) ↦{fullShare}
          (fun b : Ref sig .tc => (Function.update (W c) (Proc.devRef .tc main_v5) o5) b) (Pipeline.arrRef spec2 w)) : sProp 𝕄))
      ∗ Pipeline.unscopedRest (Ix := HIx 1) (Name := ℕ) (U := UU) (Lvl := ℕ) spec2 c
        (fun b : Ref sig .tc => (Function.update (W c) (Proc.devRef .tc main_v5) o5) b)) = _
  rw [rest_update, arrs_update]

set_option backward.isDefEq.respectTransparency.types false in
/-- THE REGION: the launch's layout facts, no semaphore of the kernel's own, the body obligation; entered from the
    TensorCore's unscoped buffers at `W` and what it owes after the SparseCore call (nothing), left with the output
    array at some contents the write-backs allow and every other buffer untouched. -/
def region1 : Pipeline.RDat.RegionSeg (pcfgs (F := F)) adm (rdatsOf' W r0) (none : HIx 1) defs₀ 𝒱₀ (K (F := F)).L (K (F := F)).lev 1 where
  win := launch2.win.to₀
  block_pos := launch2.block_pos
  stage_whole := launch2.stage_whole
  K := Fin 0
  osem := osem1
  ho := ownSemFacts1
  hbody c := body_obligation1 W c
  hwaits := Pipeline.RDat.hwaits_of_owed_zero _ _ _ _ (K (F := F)).L (K (F := F)).lev 1 fun c t => (K (F := F)).Otc_end c (le_refl 1)
  pre c := iprop(StableHlo.held (SparseCore.T c) uc (W c) ∗ tcOw c 1)
  post c := iprop(∃ o5, StableHlo.held (SparseCore.T c) uc (Function.update (W c) (Proc.devRef .tc main_v5) o5)
    ∗ ⌜(rdat1 W c).ArrAt 3 cfg2.N o5⌝ ∗ tcOw c 1)
  X c := iprop(emp)
  Y c := iprop(emp)
  Z c := Pipeline.unscopedRest (Ix := HIx 1) (Name := ℕ) (U := UU) (Lvl := ℕ) spec2 c (WR W c)
  hentry c := by
    rw [show StableHlo.held (SparseCore.T c) uc (W c) = unscopedBufs c (WR W c) from (Pipeline.unscopedBufs_held c _).symm]
    have hsplit := Pipeline.RDat.arrays_of_unscopedBufs (p := (1 : Fin 2)) (pcfgs (F := F)) adm (rdatsOf' W r0) launch2.win launch2.arr_whole c
      (share1 W c) (WR W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOw
      icases HO with ⟨%Wt, %hW, HO⟩
      iexists Wt; isplitr
      · ipureintro; exact fun p hp => Or.inl (hW p hp)
      iexact HO
    isplitr; · iempintro
    iexact Hrest
  hin c := by
    show iprop(emp ∗ _ ∗ Pipeline.scopedRest spec2 c) ⊢ Φ1 c
    unfold Φ1
    iintro ⟨-, -, Hr⟩; iexact Hr
  hout c := by
    show Φ1 c ⊢ iprop(emp ∗ Pipeline.ownSems0 osem1 c ∗ Pipeline.scopedRest spec2 c)
    rw [ownSems0_1]; unfold Φ1
    iintro Hr
    isplitr; · iempintro
    isplitr; · iempintro
    iexact Hr
  hexit c := by
    show iprop((rdat1 W c).arraysAt cfg2.N ∗ (rdat1 W c).owesAt (none : HIx 1) (Fin.last cfg2.N) ∗ emp
        ∗ Pipeline.unscopedRest (Ix := HIx 1) (Name := ℕ) (U := UU) (Lvl := ℕ) spec2 c (WR W c)) ⊢ _
    unfold RDat.arraysAt
    rw [bigSep_W2]
    simp only [share1, (arr_whole2 0).set_eq_univ, (arr_whole2 1).set_eq_univ, (arr_whole2 2).set_eq_univ, (arr_whole2 3).set_eq_univ]
    iintro ⟨⟨⟨%F0, %h0, H0⟩, ⟨%F1, %h1, H1⟩, ⟨%F2, %h2, H2⟩, ⟨%F3, %h3, H3⟩⟩, HO, -, HZ⟩
    rw [(rdat1 W c).ArrAt_in 0 rfl] at h0
    rw [(rdat1 W c).ArrAt_in 1 rfl] at h1
    rw [(rdat1 W c).ArrAt_in 2 rfl] at h2
    subst h0 h1 h2
    imodintro
    iexists F3
    isplitl [H0 H1 H2 H3 HZ]
    · rw [held_update]
      isplitl [H0 H1 H2 H3]
      · isplitl [H0]; · iexact H0
        isplitl [H1]; · iexact H1
        isplitl [H2]; · iexact H2
        iexact H3
      iexact HZ
    isplitr; · ipureintro; exact h3
    unfold tcOw
    icases HO with ⟨%Wt, %hW, HO⟩
    iexists Wt; isplitr
    · ipureintro
      intro p hp
      rcases hW hp with h | ⟨w, s, rfl⟩
      · exact h
      · show (K (F := F)).lev _ none ≤ _; rw [SparseCore.Cfg.lev_none]; exact Nat.zero_le _
    iexact HO

end Region1

end Cert.Proof.KI

end
-- ==== Proof.Waits.lean ====
/-
  The pipelines' own waits sit below the TensorCore's handshake debt.

  During a pipeline's region the TensorCore still owes the SparseCore launch its start signals for the calls to come, each
  at that call's own index. A pipeline's staging semaphores are waited on at the index of a kernel's own waits, where
  nothing of that debt is owed and whose level is the lowest: so those waits are always allowed.
-/
import proofs.«208975_g36283883717458_cont_8to1_b_1954_30_alg».proof.Proof.LaunchDefs
import proofs.«208975_g36283883717458_cont_8to1_b_1954_30_alg».proof.Proof.Gen.KernelIdeal.Launch
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

variable [∀ e, Nonempty (Elt F e)]

/-- The TensorCore's handshake debt is owed at the calls' own indices only: none of it at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- So a pipeline's own staging waits (index none) sit below everything the TensorCore owes, whatever call it is before. -/
theorem hwaits_of_Otc (rdats : (p : Fin 2) → (c : Dev nD) → RDat τ (Elt F) (HIx 1) ℕ UU ℕ (cfgs p) c) (p : Fin 2) (n : ℕ)
    (howed : ∀ c t, (rdats p c).owed t = (K (F := F)).Otc c n) (c : Dev nD) :
    (levAts (K (F := F)).L (K (F := F)).lev : sProp 𝕄) ⊢ Pipeline.RDat.cellsWaits (Pipeline.pin (pcfgs (F := F)) adm) rdats (none : HIx 1) p c :=
  Pipeline.RDat.cellsWaits_intro (Pipeline.pin (pcfgs (F := F)) adm) rdats (none : HIx 1) p c fun w s t => by
    rw [howed c t]
    exact (K (F := F)).mayWait_none _ (fun g => Otc_none c n g)

end Cert.Proof.KI

end
-- ==== Proof.Region0Rec.lean ====
/-
  The first pipeline as a region of @main: what it is entered from, what it leaves, and how the launch's buffers are
  dealt between the pipeline and the rest.

  The region is entered from the TensorCore's eleven unscoped buffers, at the contents the three reshapes left, beside
  what the core owes the launch handshakes before the SparseCore call. The four arrays the pipeline windows — keys,
  values, pooled keys, pooled values — go into the pipeline; the other seven buffers bypass it. The pipeline's own
  invariant takes nothing but the scoped buffers the boundary adds. The region is left with the two output arrays at
  what the sixteen write-backs left in them, every other buffer as it was, and the same debt: the body signals nothing,
  and its staging waits sit at the index of a kernel's own waits, below every handshake.
-/
import proofs.«208975_g36283883717458_cont_8to1_b_1954_30_alg».proof.Proof.Region0
import proofs.«208975_g36283883717458_cont_8to1_b_1954_30_alg».proof.Proof.Region1
import proofs.«208975_g36283883717458_cont_8to1_b_1954_30_alg».proof.Proof.Waits

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The returning valuation -/

section Region0

variable (W : Dev nD → Valuation τ sig (Elt F))

/-- Core `d`'s unscoped buffers when the pipeline returns: as it found them, the two output arrays at what the sixteen
    write-backs left. -/
def V2 (d : Dev nD) : Valuation τ sig (Elt F) :=
  Function.update (Function.update (V1 m d) (Proc.devRef (τ := τ) .tc main_v3_0) ((dats0 m d).arrAt 2 cfg0.N))
    (Proc.devRef (τ := τ) .tc main_v3_1) ((dats0 m d).arrAt 3 cfg0.N)

/-- The returning valuation at a buffer that is neither output array is the entering one. -/
theorem V2_of_ne (d : Dev nD) (b : Ref sig .tc) (h0 : b ≠ main_v3_0) (h1 : b ≠ main_v3_1) :
    V2 m d (Proc.devRef (τ := τ) .tc b) = V1 m d (Proc.devRef (τ := τ) .tc b) := by
  unfold V2
  rw [Function.update_of_ne (StableHlo.devRef_ne_of_ne h1), Function.update_of_ne (StableHlo.devRef_ne_of_ne h0)]

theorem V2_v3_0 (d : Dev nD) : V2 m d (Proc.devRef (τ := τ) .tc main_v3_0) = (dats0 m d).arrAt 2 cfg0.N := by
  unfold V2
  rw [Function.update_of_ne (StableHlo.devRef_ne_of_ne (show (main_v3_0 : Ref sig .tc) ≠ main_v3_1 by decide))]
  exact Function.update_self _ _ _

theorem V2_v3_1 (d : Dev nD) : V2 m d (Proc.devRef (τ := τ) .tc main_v3_1) = (dats0 m d).arrAt 3 cfg0.N := by
  unfold V2
  exact Function.update_self _ _ _

/-- The pipeline's kernel has no semaphore of its own. -/
abbrev osem0 : Fin 0 → SemLoc sig := fun k => k.elim0
theorem ownSemFacts0 : Pipeline.OwnSemFacts spec0 osem0 := by decide

theorem ownSems0_0 (c : Dev nD) :
    (Pipeline.ownSems0 (Ix := HIx 1) (Name := ℕ) (U := UU) (Lvl := ℕ) (Val := Elt F) (τ := τ) osem0 c : sProp 𝕄) = iprop(emp) := by
  unfold Pipeline.ownSems0; rw [show (Finset.univ : Finset (Fin 0)) = ∅ from rfl, BI.bigSep_empty]; rfl

theorem share0 (c : Dev nD) (w : Fin cfg0.W) : (dats0 m c).share w = fullShare := by
  unfold Dat.share; split <;> rfl

/-- The buffers the pipeline does not window hold at the returning valuation what they held at the entering one. -/
theorem rest_V2 (c : Dev nD) :
    (Pipeline.unscopedRest (Ix := HIx 1) (Name := ℕ) (U := UU) (Lvl := ℕ) spec0 c (fun b : Ref sig .tc => V2 m c b) : sProp 𝕄)
      = Pipeline.unscopedRest (Ix := HIx 1) (Name := ℕ) (U := UU) (Lvl := ℕ) spec0 c (VR m c) := by
  rw [unscopedRest0_eq, unscopedRest0_eq]
  simp only [VR]
  rw [V2_of_ne m c main_arg0 (by decide) (by decide), V2_of_ne m c main_arg1 (by decide) (by decide),
    V2_of_ne m c main_arg2 (by decide) (by decide), V2_of_ne m c main_v0 (by decide) (by decide),
    V2_of_ne m c main_v4 (by decide) (by decide), V2_of_ne m c main_v5 (by decide) (by decide),
    V2_of_ne m c main_v6 (by decide) (by decide)]

/-- The pipeline's four arrays at the returning valuation: the inputs' as found, the outputs' as the write-backs left. -/
theorem arrs_V2 (c : Dev nD) :
    (bigSep Finset.univ fun w : Fin cfg0.W =>
        ((((c : Thread nD τ).loc (Pipeline.arrRef spec0 w)) ↦{fullShare} (fun b : Ref sig .tc => V2 m c b) (Pipeline.arrRef spec0 w)) : sProp 𝕄))
      = iprop((((c : Thread nD τ).loc (Pipeline.arrRef spec0 0)) ↦{fullShare} VR m c (Pipeline.arrRef spec0 0))
          ∗ (((c : Thread nD τ).loc (Pipeline.arrRef spec0 1)) ↦{fullShare} VR m c (Pipeline.arrRef spec0 1))
          ∗ (((c : Thread nD τ).loc (Pipeline.arrRef spec0 2)) ↦{fullShare} (dats0 m c).arrAt 2 cfg0.N)
          ∗ (((c : Thread nD τ).loc (Pipeline.arrRef spec0 3)) ↦{fullShare} (dats0 m c).arrAt 3 cfg0.N)) := by
  rw [bigSep_W0]
  simp only [VR]
  rw [V2_of_ne m c main_v1 (by decide) (by decide), V2_of_ne m c main_v2 (by decide) (by decide), V2_v3_0, V2_v3_1]

/-- The unscoped buffers held at the returning valuation: the pipeline's four arrays and the buffers it does not window. -/
theorem held_V2 (c : Dev nD) :
    (StableHlo.held (SparseCore.T c) uc (V2 m c) : sProp 𝕄)
      = iprop(((((c : Thread nD τ).loc (Pipeline.arrRef spec0 0)) ↦{fullShare} VR m c (Pipeline.arrRef spec0 0))
          ∗ (((c : Thread nD τ).loc (Pipeline.arrRef spec0 1)) ↦{fullShare} VR m c (Pipeline.arrRef spec0 1))
          ∗ (((c : Thread nD τ).loc (Pipeline.arrRef spec0 2)) ↦{fullShare} (dats0 m c).arrAt 2 cfg0.N)
          ∗ (((c : Thread nD τ).loc (Pipeline.arrRef spec0 3)) ↦{fullShare} (dats0 m c).arrAt 3 cfg0.N))
        ∗ Pipeline.unscopedRest (Ix := HIx 1) (Name := ℕ) (U := UU) (Lvl := ℕ) spec0 c (VR m c)) := by
  rw [← Pipeline.unscopedBufs_held, Pipeline.unscopedBufs_split cfgs 0 launch0.win.arr_unscoped launch0.win.arr_inj c]
  show iprop((bigSep Finset.univ fun w : Fin cfg0.W =>
        ((((c : Thread nD τ).loc (Pipeline.arrRef spec0 w)) ↦{fullShare} (fun b : Ref sig .tc => V2 m c b) (Pipeline.arrRef spec0 w)) : sProp 𝕄))
      ∗ Pipeline.unscopedRest (Ix := HIx 1) (Name := ℕ) (U := UU) (Lvl := ℕ) spec0 c (fun b : Ref sig .tc => V2 m c b)) = _
  rw [rest_V2, arrs_V2]

set_option backward.isDefEq.respectTransparency.types false in
/-- THE REGION: entered from the unscoped buffers at the entering valuation beside what the core owes the launch
    handshakes; the four arrays go into the pipeline, the other seven buffers bypass it, the invariant takes nothing
    but the scoped buffers the boundary adds; left with the buffers at the returning valuation and the same debt. -/
def region0 : Pipeline.RDat.RegionSeg (pcfgs (F := F)) adm (rdatsOf' W (fun c => (dats0 m c).toR)) (none : HIx 1) defs₀ 𝒱₀ (K (F := F)).L (K (F := F)).lev 0 where
  win := launch0.win.to₀
  block_pos := launch0.block_pos
  stage_whole := launch0.stage_whole
  K := Fin 0
  osem := osem0
  ho := ownSemFacts0
  hbody c := (body_obligation0 m c).toR
  hwaits := hwaits_of_Otc (rdatsOf' W _) 0 0 (fun _ _ => rfl)
  pre c := iprop(StableHlo.held (SparseCore.T c) uc (V1 m c) ∗ tcOw c 0)
  post c := iprop(StableHlo.held (SparseCore.T c) uc (V2 m c) ∗ tcOw c 0)
  X c := iprop(emp)
  Y c := iprop(emp)
  Z c := Pipeline.unscopedRest (Ix := HIx 1) (Name := ℕ) (U := UU) (Lvl := ℕ) spec0 c (VR m c)
  hentry c := by
    rw [show StableHlo.held (SparseCore.T c) uc (V1 m c) = unscopedBufs c (VR m c) from (Pipeline.unscopedBufs_held c _).symm]
    have hsplit := Pipeline.RDat.arrays_of_unscopedBufs (p := (0 : Fin 2)) (pcfgs (F := F)) adm (rdatsOf' W (fun c => (dats0 m c).toR)) launch0.win launch0.arr_whole c
      (share0 m c) (VR m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOw
      icases HO with ⟨%Wt, %hW, HO⟩
      iexists Wt; isplitr
      · ipureintro; exact fun p hp => Or.inl (hW p hp)
      iexact HO
    isplitr; · iempintro
    iexact Hrest
  hin c := by
    show iprop(emp ∗ _ ∗ Pipeline.scopedRest spec0 c) ⊢ Φ0 c
    unfold Φ0
    iintro ⟨-, -, Hr⟩; iexact Hr
  hout c := by
    show Φ0 c ⊢ iprop(emp ∗ Pipeline.ownSems0 osem0 c ∗ Pipeline.scopedRest spec0 c)
    rw [ownSems0_0]; unfold Φ0
    iintro Hr
    isplitr; · iempintro
    isplitr; · iempintro
    iexact Hr
  hexit c := by
    show iprop((dats0 m c).toR.arraysAt cfg0.N ∗ (dats0 m c).toR.owesAt (none : HIx 1) (Fin.last cfg0.N) ∗ emp
        ∗ Pipeline.unscopedRest (Ix := HIx 1) (Name := ℕ) (U := UU) (Lvl := ℕ) spec0 c (VR m c)) ⊢ _
    refine (sep_mono ((dats0 m c).toR_arraysAt_post cfg0.N) .rfl).trans ?_
    unfold Dat.arrays
    rw [bigSep_W0]
    simp only [share0, (arr_whole0 0).set_eq_univ, (arr_whole0 1).set_eq_univ, (arr_whole0 2).set_eq_univ, (arr_whole0 3).set_eq_univ]
    rw [(dats0 m c).arrAt_in 0 rfl, (dats0 m c).arrAt_in 1 rfl, A0_eq, A0_eq]
    iintro ⟨⟨H0, H1, H2, H3⟩, HO, -, HZ⟩
    imodintro
    isplitl [H0 H1 H2 H3 HZ]
    · rw [held_V2]
      isplitl [H0 H1 H2 H3]
      · isplitl [H0]; · iexact H0
        isplitl [H1]; · iexact H1
        isplitl [H2]; · iexact H2
        iexact H3
      iexact HZ
    unfold tcOw
    icases HO with ⟨%Wt, %hW, HO⟩
    iexists Wt; isplitr
    · ipureintro
      intro p hp
      rcases hW hp with h | ⟨w, s, rfl⟩
      · exact h
      · show (K (F := F)).lev _ none ≤ _; rw [SparseCore.Cfg.lev_none]
    iexact HO

end Region0

end Cert.Proof.KI

end
-- ==== Proof.Frames.lean ====
/-
  The program's run, and its frame: every weakly fair execution ends, nothing faults, and q, k and v end as they began.

  The launch (Launch.lean) is applied to the kernels' pieces: the vector subcores' reorder of the queries, the
  tree-building pipeline's record and the attention pipeline's record, each entered from and left at the TensorCore's
  thread states. No item of @main writes an argument: the reshapes write their results, the first pipeline the pooled
  keys and values, the SparseCore call the reordered queries, the second pipeline the attention output, the broadcast
  the result; so the last valuation holds each argument as launched.
-/
import proofs.«208975_g36283883717458_cont_8to1_b_1954_30_alg».proof.Proof.Launch
import proofs.«208975_g36283883717458_cont_8to1_b_1954_30_alg».proof.Proof.ScSide
import proofs.«208975_g36283883717458_cont_8to1_b_1954_30_alg».proof.Proof.Region0Rec
import proofs.«208975_g36283883717458_cont_8to1_b_1954_30_alg».proof.Proof.Region1

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-- The queries as the first pipeline leaves them (it does not touch them), the array the SparseCore call fills, and
    what it fills it with: the queries in [head, row, lane] order. -/
abbrev xQ (d : Dev nD) : Buf (Elt F) (qLoc d) := V2 m d bQ
abbrev oT (d : Dev nD) : Buf (Elt F) (oLoc d) := V2 m d bT
abbrev Tq (d : Dev nD) : Buf (Elt F) (d, (bT : DevRef τ sig)) := qT (xQ m d)

/-- The valuation the attention pipeline is entered at. -/
abbrev W3 : Dev nD → Valuation τ sig (Elt F) := V3 (V2 m) (Tq m)

/-- What is known of the valuation the attention pipeline leaves: the one it was entered at, its output array at
    contents the pipeline's write-backs allow. -/
def G4 (d : Dev nD) (W4 : Valuation τ sig (Elt F)) : Prop :=
  ∃ o5, W4 = Function.update (W3 m d) (Proc.devRef .tc main_v5) o5 ∧ (rdat1 (W3 m) d).ArrAt 3 cfg2.N o5

set_option backward.isDefEq.respectTransparency.types false in
set_option maxHeartbeats 1000000 in
/-- THE RUN: from any memory with zero counters every weakly fair execution of the thirty-five threads ends, and on
    every device the TensorCore's unscoped buffers hold the closing broadcast's result of a valuation G4 describes. -/
theorem run_main : θ_run (Cert.KernelIdeal.defs (F := F)) (Cert.KernelIdeal.threads (F := F)) ⟨m, fun _ => 0, ρ⟩ (QC (G4 m)) :=
  run_cond m ρ (rdatsOf' (W3 m) (fun c => (dats0 m c).toR)) (P (xQ m) (oT m)) (V2 m) (Tq m) (G4 m)
    (region0 m (W3 m)) (region1 (W3 m) (fun c => (dats0 m c).toR))
    (initOf kCells kToks) rfl (tileObl (xQ m) (oT m)) (vecSplit (xQ m) (oT m)) (kits_deal_all (xQ m) (oT m))
    (fun d => .rfl) (fun d => .rfl) (fun d => .rfl)
    (fun d => by
      show (iprop(∃ o5, StableHlo.held (SparseCore.T d) uc (Function.update (W3 m d) (Proc.devRef .tc main_v5) o5)
          ∗ ⌜(rdat1 (W3 m) d).ArrAt 3 cfg2.N o5⌝ ∗ tcOw (F := F) d 1) : sProp 𝕄) ⊢ _
      iintro ⟨%o5, Hh, %hA, How⟩
      iexists (Function.update (W3 m d) (Proc.devRef .tc main_v5) o5)
      isplitr; · ipureintro; exact ⟨o5, rfl, hA⟩
      isplitl [Hh]; · iexact Hh
      iexact How)
    (fun d => st_eq (xQ m) (oT m) d) (fun d => dn_eq (xQ m) (oT m) d)

omit [∀ e, Nonempty (Elt F e)] in
/-- A buffer none of the three reshapes writes is, after them, as at launch. -/
theorem V1_of_not_written (d : Dev nD) (b : DevRef τ sig)
    (h0 : b ≠ Proc.devRef .tc main_v0) (h1 : b ≠ Proc.devRef .tc main_v1) (h2 : b ≠ Proc.devRef .tc main_v2) :
    V1 m d b = m (d, b) := by
  unfold V1
  rw [(opV (F := F)).result_of_not_mem _ (by rw [show (opV (F := F)).writes = {Proc.devRef .tc main_v2} from rfl, Finset.mem_singleton]; exact h2),
    (opK (F := F)).result_of_not_mem _ (by rw [show (opK (F := F)).writes = {Proc.devRef .tc main_v1} from rfl, Finset.mem_singleton]; exact h1),
    (opQ (F := F)).result_of_not_mem _ (by rw [show (opQ (F := F)).writes = {Proc.devRef .tc main_v0} from rfl, Finset.mem_singleton]; exact h0)]

omit [∀ e, Nonempty (Elt F e)] in
/-- The closing broadcast writes only the result array. -/
theorem opB_of_not_written (W : Valuation τ sig (Elt F)) (b : DevRef τ sig) (h : b ≠ Proc.devRef .tc main_v6) :
    (opB (F := F)).result W b = W b :=
  (opB (F := F)).result_of_not_mem _ (by rw [show (opB (F := F)).writes = {Proc.devRef .tc main_v6} from rfl, Finset.mem_singleton]; exact h)

/-- An argument is written by no item of @main: in any valuation the run may end at, it is as launched. -/
theorem arg_kept (d : Dev nD) (W4 : Valuation τ sig (Elt F)) (hG : G4 m d W4) (a : Ref sig .tc)
    (h0 : a ≠ main_v0) (h1 : a ≠ main_v1) (h2 : a ≠ main_v2) (h30 : a ≠ main_v3_0) (h31 : a ≠ main_v3_1) (h4 : a ≠ main_v4) (h5 : a ≠ main_v5) (h6 : a ≠ main_v6) :
    (opB (F := F)).result W4 (Proc.devRef .tc a) = m (d, Proc.devRef .tc a) := by
  obtain ⟨o5, rfl, -⟩ := hG
  rw [opB_of_not_written _ _ (StableHlo.devRef_ne_of_ne h6), Function.update_of_ne (StableHlo.devRef_ne_of_ne h5)]
  show Function.update (V2 m d) bT (Tq m d) (Proc.devRef .tc a) = _
  rw [Function.update_of_ne (StableHlo.devRef_ne_of_ne h4), V2_of_ne m d a h30 h31,
    V1_of_not_written m d _ (StableHlo.devRef_ne_of_ne h0) (StableHlo.devRef_ne_of_ne h1) (StableHlo.devRef_ne_of_ne h2)]

/-- THE FRAME, at any float instance: the run, with everything but the three arguments forgotten. -/
theorem frame : θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain ⟨W4, hG, hb⟩ := h c
    refine ⟨?_, ?_, ?_⟩
    · exact (hb (Proc.devRef .tc main_arg0) (by decide)).trans (arg_kept m c W4 hG main_arg0 (by decide) (by decide) (by decide) (by decide) (by decide) (by decide) (by decide) (by decide))
    · exact (hb (Proc.devRef .tc main_arg1) (by decide)).trans (arg_kept m c W4 hG main_arg1 (by decide) (by decide) (by decide) (by decide) (by decide) (by decide) (by decide) (by decide))
    · exact (hb (Proc.devRef .tc main_arg2) (by decide)).trans (arg_kept m c W4 hG main_arg2 (by decide) (by decide) (by decide) (by decide) (by decide) (by decide) (by decide) (by decide)))
    (run_main m ρ)

end Cert.Proof.KI

end
-- ==== Proof.CommonB.lean ====
/-
  The program as the launch theorem sees it, and the ghost state every module of this proof shares.

  The program runs three kernels from @main on the TensorCore: a pipeline of sixteen points that builds, per head,
  the eleven levels of pooled keys and values; one SparseCore call whose thirty-two vector subcores copy the queries
  from [row, head, lane] order into [head, row, lane] order; a second pipeline of sixteen points that attends, per
  head, over the pooled nodes. The ghost state is a product of three round structures: the four launch handshakes of
  the SparseCore call, the vector subcores' own copy semaphores, and the two pipelines' staging semaphores.
-/
import proofs.«208975_g36283883717458_cont_8to1_b_1954_30_alg».proof.Kernel
import proofs.«208975_g36283883717458_cont_8to1_b_1954_30_alg».proof.Proof.Gen.Kernel
import Idealize.ShloMosaic.Lib.SparseCore.Launch
import Idealize.ShloMosaic.Lib.Pipeline.Regions
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the vector subcores' copy semaphores, the pipelines' staging semaphores -/

abbrev UH : Type := URounds (GSem nD τ sig) ℕ
abbrev UK : Type := URounds (GSem nD τ sig) Unit
abbrev UP : Type := URounds (GSem nD τ sig) Unit
abbrev UU : Type := UH × (UK × UP)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans
    (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

end Cert.Proof.KB

end
-- ==== Proof.LaunchDefsB.lean ====
/-
  @main's host operations and the TensorCore's thread states between @main's items.

  Between two items of @main the TensorCore holds every unscoped buffer whole, at a valuation: the launch contents, then
  each reshape's result, then what a kernel leaves in its output arrays. Beside the buffers it holds what it still owes
  the SparseCore launch's handshakes before the next call.
-/
import proofs.«208975_g36283883717458_cont_8to1_b_1954_30_alg».proof.Proof.CommonB
import proofs.«208975_g36283883717458_cont_8to1_b_1954_30_alg».proof.Proof.Gen.Kernel.Launch
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

variable (m : (ℓ : Loc nD τ sig) → Buf (Elt F) ℓ) (ρ : Dev nD → PrngReg)

/-- The prefetched tables' admissible contents: neither pipeline has a table. -/
abbrev adm : (p : Fin 2) → (pcfgs (F := F) p).Adm := fun p => (cfgs p).toPCfg_adm

/-- The three reshapes that open @main and the broadcast that closes it. -/
abbrev opQ : HloOp τ sig (Elt F) := StableHlo.reshape main_arg0 main_v0 rfl shapeCasts_S1x2048x16x128_S2048x16x128
abbrev opK : HloOp τ sig (Elt F) := StableHlo.reshape main_arg1 main_v1 rfl shapeCasts_S1x2048x16x128_S2048x16x128
abbrev opV : HloOp τ sig (Elt F) := StableHlo.reshape main_arg2 main_v2 rfl shapeCasts_S1x2048x16x128_S2048x16x128
abbrev opB : HloOp τ sig (Elt F) := StableHlo.unary main_v5 main_v6 (broadcastInDim S1x2048x16x128 ![1, 2, 3] bcast_S2048x16x128_S1x2048x16x128_1_2_3 : (⟨S2048x16x128, .f32⟩ : BufTy).Contents (Elt F) → (⟨S1x2048x16x128, .f32⟩ : BufTy).Contents (Elt F))

/-- The TensorCore's unscoped buffers: the three arguments and @main's eight intermediate arrays. -/
abbrev uc : Finset (DevRef τ sig) := Pipeline.ucRefs τ sig

theorem sub_uc_pair (x y : Ref sig .tc) (op : HloOp τ sig (Elt F)) (h : op.bufs = {Proc.devRef (τ := τ) .tc x, Proc.devRef (τ := τ) .tc y}) : op.bufs ⊆ uc :=
  Pipeline.sub_ucRefs op (by
    rw [h]; intro b hb
    rcases Finset.mem_insert.mp hb with rfl | hb
    · exact StableHlo.devRef_mem_tcRefs x
    · cases Finset.mem_singleton.mp hb; exact StableHlo.devRef_mem_tcRefs y)
theorem opQ_sub : (opQ (F := F)).bufs ⊆ uc := sub_uc_pair main_arg0 main_v0 _ rfl
theorem opK_sub : (opK (F := F)).bufs ⊆ uc := sub_uc_pair main_arg1 main_v1 _ rfl
theorem opV_sub : (opV (F := F)).bufs ⊆ uc := sub_uc_pair main_arg2 main_v2 _ rfl
theorem opB_sub : (opB (F := F)).bufs ⊆ uc := sub_uc_pair main_v5 main_v6 _ rfl

/-- Core d's unscoped buffers at launch, and after the three reshapes. -/
abbrev V0 (d : Dev nD) : Valuation τ sig (Elt F) := fun b => m (d, b)
abbrev V1 (d : Dev nD) : Valuation τ sig (Elt F) := (opV (F := F)).result ((opK (F := F)).result ((opQ (F := F)).result (V0 m d)))

/-- What the TensorCore owes before call n, its recorded waits at or below that call's band. -/
def tcOw (d : Dev nD) (n : ℕ) : sProp 𝕄 :=
  iprop(∃ W, ⌜(K (F := F)).WBelow (SparseCore.T d) W (8 * n)⌝ ∗ owes (SparseCore.T d) ((K (F := F)).Otc d n) W)

/-- A pipeline's entry as @main calls it is the pipelines' own call, lifted to the extended body table. -/
theorem lift_call (p : Fin 2) :
    (Prog.lift (TpuEff.customCall (SparseCore.inner (Pipeline.entry p)) ()) : Prog (TpuEff nD τ sig (Elt F) (SparseCore.Sig (ΛP (F := F)) 1) .tc) PUnit)
      = SparseCore.liftProg (Prog.op (TpuEff.customCall (Pipeline.entry p) ()) fun _ => .ret ⟨⟩) := rfl

end Cert.Proof.KB

end
-- ==== Proof.LaunchB.lean ====
/-
  The launch: every weakly fair execution of the program's thirty-five threads ends, and what the final memory holds.

  @main on the TensorCore reshapes the three arguments, runs the tree-building pipeline, starts the SparseCore call
  and waits for it, runs the attention pipeline, and broadcasts the result. Here that is proved ONCE, from the kernels'
  pieces: each pipeline's region as a record (its proof data, the body's obligation, how the region is entered from
  and left at the TensorCore's thread state), the vector subcores' task and how a SparseCore's two operands split
  among its sixteen tasks, and the launch element of the ghost state. A region is met by lifting the pipelines' own
  call to the body table extended with the SparseCore dispatch; the SparseCore call takes the queries and the array
  it fills out of the held buffers and returns them; between items the TensorCore holds every unscoped buffer whole.
-/
import proofs.«208975_g36283883717458_cont_8to1_b_1954_30_alg».proof.Proof.LaunchDefsB
import proofs.«208975_g36283883717458_cont_8to1_b_1954_30_alg».proof.Proof.Gen.Kernel.Launch
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

section Cond

variable [∀ e, Nonempty (Elt F e)]
variable (m : (ℓ : Loc nD τ sig) → Buf (Elt F) ℓ) (ρ : Dev nD → PrngReg)
variable (rdats : (p : Fin 2) → (c : Dev nD) → RDat τ (Elt F) (HIx 1) ℕ UU ℕ (cfgs p) c)

set_option backward.isDefEq.respectTransparency.types false in
set_option maxHeartbeats 1000000 in
/-- One pipeline's region as @main meets it: from the region's entry state, the level facts and the pipeline's share
    of the staging semaphores' ghost state, to its exit state. -/
theorem region_step {p : Fin 2} (R : Pipeline.RDat.RegionSeg (pcfgs (F := F)) adm rdats (none : HIx 1) defs₀ 𝒱₀ (K (F := F)).L (K (F := F)).lev p)
    (d : Dev nD) (Φ : PUnit → sProp 𝕄) :
    iprop(boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (d.tc : Thread nD τ) ∗ R.post d) -∗ Φ ⟨⟩)
        -∗ wp frame (wpE ((K (F := F)).defs (D (F := F))) 𝒱 (SparseCore.T d) none) Set.univ (Prog.lift (TpuEff.customCall (SparseCore.inner (Pipeline.entry p)) ())) Φ) := by
  rw [lift_call]
  iintro ⟨Hb, Hpre, Hlev, Hg, Ht⟩ Hk
  iapply ((K (F := F)).wp_liftProg (D (F := F)) 𝒱 (SparseCore.T d) Set.univ none _ Φ)
  iapply (Pipeline.RDat.RegionSeg.wp (pcfgs (F := F)) adm rdats (none : HIx 1) cellOf_inj EP defs₀ 𝒱₀ (K (F := F)).L (K (F := F)).lev R d none (fun _ hu => nomatch hu) (fun _ => .ret ⟨⟩) Φ)
  isplitl [Hk]
  · iintro H
    rw [wp_ret]
    imodintro
    iapply Hk; iexact H
  isplitl [Hb]; · iexact Hb
  isplitl [Hpre]; · iexact Hpre
  isplitl [Hlev]; · iexact Hlev
  isplitl [Hg]; · iexact Hg
  iexact Ht

/-- The two buffers the SparseCore call takes: the queries in [row, head, lane] order and the array it fills. -/
abbrev bQ : DevRef τ sig := Proc.devRef .tc main_v0
abbrev bT : DevRef τ sig := Proc.devRef .tc main_v4
abbrev scSet : Finset (DevRef τ sig) := {bQ, bT}
theorem scSet_sub : (scSet : Finset (DevRef τ sig)) ⊆ uc := by decide
theorem bQ_ne_bT : (bQ : DevRef τ sig) ≠ bT := StableHlo.devRef_ne_of_ne (by decide)

omit [FloatOps F] [∀ e, Nonempty (Elt F e)] in
theorem held_scSet (d : Dev nD) (W : Valuation τ sig (Elt F)) :
    (StableHlo.held (SparseCore.T d) scSet W : sProp 𝕄) = iprop(((d, bQ) ↦{fullShare} W bQ) ∗ ((d, bT) ↦{fullShare} W bT)) := by
  unfold StableHlo.held scSet
  rw [SparseCore.bigSep_insert' (by rw [Finset.mem_singleton]; exact bQ_ne_bT), bigSep_singleton]

omit [FloatOps F] [∀ e, Nonempty (Elt F e)] in
/-- The held set with the call's two buffers taken out. -/
theorem held_take (d : Dev nD) (W : Valuation τ sig (Elt F)) :
    (StableHlo.held (SparseCore.T d) uc W : sProp 𝕄)
      = iprop((((d, bQ) ↦{fullShare} W bQ) ∗ ((d, bT) ↦{fullShare} W bT)) ∗ StableHlo.held (SparseCore.T d) (uc \ scSet) W) := by
  rw [StableHlo.held_sub_split (SparseCore.T d) scSet_sub W, held_scSet]

omit [FloatOps F] [∀ e, Nonempty (Elt F e)] in
/-- and put back, the filled array at its new contents. -/
theorem held_put (d : Dev nD) (W : Valuation τ sig (Elt F)) (t' : Buf (Elt F) (d, (bT : DevRef τ sig))) :
    (iprop((((d, bQ) ↦{fullShare} W bQ) ∗ ((d, bT) ↦{fullShare} t')) ∗ StableHlo.held (SparseCore.T d) (uc \ scSet) W) : sProp 𝕄)
      = StableHlo.held (SparseCore.T d) uc (Function.update W bT t') := by
  rw [held_take d (Function.update W bT t'), Function.update_of_ne bQ_ne_bT, Function.update_self,
    StableHlo.held_congr (SparseCore.T d) (S := uc \ scSet) (V := Function.update W bT t') (V' := W) fun b hb =>
      Function.update_of_ne (fun e => (Finset.mem_sdiff.mp hb).2 (by rw [e]; exact Finset.mem_insert_of_mem (Finset.mem_singleton_self _))) _ _]

/-- The rest of the TensorCore's handshake state before call n: its position on its done cell, the rounds reached, the
    start duties' tokens and credit for the calls still to come. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [∀ e, Nonempty (Elt F e)] in
theorem tcSt_split (d : Dev nD) (n : ℕ) : (K (F := F)).tcSt EH d n = iprop(tcOw (F := F) d n ∗ tcRest (F := F) d n) := rfl

variable (P : (K (F := F)).Pay (nD := nD) (Val := Elt F) (Name := ℕ) (U := UU))
variable (V2 : Dev nD → Valuation τ sig (Elt F)) (T' : (d : Dev nD) → Buf (Elt F) (d, (bT : DevRef τ sig)))
-- what is known of the valuation the attention pipeline leaves: its output array is constrained, not named
variable (G4 : (d : Dev nD) → Valuation τ sig (Elt F) → Prop)

/-- After the SparseCore call the filled array holds the reordered queries; nothing else has changed. -/
abbrev V3 (d : Dev nD) : Valuation τ sig (Elt F) := Function.update (V2 d) bT (T' d)

variable (R0 : Pipeline.RDat.RegionSeg (pcfgs (F := F)) adm rdats (none : HIx 1) defs₀ 𝒱₀ (K (F := F)).L (K (F := F)).lev 0)
variable (R1 : Pipeline.RDat.RegionSeg (pcfgs (F := F)) adm rdats (none : HIx 1) defs₀ 𝒱₀ (K (F := F)).L (K (F := F)).lev 1)

/-- What @main leaves on the TensorCore: every unscoped buffer whole, at the closing broadcast's result of a valuation the
    attention pipeline may leave. -/
def FIN (d : Dev nD) : sProp 𝕄 := iprop(∃ W4, ⌜G4 d W4⌝ ∗ StableHlo.held (SparseCore.T d) uc ((opB (F := F)).result W4))

/-- The pipelines' ghost state the launch deals each TensorCore. -/
abbrev Gd (d : Dev nD) : sProp 𝕄 :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

set_option backward.isDefEq.respectTransparency.types false in
set_option maxHeartbeats 2000000 in
/-- @main on device d's TensorCore: three reshapes, the tree-building pipeline, the SparseCore call, the attention pipeline,
    the closing broadcast — given each region's record entered from and left at the thread states written here, and what
    the SparseCore call takes and returns. -/
theorem hmain
    (hpre0 : ∀ d, iprop(StableHlo.held (SparseCore.T d) uc (V1 m d) ∗ tcOw (F := F) d 0) ⊢ R0.pre d)
    (hpost0 : ∀ d, R0.post d ⊢ iprop(StableHlo.held (SparseCore.T d) uc (V2 d) ∗ tcOw (F := F) d 0))
    (hpre1 : ∀ d, iprop(StableHlo.held (SparseCore.T d) uc (V3 V2 T' d) ∗ tcOw (F := F) d 1) ⊢ R1.pre d)
    (hpost1 : ∀ d, R1.post d ⊢ iprop(∃ W4, ⌜G4 d W4⌝ ∗ StableHlo.held (SparseCore.T d) uc W4 ∗ tcOw (F := F) d 1))
    (hst : ∀ d, (bigSep Finset.univ fun c : Fin ((K (F := F)).nCore 0) => P.st 0 d c) = iprop(((d, bQ) ↦{fullShare} V2 d bQ) ∗ ((d, bT) ↦{fullShare} V2 d bT)))
    (hdn : ∀ d, (bigSep Finset.univ fun c : Fin ((K (F := F)).nCore 0) => P.dn 0 d c) = iprop(((d, bQ) ↦{fullShare} V2 d bQ) ∗ ((d, bT) ↦{fullShare} T' d)))
    (κ : GSem nD τ sig → ℕ) (d : Dev nD) :
    iprop((K (F := F)).ctx EH P κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN G4 d) := by
  unfold SparseCore.Cfg.tcRes
  rw [Pipeline.unscopedBufs_held d (V0 m d), tcSt_split, tcSt_split]
  simp only [main, wp_bind, wp_pure]
  iintro ⟨#Hctx, ⟨How, Hrest⟩, ⟨Hb, Hh, Hs0, Hg⟩, ⟨⟨Hg0, Ht0⟩, ⟨Hg1, Ht1⟩⟩⟩
  ihave #Hlev := (SparseCore.Cfg.ctx_levAts κ) $$ Hctx
  -- the three reshapes
  iapply (StableHlo.wp_hlo_within 𝒱 (SparseCore.T d) none Set.univ (op := opQ) opQ_sub (V := V0 m d)) $$ [Hb Hh]
  · isplitl [Hb]; · iexact Hb
    iexact Hh
  iintro ⟨Hb, Hh⟩
  rw [wp_ret]; imodintro
  iapply (StableHlo.wp_hlo_within 𝒱 (SparseCore.T d) none Set.univ (op := opK) opK_sub) $$ [Hb Hh]
  · isplitl [Hb]; · iexact Hb
    iexact Hh
  iintro ⟨Hb, Hh⟩
  rw [wp_ret]; imodintro
  iapply (StableHlo.wp_hlo_within 𝒱 (SparseCore.T d) none Set.univ (op := opV) opV_sub) $$ [Hb Hh]
  · isplitl [Hb]; · iexact Hb
    iexact Hh
  iintro ⟨Hb, Hh⟩
  rw [wp_ret]; imodintro
  -- the tree-building pipeline
  iapply (region_step rdats R0 d _) $$ [Hb Hh How Hg0 Ht0]
  · isplitl [Hb]; · iexact Hb
    isplitl [Hh How]
    · iapply (hpre0 d)
      isplitl [Hh]; · iexact Hh
      iexact How
    isplitr; · iexact Hlev
    isplitl [Hg0]; · iexact Hg0
    iexact Ht0
  iintro ⟨Hb, Hpost⟩
  ihave Hpost' := (hpost0 d) $$ Hpost
  icases Hpost' with ⟨Hh, How⟩
  -- the SparseCore call: the queries and the array it fills go out and come back
  ihave Hh' := (Entails.of_eq (held_take d (V2 d))) $$ Hh
  icases Hh' with ⟨⟨HQ, HT⟩, Hrst⟩
  iapply ((K (F := F)).wp_run (D (F := F)) 𝒱 (EH := EH) (P := P) κ d 0) $$ [How Hrest HQ HT Hb Hrst Hs0 Hg Hg1 Ht1]
  isplitr; · iexact Hctx
  isplitl [How Hrest]
  · rw [tcSt_split]
    isplitl [How]; · iexact How
    iexact Hrest
  isplitl [HQ HT]
  · rw [hst]
    isplitl [HQ]; · iexact HQ
    iexact HT
  iintro ⟨Hst, Hdn⟩
  ihave Hst' := (Entails.of_eq (tcSt_split (F := F) d _)) $$ Hst
  icases Hst' with ⟨How, Hrest⟩
  ihave Hdn' := (Entails.of_eq (hdn d)) $$ Hdn
  icases Hdn' with ⟨HQ, HT⟩
  ihave Hh := (Entails.of_eq (held_put d (V2 d) (T' d))) $$ [HQ HT Hrst]
  · isplitr [Hrst]
    · isplitl [HQ]; · iexact HQ
      iexact HT
    iexact Hrst
  -- the attention pipeline
  iapply (region_step rdats R1 d _) $$ [Hb Hh How Hg1 Ht1]
  · isplitl [Hb]; · iexact Hb
    isplitl [Hh How]
    · iapply (hpre1 d)
      isplitl [Hh]; · iexact Hh
      iexact How
    isplitr; · iexact Hlev
    isplitl [Hg1]; · iexact Hg1
    iexact Ht1
  iintro ⟨Hb, Hpost⟩
  ihave Hpost' := (hpost1 d) $$ Hpost
  icases Hpost' with ⟨%W4, %hG4, Hh, How⟩
  -- the closing broadcast
  iapply (StableHlo.wp_hlo_within 𝒱 (SparseCore.T d) none Set.univ (op := opB) opB_sub) $$ [Hb Hh]
  · isplitl [Hb]; · iexact Hb
    iexact Hh
  iintro ⟨Hb, Hh⟩
  rw [wp_ret]; imodintro
  imodintro
  isplitl [How Hrest]
  · isplitl [How]; · iexact How
    iexact Hrest
  unfold FIN
  iexists W4
  isplitr; · ipureintro; exact hG4
  iexact Hh

end Cond

section Run

variable [∀ e, Nonempty (Elt F e)]
variable (m : (ℓ : Loc nD τ sig) → Buf (Elt F) ℓ) (ρ : Dev nD → PrngReg)
variable (rdats : (p : Fin 2) → (c : Dev nD) → RDat τ (Elt F) (HIx 1) ℕ UU ℕ (cfgs p) c)
variable (P : (K (F := F)).Pay (nD := nD) (Val := Elt F) (Name := ℕ) (U := UU))
variable (V2 : Dev nD → Valuation τ sig (Elt F)) (T' : (d : Dev nD) → Buf (Elt F) (d, (bT : DevRef τ sig)))
variable (G4 : (d : Dev nD) → Valuation τ sig (Elt F) → Prop)
variable (R0 : Pipeline.RDat.RegionSeg (pcfgs (F := F)) adm rdats (none : HIx 1) defs₀ 𝒱₀ (K (F := F)).L (K (F := F)).lev 0)
variable (R1 : Pipeline.RDat.RegionSeg (pcfgs (F := F)) adm rdats (none : HIx 1) defs₀ 𝒱₀ (K (F := F)).L (K (F := F)).lev 1)

omit [FloatOps F] [∀ e, Nonempty (Elt F e)] in
theorem bigSep_F2 (Φ : Fin 2 → sProp 𝕄) : bigSep Finset.univ Φ = iprop(Φ (0 : Fin 2) ∗ Φ (1 : Fin 2)) :=
  bigSep_univ_eq_bigSepL [(0 : Fin 2), (1 : Fin 2)] (by decide) (by decide) Φ

/-- The launch element: the handshakes' rounds, the vector subcores' copy cells (an element uk₀ of the certificate's
    choosing, which its own lemma turns into the cells' kits), the two pipelines' staging cells. -/
def u₀ (uk₀ : UK) : UU :=
  (initOf (K (F := F)).hsCells (K (F := F)).hsToks,
    (uk₀, initOf (Pipeline.cells (Pipeline.pin (pcfgs (F := F)) adm) cellOf_inj) (Pipeline.launchToks (Pipeline.pin (pcfgs (F := F)) adm) cellOf_inj)))

omit [∀ e, Nonempty (Elt F e)] in
/-- The pipelines' ghost state, funded for every core and pipeline at once, dealt per TensorCore. -/
theorem deal_Gd_core (c : Dev nD) :
    (iprop((bigSep Finset.univ fun p : Fin 2 => Pipeline.cellsGhost (Pipeline.pin (pcfgs (F := F)) adm) EP p c)
        ∗ (bigSep Finset.univ fun p : Fin 2 => (Pipeline.toksInit (Pipeline.pin (pcfgs (F := F)) adm) EP p c : sProp 𝕄))) : sProp 𝕄)
      ⊢ Gd (F := F) c := by
  rw [bigSep_F2, bigSep_F2]
  iintro ⟨⟨A0, A1⟩, ⟨B0, B1⟩⟩
  isplitl [A0 B0]
  · isplitl [A0]; · iexact A0
    iexact B0
  isplitl [A1]; · iexact A1
  iexact B1

omit [∀ e, Nonempty (Elt F e)] in
theorem deal_Gd :
    (iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 => (Pipeline.toksInit (Pipeline.pin (pcfgs (F := F)) adm) EP p c : sProp 𝕄))) : sProp 𝕄)
      ⊢ bigSep Finset.univ fun d : Dev nD => Gd (F := F) d := by
  rw [← bigSep_sep']
  exact bigSep_mono fun c _ => deal_Gd_core c

set_option backward.isDefEq.respectTransparency.types false in
theorem hu₀ (uk₀ : UK)
    (hkits : (BI.own (EK uk₀) : sProp 𝕄) ⊢ iprop(|==> bigSep Finset.univ fun thr : Thread nD τ => bigSep Finset.univ fun q : Fin 1 => P.x q thr)) :
    (iprop(ownU (u₀ (F := F) uk₀) ∗ P.oxCred ∗ (K (F := F)).freeSems0) : sProp 𝕄)
      ⊢ |={Set.univ}=> iprop(BI.own (EH (initOf (K (F := F)).hsCells (K (F := F)).hsToks)) ∗ (bigSep Finset.univ fun d : Dev nD => Gd (F := F) d)
          ∗ bigSep Finset.univ fun thr : Thread nD τ => bigSep Finset.univ fun q : Fin 1 => P.x q thr) := by
  unfold u₀
  iintro ⟨Hu, -, -⟩
  ihave H := (ownU_pair _ _) $$ Hu
  icases H with ⟨HH, HKP⟩
  ihave H2 := (own_pair_emb (embR (A := UH) (B := UK × UP)) uk₀ _) $$ HKP
  icases H2 with ⟨HK, HP⟩
  ihave HK' := (Entails.of_eq (show (BI.own (((Emb.inl : Emb UK (UK × UP)).trans (embR (A := UH) (B := UK × UP))) uk₀) : sProp 𝕄) = BI.own (EK uk₀) from rfl)) $$ HK
  ihave HP' := (Entails.of_eq (show (BI.own (((Emb.inr : Emb UP (UK × UP)).trans (embR (A := UH) (B := UK × UP))) (initOf (Pipeline.cells (Pipeline.pin (pcfgs (F := F)) adm) cellOf_inj) (Pipeline.launchToks (Pipeline.pin (pcfgs (F := F)) adm) cellOf_inj))) : sProp 𝕄)
      = BI.own (EP (initOf (Pipeline.cells (Pipeline.pin (pcfgs (F := F)) adm) cellOf_inj) (Pipeline.launchToks (Pipeline.pin (pcfgs (F := F)) adm) cellOf_inj))) from rfl)) $$ HP
  imod hkits $$ HK' with Hkits
  imod (Pipeline.fund_ghost (Pipeline.pin (pcfgs (F := F)) adm) EP cellOf_inj) $$ HP' with ⟨Hg, Ht⟩
  imodintro
  isplitl [HH]; · iexact HH
  isplitl [Hg Ht]
  · iapply deal_Gd
    isplitl [Hg]; · iexact Hg
    iexact Ht
  iexact Hkits

/-- What a final memory must hold on device d: every unscoped buffer of the TensorCore at the last valuation. -/
def fq (d : Dev nD) (s' : Phys nD τ sig (Elt F)) : Prop :=
  ∃ W4, G4 d W4 ∧ ∀ b ∈ (uc : Finset (DevRef τ sig)), s'.mem.mem (d, b) = (opB (F := F)).result W4 b

omit [∀ e, Nonempty (Elt F e)] in
theorem hfin (d : Dev nD) (s' : Phys nD τ sig (Elt F)) : iprop(FIN G4 d ∗ SI s') ⊢ (⌜fq G4 d s'⌝ : sProp 𝕄) := by
  unfold FIN StableHlo.held
  iintro ⟨⟨%W4, %hG4, Hh⟩, HSI⟩
  ihave Hr := (pointsTo_read_all (uc : Finset (DevRef τ sig)) (fun b => (d, b)) ((opB (F := F)).result W4) s') $$ [Hh HSI]
  · isplitl [Hh] <;> iassumption
  icases Hr with ⟨%h, -⟩
  ipureintro; exact ⟨W4, hG4, h⟩

/-- The run's post: on every device every unscoped buffer of the TensorCore — the three arguments, @main's intermediate
    arrays and its result — holds the last valuation's contents. -/
def QC : PUnit × MemSt nD τ sig (Elt F) → Prop := fun r =>
  ∀ c : Dev nD, ∃ W4, G4 c W4 ∧ ∀ b ∈ (uc : Finset (DevRef τ sig)), r.2.mem (c, b) = (opB (F := F)).result W4 b

/-- THE RUN, given the kernels' pieces: each region's record entered from and left at @main's thread states, the
    vector subcores' task and how a SparseCore's operands split among them, and the launch element of their cells. -/
theorem run_cond [P.IsStorable] (uk₀ : UK) (hheld : P.held = ∅)
    (htile : (K (F := F)).TileObl (D (F := F)) 𝒱 P v₀ 0) (hvec : (K (F := F)).VecSplit' P 0)
    (hkits : (BI.own (EK uk₀) : sProp 𝕄) ⊢ iprop(|==> bigSep Finset.univ fun thr : Thread nD τ => bigSep Finset.univ fun q : Fin 1 => P.x q thr))
    (hpre0 : ∀ d, iprop(StableHlo.held (SparseCore.T d) uc (V1 m d) ∗ tcOw (F := F) d 0) ⊢ R0.pre d)
    (hpost0 : ∀ d, R0.post d ⊢ iprop(StableHlo.held (SparseCore.T d) uc (V2 d) ∗ tcOw (F := F) d 0))
    (hpre1 : ∀ d, iprop(StableHlo.held (SparseCore.T d) uc (V3 V2 T' d) ∗ tcOw (F := F) d 1) ⊢ R1.pre d)
    (hpost1 : ∀ d, R1.post d ⊢ iprop(∃ W4, ⌜G4 d W4⌝ ∗ StableHlo.held (SparseCore.T d) uc W4 ∗ tcOw (F := F) d 1))
    (hst : ∀ d, (bigSep Finset.univ fun c : Fin ((K (F := F)).nCore 0) => P.st 0 d c) = iprop(((d, bQ) ↦{fullShare} V2 d bQ) ∗ ((d, bT) ↦{fullShare} V2 d bT)))
    (hdn : ∀ d, (bigSep Finset.univ fun c : Fin ((K (F := F)).nCore 0) => P.dn 0 d c) = iprop(((d, bQ) ↦{fullShare} V2 d bQ) ∗ ((d, bT) ↦{fullShare} T' d))) :
    θ_run (Cert.Kernel.defs (F := F)) (Cert.Kernel.threads (F := F)) ⟨m, fun _ => 0, ρ⟩ (QC G4) :=
  SparseCore.Cfg.θ_run_sc (K := K (F := F)) (D := D (F := F)) (𝒱 := 𝒱) (EH := EH) (P := P) facts v₀
    (fun q hq => match q with | 0 => nomatch hq)
    (fun q _ => match q with | 0 => htile)
    (fun q _ => match q with | 0 => SparseCore.Cfg.VecSplit.of_plain hvec)
    m ρ main (fun d => Gd (F := F) d) (FIN G4) (u₀ (F := F) uk₀) (hu₀ P uk₀ hkits)
    (hmain m ρ rdats P V2 T' G4 R0 R1 hpre0 hpost0 hpre1 hpost1 hst hdn) (fq G4) (hfin G4) (QC G4) (fun _ h => h) (hheld := hheld)

end Run

end Cert.Proof.KB

end
-- ==== Proof.ScSideB.lean ====
/-
  The SparseCore call of the program: thirty-two vector subcores copy the queries from [row, head, lane] order
  into [head, row, lane] order. Vector subcore (c, s) takes head s and the rows 1024 c … 1024 c + 1023, in two
  chunks of 512 rows; each chunk goes from the query array into the subcore's 512 × 128 scratch and from the
  scratch into the transposed array, each of the four copies on a semaphore of its own and waited for before the
  scratch is touched again.

  Here: the transposed array as a function of the queries; the index sets a subcore's chunks occupy in the two
  arrays and that they tile both arrays; what the launch's handshakes carry; the body at a symbolic subcore; the
  ghost state of the subcores' copy semaphores.
-/
import proofs.«208975_g36283883717458_cont_8to1_b_1954_30_alg».proof.Proof.CommonB
import Idealize.ShloMosaic.Lib.SparseCore.Launch
import Idealize.ShloMosaic.Lib.Tactic
import Idealize.ShloMosaic.Lib.ValueLayout

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The value: the head axis brought to the front -/

/-- The query array and the transposed array, as locations of device `d`. -/
abbrev qLoc (d : Dev nD) : Loc nD τ sig := (SparseCore.T d).loc main_v0
abbrev oLoc (d : Dev nD) : Loc nD τ sig := (SparseCore.T d).loc main_v4

/-- The index of the query array that entry `j = (h, r, l)` of the transposed array is read from: `(r, h, l)`. -/
def trIdx (j : S16x2048x128.Idx) : S2048x16x128.Idx := ix3 (j 1) (j 0) (j 2)

/-- The transposed array: entry `(h, r, l)` is entry `(r, h, l)` of the queries. -/
def qT {d : Dev nD} (x : Buf (Elt F) (qLoc d)) : Buf (Elt F) (oLoc d) :=
  fun j => x (trIdx j)

theorem qT_apply {d : Dev nD} (x : Buf (Elt F) (qLoc d)) (h : Fin 16) (r : Fin 2048) (l : Fin 128) :
    qT x (ix3 h r l) = x (ix3 r h l) := rfl

/-! ## Where a subcore's chunks lie -/

/-- The offsets of chunk `r` of subcore `L` in the query array: rows from `1024 c + 512 r`, head `s`, every lane; -/
theorem k1_off1_eq0 : ∀ (L : grid1.Coords) (r : Fin 2), k1_off1 L (BitVec.ofNat 32 (512 * r.val)) 0 = 1024 * (L 0).val + 512 * r.val := by decide +kernel
theorem k1_off1_eq1 : ∀ (L : grid1.Coords) (r : Fin 2), k1_off1 L (BitVec.ofNat 32 (512 * r.val)) 1 = (L 1).val := by decide +kernel
theorem k1_off1_eq2 : ∀ (L : grid1.Coords) (r : Fin 2), k1_off1 L (BitVec.ofNat 32 (512 * r.val)) 2 = 0 := by decide +kernel
/-- and in the transposed array: head `s`, rows from `1024 c + 512 r`, every lane. -/
theorem k1_off2_eq0 : ∀ (L : grid1.Coords) (r : Fin 2), k1_off2 L (BitVec.ofNat 32 (512 * r.val)) 0 = (L 1).val := by decide +kernel
theorem k1_off2_eq1 : ∀ (L : grid1.Coords) (r : Fin 2), k1_off2 L (BitVec.ofNat 32 (512 * r.val)) 1 = 1024 * (L 0).val + 512 * r.val := by decide +kernel
theorem k1_off2_eq2 : ∀ (L : grid1.Coords) (r : Fin 2), k1_off2 L (BitVec.ofNat 32 (512 * r.val)) 2 = 0 := by decide +kernel

abbrev qV : Memref sig .scVector .hbm S2048x16x128 .f32 := Memref.whole main_v0_scv
abbrev oV : Memref sig .scVector .hbm S16x2048x128 .f32 := Memref.whole main_v4_scv
abbrev sV : Memref sig .scVector .vmem S512x128 .f32 := Memref.whole cc1_scratch0

/-- Chunk `r` of subcore `L` in the query array, as a rectangle: 512 rows, one head, every lane. -/
abbrev srcR (L : grid1.Coords) (r : Fin 2) : Rect S2048x16x128 :=
  Rect.unit (s := S2048x16x128) (k1_off1 L (BitVec.ofNat 32 (512 * r.val))) S512x1x128.size (k1_off1_inb L r)
/-- and in the transposed array: one head, 512 rows, every lane. -/
abbrev dstR (L : grid1.Coords) (r : Fin 2) : Rect S16x2048x128 :=
  Rect.unit (s := S16x2048x128) (k1_off2 L (BitVec.ofNat 32 (512 * r.val))) S1x512x128.size (k1_off2_inb L r)
/-- The two chunks as the body slices them, squeezed to 512 × 128. -/
abbrev srcM (L : grid1.Coords) (r : Fin 2) : Memref sig .scVector .hbm S512x128 .f32 :=
  ((qV : Memref sig .scVector .hbm S2048x16x128 .f32).slice (srcR L r) (fun _ => rfl)).squeeze S512x128 squeezes_S512x1x128_S512x128
abbrev dstM (L : grid1.Coords) (r : Fin 2) : Memref sig .scVector .hbm S512x128 .f32 :=
  ((oV : Memref sig .scVector .hbm S16x2048x128 .f32).slice (dstR L r) (fun _ => rfl)).squeeze S512x128 squeezes_S1x512x128_S512x128
abbrev srcSet (L : grid1.Coords) (r : Fin 2) : Finset S2048x16x128.Idx := (srcM L r).view.set
abbrev dstSet (L : grid1.Coords) (r : Fin 2) : Finset S16x2048x128.Idx := (dstM L r).view.set

theorem srcSet_eq (L : grid1.Coords) (r : Fin 2) : srcSet L r = (srcR L r).set := by
  show (((View.whole (main_v0_scv : Ref sig .scVector)).slice (srcR L r)).reshape S512x128 squeezes_S512x1x128_S512x128.numel_eq).set = _
  rw [View.set_reshape, View.set_slice]; exact Finset.map_refl
theorem dstSet_eq (L : grid1.Coords) (r : Fin 2) : dstSet L r = (dstR L r).set := by
  show (((View.whole (main_v4_scv : Ref sig .scVector)).slice (dstR L r)).reshape S512x128 squeezes_S1x512x128_S512x128.numel_eq).set = _
  rw [View.set_reshape, View.set_slice]; exact Finset.map_refl

/-- An index of the query array lies in chunk `r` of subcore `L` when its row is one of the chunk's 512 and its head
    is the subcore's. -/
theorem mem_srcSet {L : grid1.Coords} {r : Fin 2} {j : S2048x16x128.Idx} :
    j ∈ srcSet L r ↔ (1024 * (L 0).val + 512 * r.val ≤ (j 0).val ∧ (j 0).val < 1024 * (L 0).val + 512 * r.val + 512) ∧ (j 1).val = (L 1).val := by
  rw [srcSet_eq, Rect.mem_set_unit]
  have e0 : S512x1x128.size 0 = 512 := rfl
  have e1 : S512x1x128.size 1 = 1 := rfl
  have e2 : S512x1x128.size 2 = 128 := rfl
  constructor
  · intro h
    have h0 := h 0; have h1 := h 1
    rw [k1_off1_eq0 L r, e0] at h0; rw [k1_off1_eq1 L r, e1] at h1
    exact ⟨⟨h0.1, h0.2⟩, by omega⟩
  · rintro ⟨⟨h0, h0'⟩, h1⟩ a
    have hj2 : (j 2).val < 128 := (j 2).isLt
    match a with
    | 0 => rw [k1_off1_eq0 L r, e0]; exact ⟨h0, h0'⟩
    | 1 => rw [k1_off1_eq1 L r, e1]; omega
    | 2 => rw [k1_off1_eq2 L r, e2]; omega

/-- An index of the transposed array lies in chunk `r` of subcore `L` when its head is the subcore's and its row one
    of the chunk's. -/
theorem mem_dstSet {L : grid1.Coords} {r : Fin 2} {j : S16x2048x128.Idx} :
    j ∈ dstSet L r ↔ (j 0).val = (L 1).val ∧ (1024 * (L 0).val + 512 * r.val ≤ (j 1).val ∧ (j 1).val < 1024 * (L 0).val + 512 * r.val + 512) := by
  rw [dstSet_eq, Rect.mem_set_unit]
  have e0 : S1x512x128.size 0 = 1 := rfl
  have e1 : S1x512x128.size 1 = 512 := rfl
  have e2 : S1x512x128.size 2 = 128 := rfl
  constructor
  · intro h
    have h0 := h 0; have h1 := h 1
    rw [k1_off2_eq0 L r, e0] at h0; rw [k1_off2_eq1 L r, e1] at h1
    exact ⟨by omega, ⟨h1.1, h1.2⟩⟩
  · rintro ⟨h0, h1, h1'⟩ a
    have hj2 : (j 2).val < 128 := (j 2).isLt
    match a with
    | 0 => rw [k1_off2_eq0 L r, e0]; omega
    | 1 => rw [k1_off2_eq1 L r, e1]; exact ⟨h1, h1'⟩
    | 2 => rw [k1_off2_eq2 L r, e2]; omega

/-! ## The value a chunk's two copies leave -/

/-- An index `(x, y)` matched with shape `[a, 1, b]` is `(x, 0, y)`. -/
theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-- Element `(k0, k1)` of chunk `r` of subcore `L` sits in the query array at row `1024 c + 512 r + k0`, head `s`,
    lane `k1`. -/
theorem srcM_emb (L : grid1.Coords) (r : Fin 2) (k0 : Fin 512) (k1 : Fin 128) (a : Fin 3) :
    (((srcM L r).view.emb (ix2 k0 k1) : S2048x16x128.Idx) a : ℕ)
      = k1_off1 L (BitVec.ofNat 32 (512 * r.val)) a + ((ix3 k0 (⟨0, Nat.one_pos⟩ : Fin 1) k1 : (⟨3, ![512, 1, 128]⟩ : Shape).Idx) a : ℕ) := by
  have e : Shape.reshapeEquiv (s := S512x1x128) (s' := S512x128) squeezes_S512x1x128_S512x128.numel_eq (ix2 k0 k1)
      = ix3 k0 (⟨0, Nat.one_pos⟩ : Fin 1) k1 := reshapeEquiv_ix2_a1b _ k0 k1
  show k1_off1 L (BitVec.ofNat 32 (512 * r.val)) a
      + 1 * ((Shape.reshapeEquiv (s := S512x1x128) (s' := S512x128) squeezes_S512x1x128_S512x128.numel_eq (ix2 k0 k1) : S512x1x128.Idx) a : ℕ) = _
  rw [e, Nat.one_mul]
/-- and in the transposed array at head `s`, row `1024 c + 512 r + k0`, lane `k1`. -/
theorem dstM_emb (L : grid1.Coords) (r : Fin 2) (k0 : Fin 512) (k1 : Fin 128) (a : Fin 3) :
    (((dstM L r).view.emb (ix2 k0 k1) : S16x2048x128.Idx) a : ℕ)
      = k1_off2 L (BitVec.ofNat 32 (512 * r.val)) a + ((ix3 (⟨0, Nat.one_pos⟩ : Fin 1) k0 k1 : (⟨3, ![1, 512, 128]⟩ : Shape).Idx) a : ℕ) := by
  have e : Shape.reshapeEquiv (s := S1x512x128) (s' := S512x128) squeezes_S1x512x128_S512x128.numel_eq (ix2 k0 k1)
      = ix3 (⟨0, Nat.one_pos⟩ : Fin 1) k0 k1 := reshapeEquiv_ix2_1ab _ k0 k1
  show k1_off2 L (BitVec.ofNat 32 (512 * r.val)) a
      + 1 * ((Shape.reshapeEquiv (s := S1x512x128) (s' := S512x128) squeezes_S1x512x128_S512x128.numel_eq (ix2 k0 k1) : S1x512x128.Idx) a : ℕ) = _
  rw [e, Nat.one_mul]

/-- The place a chunk's element takes in the transposed array is, heads and rows exchanged, its place in the queries. -/
theorem tr_emb (L : grid1.Coords) (r : Fin 2) (k : S512x128.Idx) : trIdx ((dstM L r).view.emb k) = (srcM L r).view.emb k := by
  obtain ⟨k0, k1, rfl⟩ : ∃ (k0 : Fin 512) (k1 : Fin 128), k = ix2 k0 k1 := ⟨k 0, k 1, eq_ix2 k⟩
  funext a
  apply Fin.ext
  match a with
  | 0 =>
    show (((dstM L r).view.emb (ix2 k0 k1) : S16x2048x128.Idx) 1 : ℕ) = (((srcM L r).view.emb (ix2 k0 k1) : S2048x16x128.Idx) 0 : ℕ)
    rw [dstM_emb, srcM_emb, k1_off2_eq1, k1_off1_eq0]; rfl
  | 1 =>
    show (((dstM L r).view.emb (ix2 k0 k1) : S16x2048x128.Idx) 0 : ℕ) = (((srcM L r).view.emb (ix2 k0 k1) : S2048x16x128.Idx) 1 : ℕ)
    rw [dstM_emb, srcM_emb, k1_off2_eq0, k1_off1_eq1]; rfl
  | 2 =>
    show (((dstM L r).view.emb (ix2 k0 k1) : S16x2048x128.Idx) 2 : ℕ) = (((srcM L r).view.emb (ix2 k0 k1) : S2048x16x128.Idx) 2 : ℕ)
    rw [dstM_emb, srcM_emb, k1_off2_eq2, k1_off1_eq2]; rfl

/-- What chunk `r`'s write-out leaves in the transposed array: the scratch, holding the chunk as fetched from the
    queries `x`, written over any contents `fo`, is on the chunk's elements the transposed array of `x`. -/
theorem chunk_value {d : Dev nD} (L : grid1.Coords) (r : Fin 2) (x : Buf (Elt F) (qLoc d)) (fo : Buf (Elt F) (oLoc d)) :
    ∀ j ∈ dstSet L r, (dstM L r).view.write (Elt F) fo ((sV : Memref sig .scVector .vmem S512x128 .f32).view.read (Elt F) ((srcM L r).view.read (Elt F) x)) Finset.univ j = qT x j := by
  intro j hj
  obtain ⟨k, -, rfl⟩ := Finset.mem_map.mp hj
  rw [View.write_emb_of_mem _ _ (Finset.mem_univ k)]
  show (srcM L r).view.read (Elt F) x k = x (trIdx ((dstM L r).view.emb k))
  rw [tr_emb]; rfl

/-! ## The subcores' copy semaphores: their cells, schedule and ghost state -/

section Cells

variable (x : (d : Dev nD) → Buf (Elt F) (qLoc d)) (o : (d : Dev nD) → Buf (Elt F) (oLoc d))

/-- A subcore's four copy semaphores: chunk 0's fetch and write-out, chunk 1's fetch and write-out. -/
abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)

/-- What a fetch credits its semaphore (the scratch is its destination), and what a write-out does (a chunk of the
    transposed array is). -/
abbrev NA : ℕ := (sV : Memref sig .scVector .vmem S512x128 .f32).view.dmaCredit
abbrev NB : ℕ := sig.dmaCredit .scVector (Kind.scVector.table .hbm) (main_v4_scv : Ref sig .scVector).idx S512x128 .f32
theorem NA_pos : 0 < NA := View.dmaCredit_pos _ (by decide)
theorem NB_pos : 0 < NB := sig.dmaCredit_pos _ _ _ _ _ (by decide)

/-- A subcore's coordinates as the body's grid point. -/
def coordsV (c : Fin (grid1.bound 0)) (s : Fin (grid1.bound 1)) : grid1.Coords :=
  fun | 0 => c | 1 => s | ⟨_ + 2, h⟩ => absurd h (Nat.not_lt.2 (Nat.le_add_left _ _))
abbrev LV (c : Fin τ.nSC) (i : Fin τ.nSub) : grid1.Coords := coordsV ⟨c.val, c.isLt⟩ ⟨i.val, i.isLt⟩

abbrev sLoc (d : Dev nD) (c : Fin τ.nSC) (i : Fin τ.nSub) : Loc nD τ sig := (V d c i).loc cc1_scratch0

inductive CellKind | a0 | b0 | a1 | b1
  deriving DecidableEq

def cellKind (g : GSem nD τ sig) : Option CellKind :=
  match g with
  | ((_, .scVector _ _), sm) =>
      if sm = .dma cc1_scoped0.sem then some .a0 else if sm = .dma cc1_scoped1.sem then some .b0
      else if sm = .dma cc1_scoped2.sem then some .a1 else if sm = .dma cc1_scoped3.sem then some .b1 else none
  | _ => none

@[simp] theorem cellKind_0 (d : Dev nD) (c : Fin τ.nSC) (i : Fin τ.nSub) : cellKind (cell0 d c i) = some .a0 := by simp [cellKind]
@[simp] theorem cellKind_1 (d : Dev nD) (c : Fin τ.nSC) (i : Fin τ.nSub) : cellKind (cell1 d c i) = some .b0 := by
  simp [cellKind, show (cc1_scoped1.sem : DmaSem sig) ≠ cc1_scoped0.sem from by decide]
@[simp] theorem cellKind_2 (d : Dev nD) (c : Fin τ.nSC) (i : Fin τ.nSub) : cellKind (cell2 d c i) = some .a1 := by
  simp [cellKind, show (cc1_scoped2.sem : DmaSem sig) ≠ cc1_scoped0.sem from by decide, show (cc1_scoped2.sem : DmaSem sig) ≠ cc1_scoped1.sem from by decide]
@[simp] theorem cellKind_3 (d : Dev nD) (c : Fin τ.nSC) (i : Fin τ.nSub) : cellKind (cell3 d c i) = some .b1 := by
  simp [cellKind, show (cc1_scoped3.sem : DmaSem sig) ≠ cc1_scoped0.sem from by decide, show (cc1_scoped3.sem : DmaSem sig) ≠ cc1_scoped1.sem from by decide,
    show (cc1_scoped3.sem : DmaSem sig) ≠ cc1_scoped2.sem from by decide]

/-- What a fetch's landing hands back: the scratch holding chunk `r` as it stands in the queries, and the chunk's
    elements of the queries. -/
def payA (d : Dev nD) (c : Fin τ.nSC) (i : Fin τ.nSub) (r : Fin 2) : sProp 𝕄 :=
  iprop((sLoc d c i ↦{fullShare} (srcM (LV c i) r).view.read (Elt F) (x d)) ∗ qLoc d ↦[srcSet (LV c i) r]{fullShare} x d)
/-- What a write-out's landing hands back: chunk `r`'s elements of the transposed array at the transposed queries, and
    the scratch at some contents. -/
def payB (d : Dev nD) (c : Fin τ.nSC) (i : Fin τ.nSub) (r : Fin 2) : sProp 𝕄 :=
  iprop((oLoc d ↦[dstSet (LV c i) r]{fullShare} qT (x d)) ∗ ∃ f, sLoc d c i ↦{fullShare} f)

def kPay (g : GSem nD τ sig) : sProp 𝕄 :=
  match g with
  | ((d, .scVector c i), sm) =>
      if sm = .dma cc1_scoped0.sem then payA x d c i 0
      else if sm = .dma cc1_scoped1.sem then payB x d c i 0
      else if sm = .dma cc1_scoped2.sem then payA x d c i 1
      else payB x d c i 1
  | _ => iprop(emp)

/-- One duty on each copy semaphore, in its first round: the one copy it receives. -/
def kRd : Rounds.Schedule (GSem nD τ sig) Unit 𝕄 where
  duties g r := if (cellKind g).isSome ∧ r = 0 then {()} else ∅
  amount g _ _ := match cellKind g with | some .a0 => NA | some .a1 => NA | _ => NB
  payload g _ _ := kPay x g
  amount_pos g _ _ _ := by
    rcases cellKind g with _ | ⟨_ | _ | _ | _⟩
    · exact NB_pos
    · exact NA_pos
    · exact NB_pos
    · exact NA_pos
    · exact NB_pos

instance kRd_payload_storable (g : GSem nD τ sig) (r : ℕ) (u : Unit) : BI.Storable (upEmb : UEmb _ 𝕄) ((kRd (F := F) x).payload g r u) := by
  show BI.Storable upEmb (kPay x g)
  unfold kPay
  rcases g with ⟨⟨d, _ | c | ⟨c, i⟩⟩, sm⟩ <;> dsimp only <;> (repeat' split) <;> (try unfold payA) <;> (try unfold payB) <;> infer_instance

theorem kRd_duties₀ {g : GSem nD τ sig} (h : (cellKind g).isSome) : (kRd (F := F) x).duties g 0 = {()} := if_pos ⟨h, rfl⟩
theorem kRd_mem₀ {g : GSem nD τ sig} (h : (cellKind g).isSome) : () ∈ (kRd (F := F) x).duties g 0 := by
  rw [kRd_duties₀ x h]; exact Finset.mem_singleton_self _
theorem kRd_later (g : GSem nD τ sig) : ∀ r, 0 + 1 ≤ r → (kRd (F := F) x).duties g r = ∅ :=
  fun r hr => if_neg fun ⟨_, h⟩ => by omega
theorem kRd_back {g : GSem nD τ sig} (h : (cellKind g).isSome) :
    bigSep ((kRd (F := F) x).duties g 0 \ ∅) (fun u => (kRd (F := F) x).payload g 0 u) ⊢ (kRd (F := F) x).payload g 0 () := by
  rw [Finset.sdiff_empty, kRd_duties₀ x h, bigSep_singleton]
theorem kRd_expect {g : GSem nD τ sig} (h : (cellKind g).isSome) : (kRd (F := F) x).expect g 0 = (kRd (F := F) x).amount g 0 () := by
  unfold Rounds.Schedule.expect; rw [kRd_duties₀ x h]; exact Finset.sum_singleton _ _
theorem kRd_amount_0 (d : Dev nD) (c : Fin τ.nSC) (i : Fin τ.nSub) : (kRd (F := F) x).amount (cell0 d c i) 0 () = NA := by simp [kRd]
theorem kRd_amount_1 (d : Dev nD) (c : Fin τ.nSC) (i : Fin τ.nSub) : (kRd (F := F) x).amount (cell1 d c i) 0 () = NB := by simp [kRd]
theorem kRd_amount_2 (d : Dev nD) (c : Fin τ.nSC) (i : Fin τ.nSub) : (kRd (F := F) x).amount (cell2 d c i) 0 () = NA := by simp [kRd]
theorem kRd_amount_3 (d : Dev nD) (c : Fin τ.nSC) (i : Fin τ.nSub) : (kRd (F := F) x).amount (cell3 d c i) 0 () = NB := by simp [kRd]
theorem kRd_payload_0 (d : Dev nD) (c : Fin τ.nSC) (i : Fin τ.nSub) : (kRd (F := F) x).payload (cell0 d c i) 0 () = payA x d c i 0 := by
  show kPay x (cell0 d c i) = _; unfold kPay; exact if_pos rfl
theorem kRd_payload_1 (d : Dev nD) (c : Fin τ.nSC) (i : Fin τ.nSub) : (kRd (F := F) x).payload (cell1 d c i) 0 () = payB x d c i 0 := by
  show kPay x (cell1 d c i) = _; unfold kPay; exact (if_neg (by decide)).trans (if_pos rfl)
theorem kRd_payload_2 (d : Dev nD) (c : Fin τ.nSC) (i : Fin τ.nSub) : (kRd (F := F) x).payload (cell2 d c i) 0 () = payA x d c i 1 := by
  show kPay x (cell2 d c i) = _; unfold kPay; exact (if_neg (by decide)).trans ((if_neg (by decide)).trans (if_pos rfl))
theorem kRd_payload_3 (d : Dev nD) (c : Fin τ.nSC) (i : Fin τ.nSub) : (kRd (F := F) x).payload (cell3 d c i) 0 () = payB x d c i 1 := by
  show kPay x (cell3 d c i) = _; unfold kPay; exact (if_neg (by decide)).trans ((if_neg (by decide)).trans (if_neg (by decide)))

/-- A copy semaphore's ghost state at the launch: its round state, its owner's position before round 0, round 0
    reached, the token of its one duty. -/
def kit (g : GSem nD τ sig) : sProp 𝕄 :=
  iprop(roundState EK (kRd x) g 0 ∗ atPos EK g 0 ∅ 0 ∗ reached EK g 0 ∗ dutyTok EK g 0 ())

/-! ## What the handshakes carry -/

/-- A subcore's operands: its two chunks' elements of the queries, and of the transposed array at the launch's
    contents `o`; -/
def goRes (d : Dev nD) (L : grid1.Coords) : sProp 𝕄 :=
  iprop(((qLoc d ↦[srcSet L 0]{fullShare} x d) ∗ (qLoc d ↦[srcSet L 1]{fullShare} x d))
    ∗ ((oLoc d ↦[dstSet L 0]{fullShare} o d) ∗ (oLoc d ↦[dstSet L 1]{fullShare} o d)))
/-- its results: the same elements, those of the transposed array at the transposed queries. -/
def tdRes (d : Dev nD) (L : grid1.Coords) : sProp 𝕄 :=
  iprop(((qLoc d ↦[srcSet L 0]{fullShare} x d) ∗ (qLoc d ↦[srcSet L 1]{fullShare} x d))
    ∗ ((oLoc d ↦[dstSet L 0]{fullShare} qT (x d)) ∗ (oLoc d ↦[dstSet L 1]{fullShare} qT (x d))))

instance goRes_storable (d : Dev nD) (L : grid1.Coords) : BI.Storable (upEmb : UEmb _ 𝕄) (goRes x o d L) := by unfold goRes; infer_instance
instance tdRes_storable (d : Dev nD) (L : grid1.Coords) : BI.Storable (upEmb : UEmb _ 𝕄) (tdRes x d L) := by unfold tdRes; infer_instance

/-- The grid point of task `i` of SparseCore `c` of the call. -/
abbrev LP (c : Fin ((K (F := F)).nCore 0)) (i : Fin ((K (F := F)).nSub 0)) : grid1.Coords := coordsV ⟨c.val, c.isLt⟩ ⟨i.val, i.isLt⟩

/-- The call takes, per SparseCore, its sixteen subcores' operands, each subcore its own, and brings them back with
    the transposed array's elements at the transposed queries; a subcore is dealt its four semaphores' ghost state. -/
def P : (K (F := F)).Pay (nD := nD) (Val := Elt F) (Name := ℕ) (U := UU) where
  st := fun q d c => match q with | 0 => bigSep Finset.univ fun i : Fin ((K (F := F)).nSub 0) => goRes x o d (LP (F := F) c i)
  dn := fun q d c => match q with | 0 => bigSep Finset.univ fun i : Fin ((K (F := F)).nSub 0) => tdRes x d (LP (F := F) c i)
  go := fun q d c i => match q with | 0 => goRes x o d (LP (F := F) c i)
  td := fun q d c i => match q with | 0 => tdRes x d (LP (F := F) c i)
  x := fun q thr => match q, thr with
    | 0, (d, .scVector c i) => iprop(kit x (cell0 d c i) ∗ kit x (cell1 d c i) ∗ kit x (cell2 d c i) ∗ kit x (cell3 d c i))
    | _, _ => iprop(emp)

instance P_storable : (P (F := F) x o).IsStorable where
  st q d c := match q with
    | 0 => (inferInstance : BI.Storable (upEmb : UEmb _ 𝕄) (bigSep Finset.univ fun i : Fin ((K (F := F)).nSub 0) => goRes x o d (LP (F := F) c i)))
  dn q d c := match q with
    | 0 => (inferInstance : BI.Storable (upEmb : UEmb _ 𝕄) (bigSep Finset.univ fun i : Fin ((K (F := F)).nSub 0) => tdRes x d (LP (F := F) c i)))
  go q d c i := match q with
    | 0 => (inferInstance : BI.Storable (upEmb : UEmb _ 𝕄) (goRes x o d (LP (F := F) c i)))
  td q d c i := match q with
    | 0 => (inferInstance : BI.Storable (upEmb : UEmb _ 𝕄) (tdRes x d (LP (F := F) c i)))

end Cells

/-! ## The task of one subcore -/

section Tile

variable (x : (d : Dev nD) → Buf (Elt F) (qLoc d)) (o : (d : Dev nD) → Buf (Elt F) (oLoc d))
variable (d : Dev nD) (L : grid1.Coords)

abbrev cV (L : grid1.Coords) : Fin τ.nSC := (L 0).castLE hcore1
abbrev jV (L : grid1.Coords) : Fin τ.nSub := (L 1).castLE hsub1

theorem LV_cV : LV (cV L) (jV L) = L := by
  funext a
  match a with
  | 0 => rfl
  | 1 => rfl

/-- The scratch held whole is the scratch held through its whole-buffer view. -/
theorem pts_scratch (c : Fin τ.nSC) (i : Fin τ.nSub) (f : Buf (Elt F) (sLoc d c i)) :
    ((sV : Memref sig .scVector .vmem S512x128 .f32).view.loc (V d c i) ↦[(sV : Memref sig .scVector .vmem S512x128 .f32).view.set]{fullShare} f : sProp 𝕄)
      = sLoc d c i ↦{fullShare} f := by
  simp only [Memref.view_whole, View.set_whole]

theorem ownSems0_V (c : Fin τ.nSC) (i : Fin τ.nSub) :
    (ownSems0 (V d c i) : sProp 𝕄)
      = iprop(semVal (cell0 d c i) 0 ∗ semVal (cell1 d c i) 0 ∗ semVal (cell2 d c i) 0 ∗ semVal (cell3 d c i) 0
          ∗ bigSep (((((ownCells (V d c i)).erase (cell0 d c i)).erase (cell1 d c i)).erase (cell2 d c i)).erase (cell3 d c i))
              fun g => semVal g 0) := by
  have hne : ∀ {s s' : DmaSem sig}, s ≠ s' → ((V d c i, SemLoc.dma s) : GSem nD τ sig) ≠ (V d c i, SemLoc.dma s') :=
    fun h e => h (SemLoc.dma.inj (Prod.mk.inj e).2)
  have hm : ∀ s : DmaSem sig, (SemLoc.dma s : SemLoc sig).isScoped .scVector = true → ((V d c i, SemLoc.dma s) : GSem nD τ sig) ∈ ownCells (V d c i) :=
    fun s h => (mem_ownCells (g := (V d c i, SemLoc.dma s))).mpr ⟨rfl, h⟩
  unfold SparseCore.Cfg.ownSems0
  rw [SparseCore.bigSep_erase' (hm cc1_scoped0.sem (by decide)),
    SparseCore.bigSep_erase' (Finset.mem_erase.mpr ⟨hne (show (cc1_scoped1.sem : DmaSem sig) ≠ cc1_scoped0.sem by decide), hm cc1_scoped1.sem (by decide)⟩),
    SparseCore.bigSep_erase' (Finset.mem_erase.mpr ⟨hne (show (cc1_scoped2.sem : DmaSem sig) ≠ cc1_scoped1.sem by decide),
      Finset.mem_erase.mpr ⟨hne (show (cc1_scoped2.sem : DmaSem sig) ≠ cc1_scoped0.sem by decide), hm cc1_scoped2.sem (by decide)⟩⟩),
    SparseCore.bigSep_erase' (Finset.mem_erase.mpr ⟨hne (show (cc1_scoped3.sem : DmaSem sig) ≠ cc1_scoped2.sem by decide),
      Finset.mem_erase.mpr ⟨hne (show (cc1_scoped3.sem : DmaSem sig) ≠ cc1_scoped1.sem by decide),
        Finset.mem_erase.mpr ⟨hne (show (cc1_scoped3.sem : DmaSem sig) ≠ cc1_scoped0.sem by decide), hm cc1_scoped3.sem (by decide)⟩⟩⟩)]

/-- The scratch is among the subcore's own buffers. -/
theorem ownBufs_V (c : Fin τ.nSC) (i : Fin τ.nSub) :
    (ownBufs (V d c i) : sProp 𝕄)
      = iprop((∃ f, sLoc d c i ↦{fullShare} f)
          ∗ bigSep ((ownRefs (τ := τ) (.scVector c i)).erase ((Proc.scVector c i).devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector c i) (b := (Proc.scVector c i).devRef cc1_scratch0) rfl)

end Tile

section Body

variable [FloatOps F]
variable (x : (d : Dev nD) → Buf (Elt F) (qLoc d)) (o : (d : Dev nD) → Buf (Elt F) (oLoc d))
variable (d : Dev nD) (L : grid1.Coords)

omit [FloatOps F] in
/-- Writing the whole scratch replaces its contents. -/
theorem scratch_write (c : Fin τ.nSC) (i : Fin τ.nSub) (fs : Buf (Elt F) (sLoc d c i)) (w : Buf (Elt F) (sLoc d c i)) :
    (sV : Memref sig .scVector .vmem S512x128 .f32).view.write (Elt F) fs w Finset.univ = w := View.write_whole_univ _ _ _

omit [FloatOps F] in
theorem payA_eq (r : Fin 2) :
    payA x d (cV L) (jV L) r
      = iprop((sLoc d (cV L) (jV L) ↦{fullShare} (srcM L r).view.read (Elt F) (x d)) ∗ qLoc d ↦[srcSet L r]{fullShare} x d) := by
  unfold payA; rw [LV_cV]
omit [FloatOps F] in
theorem payB_eq (r : Fin 2) :
    payB x d (cV L) (jV L) r = iprop((oLoc d ↦[dstSet L r]{fullShare} qT (x d)) ∗ ∃ f, sLoc d (cV L) (jV L) ↦{fullShare} f) := by
  unfold payB; rw [LV_cV]

/-- The task on vector subcore `(L 0, L 1)` of device `d`: per chunk, the fetch into the scratch and its wait, the
    write-out from the scratch and its wait. A fetch lands the chunk as it stands in the queries; the write-out then
    leaves, on the chunk's elements of the transposed array, the transposed queries (`chunk_value`). -/
theorem tile_body (hF : (K (F := F)).Facts) (O : CellTallies nD τ sig (HIx 1)) (W : Waits sig (HIx 1)) (hO : ∀ g, O g none = 0) :
    iprop(levAts (K (F := F)).L (K (F := F)).lev
        ∗ (kit x (cell0 d (cV L) (jV L)) ∗ kit x (cell1 d (cV L) (jV L)) ∗ kit x (cell2 d (cV L) (jV L)) ∗ kit x (cell3 d (cV L) (jV L)))
        ∗ goRes x o d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__q_gather_sc L qV (Memref.isWhole_whole _) oV (Memref.isWhole_whole _) sV (Memref.isWhole_whole _)
            cc1_scoped0 cc1_scoped1 cc1_scoped2 cc1_scoped3)
          fun _ => iprop(tdRes x d L ∗ scopedBufs (V d (cV L) (jV L)) ∗ scopedSems0 (V d (cV L) (jV L))
            ∗ ∃ W', ⌜∀ p ∈ W', p ∈ W ∨ p.2 = none⌝ ∗ owes (V d (cV L) (jV L)) O W') := by
  unfold cc1__q_gather_sc k1_part1
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kit goRes tdRes
  iintro ⟨#Hlv, ⟨⟨Hst0, Hat0, #Hr0, Htok0⟩, ⟨Hst1, Hat1, #Hr1, Htok1⟩, ⟨Hst2, Hat2, #Hr2, Htok2⟩, ⟨Hst3, Hat3, #Hr3, Htok3⟩⟩,
    ⟨⟨Hq0, Hq1⟩, ⟨Ho0, Ho1⟩⟩, ⟨⟨%fs, Hs⟩, Hbufs⟩, ⟨Hsem0, Hsem1, Hsem2, Hsem3, Hsems⟩, HO⟩
  imod ((Rounds.body_intro EK (kRd x) (cell0 d (cV L) (jV L))).trans inv_alloc) $$ [Hsem0 Hst0] with ⟨%κ0, #Hinv0⟩
  · isplitl [Hsem0] <;> iassumption
  imod ((Rounds.body_intro EK (kRd x) (cell1 d (cV L) (jV L))).trans inv_alloc) $$ [Hsem1 Hst1] with ⟨%κ1, #Hinv1⟩
  · isplitl [Hsem1] <;> iassumption
  imod ((Rounds.body_intro EK (kRd x) (cell2 d (cV L) (jV L))).trans inv_alloc) $$ [Hsem2 Hst2] with ⟨%κ2, #Hinv2⟩
  · isplitl [Hsem2] <;> iassumption
  imod ((Rounds.body_intro EK (kRd x) (cell3 d (cV L) (jV L))).trans inv_alloc) $$ [Hsem3 Hst3] with ⟨%κ3, #Hinv3⟩
  · isplitl [Hsem3] <;> iassumption
  -- chunk 0 is fetched: its elements of the queries read, the scratch written
  ihave Hs' := (Entails.of_eq (pts_scratch (F := F) d (cV L) (jV L) _).symm) $$ Hs
  iapply (Rounds.wp_copy_pointsTo 𝒱₀ EK (kRd x) (V d (cV L) (jV L)) none (src := srcM L 0) (dst := sV) (q := fullShare) (fs := x d) (fd := fs) (κ := κ0)
      (kRd_mem₀ x (by rw [cellKind_0]; rfl)) none NA rfl (kRd_amount_0 x d _ _) ?hpay0) $$ [Hq0 Hs' Htok0]
  case hpay0 =>
    rw [kRd_payload_0, payA_eq, pts_scratch, scratch_write]
  · isplitr; · iexact Hinv0
    isplitl [Hq0]; · iexact Hq0
    isplitl [Hs']; · iexact Hs'
    isplitl [Htok0]; · iexact Htok0
    iexact Hr0
  iintro Hcred
  iapply (Rounds.wp_wait_rest_token 𝒱₀ EK (kRd x) (V d (cV L) (jV L)) none (κ := κ0)
      (wpE_waitDma2_eq 𝒱₀ (V d (cV L) (jV L)) none Set.univ) (Set.mem_univ κ0) none (O := O) (W := W) (R := 0) (m := 0) (T := ∅)
      (by rw [Nat.zero_add, kRd_expect x (by rw [cellKind_0]; rfl), kRd_amount_0])) $$ [Hcred HO Hat0]
  · isplitr; · iexact Hinv0
    isplitl [Hcred]; · iexact Hcred
    isplitl [HO]; · iexact HO
    isplitr; · iapply ((K (F := F)).mayWait_none (SemLoc.dma cc1_scoped0.sem) hO); iexact Hlv
    iexact Hat0
  iintro ⟨HO, Hat0, -, Hpay⟩
  ihave Hp := ((kRd_back x (g := cell0 d (cV L) (jV L)) (by rw [cellKind_0]; rfl)).trans
    (Entails.of_eq ((kRd_payload_0 x d _ _).trans (payA_eq x d L 0)))) $$ Hpay
  icases Hp with ⟨Hs, Hq0⟩
  imod (Rounds.cell_close EK (kRd x) (Set.mem_univ κ0) (fun h => h) (R := 0 + 1) (kRd_later x (cell0 d _ _))) $$ [Hat0] with Hsem0
  · isplitr; · iexact Hinv0
    iexact Hat0
  -- chunk 0 is written out: the scratch read, the chunk's elements of the transposed array written
  ihave Hs' := (Entails.of_eq (pts_scratch (F := F) d (cV L) (jV L) _).symm) $$ Hs
  iapply (Rounds.wp_copy_pointsTo 𝒱₀ EK (kRd x) (V d (cV L) (jV L)) none (src := sV) (dst := dstM L 0) (q := fullShare)
      (fs := (srcM L 0).view.read (Elt F) (x d)) (fd := o d) (κ := κ1)
      (kRd_mem₀ x (by rw [cellKind_1]; rfl)) none NB rfl (kRd_amount_1 x d _ _) ?hpay1) $$ [Hs' Ho0 Htok1]
  case hpay1 =>
    rw [kRd_payload_1, payB_eq, pts_scratch, pointsTo_congr (ℓ := oLoc d) (q := fullShare) (chunk_value L 0 (x d) (o d))]
    iintro ⟨Ho, Hs⟩
    isplitl [Ho]; · iexact Ho
    iexists _; iexact Hs
  · isplitr; · iexact Hinv1
    isplitl [Hs']; · iexact Hs'
    isplitl [Ho0]; · iexact Ho0
    isplitl [Htok1]; · iexact Htok1
    iexact Hr1
  iintro Hcred
  iapply (Rounds.wp_wait_rest_token 𝒱₀ EK (kRd x) (V d (cV L) (jV L)) none (κ := κ1)
      (wpE_waitDma2_eq 𝒱₀ (V d (cV L) (jV L)) none Set.univ) (Set.mem_univ κ1) none (O := O) (W := (insert (SemLoc.dma cc1_scoped0.sem, none) W)) (R := 0) (m := 0) (T := ∅)
      (by rw [Nat.zero_add, kRd_expect x (by rw [cellKind_1]; rfl), kRd_amount_1]; try rfl)) $$ [Hcred HO Hat1]
  · isplitr; · iexact Hinv1
    isplitl [Hcred]; · iexact Hcred
    isplitl [HO]; · iexact HO
    isplitr; · iapply ((K (F := F)).mayWait_none (SemLoc.dma cc1_scoped1.sem) hO); iexact Hlv
    iexact Hat1
  iintro ⟨HO, Hat1, -, Hpay⟩
  ihave Hp := ((kRd_back x (g := cell1 d (cV L) (jV L)) (by rw [cellKind_1]; rfl)).trans
    (Entails.of_eq ((kRd_payload_1 x d _ _).trans (payB_eq x d L 0)))) $$ Hpay
  icases Hp with ⟨Ho0, ⟨%fs1, Hs⟩⟩
  imod (Rounds.cell_close EK (kRd x) (Set.mem_univ κ1) (fun h => h) (R := 0 + 1) (kRd_later x (cell1 d _ _))) $$ [Hat1] with Hsem1
  · isplitr; · iexact Hinv1
    iexact Hat1
  -- chunk 1 is fetched: its elements of the queries read, the scratch written
  ihave Hs' := (Entails.of_eq (pts_scratch (F := F) d (cV L) (jV L) _).symm) $$ Hs
  iapply (Rounds.wp_copy_pointsTo 𝒱₀ EK (kRd x) (V d (cV L) (jV L)) none (src := srcM L 1) (dst := sV) (q := fullShare) (fs := x d) (fd := fs1) (κ := κ2)
      (kRd_mem₀ x (by rw [cellKind_2]; rfl)) none NA rfl (kRd_amount_2 x d _ _) ?hpay2) $$ [Hq1 Hs' Htok2]
  case hpay2 =>
    rw [kRd_payload_2, payA_eq, pts_scratch, scratch_write]
  · isplitr; · iexact Hinv2
    isplitl [Hq1]; · iexact Hq1
    isplitl [Hs']; · iexact Hs'
    isplitl [Htok2]; · iexact Htok2
    iexact Hr2
  iintro Hcred
  iapply (Rounds.wp_wait_rest_token 𝒱₀ EK (kRd x) (V d (cV L) (jV L)) none (κ := κ2)
      (wpE_waitDma2_eq 𝒱₀ (V d (cV L) (jV L)) none Set.univ) (Set.mem_univ κ2) none (O := O) (W := (insert (SemLoc.dma cc1_scoped1.sem, none) (insert (SemLoc.dma cc1_scoped0.sem, none) W))) (R := 0) (m := 0) (T := ∅)
      (by rw [Nat.zero_add, kRd_expect x (by rw [cellKind_2]; rfl), kRd_amount_2])) $$ [Hcred HO Hat2]
  · isplitr; · iexact Hinv2
    isplitl [Hcred]; · iexact Hcred
    isplitl [HO]; · iexact HO
    isplitr; · iapply ((K (F := F)).mayWait_none (SemLoc.dma cc1_scoped2.sem) hO); iexact Hlv
    iexact Hat2
  iintro ⟨HO, Hat2, -, Hpay⟩
  ihave Hp := ((kRd_back x (g := cell2 d (cV L) (jV L)) (by rw [cellKind_2]; rfl)).trans
    (Entails.of_eq ((kRd_payload_2 x d _ _).trans (payA_eq x d L 1)))) $$ Hpay
  icases Hp with ⟨Hs, Hq1⟩
  imod (Rounds.cell_close EK (kRd x) (Set.mem_univ κ2) (fun h => h) (R := 0 + 1) (kRd_later x (cell2 d _ _))) $$ [Hat2] with Hsem2
  · isplitr; · iexact Hinv2
    iexact Hat2
  -- chunk 1 is written out: the scratch read, the chunk's elements of the transposed array written
  ihave Hs' := (Entails.of_eq (pts_scratch (F := F) d (cV L) (jV L) _).symm) $$ Hs
  iapply (Rounds.wp_copy_pointsTo 𝒱₀ EK (kRd x) (V d (cV L) (jV L)) none (src := sV) (dst := dstM L 1) (q := fullShare)
      (fs := (srcM L 1).view.read (Elt F) (x d)) (fd := o d) (κ := κ3)
      (kRd_mem₀ x (by rw [cellKind_3]; rfl)) none NB rfl (kRd_amount_3 x d _ _) ?hpay3) $$ [Hs' Ho1 Htok3]
  case hpay3 =>
    rw [kRd_payload_3, payB_eq, pts_scratch, pointsTo_congr (ℓ := oLoc d) (q := fullShare) (chunk_value L 1 (x d) (o d))]
    iintro ⟨Ho, Hs⟩
    isplitl [Ho]; · iexact Ho
    iexists _; iexact Hs
  · isplitr; · iexact Hinv3
    isplitl [Hs']; · iexact Hs'
    isplitl [Ho1]; · iexact Ho1
    isplitl [Htok3]; · iexact Htok3
    iexact Hr3
  iintro Hcred
  iapply (Rounds.wp_wait_rest_token 𝒱₀ EK (kRd x) (V d (cV L) (jV L)) none (κ := κ3)
      (wpE_waitDma2_eq 𝒱₀ (V d (cV L) (jV L)) none Set.univ) (Set.mem_univ κ3) none (O := O) (W := (insert (SemLoc.dma cc1_scoped2.sem, none) (insert (SemLoc.dma cc1_scoped1.sem, none) (insert (SemLoc.dma cc1_scoped0.sem, none) W)))) (R := 0) (m := 0) (T := ∅)
      (by rw [Nat.zero_add, kRd_expect x (by rw [cellKind_3]; rfl), kRd_amount_3]; try rfl)) $$ [Hcred HO Hat3]
  · isplitr; · iexact Hinv3
    isplitl [Hcred]; · iexact Hcred
    isplitl [HO]; · iexact HO
    isplitr; · iapply ((K (F := F)).mayWait_none (SemLoc.dma cc1_scoped3.sem) hO); iexact Hlv
    iexact Hat3
  iintro ⟨HO, Hat3, -, Hpay⟩
  ihave Hp := ((kRd_back x (g := cell3 d (cV L) (jV L)) (by rw [cellKind_3]; rfl)).trans
    (Entails.of_eq ((kRd_payload_3 x d _ _).trans (payB_eq x d L 1)))) $$ Hpay
  icases Hp with ⟨Ho1, ⟨%fs3, Hs⟩⟩
  imod (Rounds.cell_close EK (kRd x) (Set.mem_univ κ3) (fun h => h) (R := 0 + 1) (kRd_later x (cell3 d _ _))) $$ [Hat3] with Hsem3
  · isplitr; · iexact Hinv3
    iexact Hat3
  rw [wp_ret]; imodintro
  isplitl [Hq0 Hq1 Ho0 Ho1]
  · isplitl [Hq0 Hq1]
    · isplitl [Hq0]; · iexact Hq0
      iexact Hq1
    · isplitl [Ho0]; · iexact Ho0
      iexact Ho1
  isplitl [Hs Hbufs]
  · isplitl [Hs]
    · iexists _; iexact Hs
    · iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists (insert (SemLoc.dma cc1_scoped3.sem, none) (insert (SemLoc.dma cc1_scoped2.sem, none)
    (insert (SemLoc.dma cc1_scoped1.sem, none) (insert (SemLoc.dma cc1_scoped0.sem, none) W)))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Body

/-! ## The launch theorem's obligations -/

section Launch

variable [FloatOps F]
variable (x : (d : Dev nD) → Buf (Elt F) (qLoc d)) (o : (d : Dev nD) → Buf (Elt F) (oLoc d))

theorem defs₀_vector (c : Fin τ.nSC) (s : Fin τ.nSub) :
    defs₀ (F := F) (.scVector c s) 1 ⟨⟩
      = SparseCore.onTile hcore1 hsub1 (fun c s => cc1__q_gather_sc (coordsV c s)
          qV (Memref.isWhole_whole _) oV (Memref.isWhole_whole _) sV (Memref.isWhole_whole _)
          cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The body obligation of the call: every task, from its operands and its semaphores' ghost state to its results. -/
theorem tileObl : (K (F := F)).TileObl (D (F := F)) 𝒱 (P x o) v₀ 0 := by
  intro d c i O W hO _ _
  simp only [show (P x o).ox = fun _ _ => 0 from rfl, add_zero]
  change _ ⊢ wp _ _ _ (Pipeline.liftProg (defs₀ (F := F) (.scVector ((K (F := F)).core 0 c) ((K (F := F)).sub 0 i)) 1 ⟨⟩)) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x o d (coordsV ⟨_, hc.1⟩ ⟨_, hc.2⟩) facts O W hO).trans (wp_mono frame _ _ fun _ => obl_post)

/-- A SparseCore's operands are its sixteen tasks' operands, its results their results. -/
theorem vecSplit : (K (F := F)).VecSplit' (P x o) 0 := by
  intro d c
  show (bigSep Finset.univ fun i : Fin ((K (F := F)).nSub 0) => goRes x o d (LP (F := F) c i))
    ⊢ |={Set.univ}=> iprop((bigSep Finset.univ fun i : Fin ((K (F := F)).nSub 0) => goRes x o d (LP (F := F) c i))
      ∗ ((bigSep Finset.univ fun i : Fin ((K (F := F)).nSub 0) => tdRes x d (LP (F := F) c i))
          -∗ bigSep Finset.univ fun i : Fin ((K (F := F)).nSub 0) => tdRes x d (LP (F := F) c i)))
  iintro H; imodintro
  isplitl [H]; · iexact H
  iintro H; iexact H

end Launch

/-! ## The launch element of the copy semaphores' ghost state -/

section Kits

variable (x : (d : Dev nD) → Buf (Elt F) (qLoc d)) (o : (d : Dev nD) → Buf (Elt F) (oLoc d))

/-- Every subcore's cell on semaphore `sm`. -/
abbrev cellsOn (sm : SemLoc sig) : Finset (GSem nD τ sig) :=
  Finset.univ.image fun dci : Dev nD × Fin τ.nSC × Fin τ.nSub => ((V dci.1 dci.2.1 dci.2.2, sm) : GSem nD τ sig)

/-- The copy semaphores of all subcores, and the token of each one's duty. -/
def kCells : Finset (GSem nD τ sig) :=
  ((cellsOn (.dma cc1_scoped0.sem) ∪ cellsOn (.dma cc1_scoped1.sem)) ∪ cellsOn (.dma cc1_scoped2.sem)) ∪ cellsOn (.dma cc1_scoped3.sem)
def kToks : Finset (GSem nD τ sig × ℕ × Unit) := kCells.map ⟨fun g => (g, 0, ()), fun _ _ e => (Prod.mk.inj e).1⟩

theorem toks_eq : (bigSep kToks fun t => (dutyTok EK t.1 t.2.1 t.2.2 : sProp 𝕄)) = bigSep kCells fun g => dutyTok EK g 0 () := by
  unfold kToks; rw [bigSep_map]; rfl

theorem kits_intro : (BI.own (EK (initOf kCells kToks)) : sProp 𝕄) ⊢ iprop(|==> bigSep kCells (kit x)) := by
  iintro H
  imod (Rounds.fund EK (kRd x) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

theorem bigSep_emp' {I : Type} (s : Finset I) : (bigSep s fun _ => iprop(emp)) = (iprop(emp) : sProp 𝕄) := bigSep_emp_const s

theorem Px_T (d : Dev nD) : (bigSep Finset.univ fun q : Fin 1 => (P (F := F) x o).x q (SparseCore.T d)) = iprop(emp) :=
  bigSep_univ_of_subsingleton (0 : Fin 1)
theorem Px_S (d : Dev nD) (c : Fin τ.nSC) : (bigSep Finset.univ fun q : Fin 1 => (P (F := F) x o).x q (S d c)) = iprop(emp) :=
  bigSep_univ_of_subsingleton (0 : Fin 1)
theorem Px_V (d : Dev nD) (c : Fin τ.nSC) (i : Fin τ.nSub) :
    (bigSep Finset.univ fun q : Fin 1 => (P (F := F) x o).x q (V d c i))
      = iprop(kit x (cell0 d c i) ∗ kit x (cell1 d c i) ∗ kit x (cell2 d c i) ∗ kit x (cell3 d c i)) :=
  bigSep_univ_of_subsingleton (0 : Fin 1)

theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

theorem snd_of_mem_cellsOn {sm : SemLoc sig} {g : GSem nD τ sig} (h : g ∈ cellsOn sm) : g.2 = sm := by
  obtain ⟨a, -, rfl⟩ := Finset.mem_image.mp h; rfl

theorem kits_deal : (bigSep kCells (kit (F := F) x) : sProp 𝕄) ⊢ bigSep Finset.univ fun thr : Thread nD τ => bigSep Finset.univ fun q : Fin 1 => (P x o).x q thr := by
  rw [SparseCore.Cfg.bigSep_threads (fun thr : Thread nD τ => bigSep Finset.univ fun q : Fin 1 => (P x o).x q thr)]
  simp only [Px_T, Px_S, Px_V, bigSep_emp']
  unfold kCells
  rw [SparseCore.bigSep_union' ?d1, SparseCore.bigSep_union' ?d2, SparseCore.bigSep_union' ?d3,
    SparseCore.bigSep_image_of_injOn (inj3 _) (kit x), SparseCore.bigSep_image_of_injOn (inj3 _) (kit x),
    SparseCore.bigSep_image_of_injOn (inj3 _) (kit x), SparseCore.bigSep_image_of_injOn (inj3 _) (kit x)]
  case d1 =>
    refine Finset.disjoint_left.mpr fun g h1 h2 => ?_
    have e2 := snd_of_mem_cellsOn h2
    rcases Finset.mem_union.mp h1 with h1 | h1
    · rcases Finset.mem_union.mp h1 with h1 | h1
      · exact absurd ((snd_of_mem_cellsOn h1).symm.trans e2) (by decide)
      · exact absurd ((snd_of_mem_cellsOn h1).symm.trans e2) (by decide)
    · exact absurd ((snd_of_mem_cellsOn h1).symm.trans e2) (by decide)
  case d2 =>
    refine Finset.disjoint_left.mpr fun g h1 h2 => ?_
    have e2 := snd_of_mem_cellsOn h2
    rcases Finset.mem_union.mp h1 with h1 | h1
    · exact absurd ((snd_of_mem_cellsOn h1).symm.trans e2) (by decide)
    · exact absurd ((snd_of_mem_cellsOn h1).symm.trans e2) (by decide)
  case d3 =>
    refine Finset.disjoint_left.mpr fun g h1 h2 => ?_
    exact absurd ((snd_of_mem_cellsOn h1).symm.trans (snd_of_mem_cellsOn h2)) (by decide)
  rw [bigSep_sep' (Finset.univ : Finset (Dev nD × Fin τ.nSC × Fin τ.nSub)), bigSep_sep' (Finset.univ : Finset (Dev nD × Fin τ.nSC × Fin τ.nSub)),
    bigSep_sep' (Finset.univ : Finset (Dev nD × Fin τ.nSC × Fin τ.nSub))]
  iintro ⟨⟨⟨H0, H1⟩, H2⟩, H3⟩
  isplitr; · iempintro
  isplitr; · iempintro
  isplitl [H0]; · iexact H0
  isplitl [H1]; · iexact H1
  isplitl [H2]; · iexact H2
  iexact H3

/-- From the launch element of the copy semaphores' ghost state, every thread's share: each subcore its four
    semaphores' state, every other thread nothing. -/
theorem kits_deal_all : (BI.own (EK (initOf kCells kToks)) : sProp 𝕄)
    ⊢ iprop(|==> bigSep Finset.univ fun thr : Thread nD τ => bigSep Finset.univ fun q : Fin 1 => (P x o).x q thr) :=
  (kits_intro x).trans (BI.bupd_mono (kits_deal x o))

end Kits

/-! ## The chunks tile the two arrays -/

section Cover

/-- Chunk `t.2.2` of subcore `t.2.1` of SparseCore `t.1`, in the queries and in the transposed array. -/
abbrev srcK (t : Fin 2 × Fin 16 × Fin 2) : Finset S2048x16x128.Idx := srcSet (coordsV t.1 t.2.1) t.2.2
abbrev dstK (t : Fin 2 × Fin 16 × Fin 2) : Finset S16x2048x128.Idx := dstSet (coordsV t.1 t.2.1) t.2.2

theorem mem_srcK {t : Fin 2 × Fin 16 × Fin 2} {j : S2048x16x128.Idx} :
    j ∈ srcK t ↔ (1024 * t.1.val + 512 * t.2.2.val ≤ (j 0).val ∧ (j 0).val < 1024 * t.1.val + 512 * t.2.2.val + 512) ∧ (j 1).val = t.2.1.val := mem_srcSet
theorem mem_dstK {t : Fin 2 × Fin 16 × Fin 2} {j : S16x2048x128.Idx} :
    j ∈ dstK t ↔ (j 0).val = t.2.1.val ∧ (1024 * t.1.val + 512 * t.2.2.val ≤ (j 1).val ∧ (j 1).val < 1024 * t.1.val + 512 * t.2.2.val + 512) := mem_dstSet

theorem src_disjoint : ∀ t ∈ (Finset.univ : Finset (Fin 2 × Fin 16 × Fin 2)), ∀ t' ∈ (Finset.univ : Finset (Fin 2 × Fin 16 × Fin 2)),
    t ≠ t' → Disjoint (srcK t) (srcK t') := by
  intro t _ t' _ hne
  refine Finset.disjoint_left.mpr fun j h h' => hne ?_
  rw [mem_srcK] at h h'
  obtain ⟨c, i, r⟩ := t; obtain ⟨c', i', r'⟩ := t'
  have hc := c.isLt; have hc' := c'.isLt; have hr := r.isLt; have hr' := r'.isLt
  simp only at h h'
  have ec : c.val = c'.val := by omega
  have ei : i.val = i'.val := by omega
  have er : r.val = r'.val := by omega
  exact Prod.ext (Fin.ext ec) (Prod.ext (Fin.ext ei) (Fin.ext er))
theorem dst_disjoint : ∀ t ∈ (Finset.univ : Finset (Fin 2 × Fin 16 × Fin 2)), ∀ t' ∈ (Finset.univ : Finset (Fin 2 × Fin 16 × Fin 2)),
    t ≠ t' → Disjoint (dstK t) (dstK t') := by
  intro t _ t' _ hne
  refine Finset.disjoint_left.mpr fun j h h' => hne ?_
  rw [mem_dstK] at h h'
  obtain ⟨c, i, r⟩ := t; obtain ⟨c', i', r'⟩ := t'
  have hc := c.isLt; have hc' := c'.isLt; have hr := r.isLt; have hr' := r'.isLt
  simp only at h h'
  have ec : c.val = c'.val := by omega
  have ei : i.val = i'.val := by omega
  have er : r.val = r'.val := by omega
  exact Prod.ext (Fin.ext ec) (Prod.ext (Fin.ext ei) (Fin.ext er))

theorem src_cover : (Finset.univ : Finset (Fin 2 × Fin 16 × Fin 2)).biUnion srcK = Finset.univ := by
  ext j
  simp only [Finset.mem_biUnion, Finset.mem_univ, true_and, iff_true]
  have h0 : (j 0).val < 2048 := (j 0).isLt
  have h1 : (j 1).val < 16 := (j 1).isLt
  have hq : 1024 * ((j 0).val / 1024) + 512 * (((j 0).val % 1024) / 512) ≤ (j 0).val
      ∧ (j 0).val < 1024 * ((j 0).val / 1024) + 512 * (((j 0).val % 1024) / 512) + 512 := by omega
  exact ⟨(⟨(j 0).val / 1024, by omega⟩, ⟨(j 1).val, h1⟩, ⟨((j 0).val % 1024) / 512, by omega⟩), mem_srcK.mpr ⟨hq, rfl⟩⟩
theorem dst_cover : (Finset.univ : Finset (Fin 2 × Fin 16 × Fin 2)).biUnion dstK = Finset.univ := by
  ext j
  simp only [Finset.mem_biUnion, Finset.mem_univ, true_and, iff_true]
  have h0 : (j 0).val < 16 := (j 0).isLt
  have h1 : (j 1).val < 2048 := (j 1).isLt
  have hq : 1024 * ((j 1).val / 1024) + 512 * (((j 1).val % 1024) / 512) ≤ (j 1).val
      ∧ (j 1).val < 1024 * ((j 1).val / 1024) + 512 * (((j 1).val % 1024) / 512) + 512 := by omega
  exact ⟨(⟨(j 1).val / 1024, by omega⟩, ⟨(j 0).val, h0⟩, ⟨((j 1).val % 1024) / 512, by omega⟩), mem_dstK.mpr ⟨rfl, hq⟩⟩

theorem q_chunks (d : Dev nD) (f : Buf (Elt F) (qLoc d)) :
    (qLoc d ↦{fullShare} f : sProp 𝕄) = bigSep Finset.univ fun t : Fin 2 × Fin 16 × Fin 2 => qLoc d ↦[srcK t]{fullShare} f := by
  rw [← pointsTo_biUnion Finset.univ (ℓ := qLoc d) srcK src_disjoint, src_cover]; try rfl
theorem o_chunks (d : Dev nD) (f : Buf (Elt F) (oLoc d)) :
    (oLoc d ↦{fullShare} f : sProp 𝕄) = bigSep Finset.univ fun t : Fin 2 × Fin 16 × Fin 2 => oLoc d ↦[dstK t]{fullShare} f := by
  rw [← pointsTo_biUnion Finset.univ (ℓ := oLoc d) dstK dst_disjoint, dst_cover]; try rfl

/-- The queries held whole are the thirty-two subcores' two chunks each; -/
theorem q_split (d : Dev nD) (f : Buf (Elt F) (qLoc d)) :
    (qLoc d ↦{fullShare} f : sProp 𝕄)
      = bigSep Finset.univ fun c : Fin 2 => bigSep Finset.univ fun i : Fin 16 =>
          iprop((qLoc d ↦[srcSet (coordsV c i) 0]{fullShare} f) ∗ qLoc d ↦[srcSet (coordsV c i) 1]{fullShare} f) := by
  rw [q_chunks, bigSep_univ_prod]
  refine bigSep_congr fun c _ => ?_
  rw [bigSep_univ_prod]
  refine bigSep_congr fun i _ => ?_
  exact bigSep_univ_two _
/-- and so is the transposed array. -/
theorem o_split (d : Dev nD) (f : Buf (Elt F) (oLoc d)) :
    (oLoc d ↦{fullShare} f : sProp 𝕄)
      = bigSep Finset.univ fun c : Fin 2 => bigSep Finset.univ fun i : Fin 16 =>
          iprop((oLoc d ↦[dstSet (coordsV c i) 0]{fullShare} f) ∗ oLoc d ↦[dstSet (coordsV c i) 1]{fullShare} f) := by
  rw [o_chunks, bigSep_univ_prod]
  refine bigSep_congr fun c _ => ?_
  rw [bigSep_univ_prod]
  refine bigSep_congr fun i _ => ?_
  exact bigSep_univ_two _

variable (x : (d : Dev nD) → Buf (Elt F) (qLoc d)) (o : (d : Dev nD) → Buf (Elt F) (oLoc d))

/-- What the call takes from @main: the queries and the transposed array, whole; -/
theorem st_eq (d : Dev nD) :
    (bigSep Finset.univ fun c : Fin ((K (F := F)).nCore 0) => (P x o).st 0 d c)
      = iprop((qLoc d ↦{fullShare} x d) ∗ oLoc d ↦{fullShare} o d) := by
  rw [q_split, o_split]
  show (bigSep Finset.univ fun c : Fin 2 => bigSep Finset.univ fun i : Fin 16 => goRes x o d (coordsV c i)) = _
  unfold goRes
  simp only [bigSep_sep']
/-- and what it brings back: the queries, and the transposed array at the transposed queries. -/
theorem dn_eq (d : Dev nD) :
    (bigSep Finset.univ fun c : Fin ((K (F := F)).nCore 0) => (P x o).dn 0 d c)
      = iprop((qLoc d ↦{fullShare} x d) ∗ oLoc d ↦{fullShare} qT (x d)) := by
  rw [q_split, o_split]
  show (bigSep Finset.univ fun c : Fin 2 => bigSep Finset.univ fun i : Fin 16 => tdRes x d (coordsV c i)) = _
  unfold tdRes
  simp only [bigSep_sep']

end Cover

end Cert.Proof.KB

end
-- ==== Proof.TreeBodyB.lean ====
/-
  The first pipeline's body at one grid point: per head, eleven levels of pooled keys and pooled values.

  The body reads the head's column of the two staged inputs (all 2048 rows of one of the eight heads the staging
  buffers hold), and pools it level by level: level k stores a block of 2048 / 2^k rows of pooled keys and of pooled
  values (rounded to bf16) right after the block of level k - 1, so levels 1 to 10 fill rows 0 to 2045 in whole
  blocks; level 11 is the single row 2046, and row 2047 is set to zero. Rows 2046 and 2047 share their 32-bit words
  with each other only, and each is stored by reading the two-row block and writing it back with one row replaced.
  After both rows are replaced nothing of what the block held before is left, so what the two output buffers hold
  after the body is a function of the grid point and the two inputs alone.
-/
import proofs.«208975_g36283883717458_cont_8to1_b_1954_30_alg».proof.Proof.CommonB
import proofs.«208975_g36283883717458_cont_8to1_b_1954_30_alg».proof.Proof.Gen.Kernel.Skeleton
import proofs.«208975_g36283883717458_cont_8to1_b_1954_30_alg».proof.Proof.Gen.Kernel.Points
import Idealize.ShloMosaic.Lib.Pipeline.FrameBody
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The rectangles the body reads and writes -/

/-- The head's column of a staged input: all 2048 rows of head `i 1` (of the eight the buffer holds), 128 lanes. -/
abbrev tIn (i : grid0.Coords) : Rect S2048x8x128 := Rect.unit (s := S2048x8x128) (k0_off1 i) S2048x1x128.size (k0_off1_inb i)

/-- Level k's block of rows of an output buffer (k = 1 … 10: 1024, 512, …, 2 rows, each right after the one before),
    and the last two rows, 2046 and 2047. -/
abbrev tR0 : Rect S1x2048x128 := Rect.unit (s := S1x2048x128) ![0, 0, 0] S1x1024x128.size inb_S1x2048x128_S1x1024x128_0_0_0
abbrev tR1024 : Rect S1x2048x128 := Rect.unit (s := S1x2048x128) ![0, 1024, 0] S1x512x128.size inb_S1x2048x128_S1x512x128_0_1024_0
abbrev tR1536 : Rect S1x2048x128 := Rect.unit (s := S1x2048x128) ![0, 1536, 0] S1x256x128.size inb_S1x2048x128_S1x256x128_0_1536_0
abbrev tR1792 : Rect S1x2048x128 := Rect.unit (s := S1x2048x128) ![0, 1792, 0] S1x128x128.size inb_S1x2048x128_S1x128x128_0_1792_0
abbrev tR1920 : Rect S1x2048x128 := Rect.unit (s := S1x2048x128) ![0, 1920, 0] S1x64x128.size inb_S1x2048x128_S1x64x128_0_1920_0
abbrev tR1984 : Rect S1x2048x128 := Rect.unit (s := S1x2048x128) ![0, 1984, 0] S1x32x128.size inb_S1x2048x128_S1x32x128_0_1984_0
abbrev tR2016 : Rect S1x2048x128 := Rect.unit (s := S1x2048x128) ![0, 2016, 0] S1x16x128.size inb_S1x2048x128_S1x16x128_0_2016_0
abbrev tR2032 : Rect S1x2048x128 := Rect.unit (s := S1x2048x128) ![0, 2032, 0] S1x8x128.size inb_S1x2048x128_S1x8x128_0_2032_0
abbrev tR2040 : Rect S1x2048x128 := Rect.unit (s := S1x2048x128) ![0, 2040, 0] S1x4x128.size inb_S1x2048x128_S1x4x128_0_2040_0
abbrev tR2044 : Rect S1x2048x128 := Rect.unit (s := S1x2048x128) ![0, 2044, 0] S1x2x128.size inb_S1x2048x128_S1x2x128_0_2044_0
abbrev tR2046 : Rect S1x2048x128 := Rect.unit (s := S1x2048x128) ![0, 2046, 0] S1x2x128.size inb_S1x2048x128_S1x2x128_0_2046_0

/-! ## Two rows replaced one after the other -/

/-- Every index of a two-row block lies in its first row or in its second. -/
theorem rows_cover (j : S1x2x128.Idx) (h0 : S1x2x128.Slices ![0, 0, 0] S1x1x128) (h1 : S1x2x128.Slices ![0, 1, 0] S1x1x128) :
    (∀ a : Fin S1x2x128.rank, (![0, 0, 0] : Fin 3 → Nat) a ≤ (j a).val ∧ (j a).val < (![0, 0, 0] : Fin 3 → Nat) a + S1x1x128.size (a.cast h0.1.symm))
    ∨ (∀ a : Fin S1x2x128.rank, (![0, 1, 0] : Fin 3 → Nat) a ≤ (j a).val ∧ (j a).val < (![0, 1, 0] : Fin 3 → Nat) a + S1x1x128.size (a.cast h1.1.symm)) := by
  have e0 : (j 0).val < 1 := (j 0).isLt
  have e1 : (j 1).val < 2 := (j 1).isLt
  have e2 : (j 2).val < 128 := (j 2).isLt
  by_cases hr : (j 1).val = 0
  · left
    refine Fin.forall_fin_succ.mpr ⟨?_, Fin.forall_fin_succ.mpr ⟨?_, Fin.forall_fin_succ.mpr ⟨?_, fun a => a.elim0⟩⟩⟩
    · show 0 ≤ (j 0).val ∧ (j 0).val < 0 + 1
      omega
    · show 0 ≤ (j 1).val ∧ (j 1).val < 0 + 1
      omega
    · show 0 ≤ (j 2).val ∧ (j 2).val < 0 + 128
      omega
  · right
    refine Fin.forall_fin_succ.mpr ⟨?_, Fin.forall_fin_succ.mpr ⟨?_, Fin.forall_fin_succ.mpr ⟨?_, fun a => a.elim0⟩⟩⟩
    · show 0 ≤ (j 0).val ∧ (j 0).val < 0 + 1
      omega
    · show 1 ≤ (j 1).val ∧ (j 1).val < 1 + 1
      omega
    · show 0 ≤ (j 2).val ∧ (j 2).val < 0 + 128
      omega

/-- A two-row block whose first row and then whose second row is replaced does not depend on what it held. -/
theorem two_rows {α : Type} (o o' : S1x2x128.Idx → α) (a b : S1x1x128.Idx → α)
    (h0 : S1x2x128.Slices ![0, 0, 0] S1x1x128) (h1 : S1x2x128.Slices ![0, 1, 0] S1x1x128) :
    updateSlice (updateSlice o a ![0, 0, 0] h0) b ![0, 1, 0] h1 = updateSlice (updateSlice o' a ![0, 0, 0] h0) b ![0, 1, 0] h1 := by
  funext j
  simp only [updateSlice]
  by_cases c1 : ∀ a : Fin S1x2x128.rank, (![0, 1, 0] : Fin 3 → Nat) a ≤ (j a).val ∧ (j a).val < (![0, 1, 0] : Fin 3 → Nat) a + S1x1x128.size (a.cast h1.1.symm)
  · simp only [dif_pos c1]
  · have c0 := (rows_cover j h0 h1).resolve_right c1
    simp only [dif_neg c1, dif_pos c0]

/-- The two-row block with first row `a` and second row `b`. -/
def tRows2 (a b : FVec F S1x1x128 .bf16) : Vec F S1x2x128 .bf16 :=
  updateSlice (updateSlice (fun _ => Classical.choice (Elt.nonempty F .bf16)) a ![0, 0, 0] slices_S1x2x128_S1x1x128_0_0_0) b ![0, 1, 0] slices_S1x2x128_S1x1x128_0_1_0

theorem tRows2_eq (o : Vec F S1x2x128 .bf16) (a b : FVec F S1x1x128 .bf16) :
    updateSlice (updateSlice o a ![0, 0, 0] slices_S1x2x128_S1x1x128_0_0_0) b ![0, 1, 0] slices_S1x2x128_S1x1x128_0_1_0 = tRows2 a b :=
  two_rows _ _ a b _ _

/-! ## What each level passes on to the next

The values the body's levels hand from one to the next, from the two columns read: level k's pooled keys and
pooled values before rounding, and the row statistics the next pooling weighs them by. Each is the body's own
expression for it, applied to the earlier ones. -/

/-- The constant 1e-9 (as f32) the pooling weights' denominators are kept above. -/
def tc22 : F .f32 := Scalar.ofBits .f32 0x3089705F#32

def t1 (i : grid0.Coords) (x0 x1 : Vec F S2048x8x128 .f32) : Vec F S2048x1x128 .f32 :=
  View.ld x0 (tIn i)
def t4 (i : grid0.Coords) (x0 x1 : Vec F S2048x8x128 .f32) : Vec F S2048x1x128 .f32 :=
  View.ld x1 (tIn i)
def t11 (i : grid0.Coords) (x0 x1 : Vec F S2048x8x128 .f32) : FVec F S1024x128 .f32 :=
  k0_pay5 (t4 i x0 x1)
def t14 (i : grid0.Coords) (x0 x1 : Vec F S2048x8x128 .f32) : FVec F S1024x128 .f32 :=
  k0_pay6 (t1 i x0 x1)
def t39 (i : grid0.Coords) (x0 x1 : Vec F S2048x8x128 .f32) : FVec F S1024x1 .f32 :=
  k0_pay14 (t1 i x0 x1)
def t44 (i : grid0.Coords) (x0 x1 : Vec F S2048x8x128 .f32) : FVec F S1024x128 .f32 :=
  k0_pay16 (t1 i x0 x1) (t4 i x0 x1)
def t45 (i : grid0.Coords) (x0 x1 : Vec F S2048x8x128 .f32) : FVec F S1024x1 .f32 :=
  k0_pay17 (t1 i x0 x1)
def t63 (i : grid0.Coords) (x0 x1 : Vec F S2048x8x128 .f32) : FVec F S512x128 .f32 :=
  k0_pay24 (t11 i x0 x1) (t39 i x0 x1) (t44 i x0 x1) (t45 i x0 x1)
def t64 (i : grid0.Coords) (x0 x1 : Vec F S2048x8x128 .f32) : FVec F S512x128 .f32 :=
  k0_pay25 (t11 i x0 x1) (t39 i x0 x1) (t44 i x0 x1) (t45 i x0 x1)
def t67 (i : grid0.Coords) (x0 x1 : Vec F S2048x8x128 .f32) : FVec F S512x128 .f32 :=
  k0_pay26 (t14 i x0 x1)
def t84 (i : grid0.Coords) (x0 x1 : Vec F S2048x8x128 .f32) : FVec F S512x1 .f32 :=
  k0_pay31 (t14 i x0 x1)
def t86 (i : grid0.Coords) (x0 x1 : Vec F S2048x8x128 .f32) : FVec F S512x1 .f32 :=
  k0_pay32 (t14 i x0 x1)
def t88 (i : grid0.Coords) (x0 x1 : Vec F S2048x8x128 .f32) : FVec F S512x1 .f32 :=
  k0_pay33 (t14 i x0 x1)
def t90 (i : grid0.Coords) (x0 x1 : Vec F S2048x8x128 .f32) : FVec F S512x1 .f32 :=
  k0_pay34 (t14 i x0 x1)
def t116 (i : grid0.Coords) (x0 x1 : Vec F S2048x8x128 .f32) : FVec F S256x128 .f32 :=
  k0_pay41 (t63 i x0 x1) (t64 i x0 x1) (t84 i x0 x1) (t86 i x0 x1) (t88 i x0 x1) (t90 i x0 x1) tc22
def t117 (i : grid0.Coords) (x0 x1 : Vec F S2048x8x128 .f32) : FVec F S256x128 .f32 :=
  k0_pay42 (t63 i x0 x1) (t64 i x0 x1) (t84 i x0 x1) (t86 i x0 x1) (t88 i x0 x1) (t90 i x0 x1) tc22
def t120 (i : grid0.Coords) (x0 x1 : Vec F S2048x8x128 .f32) : FVec F S256x128 .f32 :=
  k0_pay43 (t67 i x0 x1)
def t125 (i : grid0.Coords) (x0 x1 : Vec F S2048x8x128 .f32) : FVec F S256x1 .f32 :=
  k0_pay44 (t67 i x0 x1)
def t130 (i : grid0.Coords) (x0 x1 : Vec F S2048x8x128 .f32) : FVec F S256x1 .f32 :=
  k0_pay45 (t67 i x0 x1)
def t133 (i : grid0.Coords) (x0 x1 : Vec F S2048x8x128 .f32) : FVec F S256x1 .f32 :=
  k0_pay46 (t67 i x0 x1)
def t135 (i : grid0.Coords) (x0 x1 : Vec F S2048x8x128 .f32) : FVec F S256x1 .f32 :=
  k0_pay47 (t67 i x0 x1)
def t169 (i : grid0.Coords) (x0 x1 : Vec F S2048x8x128 .f32) : FVec F S128x128 .f32 :=
  k0_pay54 (t116 i x0 x1) (t117 i x0 x1) (t125 i x0 x1) (t130 i x0 x1) (t133 i x0 x1) (t135 i x0 x1)
def t170 (i : grid0.Coords) (x0 x1 : Vec F S2048x8x128 .f32) : FVec F S128x128 .f32 :=
  k0_pay55 (t116 i x0 x1) (t117 i x0 x1) (t125 i x0 x1) (t130 i x0 x1) (t133 i x0 x1) (t135 i x0 x1)
def t173 (i : grid0.Coords) (x0 x1 : Vec F S2048x8x128 .f32) : FVec F S128x128 .f32 :=
  k0_pay56 (t120 i x0 x1)
def t178 (i : grid0.Coords) (x0 x1 : Vec F S2048x8x128 .f32) : FVec F S128x1 .f32 :=
  k0_pay57 (t120 i x0 x1)
def t181 (i : grid0.Coords) (x0 x1 : Vec F S2048x8x128 .f32) : FVec F S128x1 .f32 :=
  k0_pay58 (t120 i x0 x1)
def t219 (i : grid0.Coords) (x0 x1 : Vec F S2048x8x128 .f32) : FVec F S64x128 .f32 :=
  k0_pay63 (t173 i x0 x1)
def t222 (i : grid0.Coords) (x0 x1 : Vec F S2048x8x128 .f32) : FVec F S64x128 .f32 :=
  k0_pay65 (t169 i x0 x1) (t170 i x0 x1) (t178 i x0 x1) (t181 i x0 x1)
def t223 (i : grid0.Coords) (x0 x1 : Vec F S2048x8x128 .f32) : FVec F S64x128 .f32 :=
  k0_pay66 (t169 i x0 x1) (t170 i x0 x1) (t178 i x0 x1) (t181 i x0 x1)
def t226 (i : grid0.Coords) (x0 x1 : Vec F S2048x8x128 .f32) : FVec F S64x128 .f32 :=
  k0_pay67 (t173 i x0 x1)
def t227 (i : grid0.Coords) (x0 x1 : Vec F S2048x8x128 .f32) : FVec F S64x128 .f32 :=
  k0_pay68 (t173 i x0 x1)
def t262 (i : grid0.Coords) (x0 x1 : Vec F S2048x8x128 .f32) : FVec F S64x128 .f32 :=
  k0_pay69 (t219 i x0 x1) (t222 i x0 x1) (t223 i x0 x1) (t226 i x0 x1) (t227 i x0 x1)
def t272 (i : grid0.Coords) (x0 x1 : Vec F S2048x8x128 .f32) : FVec F S32x128 .f32 :=
  k0_pay73 (t226 i x0 x1)
def t273 (i : grid0.Coords) (x0 x1 : Vec F S2048x8x128 .f32) : FVec F S32x128 .f32 :=
  k0_pay74 (t226 i x0 x1)
def t279 (i : grid0.Coords) (x0 x1 : Vec F S2048x8x128 .f32) : FVec F S32x128 .f32 :=
  k0_pay75 (t272 i x0 x1) (t273 i x0 x1)
def t315 (i : grid0.Coords) (x0 x1 : Vec F S2048x8x128 .f32) : FVec F S32x128 .f32 :=
  k0_pay76 (t262 i x0 x1) (t272 i x0 x1) (t273 i x0 x1)
def t320 (i : grid0.Coords) (x0 x1 : Vec F S2048x8x128 .f32) : FVec F S32x128 .bf16 :=
  k0_pay78 (t262 i x0 x1) (t272 i x0 x1) (t273 i x0 x1)
def t332 (i : grid0.Coords) (x0 x1 : Vec F S2048x8x128 .f32) : FVec F S16x128 .f32 :=
  k0_pay82 (t279 i x0 x1)
def t368 (i : grid0.Coords) (x0 x1 : Vec F S2048x8x128 .f32) : FVec F S16x128 .f32 :=
  k0_pay83 (t279 i x0 x1) (t315 i x0 x1)
def t369 (i : grid0.Coords) (x0 x1 : Vec F S2048x8x128 .f32) : FVec F S16x128 .bf16 :=
  k0_pay84 (t279 i x0 x1)
def t381 (i : grid0.Coords) (x0 x1 : Vec F S2048x8x128 .f32) : FVec F S8x128 .f32 :=
  k0_pay90 (t368 i x0 x1)
def t382 (i : grid0.Coords) (x0 x1 : Vec F S2048x8x128 .f32) : FVec F S8x128 .f32 :=
  k0_pay91 (t368 i x0 x1)
def t385 (i : grid0.Coords) (x0 x1 : Vec F S2048x8x128 .f32) : FVec F S8x128 .f32 :=
  k0_pay92 (t332 i x0 x1)
def t406 (i : grid0.Coords) (x0 x1 : Vec F S2048x8x128 .f32) : FVec F S8x1 .f32 :=
  k0_pay99 (t332 i x0 x1)
def t410 (i : grid0.Coords) (x0 x1 : Vec F S2048x8x128 .f32) : FVec F S8x1 .f32 :=
  k0_pay100 (t332 i x0 x1)
def t412 (i : grid0.Coords) (x0 x1 : Vec F S2048x8x128 .f32) : FVec F S8x1 .f32 :=
  k0_pay101 (t332 i x0 x1)
def t413 (i : grid0.Coords) (x0 x1 : Vec F S2048x8x128 .f32) : FVec F S8x1 .f32 :=
  k0_pay102 (t332 i x0 x1)
def t434 (i : grid0.Coords) (x0 x1 : Vec F S2048x8x128 .f32) : FVec F S4x128 .f32 :=
  k0_pay109 (t381 i x0 x1) (t382 i x0 x1) (t406 i x0 x1) (t410 i x0 x1) (t412 i x0 x1) (t413 i x0 x1)
def t435 (i : grid0.Coords) (x0 x1 : Vec F S2048x8x128 .f32) : FVec F S4x128 .f32 :=
  k0_pay110 (t381 i x0 x1) (t382 i x0 x1) (t406 i x0 x1) (t410 i x0 x1) (t412 i x0 x1) (t413 i x0 x1)
def t438 (i : grid0.Coords) (x0 x1 : Vec F S2048x8x128 .f32) : FVec F S4x128 .f32 :=
  k0_pay111 (t385 i x0 x1)
def t455 (i : grid0.Coords) (x0 x1 : Vec F S2048x8x128 .f32) : FVec F S4x1 .f32 :=
  k0_pay116 (t385 i x0 x1)
def t457 (i : grid0.Coords) (x0 x1 : Vec F S2048x8x128 .f32) : FVec F S4x1 .f32 :=
  k0_pay117 (t385 i x0 x1)
def t459 (i : grid0.Coords) (x0 x1 : Vec F S2048x8x128 .f32) : FVec F S4x1 .f32 :=
  k0_pay118 (t385 i x0 x1)
def t487 (i : grid0.Coords) (x0 x1 : Vec F S2048x8x128 .f32) : FVec F S2x128 .f32 :=
  k0_pay125 (t434 i x0 x1) (t435 i x0 x1) (t455 i x0 x1) (t457 i x0 x1) (t459 i x0 x1)
def t488 (i : grid0.Coords) (x0 x1 : Vec F S2048x8x128 .f32) : FVec F S2x128 .f32 :=
  k0_pay126 (t434 i x0 x1) (t435 i x0 x1) (t455 i x0 x1) (t457 i x0 x1) (t459 i x0 x1)
def t491 (i : grid0.Coords) (x0 x1 : Vec F S2048x8x128 .f32) : FVec F S2x128 .f32 :=
  k0_pay127 (t438 i x0 x1)
def t496 (i : grid0.Coords) (x0 x1 : Vec F S2048x8x128 .f32) : FVec F S2x1 .f32 :=
  k0_pay128 (t438 i x0 x1)
def t501 (i : grid0.Coords) (x0 x1 : Vec F S2048x8x128 .f32) : FVec F S2x1 .f32 :=
  k0_pay129 (t438 i x0 x1)
def t503 (i : grid0.Coords) (x0 x1 : Vec F S2048x8x128 .f32) : FVec F S2x1 .f32 :=
  k0_pay130 (t438 i x0 x1)
def t540 (i : grid0.Coords) (x0 x1 : Vec F S2048x8x128 .f32) : FVec F S1x128 .f32 :=
  k0_pay137 (t487 i x0 x1) (t488 i x0 x1) (t496 i x0 x1) (t501 i x0 x1) (t503 i x0 x1)
def t541 (i : grid0.Coords) (x0 x1 : Vec F S2048x8x128 .f32) : FVec F S1x128 .f32 :=
  k0_pay138 (t487 i x0 x1) (t488 i x0 x1) (t496 i x0 x1) (t501 i x0 x1) (t503 i x0 x1)
def t544 (i : grid0.Coords) (x0 x1 : Vec F S2048x8x128 .f32) : FVec F S1x128 .f32 :=
  k0_pay139 (t491 i x0 x1)
def t549 (i : grid0.Coords) (x0 x1 : Vec F S2048x8x128 .f32) : FVec F S1x1 .f32 :=
  k0_pay140 (t491 i x0 x1)
def t550 (i : grid0.Coords) (x0 x1 : Vec F S2048x8x128 .f32) : FVec F S1x128 .f32 :=
  k0_pay141 (t491 i x0 x1)

/-! ## What the body leaves in the two output buffers -/

/-- Levels 1 to 10 of the pooled keys: ten blocks of rows, LAST FIRST (rows 2044-2045 down to rows 0-1023). -/
def treeKtail (i : grid0.Coords) (x0 x1 : Vec F S2048x8x128 .f32) : List (View.Piece (Elt F) S1x2048x128 .bf16) :=
  [⟨tR2044, k0_pay132 (t491 i x0 x1)⟩,
    ⟨tR2040, k0_pay120 (t438 i x0 x1)⟩,
    ⟨tR2032, k0_pay104 (t385 i x0 x1)⟩,
    ⟨tR2016, k0_pay85 (t369 i x0 x1)⟩,
    ⟨tR1984, k0_pay77 (t272 i x0 x1) (t273 i x0 x1)⟩,
    ⟨tR1920, k0_pay70 (t226 i x0 x1)⟩,
    ⟨tR1792, k0_pay60 (t173 i x0 x1)⟩,
    ⟨tR1536, k0_pay49 (t120 i x0 x1)⟩,
    ⟨tR1024, k0_pay36 (t67 i x0 x1)⟩,
    ⟨tR0, k0_pay19 (t14 i x0 x1)⟩]

/-- The pooled keys' buffer after the body: level 11's row 2046 and the zero row 2047 over levels 1 to 10. -/
def treeK (i : grid0.Coords) (x0 x1 : Vec F S2048x8x128 .f32) : Vec F S1x2048x128 .bf16 :=
  View.canon (⟨tR2046, tRows2 (k0_pay142 (t544 i x0 x1)) (k0_pay144 (F := F))⟩ :: treeKtail i x0 x1)

/-- Levels 1 to 10 of the pooled values, likewise. -/
def treeVtail (i : grid0.Coords) (x0 x1 : Vec F S2048x8x128 .f32) : List (View.Piece (Elt F) S1x2048x128 .bf16) :=
  [⟨tR2044, k0_pay133 (t487 i x0 x1) (t488 i x0 x1) (t496 i x0 x1) (t501 i x0 x1) (t503 i x0 x1)⟩,
    ⟨tR2040, k0_pay121 (t434 i x0 x1) (t435 i x0 x1) (t455 i x0 x1) (t457 i x0 x1) (t459 i x0 x1)⟩,
    ⟨tR2032, k0_pay105 (t381 i x0 x1) (t382 i x0 x1) (t406 i x0 x1) (t410 i x0 x1) (t412 i x0 x1) (t413 i x0 x1)⟩,
    ⟨tR2016, k0_pay86 (t368 i x0 x1)⟩,
    ⟨tR1984, k0_pay79 (t320 i x0 x1)⟩,
    ⟨tR1920, k0_pay71 (t219 i x0 x1) (t222 i x0 x1) (t223 i x0 x1) (t226 i x0 x1) (t227 i x0 x1)⟩,
    ⟨tR1792, k0_pay61 (t169 i x0 x1) (t170 i x0 x1) (t178 i x0 x1) (t181 i x0 x1)⟩,
    ⟨tR1536, k0_pay50 (t116 i x0 x1) (t117 i x0 x1) (t125 i x0 x1) (t130 i x0 x1) (t133 i x0 x1) (t135 i x0 x1)⟩,
    ⟨tR1024, k0_pay37 (t63 i x0 x1) (t64 i x0 x1) (t84 i x0 x1) (t86 i x0 x1) (t88 i x0 x1) (t90 i x0 x1) tc22⟩,
    ⟨tR0, k0_pay20 (t11 i x0 x1) (t39 i x0 x1) (t44 i x0 x1) (t45 i x0 x1)⟩]

/-- The pooled values' buffer after the body. -/
def treeV (i : grid0.Coords) (x0 x1 : Vec F S2048x8x128 .f32) : Vec F S1x2048x128 .bf16 :=
  View.canon (⟨tR2046, tRows2 (k0_pay143 (t540 i x0 x1) (t541 i x0 x1) (t549 i x0 x1) (t550 i x0 x1)) (k0_pay1 (F := F))⟩ :: treeVtail i x0 x1)

/-- An index whose row lies in a block of rows lies in the block's rectangle. -/
theorem mem_rows {size : Fin 3 → ℕ} {o : ℕ} (inb : ∀ a, (![0, o, 0] : Fin 3 → ℕ) a + size a ≤ S1x2048x128.size a) (y : S1x2048x128.Idx)
    (hs0 : size 0 = 1) (hs2 : size 2 = 128) (h : o ≤ (y 1).val ∧ (y 1).val < o + size 1) :
    y ∈ (Rect.unit (s := S1x2048x128) ![0, o, 0] size inb).set := by
  rw [Rect.mem_set_unit]
  have e0 : (y 0).val < 1 := (y 0).isLt
  have e2 : (y 2).val < 128 := (y 2).isLt
  refine Fin.forall_fin_succ.mpr ⟨?_, Fin.forall_fin_succ.mpr ⟨?_, Fin.forall_fin_succ.mpr ⟨?_, fun a => a.elim0⟩⟩⟩
  · show 0 ≤ (y 0).val ∧ (y 0).val < 0 + size 0
    rw [hs0]; omega
  · exact h
  · show 0 ≤ (y 2).val ∧ (y 2).val < 0 + size 2
    rw [hs2]; omega

/-- The eleven blocks cover the 2048 rows: 1024 + 512 + … + 2 + 2. -/
theorem tree_cover (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (y : S1x2048x128.Idx) :
    ∃ pc ∈ ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16)), y ∈ pc.1.set := by
  have hr : (y 1).val < 2048 := (y 1).isLt
  by_cases h0 : 2046 ≤ (y 1).val
  · exact ⟨⟨tR2046, p0⟩, List.mem_cons_self, mem_rows inb_S1x2048x128_S1x2x128_0_2046_0 y rfl rfl ⟨by omega, by show (y 1).val < 2046 + 2; omega⟩⟩
  by_cases h1 : 2044 ≤ (y 1).val
  · exact ⟨⟨tR2044, p1⟩, List.mem_cons_of_mem _ (List.mem_cons_self), mem_rows inb_S1x2048x128_S1x2x128_0_2044_0 y rfl rfl ⟨by omega, by show (y 1).val < 2044 + 2; omega⟩⟩
  by_cases h2 : 2040 ≤ (y 1).val
  · exact ⟨⟨tR2040, p2⟩, List.mem_cons_of_mem _ (List.mem_cons_of_mem _ (List.mem_cons_self)), mem_rows inb_S1x2048x128_S1x4x128_0_2040_0 y rfl rfl ⟨by omega, by show (y 1).val < 2040 + 4; omega⟩⟩
  by_cases h3 : 2032 ≤ (y 1).val
  · exact ⟨⟨tR2032, p3⟩, List.mem_cons_of_mem _ (List.mem_cons_of_mem _ (List.mem_cons_of_mem _ (List.mem_cons_self))), mem_rows inb_S1x2048x128_S1x8x128_0_2032_0 y rfl rfl ⟨by omega, by show (y 1).val < 2032 + 8; omega⟩⟩
  by_cases h4 : 2016 ≤ (y 1).val
  · exact ⟨⟨tR2016, p4⟩, List.mem_cons_of_mem _ (List.mem_cons_of_mem _ (List.mem_cons_of_mem _ (List.mem_cons_of_mem _ (List.mem_cons_self)))), mem_rows inb_S1x2048x128_S1x16x128_0_2016_0 y rfl rfl ⟨by omega, by show (y 1).val < 2016 + 16; omega⟩⟩
  by_cases h5 : 1984 ≤ (y 1).val
  · exact ⟨⟨tR1984, p5⟩, List.mem_cons_of_mem _ (List.mem_cons_of_mem _ (List.mem_cons_of_mem _ (List.mem_cons_of_mem _ (List.mem_cons_of_mem _ (List.mem_cons_self))))), mem_rows inb_S1x2048x128_S1x32x128_0_1984_0 y rfl rfl ⟨by omega, by show (y 1).val < 1984 + 32; omega⟩⟩
  by_cases h6 : 1920 ≤ (y 1).val
  · exact ⟨⟨tR1920, p6⟩, List.mem_cons_of_mem _ (List.mem_cons_of_mem _ (List.mem_cons_of_mem _ (List.mem_cons_of_mem _ (List.mem_cons_of_mem _ (List.mem_cons_of_mem _ (List.mem_cons_self)))))), mem_rows inb_S1x2048x128_S1x64x128_0_1920_0 y rfl rfl ⟨by omega, by show (y 1).val < 1920 + 64; omega⟩⟩
  by_cases h7 : 1792 ≤ (y 1).val
  · exact ⟨⟨tR1792, p7⟩, List.mem_cons_of_mem _ (List.mem_cons_of_mem _ (List.mem_cons_of_mem _ (List.mem_cons_of_mem _ (List.mem_cons_of_mem _ (List.mem_cons_of_mem _ (List.mem_cons_of_mem _ (List.mem_cons_self))))))), mem_rows inb_S1x2048x128_S1x128x128_0_1792_0 y rfl rfl ⟨by omega, by show (y 1).val < 1792 + 128; omega⟩⟩
  by_cases h8 : 1536 ≤ (y 1).val
  · exact ⟨⟨tR1536, p8⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_rows inb_S1x2048x128_S1x256x128_0_1536_0 y rfl rfl ⟨by omega, by show (y 1).val < 1536 + 256; omega⟩⟩
  by_cases h9 : 1024 ≤ (y 1).val
  · exact ⟨⟨tR1024, p9⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_rows inb_S1x2048x128_S1x512x128_0_1024_0 y rfl rfl ⟨by omega, by show (y 1).val < 1024 + 512; omega⟩⟩
  exact ⟨⟨tR0, p10⟩, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_rows inb_S1x2048x128_S1x1024x128_0_0_0 y rfl rfl ⟨by omega, by show (y 1).val < 0 + 1024; omega⟩⟩

/-- So do the pooled keys' pieces, whatever the last two rows' block is written with, -/
theorem treeK_cover (p0 : Vec F S1x2x128 .bf16) (i : grid0.Coords) (x0 x1 : Vec F S2048x8x128 .f32) (y : S1x2048x128.Idx) :
    ∃ pc ∈ ((⟨tR2046, p0⟩ : View.Piece (Elt F) S1x2048x128 .bf16) :: treeKtail i x0 x1), y ∈ pc.1.set :=
  tree_cover p0 _ _ _ _ _ _ _ _ _ _ y

/-- and the pooled values'. -/
theorem treeV_cover (p0 : Vec F S1x2x128 .bf16) (i : grid0.Coords) (x0 x1 : Vec F S2048x8x128 .f32) (y : S1x2048x128.Idx) :
    ∃ pc ∈ ((⟨tR2046, p0⟩ : View.Piece (Elt F) S1x2048x128 .bf16) :: treeVtail i x0 x1), y ∈ pc.1.set :=
  tree_cover p0 _ _ _ _ _ _ _ _ _ _ y

/-! ## The body's triple -/

/-- A rectangle written, read back whole and written again with the read-back changed: the first write drops out, and
    the second's payload is the change applied to the first's — whatever the buffer held before, when the pieces
    cover the shape. -/
theorem read_writes_twice {sg : RefSig} {κ : Kind} {sp : Space} {s : Shape} {e : EltTy} {Val : EltTy → Type} [∀ e, Nonempty (Val e)]
    (v : View sg κ sp s e) (f : v.ty.Contents Val) (R : Rect s) (w : R.shape.Idx → Val e)
    (W : (R.shape.Idx → Val e) → (R.shape.Idx → Val e)) (L : List (View.Piece Val s e))
    (hcov : ∀ y, ∃ pc ∈ ((⟨R, W w⟩ : View.Piece Val s e) :: L), y ∈ pc.1.set) :
    v.read Val (v.writes Val f (⟨R, W (v.readCov (⟨R, w⟩ :: L) R.toLoadRect)⟩ :: ⟨R, w⟩ :: L)) = View.canon (⟨R, W w⟩ :: L) := by
  rw [View.readCov_cons_toLoadRect, View.writes_cons_drop v f _ R w L (fun y hy => hy)]
  exact View.read_writes_eq_canon v f _ hcov

/-- What the body's stores leave in the pooled keys' buffer reads `treeK`: rows 2046 and 2047 are written through their
    two-row block twice, the second time over the first's read-back. -/
theorem treeK_of_run {sg : RefSig} {κ : Kind} {sp : Space} (v : View sg κ sp S1x2048x128 .bf16) (f : v.ty.Contents (Elt F))
    (o : Vec F S1x2x128 .bf16) (i : grid0.Coords) (x0 x1 : Vec F S2048x8x128 .f32) :
    v.read (Elt F) (v.writes (Elt F) f
      (⟨tR2046, (fun old => updateSlice old (k0_pay144 (F := F)) ![0, 1, 0] slices_S1x2x128_S1x1x128_0_1_0)
          (v.readCov (⟨tR2046, (fun old => updateSlice old (k0_pay142 (t544 i x0 x1)) ![0, 0, 0] slices_S1x2x128_S1x1x128_0_0_0) o⟩ :: treeKtail i x0 x1) tR2046.toLoadRect)⟩
        :: ⟨tR2046, (fun old => updateSlice old (k0_pay142 (t544 i x0 x1)) ![0, 0, 0] slices_S1x2x128_S1x1x128_0_0_0) o⟩ :: treeKtail i x0 x1))
      = treeK i x0 x1 :=
  (read_writes_twice v f tR2046 (updateSlice o (k0_pay142 (t544 i x0 x1)) ![0, 0, 0] slices_S1x2x128_S1x1x128_0_0_0)
      (fun old => updateSlice old (k0_pay144 (F := F)) ![0, 1, 0] slices_S1x2x128_S1x1x128_0_1_0) (treeKtail i x0 x1)
      (fun y => treeK_cover _ i x0 x1 y)).trans
    (congrArg (fun w => View.canon ((⟨tR2046, w⟩ : View.Piece (Elt F) S1x2048x128 .bf16) :: treeKtail i x0 x1))
      (tRows2_eq o (k0_pay142 (t544 i x0 x1)) (k0_pay144 (F := F))))

/-- The same of the pooled values' buffer. -/
theorem treeV_of_run {sg : RefSig} {κ : Kind} {sp : Space} (v : View sg κ sp S1x2048x128 .bf16) (f : v.ty.Contents (Elt F))
    (o : Vec F S1x2x128 .bf16) (i : grid0.Coords) (x0 x1 : Vec F S2048x8x128 .f32) :
    v.read (Elt F) (v.writes (Elt F) f
      (⟨tR2046, (fun old => updateSlice old (k0_pay1 (F := F)) ![0, 1, 0] slices_S1x2x128_S1x1x128_0_1_0)
          (v.readCov (⟨tR2046, (fun old => updateSlice old (k0_pay143 (t540 i x0 x1) (t541 i x0 x1) (t549 i x0 x1) (t550 i x0 x1)) ![0, 0, 0] slices_S1x2x128_S1x1x128_0_0_0) o⟩ :: treeVtail i x0 x1) tR2046.toLoadRect)⟩
        :: ⟨tR2046, (fun old => updateSlice old (k0_pay143 (t540 i x0 x1) (t541 i x0 x1) (t549 i x0 x1) (t550 i x0 x1)) ![0, 0, 0] slices_S1x2x128_S1x1x128_0_0_0) o⟩ :: treeVtail i x0 x1))
      = treeV i x0 x1 :=
  (read_writes_twice v f tR2046 (updateSlice o (k0_pay143 (t540 i x0 x1) (t541 i x0 x1) (t549 i x0 x1) (t550 i x0 x1)) ![0, 0, 0] slices_S1x2x128_S1x1x128_0_0_0)
      (fun old => updateSlice old (k0_pay1 (F := F)) ![0, 1, 0] slices_S1x2x128_S1x1x128_0_1_0) (treeVtail i x0 x1)
      (fun y => treeV_cover _ i x0 x1 y)).trans
    (congrArg (fun w => View.canon ((⟨tR2046, w⟩ : View.Piece (Elt F) S1x2048x128 .bf16) :: treeVtail i x0 x1))
      (tRows2_eq o (k0_pay143 (t540 i x0 x1) (t541 i x0 x1) (t549 i x0 x1) (t550 i x0 x1)) (k0_pay1 (F := F))))

set_option maxHeartbeats 4000000 in
/-- The body on whole staging memrefs, the two inputs' at read contents `x0`, `x1` and the two outputs' at anything,
    runs to the continuation holding the inputs' as they were and the outputs' at `treeK`, `treeV` of the inputs':
    the inputs' columns are read off contents the body never writes; every store's block is disjoint from the ones
    before it, except the last two rows' block, which is read back and rewritten. -/
theorem sound_tree (c : Dev nD) (E : Set ℕ) (i : grid0.Coords) (arg2 : Memref sig .tc .vmem S2048x8x128 .f32) (harg2 : arg2.IsWhole) (arg3 : Memref sig .tc .vmem S2048x8x128 .f32) (harg3 : arg3.IsWhole) (arg4 : Memref sig .tc .vmem S1x2048x128 .bf16) (harg4 : arg4.IsWhole) (arg5 : Memref sig .tc .vmem S1x2048x128 .bf16) (harg5 : arg5.IsWhole)
    (x0 x1 : Vec F S2048x8x128 .f32) (Kc : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (treeK i x0 x1) ∗ owns (c : Thread nD τ) arg5 fullShare (treeV i x0 x1)) -∗ Kc ⟨⟩))
      ⊢ wp frame (wpE (defs₀ (F := F)) Variants.none c none) E (cc0__tree_kernel i arg2 harg2 arg3 harg3 arg4 harg4 arg5 harg5) Kc := by
  simp only [cc0__tree_kernel_eq_skeleton]; unfold cc0__tree_kernel_skel
  unfold owns
  iintro ⟨⟨%f0, %hf0, H0⟩, ⟨%f1, %hf1, H1⟩, ⟨%d4, %f4, -, H4⟩, ⟨%d5, %f5, -, H5⟩, Hk⟩
  subst hf0 hf1
  sl_exec_parts
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    exact treeK_of_run arg4.view f4 (View.readAt (Elt F) arg4.view tR2046.toLoadRect f4) i (View.read (Elt F) arg2.view f0) (View.read (Elt F) arg3.view f1)
  iexists _; isplitr
  swap; · iexact H5
  ipureintro
  exact treeV_of_run arg5.view f5 (View.readAt (Elt F) arg5.view tR2046.toLoadRect f5) i (View.read (Elt F) arg2.view f0) (View.read (Elt F) arg3.view f1)

end Cert.Proof.KB

end
-- ==== Proof.Region0B.lean ====
/-
  The first pipeline as the launch sees it: per core, what the pipeline's arrays hold when it is entered, what the body
  leaves in each window's staging buffer at each of the sixteen points, and the body's obligation at every point.

  The grid is two halves of eight heads. The two input windows stage, per half, all 2048 rows of the half's eight heads
  of the keys and of the values; they are fetched when the half changes and found in place at the other seven points.
  The two output windows stage one head's 2048 rows of pooled keys and pooled values, written back at every point. The
  body reads the head's column of the two inputs and fills the two outputs; it uses nothing else, signals nothing and
  waits for nothing, so what the core owes the launch handshakes rides through every point unchanged.
-/
import proofs.«208975_g36283883717458_cont_8to1_b_1954_30_alg».proof.Proof.LaunchDefsB
import proofs.«208975_g36283883717458_cont_8to1_b_1954_30_alg».proof.Proof.TreeBodyB
import proofs.«208975_g36283883717458_cont_8to1_b_1954_30_alg».proof.Proof.Gen.Kernel.Launch
import proofs.«208975_g36283883717458_cont_8to1_b_1954_30_alg».proof.Proof.Gen.Kernel.Points
import Idealize.ShloMosaic.Lib.Pipeline.Regions
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The arrays as the pipeline finds them, and the windows' blocks -/

/-- Core `d`'s TensorCore buffers when the pipeline is entered: the launch contents after the three reshapes. -/
abbrev VR (d : Dev nD) (b : Ref sig .tc) : Buf (Elt F) ((d : Thread nD τ).loc b) := V1 m d b

/-- Window `w`'s block at point `t`, read off its array as the pipeline finds it. -/
def iblk0 (d : Dev nD) (w : Fin cfg0.W) (t : Fin cfg0.N) : ((cfg0.win w).xblock (cfg0.grid.coords t)).Idx → Elt F (cfg0.win w).elt :=
  ((cfg0.win w).blk t).view.read (Elt F) (VR m d (Pipeline.arrRef spec0 w))

/-- The invariant between points: the core's scoped buffers that are no staging buffer of this pipeline, each at some
    contents. The body touches none of them. -/
def Φ0 (d : Dev nD) : sProp 𝕄 :=
  Pipeline.scopedRest (Ix := HIx 1) (Name := ℕ) (U := UU) (Lvl := ℕ) (Val := Elt F) spec0 d

/-- The proof data of the first pipeline on core `d`: the arrays as the pipeline finds them; after the body at point
    `t` each input's buffer at its block and the two outputs' at the pooled keys and pooled values of the two input
    blocks, at the point's head; the invariant `Φ0`; full shares; what the core owes the launch handshakes before the
    first call, at every point; its recorded waits at or below level 0. -/
def dats0 (d : Dev nD) : Dat τ (Elt F) (HIx 1) ℕ UU ℕ cfg0 d where
  A w := VR m d (Pipeline.arrRef spec0 w)
  after w t := match w with
    | ⟨0, _⟩ => iblk0 m d 0 t
    | ⟨1, _⟩ => iblk0 m d 1 t
    | ⟨2, _⟩ => treeK (grid0.coords t) (iblk0 m d 0 t) (iblk0 m d 1 t)
    | ⟨3, _⟩ => treeV (grid0.coords t) (iblk0 m d 0 t) (iblk0 m d 1 t)
  Φ _ := Φ0 d
  q _ := fullShare
  owed _ := (K (F := F)).Otc d 0
  recorded _ := {p | (K (F := F)).lev (T d, p.1) p.2 ≤ 0}

theorem A0_eq (d : Dev nD) (w : Fin cfg0.W) : (dats0 m d).A w = VR m d (Pipeline.arrRef spec0 w) := by
  dsimp only [dats0]

theorem after0_0 (d : Dev nD) (t : Fin cfg0.N) : (dats0 m d).after 0 t = iblk0 m d 0 t := by dsimp only [dats0]
theorem after0_1 (d : Dev nD) (t : Fin cfg0.N) : (dats0 m d).after 1 t = iblk0 m d 1 t := by dsimp only [dats0]
theorem after0_2 (d : Dev nD) (t : Fin cfg0.N) :
    (dats0 m d).after 2 t = treeK (grid0.coords t) (iblk0 m d 0 t) (iblk0 m d 1 t) := by dsimp only [dats0]
theorem after0_3 (d : Dev nD) (t : Fin cfg0.N) :
    (dats0 m d).after 3 t = treeV (grid0.coords t) (iblk0 m d 0 t) (iblk0 m d 1 t) := by dsimp only [dats0]

/-- An input's current staging buffer holds its block at every point, fetched there or not: not fetched, the half has
    not changed, and the buffer still holds the block the previous point's body left in place. -/
theorem before0_0 (d : Dev nD) (t : Fin cfg0.N) (x) : (dats0 m d).before 0 t x = iblk0 m d 0 t :=
  ((dats0 m d).before_in_eq_fetched 0 rfl (fun _ => rfl) (fun _ _ _ => rfl)
    (fun t => by rw [after0_0]; unfold Dat.blockOf iblk0; rw [A0_eq]; try rfl) t x).trans
    (by unfold Dat.fetched Dat.blockOf iblk0; rw [A0_eq]; try rfl)
theorem before0_1 (d : Dev nD) (t : Fin cfg0.N) (x) : (dats0 m d).before 1 t x = iblk0 m d 1 t :=
  ((dats0 m d).before_in_eq_fetched 1 rfl (fun _ => rfl) (fun _ _ _ => rfl)
    (fun t => by rw [after0_1]; unfold Dat.blockOf iblk0; rw [A0_eq]; try rfl) t x).trans
    (by unfold Dat.fetched Dat.blockOf iblk0; rw [A0_eq]; try rfl)

/-! ## The body obligation, at a generic point -/

/-- What the body is called with at point `t`, the windows one by one, -/
def bodyPre0 (d : Dev nD) (t : Fin cfg0.N) : sProp 𝕄 :=
  iprop((dats0 m d).Φ t.castSucc ∗ (dats0 m d).owesAt (none : HIx 1) t.castSucc
    ∗ (∃ x, owns (d : Thread nD τ) (st0_0 t) fullShare ((dats0 m d).before 0 t x))
    ∗ (∃ x, owns (d : Thread nD τ) (st0_1 t) fullShare ((dats0 m d).before 1 t x))
    ∗ (∃ x, owns (d : Thread nD τ) (st0_2 t) fullShare ((dats0 m d).before 2 t x))
    ∗ (∃ x, owns (d : Thread nD τ) (st0_3 t) fullShare ((dats0 m d).before 3 t x)))

/-- and what it returns. -/
def bodyPost0 (d : Dev nD) (t : Fin cfg0.N) : sProp 𝕄 :=
  iprop((dats0 m d).Φ t.succ ∗ (dats0 m d).owesAt (none : HIx 1) t.succ
    ∗ owns (d : Thread nD τ) (st0_0 t) fullShare ((dats0 m d).after 0 t)
    ∗ owns (d : Thread nD τ) (st0_1 t) fullShare ((dats0 m d).after 1 t)
    ∗ owns (d : Thread nD τ) (st0_2 t) fullShare ((dats0 m d).after 2 t)
    ∗ owns (d : Thread nD τ) (st0_3 t) fullShare ((dats0 m d).after 3 t))

/-- The body at any point: the inputs' buffers hold their blocks, so the body's triple applies; the invariant and what
    the core owes pass through unread. -/
theorem sound_body0 (d : Dev nD) (t : Fin cfg0.N) :
    bodyPre0 m d t ⊢ wp frame (wpE (defs₀ (F := F)) Variants.none d none) Set.univ (bodyAt0 t) (fun _ => bodyPost0 m d t) := by
  unfold bodyPre0 bodyPost0 bodyAt0
  simp only [before0_0, before0_1]
  rw [show (dats0 m d).Φ t.succ = (dats0 m d).Φ t.castSucc from rfl,
    show (dats0 m d).owesAt (none : HIx 1) t.succ = (dats0 m d).owesAt (none : HIx 1) t.castSucc from rfl,
    after0_0, after0_1, after0_2, after0_3]
  iintro ⟨HΦ, Ho, ⟨%d0, H0⟩, ⟨%d1, H1⟩, ⟨%d2, H2⟩, ⟨%d3, H3⟩⟩
  iapply (sound_tree d Set.univ (grid0.coords t) _ _ _ _ _ _ _ _ (iblk0 m d 0 t) (iblk0 m d 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (d : Dev nD) : BodyObligation (dats0 (F := F) m d) (defs₀ (F := F)) Variants.none (none : HIx 1) Set.univ := fun t => by
  rw [bigSep_W0, bigSep_W0]
  exact sound_body0 m d t

end Cert.Proof.KB

end
-- ==== Proof.AttnBodyB.lean ====
/-
  The attention body as one triple.

  At a grid point the body reads three staged blocks whole: the queries of one head ([1, 2048, 128]), that head's
  pooled keys and its pooled values (both [1, 2048, 128], the last row zero). The queries are scaled once; then, for
  each of sixteen chunks of 128 query rows, the chunk's scores against all 2048 keys, their exponentials, the row sums
  less one, the exponentials' product with the values, and the quotient give a 128 x 128 tile. The tile of chunk j is
  stored into the output's staging buffer ([2048, 8, 128]) at rows 128 j … 128 j + 127 of ONE of its eight head
  columns, the point's second coordinate; the other seven columns keep what the buffer held. So what the buffer holds
  afterwards is its old contents with sixteen rectangles laid over it, each carrying its chunk's tile.

  Laying pieces over given contents: overlays; what a memory's listed writes read as is exactly that
  (read_writes_eq_overlays). The sixteen rectangles sit at rows 128 j on the first axis, at the point's head on the
  second and span the third; they are pairwise disjoint, an index whose head is another one lies in none of them
  (attnOut_of_head_ne), and an index of the point's head reads its chunk's tile at the row's remainder
  (attnOut_of_head_eq).
-/
import proofs.«208975_g36283883717458_cont_8to1_b_1954_30_alg».proof.Proof.CommonB
import proofs.«208975_g36283883717458_cont_8to1_b_1954_30_alg».proof.Proof.Gen.Kernel.Skeleton
import proofs.«208975_g36283883717458_cont_8to1_b_1954_30_alg».proof.Proof.Gen.Kernel.Points
import Idealize.ShloMosaic.Lib.Pipeline.FrameBody
import Idealize.ShloMosaic.Lib.Tactic
import Idealize.ShloMosaic.Lib.ValueIdx

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Pieces laid over given contents -/

section Overlays
variable {s : Shape} {e : EltTy} {Val : EltTy → Type}

/-- The contents d with the pieces of the list laid over it, the head of the list on top: at an index the payload of
    the first piece whose rectangle holds it, and d at an index no piece holds. -/
def overlays (d : s.Idx → Val e) : List (View.Piece Val s e) → s.Idx → Val e
  | [] => d
  | p :: L => p.1.overlay (overlays d L) p.2

/-- What a view reads after a list of unmasked writes (the last write first) is what it read before with the writes'
    pieces laid over it. -/
theorem read_writes_eq_overlays {sg : RefSig} {κ : Kind} {sp : Space} (v : View sg κ sp s e) (f : v.ty.Contents Val) :
    ∀ L : List (View.Piece Val s e), v.read Val (v.writes Val f L) = overlays (v.read Val f) L
  | [] => rfl
  | p :: L => by
    funext y
    by_cases hy : y ∈ p.1.set
    · obtain ⟨x, rfl⟩ : ∃ x, p.1.emb x = y := p.1.exists_idx_of_mem hy
      obtain ⟨r, w⟩ := p
      rw [View.read_writes_cons_emb]; exact (r.overlay_emb _ _ x).symm
    · have hy' : y ∉ Finset.univ.map p.1.emb := by rwa [Rect.map_emb_univ]
      rw [View.writes_cons, View.read_slice_write_of_not_mem p.1 _ _ _ hy']
      show _ = p.1.overlay (overlays (v.read Val f) L) p.2 y
      rw [Rect.overlay_of_not_mem _ _ _ hy, read_writes_eq_overlays v f L]

/-- An index no piece holds keeps the old contents. -/
theorem overlays_of_forall_not_mem (d : s.Idx → Val e) (y : s.Idx) :
    ∀ L : List (View.Piece Val s e), (∀ p ∈ L, y ∉ p.1.set) → overlays d L y = d y
  | [], _ => rfl
  | p :: L, h => by
    show p.1.overlay (overlays d L) p.2 y = d y
    rw [Rect.overlay_of_not_mem _ _ _ (h p List.mem_cons_self)]
    exact overlays_of_forall_not_mem d y L fun q hq => h q (List.mem_cons_of_mem _ hq)

/-- When every piece's payload is one function G read at the piece's own indices, an index some piece holds reads G. -/
theorem overlays_of_pieces (d : s.Idx → Val e) (G : s.Idx → Val e) :
    ∀ L : List (View.Piece Val s e), (∀ p ∈ L, ∀ x : p.1.shape.Idx, p.2 x = G (p.1.emb x)) →
      ∀ y : s.Idx, (∃ p ∈ L, y ∈ p.1.set) → overlays d L y = G y
  | [], _, _, h => by obtain ⟨_, hm, _⟩ := h; exact absurd hm List.not_mem_nil
  | p :: L, hG, y, h => by
    show p.1.overlay (overlays d L) p.2 y = G y
    by_cases hy : y ∈ p.1.set
    · obtain ⟨x, rfl⟩ : ∃ x, p.1.emb x = y := p.1.exists_idx_of_mem hy
      rw [Rect.overlay_emb]; exact hG p List.mem_cons_self x
    · rw [Rect.overlay_of_not_mem _ _ _ hy]
      refine overlays_of_pieces d G L (fun q hq => hG q (List.mem_cons_of_mem _ hq)) y ?_
      obtain ⟨q, hm, hq⟩ := h
      rcases List.mem_cons.mp hm with rfl | hm
      · exact absurd hq hy
      · exact ⟨q, hm, hq⟩

end Overlays

/-! ## The body's rectangles and tiles -/

/-- A staged input block, whole. -/
abbrev rIn : Rect S1x2048x128 :=
  Rect.unit (s := S1x2048x128) ![0, 0, 0] S1x2048x128.size inb_S1x2048x128_S1x2048x128_0_0_0

/-- The sixteen stores' rectangles: rows 128 (n - 1) … of the point's head column. -/
abbrev rO1 (i : grid2.Coords) : Rect S2048x8x128 := Rect.unit (s := S2048x8x128) (k2_off1 i) S128x1x128.size (k2_off1_inb i)
abbrev rO2 (i : grid2.Coords) : Rect S2048x8x128 := Rect.unit (s := S2048x8x128) (k2_off2 i) S128x1x128.size (k2_off2_inb i)
abbrev rO3 (i : grid2.Coords) : Rect S2048x8x128 := Rect.unit (s := S2048x8x128) (k2_off3 i) S128x1x128.size (k2_off3_inb i)
abbrev rO4 (i : grid2.Coords) : Rect S2048x8x128 := Rect.unit (s := S2048x8x128) (k2_off4 i) S128x1x128.size (k2_off4_inb i)
abbrev rO5 (i : grid2.Coords) : Rect S2048x8x128 := Rect.unit (s := S2048x8x128) (k2_off5 i) S128x1x128.size (k2_off5_inb i)
abbrev rO6 (i : grid2.Coords) : Rect S2048x8x128 := Rect.unit (s := S2048x8x128) (k2_off6 i) S128x1x128.size (k2_off6_inb i)
abbrev rO7 (i : grid2.Coords) : Rect S2048x8x128 := Rect.unit (s := S2048x8x128) (k2_off7 i) S128x1x128.size (k2_off7_inb i)
abbrev rO8 (i : grid2.Coords) : Rect S2048x8x128 := Rect.unit (s := S2048x8x128) (k2_off8 i) S128x1x128.size (k2_off8_inb i)
abbrev rO9 (i : grid2.Coords) : Rect S2048x8x128 := Rect.unit (s := S2048x8x128) (k2_off9 i) S128x1x128.size (k2_off9_inb i)
abbrev rO10 (i : grid2.Coords) : Rect S2048x8x128 := Rect.unit (s := S2048x8x128) (k2_off10 i) S128x1x128.size (k2_off10_inb i)
abbrev rO11 (i : grid2.Coords) : Rect S2048x8x128 := Rect.unit (s := S2048x8x128) (k2_off11 i) S128x1x128.size (k2_off11_inb i)
abbrev rO12 (i : grid2.Coords) : Rect S2048x8x128 := Rect.unit (s := S2048x8x128) (k2_off12 i) S128x1x128.size (k2_off12_inb i)
abbrev rO13 (i : grid2.Coords) : Rect S2048x8x128 := Rect.unit (s := S2048x8x128) (k2_off13 i) S128x1x128.size (k2_off13_inb i)
abbrev rO14 (i : grid2.Coords) : Rect S2048x8x128 := Rect.unit (s := S2048x8x128) (k2_off14 i) S128x1x128.size (k2_off14_inb i)
abbrev rO15 (i : grid2.Coords) : Rect S2048x8x128 := Rect.unit (s := S2048x8x128) (k2_off15 i) S128x1x128.size (k2_off15_inb i)
abbrev rO16 (i : grid2.Coords) : Rect S2048x8x128 := Rect.unit (s := S2048x8x128) (k2_off16 i) S128x1x128.size (k2_off16_inb i)

/-- The scaled queries, the keys and the values as the body holds them (each a function of its block alone). -/
def attnQ (x0 : Vec F S1x2048x128 .f32) : FVec F S2048x128 .bf16 := k2_pay2 (View.ld x0 rIn)
def attnK (x1 : Vec F S1x2048x128 .bf16) : FVec F S2048x128 .bf16 := k2_pay3 (View.ld x1 rIn)
def attnV (x2 : Vec F S1x2048x128 .bf16) : FVec F S2048x128 .bf16 := k2_pay4 (View.ld x2 rIn)

/-- Chunk j's tile: the quotient of the exponentials' product with the values by the row sums less one, for query
    rows 128 j … 128 j + 127, as a [128, 1, 128] block. -/
def attnPay (x0 : Vec F S1x2048x128 .f32) (x1 x2 : Vec F S1x2048x128 .bf16) : Fin 16 → FVec F S128x1x128 .f32
  | ⟨0, _⟩ => k2_pay5 (View.ld x0 rIn) (View.ld x1 rIn) (View.ld x2 rIn)
  | ⟨1, _⟩ => k2_pay7 (k2_pay6 (View.ld x0 rIn) (View.ld x1 rIn) (View.ld x2 rIn))
  | ⟨2, _⟩ => k2_pay8 (attnQ x0) (attnK x1) (attnV x2)
  | ⟨3, _⟩ => k2_pay9 (attnQ x0) (attnK x1) (attnV x2)
  | ⟨4, _⟩ => k2_pay13 (attnV x2) (k2_pay11 (attnQ x0) (attnK x1)) (k2_pay12 (attnQ x0) (attnK x1))
  | ⟨5, _⟩ => k2_pay14 (attnQ x0) (attnK x1) (attnV x2)
  | ⟨6, _⟩ => k2_pay15 (attnQ x0) (attnK x1) (attnV x2)
  | ⟨7, _⟩ => k2_pay17 (attnV x2) (k2_pay16 (attnQ x0) (attnK x1))
  | ⟨8, _⟩ => k2_pay18 (attnQ x0) (attnK x1) (attnV x2)
  | ⟨9, _⟩ => k2_pay19 (attnQ x0) (attnK x1) (attnV x2)
  | ⟨10, _⟩ => k2_pay20 (attnQ x0) (attnK x1) (attnV x2)
  | ⟨11, _⟩ => k2_pay21 (attnQ x0) (attnK x1) (attnV x2)
  | ⟨12, _⟩ => k2_pay23 (k2_pay22 (attnQ x0) (attnK x1) (attnV x2))
  | ⟨13, _⟩ => k2_pay24 (attnQ x0) (attnK x1) (attnV x2)
  | ⟨14, _⟩ => k2_pay25 (attnQ x0) (attnK x1) (attnV x2)
  | ⟨15, _⟩ => k2_pay1 (attnV x2) (k2_pay26 (attnQ x0) (attnK x1)) (k2_pay27 (attnQ x0) (attnK x1)) (k2_pay28 (F := F))
  | ⟨n + 16, h⟩ => absurd h (Nat.not_lt.2 (Nat.le_add_left 16 n))

/-- The sixteen stores as pieces, the last store first. -/
def attnPieces (i : grid2.Coords) (x0 : Vec F S1x2048x128 .f32) (x1 x2 : Vec F S1x2048x128 .bf16) :
    List (View.Piece (Elt F) S2048x8x128 .f32) :=
  [⟨rO16 i, attnPay x0 x1 x2 15⟩, ⟨rO15 i, attnPay x0 x1 x2 14⟩, ⟨rO14 i, attnPay x0 x1 x2 13⟩,
    ⟨rO13 i, attnPay x0 x1 x2 12⟩, ⟨rO12 i, attnPay x0 x1 x2 11⟩, ⟨rO11 i, attnPay x0 x1 x2 10⟩,
    ⟨rO10 i, attnPay x0 x1 x2 9⟩, ⟨rO9 i, attnPay x0 x1 x2 8⟩, ⟨rO8 i, attnPay x0 x1 x2 7⟩,
    ⟨rO7 i, attnPay x0 x1 x2 6⟩, ⟨rO6 i, attnPay x0 x1 x2 5⟩, ⟨rO5 i, attnPay x0 x1 x2 4⟩,
    ⟨rO4 i, attnPay x0 x1 x2 3⟩, ⟨rO3 i, attnPay x0 x1 x2 2⟩, ⟨rO2 i, attnPay x0 x1 x2 1⟩,
    ⟨rO1 i, attnPay x0 x1 x2 0⟩]

/-- What the output's staging buffer holds after the body at point i: its old contents d with the sixteen tiles laid
    over the point's head column. -/
def attnOut (i : grid2.Coords) (x0 : Vec F S1x2048x128 .f32) (x1 x2 : Vec F S1x2048x128 .bf16)
    (d : Vec F S2048x8x128 .f32) : Vec F S2048x8x128 .f32 :=
  overlays d (attnPieces i x0 x1 x2)

/-! ## The body's triple -/

set_option maxHeartbeats 1000000 in
/-- The body on whole staging memrefs, the three inputs' at contents x0, x1, x2 and the output's at d, runs to the
    continuation holding the inputs' as they were and the output's at attnOut: the three whole loads read x0, x1, x2,
    each of the sixteen stores writes its chunk's tile through its rectangle over what the buffer held, and the
    sixteen writes read back as the tiles laid over d. -/
theorem sound_attn (c : Dev nD) (E : Set ℕ) (i : grid2.Coords)
    (arg2 : Memref sig .tc .vmem S1x2048x128 .f32) (harg2 : arg2.IsWhole)
    (arg3 : Memref sig .tc .vmem S1x2048x128 .bf16) (harg3 : arg3.IsWhole)
    (arg4 : Memref sig .tc .vmem S1x2048x128 .bf16) (harg4 : arg4.IsWhole)
    (arg5 : Memref sig .tc .vmem S2048x8x128 .f32) (harg5 : arg5.IsWhole)
    (x0 : Vec F S1x2048x128 .f32) (x1 : Vec F S1x2048x128 .bf16) (x2 : Vec F S1x2048x128 .bf16)
    (d : Vec F S2048x8x128 .f32) (Kc : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare d
        ∗ (iprop(owns (c : Thread nD τ) arg2 fullShare x0 ∗ owns (c : Thread nD τ) arg3 fullShare x1
            ∗ owns (c : Thread nD τ) arg4 fullShare x2
            ∗ owns (c : Thread nD τ) arg5 fullShare (attnOut i x0 x1 x2 d)) -∗ Kc ⟨⟩))
      ⊢ wp frame (wpE (defs₀ (F := F)) Variants.none c none) E
          (cc2__attn_kernel i arg2 harg2 arg3 harg3 arg4 harg4 arg5 harg5) Kc := by
  simp only [cc2__attn_kernel_eq_skeleton]; unfold cc2__attn_kernel_skel
  unfold owns
  iintro ⟨⟨%f0, %hf0, H0⟩, ⟨%f1, %hf1, H1⟩, ⟨%f2, %hf2, H2⟩, ⟨%f3, %hf3, H3⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact read_writes_eq_overlays _ _ _

/-! ## Reading what the body leaves -/

open Idealize.ShloMosaic.ValueIdx in
/-- The tile entry an index of the staging buffer reads when it lies in the point's head column: chunk (row / 128)'s
    tile at (row % 128, 0, lane). -/
def attnTileAt (x0 : Vec F S1x2048x128 .f32) (x1 x2 : Vec F S1x2048x128 .bf16) (y : S2048x8x128.Idx) : F .f32 :=
  attnPay x0 x1 x2 ⟨(y 0).val / 128, Nat.div_lt_of_lt_mul (y 0).isLt⟩
    (ix3 (⟨(y 0).val % 128, Nat.mod_lt _ (by decide)⟩ : Fin 128) (0 : Fin 1) (⟨(y 2).val, (y 2).isLt⟩ : Fin 128))

/-- A unit-stride [128, 1, 128] rectangle of the staging buffer holds only indices whose head is its offset's. -/
theorem head_of_mem_unit {off : Fin 3 → Nat} (inb) {y : S2048x8x128.Idx}
    (hm : y ∈ (Rect.unit (s := S2048x8x128) off S128x1x128.size inb).set) : (y 1).val = off 1 := by
  have h := (Rect.mem_set_unit.mp hm) 1
  have h1 : S128x1x128.size 1 = 1 := rfl
  omega

/-- The rectangle at rows 128 j, head h holds every index of head h whose row's quotient by 128 is j. -/
theorem mem_unit_chunk {off : Fin 3 → Nat} (inb) {y : S2048x8x128.Idx} (j : Fin 16) (h : Nat)
    (hoff : off = ![128 * j.val, h, 0]) (hj : (y 0).val / 128 = j.val) (hh : (y 1).val = h) :
    y ∈ (Rect.unit (s := S2048x8x128) off S128x1x128.size inb).set := by
  subst hoff
  rw [Rect.mem_set_unit]
  intro a
  have h2 : (y 2).val < 128 := (y 2).isLt
  match a with
  | ⟨0, _⟩ =>
    show 128 * j.val ≤ (y 0).val ∧ (y 0).val < 128 * j.val + 128
    omega
  | ⟨1, _⟩ =>
    show h ≤ (y 1).val ∧ (y 1).val < h + 1
    omega
  | ⟨2, _⟩ =>
    show 0 ≤ (y 2).val ∧ (y 2).val < 0 + 128
    omega

/-- A tile stored at rows 128 j reads, at the rectangle's own index x, the tile entry of the index it lands on. -/
theorem attnTileAt_emb (x0 : Vec F S1x2048x128 .f32) (x1 x2 : Vec F S1x2048x128 .bf16) (j : Fin 16) (h : Nat)
    {off : Fin 3 → Nat} (hoff : off = ![128 * j.val, h, 0]) (inb)
    (x : (Rect.unit (s := S2048x8x128) off S128x1x128.size inb).shape.Idx) :
    attnTileAt x0 x1 x2 ((Rect.unit (s := S2048x8x128) off S128x1x128.size inb).emb x) = attnPay x0 x1 x2 j x := by
  subst hoff
  have hx0 : (x 0).val < 128 := (x 0).isLt
  have hx1 : (x 1).val < 1 := (x 1).isLt
  unfold attnTileAt
  have e0 : (((Rect.unit (s := S2048x8x128) ![128 * j.val, h, 0] S128x1x128.size inb).emb x) 0).val
      = 128 * j.val + 1 * (x 0).val := rfl
  have e2 : (((Rect.unit (s := S2048x8x128) ![128 * j.val, h, 0] S128x1x128.size inb).emb x) 2).val
      = 0 + 1 * (x 2).val := rfl
  congr 1
  · exact Fin.ext (by show _ / 128 = j.val; rw [e0]; omega)
  · funext a
    match a with
    | ⟨0, _⟩ => exact Fin.ext (by show _ % 128 = (x 0).val; rw [e0]; omega)
    | ⟨1, _⟩ => exact Fin.ext (by show 0 = (x 1).val; omega)
    | ⟨2, _⟩ => exact Fin.ext (by show _ = (x 2).val; rw [e2]; omega)

/-- Every stored tile is attnTileAt read at the rectangle's own indices. -/
theorem attnPieces_agree (i : grid2.Coords) (x0 : Vec F S1x2048x128 .f32) (x1 x2 : Vec F S1x2048x128 .bf16) :
    ∀ p ∈ attnPieces i x0 x1 x2, ∀ x : p.1.shape.Idx, p.2 x = attnTileAt x0 x1 x2 (p.1.emb x) := by
  intro p hp
  simp only [attnPieces, List.mem_cons, List.not_mem_nil, or_false] at hp
  rcases hp with rfl | rfl | rfl | rfl | rfl | rfl | rfl | rfl | rfl | rfl | rfl | rfl | rfl | rfl | rfl | rfl
  · exact fun x => (attnTileAt_emb x0 x1 x2 15 (i 1).val (k2_off16_eq i) (k2_off16_inb i) x).symm
  · exact fun x => (attnTileAt_emb x0 x1 x2 14 (i 1).val (k2_off15_eq i) (k2_off15_inb i) x).symm
  · exact fun x => (attnTileAt_emb x0 x1 x2 13 (i 1).val (k2_off14_eq i) (k2_off14_inb i) x).symm
  · exact fun x => (attnTileAt_emb x0 x1 x2 12 (i 1).val (k2_off13_eq i) (k2_off13_inb i) x).symm
  · exact fun x => (attnTileAt_emb x0 x1 x2 11 (i 1).val (k2_off12_eq i) (k2_off12_inb i) x).symm
  · exact fun x => (attnTileAt_emb x0 x1 x2 10 (i 1).val (k2_off11_eq i) (k2_off11_inb i) x).symm
  · exact fun x => (attnTileAt_emb x0 x1 x2 9 (i 1).val (k2_off10_eq i) (k2_off10_inb i) x).symm
  · exact fun x => (attnTileAt_emb x0 x1 x2 8 (i 1).val (k2_off9_eq i) (k2_off9_inb i) x).symm
  · exact fun x => (attnTileAt_emb x0 x1 x2 7 (i 1).val (k2_off8_eq i) (k2_off8_inb i) x).symm
  · exact fun x => (attnTileAt_emb x0 x1 x2 6 (i 1).val (k2_off7_eq i) (k2_off7_inb i) x).symm
  · exact fun x => (attnTileAt_emb x0 x1 x2 5 (i 1).val (k2_off6_eq i) (k2_off6_inb i) x).symm
  · exact fun x => (attnTileAt_emb x0 x1 x2 4 (i 1).val (k2_off5_eq i) (k2_off5_inb i) x).symm
  · exact fun x => (attnTileAt_emb x0 x1 x2 3 (i 1).val (k2_off4_eq i) (k2_off4_inb i) x).symm
  · exact fun x => (attnTileAt_emb x0 x1 x2 2 (i 1).val (k2_off3_eq i) (k2_off3_inb i) x).symm
  · exact fun x => (attnTileAt_emb x0 x1 x2 1 (i 1).val (k2_off2_eq i) (k2_off2_inb i) x).symm
  · exact fun x => (attnTileAt_emb x0 x1 x2 0 (i 1).val (k2_off1_eq i) (k2_off1_inb i) x).symm

/-- Every piece lies in the point's head column. -/
theorem head_of_mem_attnPieces (i : grid2.Coords) (x0 : Vec F S1x2048x128 .f32) (x1 x2 : Vec F S1x2048x128 .bf16)
    (y : S2048x8x128.Idx) : ∀ p ∈ attnPieces i x0 x1 x2, y ∈ p.1.set → (y 1).val = (i 1).val := by
  intro p hp
  simp only [attnPieces, List.mem_cons, List.not_mem_nil, or_false] at hp
  rcases hp with rfl | rfl | rfl | rfl | rfl | rfl | rfl | rfl | rfl | rfl | rfl | rfl | rfl | rfl | rfl | rfl
  · exact fun hm => (head_of_mem_unit (k2_off16_inb i) hm).trans (by rw [k2_off16_eq]; rfl)
  · exact fun hm => (head_of_mem_unit (k2_off15_inb i) hm).trans (by rw [k2_off15_eq]; rfl)
  · exact fun hm => (head_of_mem_unit (k2_off14_inb i) hm).trans (by rw [k2_off14_eq]; rfl)
  · exact fun hm => (head_of_mem_unit (k2_off13_inb i) hm).trans (by rw [k2_off13_eq]; rfl)
  · exact fun hm => (head_of_mem_unit (k2_off12_inb i) hm).trans (by rw [k2_off12_eq]; rfl)
  · exact fun hm => (head_of_mem_unit (k2_off11_inb i) hm).trans (by rw [k2_off11_eq]; rfl)
  · exact fun hm => (head_of_mem_unit (k2_off10_inb i) hm).trans (by rw [k2_off10_eq]; rfl)
  · exact fun hm => (head_of_mem_unit (k2_off9_inb i) hm).trans (by rw [k2_off9_eq]; rfl)
  · exact fun hm => (head_of_mem_unit (k2_off8_inb i) hm).trans (by rw [k2_off8_eq]; rfl)
  · exact fun hm => (head_of_mem_unit (k2_off7_inb i) hm).trans (by rw [k2_off7_eq]; rfl)
  · exact fun hm => (head_of_mem_unit (k2_off6_inb i) hm).trans (by rw [k2_off6_eq]; rfl)
  · exact fun hm => (head_of_mem_unit (k2_off5_inb i) hm).trans (by rw [k2_off5_eq]; rfl)
  · exact fun hm => (head_of_mem_unit (k2_off4_inb i) hm).trans (by rw [k2_off4_eq]; rfl)
  · exact fun hm => (head_of_mem_unit (k2_off3_inb i) hm).trans (by rw [k2_off3_eq]; rfl)
  · exact fun hm => (head_of_mem_unit (k2_off2_inb i) hm).trans (by rw [k2_off2_eq]; rfl)
  · exact fun hm => (head_of_mem_unit (k2_off1_inb i) hm).trans (by rw [k2_off1_eq]; rfl)

/-- An index of the point's head column lies in the piece of its row's chunk. -/
theorem exists_mem_attnPieces (i : grid2.Coords) (x0 : Vec F S1x2048x128 .f32) (x1 x2 : Vec F S1x2048x128 .bf16)
    (y : S2048x8x128.Idx) (hy : (y 1).val = (i 1).val) : ∃ p ∈ attnPieces i x0 x1 x2, y ∈ p.1.set := by
  have hlt : (y 0).val / 128 < 16 := Nat.div_lt_of_lt_mul (y 0).isLt
  obtain ⟨j, hj⟩ : ∃ j : Fin 16, (y 0).val / 128 = j.val := ⟨⟨_, hlt⟩, rfl⟩
  have mem : ∀ (p : View.Piece (Elt F) S2048x8x128 .f32), p ∈ attnPieces i x0 x1 x2 → y ∈ p.1.set →
      ∃ p ∈ attnPieces i x0 x1 x2, y ∈ p.1.set := fun p hp hm => ⟨p, hp, hm⟩
  match j, hj with
  | ⟨0, _⟩, hj => exact mem ⟨rO1 i, attnPay x0 x1 x2 0⟩ (by simp [attnPieces]) (mem_unit_chunk (k2_off1_inb i) 0 _ (k2_off1_eq i) hj hy)
  | ⟨1, _⟩, hj => exact mem ⟨rO2 i, attnPay x0 x1 x2 1⟩ (by simp [attnPieces]) (mem_unit_chunk (k2_off2_inb i) 1 _ (k2_off2_eq i) hj hy)
  | ⟨2, _⟩, hj => exact mem ⟨rO3 i, attnPay x0 x1 x2 2⟩ (by simp [attnPieces]) (mem_unit_chunk (k2_off3_inb i) 2 _ (k2_off3_eq i) hj hy)
  | ⟨3, _⟩, hj => exact mem ⟨rO4 i, attnPay x0 x1 x2 3⟩ (by simp [attnPieces]) (mem_unit_chunk (k2_off4_inb i) 3 _ (k2_off4_eq i) hj hy)
  | ⟨4, _⟩, hj => exact mem ⟨rO5 i, attnPay x0 x1 x2 4⟩ (by simp [attnPieces]) (mem_unit_chunk (k2_off5_inb i) 4 _ (k2_off5_eq i) hj hy)
  | ⟨5, _⟩, hj => exact mem ⟨rO6 i, attnPay x0 x1 x2 5⟩ (by simp [attnPieces]) (mem_unit_chunk (k2_off6_inb i) 5 _ (k2_off6_eq i) hj hy)
  | ⟨6, _⟩, hj => exact mem ⟨rO7 i, attnPay x0 x1 x2 6⟩ (by simp [attnPieces]) (mem_unit_chunk (k2_off7_inb i) 6 _ (k2_off7_eq i) hj hy)
  | ⟨7, _⟩, hj => exact mem ⟨rO8 i, attnPay x0 x1 x2 7⟩ (by simp [attnPieces]) (mem_unit_chunk (k2_off8_inb i) 7 _ (k2_off8_eq i) hj hy)
  | ⟨8, _⟩, hj => exact mem ⟨rO9 i, attnPay x0 x1 x2 8⟩ (by simp [attnPieces]) (mem_unit_chunk (k2_off9_inb i) 8 _ (k2_off9_eq i) hj hy)
  | ⟨9, _⟩, hj => exact mem ⟨rO10 i, attnPay x0 x1 x2 9⟩ (by simp [attnPieces]) (mem_unit_chunk (k2_off10_inb i) 9 _ (k2_off10_eq i) hj hy)
  | ⟨10, _⟩, hj => exact mem ⟨rO11 i, attnPay x0 x1 x2 10⟩ (by simp [attnPieces]) (mem_unit_chunk (k2_off11_inb i) 10 _ (k2_off11_eq i) hj hy)
  | ⟨11, _⟩, hj => exact mem ⟨rO12 i, attnPay x0 x1 x2 11⟩ (by simp [attnPieces]) (mem_unit_chunk (k2_off12_inb i) 11 _ (k2_off12_eq i) hj hy)
  | ⟨12, _⟩, hj => exact mem ⟨rO13 i, attnPay x0 x1 x2 12⟩ (by simp [attnPieces]) (mem_unit_chunk (k2_off13_inb i) 12 _ (k2_off13_eq i) hj hy)
  | ⟨13, _⟩, hj => exact mem ⟨rO14 i, attnPay x0 x1 x2 13⟩ (by simp [attnPieces]) (mem_unit_chunk (k2_off14_inb i) 13 _ (k2_off14_eq i) hj hy)
  | ⟨14, _⟩, hj => exact mem ⟨rO15 i, attnPay x0 x1 x2 14⟩ (by simp [attnPieces]) (mem_unit_chunk (k2_off15_inb i) 14 _ (k2_off15_eq i) hj hy)
  | ⟨15, _⟩, hj => exact mem ⟨rO16 i, attnPay x0 x1 x2 15⟩ (by simp [attnPieces]) (mem_unit_chunk (k2_off16_inb i) 15 _ (k2_off16_eq i) hj hy)
  | ⟨n + 16, h⟩, _ => exact absurd h (Nat.not_lt.2 (Nat.le_add_left 16 n))

/-- At an index whose head is not the point's, the buffer holds what it held. -/
theorem attnOut_of_head_ne (i : grid2.Coords) (x0 : Vec F S1x2048x128 .f32) (x1 x2 : Vec F S1x2048x128 .bf16)
    (d : Vec F S2048x8x128 .f32) (y : S2048x8x128.Idx) (hy : (y 1).val ≠ (i 1).val) :
    attnOut i x0 x1 x2 d y = d y :=
  overlays_of_forall_not_mem d y _ fun p hp hm => hy (head_of_mem_attnPieces i x0 x1 x2 y p hp hm)

/-- At an index of the point's head it holds the row's chunk's tile at the row's remainder and the lane. -/
theorem attnOut_of_head_eq (i : grid2.Coords) (x0 : Vec F S1x2048x128 .f32) (x1 x2 : Vec F S1x2048x128 .bf16)
    (d : Vec F S2048x8x128 .f32) (y : S2048x8x128.Idx) (hy : (y 1).val = (i 1).val) :
    attnOut i x0 x1 x2 d y = attnTileAt x0 x1 x2 y :=
  overlays_of_pieces d (attnTileAt x0 x1 x2) _ (attnPieces_agree i x0 x1 x2) y (exists_mem_attnPieces i x0 x1 x2 y hy)

end Cert.Proof.KB

end
-- ==== Proof.Region1B.lean ====
/-
  The second pipeline as the launch sees it: per core, what the pipeline's arrays hold when it is entered, how the
  body changes each window's staging buffer at each of the sixteen points, and the body's obligation at every point.

  The grid is two halves of eight heads. The three input windows stage one head's 2048 rows of the reordered queries,
  of the pooled keys and of the pooled values; each is fetched at every point. The output window stages, per half,
  all 2048 rows of the half's eight heads; the body at a point writes the point's head column into it and leaves the
  other seven columns as it found them, and the buffer is written back only at the last head of a half. At the first
  head of a half the buffer holds contents nothing states, so what the body leaves there is given as a relation
  between the contents it was handed and the contents it leaves: the handed contents with the head column laid over.
-/
import proofs.«208975_g36283883717458_cont_8to1_b_1954_30_alg».proof.Proof.LaunchDefsB
import proofs.«208975_g36283883717458_cont_8to1_b_1954_30_alg».proof.Proof.AttnBodyB
import proofs.«208975_g36283883717458_cont_8to1_b_1954_30_alg».proof.Proof.Gen.Kernel.Launch
import proofs.«208975_g36283883717458_cont_8to1_b_1954_30_alg».proof.Proof.Gen.Kernel.Points
import Idealize.ShloMosaic.Lib.Pipeline.Regions
import Idealize.ShloMosaic.Lib.Pipeline.Frame
import Idealize.ShloMosaic.Lib.Pipeline.FrameBody

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [∀ e, Nonempty (Elt F e)]

local notation "𝕄" => MT nD τ sig (HIx 1) (Elt F) ℕ UU ℕ

variable (W : Dev nD → Valuation τ sig (Elt F))

/-! ## The arrays as the pipeline finds them, and the windows' blocks -/

/-- Core `d`'s TensorCore buffers when the pipeline is entered. -/
abbrev WR (d : Dev nD) (b : Ref sig .tc) : Buf (Elt F) ((d : Thread nD τ).loc b) := W d b

/-- Window `w`'s block at point `t`, read off its array as the pipeline finds it. -/
def iblk1 (d : Dev nD) (w : Fin cfg2.W) (t : Fin cfg2.N) : ((cfg2.win w).xblock (cfg2.grid.coords t)).Idx → Elt F (cfg2.win w).elt :=
  ((cfg2.win w).blk t).view.read (Elt F) (WR W d (Pipeline.arrRef spec2 w))

/-- The invariant between points: the core's scoped buffers that are no staging buffer of this pipeline, each at some
    contents. The body touches none of them. -/
def Φ1 (d : Dev nD) : sProp 𝕄 :=
  Pipeline.scopedRest (Ix := HIx 1) (Name := ℕ) (U := UU) (Lvl := ℕ) (Val := Elt F) spec2 d

/-- The proof data of the second pipeline on core `d`: the arrays as the pipeline finds them; the body at point `t`
    leaves each input's buffer as it found it and the output's buffer at what it found with the point's head column,
    computed from the three input blocks, laid over; the invariant `Φ1`; full shares; what the core owes the launch
    handshakes after the one SparseCore call, at every point; its recorded waits at or below that call's band. -/
def rdat1 (d : Dev nD) : RDat τ (Elt F) (HIx 1) ℕ UU ℕ cfg2 d where
  A w := WR W d (Pipeline.arrRef spec2 w)
  after w t Y X := match w with
    | ⟨0, _⟩ => X = Y
    | ⟨1, _⟩ => X = Y
    | ⟨2, _⟩ => X = Y
    | ⟨3, _⟩ => X = attnOut (grid2.coords t) (iblk1 W d 0 t) (iblk1 W d 1 t) (iblk1 W d 2 t) Y
  Φ _ := Φ1 d
  q _ := fullShare
  owed _ := (K (F := F)).Otc d 1
  recorded _ := {p | (K (F := F)).lev (T d, p.1) p.2 ≤ 8}

theorem A1_eq (d : Dev nD) (w : Fin cfg2.W) : (rdat1 W d).A w = WR W d (Pipeline.arrRef spec2 w) := by
  dsimp only [rdat1]

theorem after1_0 (d : Dev nD) (t : Fin cfg2.N) (Y X) : (rdat1 W d).after 0 t Y X = (X = Y) := by dsimp only [rdat1]
theorem after1_1 (d : Dev nD) (t : Fin cfg2.N) (Y X) : (rdat1 W d).after 1 t Y X = (X = Y) := by dsimp only [rdat1]
theorem after1_2 (d : Dev nD) (t : Fin cfg2.N) (Y X) : (rdat1 W d).after 2 t Y X = (X = Y) := by dsimp only [rdat1]
theorem after1_3 (d : Dev nD) (t : Fin cfg2.N) (Y X) :
    (rdat1 W d).after 3 t Y X = (X = attnOut (grid2.coords t) (iblk1 W d 0 t) (iblk1 W d 1 t) (iblk1 W d 2 t) Y) := by dsimp only [rdat1]

/-- An input's current staging buffer holds its block at every point: it is fetched at every point, and the fetch
    fills the whole buffer. -/
theorem finds1_0 (d : Dev nD) (t : Fin cfg2.N) {Y} (h : (rdat1 W d).Finds 0 t Y) : Y = iblk1 W d 0 t := by
  obtain ⟨x, e⟩ := ((rdat1 W d).finds_of_fetch (fetch2_0 t) Y).mp h
  rw [e]; unfold RDat.fetched RDat.blockOf iblk1; rw [A1_eq]; try rfl
theorem finds1_1 (d : Dev nD) (t : Fin cfg2.N) {Y} (h : (rdat1 W d).Finds 1 t Y) : Y = iblk1 W d 1 t := by
  obtain ⟨x, e⟩ := ((rdat1 W d).finds_of_fetch (fetch2_1 t) Y).mp h
  rw [e]; unfold RDat.fetched RDat.blockOf iblk1; rw [A1_eq]; try rfl
theorem finds1_2 (d : Dev nD) (t : Fin cfg2.N) {Y} (h : (rdat1 W d).Finds 2 t Y) : Y = iblk1 W d 2 t := by
  obtain ⟨x, e⟩ := ((rdat1 W d).finds_of_fetch (fetch2_2 t) Y).mp h
  rw [e]; unfold RDat.fetched RDat.blockOf iblk1; rw [A1_eq]; try rfl

/-! ## The body obligation, at a generic point -/

/-- The body at any point: the inputs' buffers hold their blocks, so the body's triple applies with them; the output's
    buffer comes back at the handed contents with the head column laid over; the invariant and what the core owes
    pass through unread. -/
theorem sound_body1 (d : Dev nD) (t : Fin cfg2.N) (Y : (w : Fin cfg2.W) → (cfg2.win w).block.Idx → Elt F (cfg2.win w).elt)
    (hY : ∀ w, (rdat1 W d).Finds w t (Y w)) :
    iprop((rdat1 W d).Φ t.castSucc ∗ (rdat1 W d).owesAt (none : HIx 1) t.castSucc
        ∗ owns (d : Thread nD τ) (st2_0 t) fullShare (Y 0) ∗ owns (d : Thread nD τ) (st2_1 t) fullShare (Y 1)
        ∗ owns (d : Thread nD τ) (st2_2 t) fullShare (Y 2) ∗ owns (d : Thread nD τ) (st2_3 t) fullShare (Y 3))
      ⊢ wp frame (wpE (defs₀ (F := F)) Variants.none d none) Set.univ (bodyAt2 t) fun _ =>
          iprop((rdat1 W d).Φ t.succ ∗ (rdat1 W d).owesAt (none : HIx 1) t.succ
            ∗ (∃ X, ⌜(rdat1 W d).after 0 t (Y 0) X⌝ ∗ owns (d : Thread nD τ) (st2_0 t) fullShare X)
            ∗ (∃ X, ⌜(rdat1 W d).after 1 t (Y 1) X⌝ ∗ owns (d : Thread nD τ) (st2_1 t) fullShare X)
            ∗ (∃ X, ⌜(rdat1 W d).after 2 t (Y 2) X⌝ ∗ owns (d : Thread nD τ) (st2_2 t) fullShare X)
            ∗ (∃ X, ⌜(rdat1 W d).after 3 t (Y 3) X⌝ ∗ owns (d : Thread nD τ) (st2_3 t) fullShare X)) := by
  have e0 := finds1_0 W d t (hY 0)
  have e1 := finds1_1 W d t (hY 1)
  have e2 := finds1_2 W d t (hY 2)
  unfold bodyAt2
  rw [show (rdat1 W d).Φ t.succ = (rdat1 W d).Φ t.castSucc from rfl,
    show (rdat1 W d).owesAt (none : HIx 1) t.succ = (rdat1 W d).owesAt (none : HIx 1) t.castSucc from rfl]
  simp only [after1_0, after1_1, after1_2, after1_3]
  iintro ⟨HΦ, Ho, H0, H1, H2, H3⟩
  iapply (sound_attn d Set.univ (grid2.coords t) _ _ _ _ _ _ _ _ (Y 0) (Y 1) (Y 2) (Y 3) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  iexists _; isplitr
  · ipureintro; rw [← e0, ← e1, ← e2]
  iexact H3

/-- The body obligation, at every point. -/
theorem body_obligation1 (d : Dev nD) : (rdat1 (F := F) W d).BodyObligation (defs₀ (F := F)) Variants.none (none : HIx 1) Set.univ := fun t Y hY => by
  rw [bigSep_W2, bigSep_W2]
  exact sound_body1 W d t Y hY

/-! ## The region as the launch meets it -/

section Region

variable (r0 : (c : Dev nD) → RDat τ (Elt F) (HIx 1) ℕ UU ℕ cfg0 c)

/-- The two pipelines' proof data, the second's as above. -/
def rdatsOf' : (p : Fin 2) → (c : Dev nD) → RDat τ (Elt F) (HIx 1) ℕ UU ℕ (cfgs p) c
  | ⟨0, _⟩, c => r0 c
  | ⟨1, _⟩, c => rdat1 W c

/-- The pipeline's kernel has no semaphore of its own. -/
abbrev osem1 : Fin 0 → SemLoc sig := fun k => k.elim0
theorem ownSemFacts1 : Pipeline.OwnSemFacts spec2 osem1 := by decide

theorem ownSems0_1 (c : Dev nD) :
    (Pipeline.ownSems0 (Ix := HIx 1) (Name := ℕ) (U := UU) (Lvl := ℕ) (Val := Elt F) (τ := τ) osem1 c : sProp 𝕄) = iprop(emp) := by
  unfold Pipeline.ownSems0; rw [show (Finset.univ : Finset (Fin 0)) = ∅ from rfl, BI.bigSep_empty]; rfl

theorem share1 (c : Dev nD) (w : Fin cfg2.W) : (rdat1 W c).share w = fullShare := by
  unfold RDat.share; split <;> rfl

/-- The buffers the pipeline does not window keep their contents when the output array's change. -/
theorem rest_update (c : Dev nD) (o5 : Buf (Elt F) ((c : Thread nD τ).loc main_v5)) :
    (Pipeline.unscopedRest (Ix := HIx 1) (Name := ℕ) (U := UU) (Lvl := ℕ) spec2 c
        (fun b : Ref sig .tc => (Function.update (W c) (Proc.devRef .tc main_v5) o5) b) : sProp 𝕄)
      = Pipeline.unscopedRest (Ix := HIx 1) (Name := ℕ) (U := UU) (Lvl := ℕ) spec2 c (WR W c) := by
  rw [unscopedRest2_eq, unscopedRest2_eq]
  simp only [WR]
  rw [Function.update_of_ne (by decide), Function.update_of_ne (by decide), Function.update_of_ne (by decide),
    Function.update_of_ne (by decide), Function.update_of_ne (by decide), Function.update_of_ne (by decide),
    Function.update_of_ne (by decide)]

end Region

section Region1

variable (r0 : (c : Dev nD) → RDat τ (Elt F) (HIx 1) ℕ UU ℕ cfg0 c)

/-- The pipeline's four arrays, the output's at `o5` and the inputs' as the pipeline found them, are the arrays of the
    buffers held at the valuation changed at the output array. -/
theorem arrs_update (c : Dev nD) (o5 : Buf (Elt F) ((c : Thread nD τ).loc main_v5)) :
    (bigSep Finset.univ fun w : Fin cfg2.W =>
        ((((c : Thread nD τ).loc (Pipeline.arrRef spec2 w)) ↦{fullShare}
          (fun b : Ref sig .tc => (Function.update (W c) (Proc.devRef .tc main_v5) o5) b) (Pipeline.arrRef spec2 w)) : sProp 𝕄))
      = iprop((((c : Thread nD τ).loc (Pipeline.arrRef spec2 0)) ↦{fullShare} WR W c (Pipeline.arrRef spec2 0))
          ∗ (((c : Thread nD τ).loc (Pipeline.arrRef spec2 1)) ↦{fullShare} WR W c (Pipeline.arrRef spec2 1))
          ∗ (((c : Thread nD τ).loc (Pipeline.arrRef spec2 2)) ↦{fullShare} WR W c (Pipeline.arrRef spec2 2))
          ∗ (((c : Thread nD τ).loc (Pipeline.arrRef spec2 3)) ↦{fullShare} o5)) := by
  rw [bigSep_W2]
  simp only [WR]
  rw [Function.update_of_ne (by decide), Function.update_of_ne (by decide), Function.update_of_ne (by decide)]
  congr 3

/-- The unscoped buffers held at the valuation changed at the output array: the pipeline's four arrays, the output's
    at the new contents, and the buffers the pipeline does not window. -/
theorem held_update (c : Dev nD) (o5 : Buf (Elt F) ((c : Thread nD τ).loc main_v5)) :
    (StableHlo.held (SparseCore.T c) uc (Function.update (W c) (Proc.devRef .tc main_v5) o5) : sProp 𝕄)
      = iprop(((((c : Thread nD τ).loc (Pipeline.arrRef spec2 0)) ↦{fullShare} WR W c (Pipeline.arrRef spec2 0))
          ∗ (((c : Thread nD τ).loc (Pipeline.arrRef spec2 1)) ↦{fullShare} WR W c (Pipeline.arrRef spec2 1))
          ∗ (((c : Thread nD τ).loc (Pipeline.arrRef spec2 2)) ↦{fullShare} WR W c (Pipeline.arrRef spec2 2))
          ∗ (((c : Thread nD τ).loc (Pipeline.arrRef spec2 3)) ↦{fullShare} o5))
        ∗ Pipeline.unscopedRest (Ix := HIx 1) (Name := ℕ) (U := UU) (Lvl := ℕ) spec2 c (WR W c)) := by
  rw [← Pipeline.unscopedBufs_held, Pipeline.unscopedBufs_split cfgs 1 launch2.win.arr_unscoped launch2.win.arr_inj c]
  show iprop((bigSep Finset.univ fun w : Fin cfg2.W =>
        ((((c : Thread nD τ).loc (Pipeline.arrRef spec2 w)) ↦{fullShare}
          (fun b : Ref sig .tc => (Function.update (W c) (Proc.devRef .tc main_v5) o5) b) (Pipeline.arrRef spec2 w)) : sProp 𝕄))
      ∗ Pipeline.unscopedRest (Ix := HIx 1) (Name := ℕ) (U := UU) (Lvl := ℕ) spec2 c
        (fun b : Ref sig .tc => (Function.update (W c) (Proc.devRef .tc main_v5) o5) b)) = _
  rw [rest_update, arrs_update]

set_option backward.isDefEq.respectTransparency.types false in
/-- THE REGION: the launch's layout facts, no semaphore of the kernel's own, the body obligation; entered from the
    TensorCore's unscoped buffers at `W` and what it owes after the SparseCore call (nothing), left with the output
    array at some contents the write-backs allow and every other buffer untouched. -/
def region1 : Pipeline.RDat.RegionSeg (pcfgs (F := F)) adm (rdatsOf' W r0) (none : HIx 1) defs₀ 𝒱₀ (K (F := F)).L (K (F := F)).lev 1 where
  win := launch2.win.to₀
  block_pos := launch2.block_pos
  stage_whole := launch2.stage_whole
  K := Fin 0
  osem := osem1
  ho := ownSemFacts1
  hbody c := body_obligation1 W c
  hwaits := Pipeline.RDat.hwaits_of_owed_zero _ _ _ _ (K (F := F)).L (K (F := F)).lev 1 fun c t => (K (F := F)).Otc_end c (le_refl 1)
  pre c := iprop(StableHlo.held (SparseCore.T c) uc (W c) ∗ tcOw c 1)
  post c := iprop(∃ o5, StableHlo.held (SparseCore.T c) uc (Function.update (W c) (Proc.devRef .tc main_v5) o5)
    ∗ ⌜(rdat1 W c).ArrAt 3 cfg2.N o5⌝ ∗ tcOw c 1)
  X c := iprop(emp)
  Y c := iprop(emp)
  Z c := Pipeline.unscopedRest (Ix := HIx 1) (Name := ℕ) (U := UU) (Lvl := ℕ) spec2 c (WR W c)
  hentry c := by
    rw [show StableHlo.held (SparseCore.T c) uc (W c) = unscopedBufs c (WR W c) from (Pipeline.unscopedBufs_held c _).symm]
    have hsplit := Pipeline.RDat.arrays_of_unscopedBufs (p := (1 : Fin 2)) (pcfgs (F := F)) adm (rdatsOf' W r0) launch2.win launch2.arr_whole c
      (share1 W c) (WR W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOw
      icases HO with ⟨%Wt, %hW, HO⟩
      iexists Wt; isplitr
      · ipureintro; exact fun p hp => Or.inl (hW p hp)
      iexact HO
    isplitr; · iempintro
    iexact Hrest
  hin c := by
    show iprop(emp ∗ _ ∗ Pipeline.scopedRest spec2 c) ⊢ Φ1 c
    unfold Φ1
    iintro ⟨-, -, Hr⟩; iexact Hr
  hout c := by
    show Φ1 c ⊢ iprop(emp ∗ Pipeline.ownSems0 osem1 c ∗ Pipeline.scopedRest spec2 c)
    rw [ownSems0_1]; unfold Φ1
    iintro Hr
    isplitr; · iempintro
    isplitr; · iempintro
    iexact Hr
  hexit c := by
    show iprop((rdat1 W c).arraysAt cfg2.N ∗ (rdat1 W c).owesAt (none : HIx 1) (Fin.last cfg2.N) ∗ emp
        ∗ Pipeline.unscopedRest (Ix := HIx 1) (Name := ℕ) (U := UU) (Lvl := ℕ) spec2 c (WR W c)) ⊢ _
    unfold RDat.arraysAt
    rw [bigSep_W2]
    simp only [share1, (arr_whole2 0).set_eq_univ, (arr_whole2 1).set_eq_univ, (arr_whole2 2).set_eq_univ, (arr_whole2 3).set_eq_univ]
    iintro ⟨⟨⟨%F0, %h0, H0⟩, ⟨%F1, %h1, H1⟩, ⟨%F2, %h2, H2⟩, ⟨%F3, %h3, H3⟩⟩, HO, -, HZ⟩
    rw [(rdat1 W c).ArrAt_in 0 rfl] at h0
    rw [(rdat1 W c).ArrAt_in 1 rfl] at h1
    rw [(rdat1 W c).ArrAt_in 2 rfl] at h2
    subst h0 h1 h2
    imodintro
    iexists F3
    isplitl [H0 H1 H2 H3 HZ]
    · rw [held_update]
      isplitl [H0 H1 H2 H3]
      · isplitl [H0]; · iexact H0
        isplitl [H1]; · iexact H1
        isplitl [H2]; · iexact H2
        iexact H3
      iexact HZ
    isplitr; · ipureintro; exact h3
    unfold tcOw
    icases HO with ⟨%Wt, %hW, HO⟩
    iexists Wt; isplitr
    · ipureintro
      intro p hp
      rcases hW hp with h | ⟨w, s, rfl⟩
      · exact h
      · show (K (F := F)).lev _ none ≤ _; rw [SparseCore.Cfg.lev_none]; exact Nat.zero_le _
    iexact HO

end Region1

end Cert.Proof.KB

end
-- ==== Proof.WaitsB.lean ====
/-
  The pipelines' own waits sit below the TensorCore's handshake debt.

  During a pipeline's region the TensorCore still owes the SparseCore launch its start signals for the calls to come, each
  at that call's own index. A pipeline's staging semaphores are waited on at the index of a kernel's own waits, where
  nothing of that debt is owed and whose level is the lowest: so those waits are always allowed.
-/
import proofs.«208975_g36283883717458_cont_8to1_b_1954_30_alg».proof.Proof.LaunchDefsB
import proofs.«208975_g36283883717458_cont_8to1_b_1954_30_alg».proof.Proof.Gen.Kernel.Launch
import Idealize.ShloMosaic.Lib.SparseCore.Launch
import Idealize.ShloMosaic.Lib.Pipeline.Regions
import Idealize.ShloMosaic.Lib.Pipeline.Frame
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

variable [∀ e, Nonempty (Elt F e)]

/-- The TensorCore's handshake debt is owed at the calls' own indices only: none of it at the index of a kernel's own waits. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- So a pipeline's own staging waits (index none) sit below everything the TensorCore owes, whatever call it is before. -/
theorem hwaits_of_Otc (rdats : (p : Fin 2) → (c : Dev nD) → RDat τ (Elt F) (HIx 1) ℕ UU ℕ (cfgs p) c) (p : Fin 2) (n : ℕ)
    (howed : ∀ c t, (rdats p c).owed t = (K (F := F)).Otc c n) (c : Dev nD) :
    (levAts (K (F := F)).L (K (F := F)).lev : sProp 𝕄) ⊢ Pipeline.RDat.cellsWaits (Pipeline.pin (pcfgs (F := F)) adm) rdats (none : HIx 1) p c :=
  Pipeline.RDat.cellsWaits_intro (Pipeline.pin (pcfgs (F := F)) adm) rdats (none : HIx 1) p c fun w s t => by
    rw [howed c t]
    exact (K (F := F)).mayWait_none _ (fun g => Otc_none c n g)

end Cert.Proof.KB

end
-- ==== Proof.Region0RecB.lean ====
/-
  The first pipeline as a region of @main: what it is entered from, what it leaves, and how the launch's buffers are
  dealt between the pipeline and the rest.

  The region is entered from the TensorCore's eleven unscoped buffers, at the contents the three reshapes left, beside
  what the core owes the launch handshakes before the SparseCore call. The four arrays the pipeline windows — keys,
  values, pooled keys, pooled values — go into the pipeline; the other seven buffers bypass it. The pipeline's own
  invariant takes nothing but the scoped buffers the boundary adds. The region is left with the two output arrays at
  what the sixteen write-backs left in them, every other buffer as it was, and the same debt: the body signals nothing,
  and its staging waits sit at the index of a kernel's own waits, below every handshake.
-/
import proofs.«208975_g36283883717458_cont_8to1_b_1954_30_alg».proof.Proof.Region0B
import proofs.«208975_g36283883717458_cont_8to1_b_1954_30_alg».proof.Proof.Region1B
import proofs.«208975_g36283883717458_cont_8to1_b_1954_30_alg».proof.Proof.WaitsB

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The returning valuation -/

section Region0

variable (W : Dev nD → Valuation τ sig (Elt F))

/-- Core `d`'s unscoped buffers when the pipeline returns: as it found them, the two output arrays at what the sixteen
    write-backs left. -/
def V2 (d : Dev nD) : Valuation τ sig (Elt F) :=
  Function.update (Function.update (V1 m d) (Proc.devRef (τ := τ) .tc main_v3_0) ((dats0 m d).arrAt 2 cfg0.N))
    (Proc.devRef (τ := τ) .tc main_v3_1) ((dats0 m d).arrAt 3 cfg0.N)

/-- The returning valuation at a buffer that is neither output array is the entering one. -/
theorem V2_of_ne (d : Dev nD) (b : Ref sig .tc) (h0 : b ≠ main_v3_0) (h1 : b ≠ main_v3_1) :
    V2 m d (Proc.devRef (τ := τ) .tc b) = V1 m d (Proc.devRef (τ := τ) .tc b) := by
  unfold V2
  rw [Function.update_of_ne (StableHlo.devRef_ne_of_ne h1), Function.update_of_ne (StableHlo.devRef_ne_of_ne h0)]

theorem V2_v3_0 (d : Dev nD) : V2 m d (Proc.devRef (τ := τ) .tc main_v3_0) = (dats0 m d).arrAt 2 cfg0.N := by
  unfold V2
  rw [Function.update_of_ne (StableHlo.devRef_ne_of_ne (show (main_v3_0 : Ref sig .tc) ≠ main_v3_1 by decide))]
  exact Function.update_self _ _ _

theorem V2_v3_1 (d : Dev nD) : V2 m d (Proc.devRef (τ := τ) .tc main_v3_1) = (dats0 m d).arrAt 3 cfg0.N := by
  unfold V2
  exact Function.update_self _ _ _

/-- The pipeline's kernel has no semaphore of its own. -/
abbrev osem0 : Fin 0 → SemLoc sig := fun k => k.elim0
theorem ownSemFacts0 : Pipeline.OwnSemFacts spec0 osem0 := by decide

theorem ownSems0_0 (c : Dev nD) :
    (Pipeline.ownSems0 (Ix := HIx 1) (Name := ℕ) (U := UU) (Lvl := ℕ) (Val := Elt F) (τ := τ) osem0 c : sProp 𝕄) = iprop(emp) := by
  unfold Pipeline.ownSems0; rw [show (Finset.univ : Finset (Fin 0)) = ∅ from rfl, BI.bigSep_empty]; rfl

theorem share0 (c : Dev nD) (w : Fin cfg0.W) : (dats0 m c).share w = fullShare := by
  unfold Dat.share; split <;> rfl

/-- The buffers the pipeline does not window hold at the returning valuation what they held at the entering one. -/
theorem rest_V2 (c : Dev nD) :
    (Pipeline.unscopedRest (Ix := HIx 1) (Name := ℕ) (U := UU) (Lvl := ℕ) spec0 c (fun b : Ref sig .tc => V2 m c b) : sProp 𝕄)
      = Pipeline.unscopedRest (Ix := HIx 1) (Name := ℕ) (U := UU) (Lvl := ℕ) spec0 c (VR m c) := by
  rw [unscopedRest0_eq, unscopedRest0_eq]
  simp only [VR]
  rw [V2_of_ne m c main_arg0 (by decide) (by decide), V2_of_ne m c main_arg1 (by decide) (by decide),
    V2_of_ne m c main_arg2 (by decide) (by decide), V2_of_ne m c main_v0 (by decide) (by decide),
    V2_of_ne m c main_v4 (by decide) (by decide), V2_of_ne m c main_v5 (by decide) (by decide),
    V2_of_ne m c main_v6 (by decide) (by decide)]

/-- The pipeline's four arrays at the returning valuation: the inputs' as found, the outputs' as the write-backs left. -/
theorem arrs_V2 (c : Dev nD) :
    (bigSep Finset.univ fun w : Fin cfg0.W =>
        ((((c : Thread nD τ).loc (Pipeline.arrRef spec0 w)) ↦{fullShare} (fun b : Ref sig .tc => V2 m c b) (Pipeline.arrRef spec0 w)) : sProp 𝕄))
      = iprop((((c : Thread nD τ).loc (Pipeline.arrRef spec0 0)) ↦{fullShare} VR m c (Pipeline.arrRef spec0 0))
          ∗ (((c : Thread nD τ).loc (Pipeline.arrRef spec0 1)) ↦{fullShare} VR m c (Pipeline.arrRef spec0 1))
          ∗ (((c : Thread nD τ).loc (Pipeline.arrRef spec0 2)) ↦{fullShare} (dats0 m c).arrAt 2 cfg0.N)
          ∗ (((c : Thread nD τ).loc (Pipeline.arrRef spec0 3)) ↦{fullShare} (dats0 m c).arrAt 3 cfg0.N)) := by
  rw [bigSep_W0]
  simp only [VR]
  rw [V2_of_ne m c main_v1 (by decide) (by decide), V2_of_ne m c main_v2 (by decide) (by decide), V2_v3_0, V2_v3_1]

/-- The unscoped buffers held at the returning valuation: the pipeline's four arrays and the buffers it does not window. -/
theorem held_V2 (c : Dev nD) :
    (StableHlo.held (SparseCore.T c) uc (V2 m c) : sProp 𝕄)
      = iprop(((((c : Thread nD τ).loc (Pipeline.arrRef spec0 0)) ↦{fullShare} VR m c (Pipeline.arrRef spec0 0))
          ∗ (((c : Thread nD τ).loc (Pipeline.arrRef spec0 1)) ↦{fullShare} VR m c (Pipeline.arrRef spec0 1))
          ∗ (((c : Thread nD τ).loc (Pipeline.arrRef spec0 2)) ↦{fullShare} (dats0 m c).arrAt 2 cfg0.N)
          ∗ (((c : Thread nD τ).loc (Pipeline.arrRef spec0 3)) ↦{fullShare} (dats0 m c).arrAt 3 cfg0.N))
        ∗ Pipeline.unscopedRest (Ix := HIx 1) (Name := ℕ) (U := UU) (Lvl := ℕ) spec0 c (VR m c)) := by
  rw [← Pipeline.unscopedBufs_held, Pipeline.unscopedBufs_split cfgs 0 launch0.win.arr_unscoped launch0.win.arr_inj c]
  show iprop((bigSep Finset.univ fun w : Fin cfg0.W =>
        ((((c : Thread nD τ).loc (Pipeline.arrRef spec0 w)) ↦{fullShare} (fun b : Ref sig .tc => V2 m c b) (Pipeline.arrRef spec0 w)) : sProp 𝕄))
      ∗ Pipeline.unscopedRest (Ix := HIx 1) (Name := ℕ) (U := UU) (Lvl := ℕ) spec0 c (fun b : Ref sig .tc => V2 m c b)) = _
  rw [rest_V2, arrs_V2]

set_option backward.isDefEq.respectTransparency.types false in
/-- THE REGION: entered from the unscoped buffers at the entering valuation beside what the core owes the launch
    handshakes; the four arrays go into the pipeline, the other seven buffers bypass it, the invariant takes nothing
    but the scoped buffers the boundary adds; left with the buffers at the returning valuation and the same debt. -/
def region0 : Pipeline.RDat.RegionSeg (pcfgs (F := F)) adm (rdatsOf' W (fun c => (dats0 m c).toR)) (none : HIx 1) defs₀ 𝒱₀ (K (F := F)).L (K (F := F)).lev 0 where
  win := launch0.win.to₀
  block_pos := launch0.block_pos
  stage_whole := launch0.stage_whole
  K := Fin 0
  osem := osem0
  ho := ownSemFacts0
  hbody c := (body_obligation0 m c).toR
  hwaits := hwaits_of_Otc (rdatsOf' W _) 0 0 (fun _ _ => rfl)
  pre c := iprop(StableHlo.held (SparseCore.T c) uc (V1 m c) ∗ tcOw c 0)
  post c := iprop(StableHlo.held (SparseCore.T c) uc (V2 m c) ∗ tcOw c 0)
  X c := iprop(emp)
  Y c := iprop(emp)
  Z c := Pipeline.unscopedRest (Ix := HIx 1) (Name := ℕ) (U := UU) (Lvl := ℕ) spec0 c (VR m c)
  hentry c := by
    rw [show StableHlo.held (SparseCore.T c) uc (V1 m c) = unscopedBufs c (VR m c) from (Pipeline.unscopedBufs_held c _).symm]
    have hsplit := Pipeline.RDat.arrays_of_unscopedBufs (p := (0 : Fin 2)) (pcfgs (F := F)) adm (rdatsOf' W (fun c => (dats0 m c).toR)) launch0.win launch0.arr_whole c
      (share0 m c) (VR m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOw
      icases HO with ⟨%Wt, %hW, HO⟩
      iexists Wt; isplitr
      · ipureintro; exact fun p hp => Or.inl (hW p hp)
      iexact HO
    isplitr; · iempintro
    iexact Hrest
  hin c := by
    show iprop(emp ∗ _ ∗ Pipeline.scopedRest spec0 c) ⊢ Φ0 c
    unfold Φ0
    iintro ⟨-, -, Hr⟩; iexact Hr
  hout c := by
    show Φ0 c ⊢ iprop(emp ∗ Pipeline.ownSems0 osem0 c ∗ Pipeline.scopedRest spec0 c)
    rw [ownSems0_0]; unfold Φ0
    iintro Hr
    isplitr; · iempintro
    isplitr; · iempintro
    iexact Hr
  hexit c := by
    show iprop((dats0 m c).toR.arraysAt cfg0.N ∗ (dats0 m c).toR.owesAt (none : HIx 1) (Fin.last cfg0.N) ∗ emp
        ∗ Pipeline.unscopedRest (Ix := HIx 1) (Name := ℕ) (U := UU) (Lvl := ℕ) spec0 c (VR m c)) ⊢ _
    refine (sep_mono ((dats0 m c).toR_arraysAt_post cfg0.N) .rfl).trans ?_
    unfold Dat.arrays
    rw [bigSep_W0]
    simp only [share0, (arr_whole0 0).set_eq_univ, (arr_whole0 1).set_eq_univ, (arr_whole0 2).set_eq_univ, (arr_whole0 3).set_eq_univ]
    rw [(dats0 m c).arrAt_in 0 rfl, (dats0 m c).arrAt_in 1 rfl, A0_eq, A0_eq]
    iintro ⟨⟨H0, H1, H2, H3⟩, HO, -, HZ⟩
    imodintro
    isplitl [H0 H1 H2 H3 HZ]
    · rw [held_V2]
      isplitl [H0 H1 H2 H3]
      · isplitl [H0]; · iexact H0
        isplitl [H1]; · iexact H1
        isplitl [H2]; · iexact H2
        iexact H3
      iexact HZ
    unfold tcOw
    icases HO with ⟨%Wt, %hW, HO⟩
    iexists Wt; isplitr
    · ipureintro
      intro p hp
      rcases hW hp with h | ⟨w, s, rfl⟩
      · exact h
      · show (K (F := F)).lev _ none ≤ _; rw [SparseCore.Cfg.lev_none]
    iexact HO

end Region0

end Cert.Proof.KB

end
-- ==== Proof.FramesB.lean ====
/-
  The program's run, and its frame: every weakly fair execution ends, nothing faults, and q, k and v end as they began.

  The launch (Launch.lean) is applied to the kernels' pieces: the vector subcores' reorder of the queries, the
  tree-building pipeline's record and the attention pipeline's record, each entered from and left at the TensorCore's
  thread states. No item of @main writes an argument: the reshapes write their results, the first pipeline the pooled
  keys and values, the SparseCore call the reordered queries, the second pipeline the attention output, the broadcast
  the result; so the last valuation holds each argument as launched.
-/
import proofs.«208975_g36283883717458_cont_8to1_b_1954_30_alg».proof.Proof.LaunchB
import proofs.«208975_g36283883717458_cont_8to1_b_1954_30_alg».proof.Proof.ScSideB
import proofs.«208975_g36283883717458_cont_8to1_b_1954_30_alg».proof.Proof.Region0RecB
import proofs.«208975_g36283883717458_cont_8to1_b_1954_30_alg».proof.Proof.Region1B

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

variable [∀ e, Nonempty (Elt F e)]
variable (m : (ℓ : Loc nD τ sig) → Buf (Elt F) ℓ) (ρ : Dev nD → PrngReg)

/-- The queries as the first pipeline leaves them (it does not touch them), the array the SparseCore call fills, and
    what it fills it with: the queries in [head, row, lane] order. -/
abbrev xQ (d : Dev nD) : Buf (Elt F) (qLoc d) := V2 m d bQ
abbrev oT (d : Dev nD) : Buf (Elt F) (oLoc d) := V2 m d bT
abbrev Tq (d : Dev nD) : Buf (Elt F) (d, (bT : DevRef τ sig)) := qT (xQ m d)

/-- The valuation the attention pipeline is entered at. -/
abbrev W3 : Dev nD → Valuation τ sig (Elt F) := V3 (V2 m) (Tq m)

/-- What is known of the valuation the attention pipeline leaves: the one it was entered at, its output array at
    contents the pipeline's write-backs allow. -/
def G4 (d : Dev nD) (W4 : Valuation τ sig (Elt F)) : Prop :=
  ∃ o5, W4 = Function.update (W3 m d) (Proc.devRef .tc main_v5) o5 ∧ (rdat1 (W3 m) d).ArrAt 3 cfg2.N o5

set_option backward.isDefEq.respectTransparency.types false in
set_option maxHeartbeats 1000000 in
/-- THE RUN: from any memory with zero counters every weakly fair execution of the thirty-five threads ends, and on
    every device the TensorCore's unscoped buffers hold the closing broadcast's result of a valuation G4 describes. -/
theorem run_main : θ_run (Cert.Kernel.defs (F := F)) (Cert.Kernel.threads (F := F)) ⟨m, fun _ => 0, ρ⟩ (QC (G4 m)) :=
  run_cond m ρ (rdatsOf' (W3 m) (fun c => (dats0 m c).toR)) (P (xQ m) (oT m)) (V2 m) (Tq m) (G4 m)
    (region0 m (W3 m)) (region1 (W3 m) (fun c => (dats0 m c).toR))
    (initOf kCells kToks) rfl (tileObl (xQ m) (oT m)) (vecSplit (xQ m) (oT m)) (kits_deal_all (xQ m) (oT m))
    (fun d => .rfl) (fun d => .rfl) (fun d => .rfl)
    (fun d => by
      show (iprop(∃ o5, StableHlo.held (SparseCore.T d) uc (Function.update (W3 m d) (Proc.devRef .tc main_v5) o5)
          ∗ ⌜(rdat1 (W3 m) d).ArrAt 3 cfg2.N o5⌝ ∗ tcOw (F := F) d 1) : sProp 𝕄) ⊢ _
      iintro ⟨%o5, Hh, %hA, How⟩
      iexists (Function.update (W3 m d) (Proc.devRef .tc main_v5) o5)
      isplitr; · ipureintro; exact ⟨o5, rfl, hA⟩
      isplitl [Hh]; · iexact Hh
      iexact How)
    (fun d => st_eq (xQ m) (oT m) d) (fun d => dn_eq (xQ m) (oT m) d)

omit [∀ e, Nonempty (Elt F e)] in
/-- A buffer none of the three reshapes writes is, after them, as at launch. -/
theorem V1_of_not_written (d : Dev nD) (b : DevRef τ sig)
    (h0 : b ≠ Proc.devRef .tc main_v0) (h1 : b ≠ Proc.devRef .tc main_v1) (h2 : b ≠ Proc.devRef .tc main_v2) :
    V1 m d b = m (d, b) := by
  unfold V1
  rw [(opV (F := F)).result_of_not_mem _ (by rw [show (opV (F := F)).writes = {Proc.devRef .tc main_v2} from rfl, Finset.mem_singleton]; exact h2),
    (opK (F := F)).result_of_not_mem _ (by rw [show (opK (F := F)).writes = {Proc.devRef .tc main_v1} from rfl, Finset.mem_singleton]; exact h1),
    (opQ (F := F)).result_of_not_mem _ (by rw [show (opQ (F := F)).writes = {Proc.devRef .tc main_v0} from rfl, Finset.mem_singleton]; exact h0)]

omit [∀ e, Nonempty (Elt F e)] in
/-- The closing broadcast writes only the result array. -/
theorem opB_of_not_written (W : Valuation τ sig (Elt F)) (b : DevRef τ sig) (h : b ≠ Proc.devRef .tc main_v6) :
    (opB (F := F)).result W b = W b :=
  (opB (F := F)).result_of_not_mem _ (by rw [show (opB (F := F)).writes = {Proc.devRef .tc main_v6} from rfl, Finset.mem_singleton]; exact h)

/-- An argument is written by no item of @main: in any valuation the run may end at, it is as launched. -/
theorem arg_kept (d : Dev nD) (W4 : Valuation τ sig (Elt F)) (hG : G4 m d W4) (a : Ref sig .tc)
    (h0 : a ≠ main_v0) (h1 : a ≠ main_v1) (h2 : a ≠ main_v2) (h30 : a ≠ main_v3_0) (h31 : a ≠ main_v3_1) (h4 : a ≠ main_v4) (h5 : a ≠ main_v5) (h6 : a ≠ main_v6) :
    (opB (F := F)).result W4 (Proc.devRef .tc a) = m (d, Proc.devRef .tc a) := by
  obtain ⟨o5, rfl, -⟩ := hG
  rw [opB_of_not_written _ _ (StableHlo.devRef_ne_of_ne h6), Function.update_of_ne (StableHlo.devRef_ne_of_ne h5)]
  show Function.update (V2 m d) bT (Tq m d) (Proc.devRef .tc a) = _
  rw [Function.update_of_ne (StableHlo.devRef_ne_of_ne h4), V2_of_ne m d a h30 h31,
    V1_of_not_written m d _ (StableHlo.devRef_ne_of_ne h0) (StableHlo.devRef_ne_of_ne h1) (StableHlo.devRef_ne_of_ne h2)]

/-- THE FRAME, at any float instance: the run, with everything but the three arguments forgotten. -/
theorem frame : θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain ⟨W4, hG, hb⟩ := h c
    refine ⟨?_, ?_, ?_⟩
    · exact (hb (Proc.devRef .tc main_arg0) (by decide)).trans (arg_kept m c W4 hG main_arg0 (by decide) (by decide) (by decide) (by decide) (by decide) (by decide) (by decide) (by decide))
    · exact (hb (Proc.devRef .tc main_arg1) (by decide)).trans (arg_kept m c W4 hG main_arg1 (by decide) (by decide) (by decide) (by decide) (by decide) (by decide) (by decide) (by decide))
    · exact (hb (Proc.devRef .tc main_arg2) (by decide)).trans (arg_kept m c W4 hG main_arg2 (by decide) (by decide) (by decide) (by decide) (by decide) (by decide) (by decide) (by decide)))
    (run_main m ρ)

end Cert.Proof.KB

end
-- ==== Proof.RefFrame.lean ====
/-
  The reference program's frame: its host operations run to the end, none faults, and the three argument
  arrays end as they began. Read off the run of @main as a list of host operations, with the result dropped.
-/
import proofs.«208975_g36283883717458_cont_8to1_b_1954_30_alg».proof.Defs
import proofs.«208975_g36283883717458_cont_8to1_b_1954_30_alg».proof.Proof.Gen.ReferenceIdeal
import proofs.«208975_g36283883717458_cont_8to1_b_1954_30_alg».proof.Proof.Gen.Pre_finite_inputs
import proofs.«208975_g36283883717458_cont_8to1_b_1954_30_alg».proof.Proof.Gen.ReferenceIdeal.Run

noncomputable section

namespace Cert.Proof.RefFrame

open Idealize.ShloMosaic Idealize.SL.Sem

/-- Every weakly fair execution of the reference's @main ends, faults nowhere, and leaves q, k and v as they were:
    the run of its host operations, one after the other, with what it says of the result forgotten. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Arrays.lean ====
/-
  The arrays the two pipelines leave, entry by entry.

  The second pipeline's output array is written back one half at a time, at the last head of the half, from a staging
  buffer that the eight points of the half fill one head column each: after the point of head `hi` of a half the
  columns `0 … hi` of the buffer hold what their own points computed, each from the three input blocks of its head.
  So every entry of the array after the run is named: the entry of row `r`, head `h`, lane `l` is the head column's
  entry at row `r`, lane `l`, computed at the point of head `h`.

  The first pipeline writes every point's block back: its two output arrays end, head by head, at what the head's
  point computed from its two input blocks.
-/
import proofs.«208975_g36283883717458_cont_8to1_b_1954_30_alg».proof.Proof.Region0
import proofs.«208975_g36283883717458_cont_8to1_b_1954_30_alg».proof.Proof.Region1
import Idealize.ShloMosaic.Lib.Pipeline.Value

set_option maxRecDepth 16384

noncomputable section

namespace Cert.Proof.KI

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [∀ e, Nonempty (Elt F e)]

local notation "𝕄" => MT nD τ sig (HIx 1) (Elt F) ℕ UU ℕ

variable (W : Dev nD → Valuation τ sig (Elt F))

/-! ## The second pipeline's grid and index maps, decided -/

/-- Point `t` is head `t % 8` of half `t / 8`. -/
theorem coords2_0 : ∀ t : Fin cfg2.N, (grid2.coords t 0).val = t.val / 8 :=
  (by decide +kernel : ∀ t : Fin grid2.N, (grid2.coords t 0).val = t.val / 8)
theorem coords2_1 : ∀ t : Fin cfg2.N, (grid2.coords t 1).val = t.val % 8 :=
  (by decide +kernel : ∀ t : Fin grid2.N, (grid2.coords t 1).val = t.val % 8)
/-- The output window is never fetched. -/
theorem fetch2_3 : ∀ t : Fin cfg2.N, (cfg2.win 3).fetch t = false :=
  (by decide +kernel : ∀ t : Fin grid2.N, win2_3.fetch t = false)
/-- Its block at point `t` is the half `t / 8` of the heads, every row and lane. -/
theorem idx2_3 : ∀ t : Fin cfg2.N, win2_3.index t (0 : Fin 3) = 0 ∧ win2_3.index t (1 : Fin 3) = t.val / 8 ∧ win2_3.index t (2 : Fin 3) = 0 :=
  (by decide +kernel : ∀ t : Fin grid2.N, win2_3.index t (0 : Fin 3) = 0 ∧ win2_3.index t (1 : Fin 3) = t.val / 8 ∧ win2_3.index t (2 : Fin 3) = 0)
/-- The inputs' blocks at point `t` are head `t`'s rows and lanes. -/
theorem idx2_0 : ∀ t : Fin cfg2.N, win2_0.index t (0 : Fin 3) = t.val ∧ win2_0.index t (1 : Fin 3) = 0 ∧ win2_0.index t (2 : Fin 3) = 0 :=
  (by decide +kernel : ∀ t : Fin grid2.N, win2_0.index t (0 : Fin 3) = t.val ∧ win2_0.index t (1 : Fin 3) = 0 ∧ win2_0.index t (2 : Fin 3) = 0)
theorem idx2_1 : ∀ t : Fin cfg2.N, win2_1.index t (0 : Fin 3) = t.val ∧ win2_1.index t (1 : Fin 3) = 0 ∧ win2_1.index t (2 : Fin 3) = 0 :=
  (by decide +kernel : ∀ t : Fin grid2.N, win2_1.index t (0 : Fin 3) = t.val ∧ win2_1.index t (1 : Fin 3) = 0 ∧ win2_1.index t (2 : Fin 3) = 0)
theorem idx2_2 : ∀ t : Fin cfg2.N, win2_2.index t (0 : Fin 3) = t.val ∧ win2_2.index t (1 : Fin 3) = 0 ∧ win2_2.index t (2 : Fin 3) = 0 :=
  (by decide +kernel : ∀ t : Fin grid2.N, win2_2.index t (0 : Fin 3) = t.val ∧ win2_2.index t (1 : Fin 3) = 0 ∧ win2_2.index t (2 : Fin 3) = 0)

theorem N2 : cfg2.N = 16 := N_2

/-! ## What the staging buffer holds over the eight points of a half -/

/-- The head column point `t` computes from its three input blocks, as a function on the output's staging block. -/
def col1 (d : Dev nD) (t : Fin cfg2.N) (y : S2048x8x128.Idx) : Elt F .f32 :=
  attnTileAt (iblk1 W d 0 t) (iblk1 W d 1 t) (iblk1 W d 2 t) y

/-- After point `n`, head `n % 8` of half `n / 8`, the columns `0 … n % 8` of the output's staging buffer hold what
    their own points computed: the point's own column by the body, the earlier ones kept from the point before. -/
theorem leaves1_3 (d : Dev nD) : ∀ (n : ℕ) (hn : n < cfg2.N) (X : (cfg2.win 3).block.Idx → Elt F (cfg2.win 3).elt),
    (rdat1 W d).Leaves 3 ⟨n, hn⟩ X → ∀ y : S2048x8x128.Idx, (y 1).val ≤ n % 8 →
      ∀ hlt : 8 * (n / 8) + (y 1).val < cfg2.N, X y = col1 W d ⟨8 * (n / 8) + (y 1).val, hlt⟩ y := by
  intro n
  induction n using Nat.strong_induction_on with
  | _ n ih =>
    intro hn X hL y hy hlt
    obtain ⟨Y, hF, hA⟩ := hL
    rw [after1_3] at hA
    subst hA
    by_cases hh : (y 1).val = n % 8
    · rw [attnOut_of_head_eq _ _ _ _ _ y (by rw [coords2_1]; exact hh)]
      have e : (⟨8 * (n / 8) + (y 1).val, hlt⟩ : Fin cfg2.N) = ⟨n, hn⟩ := Fin.ext (by show 8 * (n / 8) + (y 1).val = n; omega)
      rw [e]; rfl
    · rw [attnOut_of_head_ne _ _ _ _ _ y (by rw [coords2_1]; exact hh)]
      have hn0 : (⟨n, hn⟩ : Fin cfg2.N).val ≠ 0 := by show n ≠ 0; omega
      rcases ((rdat1 W d).finds_of_pos (fetch2_3 ⟨n, hn⟩) hn0 Y).mp hF with hfl | hL'
      · exfalso
        have h7 := (flush2_3 _).mp hfl
        have h7' : (n - 1) % 8 = 7 := h7
        omega
      · have hd : (n - 1) / 8 = n / 8 := by omega
        have hlt' : 8 * ((n - 1) / 8) + (y 1).val < cfg2.N := by rw [hd]; exact hlt
        have := ih (n - 1) (by omega) (Nat.lt_of_le_of_lt (Nat.sub_le _ _) hn) Y hL' y (by omega) hlt'
        rw [this]
        have e : (⟨8 * ((n - 1) / 8) + (y 1).val, hlt'⟩ : Fin cfg2.N) = ⟨8 * (n / 8) + (y 1).val, hlt⟩ := Fin.ext (by show 8 * ((n - 1) / 8) + (y 1).val = 8 * (n / 8) + (y 1).val; rw [hd])
        rw [e]

/-! ## From the write-backs to the array -/

/-- An index of the output array lies in point `t`'s block when its head is in the point's half. -/
theorem mem_blk2_3 (t : Fin cfg2.N) (j : S2048x16x128.Idx) :
    j ∈ ((cfg2.win 3).blk t).view.set ↔ (j 1).val / 8 = t.val / 8 := by
  show j ∈ ((View.whole main_v5).slice (win2_3.rect t)).set ↔ _
  rw [View.set_slice_whole, Rect.mem_set_unit]
  obtain ⟨e0, e1, e2⟩ := idx2_3 t
  constructor
  · intro h
    have h1 : win2_3.index t (1 : Fin 3) * 8 ≤ (j 1).val ∧ (j 1).val < win2_3.index t (1 : Fin 3) * 8 + 8 := h 1
    omega
  · intro h a
    have hj0 : (j 0).val < 2048 := (j 0).isLt
    have hj2 : (j 2).val < 128 := (j 2).isLt
    match a with
    | ⟨0, _⟩ => show win2_3.index t (0 : Fin 3) * 2048 ≤ (j 0).val ∧ (j 0).val < win2_3.index t (0 : Fin 3) * 2048 + 2048; omega
    | ⟨1, _⟩ => show win2_3.index t (1 : Fin 3) * 8 ≤ (j 1).val ∧ (j 1).val < win2_3.index t (1 : Fin 3) * 8 + 8; omega
    | ⟨2, _⟩ => show win2_3.index t (2 : Fin 3) * 128 ≤ (j 2).val ∧ (j 2).val < win2_3.index t (2 : Fin 3) * 128 + 128; omega

/-- After the write-backs of the points below `n`, every entry of the output array whose head lies in a half already
    written back holds its head's column's entry: the half's write-back lays the staging buffer, then at its eight
    columns' values (`leaves1_3`), over the half's block, and later write-backs touch other halves only. -/
theorem arrAt1_3 (d : Dev nD) : ∀ (n : ℕ), n ≤ cfg2.N → ∀ G, (rdat1 W d).ArrAt 3 n G →
    ∀ (j : S2048x16x128.Idx) (hlt : (j 1).val < cfg2.N) (hq : (j 1).val % 8 < 8), (j 1).val / 8 < n / 8 →
      G j = col1 W d ⟨(j 1).val, hlt⟩ (ix3 (j 0) (⟨(j 1).val % 8, hq⟩ : Fin 8) (j 2)) := by
  intro n
  induction n with
  | zero => intro _ G _ j _ _ h; exact absurd h (by omega)
  | succ n ih =>
    intro hn G hG j hlt hq hj
    have hn' : n < cfg2.N := hn
    simp only [RDat.ArrAt] at hG
    rw [dif_pos hn'] at hG
    by_cases hfl : (cfg2.win 3).flush ⟨n, hn'⟩ = true
    · rw [if_pos hfl] at hG
      have h7 : n % 8 = 7 := (flush2_3 ⟨n, hn'⟩).mp hfl
      obtain ⟨G₀, X, hG₀, hX, rfl⟩ := hG
      by_cases hb : (j 1).val / 8 = n / 8
      · obtain ⟨k, -, hk⟩ := Finset.mem_map.mp ((mem_blk2_3 ⟨n, hn'⟩ j).mpr hb)
        subst hk
        obtain ⟨e0, e1, e2⟩ := idx2_3 ⟨n, hn'⟩
        have hk0 : (((cfg2.win 3).blk ⟨n, hn'⟩).view.emb k 0).val = win2_3.index ⟨n, hn'⟩ (0 : Fin 3) * 2048 + 1 * (k 0).val := rfl
        have hk1 : (((cfg2.win 3).blk ⟨n, hn'⟩).view.emb k 1).val = win2_3.index ⟨n, hn'⟩ (1 : Fin 3) * 8 + 1 * (k 1).val := rfl
        have hk2 : (((cfg2.win 3).blk ⟨n, hn'⟩).view.emb k 2).val = win2_3.index ⟨n, hn'⟩ (2 : Fin 3) * 128 + 1 * (k 2).val := rfl
        have hk1lt : (k 1).val < 8 := (k 1).isLt
        have e1' : win2_3.index ⟨n, hn'⟩ (1 : Fin 3) = n / 8 := e1
        have hlt' : 8 * (n / 8) + (((cfg2.win 3).xinj (cfg2.grid.coords ⟨n, hn'⟩) k) 1).val < cfg2.N := by
          show 8 * (n / 8) + (k 1).val < cfg2.N
          have : 8 * (n / 8) + (k 1).val = (((cfg2.win 3).blk ⟨n, hn'⟩).view.emb k 1).val := by omega
          rw [this]; exact hlt
        have hval := leaves1_3 W d n hn' X hX ((cfg2.win 3).xinj (cfg2.grid.coords ⟨n, hn'⟩) k)
          (by show (k 1).val ≤ n % 8; omega) hlt'
        rw [View.write_emb_of_mem _ _ (Finset.mem_univ k)]
        refine Eq.trans (show _ = X ((cfg2.win 3).xinj (cfg2.grid.coords ⟨n, hn'⟩) k) from rfl) (hval.trans ?_)
        have et : (⟨8 * (n / 8) + (((cfg2.win 3).xinj (cfg2.grid.coords ⟨n, hn'⟩) k) 1).val, hlt'⟩ : Fin cfg2.N)
            = ⟨(((cfg2.win 3).blk ⟨n, hn'⟩).view.emb k 1).val, hlt⟩ :=
          Fin.ext (by show 8 * (n / 8) + (k 1).val = (((cfg2.win 3).blk ⟨n, hn'⟩).view.emb k 1).val; clear e1; omega)
        have ey : ((cfg2.win 3).xinj (cfg2.grid.coords ⟨n, hn'⟩) k : S2048x8x128.Idx)
            = ix3 (((cfg2.win 3).blk ⟨n, hn'⟩).view.emb k 0)
                (⟨(((cfg2.win 3).blk ⟨n, hn'⟩).view.emb k 1).val % 8, hq⟩ : Fin 8)
                (((cfg2.win 3).blk ⟨n, hn'⟩).view.emb k 2) := by
          funext a
          match a with
          | ⟨0, _⟩ => exact Fin.ext (by show (k 0).val = (((cfg2.win 3).blk ⟨n, hn'⟩).view.emb k 0).val; omega)
          | ⟨1, _⟩ => exact Fin.ext (by show (k 1).val = (((cfg2.win 3).blk ⟨n, hn'⟩).view.emb k 1).val % 8; omega)
          | ⟨2, _⟩ => exact Fin.ext (by show (k 2).val = (((cfg2.win 3).blk ⟨n, hn'⟩).view.emb k 2).val; omega)
        rw [et, ey]
        rfl
      · rw [View.write_of_not_mem _ _ _ (show j ∉ ((cfg2.win 3).blk ⟨n, hn'⟩).view.setOn Finset.univ from
          fun hm => hb ((mem_blk2_3 ⟨n, hn'⟩ j).mp hm))]
        exact ih (Nat.le_of_succ_le hn) G₀ hG₀ j hlt hq (by omega)
    · rw [if_neg hfl] at hG
      have h7 : n % 8 ≠ 7 := fun h => hfl ((flush2_3 ⟨n, hn'⟩).mpr h)
      exact ih (Nat.le_of_succ_le hn) G hG j hlt hq (by omega)

/-- The point of head `h`. -/
abbrev pt2 (h : Fin 16) : Fin cfg2.N := ⟨h.val, by rw [N2]; exact h.isLt⟩

/-- THE OUTPUT ARRAY after the run, whatever contents the relation allows: the entry of row `r`, head `h`, lane `l` is
    the entry at row `r`, lane `l` of the head column computed at head `h`'s point from that head's three input blocks. -/
theorem out5_eq (d : Dev nD) (o5 : Buf (Elt F) ((d : Thread nD τ).loc main_v5)) (h5 : (rdat1 W d).ArrAt 3 cfg2.N o5)
    (r : Fin 2048) (h : Fin 16) (l : Fin 128) :
    o5 (ix3 r h l) = attnTileAt (iblk1 W d 0 (pt2 h)) (iblk1 W d 1 (pt2 h)) (iblk1 W d 2 (pt2 h))
      (ix3 r (⟨h.val % 8, Nat.mod_lt _ (by decide)⟩ : Fin 8) l) :=
  arrAt1_3 W d cfg2.N (le_refl _) o5 h5 (ix3 r h l) (by rw [N2]; exact h.isLt) (Nat.mod_lt _ (by decide))
    (by rw [N2]; show h.val / 8 < 16 / 8; have := h.isLt; omega)

/-! ## The input blocks, entry by entry -/

/-- Head `h`'s block of the reordered queries is the array's rows and lanes at head `h`; -/
theorem iblk1_0_apply (d : Dev nD) (h : Fin 16) (r : Fin 2048) (l : Fin 128) :
    iblk1 W d 0 (pt2 h) (ix3 (0 : Fin 1) r l) = WR W d main_v4 (ix3 h r l) := by
  obtain ⟨e0, e1, e2⟩ := idx2_0 (pt2 h)
  show WR W d main_v4 (((cfg2.win 0).blk (pt2 h)).view.emb (ix3 (0 : Fin 1) r l)) = _
  congr 1
  funext a
  match a with
  | ⟨0, _⟩ => exact Fin.ext (by show win2_0.index (pt2 h) (0 : Fin 3) * 1 + 1 * 0 = h.val; rw [e0]; simp)
  | ⟨1, _⟩ => exact Fin.ext (by show win2_0.index (pt2 h) (1 : Fin 3) * 2048 + 1 * r.val = r.val; rw [e1]; simp)
  | ⟨2, _⟩ => exact Fin.ext (by show win2_0.index (pt2 h) (2 : Fin 3) * 128 + 1 * l.val = l.val; rw [e2]; simp)
/-- of the pooled keys; -/
theorem iblk1_1_apply (d : Dev nD) (h : Fin 16) (r : Fin 2048) (l : Fin 128) :
    iblk1 W d 1 (pt2 h) (ix3 (0 : Fin 1) r l) = WR W d main_v3_0 (ix3 h r l) := by
  obtain ⟨e0, e1, e2⟩ := idx2_1 (pt2 h)
  show WR W d main_v3_0 (((cfg2.win 1).blk (pt2 h)).view.emb (ix3 (0 : Fin 1) r l)) = _
  congr 1
  funext a
  match a with
  | ⟨0, _⟩ => exact Fin.ext (by show win2_1.index (pt2 h) (0 : Fin 3) * 1 + 1 * 0 = h.val; rw [e0]; simp)
  | ⟨1, _⟩ => exact Fin.ext (by show win2_1.index (pt2 h) (1 : Fin 3) * 2048 + 1 * r.val = r.val; rw [e1]; simp)
  | ⟨2, _⟩ => exact Fin.ext (by show win2_1.index (pt2 h) (2 : Fin 3) * 128 + 1 * l.val = l.val; rw [e2]; simp)
/-- of the pooled values. -/
theorem iblk1_2_apply (d : Dev nD) (h : Fin 16) (r : Fin 2048) (l : Fin 128) :
    iblk1 W d 2 (pt2 h) (ix3 (0 : Fin 1) r l) = WR W d main_v3_1 (ix3 h r l) := by
  obtain ⟨e0, e1, e2⟩ := idx2_2 (pt2 h)
  show WR W d main_v3_1 (((cfg2.win 2).blk (pt2 h)).view.emb (ix3 (0 : Fin 1) r l)) = _
  congr 1
  funext a
  match a with
  | ⟨0, _⟩ => exact Fin.ext (by show win2_2.index (pt2 h) (0 : Fin 3) * 1 + 1 * 0 = h.val; rw [e0]; simp)
  | ⟨1, _⟩ => exact Fin.ext (by show win2_2.index (pt2 h) (1 : Fin 3) * 2048 + 1 * r.val = r.val; rw [e1]; simp)
  | ⟨2, _⟩ => exact Fin.ext (by show win2_2.index (pt2 h) (2 : Fin 3) * 128 + 1 * l.val = l.val; rw [e2]; simp)

/-! ## The first pipeline's output arrays -/

section First

variable (m : (ℓ : Loc nD τ sig) → Buf (Elt F) ℓ)

attribute [local irreducible] treeK treeV

/-- The first pipeline's index maps, decided: an output's block at point `t` is head `t`'s rows and lanes; an input's
    is the half `t / 8` of the heads, every row and lane. -/
theorem idx0_2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem idx0_3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)
theorem idx0_0 : ∀ t : Fin cfg0.N, win0_0.index t (0 : Fin 3) = 0 ∧ win0_0.index t (1 : Fin 3) = t.val / 8 ∧ win0_0.index t (2 : Fin 3) = 0 :=
  (by decide +kernel : ∀ t : Fin grid0.N, win0_0.index t (0 : Fin 3) = 0 ∧ win0_0.index t (1 : Fin 3) = t.val / 8 ∧ win0_0.index t (2 : Fin 3) = 0)
theorem idx0_1 : ∀ t : Fin cfg0.N, win0_1.index t (0 : Fin 3) = 0 ∧ win0_1.index t (1 : Fin 3) = t.val / 8 ∧ win0_1.index t (2 : Fin 3) = 0 :=
  (by decide +kernel : ∀ t : Fin grid0.N, win0_1.index t (0 : Fin 3) = 0 ∧ win0_1.index t (1 : Fin 3) = t.val / 8 ∧ win0_1.index t (2 : Fin 3) = 0)

theorem N0 : cfg0.N = 16 := N_0

/-- The point of head `h`. -/
abbrev pt0 (h : Fin 16) : Fin cfg0.N := ⟨h.val, by rw [N0]; exact h.isLt⟩

/-- The pooled keys and the pooled values as one function of the pipeline's input arrays: at head `h`, what head `h`'s
    point computes from its two input blocks. -/
def GK (d : Dev nD) : S16x2048x128.Idx → Elt F .bf16 := fun j =>
  treeK (grid0.coords (pt0 (j 0))) (iblk0 m d 0 (pt0 (j 0))) (iblk0 m d 1 (pt0 (j 0))) (ix3 (0 : Fin 1) (j 1) (j 2))
def GV (d : Dev nD) : S16x2048x128.Idx → Elt F .bf16 := fun j =>
  treeV (grid0.coords (pt0 (j 0))) (iblk0 m d 0 (pt0 (j 0))) (iblk0 m d 1 (pt0 (j 0))) (ix3 (0 : Fin 1) (j 1) (j 2))

/-- What point `t` writes back is block `t` of that function. -/
theorem flushedK (d : Dev nD) (t : Fin cfg0.N) :
    (dats0 m d).flushed 2 t = ((cfg0.win 2).blk t).view.read (Elt F) (GK m d) := by
  obtain ⟨e0, e1, e2⟩ := idx0_2 t
  funext k
  have hk0 : (k 0).val < 1 := (k 0).isLt
  have et : pt0 (((cfg0.win 2).blk t).view.emb k 0) = t :=
    Fin.ext (by show win0_2.index t (0 : Fin 3) * 1 + 1 * (k 0).val = t.val; omega)
  have ey : ((cfg0.win 2).xinj (cfg0.grid.coords t) k : S1x2048x128.Idx)
      = ix3 (0 : Fin 1) (((cfg0.win 2).blk t).view.emb k 1) (((cfg0.win 2).blk t).view.emb k 2) := by
    funext a
    match a with
    | ⟨0, _⟩ => exact Fin.ext (by show (k 0).val = 0; omega)
    | ⟨1, _⟩ => exact Fin.ext (by show (k 1).val = win0_2.index t (1 : Fin 3) * 2048 + 1 * (k 1).val; omega)
    | ⟨2, _⟩ => exact Fin.ext (by show (k 2).val = win0_2.index t (2 : Fin 3) * 128 + 1 * (k 2).val; omega)
  show (dats0 m d).after 2 t ((cfg0.win 2).xinj (cfg0.grid.coords t) k) = GK m d (((cfg0.win 2).blk t).view.emb k)
  rw [after0_2, ey]
  unfold GK
  rw [et]
  rfl
theorem flushedV (d : Dev nD) (t : Fin cfg0.N) :
    (dats0 m d).flushed 3 t = ((cfg0.win 3).blk t).view.read (Elt F) (GV m d) := by
  obtain ⟨e0, e1, e2⟩ := idx0_3 t
  funext k
  have hk0 : (k 0).val < 1 := (k 0).isLt
  have et : pt0 (((cfg0.win 3).blk t).view.emb k 0) = t :=
    Fin.ext (by show win0_3.index t (0 : Fin 3) * 1 + 1 * (k 0).val = t.val; omega)
  have ey : ((cfg0.win 3).xinj (cfg0.grid.coords t) k : S1x2048x128.Idx)
      = ix3 (0 : Fin 1) (((cfg0.win 3).blk t).view.emb k 1) (((cfg0.win 3).blk t).view.emb k 2) := by
    funext a
    match a with
    | ⟨0, _⟩ => exact Fin.ext (by show (k 0).val = 0; omega)
    | ⟨1, _⟩ => exact Fin.ext (by show (k 1).val = win0_3.index t (1 : Fin 3) * 2048 + 1 * (k 1).val; omega)
    | ⟨2, _⟩ => exact Fin.ext (by show (k 2).val = win0_3.index t (2 : Fin 3) * 128 + 1 * (k 2).val; omega)
  show (dats0 m d).after 3 t ((cfg0.win 3).xinj (cfg0.grid.coords t) k) = GV m d (((cfg0.win 3).blk t).view.emb k)
  rw [after0_3, ey]
  unfold GV
  rw [et]
  rfl

/-- Every index of an output array lies in its head's point's block. -/
theorem coverK (i : S16x2048x128.Idx) : ∃ t : Fin cfg0.N, (cfg0.win 2).flush t = true ∧ i ∈ ((cfg0.win 2).blk t).view.set := by
  refine ⟨pt0 (i 0), flush0_2 _, ?_⟩
  obtain ⟨e0, e1, e2⟩ := idx0_2 (pt0 (i 0))
  show i ∈ ((View.whole main_v3_0).slice (win0_2.rect (pt0 (i 0)))).set
  rw [View.set_slice_whole, Rect.mem_set_unit]
  intro a
  have h1 : (i 1).val < 2048 := (i 1).isLt
  have h2 : (i 2).val < 128 := (i 2).isLt
  match a with
  | ⟨0, _⟩ => show win0_2.index (pt0 (i 0)) (0 : Fin 3) * 1 ≤ (i 0).val ∧ (i 0).val < win0_2.index (pt0 (i 0)) (0 : Fin 3) * 1 + 1; rw [e0]; show (i 0).val * 1 ≤ (i 0).val ∧ (i 0).val < (i 0).val * 1 + 1; omega
  | ⟨1, _⟩ => show win0_2.index (pt0 (i 0)) (1 : Fin 3) * 2048 ≤ (i 1).val ∧ (i 1).val < win0_2.index (pt0 (i 0)) (1 : Fin 3) * 2048 + 2048; omega
  | ⟨2, _⟩ => show win0_2.index (pt0 (i 0)) (2 : Fin 3) * 128 ≤ (i 2).val ∧ (i 2).val < win0_2.index (pt0 (i 0)) (2 : Fin 3) * 128 + 128; omega
theorem coverV (i : S16x2048x128.Idx) : ∃ t : Fin cfg0.N, (cfg0.win 3).flush t = true ∧ i ∈ ((cfg0.win 3).blk t).view.set := by
  refine ⟨pt0 (i 0), flush0_3 _, ?_⟩
  obtain ⟨e0, e1, e2⟩ := idx0_3 (pt0 (i 0))
  show i ∈ ((View.whole main_v3_1).slice (win0_3.rect (pt0 (i 0)))).set
  rw [View.set_slice_whole, Rect.mem_set_unit]
  intro a
  have h1 : (i 1).val < 2048 := (i 1).isLt
  have h2 : (i 2).val < 128 := (i 2).isLt
  match a with
  | ⟨0, _⟩ => show win0_3.index (pt0 (i 0)) (0 : Fin 3) * 1 ≤ (i 0).val ∧ (i 0).val < win0_3.index (pt0 (i 0)) (0 : Fin 3) * 1 + 1; rw [e0]; show (i 0).val * 1 ≤ (i 0).val ∧ (i 0).val < (i 0).val * 1 + 1; omega
  | ⟨1, _⟩ => show win0_3.index (pt0 (i 0)) (1 : Fin 3) * 2048 ≤ (i 1).val ∧ (i 1).val < win0_3.index (pt0 (i 0)) (1 : Fin 3) * 2048 + 2048; omega
  | ⟨2, _⟩ => show win0_3.index (pt0 (i 0)) (2 : Fin 3) * 128 ≤ (i 2).val ∧ (i 2).val < win0_3.index (pt0 (i 0)) (2 : Fin 3) * 128 + 128; omega

/-- THE POOLED KEYS after the first pipeline: the entry of head `h`, row `r`, lane `l` is what head `h`'s point computes
    from its two input blocks, at row `r`, lane `l`; -/
theorem outK_eq (d : Dev nD) (h : Fin 16) (r : Fin 2048) (l : Fin 128) :
    (dats0 m d).arrAt 2 cfg0.N (ix3 h r l)
      = treeK (grid0.coords (pt0 h)) (iblk0 m d 0 (pt0 h)) (iblk0 m d 1 (pt0 h)) (ix3 (0 : Fin 1) r l) := by
  rw [(dats0 m d).arrAt_eq_of_cover 2 (GK m d) (fun t _ => flushedK m d t) coverK]; rfl
/-- THE POOLED VALUES likewise. -/
theorem outV_eq (d : Dev nD) (h : Fin 16) (r : Fin 2048) (l : Fin 128) :
    (dats0 m d).arrAt 3 cfg0.N (ix3 h r l)
      = treeV (grid0.coords (pt0 h)) (iblk0 m d 0 (pt0 h)) (iblk0 m d 1 (pt0 h)) (ix3 (0 : Fin 1) r l) := by
  rw [(dats0 m d).arrAt_eq_of_cover 3 (GV m d) (fun t _ => flushedV m d t) coverV]; rfl

/-- Head `h`'s input blocks: the half `h / 8` of the keys and of the values after the reshapes, read at head `h`. -/
theorem iblk0_0_apply (d : Dev nD) (h : Fin 16) (r : Fin 2048) (l : Fin 128) :
    iblk0 m d 0 (pt0 h) (ix3 r (⟨h.val % 8, Nat.mod_lt _ (by decide)⟩ : Fin 8) l) = VR m d main_v1 (ix3 r h l) := by
  obtain ⟨e0, e1, e2⟩ := idx0_0 (pt0 h)
  show VR m d main_v1 (((cfg0.win 0).blk (pt0 h)).view.emb (ix3 r (⟨h.val % 8, Nat.mod_lt _ (by decide)⟩ : Fin 8) l)) = _
  congr 1
  funext a
  have e1' : win0_0.index (pt0 h) (1 : Fin 3) = h.val / 8 := e1
  match a with
  | ⟨0, _⟩ => exact Fin.ext (by show win0_0.index (pt0 h) (0 : Fin 3) * 2048 + 1 * r.val = r.val; omega)
  | ⟨1, _⟩ => exact Fin.ext (by show win0_0.index (pt0 h) (1 : Fin 3) * 8 + 1 * (h.val % 8) = h.val; omega)
  | ⟨2, _⟩ => exact Fin.ext (by show win0_0.index (pt0 h) (2 : Fin 3) * 128 + 1 * l.val = l.val; omega)
theorem iblk0_1_apply (d : Dev nD) (h : Fin 16) (r : Fin 2048) (l : Fin 128) :
    iblk0 m d 1 (pt0 h) (ix3 r (⟨h.val % 8, Nat.mod_lt _ (by decide)⟩ : Fin 8) l) = VR m d main_v2 (ix3 r h l) := by
  obtain ⟨e0, e1, e2⟩ := idx0_1 (pt0 h)
  show VR m d main_v2 (((cfg0.win 1).blk (pt0 h)).view.emb (ix3 r (⟨h.val % 8, Nat.mod_lt _ (by decide)⟩ : Fin 8) l)) = _
  congr 1
  funext a
  have e1' : win0_1.index (pt0 h) (1 : Fin 3) = h.val / 8 := e1
  match a with
  | ⟨0, _⟩ => exact Fin.ext (by show win0_1.index (pt0 h) (0 : Fin 3) * 2048 + 1 * r.val = r.val; omega)
  | ⟨1, _⟩ => exact Fin.ext (by show win0_1.index (pt0 h) (1 : Fin 3) * 8 + 1 * (h.val % 8) = h.val; omega)
  | ⟨2, _⟩ => exact Fin.ext (by show win0_1.index (pt0 h) (2 : Fin 3) * 128 + 1 * l.val = l.val; omega)

end First

end Cert.Proof.KI

end
-- ==== Proof.LibEFinite.lean ====
/-
  Finite entries on the extended reals.

  An extended real is FINITE when it is a real number (`IsFin`), POSITIVE / NONNEGATIVE when it is a positive /
  nonnegative real (`IsPos`, `IsNonneg`); an array is all-finite when every entry is (`AllFin`, `AllPos`, `AllNonneg`).
  On finite entries the extended reals' sum, difference, product, maximum and finite sums are the reals' (the
  coercion of a finite sum of reals is the sum of the coercions, `coe_sum`), division by a nonzero real is the real
  quotient (`div_coe_coe`), and the reciprocal square root of a positive real is a positive real (`rsqrt_coe_pos`).
  So every operation a network layer is built from keeps all-finite arrays all-finite: the pointwise operations,
  a gather, a scatter-add, a sum over an axis, a matrix product, and the re-indexings (broadcast, reshape, slice),
  each of whose result entries is a source entry. The float words `0`, `1`, `100000` and the word nearest `1e-5`
  denote the reals they should; one plus the number of updates landing on an entry is positive (`allPos_degree`).
  Last: a variance's divisor `100000 - 0` is `100000` and the select on its sign takes the quotient
  (`select_divisor_pos`); an entry whose absolute value compares below the infinity word is finite
  (`isFin_of_abs_lt_inf`); a normalised entry `(a - m) * rsqrt (v + e) * g + b` is finite (`isFin_normalised`).
-/
import Idealize.ShloMosaic.PureOps.Ideal.Laws
import Idealize.ShloMosaic.Lib.ValueIdx

noncomputable section

open Idealize.ShloMosaic
open Idealize.ShloMosaic.ValueIdx

namespace Cert.Gcn

/-! ## Finite, positive, nonnegative -/

/-- An extended real that is a real number. -/
def IsFin (x : EReal) : Prop := ∃ r : ℝ, x = (r : EReal)
/-- An extended real that is a positive real number. -/
def IsPos (x : EReal) : Prop := ∃ r : ℝ, 0 < r ∧ x = (r : EReal)
/-- An extended real that is a nonnegative real number. -/
def IsNonneg (x : EReal) : Prop := ∃ r : ℝ, 0 ≤ r ∧ x = (r : EReal)
/-- Every entry is a real number. -/
def AllFin {ι : Type} (a : ι → EReal) : Prop := ∀ i, IsFin (a i)
/-- Every entry is a positive real number. -/
def AllPos {ι : Type} (a : ι → EReal) : Prop := ∀ i, IsPos (a i)
/-- Every entry is a nonnegative real number. -/
def AllNonneg {ι : Type} (a : ι → EReal) : Prop := ∀ i, IsNonneg (a i)

theorem isFin_coe (r : ℝ) : IsFin (r : EReal) := ⟨r, rfl⟩
theorem isFin_zero : IsFin 0 := ⟨0, EReal.coe_zero.symm⟩
theorem isFin_one : IsFin 1 := ⟨1, EReal.coe_one.symm⟩
theorem isPos_coe {r : ℝ} (h : 0 < r) : IsPos (r : EReal) := ⟨r, h, rfl⟩
theorem isNonneg_coe {r : ℝ} (h : 0 ≤ r) : IsNonneg (r : EReal) := ⟨r, h, rfl⟩
theorem isPos_one : IsPos 1 := ⟨1, one_pos, EReal.coe_one.symm⟩
theorem isNonneg_zero : IsNonneg 0 := ⟨0, le_refl _, EReal.coe_zero.symm⟩
theorem IsPos.isNonneg {x : EReal} (h : IsPos x) : IsNonneg x := let ⟨r, hr, e⟩ := h; ⟨r, hr.le, e⟩
theorem IsPos.isFin {x : EReal} (h : IsPos x) : IsFin x := let ⟨r, _, e⟩ := h; ⟨r, e⟩
theorem IsNonneg.isFin {x : EReal} (h : IsNonneg x) : IsFin x := let ⟨r, _, e⟩ := h; ⟨r, e⟩
theorem AllPos.allNonneg {ι : Type} {a : ι → EReal} (h : AllPos a) : AllNonneg a := fun i => (h i).isNonneg
theorem AllPos.allFin {ι : Type} {a : ι → EReal} (h : AllPos a) : AllFin a := fun i => (h i).isFin
theorem AllNonneg.allFin {ι : Type} {a : ι → EReal} (h : AllNonneg a) : AllFin a := fun i => (h i).isFin
/-- A finite extended real is neither infinity. -/
theorem IsFin.ne_top {x : EReal} (h : IsFin x) : x ≠ ⊤ := by obtain ⟨r, rfl⟩ := h; exact EReal.coe_ne_top r
theorem IsFin.ne_bot {x : EReal} (h : IsFin x) : x ≠ ⊥ := by obtain ⟨r, rfl⟩ := h; exact EReal.coe_ne_bot r
/-- And conversely. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-! ## The arithmetic of finite extended reals is the reals' -/

/-- The coercion of a maximum of reals is the maximum of the coercions. -/
theorem coe_max (a b : ℝ) : ((max a b : ℝ) : EReal) = max (a : EReal) (b : EReal) :=
  EReal.coe_strictMono.monotone.map_max

theorem isFin_add {x y : EReal} (hx : IsFin x) (hy : IsFin y) : IsFin (x + y) := by
  obtain ⟨a, rfl⟩ := hx; obtain ⟨b, rfl⟩ := hy; exact ⟨a + b, (EReal.coe_add a b).symm⟩
theorem isFin_sub {x y : EReal} (hx : IsFin x) (hy : IsFin y) : IsFin (x - y) := by
  obtain ⟨a, rfl⟩ := hx; obtain ⟨b, rfl⟩ := hy; exact ⟨a - b, (EReal.coe_sub a b).symm⟩
theorem isFin_mul {x y : EReal} (hx : IsFin x) (hy : IsFin y) : IsFin (x * y) := by
  obtain ⟨a, rfl⟩ := hx; obtain ⟨b, rfl⟩ := hy; exact ⟨a * b, (EReal.coe_mul a b).symm⟩
theorem isFin_neg {x : EReal} (hx : IsFin x) : IsFin (-x) := by
  obtain ⟨a, rfl⟩ := hx; exact ⟨-a, (EReal.coe_neg a).symm⟩
theorem isFin_max {x y : EReal} (hx : IsFin x) (hy : IsFin y) : IsFin (max x y) := by
  obtain ⟨a, rfl⟩ := hx; obtain ⟨b, rfl⟩ := hy; exact ⟨max a b, (coe_max a b).symm⟩

theorem isNonneg_add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem isNonneg_mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
theorem isPos_mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- A positive plus a nonnegative is positive. -/
theorem isPos_add_isNonneg {x y : EReal} (hx : IsPos x) (hy : IsNonneg y) : IsPos (x + y) := by
  obtain ⟨a, ha, rfl⟩ := hx; obtain ⟨b, hb, rfl⟩ := hy
  exact ⟨a + b, add_pos_of_pos_of_nonneg ha hb, (EReal.coe_add a b).symm⟩
/-- A nonnegative plus a positive is positive. -/
theorem isNonneg_add_isPos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
/-- The maximum of a finite extended real and zero is a nonnegative real. -/
theorem isNonneg_max_zero {x : EReal} (hx : IsFin x) : IsNonneg (max x 0) := by
  obtain ⟨a, rfl⟩ := hx
  exact ⟨max a 0, le_max_right _ _, by rw [coe_max, EReal.coe_zero]⟩
/-- The maximum of zero and a finite extended real, likewise. -/
theorem isNonneg_zero_max {x : EReal} (hx : IsFin x) : IsNonneg (max 0 x) := by
  rw [max_comm]; exact isNonneg_max_zero hx

/-! ## Finite sums -/

/-- The sum of the coercions of reals is the coercion of their sum. -/
theorem coe_sum {ι : Type} (s : Finset ι) (r : ι → ℝ) :
    ∑ i ∈ s, (r i : EReal) = ((∑ i ∈ s, r i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- A sum whose terms are the reals `r i` is the real `∑ r i`. -/
theorem sum_eq_coe {ι : Type} (s : Finset ι) (f : ι → EReal) (r : ι → ℝ) (h : ∀ i ∈ s, f i = (r i : EReal)) :
    ∑ i ∈ s, f i = ((∑ i ∈ s, r i : ℝ) : EReal) := by
  rw [← coe_sum]; exact Finset.sum_congr rfl h

/-- A finite sum of finite extended reals is finite. -/
theorem isFin_sum {ι : Type} (s : Finset ι) (f : ι → EReal) (h : ∀ i ∈ s, IsFin (f i)) : IsFin (∑ i ∈ s, f i) := by
  classical
  induction s using Finset.induction_on with
  | empty => rw [Finset.sum_empty]; exact isFin_zero
  | insert a s ha ih =>
    rw [Finset.sum_insert ha]
    exact isFin_add (h a (Finset.mem_insert_self a s)) (ih fun i hi => h i (Finset.mem_insert_of_mem hi))

/-- A finite sum of nonnegative reals is a nonnegative real. -/
theorem isNonneg_sum {ι : Type} (s : Finset ι) (f : ι → EReal) (h : ∀ i ∈ s, IsNonneg (f i)) :
    IsNonneg (∑ i ∈ s, f i) := by
  classical
  induction s using Finset.induction_on with
  | empty => rw [Finset.sum_empty]; exact isNonneg_zero
  | insert a s ha ih =>
    rw [Finset.sum_insert ha]
    exact isNonneg_add (h a (Finset.mem_insert_self a s)) (ih fun i hi => h i (Finset.mem_insert_of_mem hi))

/-! ## Division and the reciprocal square root -/

/-- Division of a real by a nonzero real, on the extended reals, is the real quotient. -/
theorem div_coe_coe (a : ℝ) {c : ℝ} (hc : c ≠ 0) : Ideal.div (a : EReal) (c : EReal) = ((a / c : ℝ) : EReal) := by
  rw [Ideal.div, if_neg (by exact_mod_cast hc), ← EReal.coe_inv, ← EReal.coe_mul, div_eq_mul_inv]

theorem isFin_div_coe {x : EReal} (hx : IsFin x) {c : ℝ} (hc : c ≠ 0) : IsFin (Ideal.div x (c : EReal)) := by
  obtain ⟨a, rfl⟩ := hx; exact ⟨a / c, div_coe_coe a hc⟩

theorem isNonneg_div_coe {x : EReal} (hx : IsNonneg x) {c : ℝ} (hc : 0 < c) : IsNonneg (Ideal.div x (c : EReal)) := by
  obtain ⟨a, ha, rfl⟩ := hx; exact ⟨a / c, div_nonneg ha hc.le, div_coe_coe a hc.ne'⟩

/-- The reciprocal square root of a positive real, on the extended reals, is the real one. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem isPos_rsqrt {x : EReal} (hx : IsPos x) : IsPos (Ideal.rsqrt x) := by
  obtain ⟨r, hr, rfl⟩ := hx
  exact ⟨(Real.sqrt r)⁻¹, inv_pos.mpr (Real.sqrt_pos.mpr hr), rsqrt_coe_pos hr⟩

/-! ## The float words of the network's constants -/

theorem ofBits_zero : Ideal.ofBits .f32 0x00000000#32 = 0 := Ideal.ofBits_zero_f32

theorem ofBits_one : Ideal.ofBits .f32 0x3F800000#32 = 1 := by
  simp [Ideal.ofBits, Ideal.ieee, -EReal.coe_mul]; norm_num

/-- The word of `100000.0`. -/
theorem ofBits_100000 : Ideal.ofBits .f32 0x47C35000#32 = ((100000 : ℝ) : EReal) := by
  simp [Ideal.ofBits, Ideal.ieee, -EReal.coe_mul]; norm_num

/-- The f32 nearest `1e-5`: `10995116 / 2^40`. -/
theorem ofBits_eps : Ideal.ofBits .f32 0x3727C5AC#32 = ((10995116 / 1099511627776 : ℝ) : EReal) := by
  simp [Ideal.ofBits, Ideal.ieee, -EReal.coe_mul]; norm_num

theorem isPos_ofBits_eps : IsPos (Ideal.ofBits .f32 0x3727C5AC#32) :=
  ⟨10995116 / 1099511627776, by norm_num, ofBits_eps⟩

/-! ## Arrays: the pointwise operations -/

section Pointwise
variable {s : Shape} {φ : FTy}

theorem allFin_mulf {a b : FVec Ideal s φ} (ha : AllFin a) (hb : AllFin b) : AllFin (mulf a b) :=
  fun i => isFin_mul (ha i) (hb i)
theorem allFin_addf {a b : FVec Ideal s φ} (ha : AllFin a) (hb : AllFin b) : AllFin (addf a b) :=
  fun i => isFin_add (ha i) (hb i)
theorem allFin_subf {a b : FVec Ideal s φ} (ha : AllFin a) (hb : AllFin b) : AllFin (subf a b) :=
  fun i => isFin_sub (ha i) (hb i)
theorem allFin_maximumf {a b : FVec Ideal s φ} (ha : AllFin a) (hb : AllFin b) : AllFin (maximumf a b) :=
  fun i => isFin_max (ha i) (hb i)
theorem allNonneg_mulf {a b : FVec Ideal s φ} (ha : AllNonneg a) (hb : AllNonneg b) : AllNonneg (mulf a b) :=
  fun i => isNonneg_mul (ha i) (hb i)
theorem allPos_mulf {a b : FVec Ideal s φ} (ha : AllPos a) (hb : AllPos b) : AllPos (mulf a b) :=
  fun i => isPos_mul (ha i) (hb i)
theorem allNonneg_addf {a b : FVec Ideal s φ} (ha : AllNonneg a) (hb : AllNonneg b) : AllNonneg (addf a b) :=
  fun i => isNonneg_add (ha i) (hb i)
/-- A nonnegative array plus a positive one is positive. -/
theorem allPos_addf_of_nonneg_pos {a b : FVec Ideal s φ} (ha : AllNonneg a) (hb : AllPos b) : AllPos (addf a b) :=
  fun i => isNonneg_add_isPos (ha i) (hb i)
/-- A positive array plus a nonnegative one is positive. -/
theorem allPos_addf_of_pos_nonneg {a b : FVec Ideal s φ} (ha : AllPos a) (hb : AllNonneg b) : AllPos (addf a b) :=
  fun i => isPos_add_isNonneg (ha i) (hb i)
/-- The maximum with an array of zeros (a `relu`, a clamp at zero) of a finite array is nonnegative. -/
theorem allNonneg_maximumf_zero {a z : FVec Ideal s φ} (ha : AllFin a) (hz : ∀ i, z i = 0) : AllNonneg (maximumf a z) :=
  fun i => by
    show IsNonneg (max (a i) (z i))
    rw [hz i]; exact isNonneg_max_zero (ha i)

/-- The host's quotient by an array whose every entry is the nonzero real `c`. -/
theorem allFin_hostDivf {x y : FVec Ideal s φ} {c : ℝ} (hc : c ≠ 0) (hx : AllFin x) (hy : ∀ i, y i = (c : EReal)) :
    AllFin (Host.divf x y) := fun i => by
  show IsFin (Ideal.div (x i) (y i))
  rw [hy i]; exact isFin_div_coe (hx i) hc
/-- The kernel's quotient, likewise. -/
theorem allFin_divf {x y : FVec Ideal s φ} {c : ℝ} (hc : c ≠ 0) (hx : AllFin x) (hy : ∀ i, y i = (c : EReal)) :
    AllFin (divf x y) := fun i => by
  show IsFin (Ideal.div (x i) (y i))
  rw [hy i]; exact isFin_div_coe (hx i) hc
/-- The host's reciprocal square root of a positive array is positive. -/
theorem allPos_hostRsqrt {x : FVec Ideal s φ} (hx : AllPos x) : AllPos (Host.rsqrt x) := fun i => by
  show IsPos (Ideal.rsqrt (x i))
  exact isPos_rsqrt (hx i)
/-- The kernel's, likewise. -/
theorem allPos_rsqrt {x : FVec Ideal s φ} (hx : AllPos x) : AllPos (rsqrt x) := fun i => by
  show IsPos (Ideal.rsqrt (x i))
  exact isPos_rsqrt (hx i)

/-- A splat of a word that denotes a real is all-finite. -/
theorem allFin_constant {b : BitVec φ.bits} (h : IsFin (Ideal.ofBits φ b)) : AllFin (constant (F := Ideal) s φ b) :=
  fun _ => h
theorem allFin_constant_zero : AllFin (constant (F := Ideal) s .f32 0x00000000#32) :=
  allFin_constant (by rw [ofBits_zero]; exact isFin_zero)
theorem allFin_constant_one : AllFin (constant (F := Ideal) s .f32 0x3F800000#32) :=
  allFin_constant (by rw [ofBits_one]; exact isFin_one)
theorem allFin_constant_100000 : AllFin (constant (F := Ideal) s .f32 0x47C35000#32) :=
  allFin_constant (by rw [ofBits_100000]; exact isFin_coe _)
theorem allFin_constant_eps : AllFin (constant (F := Ideal) s .f32 0x3727C5AC#32) :=
  allFin_constant isPos_ofBits_eps.isFin
theorem allPos_constant_eps : AllPos (constant (F := Ideal) s .f32 0x3727C5AC#32) := fun _ => isPos_ofBits_eps
theorem allPos_constant_one : AllPos (constant (F := Ideal) s .f32 0x3F800000#32) :=
  fun _ => by show IsPos (Ideal.ofBits .f32 0x3F800000#32); rw [ofBits_one]; exact isPos_one
theorem constant_one_apply (i : s.Idx) : constant (F := Ideal) s .f32 0x3F800000#32 i = 1 := ofBits_one
theorem constant_100000_apply (i : s.Idx) : constant (F := Ideal) s .f32 0x47C35000#32 i = ((100000 : ℝ) : EReal) :=
  ofBits_100000
theorem constant_eps_apply (i : s.Idx) :
    constant (F := Ideal) s .f32 0x3727C5AC#32 i = ((10995116 / 1099511627776 : ℝ) : EReal) := ofBits_eps

/-- A converted integer is a real number. -/
theorem allFin_sitofp {w : Nat} (x : IVec s w) : AllFin (sitofp (F := Ideal) φ x) := fun i => ⟨((x i).toInt : ℝ), rfl⟩

end Pointwise

/-! ## Arrays: re-indexings. Each result entry is a source entry. -/

section Reindex
variable {α : Type}

/-- If every entry of `y` is an entry of `x`, then `y` is all-finite / positive / nonnegative when `x` is. -/
theorem allFin_of_reads {ι κ : Type} {x : ι → EReal} {y : κ → EReal} (h : ∀ j, ∃ i, y j = x i) (hx : AllFin x) : AllFin y :=
  fun j => by obtain ⟨i, e⟩ := h j; rw [e]; exact hx i
theorem allPos_of_reads {ι κ : Type} {x : ι → EReal} {y : κ → EReal} (h : ∀ j, ∃ i, y j = x i) (hx : AllPos x) : AllPos y :=
  fun j => by obtain ⟨i, e⟩ := h j; rw [e]; exact hx i
theorem allNonneg_of_reads {ι κ : Type} {x : ι → EReal} {y : κ → EReal} (h : ∀ j, ∃ i, y j = x i) (hx : AllNonneg x) :
    AllNonneg y :=
  fun j => by obtain ⟨i, e⟩ := h j; rw [e]; exact hx i

theorem broadcastInDim_reads {s t : Shape} (dims : Fin s.rank → Fin t.rank) (h : s.BroadcastsInDim t dims) (x : s.Idx → α)
    (j : t.Idx) : ∃ i, broadcastInDim t dims h x j = x i := ⟨_, rfl⟩
theorem shapeCast_reads {s t : Shape} (x : s.Idx → α) (h : s.ShapeCasts t) (j : t.Idx) : ∃ i, shapeCast t x h j = x i :=
  ⟨_, rfl⟩
theorem extractStridedSlice_reads {s t : Shape} (off : Fin s.rank → Nat) (x : s.Idx → α) (h : s.Slices off t) (j : t.Idx) :
    ∃ i, extractStridedSlice t off x h j = x i := ⟨_, rfl⟩
theorem gather_reads {s si t : Shape} {w : Nat} (d : GatherDims s si t) (x : s.Idx → α) (idx : IVec si w) (j : t.Idx) :
    ∃ i, Host.gather d x idx j = x i := ⟨_, rfl⟩

theorem allFin_broadcastInDim {s t : Shape} (dims : Fin s.rank → Fin t.rank) (h : s.BroadcastsInDim t dims)
    {x : s.Idx → EReal} (hx : AllFin x) : AllFin (broadcastInDim t dims h x) := fun _ => hx _
theorem allPos_broadcastInDim {s t : Shape} (dims : Fin s.rank → Fin t.rank) (h : s.BroadcastsInDim t dims)
    {x : s.Idx → EReal} (hx : AllPos x) : AllPos (broadcastInDim t dims h x) := fun _ => hx _
theorem allNonneg_broadcastInDim {s t : Shape} (dims : Fin s.rank → Fin t.rank) (h : s.BroadcastsInDim t dims)
    {x : s.Idx → EReal} (hx : AllNonneg x) : AllNonneg (broadcastInDim t dims h x) := fun _ => hx _
theorem allFin_shapeCast {s t : Shape} {x : s.Idx → EReal} (h : s.ShapeCasts t) (hx : AllFin x) :
    AllFin (shapeCast t x h) := fun _ => hx _
theorem allFin_extractStridedSlice {s t : Shape} (off : Fin s.rank → Nat) {x : s.Idx → EReal} (h : s.Slices off t)
    (hx : AllFin x) : AllFin (extractStridedSlice t off x h) := fun _ => hx _
theorem allFin_gather {s si t : Shape} {w : Nat} (d : GatherDims s si t) {x : s.Idx → EReal} (idx : IVec si w)
    (hx : AllFin x) : AllFin (Host.gather d x idx) := fun _ => hx _
theorem allPos_gather {s si t : Shape} {w : Nat} (d : GatherDims s si t) {x : s.Idx → EReal} (idx : IVec si w)
    (hx : AllPos x) : AllPos (Host.gather d x idx) := fun _ => hx _
theorem allNonneg_gather {s si t : Shape} {w : Nat} (d : GatherDims s si t) {x : s.Idx → EReal} (idx : IVec si w)
    (hx : AllNonneg x) : AllNonneg (Host.gather d x idx) := fun _ => hx _

end Reindex

/-! ## Arrays: sums -/

section Sums
variable {φ : FTy}

/-- A scatter-add of finite updates into a finite seed is finite: each entry is the seed's plus a finite sum. -/
theorem allFin_scatterAdd {s si su : Shape} {w : Nat} (d : ScatterDims s si su) {x : FVec Ideal s φ} (idx : IVec si w)
    {u : FVec Ideal su φ} (hx : AllFin x) (hu : AllFin u) : AllFin (Host.scatterAdd (F := Ideal) d x idx u) := fun i => by
  show IsFin (x i + ∑ j ∈ Finset.univ.filter (fun j => d.resultIdx? j idx = some i), u j)
  exact isFin_add (hx i) (isFin_sum _ _ fun j _ => hu j)

/-- … and of nonnegative updates into a nonnegative seed, nonnegative. -/
theorem allNonneg_scatterAdd {s si su : Shape} {w : Nat} (d : ScatterDims s si su) {x : FVec Ideal s φ} (idx : IVec si w)
    {u : FVec Ideal su φ} (hx : AllNonneg x) (hu : AllNonneg u) : AllNonneg (Host.scatterAdd (F := Ideal) d x idx u) :=
  fun i => by
    show IsNonneg (x i + ∑ j ∈ Finset.univ.filter (fun j => d.resultIdx? j idx = some i), u j)
    exact isNonneg_add (hx i) (isNonneg_sum _ _ fun j _ => hu j)

/-- The host's sum over axes, from a finite initial value, of a finite array is finite. -/
theorem allFin_reduceAdd {s t u : Shape} {axes : List (Fin s.rank)} {x : FVec Ideal s φ} {init : u.Idx → Ideal φ}
    (h : s.ReducesTo axes t) (hu : 0 < u.numel) (hx : AllFin x) (hi : AllFin init) :
    AllFin (Host.reduceAdd (F := Ideal) x init h hu) := fun j => by
  show IsFin (init (Shape.Idx.first hu) + ∑ i ∈ Finset.univ.filter (fun i => h.drop i = j), x i)
  exact isFin_add (hi _) (isFin_sum _ _ fun i _ => hx i)

/-- The matrix unit's product into a finite accumulator of finite operands is finite. -/
theorem allFin_matmul {sl sr so : Shape} {φ₁ φ₂ : FTy} (d : DotDims sl sr so) (prec : Option ContractPrecision)
    {l : FVec Ideal sl φ₁} {r : FVec Ideal sr φ₂} {acc : FVec Ideal so .f32} (hl : AllFin l) (hr : AllFin r)
    (hacc : AllFin acc) : AllFin (FloatOps.matmul (F := Ideal) d prec l r acc) := fun j => by
  show IsFin (acc j + ∑ k : d.contr.Idx, l (d.lhsIdx j k) * r (d.rhsIdx j k))
  exact isFin_add (hacc j) (isFin_sum _ _ fun k _ => isFin_mul (hl _) (hr _))

/-- The host's product of finite operands is finite. -/
theorem allFin_dotGeneral {sl sr so : Shape} {φ₁ φ₂ : FTy} (d : DotDims sl sr so) (prec : Option ContractPrecision)
    {l : FVec Ideal sl φ₁} {r : FVec Ideal sr φ₂} (hl : AllFin l) (hr : AllFin r) :
    AllFin (Host.dotGeneral (F := Ideal) d prec l r) := fun j => by
  show IsFin ((0 : EReal) + ∑ k : d.contr.Idx, l (d.lhsIdx j k) * r (d.rhsIdx j k))
  exact isFin_add isFin_zero (isFin_sum _ _ fun k _ => isFin_mul (hl _) (hr _))

/-- A kernel's sum over axes (`vector.multi_reduction <add>` read on the extended reals) of a finite array is finite. -/
theorem allFin_idealReduceAdd {s t : Shape} {axes : List (Fin s.rank)} (h : s.Reduces axes t) {x : s.Idx → EReal}
    (hx : AllFin x) : AllFin (Ideal.reduceAdd h x) := fun j => by
  show IsFin (∑ i ∈ Finset.univ.filter (fun i => h.drop i = j), x i)
  exact isFin_sum _ _ fun i _ => hx i

end Sums

/-! ## The node degree is positive -/

section Degree
variable {φ : FTy}

/-- Scattering ones into zeros and adding one: each entry is one plus the number of updates that land on it. -/
theorem degree_apply {s si su : Shape} {w : Nat} (d : ScatterDims s si su) (idx : IVec si w) {z o' : FVec Ideal s φ}
    {o : FVec Ideal su φ} (hz : ∀ i, z i = 0) (ho : ∀ j, o j = 1) (ho' : ∀ i, o' i = 1) (i : s.Idx) :
    addf (Host.scatterAdd (F := Ideal) d z idx o) o' i
      = ((((Finset.univ.filter (fun j => d.resultIdx? j idx = some i)).card : ℝ) + 1 : ℝ) : EReal) := by
  show (z i + ∑ j ∈ Finset.univ.filter (fun j => d.resultIdx? j idx = some i), o j) + o' i = _
  rw [hz i, ho' i, zero_add, sum_eq_coe _ o (fun _ => (1 : ℝ)) (fun j _ => by rw [ho j, EReal.coe_one]),
    Finset.sum_const, nsmul_eq_mul, mul_one, EReal.coe_add, EReal.coe_one]

/-- So that array is positive. -/
theorem allPos_degree_of {s si su : Shape} {w : Nat} (d : ScatterDims s si su) (idx : IVec si w) {z o' : FVec Ideal s φ}
    {o : FVec Ideal su φ} (hz : ∀ i, z i = 0) (ho : ∀ j, o j = 1) (ho' : ∀ i, o' i = 1) :
    AllPos (addf (Host.scatterAdd (F := Ideal) d z idx o) o') := fun i =>
  ⟨_, by positivity, degree_apply d idx hz ho ho' i⟩

/-- The same with the three arrays written as constant functions. -/
theorem allPos_degree {s si su : Shape} {w : Nat} (d : ScatterDims s si su) (idx : IVec si w) :
    AllPos (addf (Host.scatterAdd (F := Ideal) (φ := φ) d (fun _ => 0) idx (fun _ => 1)) (fun _ => 1)) :=
  allPos_degree_of d idx (fun _ => rfl) (fun _ => rfl) (fun _ => rfl)

/-- The same with the arrays as a program writes them: splats of the zero and the one word. -/
theorem allPos_degree_constant {s si su : Shape} {w : Nat} (d : ScatterDims s si su) (idx : IVec si w) :
    AllPos (addf (Host.scatterAdd (F := Ideal) d (constant (F := Ideal) s .f32 0x00000000#32) idx
      (constant (F := Ideal) su .f32 0x3F800000#32)) (constant (F := Ideal) s .f32 0x3F800000#32)) :=
  allPos_degree_of d idx (fun _ => ofBits_zero) (fun _ => ofBits_one) (fun _ => ofBits_one)

end Degree

/-! ## A variance's divisor with no correction, and the select on its sign -/

/-- The converted integer zero is the real zero. -/
theorem sitofp_zero {φ : FTy} : FloatOps.sitofp (F := Ideal) φ (0#32 : BitVec 32) = 0 := by
  show (((0#32 : BitVec 32).toInt : ℝ) : EReal) = 0
  simp

/-- The count `100000` minus the converted integer zero (a variance's divisor with no correction) is `100000`. -/
theorem ofBits_100000_sub_sitofp_zero :
    Ideal.ofBits .f32 0x47C35000#32 - FloatOps.sitofp (F := Ideal) .f32 (0#32 : BitVec 32) = ((100000 : ℝ) : EReal) := by
  rw [sitofp_zero, sub_zero, ofBits_100000]

/-- A positive real compares greater than the zero word. -/
theorem cmp_ogt_zero_of_pos {r : ℝ} (hr : 0 < r) : Ideal.cmp .ogt (r : EReal) (Ideal.ofBits .f32 0x00000000#32) = 1#1 := by
  rw [ofBits_zero]
  have h : (0 : EReal) < (r : EReal) := by exact_mod_cast hr
  simp [Ideal.cmp, h]

/-- So a select on "the divisor `100000 - 0` is greater than zero" takes its first operand. -/
theorem select_divisor_pos {α : Type} (a b : α) :
    Scalar.select (FloatOps.cmpf (F := Ideal) (φ := .f32) .ogt
        (Ideal.ofBits .f32 0x47C35000#32 - FloatOps.sitofp (F := Ideal) .f32 (0#32 : BitVec 32))
        (Ideal.ofBits .f32 0x00000000#32)) a b = a := by
  rw [ofBits_100000_sub_sitofp_zero]
  show Scalar.select (Ideal.cmp .ogt ((100000 : ℝ) : EReal) (Ideal.ofBits .f32 0x00000000#32)) a b = a
  rw [cmp_ogt_zero_of_pos (by norm_num)]
  exact select_one a b

/-! ## From "the absolute value is below infinity" to finite -/

/-- The word `0x7F800000` is `+∞`. -/
theorem ofBits_inf : Ideal.ofBits .f32 0x7F800000#32 = ⊤ := by simp [Ideal.ofBits, Ideal.ieee]

/-- An extended real whose absolute value compares below the infinity word is a real number. -/
theorem isFin_of_abs_lt_inf {x : EReal}
    (h : Ideal.cmp .olt (max x (-x)) (Ideal.ofBits .f32 0x7F800000#32) = 1#1) : IsFin x := by
  rw [ofBits_inf] at h
  induction x using EReal.rec with
  | bot => simp [Ideal.cmp] at h
  | top => simp [Ideal.cmp] at h
  | coe r => exact ⟨r, rfl⟩

/-- An array every entry of whose absolute value compares below an array of infinity words is all-finite. -/
theorem allFin_of_cmpf_olt_absf {s : Shape} {x y : FVec Ideal s .f32} (hy : ∀ i, y i = Ideal.ofBits .f32 0x7F800000#32)
    (h : ∀ i, cmpf .olt (Host.absf x) y i = 1#1) : AllFin x := fun i => by
  have hi := h i
  rw [cmpf_apply, hy i] at hi
  exact isFin_of_abs_lt_inf hi

/-! ## Real witnesses, and a normalised entry -/

/-- An all-finite array is the coercion of an array of reals. -/
theorem AllFin.exists_real {ι : Type} {a : ι → EReal} (h : AllFin a) : ∃ r : ι → ℝ, ∀ i, a i = (r i : EReal) :=
  ⟨fun i => (h i).choose, fun i => (h i).choose_spec⟩

/-- A normalised entry `(a - m) * rsqrt (v + e) * g + b` is finite when `a`, `m`, `g`, `b` are, the variance `v` is a
    nonnegative real and `e` a positive one. -/
theorem isFin_normalised {a m v e g b : EReal} (ha : IsFin a) (hm : IsFin m) (hv : IsNonneg v) (he : IsPos e)
    (hg : IsFin g) (hb : IsFin b) : IsFin ((a - m) * Ideal.rsqrt (v + e) * g + b) :=
  isFin_add (isFin_mul (isFin_mul (isFin_sub ha hm) (isPos_rsqrt (isNonneg_add_isPos hv he)).isFin) hg) hb

end Cert.Gcn

end
-- ==== Proof.LibPoolLaws.lean ====
/-
  Laws on the extended reals for a binary tree of pooled keys and values, and for attention over its nodes.

  A LEVEL of the tree takes two children rows of keys k0, k1 and two of values v0, v1. The parent key is their mean
  p = (k0 + k1) / 2. Three scores follow, inner products scaled by a real c: A of p with itself, B of p with k0, C of
  p with k1. Because 2 p p = p (k0 + k1) entry by entry, C = 2 A - B (score_second, score_mean_second): one side may
  compute the third inner product, the other take it from the first two. The identity needs every entry to be a real
  number, since on the extended reals a product does not distribute over a sum at the infinities. With m the largest
  score, the weights are e^(A-m), e^(B-m), e^(C-m) over their sum plus a positive eps (a positive real: isPos_den,
  isPos_wDen). The parent value is the weighted sum of the values' mean, v0 and v1; over the common denominator that
  is v0 weighted by e^(A-m)/2 + e^(B-m) plus v1 weighted by e^(A-m)/2 + e^(C-m) (mix_eq, mixKer_eq_mixRef;
  level_value_eq joins this with C = 2 A - B). Means, scores and mixed values of reals are reals (allFin_meanRow,
  isFin_score, isFin_mixKer, isFin_mixRef, isFin_level_value), so an induction over the levels goes through.

  ATTENTION over the nodes: the softmax of real scores, taken after subtracting any real M from each, used as
  weights on real values, equals the sum of e^(s k) v k over the sum of e^(s k) (softmax_weighted_real); one extra
  key of score 0 with a zero value row adds e^0 · 0 to the numerator and e^0 = 1 to the denominator, and the 1 is
  subtracted again (softmax_extra_row; softmax_last_zero with the extra row as the arrays' last index). Scaling one
  factor of every product by c before an inner product is scaling the inner product by c (sum_scaled_mul).

  Each law is stated over the reals first, then on the extended reals with the library's own operations
  (Ideal.div, Ideal.exp, the extended reals' sum, product, difference and maximum) under the hypothesis that every
  entry is a real number. First come the real values of the float words these formulas use.
-/
import proofs.«208975_g36283883717458_cont_8to1_b_1954_30_alg».proof.Proof.LibEFinite

noncomputable section

open Idealize.ShloMosaic

namespace Cert.PoolLaws

open Cert.Gcn
open scoped BigOperators

/-! ## The float words of the constants -/

/-- The word of 0.5 denotes the real 1/2. -/
theorem ofBits_half : Ideal.ofBits .f32 0x3F000000#32 = ((1 / 2 : ℝ) : EReal) := by
  simp [Ideal.ofBits, Ideal.ieee, -EReal.coe_mul]; norm_num

/-- The word of 2.0 denotes the real 2. -/
theorem ofBits_two : Ideal.ofBits .f32 0x40000000#32 = ((2 : ℝ) : EReal) := by
  simp [Ideal.ofBits, Ideal.ieee, -EReal.coe_mul]; norm_num

/-- The f32 nearest 1/sqrt 128 is the dyadic 11863283 / 2^27, a positive real. -/
theorem ofBits_rsqrt128 : Ideal.ofBits .f32 0x3DB504F3#32 = ((11863283 / 134217728 : ℝ) : EReal) := by
  simp [Ideal.ofBits, Ideal.ieee, -EReal.coe_mul]; norm_num

/-- The f32 nearest 1e-9 is the dyadic 9007199 / 2^53, a positive real. -/
theorem ofBits_1em9 : Ideal.ofBits .f32 0x3089705F#32 = ((9007199 / 9007199254740992 : ℝ) : EReal) := by
  simp [Ideal.ofBits, Ideal.ieee, -EReal.coe_mul]; norm_num

/-- The f32 word with the sign set, the exponent all ones and the significand zero denotes minus infinity. -/
theorem ofBits_neg_inf : Ideal.ofBits .f32 0xFF800000#32 = ⊥ := by simp [Ideal.ofBits, Ideal.ieee]

/-- The bf16 zero word denotes 0. -/
theorem ofBits_zero_bf16 : Ideal.ofBits .bf16 0x0000#16 = 0 := by simp [Ideal.ofBits, Ideal.ieee]

/-! ## More closure facts: real witnesses, the exponential, a quotient by a positive real -/

/-- An all-finite array IS the coercion of an array of reals. -/
theorem allFin_eq_coe {ι : Type} {a : ι → EReal} (h : AllFin a) : ∃ r : ι → ℝ, a = fun i => (r i : EReal) :=
  let ⟨r, hr⟩ := h.exists_real; ⟨r, funext hr⟩

/-- The exponential of a difference of two reals, on the extended reals, is the real e^(a - m). -/
theorem exp_coe_sub (a m : ℝ) : Ideal.exp ((a : EReal) - (m : EReal)) = ((Real.exp (a - m) : ℝ) : EReal) := by
  rw [← EReal.coe_sub]; rfl

/-- The exponential of zero is one. -/
theorem exp_zero : Ideal.exp 0 = 1 := by
  rw [← EReal.coe_zero, Ideal.exp_coe, Real.exp_zero, EReal.coe_one]

/-- The exponential of a finite extended real is a positive real. -/
theorem isPos_exp {x : EReal} (hx : IsFin x) : IsPos (Ideal.exp x) := by
  obtain ⟨r, rfl⟩ := hx; exact ⟨Real.exp r, Real.exp_pos r, Ideal.exp_coe r⟩

/-- The quotient of a real by a positive real is a real. -/
theorem isFin_div_isPos {x y : EReal} (hx : IsFin x) (hy : IsPos y) : IsFin (Ideal.div x y) := by
  obtain ⟨d, hd, rfl⟩ := hy; exact isFin_div_coe hx hd.ne'

/-- The quotient of a nonnegative real by a positive real is a nonnegative real. -/
theorem isNonneg_div_isPos {x y : EReal} (hx : IsNonneg x) (hy : IsPos y) : IsNonneg (Ideal.div x y) := by
  obtain ⟨d, hd, rfl⟩ := hy; exact isNonneg_div_coe hx hd

/-- Half the sum of two reals is a real. -/
theorem isFin_half_add {x y : EReal} (hx : IsFin x) (hy : IsFin y) : IsFin (((1 / 2 : ℝ) : EReal) * (x + y)) :=
  isFin_mul (isFin_coe _) (isFin_add hx hy)

/-! ## The laws over the reals -/

section Reals
variable {ι : Type} [Fintype ι]

/-- With p the mean of rows x and y, the inner product of p with y is twice that of p with itself minus that of p
    with x: entry by entry 2 p p = p (x + y). -/
theorem sum_mean_mul_right_real (x y : ι → ℝ) :
    ∑ i, (1 / 2 * (x i + y i)) * y i
      = 2 * (∑ i, (1 / 2 * (x i + y i)) * (1 / 2 * (x i + y i))) - ∑ i, (1 / 2 * (x i + y i)) * x i := by
  rw [Finset.mul_sum, ← Finset.sum_sub_distrib]
  exact Finset.sum_congr rfl fun i _ => by ring

/-- The same after the scale c: the score of the mean against the second child is twice its score against itself
    minus its score against the first child. -/
theorem score_second_real (x y : ι → ℝ) (c : ℝ) :
    (∑ i, (1 / 2 * (x i + y i)) * y i) * c
      = 2 * ((∑ i, (1 / 2 * (x i + y i)) * (1 / 2 * (x i + y i))) * c) - (∑ i, (1 / 2 * (x i + y i)) * x i) * c := by
  rw [sum_mean_mul_right_real]; ring

/-- Three weights a/d, b/d, c/d applied to the mean of two values and to the two values themselves are, over the common
    denominator, the first value weighted by a/2 + b plus the second weighted by a/2 + c. -/
theorem mix_real {a b c d x0 x1 : ℝ} (hd : d ≠ 0) :
    a / d * (1 / 2 * (x0 + x1)) + b / d * x0 + c / d * x1
      = ((1 / 2 * a + b) * x0 + (1 / 2 * a + c) * x1) / d := by
  field_simp; ring

/-- Three exponentials plus a positive number is positive. -/
theorem den_pos_real (a b c m : ℝ) {eps : ℝ} (heps : 0 < eps) :
    0 < Real.exp (a - m) + Real.exp (b - m) + Real.exp (c - m) + eps := by positivity

/-- A softmax taken after subtracting any number M from every score, then used as weights on v, is the sum of
    e^(s k) v k over the sum of e^(s k): the factor e^(-M) cancels. (With no index both sides are 0.) -/
theorem softmax_weighted_real (s v : ι → ℝ) (M : ℝ) :
    ∑ k, Real.exp (s k - M) / (∑ j, Real.exp (s j - M)) * v k
      = (∑ k, Real.exp (s k) * v k) / ∑ k, Real.exp (s k) := by
  have hM : Real.exp M ≠ 0 := (Real.exp_pos M).ne'
  have hZ : ∑ j, Real.exp (s j - M) = (∑ j, Real.exp (s j)) / Real.exp M := by
    rw [Finset.sum_div]; exact Finset.sum_congr rfl fun j _ => Real.exp_sub _ _
  rw [Finset.sum_div, hZ]
  refine Finset.sum_congr rfl fun k _ => ?_
  rw [Real.exp_sub, div_div_div_cancel_right₀ hM, div_mul_eq_mul_div]

/-- The same against a sum that carries one extra key of score 0 with an all-zero value row, the extra 1 in the
    denominator subtracted again. -/
theorem softmax_extra_row_real (s v : ι → ℝ) (M : ℝ) :
    ∑ k, Real.exp (s k - M) / (∑ j, Real.exp (s j - M)) * v k
      = ((∑ k, Real.exp (s k) * v k) + Real.exp 0 * 0) / (((∑ k, Real.exp (s k)) + Real.exp 0) - 1) := by
  rw [softmax_weighted_real, Real.exp_zero, mul_zero, add_zero, add_sub_cancel_right]

/-- Scaling one factor of every product by c scales the sum of the products by c. -/
theorem sum_scaled_mul_real (x y : ι → ℝ) (c : ℝ) : ∑ i, (x i * c) * y i = (∑ i, x i * y i) * c := by
  rw [Finset.sum_mul]; exact Finset.sum_congr rfl fun i _ => by ring

end Reals

/-! ## The laws on the extended reals -/

section EReals
variable {ι : Type} [Fintype ι]

/-- For rows x, y of reals and p their mean, the score (∑ p y) c equals 2 ((∑ p p) c) - (∑ p x) c, all sums,
    products and the difference being the extended reals' own: on reals they are the reals'. The finiteness is needed:
    the product does not distribute over the sum at the infinities. -/
theorem score_second {x y p : ι → EReal} (hx : AllFin x) (hy : AllFin y)
    (hp : ∀ i, p i = ((1 / 2 : ℝ) : EReal) * (x i + y i)) (c : ℝ) :
    (∑ i, p i * y i) * (c : EReal)
      = ((2 : ℝ) : EReal) * ((∑ i, p i * p i) * (c : EReal)) - (∑ i, p i * x i) * (c : EReal) := by
  obtain ⟨a, rfl⟩ := allFin_eq_coe hx
  obtain ⟨b, rfl⟩ := allFin_eq_coe hy
  obtain rfl : p = fun i => ((1 / 2 * (a i + b i) : ℝ) : EReal) :=
    funext fun i => by rw [hp i, ← EReal.coe_add, ← EReal.coe_mul]
  simp only [← EReal.coe_mul, coe_sum, ← EReal.coe_sub]
  exact congrArg _ (score_second_real a b c)

/-- Scaling one factor of every product by the real c scales the sum of the products by c, for rows of reals. -/
theorem sum_scaled_mul {x y : ι → EReal} (hx : AllFin x) (hy : AllFin y) (c : ℝ) :
    ∑ i, (x i * (c : EReal)) * y i = (∑ i, x i * y i) * (c : EReal) := by
  obtain ⟨a, rfl⟩ := allFin_eq_coe hx
  obtain ⟨b, rfl⟩ := allFin_eq_coe hy
  simp only [← EReal.coe_mul, coe_sum]
  exact congrArg _ (sum_scaled_mul_real a b c)

/-- Three weights a/d, b/d, c/d on the mean of two values and on the values themselves, against the first value
    weighted by a/2 + b plus the second by a/2 + c, over d: equal for reals a, b, c, x0, x1 and a positive real d. -/
theorem mix_eq {a b c d x0 x1 : EReal} (ha : IsFin a) (hb : IsFin b) (hc : IsFin c) (hd : IsPos d)
    (h0 : IsFin x0) (h1 : IsFin x1) :
    Ideal.div a d * (((1 / 2 : ℝ) : EReal) * (x0 + x1)) + Ideal.div b d * x0 + Ideal.div c d * x1
      = Ideal.div ((((1 / 2 : ℝ) : EReal) * a + b) * x0 + (((1 / 2 : ℝ) : EReal) * a + c) * x1) d := by
  obtain ⟨a, rfl⟩ := ha; obtain ⟨b, rfl⟩ := hb; obtain ⟨c, rfl⟩ := hc
  obtain ⟨d, hd, rfl⟩ := hd; obtain ⟨x0, rfl⟩ := h0; obtain ⟨x1, rfl⟩ := h1
  simp only [← EReal.coe_add, ← EReal.coe_mul, div_coe_coe _ hd.ne']
  exact congrArg _ (mix_real hd.ne')

/-- The denominator: three exponentials of differences of reals plus a positive real is a positive real. -/
theorem isPos_den {A B C m : EReal} (hA : IsFin A) (hB : IsFin B) (hC : IsFin C) (hm : IsFin m) {eps : ℝ}
    (heps : 0 < eps) : IsPos (Ideal.exp (A - m) + Ideal.exp (B - m) + Ideal.exp (C - m) + (eps : EReal)) :=
  isPos_add_isNonneg
    (isPos_add_isNonneg (isPos_add_isNonneg (isPos_exp (isFin_sub hA hm)) (isPos_exp (isFin_sub hB hm)).isNonneg)
      (isPos_exp (isFin_sub hC hm)).isNonneg)
    (isNonneg_coe heps.le)

/-- The mixed value, in the second form, is a real. -/
theorem isFin_mix {a b c d x0 x1 : EReal} (ha : IsFin a) (hb : IsFin b) (hc : IsFin c) (hd : IsPos d)
    (h0 : IsFin x0) (h1 : IsFin x1) :
    IsFin (Ideal.div ((((1 / 2 : ℝ) : EReal) * a + b) * x0 + (((1 / 2 : ℝ) : EReal) * a + c) * x1) d) :=
  isFin_div_isPos
    (isFin_add (isFin_mul (isFin_add (isFin_mul (isFin_coe _) ha) hb) h0)
      (isFin_mul (isFin_add (isFin_mul (isFin_coe _) ha) hc) h1)) hd

end EReals

/-! ## Attention over the nodes: a softmax against one extra all-zero row -/

section Softmax
variable {ι : Type} [Fintype ι]

/-- For real scores s, real values v and any real M: the softmax of s (each exponential taken after subtracting
    M), used as weights on v, equals the sum of e^(s k) v k, plus the product e^0 · 0 of one extra key of score 0 with
    a zero value, over the sum of e^(s k) plus e^0 minus 1. At least one index is needed: with none the left side is
    0 and the right side 0 / 0. -/
theorem softmax_extra_row [Nonempty ι] {s v : ι → EReal} (hs : AllFin s) (hv : AllFin v) {M : EReal} (hM : IsFin M) :
    ∑ k, Ideal.div (Ideal.exp (s k - M)) (∑ j, Ideal.exp (s j - M)) * v k
      = Ideal.div ((∑ k, Ideal.exp (s k) * v k) + Ideal.exp 0 * 0) (((∑ k, Ideal.exp (s k)) + Ideal.exp 0) - 1) := by
  obtain ⟨s, rfl⟩ := allFin_eq_coe hs
  obtain ⟨v, rfl⟩ := allFin_eq_coe hv
  obtain ⟨M, rfl⟩ := hM
  have hZ' : (∑ j, Real.exp (s j - M)) ≠ 0 :=
    (Finset.sum_pos (fun j _ => Real.exp_pos _) Finset.univ_nonempty).ne'
  have hZ : (∑ j, Real.exp (s j)) ≠ 0 :=
    (Finset.sum_pos (fun j _ => Real.exp_pos _) Finset.univ_nonempty).ne'
  have hL : ∀ k, Ideal.div (Ideal.exp ((s k : EReal) - (M : EReal))) (∑ j, Ideal.exp ((s j : EReal) - (M : EReal)))
        * (v k : EReal) = ((Real.exp (s k - M) / (∑ j, Real.exp (s j - M)) * v k : ℝ) : EReal) := fun k => by
    rw [sum_eq_coe _ _ (fun j => Real.exp (s j - M)) (fun j _ => exp_coe_sub _ _), exp_coe_sub,
      div_coe_coe _ hZ', ← EReal.coe_mul]
  have hnum : (∑ k, Ideal.exp ((s k : ℝ) : EReal) * ((v k : ℝ) : EReal)) + Ideal.exp 0 * 0
      = ((∑ k, Real.exp (s k) * v k : ℝ) : EReal) := by
    rw [mul_zero, add_zero,
      sum_eq_coe _ _ (fun k => Real.exp (s k) * v k) (fun k _ => by rw [Ideal.exp_coe, ← EReal.coe_mul])]
  have hden : ((∑ k, Ideal.exp ((s k : ℝ) : EReal)) + Ideal.exp 0) - 1 = ((∑ k, Real.exp (s k) : ℝ) : EReal) := by
    rw [exp_zero, sum_eq_coe _ _ (fun k => Real.exp (s k)) (fun k _ => Ideal.exp_coe _), ← EReal.coe_one,
      ← EReal.coe_add, ← EReal.coe_sub, add_sub_cancel_right]
  simp only [hL, coe_sum]
  rw [hnum, hden, div_coe_coe _ hZ]
  exact congrArg _ (softmax_weighted_real s v M)

/-- The same with the extra row inside the arrays: for s, v indexed by n + 1 keys whose last score and last value
    are 0 and whose first n are reals (n at least 1), the softmax-weighted sum over the first n keys is the sum of
    e^(s k) v k over all n + 1 keys divided by the sum of e^(s k) over all n + 1 keys minus 1. -/
theorem softmax_last_zero {n : ℕ} (hn : 0 < n) {s v : Fin (n + 1) → EReal}
    (hs : ∀ k : Fin n, IsFin (s k.castSucc)) (hv : ∀ k : Fin n, IsFin (v k.castSucc))
    (hs0 : s (Fin.last n) = 0) (hv0 : v (Fin.last n) = 0) {M : EReal} (hM : IsFin M) :
    ∑ k : Fin n, Ideal.div (Ideal.exp (s k.castSucc - M)) (∑ j : Fin n, Ideal.exp (s j.castSucc - M)) * v k.castSucc
      = Ideal.div (∑ k, Ideal.exp (s k) * v k) ((∑ k, Ideal.exp (s k)) - 1) := by
  haveI : Nonempty (Fin n) := ⟨⟨0, hn⟩⟩
  rw [Fin.sum_univ_castSucc (fun k => Ideal.exp (s k) * v k), Fin.sum_univ_castSucc (fun k => Ideal.exp (s k)),
    hs0, hv0]
  exact softmax_extra_row (s := fun k : Fin n => s k.castSucc) (v := fun k : Fin n => v k.castSucc) hs hv hM

/-- The softmax-weighted sum of real values is a real. -/
theorem isFin_softmax_weighted [Nonempty ι] {s v : ι → EReal} (hs : AllFin s) (hv : AllFin v) {M : EReal}
    (hM : IsFin M) : IsFin (∑ k, Ideal.div (Ideal.exp (s k - M)) (∑ j, Ideal.exp (s j - M)) * v k) := by
  have hpos : IsPos (∑ j, Ideal.exp (s j - M)) := by
    classical
    obtain ⟨j0⟩ := (inferInstance : Nonempty ι)
    rw [← Finset.add_sum_erase _ _ (Finset.mem_univ j0)]
    exact isPos_add_isNonneg (isPos_exp (isFin_sub (hs j0) hM))
      (isNonneg_sum _ _ fun j _ => (isPos_exp (isFin_sub (hs j) hM)).isNonneg)
  exact isFin_sum _ _ fun k _ => isFin_mul (isFin_div_isPos (isPos_exp (isFin_sub (hs k) hM)).isFin hpos) (hv k)

/-- The law softmax_extra_row with each value written before its weight. -/
theorem softmax_extra_row_comm [Nonempty ι] {s v : ι → EReal} (hs : AllFin s) (hv : AllFin v) {M : EReal}
    (hM : IsFin M) :
    ∑ k, v k * Ideal.div (Ideal.exp (s k - M)) (∑ j, Ideal.exp (s j - M))
      = Ideal.div ((∑ k, Ideal.exp (s k) * v k) + Ideal.exp 0 * 0) (((∑ k, Ideal.exp (s k)) + Ideal.exp 0) - 1) := by
  rw [← softmax_extra_row hs hv hM]; exact Finset.sum_congr rfl fun k _ => mul_comm _ _

/-- The law softmax_last_zero with each value written before its weight. -/
theorem softmax_last_zero_comm {n : ℕ} (hn : 0 < n) {s v : Fin (n + 1) → EReal}
    (hs : ∀ k : Fin n, IsFin (s k.castSucc)) (hv : ∀ k : Fin n, IsFin (v k.castSucc))
    (hs0 : s (Fin.last n) = 0) (hv0 : v (Fin.last n) = 0) {M : EReal} (hM : IsFin M) :
    ∑ k : Fin n, v k.castSucc * Ideal.div (Ideal.exp (s k.castSucc - M)) (∑ j : Fin n, Ideal.exp (s j.castSucc - M))
      = Ideal.div (∑ k, Ideal.exp (s k) * v k) ((∑ k, Ideal.exp (s k)) - 1) := by
  rw [← softmax_last_zero hn hs hv hs0 hv0 hM]; exact Finset.sum_congr rfl fun k _ => mul_comm _ _

end Softmax

/-! ## One level of the tree, packaged -/

section Level
variable {ι : Type} [Fintype ι]

/-- The mean of two rows, entry by entry. -/
def meanRow (x y : ι → EReal) : ι → EReal := fun i => ((1 / 2 : ℝ) : EReal) * (x i + y i)

/-- The inner product of two rows, scaled by c. -/
def score (c : ℝ) (x y : ι → EReal) : EReal := (∑ i, x i * y i) * (c : EReal)

/-- The weights' denominator for three scores: each exponential taken after subtracting the largest score, plus eps. -/
def wDen (eps : ℝ) (A B C : EReal) : EReal :=
  Ideal.exp (A - max A (max B C)) + Ideal.exp (B - max A (max B C)) + Ideal.exp (C - max A (max B C)) + (eps : EReal)

/-- The mixed value, weights first: the three normalised weights applied to the mean of the two values and to the two
    values, then added. -/
def mixRef (eps : ℝ) (A B C x0 x1 : EReal) : EReal :=
  Ideal.div (Ideal.exp (A - max A (max B C))) (wDen eps A B C) * (((1 / 2 : ℝ) : EReal) * (x0 + x1))
    + Ideal.div (Ideal.exp (B - max A (max B C))) (wDen eps A B C) * x0
    + Ideal.div (Ideal.exp (C - max A (max B C))) (wDen eps A B C) * x1

/-- The mixed value, division last: the first value weighted by half the first exponential plus the second, the second
    value by half the first exponential plus the third, added and divided by the denominator. -/
def mixKer (eps : ℝ) (A B C x0 x1 : EReal) : EReal :=
  Ideal.div
    ((((1 / 2 : ℝ) : EReal) * Ideal.exp (A - max A (max B C)) + Ideal.exp (B - max A (max B C))) * x0
      + (((1 / 2 : ℝ) : EReal) * Ideal.exp (A - max A (max B C)) + Ideal.exp (C - max A (max B C))) * x1)
    (wDen eps A B C)

/-- The mean of two rows of reals is a row of reals. -/
theorem allFin_meanRow {x y : ι → EReal} (hx : AllFin x) (hy : AllFin y) : AllFin (meanRow x y) :=
  fun i => isFin_half_add (hx i) (hy i)

/-- A scaled inner product of rows of reals is a real. -/
theorem isFin_score (c : ℝ) {x y : ι → EReal} (hx : AllFin x) (hy : AllFin y) : IsFin (score c x y) :=
  isFin_mul (isFin_sum _ _ fun i _ => isFin_mul (hx i) (hy i)) (isFin_coe c)

/-- The denominator is a positive real for real scores and positive eps. -/
theorem isPos_wDen {eps : ℝ} (heps : 0 < eps) {A B C : EReal} (hA : IsFin A) (hB : IsFin B) (hC : IsFin C) :
    IsPos (wDen eps A B C) :=
  isPos_den hA hB hC (isFin_max hA (isFin_max hB hC)) heps

/-- The two forms of the mixed value are equal for real scores and values and positive eps. -/
theorem mixKer_eq_mixRef {eps : ℝ} (heps : 0 < eps) {A B C x0 x1 : EReal} (hA : IsFin A) (hB : IsFin B)
    (hC : IsFin C) (h0 : IsFin x0) (h1 : IsFin x1) : mixKer eps A B C x0 x1 = mixRef eps A B C x0 x1 := by
  have hm := isFin_max hA (isFin_max hB hC)
  exact (mix_eq (isPos_exp (isFin_sub hA hm)).isFin (isPos_exp (isFin_sub hB hm)).isFin
    (isPos_exp (isFin_sub hC hm)).isFin (isPos_wDen heps hA hB hC) h0 h1).symm

/-- The mixed value, division last, is a real. -/
theorem isFin_mixKer {eps : ℝ} (heps : 0 < eps) {A B C x0 x1 : EReal} (hA : IsFin A) (hB : IsFin B) (hC : IsFin C)
    (h0 : IsFin x0) (h1 : IsFin x1) : IsFin (mixKer eps A B C x0 x1) := by
  have hm := isFin_max hA (isFin_max hB hC)
  exact isFin_mix (isPos_exp (isFin_sub hA hm)).isFin (isPos_exp (isFin_sub hB hm)).isFin
    (isPos_exp (isFin_sub hC hm)).isFin (isPos_wDen heps hA hB hC) h0 h1

/-- The mixed value, weights first, is a real. -/
theorem isFin_mixRef {eps : ℝ} (heps : 0 < eps) {A B C x0 x1 : EReal} (hA : IsFin A) (hB : IsFin B) (hC : IsFin C)
    (h0 : IsFin x0) (h1 : IsFin x1) : IsFin (mixRef eps A B C x0 x1) := by
  rw [← mixKer_eq_mixRef heps hA hB hC h0 h1]; exact isFin_mixKer heps hA hB hC h0 h1

/-- On rows of reals the mean's score against the second child is twice its score against itself minus its score
    against the first child. -/
theorem score_mean_second (c : ℝ) {x y : ι → EReal} (hx : AllFin x) (hy : AllFin y) :
    score c (meanRow x y) y
      = ((2 : ℝ) : EReal) * score c (meanRow x y) (meanRow x y) - score c (meanRow x y) x :=
  score_second hx hy (fun _ => rfl) c

/-- One level, whole: from children rows k0, k1 and value entries x0, x1, all reals, the mixed value taken
    with the third score computed as twice the first minus the second, division last, equals the mixed value taken with
    the third score computed as an inner product, weights first. -/
theorem level_value_eq (c : ℝ) {eps : ℝ} (heps : 0 < eps) {k0 k1 : ι → EReal} (h0 : AllFin k0) (h1 : AllFin k1)
    {x0 x1 : EReal} (hx0 : IsFin x0) (hx1 : IsFin x1) :
    mixKer eps (score c (meanRow k0 k1) (meanRow k0 k1)) (score c (meanRow k0 k1) k0)
        (((2 : ℝ) : EReal) * score c (meanRow k0 k1) (meanRow k0 k1) - score c (meanRow k0 k1) k0) x0 x1
      = mixRef eps (score c (meanRow k0 k1) (meanRow k0 k1)) (score c (meanRow k0 k1) k0)
        (score c (meanRow k0 k1) k1) x0 x1 := by
  have hp := allFin_meanRow h0 h1
  rw [← score_mean_second c h0 h1]
  exact mixKer_eq_mixRef heps (isFin_score c hp hp) (isFin_score c hp h0) (isFin_score c hp h1) hx0 hx1

/-- … and that value is a real, so the next level's children are rows of reals again. -/
theorem isFin_level_value (c : ℝ) {eps : ℝ} (heps : 0 < eps) {k0 k1 : ι → EReal} (h0 : AllFin k0) (h1 : AllFin k1)
    {x0 x1 : EReal} (hx0 : IsFin x0) (hx1 : IsFin x1) :
    IsFin (mixRef eps (score c (meanRow k0 k1) (meanRow k0 k1)) (score c (meanRow k0 k1) k0)
        (score c (meanRow k0 k1) k1) x0 x1) :=
  have hp := allFin_meanRow h0 h1
  isFin_mixRef heps (isFin_score c hp hp) (isFin_score c hp h0) (isFin_score c hp h1) hx0 hx1

end Level

/-! ## The largest score -/

section FoldMax
variable {ι : Type}

/-- The maximum of minus infinity and a real is that real. -/
theorem isFin_max_bot_left {x : EReal} (hx : IsFin x) : IsFin (max ⊥ x) := by rwa [max_bot_left]

/-- The largest of finitely many reals, at least one, folded with max from minus infinity, is a real. -/
theorem isFin_fold_max (S : Finset ι) (hS : S.Nonempty) (f : ι → EReal) (hf : ∀ i ∈ S, IsFin (f i)) :
    IsFin (S.fold max ⊥ f) := by
  induction hS using Finset.Nonempty.cons_induction with
  | singleton a =>
    rw [Finset.fold_singleton, max_bot_right]; exact hf a (Finset.mem_singleton_self a)
  | cons a s ha hs ih =>
    rw [Finset.fold_cons]
    exact isFin_max (hf a (Finset.mem_cons_self a s)) (ih fun i hi => hf i (Finset.mem_cons.mpr (Or.inr hi)))

/-- The same over a whole nonempty finite index type. -/
theorem isFin_fold_max_univ [Fintype ι] [Nonempty ι] (f : ι → EReal) (hf : AllFin f) :
    IsFin ((Finset.univ : Finset ι).fold max ⊥ f) :=
  isFin_fold_max _ Finset.univ_nonempty f fun i _ => hf i

end FoldMax

end Cert.PoolLaws

end
-- ==== Proof.Spec.lean ====
/-
  What both programs compute, for one head, as mathematics on the extended reals.

  A head's key rows k r and value rows v r (r < 2048, 128 lanes each) are pooled pairwise, eleven times. A level's key
  row is the mean of its two children. Its value row mixes the two children's value rows with three weights: the
  exponentials of the scaled inner products of the parent key with itself (A), with the first child (B) and with the
  second child (C), each after subtracting the largest of the three, over their sum plus a small constant. The
  reference computes C as an inner product and applies the normalised weights to the mean of the two values and to
  each value; the kernel takes C = 2A − B and applies the summed weights to the two values before dividing. On finite
  inputs the two arrangements agree at every level, and every level is finite again.
-/
import proofs.«208975_g36283883717458_cont_8to1_b_1954_30_alg».proof.Proof.LibPoolLaws

noncomputable section

namespace Cert.Proof.Spec

open Cert.Gcn Cert.PoolLaws
open scoped BigOperators

/-- The scale of every score: the value of the one f32 word both programs multiply by (the f32 nearest 1/sqrt 128). -/
def cS : ℝ := 11863283 / 134217728
/-- The constant both programs add to a level's denominator (the f32 nearest 1e-9). -/
def eps : ℝ := 9007199 / 9007199254740992

theorem eps_pos : 0 < eps := by unfold eps; norm_num

/-- The pooled keys: level 0 is the head's own rows, a level's row r the mean of rows 2r and 2r+1 below. -/
def keyL (k : ℕ → Fin 128 → EReal) : ℕ → ℕ → Fin 128 → EReal
  | 0, r => k r
  | ℓ + 1, r => meanRow (keyL k ℓ (2 * r)) (keyL k ℓ (2 * r + 1))

/-- The pooled values as the kernel arranges them: the second child's score taken as 2A − B, the summed weights applied
    to the two children's values, one division. -/
def valKer (k v : ℕ → Fin 128 → EReal) : ℕ → ℕ → Fin 128 → EReal
  | 0, r => v r
  | ℓ + 1, r => fun l =>
      mixKer eps (score cS (keyL k (ℓ + 1) r) (keyL k (ℓ + 1) r)) (score cS (keyL k (ℓ + 1) r) (keyL k ℓ (2 * r)))
        (((2 : ℝ) : EReal) * score cS (keyL k (ℓ + 1) r) (keyL k (ℓ + 1) r) - score cS (keyL k (ℓ + 1) r) (keyL k ℓ (2 * r)))
        (valKer k v ℓ (2 * r) l) (valKer k v ℓ (2 * r + 1) l)

/-- The pooled values as the reference arranges them: three inner products, three normalised weights, applied to the mean
    of the children's values and to each child's value. -/
def valRef (k v : ℕ → Fin 128 → EReal) : ℕ → ℕ → Fin 128 → EReal
  | 0, r => v r
  | ℓ + 1, r => fun l =>
      mixRef eps (score cS (keyL k (ℓ + 1) r) (keyL k (ℓ + 1) r)) (score cS (keyL k (ℓ + 1) r) (keyL k ℓ (2 * r)))
        (score cS (keyL k (ℓ + 1) r) (keyL k ℓ (2 * r + 1)))
        (valRef k v ℓ (2 * r) l) (valRef k v ℓ (2 * r + 1) l)

variable {k v : ℕ → Fin 128 → EReal}

/-- Every pooled key row of finite keys is finite. -/
theorem allFin_keyL (hk : ∀ r, AllFin (k r)) : ∀ ℓ r, AllFin (keyL k ℓ r)
  | 0, r => hk r
  | ℓ + 1, r => allFin_meanRow (allFin_keyL hk ℓ (2 * r)) (allFin_keyL hk ℓ (2 * r + 1))

/-- On finite keys and values the kernel's arrangement of a level is the reference's, at every level and row, and the
    level is finite again: the induction over the eleven levels. -/
theorem valKer_eq_valRef (hk : ∀ r, AllFin (k r)) (hv : ∀ r, AllFin (v r)) :
    ∀ ℓ r, valKer k v ℓ r = valRef k v ℓ r ∧ AllFin (valRef k v ℓ r)
  | 0, r => ⟨rfl, hv r⟩
  | ℓ + 1, r => by
    obtain ⟨e0, f0⟩ := valKer_eq_valRef hk hv ℓ (2 * r)
    obtain ⟨e1, f1⟩ := valKer_eq_valRef hk hv ℓ (2 * r + 1)
    have h0 := allFin_keyL hk ℓ (2 * r)
    have h1 := allFin_keyL hk ℓ (2 * r + 1)
    refine ⟨funext fun l => ?_, fun l => ?_⟩
    · show mixKer eps _ _ _ (valKer k v ℓ (2 * r) l) (valKer k v ℓ (2 * r + 1) l) = mixRef eps _ _ _ (valRef k v ℓ (2 * r) l) (valRef k v ℓ (2 * r + 1) l)
      rw [e0, e1]
      exact level_value_eq cS eps_pos h0 h1 (f0 l) (f1 l)
    · exact isFin_level_value cS eps_pos h0 h1 (f0 l) (f1 l)

/-- Where level ℓ (1 … 11) begins among the 2047 pooled rows laid end to end: 0, 1024, 1536, …, 2046. -/
def off (ℓ : ℕ) : ℕ := 2048 - 2 ^ (12 - ℓ)

end Cert.Proof.Spec

end
-- ==== Proof.AttnValue.lean ====
/-
  The attention kernel's arithmetic at an index, on the extended reals.

  For one head the kernel takes the head's 2048 query rows, scaled by one constant, in sixteen chunks of 128 rows. For
  a chunk it forms every row's inner products with the 2048 pooled key rows, exponentiates them, sums each row's
  exponentials and takes 1 off the sum, multiplies the exponentials with the pooled value rows, and divides. At row r
  and lane l this is the sum over the keys of e^(score of r and the key) times the value's lane l, over the sum of the
  exponentials less one, the score being the sum over the 128 lanes of the scaled query entry times the key entry.
-/
import proofs.«208975_g36283883717458_cont_8to1_b_1954_30_alg».proof.Proof.AttnBody
import proofs.«208975_g36283883717458_cont_8to1_b_1954_30_alg».proof.Proof.Spec
import Idealize.ShloMosaic.PureOps.Ideal.Laws
import Idealize.ShloMosaic.Lib.Pipeline.Value
import Idealize.ShloMosaic.Lib.ValueLayout

set_option maxRecDepth 16384

noncomputable section

namespace Cert.Proof.KI

open Cert.KernelIdeal Cert.KernelIdeal.Gen
open Idealize.ShloMosaic Idealize.ShloMosaic.ValueIdx
open scoped BigOperators

/-! ## The two products, at an index -/

/-- The dimension numbers of the scores' product (queries' rows with keys' rows, contracting the lanes) and of the
    weighted sum (exponentials' rows with values' columns, contracting the keys). -/
abbrev D1 : DotDims S128x128 S2048x128 S128x2048 := dot_S128x128_S2048x128_S128x2048_1_1_0_0_n_n
abbrev D2 : DotDims S128x2048 S2048x128 S128x128 := dot_S128x2048_S2048x128_S128x128_1_0_0_1_n_n

theorem D1_lhs0 (i : S128x2048.Idx) (q : D1.contr.Idx) : (D1.lhsIdx i q 0).val = (i 0).val := by
  unfold DotDims.lhsIdx
  rw [dif_neg (show ¬(0 : Fin S128x128.rank) ∈ D1.lhsBatch by decide), dif_pos (show (0 : Fin S128x128.rank) ∈ D1.lhsNonContracting by decide)]
  rfl
theorem D1_lhs1 (i : S128x2048.Idx) (q : D1.contr.Idx) : (D1.lhsIdx i q 1).val = (q ⟨0, by decide⟩).val :=
  D1.lhsIdx_val_of_single rfl i q
theorem D1_rhs0 (i : S128x2048.Idx) (q : D1.contr.Idx) : (D1.rhsIdx i q 0).val = (i 1).val := by
  unfold DotDims.rhsIdx
  rw [dif_neg (show ¬(0 : Fin S2048x128.rank) ∈ D1.rhsBatch by decide), dif_pos (show (0 : Fin S2048x128.rank) ∈ D1.rhsNonContracting by decide)]
  rfl
theorem D1_rhs1 (i : S128x2048.Idx) (q : D1.contr.Idx) : (D1.rhsIdx i q 1).val = (q ⟨0, by decide⟩).val :=
  D1.rhsIdx_val_of_single rfl i q

theorem D2_lhs0 (i : S128x128.Idx) (q : D2.contr.Idx) : (D2.lhsIdx i q 0).val = (i 0).val := by
  unfold DotDims.lhsIdx
  rw [dif_neg (show ¬(0 : Fin S128x2048.rank) ∈ D2.lhsBatch by decide), dif_pos (show (0 : Fin S128x2048.rank) ∈ D2.lhsNonContracting by decide)]
  rfl
theorem D2_lhs1 (i : S128x128.Idx) (q : D2.contr.Idx) : (D2.lhsIdx i q 1).val = (q ⟨0, by decide⟩).val :=
  D2.lhsIdx_val_of_single rfl i q
theorem D2_rhs0 (i : S128x128.Idx) (q : D2.contr.Idx) : (D2.rhsIdx i q 0).val = (q ⟨0, by decide⟩).val :=
  D2.rhsIdx_val_of_single rfl i q
theorem D2_rhs1 (i : S128x128.Idx) (q : D2.contr.Idx) : (D2.rhsIdx i q 1).val = (i 1).val := by
  unfold DotDims.rhsIdx
  rw [dif_neg (show ¬(1 : Fin S2048x128.rank) ∈ D2.rhsBatch by decide), dif_pos (show (1 : Fin S2048x128.rank) ∈ D2.rhsNonContracting by decide)]
  rfl

/-- A chunk's scores: entry (a, k) of the product into a zero accumulator is the sum over the lanes of the query
    entry times the key entry. -/
theorem mm1_apply {φ₁ φ₂ : FTy} (lhs : FVec Ideal S128x128 φ₁) (rhs : FVec Ideal S2048x128 φ₂) (a : Fin 128) (k : Fin 2048) :
    matmul D1 none lhs rhs (constant (F := Ideal) S128x2048 .f32 0x00000000#32) (ix2 a k)
      = ∑ i : Fin 128, lhs (ix2 a i) * rhs (ix2 k i) := by
  show FloatOps.matmul D1 none lhs rhs (constant (F := Ideal) S128x2048 .f32 0x00000000#32) (ix2 a k) = _
  rw [Ideal.matmul_constant_zero_apply, ← Equiv.sum_comp (contrEquiv1 D1 128 rfl rfl).symm]
  refine Finset.sum_congr rfl fun i _ => ?_
  have hk := contrEquiv1_symm_val D1 128 rfl rfl i
  have el : D1.lhsIdx (ix2 a k) ((contrEquiv1 D1 128 rfl rfl).symm i) = ix2 a i := funext fun x => Fin.ext (by
    match x with
    | ⟨0, _⟩ => exact D1_lhs0 _ _
    | ⟨1, _⟩ => exact (D1_lhs1 _ _).trans hk)
  have er : D1.rhsIdx (ix2 a k) ((contrEquiv1 D1 128 rfl rfl).symm i) = ix2 k i := funext fun x => Fin.ext (by
    match x with
    | ⟨0, _⟩ => exact D1_rhs0 _ _
    | ⟨1, _⟩ => exact (D1_rhs1 _ _).trans hk)
  rw [el, er]

/-- The weighted sum: entry (a, l) is the sum over the keys of the weight times the value's lane l. -/
theorem mm2_apply {φ₁ φ₂ : FTy} (lhs : FVec Ideal S128x2048 φ₁) (rhs : FVec Ideal S2048x128 φ₂) (a : Fin 128) (l : Fin 128) :
    matmul D2 none lhs rhs (constant (F := Ideal) S128x128 .f32 0x00000000#32) (ix2 a l)
      = ∑ k : Fin 2048, lhs (ix2 a k) * rhs (ix2 k l) := by
  show FloatOps.matmul D2 none lhs rhs (constant (F := Ideal) S128x128 .f32 0x00000000#32) (ix2 a l) = _
  rw [Ideal.matmul_constant_zero_apply, ← Equiv.sum_comp (contrEquiv1 D2 2048 rfl rfl).symm]
  refine Finset.sum_congr rfl fun k _ => ?_
  have hk := contrEquiv1_symm_val D2 2048 rfl rfl k
  have el : D2.lhsIdx (ix2 a l) ((contrEquiv1 D2 2048 rfl rfl).symm k) = ix2 a k := funext fun x => Fin.ext (by
    match x with
    | ⟨0, _⟩ => exact D2_lhs0 _ _
    | ⟨1, _⟩ => exact (D2_lhs1 _ _).trans hk)
  have er : D2.rhsIdx (ix2 a l) ((contrEquiv1 D2 2048 rfl rfl).symm k) = ix2 k l := funext fun x => Fin.ext (by
    match x with
    | ⟨0, _⟩ => exact (D2_rhs0 _ _).trans hk
    | ⟨1, _⟩ => exact D2_rhs1 _ _)
  rw [el, er]

/-! ## One chunk's tile, at an index -/

/-- One chunk's tile from the chunk's scaled query rows `q`, the keys `Kk` and the values `Vv`: the scores, their
    exponentials, the row sums less one, the exponentials' product with the values, the quotient, as a
    [128, 1, 128] block. -/
def chunkOut (q : FVec Ideal S128x128 .bf16) (Kk Vv : FVec Ideal S2048x128 .bf16) : FVec Ideal S128x1x128 .f32 :=
  have v10 : FVec Ideal S128x2048 .f32 := matmul D1 none q Kk (constant S128x2048 .f32 0x00000000#32)
  have v11 : FVec Ideal S128x2048 .f32 := exp v10
  have v12 : FVec Ideal S128 .f32 := multiReduction .add [1] S128 v11 0x00000000#32 reduces_S128x2048_S128 (.inl rfl) rfl
  have v13 : FVec Ideal S128x1 .f32 := shapeCast S128x1 v12 shapeCasts_S128_S128x1
  have cst_10 : Ideal .f32 := Scalar.ofBits .f32 0x3F800000#32
  have v14 : FVec Ideal S128x1 .f32 := broadcast S128x1 cst_10
  have v15 : FVec Ideal S128x1 .f32 := subf v13 v14
  have v16 : FVec Ideal S128x2048 .bf16 := truncf .bf16 v11 bitsLt_bf16_f32
  have v17 : FVec Ideal S128x128 .f32 := matmul D2 none v16 Vv (constant S128x128 .f32 0x00000000#32)
  have v18 : FVec Ideal S128x128 .f32 := broadcastTo S128x128 v15 broadcasts_S128x1_S128x128
  have v19 : FVec Ideal S128x128 .f32 := divf v17 v18
  shapeCast S128x1x128 v19 shapeCasts_S128x128_S128x1x128

/-- The score of query row `a` of the chunk with key `k`. -/
def chunkScore (q : FVec Ideal S128x128 .bf16) (Kk : FVec Ideal S2048x128 .bf16) (a : Fin 128) (k : Fin 2048) : EReal :=
  ∑ i : Fin 128, q (ix2 a i) * Kk (ix2 k i)

/-- A row's sum of exponentials, as the lane reduction gives it. -/
theorem rowSum_apply (E : FVec Ideal S128x2048 .f32) (a : Fin 128)
    (hφ : FKind.Formats .f32) (hacc : (0x00000000#32 : BitVec 32) = 0x00000000#32) :
    multiReduction .add [1] S128 E 0x00000000#32 reduces_S128x2048_S128 hφ hacc (ix1 a) = ∑ k : Fin 2048, E (ix2 a k) := by
  refine (Ideal.multiReduction_add_single E 0x00000000#32 reduces_S128x2048_S128 hφ hacc (ix1 a)).trans ?_
  refine Finset.sum_congr rfl fun k _ => congrArg E ?_
  funext c
  match c with
  | ⟨0, _⟩ => exact Fin.ext rfl
  | ⟨1, _⟩ => exact Fin.ext rfl

theorem chunkOut_apply (q : FVec Ideal S128x128 .bf16) (Kk Vv : FVec Ideal S2048x128 .bf16) (a l : Fin 128) :
    chunkOut q Kk Vv (ix3 a (0 : Fin 1) l)
      = Ideal.div (∑ k : Fin 2048, Ideal.exp (chunkScore q Kk a k) * Vv (ix2 k l))
          ((∑ k : Fin 2048, Ideal.exp (chunkScore q Kk a k)) - 1) := by
  unfold chunkOut
  rw [shapeCast_apply _ shapeCasts_S128x128_S128x1x128 (ix3 a (0 : Fin 1) l) (ix2 a l)
    (by rw [Shape.rowMajor_val_two, Shape.rowMajor_val_three]; show a.val * 128 + l.val = (a.val * 1 + 0) * 128 + l.val; omega)]
  rw [divf_apply]
  congr 1
  · rw [mm2_apply]
    refine Finset.sum_congr rfl fun k _ => ?_
    show Ideal.exp (matmul D1 none q Kk (constant (F := Ideal) S128x2048 .f32 0x00000000#32) (ix2 a k)) * Vv (ix2 k l) = _
    rw [mm1_apply]; rfl
  · rw [broadcastTo_apply _ broadcasts_S128x1_S128x128 (ix2 a l) (ix2 a (0 : Fin 1)) (fun c => by
      match c with
      | ⟨0, _⟩ => rfl
      | ⟨1, _⟩ => rfl)]
    rw [subf_apply, broadcast_apply]
    congr 1
    · rw [shapeCast_apply _ shapeCasts_S128_S128x1 (ix2 a (0 : Fin 1)) (ix1 a)
        (by rw [Shape.rowMajor_val_one, Shape.rowMajor_val_two]; show a.val = a.val * 1 + 0; omega)]
      rw [rowSum_apply]
      refine Finset.sum_congr rfl fun k _ => ?_
      show Ideal.exp (matmul D1 none q Kk (constant (F := Ideal) S128x2048 .f32 0x00000000#32) (ix2 a k)) = _
      rw [mm1_apply]; rfl
    · exact Cert.Gcn.ofBits_one

/-! ## The sixteen chunks are one arithmetic -/

theorem attnPay_0 (x0 : Vec Ideal S1x2048x128 .f32) (x1 x2 : Vec Ideal S1x2048x128 .bf16) :
    attnPay x0 x1 x2 ⟨0, by decide⟩
      = chunkOut (extractStridedSlice S128x128 ![0, 0] (attnQ x0) slices_S2048x128_o0_0_S128x128) (attnK x1) (attnV x2) := rfl
theorem attnPay_1 (x0 : Vec Ideal S1x2048x128 .f32) (x1 x2 : Vec Ideal S1x2048x128 .bf16) :
    attnPay x0 x1 x2 ⟨1, by decide⟩
      = chunkOut (extractStridedSlice S128x128 ![128, 0] (attnQ x0) slices_S2048x128_o128_0_S128x128) (attnK x1) (attnV x2) := rfl
theorem attnPay_2 (x0 : Vec Ideal S1x2048x128 .f32) (x1 x2 : Vec Ideal S1x2048x128 .bf16) :
    attnPay x0 x1 x2 ⟨2, by decide⟩
      = chunkOut (extractStridedSlice S128x128 ![256, 0] (attnQ x0) slices_S2048x128_o256_0_S128x128) (attnK x1) (attnV x2) := rfl
theorem attnPay_3 (x0 : Vec Ideal S1x2048x128 .f32) (x1 x2 : Vec Ideal S1x2048x128 .bf16) :
    attnPay x0 x1 x2 ⟨3, by decide⟩
      = chunkOut (extractStridedSlice S128x128 ![384, 0] (attnQ x0) slices_S2048x128_o384_0_S128x128) (attnK x1) (attnV x2) := rfl
theorem attnPay_4 (x0 : Vec Ideal S1x2048x128 .f32) (x1 x2 : Vec Ideal S1x2048x128 .bf16) :
    attnPay x0 x1 x2 ⟨4, by decide⟩
      = chunkOut (extractStridedSlice S128x128 ![512, 0] (attnQ x0) slices_S2048x128_o512_0_S128x128) (attnK x1) (attnV x2) := rfl
theorem attnPay_5 (x0 : Vec Ideal S1x2048x128 .f32) (x1 x2 : Vec Ideal S1x2048x128 .bf16) :
    attnPay x0 x1 x2 ⟨5, by decide⟩
      = chunkOut (extractStridedSlice S128x128 ![640, 0] (attnQ x0) slices_S2048x128_o640_0_S128x128) (attnK x1) (attnV x2) := rfl
theorem attnPay_6 (x0 : Vec Ideal S1x2048x128 .f32) (x1 x2 : Vec Ideal S1x2048x128 .bf16) :
    attnPay x0 x1 x2 ⟨6, by decide⟩
      = chunkOut (extractStridedSlice S128x128 ![768, 0] (attnQ x0) slices_S2048x128_o768_0_S128x128) (attnK x1) (attnV x2) := rfl
theorem attnPay_7 (x0 : Vec Ideal S1x2048x128 .f32) (x1 x2 : Vec Ideal S1x2048x128 .bf16) :
    attnPay x0 x1 x2 ⟨7, by decide⟩
      = chunkOut (extractStridedSlice S128x128 ![896, 0] (attnQ x0) slices_S2048x128_o896_0_S128x128) (attnK x1) (attnV x2) := rfl
theorem attnPay_8 (x0 : Vec Ideal S1x2048x128 .f32) (x1 x2 : Vec Ideal S1x2048x128 .bf16) :
    attnPay x0 x1 x2 ⟨8, by decide⟩
      = chunkOut (extractStridedSlice S128x128 ![1024, 0] (attnQ x0) slices_S2048x128_o1024_0_S128x128) (attnK x1) (attnV x2) := rfl
theorem attnPay_9 (x0 : Vec Ideal S1x2048x128 .f32) (x1 x2 : Vec Ideal S1x2048x128 .bf16) :
    attnPay x0 x1 x2 ⟨9, by decide⟩
      = chunkOut (extractStridedSlice S128x128 ![1152, 0] (attnQ x0) slices_S2048x128_o1152_0_S128x128) (attnK x1) (attnV x2) := rfl
theorem attnPay_10 (x0 : Vec Ideal S1x2048x128 .f32) (x1 x2 : Vec Ideal S1x2048x128 .bf16) :
    attnPay x0 x1 x2 ⟨10, by decide⟩
      = chunkOut (extractStridedSlice S128x128 ![1280, 0] (attnQ x0) slices_S2048x128_o1280_0_S128x128) (attnK x1) (attnV x2) := rfl
theorem attnPay_11 (x0 : Vec Ideal S1x2048x128 .f32) (x1 x2 : Vec Ideal S1x2048x128 .bf16) :
    attnPay x0 x1 x2 ⟨11, by decide⟩
      = chunkOut (extractStridedSlice S128x128 ![1408, 0] (attnQ x0) slices_S2048x128_o1408_0_S128x128) (attnK x1) (attnV x2) := rfl
theorem attnPay_12 (x0 : Vec Ideal S1x2048x128 .f32) (x1 x2 : Vec Ideal S1x2048x128 .bf16) :
    attnPay x0 x1 x2 ⟨12, by decide⟩
      = chunkOut (extractStridedSlice S128x128 ![1536, 0] (attnQ x0) slices_S2048x128_o1536_0_S128x128) (attnK x1) (attnV x2) := rfl
theorem attnPay_13 (x0 : Vec Ideal S1x2048x128 .f32) (x1 x2 : Vec Ideal S1x2048x128 .bf16) :
    attnPay x0 x1 x2 ⟨13, by decide⟩
      = chunkOut (extractStridedSlice S128x128 ![1664, 0] (attnQ x0) slices_S2048x128_o1664_0_S128x128) (attnK x1) (attnV x2) := rfl
theorem attnPay_14 (x0 : Vec Ideal S1x2048x128 .f32) (x1 x2 : Vec Ideal S1x2048x128 .bf16) :
    attnPay x0 x1 x2 ⟨14, by decide⟩
      = chunkOut (extractStridedSlice S128x128 ![1792, 0] (attnQ x0) slices_S2048x128_o1792_0_S128x128) (attnK x1) (attnV x2) := rfl
theorem attnPay_15 (x0 : Vec Ideal S1x2048x128 .f32) (x1 x2 : Vec Ideal S1x2048x128 .bf16) :
    attnPay x0 x1 x2 ⟨15, by decide⟩
      = chunkOut (extractStridedSlice S128x128 ![1920, 0] (attnQ x0) slices_S2048x128_o1920_0_S128x128) (attnK x1) (attnV x2) := rfl

/-! ## The scaled queries, the keys and the values, at an index -/

theorem hz3 : (![0, 0, 0] : Fin 3 → ℕ) = fun _ => 0 := funext fun a => by fin_cases a <;> rfl
/-- A load of a whole staged block reads its contents. -/
theorem ld_rIn {e : EltTy} (x : S1x2048x128.Idx → Elt Ideal e) : View.ld x rIn = x :=
  View.ld_unit_zero (S := S1x2048x128) hz3 _ x

/-- The scaled query rows: row `r`, lane `i` is the query entry times the scale. -/
theorem attnQ_apply (x0 : Vec Ideal S1x2048x128 .f32) (r : Fin 2048) (i : Fin 128) :
    attnQ x0 (ix2 r i) = x0 (ix3 (0 : Fin 1) r i) * ((Cert.Proof.Spec.cS : ℝ) : EReal) := by
  unfold attnQ k2_pay2
  rw [ld_rIn]
  rw [truncf_apply, mulf_apply, broadcast_apply,
    shapeCast_apply _ shapeCasts_S1x2048x128_S2048x128 (ix2 r i) (ix3 (0 : Fin 1) r i)
      (by rw [Shape.rowMajor_val_two, Shape.rowMajor_val_three]; show (0 * 2048 + r.val) * 128 + i.val = r.val * 128 + i.val; omega)]
  congr 1
  show Ideal.ofBits .f32 0x3DB504F3#32 = _
  rw [Cert.PoolLaws.ofBits_rsqrt128]; rfl
theorem attnK_apply (x1 : Vec Ideal S1x2048x128 .bf16) (k : Fin 2048) (i : Fin 128) :
    attnK x1 (ix2 k i) = x1 (ix3 (0 : Fin 1) k i) := by
  unfold attnK k2_pay3
  rw [ld_rIn]
  rw [shapeCast_apply _ shapeCasts_S1x2048x128_S2048x128 (ix2 k i) (ix3 (0 : Fin 1) k i)
      (by rw [Shape.rowMajor_val_two, Shape.rowMajor_val_three]; show (0 * 2048 + k.val) * 128 + i.val = k.val * 128 + i.val; omega)]
theorem attnV_apply (x2 : Vec Ideal S1x2048x128 .bf16) (k : Fin 2048) (l : Fin 128) :
    attnV x2 (ix2 k l) = x2 (ix3 (0 : Fin 1) k l) := by
  unfold attnV k2_pay4
  rw [ld_rIn]
  rw [shapeCast_apply _ shapeCasts_S1x2048x128_S2048x128 (ix2 k l) (ix3 (0 : Fin 1) k l)
      (by rw [Shape.rowMajor_val_two, Shape.rowMajor_val_three]; show (0 * 2048 + k.val) * 128 + l.val = k.val * 128 + l.val; omega)]

/-- A chunk's rows of the scaled queries: row `a` of the chunk at offset `o` is row `o + a`. -/
theorem slice_attnQ (x0 : Vec Ideal S1x2048x128 .f32) (o : ℕ) (hs : S2048x128.Slices ![o, 0] S128x128) (a i : Fin 128)
    (r : Fin 2048) (hr : r.val = o + a.val) :
    extractStridedSlice S128x128 ![o, 0] (attnQ x0) hs (ix2 a i) = x0 (ix3 (0 : Fin 1) r i) * ((Cert.Proof.Spec.cS : ℝ) : EReal) := by
  rw [extractStridedSlice_apply ![o, 0] (attnQ x0) hs (ix2 a i) (ix2 r i) (fun c => by
    match c with
    | ⟨0, _⟩ => exact hr
    | ⟨1, _⟩ => show i.val = 0 + i.val; omega)]
  exact attnQ_apply x0 r i

/-- The score of query row `r` with key `k`: the sum over the lanes of the scaled query entry times the key entry. -/
def attnScore (x0 : Vec Ideal S1x2048x128 .f32) (x1 : Vec Ideal S1x2048x128 .bf16) (r k : Fin 2048) : EReal :=
  ∑ i : Fin 128, (x0 (ix3 (0 : Fin 1) r i) * ((Cert.Proof.Spec.cS : ℝ) : EReal)) * x1 (ix3 (0 : Fin 1) k i)

/-- A chunk's tile at row `a`, lane `l`, for the chunk at offset `o`: the quotient for query row `o + a`. -/
theorem chunk_at (x0 : Vec Ideal S1x2048x128 .f32) (x1 x2 : Vec Ideal S1x2048x128 .bf16) (o : ℕ)
    (hs : S2048x128.Slices ![o, 0] S128x128) (a l : Fin 128) (r : Fin 2048) (hr : r.val = o + a.val) :
    chunkOut (extractStridedSlice S128x128 ![o, 0] (attnQ x0) hs) (attnK x1) (attnV x2) (ix3 a (0 : Fin 1) l)
      = Ideal.div (∑ k : Fin 2048, Ideal.exp (attnScore x0 x1 r k) * x2 (ix3 (0 : Fin 1) k l))
          ((∑ k : Fin 2048, Ideal.exp (attnScore x0 x1 r k)) - 1) := by
  rw [chunkOut_apply]
  have hs' : ∀ k : Fin 2048, chunkScore (extractStridedSlice S128x128 ![o, 0] (attnQ x0) hs) (attnK x1) a k = attnScore x0 x1 r k := by
    intro k
    unfold chunkScore attnScore
    refine Finset.sum_congr rfl fun i _ => ?_
    rw [slice_attnQ x0 o hs a i r hr, attnK_apply]
  simp only [hs', attnV_apply]

/-! ## The head column's entry -/

/-- Chunk `j`'s tile at row `a`, lane `l` is the quotient for query row `128 j + a`. -/
theorem attnPay_at (x0 : Vec Ideal S1x2048x128 .f32) (x1 x2 : Vec Ideal S1x2048x128 .bf16) (j : Fin 16) (a l : Fin 128)
    (r : Fin 2048) (hr : r.val = 128 * j.val + a.val) :
    attnPay x0 x1 x2 j (ix3 a (0 : Fin 1) l)
      = Ideal.div (∑ k : Fin 2048, Ideal.exp (attnScore x0 x1 r k) * x2 (ix3 (0 : Fin 1) k l))
          ((∑ k : Fin 2048, Ideal.exp (attnScore x0 x1 r k)) - 1) := by
  match j, hr with
  | ⟨0, _⟩, hr => exact (congrFun (attnPay_0 x0 x1 x2) _).trans (chunk_at x0 x1 x2 0 _ a l r (by have h' : r.val = 128 * 0 + a.val := hr; omega))
  | ⟨1, _⟩, hr => exact (congrFun (attnPay_1 x0 x1 x2) _).trans (chunk_at x0 x1 x2 128 _ a l r (by have h' : r.val = 128 * 1 + a.val := hr; omega))
  | ⟨2, _⟩, hr => exact (congrFun (attnPay_2 x0 x1 x2) _).trans (chunk_at x0 x1 x2 256 _ a l r (by have h' : r.val = 128 * 2 + a.val := hr; omega))
  | ⟨3, _⟩, hr => exact (congrFun (attnPay_3 x0 x1 x2) _).trans (chunk_at x0 x1 x2 384 _ a l r (by have h' : r.val = 128 * 3 + a.val := hr; omega))
  | ⟨4, _⟩, hr => exact (congrFun (attnPay_4 x0 x1 x2) _).trans (chunk_at x0 x1 x2 512 _ a l r (by have h' : r.val = 128 * 4 + a.val := hr; omega))
  | ⟨5, _⟩, hr => exact (congrFun (attnPay_5 x0 x1 x2) _).trans (chunk_at x0 x1 x2 640 _ a l r (by have h' : r.val = 128 * 5 + a.val := hr; omega))
  | ⟨6, _⟩, hr => exact (congrFun (attnPay_6 x0 x1 x2) _).trans (chunk_at x0 x1 x2 768 _ a l r (by have h' : r.val = 128 * 6 + a.val := hr; omega))
  | ⟨7, _⟩, hr => exact (congrFun (attnPay_7 x0 x1 x2) _).trans (chunk_at x0 x1 x2 896 _ a l r (by have h' : r.val = 128 * 7 + a.val := hr; omega))
  | ⟨8, _⟩, hr => exact (congrFun (attnPay_8 x0 x1 x2) _).trans (chunk_at x0 x1 x2 1024 _ a l r (by have h' : r.val = 128 * 8 + a.val := hr; omega))
  | ⟨9, _⟩, hr => exact (congrFun (attnPay_9 x0 x1 x2) _).trans (chunk_at x0 x1 x2 1152 _ a l r (by have h' : r.val = 128 * 9 + a.val := hr; omega))
  | ⟨10, _⟩, hr => exact (congrFun (attnPay_10 x0 x1 x2) _).trans (chunk_at x0 x1 x2 1280 _ a l r (by have h' : r.val = 128 * 10 + a.val := hr; omega))
  | ⟨11, _⟩, hr => exact (congrFun (attnPay_11 x0 x1 x2) _).trans (chunk_at x0 x1 x2 1408 _ a l r (by have h' : r.val = 128 * 11 + a.val := hr; omega))
  | ⟨12, _⟩, hr => exact (congrFun (attnPay_12 x0 x1 x2) _).trans (chunk_at x0 x1 x2 1536 _ a l r (by have h' : r.val = 128 * 12 + a.val := hr; omega))
  | ⟨13, _⟩, hr => exact (congrFun (attnPay_13 x0 x1 x2) _).trans (chunk_at x0 x1 x2 1664 _ a l r (by have h' : r.val = 128 * 13 + a.val := hr; omega))
  | ⟨14, _⟩, hr => exact (congrFun (attnPay_14 x0 x1 x2) _).trans (chunk_at x0 x1 x2 1792 _ a l r (by have h' : r.val = 128 * 14 + a.val := hr; omega))
  | ⟨15, _⟩, hr => exact (congrFun (attnPay_15 x0 x1 x2) _).trans (chunk_at x0 x1 x2 1920 _ a l r (by have h' : r.val = 128 * 15 + a.val := hr; omega))
  | ⟨n + 16, h⟩, _ => exact absurd h (Nat.not_lt.2 (Nat.le_add_left 16 n))

/-- THE HEAD COLUMN at row `r`, lane `l`, whatever the column's place among the half's eight: the sum over the keys of
    e^(score of row r and the key) times the value's lane l, over the sum of the exponentials less one. -/
theorem attnTileAt_eq (x0 : Vec Ideal S1x2048x128 .f32) (x1 x2 : Vec Ideal S1x2048x128 .bf16) (r : Fin 2048) (c8 : Fin 8) (l : Fin 128) :
    attnTileAt x0 x1 x2 (ix3 r c8 l)
      = Ideal.div (∑ k : Fin 2048, Ideal.exp (attnScore x0 x1 r k) * x2 (ix3 (0 : Fin 1) k l))
          ((∑ k : Fin 2048, Ideal.exp (attnScore x0 x1 r k)) - 1) := by
  unfold attnTileAt
  exact attnPay_at x0 x1 x2 _ _ l r (by show r.val = 128 * (r.val / 128) + r.val % 128; omega)

end Cert.Proof.KI

end
-- ==== Proof.SpecAttn.lean ====
/-
  The attention of one query row over a head's pooled rows, in the kernel's and in the reference's arrangement.

  The 2047 pooled rows of a head are the eleven levels laid end to end; the kernel adds a row 2047 of zeros to keys and
  values. The reference scales the inner products after taking them, subtracts the row's largest score before the
  exponentials, normalises, and takes the weighted sum of the value rows. The kernel scales the query first, takes
  exponentials of the raw scores, sums over all 2048 rows — the extra row adds e^0 = 1 to the denominator and nothing to
  the numerator — subtracts that 1, and divides once. On finite inputs the two are equal.
-/
import proofs.«208975_g36283883717458_cont_8to1_b_1954_30_alg».proof.Proof.Spec

noncomputable section

namespace Cert.Proof.Spec

open Idealize.ShloMosaic Cert.Gcn Cert.PoolLaws
open scoped BigOperators

/-- The pooled rows of a head laid end to end, level after level (1024, 512, …, 1 rows), and zero rows from 2047 on. -/
def nodeOf (f : ℕ → ℕ → Fin 128 → EReal) (j : ℕ) : Fin 128 → EReal :=
  if j < 1024 then f 1 j else if j < 1536 then f 2 (j - 1024) else if j < 1792 then f 3 (j - 1536)
  else if j < 1920 then f 4 (j - 1792) else if j < 1984 then f 5 (j - 1920) else if j < 2016 then f 6 (j - 1984)
  else if j < 2032 then f 7 (j - 2016) else if j < 2040 then f 8 (j - 2032) else if j < 2044 then f 9 (j - 2040)
  else if j < 2046 then f 10 (j - 2044) else if j < 2047 then f 11 (j - 2046) else fun _ => 0

variable {f g : ℕ → ℕ → Fin 128 → EReal}

theorem nodeOf_congr (h : ∀ ℓ r, f ℓ r = g ℓ r) (j : ℕ) : nodeOf f j = nodeOf g j := by
  have e : f = g := funext fun ℓ => funext fun r => h ℓ r
  rw [e]

theorem allFin_ite {c : Prop} [Decidable c] {a b : Fin 128 → EReal} (ha : AllFin a) (hb : AllFin b) : AllFin (if c then a else b) := by
  split <;> assumption

theorem allFin_zero_row : AllFin (fun _ : Fin 128 => (0 : EReal)) := fun _ => ⟨0, EReal.coe_zero.symm⟩

theorem allFin_nodeOf (hf : ∀ ℓ r, AllFin (f ℓ r)) (j : ℕ) : AllFin (nodeOf f j) := by
  unfold nodeOf
  exact allFin_ite (hf _ _) <| allFin_ite (hf _ _) <| allFin_ite (hf _ _) <| allFin_ite (hf _ _) <| allFin_ite (hf _ _) <|
    allFin_ite (hf _ _) <| allFin_ite (hf _ _) <| allFin_ite (hf _ _) <| allFin_ite (hf _ _) <| allFin_ite (hf _ _) <|
    allFin_ite (hf _ _) allFin_zero_row

theorem nodeOf_last : nodeOf f 2047 = fun _ => 0 := by
  unfold nodeOf; norm_num

/-- A row's score as the kernel takes it: the query scaled first. -/
def sKer (q : Fin 128 → EReal) (K : ℕ → Fin 128 → EReal) (j : ℕ) : EReal := ∑ i, (q i * (cS : EReal)) * K j i
/-- and as the reference takes it: the inner product scaled after. -/
def sRef (q : Fin 128 → EReal) (K : ℕ → Fin 128 → EReal) (j : ℕ) : EReal := (∑ i, q i * K j i) * (cS : EReal)

/-- The kernel's attention of a query row at lane l: over all 2048 rows, the denominator less one. -/
def attKer (q : Fin 128 → EReal) (K V : ℕ → Fin 128 → EReal) (l : Fin 128) : EReal :=
  Ideal.div (∑ k : Fin 2048, Ideal.exp (sKer q K k.val) * V k.val l) ((∑ k : Fin 2048, Ideal.exp (sKer q K k.val)) - 1)

/-- The reference's: the normalised weights of the 2047 rows, each exponential taken after subtracting M, applied to the
    value rows. -/
def attRef (q : Fin 128 → EReal) (K V : ℕ → Fin 128 → EReal) (M : EReal) (l : Fin 128) : EReal :=
  ∑ k : Fin 2047, V k.val l * Ideal.div (Ideal.exp (sRef q K k.val - M)) (∑ j : Fin 2047, Ideal.exp (sRef q K j.val - M))

/-- On a finite query row and finite key and value rows whose row 2047 is zero, the kernel's attention is the
    reference's, whatever real M the reference subtracts. -/
theorem att_join {q : Fin 128 → EReal} {K V : ℕ → Fin 128 → EReal} (hq : AllFin q) (hK : ∀ j, AllFin (K j)) (hV : ∀ j, AllFin (V j))
    (hK0 : K 2047 = fun _ => 0) (hV0 : V 2047 = fun _ => 0) {M : EReal} (hM : IsFin M) (l : Fin 128) :
    attKer q K V l = attRef q K V M l := by
  have hs : ∀ j, sKer q K j = sRef q K j := fun j => sum_scaled_mul hq (hK j) cS
  have hfin : ∀ j, IsFin (sRef q K j) := fun j => isFin_score cS hq (hK j)
  unfold attKer attRef
  simp only [hs]
  refine (softmax_last_zero_comm (n := 2047) (by norm_num) (s := fun k : Fin 2048 => sRef q K k.val) (v := fun k : Fin 2048 => V k.val l)
    (fun k => hfin _) (fun k => hV _ l) ?_ ?_ hM).symm
  · show sRef q K 2047 = 0
    unfold sRef; rw [hK0]; simp
  · show V 2047 l = 0
    rw [hV0]

end Cert.Proof.Spec

end
-- ==== Proof.KerValue.lean ====
/-
  The kernel's result at an index, step by step from the final valuation back to the three arguments.

  The result array is the attention output with a leading unit axis; the attention output at (row, head, lane) is the
  attention pipeline's tile of that head; a head's three input blocks are the reordered queries, the pooled keys and
  the pooled values of that head; the reordered queries are the reshaped q with row and head swapped; the pooled arrays
  are the tree pipeline's blocks of the reshaped k and v.
-/
import proofs.«208975_g36283883717458_cont_8to1_b_1954_30_alg».proof.Proof.Frames
import proofs.«208975_g36283883717458_cont_8to1_b_1954_30_alg».proof.Proof.Arrays
import Idealize.ShloMosaic.Lib.ValueLayout
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig (HIx 1) (Elt F) ℕ UU ℕ

open Idealize.ShloMosaic.ValueIdx

variable (m : (ℓ : Loc nD τ sig) → Buf (Elt F) ℓ)

theorem not_writes (x y : Ref sig .tc) (op : HloOp τ sig (Elt F)) (hw : op.writes = {Proc.devRef (τ := τ) .tc y}) (hne : x ≠ y) :
    (Proc.devRef (τ := τ) .tc x : DevRef τ sig) ∉ op.writes := by
  rw [hw, Finset.mem_singleton]; exact StableHlo.devRef_ne_of_ne hne

/-- After the three reshapes, the queries at (row, head, lane) are q at (0, row, head, lane). -/
theorem V1_q (d : Dev nD) (r : Fin 2048) (h : Fin 16) (l : Fin 128) :
    V1 m d (Proc.devRef .tc main_v0) (ix3 r h l) = m (d, Proc.devRef .tc main_arg0) (ix4 (0 : Fin 1) r h l) := by
  unfold V1
  rw [(opV (F := F)).result_of_not_mem _ (not_writes main_v0 main_v2 _ rfl (by decide)),
    (opK (F := F)).result_of_not_mem _ (not_writes main_v0 main_v1 _ rfl (by decide))]
  show (StableHlo.reshape main_arg0 main_v0 rfl shapeCasts_S1x2048x16x128_S2048x16x128 : HloOp τ sig (Elt F)).result (V0 m d) (Proc.devRef .tc main_v0) (ix3 r h l) = _
  rw [StableHlo.reshape_result]
  exact shapeCast_1abc_abc_apply _ _ r h l

/-- the keys, -/
theorem V1_k (d : Dev nD) (r : Fin 2048) (h : Fin 16) (l : Fin 128) :
    V1 m d (Proc.devRef .tc main_v1) (ix3 r h l) = m (d, Proc.devRef .tc main_arg1) (ix4 (0 : Fin 1) r h l) := by
  unfold V1
  rw [(opV (F := F)).result_of_not_mem _ (not_writes main_v1 main_v2 _ rfl (by decide))]
  show (StableHlo.reshape main_arg1 main_v1 rfl shapeCasts_S1x2048x16x128_S2048x16x128 : HloOp τ sig (Elt F)).result ((opQ (F := F)).result (V0 m d)) (Proc.devRef .tc main_v1) (ix3 r h l) = _
  rw [StableHlo.reshape_result, (opQ (F := F)).result_of_not_mem _ (not_writes main_arg1 main_v0 _ rfl (by decide))]
  exact shapeCast_1abc_abc_apply _ _ r h l

/-- and the values. -/
theorem V1_v (d : Dev nD) (r : Fin 2048) (h : Fin 16) (l : Fin 128) :
    V1 m d (Proc.devRef .tc main_v2) (ix3 r h l) = m (d, Proc.devRef .tc main_arg2) (ix4 (0 : Fin 1) r h l) := by
  unfold V1
  show (StableHlo.reshape main_arg2 main_v2 rfl shapeCasts_S1x2048x16x128_S2048x16x128 : HloOp τ sig (Elt F)).result ((opK (F := F)).result ((opQ (F := F)).result (V0 m d))) (Proc.devRef .tc main_v2) (ix3 r h l) = _
  rw [StableHlo.reshape_result, (opK (F := F)).result_of_not_mem _ (not_writes main_arg2 main_v1 _ rfl (by decide)),
    (opQ (F := F)).result_of_not_mem _ (not_writes main_arg2 main_v0 _ rfl (by decide))]
  exact shapeCast_1abc_abc_apply _ _ r h l

/-- The result array at (0, row, head, lane) is the attention output at (row, head, lane). -/
theorem opB_out (W : Valuation τ sig (Elt F)) (r : Fin 2048) (h : Fin 16) (l : Fin 128) :
    (opB (F := F)).result W (Proc.devRef .tc main_v6) (ix4 (0 : Fin 1) r h l) = W (Proc.devRef .tc main_v5) (ix3 r h l) := by
  show (StableHlo.unary main_v5 main_v6 _ : HloOp τ sig (Elt F)).result W (Proc.devRef .tc main_v6) (ix4 (0 : Fin 1) r h l) = _
  rw [StableHlo.unary_result]
  exact broadcastInDim_apply _ _ _ _ (ix3 r h l) (fun a => by fin_cases a <;> rfl)

end Cert.Proof.KI

end
-- ==== Proof.KerOut.lean ====
/-
  The kernel's result at an index, as the specification.

  The result array at (0, row, head, lane) is the attention output at (row, head, lane): the head column the attention
  pipeline computes at the head's point from the head's three input blocks, which are the reordered queries, the pooled
  keys and the pooled values of the head. The reordered queries are q with row and head exchanged; the pooled arrays
  are, head by head, what the tree pipeline's point computes from the head's columns of k and v. So the entry is the
  attention of q's row over the head's pooled rows, the pooled rows being the eleven levels of k's and v's columns
  laid end to end — given that the tree pipeline's block, at a row and lane, is the level's row (the hypotheses
  `hK` and `hV`).
-/
import proofs.«208975_g36283883717458_cont_8to1_b_1954_30_alg».proof.Proof.Frames
import proofs.«208975_g36283883717458_cont_8to1_b_1954_30_alg».proof.Proof.Arrays
import proofs.«208975_g36283883717458_cont_8to1_b_1954_30_alg».proof.Proof.AttnValue
import proofs.«208975_g36283883717458_cont_8to1_b_1954_30_alg».proof.Proof.SpecAttn
import proofs.«208975_g36283883717458_cont_8to1_b_1954_30_alg».proof.Proof.KerValue

set_option maxRecDepth 16384

noncomputable section

namespace Cert.Proof.KI

open Cert.KernelIdeal Cert.KernelIdeal.Gen

open Idealize.ShloMosaic Idealize.ShloMosaic.TcCoe
open Idealize.ShloMosaic.ValueIdx
open Idealize.ShloMosaic.SparseCore (S V T)
open Idealize.ShloMosaic.SparseCore.Cfg (HIx Pay)
open Idealize.ShloMosaic.Pipeline (Dat RDat)
open scoped BigOperators

variable [∀ e, Nonempty (Elt Ideal e)]
variable (m : (ℓ : Loc nD τ sig) → Buf (Elt Ideal) ℓ)

attribute [local irreducible] treeK treeV attnTileAt

/-- Row `r`, head `h` of q; the rows of head `h`'s column of k and of v, zero past the last. -/
def qRow (d : Dev nD) (r : Fin 2048) (h : Fin 16) : Fin 128 → EReal :=
  fun i => m (d, Proc.devRef .tc main_arg0) (ix4 (0 : Fin 1) r h i)
def kR (d : Dev nD) (h : Fin 16) : ℕ → Fin 128 → EReal :=
  fun r' i => if hr : r' < 2048 then m (d, Proc.devRef .tc main_arg1) (ix4 (0 : Fin 1) (⟨r', hr⟩ : Fin 2048) h i) else 0
def vR (d : Dev nD) (h : Fin 16) : ℕ → Fin 128 → EReal :=
  fun r' i => if hr : r' < 2048 then m (d, Proc.devRef .tc main_arg2) (ix4 (0 : Fin 1) (⟨r', hr⟩ : Fin 2048) h i) else 0

/-- The rows of one of the eight head columns of a staged half, zero past the last. -/
def rowsAt (x : Vec Ideal S2048x8x128 .f32) (c8 : Fin 8) : ℕ → Fin 128 → EReal :=
  fun r' l => if hr : r' < 2048 then x (ix3 (⟨r', hr⟩ : Fin 2048) c8 l) else 0

/-- Point `t` of the first pipeline is head `t % 8` of half `t / 8`. -/
theorem coords0_1 : ∀ t : Fin cfg0.N, (grid0.coords t 1).val = t.val % 8 :=
  (by decide +kernel : ∀ t : Fin grid0.N, (grid0.coords t 1).val = t.val % 8)

/-! ## The attention pipeline's three input blocks, back to the arguments -/

/-- Head `h`'s block of the reordered queries, at row `r`, is q's row `r` at head `h`. -/
theorem blkQ_apply (d : Dev nD) (h : Fin 16) (r : Fin 2048) (i : Fin 128) :
    iblk1 (W3 m) d 0 (pt2 h) (ix3 (0 : Fin 1) r i) = qRow m d r h i := by
  rw [iblk1_0_apply]
  show Function.update (V2 m d) bT (Tq m d) bT (ix3 h r i) = _
  rw [Function.update_self]
  show xQ m d (ix3 r h i) = _
  show V2 m d (Proc.devRef .tc main_v0) (ix3 r h i) = _
  rw [V2_of_ne m d main_v0 (by decide) (by decide), V1_q]
  rfl

/-- The rows of head `h`'s column of the staged half of k, and of v, are k's and v's. -/
theorem rows_k (d : Dev nD) (h : Fin 16) : rowsAt (iblk0 m d 0 (pt0 h)) (grid0.coords (pt0 h) 1) = kR m d h := by
  have ec : (grid0.coords (pt0 h) 1 : Fin 8) = (⟨h.val % 8, Nat.mod_lt _ (by decide)⟩ : Fin 8) := Fin.ext (coords0_1 (pt0 h))
  funext r' l
  unfold rowsAt kR
  by_cases hr : r' < 2048
  · rw [dif_pos hr, dif_pos hr]
    exact (congrArg (fun c : Fin 8 => iblk0 m d 0 (pt0 h) (ix3 (⟨r', hr⟩ : Fin 2048) c l)) ec).trans
      ((iblk0_0_apply m d h ⟨r', hr⟩ l).trans (V1_k m d ⟨r', hr⟩ h l))
  · rw [dif_neg hr, dif_neg hr]
theorem rows_v (d : Dev nD) (h : Fin 16) : rowsAt (iblk0 m d 1 (pt0 h)) (grid0.coords (pt0 h) 1) = vR m d h := by
  have ec : (grid0.coords (pt0 h) 1 : Fin 8) = (⟨h.val % 8, Nat.mod_lt _ (by decide)⟩ : Fin 8) := Fin.ext (coords0_1 (pt0 h))
  funext r' l
  unfold rowsAt vR
  by_cases hr : r' < 2048
  · rw [dif_pos hr, dif_pos hr]
    exact (congrArg (fun c : Fin 8 => iblk0 m d 1 (pt0 h) (ix3 (⟨r', hr⟩ : Fin 2048) c l)) ec).trans
      ((iblk0_1_apply m d h ⟨r', hr⟩ l).trans (V1_v m d ⟨r', hr⟩ h l))
  · rw [dif_neg hr, dif_neg hr]

section Spec

variable (hK : ∀ (i : grid0.Coords) (x0 x1 : Vec Ideal S2048x8x128 .f32) (j : Fin 2048) (l : Fin 128),
    treeK i x0 x1 (ix3 (0 : Fin 1) j l) = Cert.Proof.Spec.nodeOf (Cert.Proof.Spec.keyL (rowsAt x0 (i 1))) j.val l)
variable (hV : ∀ (i : grid0.Coords) (x0 x1 : Vec Ideal S2048x8x128 .f32) (j : Fin 2048) (l : Fin 128),
    treeV i x0 x1 (ix3 (0 : Fin 1) j l)
      = Cert.Proof.Spec.nodeOf (Cert.Proof.Spec.valKer (rowsAt x0 (i 1)) (rowsAt x1 (i 1))) j.val l)

include hK in
/-- Head `h`'s block of the pooled keys, at row `k`, is the head's pooled key row `k`; -/
theorem blkK_apply (d : Dev nD) (h : Fin 16) (k : Fin 2048) (i : Fin 128) :
    iblk1 (W3 m) d 1 (pt2 h) (ix3 (0 : Fin 1) k i) = Cert.Proof.Spec.nodeOf (Cert.Proof.Spec.keyL (kR m d h)) k.val i := by
  rw [iblk1_1_apply]
  show Function.update (V2 m d) bT (Tq m d) (Proc.devRef .tc main_v3_0) (ix3 h k i) = _
  rw [Function.update_of_ne (StableHlo.devRef_ne_of_ne (show (main_v3_0 : Ref sig .tc) ≠ main_v4 by decide)), V2_v3_0, outK_eq, hK, rows_k]

include hV in
/-- of the pooled values, the head's pooled value row `k`. -/
theorem blkV_apply (d : Dev nD) (h : Fin 16) (k : Fin 2048) (l : Fin 128) :
    iblk1 (W3 m) d 2 (pt2 h) (ix3 (0 : Fin 1) k l)
      = Cert.Proof.Spec.nodeOf (Cert.Proof.Spec.valKer (kR m d h) (vR m d h)) k.val l := by
  rw [iblk1_2_apply]
  show Function.update (V2 m d) bT (Tq m d) (Proc.devRef .tc main_v3_1) (ix3 h k l) = _
  rw [Function.update_of_ne (StableHlo.devRef_ne_of_ne (show (main_v3_1 : Ref sig .tc) ≠ main_v4 by decide)), V2_v3_1, outV_eq, hV, rows_k, rows_v]

include hK hV in
/-- THE KERNEL'S RESULT at (0, row, head, lane): the attention of q's row over the head's pooled rows. -/
theorem kerOut (d : Dev nD) (W4 : Valuation τ sig (Elt Ideal)) (hG : G4 m d W4) (r : Fin 2048) (h : Fin 16) (l : Fin 128) :
    (opB (F := Ideal)).result W4 (Proc.devRef .tc main_v6) (ix4 (0 : Fin 1) r h l)
      = Cert.Proof.Spec.attKer (qRow m d r h) (Cert.Proof.Spec.nodeOf (Cert.Proof.Spec.keyL (kR m d h)))
          (Cert.Proof.Spec.nodeOf (Cert.Proof.Spec.valKer (kR m d h) (vR m d h))) l := by
  obtain ⟨o5, rfl, h5⟩ := hG
  rw [opB_out, Function.update_self, out5_eq (W3 m) d o5 h5 r h l, attnTileAt_eq]
  unfold Cert.Proof.Spec.attKer
  have hs : ∀ k : Fin 2048, attnScore (iblk1 (W3 m) d 0 (pt2 h)) (iblk1 (W3 m) d 1 (pt2 h)) r k
      = Cert.Proof.Spec.sKer (qRow m d r h) (Cert.Proof.Spec.nodeOf (Cert.Proof.Spec.keyL (kR m d h))) k.val := by
    intro k
    unfold attnScore Cert.Proof.Spec.sKer
    refine Finset.sum_congr rfl fun i _ => ?_
    rw [blkQ_apply, blkK_apply m hK]
  simp only [hs, blkV_apply m hV]

end Spec

end Cert.Proof.KI

end
-- ==== Proof.TreeNodes.lean ====
/-
  From the tree kernel's levels to a head's pooled rows.

  The tree kernel's two output blocks hold, for one head, the eleven levels of pooled keys and of pooled values laid
  end to end — 1024 rows of level 1, 512 of level 2, …, one of level 11 — and a last row of zeros. Given each level's
  rows as the specification's, every row of a block is the specification's pooled row: the row's place in the block
  decides its level and its number within the level.
-/
import proofs.«208975_g36283883717458_cont_8to1_b_1954_30_alg».proof.Proof.TreeBody
import proofs.«208975_g36283883717458_cont_8to1_b_1954_30_alg».proof.Proof.SpecAttn
import proofs.«208975_g36283883717458_cont_8to1_b_1954_30_alg».proof.Proof.KerOut

set_option maxRecDepth 16384

noncomputable section

namespace Cert.Proof.KI

open Cert.KernelIdeal Cert.KernelIdeal.Gen

open Idealize.ShloMosaic
open Idealize.ShloMosaic.ValueIdx

attribute [local irreducible] treeK treeV Cert.Proof.Spec.keyL Cert.Proof.Spec.valKer

/-- Level `ℓ` of the pooled keys occupies the `n` rows from `off` of the block: row `off + r` is the level's row `r`. -/
def LevelK (ℓ off n : ℕ) (hb : off + n ≤ 2048) : Prop :=
  ∀ (i : grid0.Coords) (x0 x1 : Vec Ideal S2048x8x128 .f32) (r : Fin n) (l : Fin 128),
    treeK i x0 x1 (ix3 (0 : Fin 1) (⟨off + r.val, by have := r.isLt; omega⟩ : Fin 2048) l)
      = Cert.Proof.Spec.keyL (rowsAt x0 (i 1)) ℓ r.val l
/-- The same of the pooled values. -/
def LevelV (ℓ off n : ℕ) (hb : off + n ≤ 2048) : Prop :=
  ∀ (i : grid0.Coords) (x0 x1 : Vec Ideal S2048x8x128 .f32) (r : Fin n) (l : Fin 128),
    treeV i x0 x1 (ix3 (0 : Fin 1) (⟨off + r.val, by have := r.isLt; omega⟩ : Fin 2048) l)
      = Cert.Proof.Spec.valKer (rowsAt x0 (i 1)) (rowsAt x1 (i 1)) ℓ r.val l

/-- The eleven levels of the pooled keys, each at its rows, and the last row zero. -/
structure LevelsK : Prop where
  l1 : LevelK 1 0 1024 (by norm_num)
  l2 : LevelK 2 1024 512 (by norm_num)
  l3 : LevelK 3 1536 256 (by norm_num)
  l4 : LevelK 4 1792 128 (by norm_num)
  l5 : LevelK 5 1920 64 (by norm_num)
  l6 : LevelK 6 1984 32 (by norm_num)
  l7 : LevelK 7 2016 16 (by norm_num)
  l8 : LevelK 8 2032 8 (by norm_num)
  l9 : LevelK 9 2040 4 (by norm_num)
  l10 : LevelK 10 2044 2 (by norm_num)
  l11 : LevelK 11 2046 1 (by norm_num)
  z : ∀ (i : grid0.Coords) (x0 x1 : Vec Ideal S2048x8x128 .f32) (l : Fin 128),
    treeK i x0 x1 (ix3 (0 : Fin 1) (⟨2047, by norm_num⟩ : Fin 2048) l) = 0
/-- The eleven levels of the pooled values, and the last row zero. -/
structure LevelsV : Prop where
  l1 : LevelV 1 0 1024 (by norm_num)
  l2 : LevelV 2 1024 512 (by norm_num)
  l3 : LevelV 3 1536 256 (by norm_num)
  l4 : LevelV 4 1792 128 (by norm_num)
  l5 : LevelV 5 1920 64 (by norm_num)
  l6 : LevelV 6 1984 32 (by norm_num)
  l7 : LevelV 7 2016 16 (by norm_num)
  l8 : LevelV 8 2032 8 (by norm_num)
  l9 : LevelV 9 2040 4 (by norm_num)
  l10 : LevelV 10 2044 2 (by norm_num)
  l11 : LevelV 11 2046 1 (by norm_num)
  z : ∀ (i : grid0.Coords) (x0 x1 : Vec Ideal S2048x8x128 .f32) (l : Fin 128),
    treeV i x0 x1 (ix3 (0 : Fin 1) (⟨2047, by norm_num⟩ : Fin 2048) l) = 0

/-- A level's statement at a row of the block that lies in the level's rows. -/
theorem levelK_at {ℓ off n : ℕ} {hb : off + n ≤ 2048} (h : LevelK ℓ off n hb) (i : grid0.Coords)
    (x0 x1 : Vec Ideal S2048x8x128 .f32) (j : Fin 2048) (l : Fin 128) (h0 : off ≤ j.val) (h1 : j.val < off + n) :
    treeK i x0 x1 (ix3 (0 : Fin 1) j l) = Cert.Proof.Spec.keyL (rowsAt x0 (i 1)) ℓ (j.val - off) l := by
  have hr : j.val - off < n := by omega
  have e : (⟨off + (⟨j.val - off, hr⟩ : Fin n).val, by show off + (j.val - off) < 2048; omega⟩ : Fin 2048) = j :=
    Fin.ext (by show off + (j.val - off) = j.val; omega)
  exact (congrArg (fun jj : Fin 2048 => treeK i x0 x1 (ix3 (0 : Fin 1) jj l)) e).symm.trans (h i x0 x1 ⟨j.val - off, hr⟩ l)
theorem levelV_at {ℓ off n : ℕ} {hb : off + n ≤ 2048} (h : LevelV ℓ off n hb) (i : grid0.Coords)
    (x0 x1 : Vec Ideal S2048x8x128 .f32) (j : Fin 2048) (l : Fin 128) (h0 : off ≤ j.val) (h1 : j.val < off + n) :
    treeV i x0 x1 (ix3 (0 : Fin 1) j l) = Cert.Proof.Spec.valKer (rowsAt x0 (i 1)) (rowsAt x1 (i 1)) ℓ (j.val - off) l := by
  have hr : j.val - off < n := by omega
  have e : (⟨off + (⟨j.val - off, hr⟩ : Fin n).val, by show off + (j.val - off) < 2048; omega⟩ : Fin 2048) = j :=
    Fin.ext (by show off + (j.val - off) = j.val; omega)
  exact (congrArg (fun jj : Fin 2048 => treeV i x0 x1 (ix3 (0 : Fin 1) jj l)) e).symm.trans (h i x0 x1 ⟨j.val - off, hr⟩ l)

/-- Where a row number falls in the levels laid end to end. -/
theorem nodeOf_l1 (f : ℕ → ℕ → Fin 128 → EReal) (j : ℕ) (h0 : 0 ≤ j) (h1 : j < 1024) :
    Cert.Proof.Spec.nodeOf f j = f 1 (j - 0) := by
  unfold Cert.Proof.Spec.nodeOf; rw [if_pos (by omega)]; rfl
theorem nodeOf_l2 (f : ℕ → ℕ → Fin 128 → EReal) (j : ℕ) (h0 : 1024 ≤ j) (h1 : j < 1536) :
    Cert.Proof.Spec.nodeOf f j = f 2 (j - 1024) := by
  unfold Cert.Proof.Spec.nodeOf; rw [if_neg (by omega), if_pos (by omega)]
theorem nodeOf_l3 (f : ℕ → ℕ → Fin 128 → EReal) (j : ℕ) (h0 : 1536 ≤ j) (h1 : j < 1792) :
    Cert.Proof.Spec.nodeOf f j = f 3 (j - 1536) := by
  unfold Cert.Proof.Spec.nodeOf; rw [if_neg (by omega), if_neg (by omega), if_pos (by omega)]
theorem nodeOf_l4 (f : ℕ → ℕ → Fin 128 → EReal) (j : ℕ) (h0 : 1792 ≤ j) (h1 : j < 1920) :
    Cert.Proof.Spec.nodeOf f j = f 4 (j - 1792) := by
  unfold Cert.Proof.Spec.nodeOf; rw [if_neg (by omega), if_neg (by omega), if_neg (by omega), if_pos (by omega)]
theorem nodeOf_l5 (f : ℕ → ℕ → Fin 128 → EReal) (j : ℕ) (h0 : 1920 ≤ j) (h1 : j < 1984) :
    Cert.Proof.Spec.nodeOf f j = f 5 (j - 1920) := by
  unfold Cert.Proof.Spec.nodeOf; rw [if_neg (by omega), if_neg (by omega), if_neg (by omega), if_neg (by omega), if_pos (by omega)]
theorem nodeOf_l6 (f : ℕ → ℕ → Fin 128 → EReal) (j : ℕ) (h0 : 1984 ≤ j) (h1 : j < 2016) :
    Cert.Proof.Spec.nodeOf f j = f 6 (j - 1984) := by
  unfold Cert.Proof.Spec.nodeOf; rw [if_neg (by omega), if_neg (by omega), if_neg (by omega), if_neg (by omega), if_neg (by omega), if_pos (by omega)]
theorem nodeOf_l7 (f : ℕ → ℕ → Fin 128 → EReal) (j : ℕ) (h0 : 2016 ≤ j) (h1 : j < 2032) :
    Cert.Proof.Spec.nodeOf f j = f 7 (j - 2016) := by
  unfold Cert.Proof.Spec.nodeOf; rw [if_neg (by omega), if_neg (by omega), if_neg (by omega), if_neg (by omega), if_neg (by omega), if_neg (by omega), if_pos (by omega)]
theorem nodeOf_l8 (f : ℕ → ℕ → Fin 128 → EReal) (j : ℕ) (h0 : 2032 ≤ j) (h1 : j < 2040) :
    Cert.Proof.Spec.nodeOf f j = f 8 (j - 2032) := by
  unfold Cert.Proof.Spec.nodeOf; rw [if_neg (by omega), if_neg (by omega), if_neg (by omega), if_neg (by omega), if_neg (by omega), if_neg (by omega), if_neg (by omega), if_pos (by omega)]
theorem nodeOf_l9 (f : ℕ → ℕ → Fin 128 → EReal) (j : ℕ) (h0 : 2040 ≤ j) (h1 : j < 2044) :
    Cert.Proof.Spec.nodeOf f j = f 9 (j - 2040) := by
  unfold Cert.Proof.Spec.nodeOf; rw [if_neg (by omega), if_neg (by omega), if_neg (by omega), if_neg (by omega), if_neg (by omega), if_neg (by omega), if_neg (by omega), if_neg (by omega), if_pos (by omega)]
theorem nodeOf_l10 (f : ℕ → ℕ → Fin 128 → EReal) (j : ℕ) (h0 : 2044 ≤ j) (h1 : j < 2046) :
    Cert.Proof.Spec.nodeOf f j = f 10 (j - 2044) := by
  unfold Cert.Proof.Spec.nodeOf; rw [if_neg (by omega), if_neg (by omega), if_neg (by omega), if_neg (by omega), if_neg (by omega), if_neg (by omega), if_neg (by omega), if_neg (by omega), if_neg (by omega), if_pos (by omega)]
theorem nodeOf_l11 (f : ℕ → ℕ → Fin 128 → EReal) (j : ℕ) (h0 : 2046 ≤ j) (h1 : j < 2047) :
    Cert.Proof.Spec.nodeOf f j = f 11 (j - 2046) := by
  unfold Cert.Proof.Spec.nodeOf; rw [if_neg (by omega), if_neg (by omega), if_neg (by omega), if_neg (by omega), if_neg (by omega), if_neg (by omega), if_neg (by omega), if_neg (by omega), if_neg (by omega), if_neg (by omega), if_pos (by omega)]
theorem nodeOf_l12 (f : ℕ → ℕ → Fin 128 → EReal) (j : ℕ) (h0 : 2047 ≤ j) :
    Cert.Proof.Spec.nodeOf f j = fun _ => 0 := by
  unfold Cert.Proof.Spec.nodeOf; rw [if_neg (by omega), if_neg (by omega), if_neg (by omega), if_neg (by omega), if_neg (by omega), if_neg (by omega), if_neg (by omega), if_neg (by omega), if_neg (by omega), if_neg (by omega), if_neg (by omega)]

/-- Every row of the pooled keys' block is the head's pooled key row of that number. -/
theorem hK_of_levels (H : LevelsK) :
    ∀ (i : grid0.Coords) (x0 x1 : Vec Ideal S2048x8x128 .f32) (j : Fin 2048) (l : Fin 128),
      treeK i x0 x1 (ix3 (0 : Fin 1) j l) = Cert.Proof.Spec.nodeOf (Cert.Proof.Spec.keyL (rowsAt x0 (i 1))) j.val l := by
  intro i x0 x1 j l
  have hj : j.val < 2048 := j.isLt
  by_cases c1 : j.val < 1024
  · rw [nodeOf_l1 _ _ (by omega) c1]
    exact levelK_at H.l1 i x0 x1 j l (by omega) (by omega)
  by_cases c2 : j.val < 1536
  · rw [nodeOf_l2 _ _ (by omega) c2]
    exact levelK_at H.l2 i x0 x1 j l (by omega) (by omega)
  by_cases c3 : j.val < 1792
  · rw [nodeOf_l3 _ _ (by omega) c3]
    exact levelK_at H.l3 i x0 x1 j l (by omega) (by omega)
  by_cases c4 : j.val < 1920
  · rw [nodeOf_l4 _ _ (by omega) c4]
    exact levelK_at H.l4 i x0 x1 j l (by omega) (by omega)
  by_cases c5 : j.val < 1984
  · rw [nodeOf_l5 _ _ (by omega) c5]
    exact levelK_at H.l5 i x0 x1 j l (by omega) (by omega)
  by_cases c6 : j.val < 2016
  · rw [nodeOf_l6 _ _ (by omega) c6]
    exact levelK_at H.l6 i x0 x1 j l (by omega) (by omega)
  by_cases c7 : j.val < 2032
  · rw [nodeOf_l7 _ _ (by omega) c7]
    exact levelK_at H.l7 i x0 x1 j l (by omega) (by omega)
  by_cases c8 : j.val < 2040
  · rw [nodeOf_l8 _ _ (by omega) c8]
    exact levelK_at H.l8 i x0 x1 j l (by omega) (by omega)
  by_cases c9 : j.val < 2044
  · rw [nodeOf_l9 _ _ (by omega) c9]
    exact levelK_at H.l9 i x0 x1 j l (by omega) (by omega)
  by_cases c10 : j.val < 2046
  · rw [nodeOf_l10 _ _ (by omega) c10]
    exact levelK_at H.l10 i x0 x1 j l (by omega) (by omega)
  by_cases c11 : j.val < 2047
  · rw [nodeOf_l11 _ _ (by omega) c11]
    exact levelK_at H.l11 i x0 x1 j l (by omega) (by omega)
  rw [nodeOf_l12 _ _ (by omega)]
  have e : j = (⟨2047, by norm_num⟩ : Fin 2048) := Fin.ext (by show j.val = 2047; omega)
  rw [e]; exact H.z i x0 x1 l

/-- Every row of the pooled values' block is the head's pooled value row of that number. -/
theorem hV_of_levels (H : LevelsV) :
    ∀ (i : grid0.Coords) (x0 x1 : Vec Ideal S2048x8x128 .f32) (j : Fin 2048) (l : Fin 128),
      treeV i x0 x1 (ix3 (0 : Fin 1) j l)
        = Cert.Proof.Spec.nodeOf (Cert.Proof.Spec.valKer (rowsAt x0 (i 1)) (rowsAt x1 (i 1))) j.val l := by
  intro i x0 x1 j l
  have hj : j.val < 2048 := j.isLt
  by_cases c1 : j.val < 1024
  · rw [nodeOf_l1 _ _ (by omega) c1]
    exact levelV_at H.l1 i x0 x1 j l (by omega) (by omega)
  by_cases c2 : j.val < 1536
  · rw [nodeOf_l2 _ _ (by omega) c2]
    exact levelV_at H.l2 i x0 x1 j l (by omega) (by omega)
  by_cases c3 : j.val < 1792
  · rw [nodeOf_l3 _ _ (by omega) c3]
    exact levelV_at H.l3 i x0 x1 j l (by omega) (by omega)
  by_cases c4 : j.val < 1920
  · rw [nodeOf_l4 _ _ (by omega) c4]
    exact levelV_at H.l4 i x0 x1 j l (by omega) (by omega)
  by_cases c5 : j.val < 1984
  · rw [nodeOf_l5 _ _ (by omega) c5]
    exact levelV_at H.l5 i x0 x1 j l (by omega) (by omega)
  by_cases c6 : j.val < 2016
  · rw [nodeOf_l6 _ _ (by omega) c6]
    exact levelV_at H.l6 i x0 x1 j l (by omega) (by omega)
  by_cases c7 : j.val < 2032
  · rw [nodeOf_l7 _ _ (by omega) c7]
    exact levelV_at H.l7 i x0 x1 j l (by omega) (by omega)
  by_cases c8 : j.val < 2040
  · rw [nodeOf_l8 _ _ (by omega) c8]
    exact levelV_at H.l8 i x0 x1 j l (by omega) (by omega)
  by_cases c9 : j.val < 2044
  · rw [nodeOf_l9 _ _ (by omega) c9]
    exact levelV_at H.l9 i x0 x1 j l (by omega) (by omega)
  by_cases c10 : j.val < 2046
  · rw [nodeOf_l10 _ _ (by omega) c10]
    exact levelV_at H.l10 i x0 x1 j l (by omega) (by omega)
  by_cases c11 : j.val < 2047
  · rw [nodeOf_l11 _ _ (by omega) c11]
    exact levelV_at H.l11 i x0 x1 j l (by omega) (by omega)
  rw [nodeOf_l12 _ _ (by omega)]
  have e : j = (⟨2047, by norm_num⟩ : Fin 2048) := Fin.ext (by show j.val = 2047; omega)
  rw [e]; exact H.z i x0 x1 l

end Cert.Proof.KI

end
-- ==== Proof.RefValue.lean ====
/-
  What the reference program computes, read index by index as the specification's mathematics.

  The reference pools a head's key and value rows pairwise, eleven times. Each level's key array is half the sum of
  the even and the odd rows of the level below; three scaled inner products per row (of the pooled key with itself, with
  the even child and with the odd child), their largest, three exponentials, their sum plus a small constant, and
  the three quotients weight half the sum of the two children's values and the two values themselves. Read at an
  index (0, r, h, l) these are the specification's meanRow, score, wDen and mixRef on rows 2 r and 2 r + 1 of the level
  below (meanRows_apply, scoreRows_apply, outRows_apply), so by induction over the levels every level's key and value
  arrays are the specification's keyL and valRef of the head's rows (level1 … level11).

  The eleven levels laid end to end along the rows are the 2047 nodes (KK_node, KV_node). A query row's scores are
  its inner products with the nodes' key rows, scaled; the weights are the exponentials of the scores less the row's
  largest, over their sum; the result at (0, q, h, d) is the sum over the nodes of the node's value entry (h, d) times
  its weight (refOut_apply; ref_spec in the specification's own words). Scores and their largest are reals when
  the inputs are.
-/
import proofs.«208975_g36283883717458_cont_8to1_b_1954_30_alg».proof.Proof.Gen.ReferenceIdeal.Run
import proofs.«208975_g36283883717458_cont_8to1_b_1954_30_alg».proof.Proof.Spec
import proofs.«208975_g36283883717458_cont_8to1_b_1954_30_alg».proof.Proof.SpecAttn
import proofs.«208975_g36283883717458_cont_8to1_b_1954_30_alg».proof.Proof.LibPoolLaws
import Idealize.ShloMosaic.Lib.ValueIdx
import Idealize.ShloMosaic.Lib.Pipeline.Value
import Idealize.ShloMosaic.Lib.IdealHost
import Idealize.ShloMosaic.PureOps.Ideal.Laws

set_option maxRecDepth 8192

noncomputable section

namespace Cert.Proof.RefValue

open Cert.ReferenceIdeal Cert.ReferenceIdeal.Value
open Idealize.ShloMosaic Idealize.ShloMosaic.ValueIdx
open Cert.Gcn Cert.PoolLaws Cert.Proof.Spec
open scoped BigOperators

open Cert.ReferenceIdeal.Gen

/-! ## Re-indexings read at an index -/

section Reads
variable {α : Type}

/-- A strided slice read at an index is the operand at start + stride · coordinate on every axis. -/
theorem hostSlice_apply {s t : Shape} (start strides : Fin s.rank → Nat) (x : s.Idx → α) (h : s.SlicesBy start strides t)
    (j : t.Idx) (k : s.Idx) (hk : ∀ a : Fin s.rank, (k a).val = start a + strides a * (j (a.cast h.1.symm)).val) :
    Host.slice t start strides x h j = x k := by
  unfold Host.slice
  exact congrArg x (funext fun a => Fin.ext (hk a).symm)

/-- The even rows (t = 0) or the odd rows (t = 1) of a [1, m, 16, 128] array: row r of the slice is row 2 r + t. -/
theorem slice_rows_apply {n m : ℕ} (t : ℕ) (x : (⟨4, ![1, m, 16, 128]⟩ : Shape).Idx → α)
    (hs : (⟨4, ![1, m, 16, 128]⟩ : Shape).SlicesBy ![0, t, 0, 0] ![1, 2, 1, 1] ⟨4, ![1, n, 16, 128]⟩)
    (r : Fin n) (h : Fin 16) (l : Fin 128) (hr : 2 * r.val + t < m) :
    Host.slice ⟨4, ![1, n, 16, 128]⟩ ![0, t, 0, 0] ![1, 2, 1, 1] x hs (ix4 0 r h l) = x (ix4 0 ⟨2 * r.val + t, hr⟩ h l) :=
  hostSlice_apply _ _ x hs _ _ fun a => by
    match a with
    | ⟨0, _⟩ => rfl
    | ⟨1, _⟩ => show 2 * r.val + t = t + 2 * r.val; omega
    | ⟨2, _⟩ => show h.val = 0 + 1 * h.val; omega
    | ⟨3, _⟩ => show l.val = 0 + 1 * l.val; omega

/-- Rows paired up, one of each pair taken, the pair axis dropped again: row r is row 2 r + t of the array. -/
theorem pair_row_apply {n m : ℕ} (t : ℕ) (ht : t < 2) (x : (⟨4, ![1, m, 16, 128]⟩ : Shape).Idx → α)
    (h1 : (⟨4, ![1, m, 16, 128]⟩ : Shape).ShapeCasts ⟨5, ![1, n, 2, 16, 128]⟩)
    (h2 : (⟨5, ![1, n, 2, 16, 128]⟩ : Shape).Slices ![0, 0, t, 0, 0] ⟨5, ![1, n, 1, 16, 128]⟩)
    (h3 : (⟨5, ![1, n, 1, 16, 128]⟩ : Shape).ShapeCasts ⟨4, ![1, n, 16, 128]⟩)
    (r : Fin n) (h : Fin 16) (l : Fin 128) (hr : 2 * r.val + t < m) :
    shapeCast ⟨4, ![1, n, 16, 128]⟩
        (extractStridedSlice ⟨5, ![1, n, 1, 16, 128]⟩ ![0, 0, t, 0, 0] (shapeCast ⟨5, ![1, n, 2, 16, 128]⟩ x h1) h2) h3
        (ix4 0 r h l)
      = x (ix4 0 ⟨2 * r.val + t, hr⟩ h l) := by
  rw [shapeCast_apply _ h3 _ (ix5 0 r 0 h l) (by
      rw [Shape.rowMajor_val_five, Shape.rowMajor_val_four]
      show ((((0 * n + r.val) * 1 + 0) * 16 + h.val) * 128 + l.val) = (((0 * n + r.val) * 16 + h.val) * 128 + l.val)
      omega),
    extractStridedSlice_apply _ _ h2 _ (ix5 0 r ⟨t, ht⟩ h l) (fun a => by
      match a with
      | ⟨0, _⟩ => rfl
      | ⟨1, _⟩ => show r.val = 0 + r.val; omega
      | ⟨2, _⟩ => show t = t + 0; omega
      | ⟨3, _⟩ => show h.val = 0 + h.val; omega
      | ⟨4, _⟩ => show l.val = 0 + l.val; omega),
    shapeCast_apply _ h1 _ (ix4 0 ⟨2 * r.val + t, hr⟩ h l) (by
      rw [Shape.rowMajor_val_five, Shape.rowMajor_val_four]
      show (((0 * m + (2 * r.val + t)) * 16 + h.val) * 128 + l.val) = ((((0 * n + r.val) * 2 + t) * 16 + h.val) * 128 + l.val)
      omega)]

/-- A [1, n, 16] array broadcast along a new unit lane axis and then over 128 lanes reads its entry at every lane. -/
theorem bcast_lane_apply {n : ℕ} (x : (⟨3, ![1, n, 16]⟩ : Shape).Idx → α)
    (h1 : (⟨3, ![1, n, 16]⟩ : Shape).BroadcastsInDim ⟨4, ![1, n, 16, 1]⟩ ![0, 1, 2])
    (h2 : (⟨4, ![1, n, 16, 1]⟩ : Shape).BroadcastsInDim ⟨4, ![1, n, 16, 128]⟩ ![0, 1, 2, 3])
    (r : Fin n) (h : Fin 16) (l : Fin 128) :
    broadcastInDim ⟨4, ![1, n, 16, 128]⟩ ![0, 1, 2, 3] h2 (broadcastInDim ⟨4, ![1, n, 16, 1]⟩ ![0, 1, 2] h1 x) (ix4 0 r h l)
      = x (ix3 0 r h) := by
  have hr := r.isLt
  rw [broadcastInDim_apply _ h2 _ _ (ix4 0 r h 0) (fun a => by
      match a with
      | ⟨0, _⟩ => rfl
      | ⟨1, _⟩ => show r.val = if n = 1 then 0 else r.val; split_ifs <;> omega
      | ⟨2, _⟩ => rfl
      | ⟨3, _⟩ => rfl),
    broadcastInDim_apply _ h1 _ _ (ix3 0 r h) (fun a => by
      match a with
      | ⟨0, _⟩ => rfl
      | ⟨1, _⟩ => show r.val = if n = 1 then 0 else r.val; split_ifs <;> omega
      | ⟨2, _⟩ => rfl)]

end Reads

/-! ## The float words, as the specification's constants -/

theorem half_word : Ideal.ofBits .f32 0x3F000000#32 = ((1 / 2 : ℝ) : EReal) := ofBits_half
theorem scale_word : Ideal.ofBits .f32 0x3DB504F3#32 = ((cS : ℝ) : EReal) := ofBits_rsqrt128
theorem eps_word : Ideal.ofBits .f32 0x3089705F#32 = ((eps : ℝ) : EReal) := ofBits_1em9

/-! ## The batched row product -/

section Dot

/-- The dimension numbers of a product of two [1, n, 16, 128] arrays that contracts the lanes and keeps the other three
    axes as batch axes. -/
abbrev dotRows {n : ℕ}
    (wf : DotDims.WF (⟨4, ![1, n, 16, 128]⟩ : Shape) ⟨4, ![1, n, 16, 128]⟩ ⟨3, ![1, n, 16]⟩ [3] [3] [] [] [0, 1, 2] [0, 1, 2]) :
    DotDims (⟨4, ![1, n, 16, 128]⟩ : Shape) ⟨4, ![1, n, 16, 128]⟩ ⟨3, ![1, n, 16]⟩ :=
  ⟨[3], [3], [], [], [0, 1, 2], [0, 1, 2], wf⟩

variable {n : ℕ}
  (wf : DotDims.WF (⟨4, ![1, n, 16, 128]⟩ : Shape) ⟨4, ![1, n, 16, 128]⟩ ⟨3, ![1, n, 16]⟩ [3] [3] [] [] [0, 1, 2] [0, 1, 2])

theorem dotRows_lhs_0 (i : (⟨3, ![1, n, 16]⟩ : Shape).Idx) (q : (dotRows wf).contr.Idx) :
    ((dotRows wf).lhsIdx i q 0).val = (i 0).val := by
  unfold DotDims.lhsIdx
  rw [dif_pos (show (0 : Fin (⟨4, ![1, n, 16, 128]⟩ : Shape).rank) ∈ (dotRows wf).lhsBatch from List.mem_cons_self)]
  rfl
theorem dotRows_lhs_1 (i : (⟨3, ![1, n, 16]⟩ : Shape).Idx) (q : (dotRows wf).contr.Idx) :
    ((dotRows wf).lhsIdx i q 1).val = (i 1).val := by
  unfold DotDims.lhsIdx
  rw [dif_pos (show (1 : Fin (⟨4, ![1, n, 16, 128]⟩ : Shape).rank) ∈ (dotRows wf).lhsBatch from List.mem_cons_of_mem _ List.mem_cons_self)]
  rfl
theorem dotRows_lhs_2 (i : (⟨3, ![1, n, 16]⟩ : Shape).Idx) (q : (dotRows wf).contr.Idx) :
    ((dotRows wf).lhsIdx i q 2).val = (i 2).val := by
  unfold DotDims.lhsIdx
  rw [dif_pos (show (2 : Fin (⟨4, ![1, n, 16, 128]⟩ : Shape).rank) ∈ (dotRows wf).lhsBatch from List.mem_cons_of_mem _ (List.mem_cons_of_mem _ List.mem_cons_self))]
  rfl
theorem dotRows_lhs_3 (i : (⟨3, ![1, n, 16]⟩ : Shape).Idx) (q : (dotRows wf).contr.Idx) :
    ((dotRows wf).lhsIdx i q 3).val = (q ⟨0, Nat.zero_lt_one⟩).val :=
  (dotRows wf).lhsIdx_val_of_single rfl i q
theorem dotRows_rhs_0 (i : (⟨3, ![1, n, 16]⟩ : Shape).Idx) (q : (dotRows wf).contr.Idx) :
    ((dotRows wf).rhsIdx i q 0).val = (i 0).val := by
  unfold DotDims.rhsIdx
  rw [dif_pos (show (0 : Fin (⟨4, ![1, n, 16, 128]⟩ : Shape).rank) ∈ (dotRows wf).rhsBatch from List.mem_cons_self)]
  rfl
theorem dotRows_rhs_1 (i : (⟨3, ![1, n, 16]⟩ : Shape).Idx) (q : (dotRows wf).contr.Idx) :
    ((dotRows wf).rhsIdx i q 1).val = (i 1).val := by
  unfold DotDims.rhsIdx
  rw [dif_pos (show (1 : Fin (⟨4, ![1, n, 16, 128]⟩ : Shape).rank) ∈ (dotRows wf).rhsBatch from List.mem_cons_of_mem _ List.mem_cons_self)]
  rfl
theorem dotRows_rhs_2 (i : (⟨3, ![1, n, 16]⟩ : Shape).Idx) (q : (dotRows wf).contr.Idx) :
    ((dotRows wf).rhsIdx i q 2).val = (i 2).val := by
  unfold DotDims.rhsIdx
  rw [dif_pos (show (2 : Fin (⟨4, ![1, n, 16, 128]⟩ : Shape).rank) ∈ (dotRows wf).rhsBatch from List.mem_cons_of_mem _ (List.mem_cons_of_mem _ List.mem_cons_self))]
  rfl
theorem dotRows_rhs_3 (i : (⟨3, ![1, n, 16]⟩ : Shape).Idx) (q : (dotRows wf).contr.Idx) :
    ((dotRows wf).rhsIdx i q 3).val = (q ⟨0, Nat.zero_lt_one⟩).val :=
  (dotRows wf).rhsIdx_val_of_single rfl i q

/-- The product at (0, r, h) is the inner product of the two operands' rows (0, r, h, ·) over the 128 lanes. -/
theorem dotRows_apply (X Y : (⟨4, ![1, n, 16, 128]⟩ : Shape).Idx → EReal) (r : Fin n) (h : Fin 16) :
    Host.dotGeneral (F := Ideal) (φ₁ := .f32) (φ₂ := .f32) (dotRows wf) none X Y (ix3 0 r h)
      = ∑ l : Fin 128, X (ix4 0 r h l) * Y (ix4 0 r h l) := by
  simp only [Host.dotGeneral]
  rw [Ideal.dotGeneral_apply, ← Equiv.sum_comp (contrEquiv1 (dotRows wf) 128 rfl rfl).symm]
  refine Finset.sum_congr rfl fun k _ => ?_
  have hk := contrEquiv1_symm_val (dotRows wf) 128 rfl rfl k
  have el : (dotRows wf).lhsIdx (ix3 0 r h) ((contrEquiv1 (dotRows wf) 128 rfl rfl).symm k) = ix4 0 r h k :=
    funext fun a => Fin.ext (by
      match a with
      | ⟨0, _⟩ => exact dotRows_lhs_0 wf _ _
      | ⟨1, _⟩ => exact dotRows_lhs_1 wf _ _
      | ⟨2, _⟩ => exact dotRows_lhs_2 wf _ _
      | ⟨3, _⟩ => exact (dotRows_lhs_3 wf _ _).trans hk)
  have er : (dotRows wf).rhsIdx (ix3 0 r h) ((contrEquiv1 (dotRows wf) 128 rfl rfl).symm k) = ix4 0 r h k :=
    funext fun a => Fin.ext (by
      match a with
      | ⟨0, _⟩ => exact dotRows_rhs_0 wf _ _
      | ⟨1, _⟩ => exact dotRows_rhs_1 wf _ _
      | ⟨2, _⟩ => exact dotRows_rhs_2 wf _ _
      | ⟨3, _⟩ => exact (dotRows_rhs_3 wf _ _).trans hk)
  rw [el, er]

end Dot

/-! ## One level's three kinds of array, read at an index -/

section LevelReads
variable {n m : ℕ}

/-- Half the sum of the even and the odd rows: row r is half of rows 2 r and 2 r + 1. -/
theorem meanRows_apply (x : (⟨4, ![1, m, 16, 128]⟩ : Shape).Idx → EReal)
    (hb : (⟨0, ![]⟩ : Shape).BroadcastsInDim ⟨4, ![1, n, 16, 128]⟩ ![])
    (hs0 : (⟨4, ![1, m, 16, 128]⟩ : Shape).SlicesBy ![0, 0, 0, 0] ![1, 2, 1, 1] ⟨4, ![1, n, 16, 128]⟩)
    (hs1 : (⟨4, ![1, m, 16, 128]⟩ : Shape).SlicesBy ![0, 1, 0, 0] ![1, 2, 1, 1] ⟨4, ![1, n, 16, 128]⟩)
    (r : Fin n) (h : Fin 16) (l : Fin 128) (hr : 2 * r.val + 1 < m) :
    mulf (F := Ideal) (φ := .f32)
        (broadcastInDim ⟨4, ![1, n, 16, 128]⟩ ![] hb (constant (F := Ideal) ⟨0, ![]⟩ .f32 0x3F000000#32))
        (addf (Host.slice ⟨4, ![1, n, 16, 128]⟩ ![0, 0, 0, 0] ![1, 2, 1, 1] x hs0)
          (Host.slice ⟨4, ![1, n, 16, 128]⟩ ![0, 1, 0, 0] ![1, 2, 1, 1] x hs1)) (ix4 0 r h l)
      = ((1 / 2 : ℝ) : EReal) * (x (ix4 0 ⟨2 * r.val, by omega⟩ h l) + x (ix4 0 ⟨2 * r.val + 1, hr⟩ h l)) := by
  rw [mulf_apply, addf_apply, broadcastInDim_scalar_apply, constant_apply, half_word,
    slice_rows_apply 0 x hs0 r h l (by omega), slice_rows_apply 1 x hs1 r h l hr]
  rfl

/-- A scaled batched row product at (0, r, h) is the score of the two rows. -/
theorem scoreRows_apply
    (wf : DotDims.WF (⟨4, ![1, n, 16, 128]⟩ : Shape) ⟨4, ![1, n, 16, 128]⟩ ⟨3, ![1, n, 16]⟩ [3] [3] [] [] [0, 1, 2] [0, 1, 2])
    (X Y : (⟨4, ![1, n, 16, 128]⟩ : Shape).Idx → EReal)
    (hb : (⟨0, ![]⟩ : Shape).BroadcastsInDim ⟨3, ![1, n, 16]⟩ ![]) (r : Fin n) (h : Fin 16) :
    mulf (F := Ideal) (φ := .f32) (Host.dotGeneral (F := Ideal) (φ₁ := .f32) (φ₂ := .f32) (dotRows wf) none X Y)
        (broadcastInDim ⟨3, ![1, n, 16]⟩ ![] hb (constant (F := Ideal) ⟨0, ![]⟩ .f32 0x3DB504F3#32)) (ix3 0 r h)
      = score cS (fun l => X (ix4 0 r h l)) (fun l => Y (ix4 0 r h l)) := by
  rw [mulf_apply, dotRows_apply, broadcastInDim_scalar_apply, constant_apply, scale_word]
  rfl

/-- The three weighted terms of a level's value array at (0, r, h, l): each weight is a quotient read at (0, r, h); the
    first multiplies half the sum of rows 2 r and 2 r + 1 of the children's values, the second row 2 r, the third row
    2 r + 1. -/
theorem outRows_apply (eA eB eC den : (⟨3, ![1, n, 16]⟩ : Shape).Idx → EReal)
    (x : (⟨4, ![1, m, 16, 128]⟩ : Shape).Idx → EReal)
    (hb1 : (⟨3, ![1, n, 16]⟩ : Shape).BroadcastsInDim ⟨4, ![1, n, 16, 1]⟩ ![0, 1, 2])
    (hb2 : (⟨4, ![1, n, 16, 1]⟩ : Shape).BroadcastsInDim ⟨4, ![1, n, 16, 128]⟩ ![0, 1, 2, 3])
    (hb : (⟨0, ![]⟩ : Shape).BroadcastsInDim ⟨4, ![1, n, 16, 128]⟩ ![])
    (hs0 : (⟨4, ![1, m, 16, 128]⟩ : Shape).SlicesBy ![0, 0, 0, 0] ![1, 2, 1, 1] ⟨4, ![1, n, 16, 128]⟩)
    (hs1 : (⟨4, ![1, m, 16, 128]⟩ : Shape).SlicesBy ![0, 1, 0, 0] ![1, 2, 1, 1] ⟨4, ![1, n, 16, 128]⟩)
    (h1 : (⟨4, ![1, m, 16, 128]⟩ : Shape).ShapeCasts ⟨5, ![1, n, 2, 16, 128]⟩)
    (h20 : (⟨5, ![1, n, 2, 16, 128]⟩ : Shape).Slices ![0, 0, 0, 0, 0] ⟨5, ![1, n, 1, 16, 128]⟩)
    (h21 : (⟨5, ![1, n, 2, 16, 128]⟩ : Shape).Slices ![0, 0, 1, 0, 0] ⟨5, ![1, n, 1, 16, 128]⟩)
    (h3 : (⟨5, ![1, n, 1, 16, 128]⟩ : Shape).ShapeCasts ⟨4, ![1, n, 16, 128]⟩)
    (r : Fin n) (h : Fin 16) (l : Fin 128) (hr : 2 * r.val + 1 < m) :
    addf (F := Ideal) (φ := .f32)
        (addf
          (mulf (broadcastInDim ⟨4, ![1, n, 16, 128]⟩ ![0, 1, 2, 3] hb2
              (broadcastInDim ⟨4, ![1, n, 16, 1]⟩ ![0, 1, 2] hb1 (Host.divf (F := Ideal) (φ := .f32) eA den)))
            (mulf (broadcastInDim ⟨4, ![1, n, 16, 128]⟩ ![] hb (constant (F := Ideal) ⟨0, ![]⟩ .f32 0x3F000000#32))
              (addf (Host.slice ⟨4, ![1, n, 16, 128]⟩ ![0, 0, 0, 0] ![1, 2, 1, 1] x hs0)
                (Host.slice ⟨4, ![1, n, 16, 128]⟩ ![0, 1, 0, 0] ![1, 2, 1, 1] x hs1))))
          (mulf (broadcastInDim ⟨4, ![1, n, 16, 128]⟩ ![0, 1, 2, 3] hb2
              (broadcastInDim ⟨4, ![1, n, 16, 1]⟩ ![0, 1, 2] hb1 (Host.divf (F := Ideal) (φ := .f32) eB den)))
            (shapeCast ⟨4, ![1, n, 16, 128]⟩
              (extractStridedSlice ⟨5, ![1, n, 1, 16, 128]⟩ ![0, 0, 0, 0, 0] (shapeCast ⟨5, ![1, n, 2, 16, 128]⟩ x h1) h20) h3)))
        (mulf (broadcastInDim ⟨4, ![1, n, 16, 128]⟩ ![0, 1, 2, 3] hb2
            (broadcastInDim ⟨4, ![1, n, 16, 1]⟩ ![0, 1, 2] hb1 (Host.divf (F := Ideal) (φ := .f32) eC den)))
          (shapeCast ⟨4, ![1, n, 16, 128]⟩
            (extractStridedSlice ⟨5, ![1, n, 1, 16, 128]⟩ ![0, 0, 1, 0, 0] (shapeCast ⟨5, ![1, n, 2, 16, 128]⟩ x h1) h21) h3))
        (ix4 0 r h l)
      = Ideal.div (eA (ix3 0 r h)) (den (ix3 0 r h))
            * (((1 / 2 : ℝ) : EReal) * (x (ix4 0 ⟨2 * r.val, by omega⟩ h l) + x (ix4 0 ⟨2 * r.val + 1, hr⟩ h l)))
          + Ideal.div (eB (ix3 0 r h)) (den (ix3 0 r h)) * x (ix4 0 ⟨2 * r.val, by omega⟩ h l)
          + Ideal.div (eC (ix3 0 r h)) (den (ix3 0 r h)) * x (ix4 0 ⟨2 * r.val + 1, hr⟩ h l) := by
  rw [addf_apply, addf_apply, mulf_apply, meanRows_apply x hb hs0 hs1 r h l hr, mulf_apply, mulf_apply,
    bcast_lane_apply, bcast_lane_apply, bcast_lane_apply, hostDivf_apply, hostDivf_apply, hostDivf_apply,
    pair_row_apply 0 (by omega) x h1 h20 h3 r h l (by omega), pair_row_apply 1 (by omega) x h1 h21 h3 r h l hr]
  rfl

end LevelReads

/-- Half the sum of two entries. -/
def halfSum (a b : EReal) : EReal := ((1 / 2 : ℝ) : EReal) * (a + b)

/-- The exponential of a score less the largest of the three scores. -/
def expSub (A B C X : EReal) : EReal := Ideal.exp (X - max A (max B C))

/-! ## One level, from its children -/

/-- The head's rows of a [1, 2048, 16, 128] array, as rows over the naturals (zero past the last). -/
def rowsOf (x : S1x2048x16x128.Idx → EReal) (h : Fin 16) : ℕ → Fin 128 → EReal :=
  fun r l => if hr : r < 2048 then x (ix4 0 ⟨r, hr⟩ h l) else 0

theorem rowsOf_apply (x : S1x2048x16x128.Idx → EReal) (h : Fin 16) (r : Fin 2048) (l : Fin 128) :
    rowsOf x h r.val l = x (ix4 0 r h l) := by
  unfold rowsOf; rw [dif_pos r.isLt]

/-- If the children's key rows 2 r, 2 r + 1 are level ℓ's and their value entries likewise, then half their sum is level
    ℓ + 1's key row r, and the three scores' mix of the values is level ℓ + 1's value entry. -/
theorem level_glue (kk vv : ℕ → Fin 128 → EReal) (ℓ r : ℕ) (P K0 K1 : Fin 128 → EReal) (A B C x0 x1 out : EReal)
    (l : Fin 128) (hK0 : K0 = keyL kk ℓ (2 * r)) (hK1 : K1 = keyL kk ℓ (2 * r + 1))
    (hP : ∀ l, P l = halfSum (K0 l) (K1 l))
    (hA : A = score cS P P) (hB : B = score cS P K0) (hC : C = score cS P K1)
    (hx0 : x0 = valRef kk vv ℓ (2 * r) l) (hx1 : x1 = valRef kk vv ℓ (2 * r + 1) l)
    (hout : out = mixRef eps A B C x0 x1) :
    P = keyL kk (ℓ + 1) r ∧ out = valRef kk vv (ℓ + 1) r l := by
  have hP' : P = keyL kk (ℓ + 1) r := funext fun l => by rw [hP l, hK0, hK1]; rfl
  refine ⟨hP', ?_⟩
  rw [hout, hA, hB, hC, hx0, hx1, hK0, hK1, hP']
  rfl

/-! ## The reference's levels -/

/-- The three argument arrays of a valuation: queries, keys, values. -/
abbrev qOf (V : Valuation τ sig (Elt Ideal)) : S1x2048x16x128.Idx → EReal := V (Proc.devRef .tc main_arg0)
abbrev kOf (V : Valuation τ sig (Elt Ideal)) : S1x2048x16x128.Idx → EReal := V (Proc.devRef .tc main_arg1)
abbrev vOf (V : Valuation τ sig (Elt Ideal)) : S1x2048x16x128.Idx → EReal := V (Proc.devRef .tc main_arg2)

set_option maxHeartbeats 4000000 in
/-- Level 1: row r (of 1024) of the level's key array is the specification's pooled key row, and of its value array
    the specification's pooled value row, for every head and lane. -/
theorem level1 (V : Valuation τ sig (Elt Ideal)) (r : Fin 1024) (h : Fin 16) (l : Fin 128) :
    res_main_v4 (F := Ideal) V (ix4 0 r h l) = keyL (rowsOf (kOf V) h) 1 r.val l
      ∧ res_main_v54 (F := Ideal) V (ix4 0 r h l) = valRef (rowsOf (kOf V) h) (rowsOf (vOf V) h) 1 r.val l := by
  have hr := r.isLt
  have hk : ∀ (r' : Fin 2048) (l' : Fin 128), (kOf V) (ix4 0 r' h l') = keyL (rowsOf (kOf V) h) 0 r'.val l' :=
    fun r' l' => (rowsOf_apply (kOf V) h r' l').symm
  have hv : ∀ (r' : Fin 2048) (l' : Fin 128),
      (vOf V) (ix4 0 r' h l') = valRef (rowsOf (kOf V) h) (rowsOf (vOf V) h) 0 r'.val l' :=
    fun r' l' => (rowsOf_apply (vOf V) h r' l').symm
  have hP : ∀ l' : Fin 128, res_main_v4 (F := Ideal) V (ix4 0 r h l') = halfSum ((kOf V) (ix4 0 ⟨2 * r.val, by omega⟩ h l')) ((kOf V) (ix4 0 ⟨2 * r.val + 1, by omega⟩ h l')) :=
    fun l' => by
      unfold res_main_v4
      exact meanRows_apply _ _ _ _ r h l' (by omega)
  have hA : (res_main_v14 (F := Ideal) V (ix3 0 r h)) = score cS (fun l' => res_main_v4 (F := Ideal) V (ix4 0 r h l')) (fun l' => res_main_v4 (F := Ideal) V (ix4 0 r h l')) := by
    unfold res_main_v14
    exact scoreRows_apply Facts₀.dot_S1x1024x16x128_S1x1024x16x128_S1x1024x16_3_3_n_n_012_012_wf _ _ _ r h
  have hB : (res_main_v19 (F := Ideal) V (ix3 0 r h)) = score cS (fun l' => res_main_v4 (F := Ideal) V (ix4 0 r h l')) (fun l' => (kOf V) (ix4 0 ⟨2 * r.val, by omega⟩ h l')) := by
    unfold res_main_v19 res_main_v10
    refine (scoreRows_apply Facts₀.dot_S1x1024x16x128_S1x1024x16x128_S1x1024x16_3_3_n_n_012_012_wf _ _ _ r h).trans (congrArg (score cS _) (funext fun l' => ?_))
    exact pair_row_apply 0 (by omega) _ _ _ _ r h l' (by omega)
  have hC : (res_main_v24 (F := Ideal) V (ix3 0 r h)) = score cS (fun l' => res_main_v4 (F := Ideal) V (ix4 0 r h l')) (fun l' => (kOf V) (ix4 0 ⟨2 * r.val + 1, by omega⟩ h l')) := by
    unfold res_main_v24 res_main_v10
    refine (scoreRows_apply Facts₀.dot_S1x1024x16x128_S1x1024x16x128_S1x1024x16_3_3_n_n_012_012_wf _ _ _ r h).trans (congrArg (score cS _) (funext fun l' => ?_))
    exact pair_row_apply 1 (by omega) _ _ _ _ r h l' (by omega)
  have e1 : res_main_v28 (F := Ideal) V (ix3 0 r h) = expSub (res_main_v14 (F := Ideal) V (ix3 0 r h)) (res_main_v19 (F := Ideal) V (ix3 0 r h)) (res_main_v24 (F := Ideal) V (ix3 0 r h)) (res_main_v14 (F := Ideal) V (ix3 0 r h)) := by
    unfold res_main_v28 res_main_v26; rfl
  have e2 : res_main_v30 (F := Ideal) V (ix3 0 r h) = expSub (res_main_v14 (F := Ideal) V (ix3 0 r h)) (res_main_v19 (F := Ideal) V (ix3 0 r h)) (res_main_v24 (F := Ideal) V (ix3 0 r h)) (res_main_v19 (F := Ideal) V (ix3 0 r h)) := by
    unfold res_main_v30 res_main_v26; rfl
  have e3 : res_main_v32 (F := Ideal) V (ix3 0 r h) = expSub (res_main_v14 (F := Ideal) V (ix3 0 r h)) (res_main_v19 (F := Ideal) V (ix3 0 r h)) (res_main_v24 (F := Ideal) V (ix3 0 r h)) (res_main_v24 (F := Ideal) V (ix3 0 r h)) := by
    unfold res_main_v32 res_main_v26; rfl
  have e4 : res_main_v36 (F := Ideal) V (ix3 0 r h) = wDen eps (res_main_v14 (F := Ideal) V (ix3 0 r h)) (res_main_v19 (F := Ideal) V (ix3 0 r h)) (res_main_v24 (F := Ideal) V (ix3 0 r h)) := by
    unfold res_main_v36
    rw [addf_apply, addf_apply, addf_apply, broadcastInDim_scalar_apply, constant_apply, eps_word, e1, e2, e3]
    rfl
  have hout : res_main_v54 (F := Ideal) V (ix4 0 r h l) = mixRef eps (res_main_v14 (F := Ideal) V (ix3 0 r h)) (res_main_v19 (F := Ideal) V (ix3 0 r h)) (res_main_v24 (F := Ideal) V (ix3 0 r h)) ((vOf V) (ix4 0 ⟨2 * r.val, by omega⟩ h l)) ((vOf V) (ix4 0 ⟨2 * r.val + 1, by omega⟩ h l)) := by
    unfold res_main_v54 res_main_v11
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 0 r.val
    (fun l' => res_main_v4 (F := Ideal) V (ix4 0 r h l')) (fun l' => (kOf V) (ix4 0 ⟨2 * r.val, by omega⟩ h l')) (fun l' => (kOf V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 2: row r (of 512) of the level's key array is the specification's pooled key row, and of its value array
    the specification's pooled value row, for every head and lane. -/
theorem level2 (V : Valuation τ sig (Elt Ideal)) (r : Fin 512) (h : Fin 16) (l : Fin 128) :
    res_main_v59 (F := Ideal) V (ix4 0 r h l) = keyL (rowsOf (kOf V) h) 2 r.val l
      ∧ res_main_v109 (F := Ideal) V (ix4 0 r h l) = valRef (rowsOf (kOf V) h) (rowsOf (vOf V) h) 2 r.val l := by
  have hr := r.isLt
  have hk : ∀ (r' : Fin 1024) (l' : Fin 128), (res_main_v4 (F := Ideal) V) (ix4 0 r' h l') = keyL (rowsOf (kOf V) h) 1 r'.val l' :=
    fun r' l' => (level1 V r' h l').1
  have hv : ∀ (r' : Fin 1024) (l' : Fin 128),
      (res_main_v54 (F := Ideal) V) (ix4 0 r' h l') = valRef (rowsOf (kOf V) h) (rowsOf (vOf V) h) 1 r'.val l' :=
    fun r' l' => (level1 V r' h l').2
  have hP : ∀ l' : Fin 128, res_main_v59 (F := Ideal) V (ix4 0 r h l') = halfSum ((res_main_v4 (F := Ideal) V) (ix4 0 ⟨2 * r.val, by omega⟩ h l')) ((res_main_v4 (F := Ideal) V) (ix4 0 ⟨2 * r.val + 1, by omega⟩ h l')) :=
    fun l' => by
      unfold res_main_v59
      exact meanRows_apply _ _ _ _ r h l' (by omega)
  have hA : (res_main_v69 (F := Ideal) V (ix3 0 r h)) = score cS (fun l' => res_main_v59 (F := Ideal) V (ix4 0 r h l')) (fun l' => res_main_v59 (F := Ideal) V (ix4 0 r h l')) := by
    unfold res_main_v69
    exact scoreRows_apply Facts₀.dot_S1x512x16x128_S1x512x16x128_S1x512x16_3_3_n_n_012_012_wf _ _ _ r h
  have hB : (res_main_v74 (F := Ideal) V (ix3 0 r h)) = score cS (fun l' => res_main_v59 (F := Ideal) V (ix4 0 r h l')) (fun l' => (res_main_v4 (F := Ideal) V) (ix4 0 ⟨2 * r.val, by omega⟩ h l')) := by
    unfold res_main_v74 res_main_v65
    refine (scoreRows_apply Facts₀.dot_S1x512x16x128_S1x512x16x128_S1x512x16_3_3_n_n_012_012_wf _ _ _ r h).trans (congrArg (score cS _) (funext fun l' => ?_))
    exact pair_row_apply 0 (by omega) _ _ _ _ r h l' (by omega)
  have hC : (res_main_v79 (F := Ideal) V (ix3 0 r h)) = score cS (fun l' => res_main_v59 (F := Ideal) V (ix4 0 r h l')) (fun l' => (res_main_v4 (F := Ideal) V) (ix4 0 ⟨2 * r.val + 1, by omega⟩ h l')) := by
    unfold res_main_v79 res_main_v65
    refine (scoreRows_apply Facts₀.dot_S1x512x16x128_S1x512x16x128_S1x512x16_3_3_n_n_012_012_wf _ _ _ r h).trans (congrArg (score cS _) (funext fun l' => ?_))
    exact pair_row_apply 1 (by omega) _ _ _ _ r h l' (by omega)
  have e1 : res_main_v83 (F := Ideal) V (ix3 0 r h) = expSub (res_main_v69 (F := Ideal) V (ix3 0 r h)) (res_main_v74 (F := Ideal) V (ix3 0 r h)) (res_main_v79 (F := Ideal) V (ix3 0 r h)) (res_main_v69 (F := Ideal) V (ix3 0 r h)) := by
    unfold res_main_v83 res_main_v81; rfl
  have e2 : res_main_v85 (F := Ideal) V (ix3 0 r h) = expSub (res_main_v69 (F := Ideal) V (ix3 0 r h)) (res_main_v74 (F := Ideal) V (ix3 0 r h)) (res_main_v79 (F := Ideal) V (ix3 0 r h)) (res_main_v74 (F := Ideal) V (ix3 0 r h)) := by
    unfold res_main_v85 res_main_v81; rfl
  have e3 : res_main_v87 (F := Ideal) V (ix3 0 r h) = expSub (res_main_v69 (F := Ideal) V (ix3 0 r h)) (res_main_v74 (F := Ideal) V (ix3 0 r h)) (res_main_v79 (F := Ideal) V (ix3 0 r h)) (res_main_v79 (F := Ideal) V (ix3 0 r h)) := by
    unfold res_main_v87 res_main_v81; rfl
  have e4 : res_main_v91 (F := Ideal) V (ix3 0 r h) = wDen eps (res_main_v69 (F := Ideal) V (ix3 0 r h)) (res_main_v74 (F := Ideal) V (ix3 0 r h)) (res_main_v79 (F := Ideal) V (ix3 0 r h)) := by
    unfold res_main_v91
    rw [addf_apply, addf_apply, addf_apply, broadcastInDim_scalar_apply, constant_apply, eps_word, e1, e2, e3]
    rfl
  have hout : res_main_v109 (F := Ideal) V (ix4 0 r h l) = mixRef eps (res_main_v69 (F := Ideal) V (ix3 0 r h)) (res_main_v74 (F := Ideal) V (ix3 0 r h)) (res_main_v79 (F := Ideal) V (ix3 0 r h)) ((res_main_v54 (F := Ideal) V) (ix4 0 ⟨2 * r.val, by omega⟩ h l)) ((res_main_v54 (F := Ideal) V) (ix4 0 ⟨2 * r.val + 1, by omega⟩ h l)) := by
    unfold res_main_v109 res_main_v66
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 1 r.val
    (fun l' => res_main_v59 (F := Ideal) V (ix4 0 r h l')) (fun l' => (res_main_v4 (F := Ideal) V) (ix4 0 ⟨2 * r.val, by omega⟩ h l')) (fun l' => (res_main_v4 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 3: row r (of 256) of the level's key array is the specification's pooled key row, and of its value array
    the specification's pooled value row, for every head and lane. -/
theorem level3 (V : Valuation τ sig (Elt Ideal)) (r : Fin 256) (h : Fin 16) (l : Fin 128) :
    res_main_v114 (F := Ideal) V (ix4 0 r h l) = keyL (rowsOf (kOf V) h) 3 r.val l
      ∧ res_main_v164 (F := Ideal) V (ix4 0 r h l) = valRef (rowsOf (kOf V) h) (rowsOf (vOf V) h) 3 r.val l := by
  have hr := r.isLt
  have hk : ∀ (r' : Fin 512) (l' : Fin 128), (res_main_v59 (F := Ideal) V) (ix4 0 r' h l') = keyL (rowsOf (kOf V) h) 2 r'.val l' :=
    fun r' l' => (level2 V r' h l').1
  have hv : ∀ (r' : Fin 512) (l' : Fin 128),
      (res_main_v109 (F := Ideal) V) (ix4 0 r' h l') = valRef (rowsOf (kOf V) h) (rowsOf (vOf V) h) 2 r'.val l' :=
    fun r' l' => (level2 V r' h l').2
  have hP : ∀ l' : Fin 128, res_main_v114 (F := Ideal) V (ix4 0 r h l') = halfSum ((res_main_v59 (F := Ideal) V) (ix4 0 ⟨2 * r.val, by omega⟩ h l')) ((res_main_v59 (F := Ideal) V) (ix4 0 ⟨2 * r.val + 1, by omega⟩ h l')) :=
    fun l' => by
      unfold res_main_v114
      exact meanRows_apply _ _ _ _ r h l' (by omega)
  have hA : (res_main_v124 (F := Ideal) V (ix3 0 r h)) = score cS (fun l' => res_main_v114 (F := Ideal) V (ix4 0 r h l')) (fun l' => res_main_v114 (F := Ideal) V (ix4 0 r h l')) := by
    unfold res_main_v124
    exact scoreRows_apply Facts₀.dot_S1x256x16x128_S1x256x16x128_S1x256x16_3_3_n_n_012_012_wf _ _ _ r h
  have hB : (res_main_v129 (F := Ideal) V (ix3 0 r h)) = score cS (fun l' => res_main_v114 (F := Ideal) V (ix4 0 r h l')) (fun l' => (res_main_v59 (F := Ideal) V) (ix4 0 ⟨2 * r.val, by omega⟩ h l')) := by
    unfold res_main_v129 res_main_v120
    refine (scoreRows_apply Facts₀.dot_S1x256x16x128_S1x256x16x128_S1x256x16_3_3_n_n_012_012_wf _ _ _ r h).trans (congrArg (score cS _) (funext fun l' => ?_))
    exact pair_row_apply 0 (by omega) _ _ _ _ r h l' (by omega)
  have hC : (res_main_v134 (F := Ideal) V (ix3 0 r h)) = score cS (fun l' => res_main_v114 (F := Ideal) V (ix4 0 r h l')) (fun l' => (res_main_v59 (F := Ideal) V) (ix4 0 ⟨2 * r.val + 1, by omega⟩ h l')) := by
    unfold res_main_v134 res_main_v120
    refine (scoreRows_apply Facts₀.dot_S1x256x16x128_S1x256x16x128_S1x256x16_3_3_n_n_012_012_wf _ _ _ r h).trans (congrArg (score cS _) (funext fun l' => ?_))
    exact pair_row_apply 1 (by omega) _ _ _ _ r h l' (by omega)
  have e1 : res_main_v138 (F := Ideal) V (ix3 0 r h) = expSub (res_main_v124 (F := Ideal) V (ix3 0 r h)) (res_main_v129 (F := Ideal) V (ix3 0 r h)) (res_main_v134 (F := Ideal) V (ix3 0 r h)) (res_main_v124 (F := Ideal) V (ix3 0 r h)) := by
    unfold res_main_v138 res_main_v136; rfl
  have e2 : res_main_v140 (F := Ideal) V (ix3 0 r h) = expSub (res_main_v124 (F := Ideal) V (ix3 0 r h)) (res_main_v129 (F := Ideal) V (ix3 0 r h)) (res_main_v134 (F := Ideal) V (ix3 0 r h)) (res_main_v129 (F := Ideal) V (ix3 0 r h)) := by
    unfold res_main_v140 res_main_v136; rfl
  have e3 : res_main_v142 (F := Ideal) V (ix3 0 r h) = expSub (res_main_v124 (F := Ideal) V (ix3 0 r h)) (res_main_v129 (F := Ideal) V (ix3 0 r h)) (res_main_v134 (F := Ideal) V (ix3 0 r h)) (res_main_v134 (F := Ideal) V (ix3 0 r h)) := by
    unfold res_main_v142 res_main_v136; rfl
  have e4 : res_main_v146 (F := Ideal) V (ix3 0 r h) = wDen eps (res_main_v124 (F := Ideal) V (ix3 0 r h)) (res_main_v129 (F := Ideal) V (ix3 0 r h)) (res_main_v134 (F := Ideal) V (ix3 0 r h)) := by
    unfold res_main_v146
    rw [addf_apply, addf_apply, addf_apply, broadcastInDim_scalar_apply, constant_apply, eps_word, e1, e2, e3]
    rfl
  have hout : res_main_v164 (F := Ideal) V (ix4 0 r h l) = mixRef eps (res_main_v124 (F := Ideal) V (ix3 0 r h)) (res_main_v129 (F := Ideal) V (ix3 0 r h)) (res_main_v134 (F := Ideal) V (ix3 0 r h)) ((res_main_v109 (F := Ideal) V) (ix4 0 ⟨2 * r.val, by omega⟩ h l)) ((res_main_v109 (F := Ideal) V) (ix4 0 ⟨2 * r.val + 1, by omega⟩ h l)) := by
    unfold res_main_v164 res_main_v121
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 2 r.val
    (fun l' => res_main_v114 (F := Ideal) V (ix4 0 r h l')) (fun l' => (res_main_v59 (F := Ideal) V) (ix4 0 ⟨2 * r.val, by omega⟩ h l')) (fun l' => (res_main_v59 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 4: row r (of 128) of the level's key array is the specification's pooled key row, and of its value array
    the specification's pooled value row, for every head and lane. -/
theorem level4 (V : Valuation τ sig (Elt Ideal)) (r : Fin 128) (h : Fin 16) (l : Fin 128) :
    res_main_v169 (F := Ideal) V (ix4 0 r h l) = keyL (rowsOf (kOf V) h) 4 r.val l
      ∧ res_main_v219 (F := Ideal) V (ix4 0 r h l) = valRef (rowsOf (kOf V) h) (rowsOf (vOf V) h) 4 r.val l := by
  have hr := r.isLt
  have hk : ∀ (r' : Fin 256) (l' : Fin 128), (res_main_v114 (F := Ideal) V) (ix4 0 r' h l') = keyL (rowsOf (kOf V) h) 3 r'.val l' :=
    fun r' l' => (level3 V r' h l').1
  have hv : ∀ (r' : Fin 256) (l' : Fin 128),
      (res_main_v164 (F := Ideal) V) (ix4 0 r' h l') = valRef (rowsOf (kOf V) h) (rowsOf (vOf V) h) 3 r'.val l' :=
    fun r' l' => (level3 V r' h l').2
  have hP : ∀ l' : Fin 128, res_main_v169 (F := Ideal) V (ix4 0 r h l') = halfSum ((res_main_v114 (F := Ideal) V) (ix4 0 ⟨2 * r.val, by omega⟩ h l')) ((res_main_v114 (F := Ideal) V) (ix4 0 ⟨2 * r.val + 1, by omega⟩ h l')) :=
    fun l' => by
      unfold res_main_v169
      exact meanRows_apply _ _ _ _ r h l' (by omega)
  have hA : (res_main_v179 (F := Ideal) V (ix3 0 r h)) = score cS (fun l' => res_main_v169 (F := Ideal) V (ix4 0 r h l')) (fun l' => res_main_v169 (F := Ideal) V (ix4 0 r h l')) := by
    unfold res_main_v179
    exact scoreRows_apply Facts₀.dot_S1x128x16x128_S1x128x16x128_S1x128x16_3_3_n_n_012_012_wf _ _ _ r h
  have hB : (res_main_v184 (F := Ideal) V (ix3 0 r h)) = score cS (fun l' => res_main_v169 (F := Ideal) V (ix4 0 r h l')) (fun l' => (res_main_v114 (F := Ideal) V) (ix4 0 ⟨2 * r.val, by omega⟩ h l')) := by
    unfold res_main_v184 res_main_v175
    refine (scoreRows_apply Facts₀.dot_S1x128x16x128_S1x128x16x128_S1x128x16_3_3_n_n_012_012_wf _ _ _ r h).trans (congrArg (score cS _) (funext fun l' => ?_))
    exact pair_row_apply 0 (by omega) _ _ _ _ r h l' (by omega)
  have hC : (res_main_v189 (F := Ideal) V (ix3 0 r h)) = score cS (fun l' => res_main_v169 (F := Ideal) V (ix4 0 r h l')) (fun l' => (res_main_v114 (F := Ideal) V) (ix4 0 ⟨2 * r.val + 1, by omega⟩ h l')) := by
    unfold res_main_v189 res_main_v175
    refine (scoreRows_apply Facts₀.dot_S1x128x16x128_S1x128x16x128_S1x128x16_3_3_n_n_012_012_wf _ _ _ r h).trans (congrArg (score cS _) (funext fun l' => ?_))
    exact pair_row_apply 1 (by omega) _ _ _ _ r h l' (by omega)
  have e1 : res_main_v193 (F := Ideal) V (ix3 0 r h) = expSub (res_main_v179 (F := Ideal) V (ix3 0 r h)) (res_main_v184 (F := Ideal) V (ix3 0 r h)) (res_main_v189 (F := Ideal) V (ix3 0 r h)) (res_main_v179 (F := Ideal) V (ix3 0 r h)) := by
    unfold res_main_v193 res_main_v191; rfl
  have e2 : res_main_v195 (F := Ideal) V (ix3 0 r h) = expSub (res_main_v179 (F := Ideal) V (ix3 0 r h)) (res_main_v184 (F := Ideal) V (ix3 0 r h)) (res_main_v189 (F := Ideal) V (ix3 0 r h)) (res_main_v184 (F := Ideal) V (ix3 0 r h)) := by
    unfold res_main_v195 res_main_v191; rfl
  have e3 : res_main_v197 (F := Ideal) V (ix3 0 r h) = expSub (res_main_v179 (F := Ideal) V (ix3 0 r h)) (res_main_v184 (F := Ideal) V (ix3 0 r h)) (res_main_v189 (F := Ideal) V (ix3 0 r h)) (res_main_v189 (F := Ideal) V (ix3 0 r h)) := by
    unfold res_main_v197 res_main_v191; rfl
  have e4 : res_main_v201 (F := Ideal) V (ix3 0 r h) = wDen eps (res_main_v179 (F := Ideal) V (ix3 0 r h)) (res_main_v184 (F := Ideal) V (ix3 0 r h)) (res_main_v189 (F := Ideal) V (ix3 0 r h)) := by
    unfold res_main_v201
    rw [addf_apply, addf_apply, addf_apply, broadcastInDim_scalar_apply, constant_apply, eps_word, e1, e2, e3]
    rfl
  have hout : res_main_v219 (F := Ideal) V (ix4 0 r h l) = mixRef eps (res_main_v179 (F := Ideal) V (ix3 0 r h)) (res_main_v184 (F := Ideal) V (ix3 0 r h)) (res_main_v189 (F := Ideal) V (ix3 0 r h)) ((res_main_v164 (F := Ideal) V) (ix4 0 ⟨2 * r.val, by omega⟩ h l)) ((res_main_v164 (F := Ideal) V) (ix4 0 ⟨2 * r.val + 1, by omega⟩ h l)) := by
    unfold res_main_v219 res_main_v176
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 3 r.val
    (fun l' => res_main_v169 (F := Ideal) V (ix4 0 r h l')) (fun l' => (res_main_v114 (F := Ideal) V) (ix4 0 ⟨2 * r.val, by omega⟩ h l')) (fun l' => (res_main_v114 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 5: row r (of 64) of the level's key array is the specification's pooled key row, and of its value array
    the specification's pooled value row, for every head and lane. -/
theorem level5 (V : Valuation τ sig (Elt Ideal)) (r : Fin 64) (h : Fin 16) (l : Fin 128) :
    res_main_v224 (F := Ideal) V (ix4 0 r h l) = keyL (rowsOf (kOf V) h) 5 r.val l
      ∧ res_main_v274 (F := Ideal) V (ix4 0 r h l) = valRef (rowsOf (kOf V) h) (rowsOf (vOf V) h) 5 r.val l := by
  have hr := r.isLt
  have hk : ∀ (r' : Fin 128) (l' : Fin 128), (res_main_v169 (F := Ideal) V) (ix4 0 r' h l') = keyL (rowsOf (kOf V) h) 4 r'.val l' :=
    fun r' l' => (level4 V r' h l').1
  have hv : ∀ (r' : Fin 128) (l' : Fin 128),
      (res_main_v219 (F := Ideal) V) (ix4 0 r' h l') = valRef (rowsOf (kOf V) h) (rowsOf (vOf V) h) 4 r'.val l' :=
    fun r' l' => (level4 V r' h l').2
  have hP : ∀ l' : Fin 128, res_main_v224 (F := Ideal) V (ix4 0 r h l') = halfSum ((res_main_v169 (F := Ideal) V) (ix4 0 ⟨2 * r.val, by omega⟩ h l')) ((res_main_v169 (F := Ideal) V) (ix4 0 ⟨2 * r.val + 1, by omega⟩ h l')) :=
    fun l' => by
      unfold res_main_v224
      exact meanRows_apply _ _ _ _ r h l' (by omega)
  have hA : (res_main_v234 (F := Ideal) V (ix3 0 r h)) = score cS (fun l' => res_main_v224 (F := Ideal) V (ix4 0 r h l')) (fun l' => res_main_v224 (F := Ideal) V (ix4 0 r h l')) := by
    unfold res_main_v234
    exact scoreRows_apply Facts₀.dot_S1x64x16x128_S1x64x16x128_S1x64x16_3_3_n_n_012_012_wf _ _ _ r h
  have hB : (res_main_v239 (F := Ideal) V (ix3 0 r h)) = score cS (fun l' => res_main_v224 (F := Ideal) V (ix4 0 r h l')) (fun l' => (res_main_v169 (F := Ideal) V) (ix4 0 ⟨2 * r.val, by omega⟩ h l')) := by
    unfold res_main_v239 res_main_v230
    refine (scoreRows_apply Facts₀.dot_S1x64x16x128_S1x64x16x128_S1x64x16_3_3_n_n_012_012_wf _ _ _ r h).trans (congrArg (score cS _) (funext fun l' => ?_))
    exact pair_row_apply 0 (by omega) _ _ _ _ r h l' (by omega)
  have hC : (res_main_v244 (F := Ideal) V (ix3 0 r h)) = score cS (fun l' => res_main_v224 (F := Ideal) V (ix4 0 r h l')) (fun l' => (res_main_v169 (F := Ideal) V) (ix4 0 ⟨2 * r.val + 1, by omega⟩ h l')) := by
    unfold res_main_v244 res_main_v230
    refine (scoreRows_apply Facts₀.dot_S1x64x16x128_S1x64x16x128_S1x64x16_3_3_n_n_012_012_wf _ _ _ r h).trans (congrArg (score cS _) (funext fun l' => ?_))
    exact pair_row_apply 1 (by omega) _ _ _ _ r h l' (by omega)
  have e1 : res_main_v248 (F := Ideal) V (ix3 0 r h) = expSub (res_main_v234 (F := Ideal) V (ix3 0 r h)) (res_main_v239 (F := Ideal) V (ix3 0 r h)) (res_main_v244 (F := Ideal) V (ix3 0 r h)) (res_main_v234 (F := Ideal) V (ix3 0 r h)) := by
    unfold res_main_v248 res_main_v246; rfl
  have e2 : res_main_v250 (F := Ideal) V (ix3 0 r h) = expSub (res_main_v234 (F := Ideal) V (ix3 0 r h)) (res_main_v239 (F := Ideal) V (ix3 0 r h)) (res_main_v244 (F := Ideal) V (ix3 0 r h)) (res_main_v239 (F := Ideal) V (ix3 0 r h)) := by
    unfold res_main_v250 res_main_v246; rfl
  have e3 : res_main_v252 (F := Ideal) V (ix3 0 r h) = expSub (res_main_v234 (F := Ideal) V (ix3 0 r h)) (res_main_v239 (F := Ideal) V (ix3 0 r h)) (res_main_v244 (F := Ideal) V (ix3 0 r h)) (res_main_v244 (F := Ideal) V (ix3 0 r h)) := by
    unfold res_main_v252 res_main_v246; rfl
  have e4 : res_main_v256 (F := Ideal) V (ix3 0 r h) = wDen eps (res_main_v234 (F := Ideal) V (ix3 0 r h)) (res_main_v239 (F := Ideal) V (ix3 0 r h)) (res_main_v244 (F := Ideal) V (ix3 0 r h)) := by
    unfold res_main_v256
    rw [addf_apply, addf_apply, addf_apply, broadcastInDim_scalar_apply, constant_apply, eps_word, e1, e2, e3]
    rfl
  have hout : res_main_v274 (F := Ideal) V (ix4 0 r h l) = mixRef eps (res_main_v234 (F := Ideal) V (ix3 0 r h)) (res_main_v239 (F := Ideal) V (ix3 0 r h)) (res_main_v244 (F := Ideal) V (ix3 0 r h)) ((res_main_v219 (F := Ideal) V) (ix4 0 ⟨2 * r.val, by omega⟩ h l)) ((res_main_v219 (F := Ideal) V) (ix4 0 ⟨2 * r.val + 1, by omega⟩ h l)) := by
    unfold res_main_v274 res_main_v231
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 4 r.val
    (fun l' => res_main_v224 (F := Ideal) V (ix4 0 r h l')) (fun l' => (res_main_v169 (F := Ideal) V) (ix4 0 ⟨2 * r.val, by omega⟩ h l')) (fun l' => (res_main_v169 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 6: row r (of 32) of the level's key array is the specification's pooled key row, and of its value array
    the specification's pooled value row, for every head and lane. -/
theorem level6 (V : Valuation τ sig (Elt Ideal)) (r : Fin 32) (h : Fin 16) (l : Fin 128) :
    res_main_v279 (F := Ideal) V (ix4 0 r h l) = keyL (rowsOf (kOf V) h) 6 r.val l
      ∧ res_main_v329 (F := Ideal) V (ix4 0 r h l) = valRef (rowsOf (kOf V) h) (rowsOf (vOf V) h) 6 r.val l := by
  have hr := r.isLt
  have hk : ∀ (r' : Fin 64) (l' : Fin 128), (res_main_v224 (F := Ideal) V) (ix4 0 r' h l') = keyL (rowsOf (kOf V) h) 5 r'.val l' :=
    fun r' l' => (level5 V r' h l').1
  have hv : ∀ (r' : Fin 64) (l' : Fin 128),
      (res_main_v274 (F := Ideal) V) (ix4 0 r' h l') = valRef (rowsOf (kOf V) h) (rowsOf (vOf V) h) 5 r'.val l' :=
    fun r' l' => (level5 V r' h l').2
  have hP : ∀ l' : Fin 128, res_main_v279 (F := Ideal) V (ix4 0 r h l') = halfSum ((res_main_v224 (F := Ideal) V) (ix4 0 ⟨2 * r.val, by omega⟩ h l')) ((res_main_v224 (F := Ideal) V) (ix4 0 ⟨2 * r.val + 1, by omega⟩ h l')) :=
    fun l' => by
      unfold res_main_v279
      exact meanRows_apply _ _ _ _ r h l' (by omega)
  have hA : (res_main_v289 (F := Ideal) V (ix3 0 r h)) = score cS (fun l' => res_main_v279 (F := Ideal) V (ix4 0 r h l')) (fun l' => res_main_v279 (F := Ideal) V (ix4 0 r h l')) := by
    unfold res_main_v289
    exact scoreRows_apply Facts₀.dot_S1x32x16x128_S1x32x16x128_S1x32x16_3_3_n_n_012_012_wf _ _ _ r h
  have hB : (res_main_v294 (F := Ideal) V (ix3 0 r h)) = score cS (fun l' => res_main_v279 (F := Ideal) V (ix4 0 r h l')) (fun l' => (res_main_v224 (F := Ideal) V) (ix4 0 ⟨2 * r.val, by omega⟩ h l')) := by
    unfold res_main_v294 res_main_v285
    refine (scoreRows_apply Facts₀.dot_S1x32x16x128_S1x32x16x128_S1x32x16_3_3_n_n_012_012_wf _ _ _ r h).trans (congrArg (score cS _) (funext fun l' => ?_))
    exact pair_row_apply 0 (by omega) _ _ _ _ r h l' (by omega)
  have hC : (res_main_v299 (F := Ideal) V (ix3 0 r h)) = score cS (fun l' => res_main_v279 (F := Ideal) V (ix4 0 r h l')) (fun l' => (res_main_v224 (F := Ideal) V) (ix4 0 ⟨2 * r.val + 1, by omega⟩ h l')) := by
    unfold res_main_v299 res_main_v285
    refine (scoreRows_apply Facts₀.dot_S1x32x16x128_S1x32x16x128_S1x32x16_3_3_n_n_012_012_wf _ _ _ r h).trans (congrArg (score cS _) (funext fun l' => ?_))
    exact pair_row_apply 1 (by omega) _ _ _ _ r h l' (by omega)
  have e1 : res_main_v303 (F := Ideal) V (ix3 0 r h) = expSub (res_main_v289 (F := Ideal) V (ix3 0 r h)) (res_main_v294 (F := Ideal) V (ix3 0 r h)) (res_main_v299 (F := Ideal) V (ix3 0 r h)) (res_main_v289 (F := Ideal) V (ix3 0 r h)) := by
    unfold res_main_v303 res_main_v301; rfl
  have e2 : res_main_v305 (F := Ideal) V (ix3 0 r h) = expSub (res_main_v289 (F := Ideal) V (ix3 0 r h)) (res_main_v294 (F := Ideal) V (ix3 0 r h)) (res_main_v299 (F := Ideal) V (ix3 0 r h)) (res_main_v294 (F := Ideal) V (ix3 0 r h)) := by
    unfold res_main_v305 res_main_v301; rfl
  have e3 : res_main_v307 (F := Ideal) V (ix3 0 r h) = expSub (res_main_v289 (F := Ideal) V (ix3 0 r h)) (res_main_v294 (F := Ideal) V (ix3 0 r h)) (res_main_v299 (F := Ideal) V (ix3 0 r h)) (res_main_v299 (F := Ideal) V (ix3 0 r h)) := by
    unfold res_main_v307 res_main_v301; rfl
  have e4 : res_main_v311 (F := Ideal) V (ix3 0 r h) = wDen eps (res_main_v289 (F := Ideal) V (ix3 0 r h)) (res_main_v294 (F := Ideal) V (ix3 0 r h)) (res_main_v299 (F := Ideal) V (ix3 0 r h)) := by
    unfold res_main_v311
    rw [addf_apply, addf_apply, addf_apply, broadcastInDim_scalar_apply, constant_apply, eps_word, e1, e2, e3]
    rfl
  have hout : res_main_v329 (F := Ideal) V (ix4 0 r h l) = mixRef eps (res_main_v289 (F := Ideal) V (ix3 0 r h)) (res_main_v294 (F := Ideal) V (ix3 0 r h)) (res_main_v299 (F := Ideal) V (ix3 0 r h)) ((res_main_v274 (F := Ideal) V) (ix4 0 ⟨2 * r.val, by omega⟩ h l)) ((res_main_v274 (F := Ideal) V) (ix4 0 ⟨2 * r.val + 1, by omega⟩ h l)) := by
    unfold res_main_v329 res_main_v286
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 5 r.val
    (fun l' => res_main_v279 (F := Ideal) V (ix4 0 r h l')) (fun l' => (res_main_v224 (F := Ideal) V) (ix4 0 ⟨2 * r.val, by omega⟩ h l')) (fun l' => (res_main_v224 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 7: row r (of 16) of the level's key array is the specification's pooled key row, and of its value array
    the specification's pooled value row, for every head and lane. -/
theorem level7 (V : Valuation τ sig (Elt Ideal)) (r : Fin 16) (h : Fin 16) (l : Fin 128) :
    res_main_v334 (F := Ideal) V (ix4 0 r h l) = keyL (rowsOf (kOf V) h) 7 r.val l
      ∧ res_main_v384 (F := Ideal) V (ix4 0 r h l) = valRef (rowsOf (kOf V) h) (rowsOf (vOf V) h) 7 r.val l := by
  have hr := r.isLt
  have hk : ∀ (r' : Fin 32) (l' : Fin 128), (res_main_v279 (F := Ideal) V) (ix4 0 r' h l') = keyL (rowsOf (kOf V) h) 6 r'.val l' :=
    fun r' l' => (level6 V r' h l').1
  have hv : ∀ (r' : Fin 32) (l' : Fin 128),
      (res_main_v329 (F := Ideal) V) (ix4 0 r' h l') = valRef (rowsOf (kOf V) h) (rowsOf (vOf V) h) 6 r'.val l' :=
    fun r' l' => (level6 V r' h l').2
  have hP : ∀ l' : Fin 128, res_main_v334 (F := Ideal) V (ix4 0 r h l') = halfSum ((res_main_v279 (F := Ideal) V) (ix4 0 ⟨2 * r.val, by omega⟩ h l')) ((res_main_v279 (F := Ideal) V) (ix4 0 ⟨2 * r.val + 1, by omega⟩ h l')) :=
    fun l' => by
      unfold res_main_v334
      exact meanRows_apply _ _ _ _ r h l' (by omega)
  have hA : (res_main_v344 (F := Ideal) V (ix3 0 r h)) = score cS (fun l' => res_main_v334 (F := Ideal) V (ix4 0 r h l')) (fun l' => res_main_v334 (F := Ideal) V (ix4 0 r h l')) := by
    unfold res_main_v344
    exact scoreRows_apply Facts₀.dot_S1x16x16x128_S1x16x16x128_S1x16x16_3_3_n_n_012_012_wf _ _ _ r h
  have hB : (res_main_v349 (F := Ideal) V (ix3 0 r h)) = score cS (fun l' => res_main_v334 (F := Ideal) V (ix4 0 r h l')) (fun l' => (res_main_v279 (F := Ideal) V) (ix4 0 ⟨2 * r.val, by omega⟩ h l')) := by
    unfold res_main_v349 res_main_v340
    refine (scoreRows_apply Facts₀.dot_S1x16x16x128_S1x16x16x128_S1x16x16_3_3_n_n_012_012_wf _ _ _ r h).trans (congrArg (score cS _) (funext fun l' => ?_))
    exact pair_row_apply 0 (by omega) _ _ _ _ r h l' (by omega)
  have hC : (res_main_v354 (F := Ideal) V (ix3 0 r h)) = score cS (fun l' => res_main_v334 (F := Ideal) V (ix4 0 r h l')) (fun l' => (res_main_v279 (F := Ideal) V) (ix4 0 ⟨2 * r.val + 1, by omega⟩ h l')) := by
    unfold res_main_v354 res_main_v340
    refine (scoreRows_apply Facts₀.dot_S1x16x16x128_S1x16x16x128_S1x16x16_3_3_n_n_012_012_wf _ _ _ r h).trans (congrArg (score cS _) (funext fun l' => ?_))
    exact pair_row_apply 1 (by omega) _ _ _ _ r h l' (by omega)
  have e1 : res_main_v358 (F := Ideal) V (ix3 0 r h) = expSub (res_main_v344 (F := Ideal) V (ix3 0 r h)) (res_main_v349 (F := Ideal) V (ix3 0 r h)) (res_main_v354 (F := Ideal) V (ix3 0 r h)) (res_main_v344 (F := Ideal) V (ix3 0 r h)) := by
    unfold res_main_v358 res_main_v356; rfl
  have e2 : res_main_v360 (F := Ideal) V (ix3 0 r h) = expSub (res_main_v344 (F := Ideal) V (ix3 0 r h)) (res_main_v349 (F := Ideal) V (ix3 0 r h)) (res_main_v354 (F := Ideal) V (ix3 0 r h)) (res_main_v349 (F := Ideal) V (ix3 0 r h)) := by
    unfold res_main_v360 res_main_v356; rfl
  have e3 : res_main_v362 (F := Ideal) V (ix3 0 r h) = expSub (res_main_v344 (F := Ideal) V (ix3 0 r h)) (res_main_v349 (F := Ideal) V (ix3 0 r h)) (res_main_v354 (F := Ideal) V (ix3 0 r h)) (res_main_v354 (F := Ideal) V (ix3 0 r h)) := by
    unfold res_main_v362 res_main_v356; rfl
  have e4 : res_main_v366 (F := Ideal) V (ix3 0 r h) = wDen eps (res_main_v344 (F := Ideal) V (ix3 0 r h)) (res_main_v349 (F := Ideal) V (ix3 0 r h)) (res_main_v354 (F := Ideal) V (ix3 0 r h)) := by
    unfold res_main_v366
    rw [addf_apply, addf_apply, addf_apply, broadcastInDim_scalar_apply, constant_apply, eps_word, e1, e2, e3]
    rfl
  have hout : res_main_v384 (F := Ideal) V (ix4 0 r h l) = mixRef eps (res_main_v344 (F := Ideal) V (ix3 0 r h)) (res_main_v349 (F := Ideal) V (ix3 0 r h)) (res_main_v354 (F := Ideal) V (ix3 0 r h)) ((res_main_v329 (F := Ideal) V) (ix4 0 ⟨2 * r.val, by omega⟩ h l)) ((res_main_v329 (F := Ideal) V) (ix4 0 ⟨2 * r.val + 1, by omega⟩ h l)) := by
    unfold res_main_v384 res_main_v341
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 6 r.val
    (fun l' => res_main_v334 (F := Ideal) V (ix4 0 r h l')) (fun l' => (res_main_v279 (F := Ideal) V) (ix4 0 ⟨2 * r.val, by omega⟩ h l')) (fun l' => (res_main_v279 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 8: row r (of 8) of the level's key array is the specification's pooled key row, and of its value array
    the specification's pooled value row, for every head and lane. -/
theorem level8 (V : Valuation τ sig (Elt Ideal)) (r : Fin 8) (h : Fin 16) (l : Fin 128) :
    res_main_v389 (F := Ideal) V (ix4 0 r h l) = keyL (rowsOf (kOf V) h) 8 r.val l
      ∧ res_main_v439 (F := Ideal) V (ix4 0 r h l) = valRef (rowsOf (kOf V) h) (rowsOf (vOf V) h) 8 r.val l := by
  have hr := r.isLt
  have hk : ∀ (r' : Fin 16) (l' : Fin 128), (res_main_v334 (F := Ideal) V) (ix4 0 r' h l') = keyL (rowsOf (kOf V) h) 7 r'.val l' :=
    fun r' l' => (level7 V r' h l').1
  have hv : ∀ (r' : Fin 16) (l' : Fin 128),
      (res_main_v384 (F := Ideal) V) (ix4 0 r' h l') = valRef (rowsOf (kOf V) h) (rowsOf (vOf V) h) 7 r'.val l' :=
    fun r' l' => (level7 V r' h l').2
  have hP : ∀ l' : Fin 128, res_main_v389 (F := Ideal) V (ix4 0 r h l') = halfSum ((res_main_v334 (F := Ideal) V) (ix4 0 ⟨2 * r.val, by omega⟩ h l')) ((res_main_v334 (F := Ideal) V) (ix4 0 ⟨2 * r.val + 1, by omega⟩ h l')) :=
    fun l' => by
      unfold res_main_v389
      exact meanRows_apply _ _ _ _ r h l' (by omega)
  have hA : (res_main_v399 (F := Ideal) V (ix3 0 r h)) = score cS (fun l' => res_main_v389 (F := Ideal) V (ix4 0 r h l')) (fun l' => res_main_v389 (F := Ideal) V (ix4 0 r h l')) := by
    unfold res_main_v399
    exact scoreRows_apply Facts₀.dot_S1x8x16x128_S1x8x16x128_S1x8x16_3_3_n_n_012_012_wf _ _ _ r h
  have hB : (res_main_v404 (F := Ideal) V (ix3 0 r h)) = score cS (fun l' => res_main_v389 (F := Ideal) V (ix4 0 r h l')) (fun l' => (res_main_v334 (F := Ideal) V) (ix4 0 ⟨2 * r.val, by omega⟩ h l')) := by
    unfold res_main_v404 res_main_v395
    refine (scoreRows_apply Facts₀.dot_S1x8x16x128_S1x8x16x128_S1x8x16_3_3_n_n_012_012_wf _ _ _ r h).trans (congrArg (score cS _) (funext fun l' => ?_))
    exact pair_row_apply 0 (by omega) _ _ _ _ r h l' (by omega)
  have hC : (res_main_v409 (F := Ideal) V (ix3 0 r h)) = score cS (fun l' => res_main_v389 (F := Ideal) V (ix4 0 r h l')) (fun l' => (res_main_v334 (F := Ideal) V) (ix4 0 ⟨2 * r.val + 1, by omega⟩ h l')) := by
    unfold res_main_v409 res_main_v395
    refine (scoreRows_apply Facts₀.dot_S1x8x16x128_S1x8x16x128_S1x8x16_3_3_n_n_012_012_wf _ _ _ r h).trans (congrArg (score cS _) (funext fun l' => ?_))
    exact pair_row_apply 1 (by omega) _ _ _ _ r h l' (by omega)
  have e1 : res_main_v413 (F := Ideal) V (ix3 0 r h) = expSub (res_main_v399 (F := Ideal) V (ix3 0 r h)) (res_main_v404 (F := Ideal) V (ix3 0 r h)) (res_main_v409 (F := Ideal) V (ix3 0 r h)) (res_main_v399 (F := Ideal) V (ix3 0 r h)) := by
    unfold res_main_v413 res_main_v411; rfl
  have e2 : res_main_v415 (F := Ideal) V (ix3 0 r h) = expSub (res_main_v399 (F := Ideal) V (ix3 0 r h)) (res_main_v404 (F := Ideal) V (ix3 0 r h)) (res_main_v409 (F := Ideal) V (ix3 0 r h)) (res_main_v404 (F := Ideal) V (ix3 0 r h)) := by
    unfold res_main_v415 res_main_v411; rfl
  have e3 : res_main_v417 (F := Ideal) V (ix3 0 r h) = expSub (res_main_v399 (F := Ideal) V (ix3 0 r h)) (res_main_v404 (F := Ideal) V (ix3 0 r h)) (res_main_v409 (F := Ideal) V (ix3 0 r h)) (res_main_v409 (F := Ideal) V (ix3 0 r h)) := by
    unfold res_main_v417 res_main_v411; rfl
  have e4 : res_main_v421 (F := Ideal) V (ix3 0 r h) = wDen eps (res_main_v399 (F := Ideal) V (ix3 0 r h)) (res_main_v404 (F := Ideal) V (ix3 0 r h)) (res_main_v409 (F := Ideal) V (ix3 0 r h)) := by
    unfold res_main_v421
    rw [addf_apply, addf_apply, addf_apply, broadcastInDim_scalar_apply, constant_apply, eps_word, e1, e2, e3]
    rfl
  have hout : res_main_v439 (F := Ideal) V (ix4 0 r h l) = mixRef eps (res_main_v399 (F := Ideal) V (ix3 0 r h)) (res_main_v404 (F := Ideal) V (ix3 0 r h)) (res_main_v409 (F := Ideal) V (ix3 0 r h)) ((res_main_v384 (F := Ideal) V) (ix4 0 ⟨2 * r.val, by omega⟩ h l)) ((res_main_v384 (F := Ideal) V) (ix4 0 ⟨2 * r.val + 1, by omega⟩ h l)) := by
    unfold res_main_v439 res_main_v396
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 7 r.val
    (fun l' => res_main_v389 (F := Ideal) V (ix4 0 r h l')) (fun l' => (res_main_v334 (F := Ideal) V) (ix4 0 ⟨2 * r.val, by omega⟩ h l')) (fun l' => (res_main_v334 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 9: row r (of 4) of the level's key array is the specification's pooled key row, and of its value array
    the specification's pooled value row, for every head and lane. -/
theorem level9 (V : Valuation τ sig (Elt Ideal)) (r : Fin 4) (h : Fin 16) (l : Fin 128) :
    res_main_v444 (F := Ideal) V (ix4 0 r h l) = keyL (rowsOf (kOf V) h) 9 r.val l
      ∧ res_main_v494 (F := Ideal) V (ix4 0 r h l) = valRef (rowsOf (kOf V) h) (rowsOf (vOf V) h) 9 r.val l := by
  have hr := r.isLt
  have hk : ∀ (r' : Fin 8) (l' : Fin 128), (res_main_v389 (F := Ideal) V) (ix4 0 r' h l') = keyL (rowsOf (kOf V) h) 8 r'.val l' :=
    fun r' l' => (level8 V r' h l').1
  have hv : ∀ (r' : Fin 8) (l' : Fin 128),
      (res_main_v439 (F := Ideal) V) (ix4 0 r' h l') = valRef (rowsOf (kOf V) h) (rowsOf (vOf V) h) 8 r'.val l' :=
    fun r' l' => (level8 V r' h l').2
  have hP : ∀ l' : Fin 128, res_main_v444 (F := Ideal) V (ix4 0 r h l') = halfSum ((res_main_v389 (F := Ideal) V) (ix4 0 ⟨2 * r.val, by omega⟩ h l')) ((res_main_v389 (F := Ideal) V) (ix4 0 ⟨2 * r.val + 1, by omega⟩ h l')) :=
    fun l' => by
      unfold res_main_v444
      exact meanRows_apply _ _ _ _ r h l' (by omega)
  have hA : (res_main_v454 (F := Ideal) V (ix3 0 r h)) = score cS (fun l' => res_main_v444 (F := Ideal) V (ix4 0 r h l')) (fun l' => res_main_v444 (F := Ideal) V (ix4 0 r h l')) := by
    unfold res_main_v454
    exact scoreRows_apply Facts₀.dot_S1x4x16x128_S1x4x16x128_S1x4x16_3_3_n_n_012_012_wf _ _ _ r h
  have hB : (res_main_v459 (F := Ideal) V (ix3 0 r h)) = score cS (fun l' => res_main_v444 (F := Ideal) V (ix4 0 r h l')) (fun l' => (res_main_v389 (F := Ideal) V) (ix4 0 ⟨2 * r.val, by omega⟩ h l')) := by
    unfold res_main_v459 res_main_v450
    refine (scoreRows_apply Facts₀.dot_S1x4x16x128_S1x4x16x128_S1x4x16_3_3_n_n_012_012_wf _ _ _ r h).trans (congrArg (score cS _) (funext fun l' => ?_))
    exact pair_row_apply 0 (by omega) _ _ _ _ r h l' (by omega)
  have hC : (res_main_v464 (F := Ideal) V (ix3 0 r h)) = score cS (fun l' => res_main_v444 (F := Ideal) V (ix4 0 r h l')) (fun l' => (res_main_v389 (F := Ideal) V) (ix4 0 ⟨2 * r.val + 1, by omega⟩ h l')) := by
    unfold res_main_v464 res_main_v450
    refine (scoreRows_apply Facts₀.dot_S1x4x16x128_S1x4x16x128_S1x4x16_3_3_n_n_012_012_wf _ _ _ r h).trans (congrArg (score cS _) (funext fun l' => ?_))
    exact pair_row_apply 1 (by omega) _ _ _ _ r h l' (by omega)
  have e1 : res_main_v468 (F := Ideal) V (ix3 0 r h) = expSub (res_main_v454 (F := Ideal) V (ix3 0 r h)) (res_main_v459 (F := Ideal) V (ix3 0 r h)) (res_main_v464 (F := Ideal) V (ix3 0 r h)) (res_main_v454 (F := Ideal) V (ix3 0 r h)) := by
    unfold res_main_v468 res_main_v466; rfl
  have e2 : res_main_v470 (F := Ideal) V (ix3 0 r h) = expSub (res_main_v454 (F := Ideal) V (ix3 0 r h)) (res_main_v459 (F := Ideal) V (ix3 0 r h)) (res_main_v464 (F := Ideal) V (ix3 0 r h)) (res_main_v459 (F := Ideal) V (ix3 0 r h)) := by
    unfold res_main_v470 res_main_v466; rfl
  have e3 : res_main_v472 (F := Ideal) V (ix3 0 r h) = expSub (res_main_v454 (F := Ideal) V (ix3 0 r h)) (res_main_v459 (F := Ideal) V (ix3 0 r h)) (res_main_v464 (F := Ideal) V (ix3 0 r h)) (res_main_v464 (F := Ideal) V (ix3 0 r h)) := by
    unfold res_main_v472 res_main_v466; rfl
  have e4 : res_main_v476 (F := Ideal) V (ix3 0 r h) = wDen eps (res_main_v454 (F := Ideal) V (ix3 0 r h)) (res_main_v459 (F := Ideal) V (ix3 0 r h)) (res_main_v464 (F := Ideal) V (ix3 0 r h)) := by
    unfold res_main_v476
    rw [addf_apply, addf_apply, addf_apply, broadcastInDim_scalar_apply, constant_apply, eps_word, e1, e2, e3]
    rfl
  have hout : res_main_v494 (F := Ideal) V (ix4 0 r h l) = mixRef eps (res_main_v454 (F := Ideal) V (ix3 0 r h)) (res_main_v459 (F := Ideal) V (ix3 0 r h)) (res_main_v464 (F := Ideal) V (ix3 0 r h)) ((res_main_v439 (F := Ideal) V) (ix4 0 ⟨2 * r.val, by omega⟩ h l)) ((res_main_v439 (F := Ideal) V) (ix4 0 ⟨2 * r.val + 1, by omega⟩ h l)) := by
    unfold res_main_v494 res_main_v451
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 8 r.val
    (fun l' => res_main_v444 (F := Ideal) V (ix4 0 r h l')) (fun l' => (res_main_v389 (F := Ideal) V) (ix4 0 ⟨2 * r.val, by omega⟩ h l')) (fun l' => (res_main_v389 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

set_option maxHeartbeats 4000000 in
/-- Level 10: row r (of 2) of the level's key array is the specification's pooled key row, and of its value array
    the specification's pooled value row, for every head and lane. -/
theorem level10 (V : Valuation τ sig (Elt Ideal)) (r : Fin 2) (h : Fin 16) (l : Fin 128) :
    res_main_v499 (F := Ideal) V (ix4 0 r h l) = keyL (rowsOf (kOf V) h) 10 r.val l
      ∧ res_main_v549 (F := Ideal) V (ix4 0 r h l) = valRef (rowsOf (kOf V) h) (rowsOf (vOf V) h) 10 r.val l := by
  have hr := r.isLt
  have hk : ∀ (r' : Fin 4) (l' : Fin 128), (res_main_v444 (F := Ideal) V) (ix4 0 r' h l') = keyL (rowsOf (kOf V) h) 9 r'.val l' :=
    fun r' l' => (level9 V r' h l').1
  have hv : ∀ (r' : Fin 4) (l' : Fin 128),
      (res_main_v494 (F := Ideal) V) (ix4 0 r' h l') = valRef (rowsOf (kOf V) h) (rowsOf (vOf V) h) 9 r'.val l' :=
    fun r' l' => (level9 V r' h l').2
  have hP : ∀ l' : Fin 128, res_main_v499 (F := Ideal) V (ix4 0 r h l') = halfSum ((res_main_v444 (F := Ideal) V) (ix4 0 ⟨2 * r.val, by omega⟩ h l')) ((res_main_v444 (F := Ideal) V) (ix4 0 ⟨2 * r.val + 1, by omega⟩ h l')) :=
    fun l' => by
      unfold res_main_v499
      exact meanRows_apply _ _ _ _ r h l' (by omega)
  have hA : (res_main_v509 (F := Ideal) V (ix3 0 r h)) = score cS (fun l' => res_main_v499 (F := Ideal) V (ix4 0 r h l')) (fun l' => res_main_v499 (F := Ideal) V (ix4 0 r h l')) := by
    unfold res_main_v509
    exact scoreRows_apply Facts₀.dot_S1x2x16x128_S1x2x16x128_S1x2x16_3_3_n_n_012_012_wf _ _ _ r h
  have hB : (res_main_v514 (F := Ideal) V (ix3 0 r h)) = score cS (fun l' => res_main_v499 (F := Ideal) V (ix4 0 r h l')) (fun l' => (res_main_v444 (F := Ideal) V) (ix4 0 ⟨2 * r.val, by omega⟩ h l')) := by
    unfold res_main_v514 res_main_v505
    refine (scoreRows_apply Facts₀.dot_S1x2x16x128_S1x2x16x128_S1x2x16_3_3_n_n_012_012_wf _ _ _ r h).trans (congrArg (score cS _) (funext fun l' => ?_))
    exact pair_row_apply 0 (by omega) _ _ _ _ r h l' (by omega)
  have hC : (res_main_v519 (F := Ideal) V (ix3 0 r h)) = score cS (fun l' => res_main_v499 (F := Ideal) V (ix4 0 r h l')) (fun l' => (res_main_v444 (F := Ideal) V) (ix4 0 ⟨2 * r.val + 1, by omega⟩ h l')) := by
    unfold res_main_v519 res_main_v505
    refine (scoreRows_apply Facts₀.dot_S1x2x16x128_S1x2x16x128_S1x2x16_3_3_n_n_012_012_wf _ _ _ r h).trans (congrArg (score cS _) (funext fun l' => ?_))
    exact pair_row_apply 1 (by omega) _ _ _ _ r h l' (by omega)
  have e1 : res_main_v523 (F := Ideal) V (ix3 0 r h) = expSub (res_main_v509 (F := Ideal) V (ix3 0 r h)) (res_main_v514 (F := Ideal) V (ix3 0 r h)) (res_main_v519 (F := Ideal) V (ix3 0 r h)) (res_main_v509 (F := Ideal) V (ix3 0 r h)) := by
    unfold res_main_v523 res_main_v521; rfl
  have e2 : res_main_v525 (F := Ideal) V (ix3 0 r h) = expSub (res_main_v509 (F := Ideal) V (ix3 0 r h)) (res_main_v514 (F := Ideal) V (ix3 0 r h)) (res_main_v519 (F := Ideal) V (ix3 0 r h)) (res_main_v514 (F := Ideal) V (ix3 0 r h)) := by
    unfold res_main_v525 res_main_v521; rfl
  have e3 : res_main_v527 (F := Ideal) V (ix3 0 r h) = expSub (res_main_v509 (F := Ideal) V (ix3 0 r h)) (res_main_v514 (F := Ideal) V (ix3 0 r h)) (res_main_v519 (F := Ideal) V (ix3 0 r h)) (res_main_v519 (F := Ideal) V (ix3 0 r h)) := by
    unfold res_main_v527 res_main_v521; rfl
  have e4 : res_main_v531 (F := Ideal) V (ix3 0 r h) = wDen eps (res_main_v509 (F := Ideal) V (ix3 0 r h)) (res_main_v514 (F := Ideal) V (ix3 0 r h)) (res_main_v519 (F := Ideal) V (ix3 0 r h)) := by
    unfold res_main_v531
    rw [addf_apply, addf_apply, addf_apply, broadcastInDim_scalar_apply, constant_apply, eps_word, e1, e2, e3]
    rfl
  have hout : res_main_v549 (F := Ideal) V (ix4 0 r h l) = mixRef eps (res_main_v509 (F := Ideal) V (ix3 0 r h)) (res_main_v514 (F := Ideal) V (ix3 0 r h)) (res_main_v519 (F := Ideal) V (ix3 0 r h)) ((res_main_v494 (F := Ideal) V) (ix4 0 ⟨2 * r.val, by omega⟩ h l)) ((res_main_v494 (F := Ideal) V) (ix4 0 ⟨2 * r.val + 1, by omega⟩ h l)) := by
    unfold res_main_v549 res_main_v506
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 9 r.val
    (fun l' => res_main_v499 (F := Ideal) V (ix4 0 r h l')) (fun l' => (res_main_v444 (F := Ideal) V) (ix4 0 ⟨2 * r.val, by omega⟩ h l')) (fun l' => (res_main_v444 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

/-- The eleventh level's value array (one row): the run states it as this term, under no name. -/
def res11 (V : Valuation τ sig (Elt Ideal)) : FVec Ideal S1x1x16x128 .f32 :=
  addf (addf (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v578 V) (res_main_v586 V)))) (mulf (broadcastInDim S1x1x16x128 ![] bcast_S_S1x1x16x128 (constant S_ .f32 0x3F000000#32)) (addf (Host.slice S1x1x16x128 ![0, 0, 0, 0] ![1, 2, 1, 1] (res_main_v549 V) slicesBy_S1x2x16x128_S1x1x16x128_0s1_0s2_0s1_0s1) (Host.slice S1x1x16x128 ![0, 1, 0, 0] ![1, 2, 1, 1] (res_main_v549 V) slicesBy_S1x2x16x128_S1x1x16x128_0s1_1s2_0s1_0s1)))) (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v580 V) (res_main_v586 V)))) (shapeCast _ (extractStridedSlice S1x1x1x16x128 ![0, 0, 0, 0, 0] (res_main_v561 V) slices_S1x1x2x16x128_S1x1x1x16x128_0_0_0_0_0) shapeCasts_S1x1x1x16x128_S1x1x16x128))) (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v582 V) (res_main_v586 V)))) (shapeCast _ (extractStridedSlice S1x1x1x16x128 ![0, 0, 1, 0, 0] (res_main_v561 V) slices_S1x1x2x16x128_S1x1x1x16x128_0_0_1_0_0) shapeCasts_S1x1x1x16x128_S1x1x16x128))

set_option maxHeartbeats 4000000 in
/-- Level 11: row r (of 1) of the level's key array is the specification's pooled key row, and of its value array
    the specification's pooled value row, for every head and lane. -/
theorem level11 (V : Valuation τ sig (Elt Ideal)) (r : Fin 1) (h : Fin 16) (l : Fin 128) :
    res_main_v554 (F := Ideal) V (ix4 0 r h l) = keyL (rowsOf (kOf V) h) 11 r.val l
      ∧ res11 V (ix4 0 r h l) = valRef (rowsOf (kOf V) h) (rowsOf (vOf V) h) 11 r.val l := by
  have hr := r.isLt
  have hk : ∀ (r' : Fin 2) (l' : Fin 128), (res_main_v499 (F := Ideal) V) (ix4 0 r' h l') = keyL (rowsOf (kOf V) h) 10 r'.val l' :=
    fun r' l' => (level10 V r' h l').1
  have hv : ∀ (r' : Fin 2) (l' : Fin 128),
      (res_main_v549 (F := Ideal) V) (ix4 0 r' h l') = valRef (rowsOf (kOf V) h) (rowsOf (vOf V) h) 10 r'.val l' :=
    fun r' l' => (level10 V r' h l').2
  have hP : ∀ l' : Fin 128, res_main_v554 (F := Ideal) V (ix4 0 r h l') = halfSum ((res_main_v499 (F := Ideal) V) (ix4 0 ⟨2 * r.val, by omega⟩ h l')) ((res_main_v499 (F := Ideal) V) (ix4 0 ⟨2 * r.val + 1, by omega⟩ h l')) :=
    fun l' => by
      unfold res_main_v554
      exact meanRows_apply _ _ _ _ r h l' (by omega)
  have hA : (res_main_v564 (F := Ideal) V (ix3 0 r h)) = score cS (fun l' => res_main_v554 (F := Ideal) V (ix4 0 r h l')) (fun l' => res_main_v554 (F := Ideal) V (ix4 0 r h l')) := by
    unfold res_main_v564
    exact scoreRows_apply Facts₀.dot_S1x1x16x128_S1x1x16x128_S1x1x16_3_3_n_n_012_012_wf _ _ _ r h
  have hB : (res_main_v569 (F := Ideal) V (ix3 0 r h)) = score cS (fun l' => res_main_v554 (F := Ideal) V (ix4 0 r h l')) (fun l' => (res_main_v499 (F := Ideal) V) (ix4 0 ⟨2 * r.val, by omega⟩ h l')) := by
    unfold res_main_v569 res_main_v560
    refine (scoreRows_apply Facts₀.dot_S1x1x16x128_S1x1x16x128_S1x1x16_3_3_n_n_012_012_wf _ _ _ r h).trans (congrArg (score cS _) (funext fun l' => ?_))
    exact pair_row_apply 0 (by omega) _ _ _ _ r h l' (by omega)
  have hC : (res_main_v574 (F := Ideal) V (ix3 0 r h)) = score cS (fun l' => res_main_v554 (F := Ideal) V (ix4 0 r h l')) (fun l' => (res_main_v499 (F := Ideal) V) (ix4 0 ⟨2 * r.val + 1, by omega⟩ h l')) := by
    unfold res_main_v574 res_main_v560
    refine (scoreRows_apply Facts₀.dot_S1x1x16x128_S1x1x16x128_S1x1x16_3_3_n_n_012_012_wf _ _ _ r h).trans (congrArg (score cS _) (funext fun l' => ?_))
    exact pair_row_apply 1 (by omega) _ _ _ _ r h l' (by omega)
  have e1 : res_main_v578 (F := Ideal) V (ix3 0 r h) = expSub (res_main_v564 (F := Ideal) V (ix3 0 r h)) (res_main_v569 (F := Ideal) V (ix3 0 r h)) (res_main_v574 (F := Ideal) V (ix3 0 r h)) (res_main_v564 (F := Ideal) V (ix3 0 r h)) := by
    unfold res_main_v578 res_main_v576; rfl
  have e2 : res_main_v580 (F := Ideal) V (ix3 0 r h) = expSub (res_main_v564 (F := Ideal) V (ix3 0 r h)) (res_main_v569 (F := Ideal) V (ix3 0 r h)) (res_main_v574 (F := Ideal) V (ix3 0 r h)) (res_main_v569 (F := Ideal) V (ix3 0 r h)) := by
    unfold res_main_v580 res_main_v576; rfl
  have e3 : res_main_v582 (F := Ideal) V (ix3 0 r h) = expSub (res_main_v564 (F := Ideal) V (ix3 0 r h)) (res_main_v569 (F := Ideal) V (ix3 0 r h)) (res_main_v574 (F := Ideal) V (ix3 0 r h)) (res_main_v574 (F := Ideal) V (ix3 0 r h)) := by
    unfold res_main_v582 res_main_v576; rfl
  have e4 : res_main_v586 (F := Ideal) V (ix3 0 r h) = wDen eps (res_main_v564 (F := Ideal) V (ix3 0 r h)) (res_main_v569 (F := Ideal) V (ix3 0 r h)) (res_main_v574 (F := Ideal) V (ix3 0 r h)) := by
    unfold res_main_v586
    rw [addf_apply, addf_apply, addf_apply, broadcastInDim_scalar_apply, constant_apply, eps_word, e1, e2, e3]
    rfl
  have hout : res11 V (ix4 0 r h l) = mixRef eps (res_main_v564 (F := Ideal) V (ix3 0 r h)) (res_main_v569 (F := Ideal) V (ix3 0 r h)) (res_main_v574 (F := Ideal) V (ix3 0 r h)) ((res_main_v549 (F := Ideal) V) (ix4 0 ⟨2 * r.val, by omega⟩ h l)) ((res_main_v549 (F := Ideal) V) (ix4 0 ⟨2 * r.val + 1, by omega⟩ h l)) := by
    unfold res11 res_main_v561
    refine (outRows_apply _ _ _ _ _ _ _ _ _ _ _ _ _ _ r h l (by omega)).trans ?_
    rw [e1, e2, e3, e4]
    rfl
  obtain ⟨a, b⟩ := level_glue (rowsOf (kOf V) h) (rowsOf (vOf V) h) 10 r.val
    (fun l' => res_main_v554 (F := Ideal) V (ix4 0 r h l')) (fun l' => (res_main_v499 (F := Ideal) V) (ix4 0 ⟨2 * r.val, by omega⟩ h l')) (fun l' => (res_main_v499 (F := Ideal) V) (ix4 0 ⟨2 * r.val + 1, by omega⟩ h l'))
    _ _ _ _ _ _ l (funext fun l' => hk ⟨2 * r.val, by omega⟩ l') (funext fun l' => hk ⟨2 * r.val + 1, by omega⟩ l')
    hP hA hB hC (hv ⟨2 * r.val, by omega⟩ l) (hv ⟨2 * r.val + 1, by omega⟩ l) hout
  exact ⟨congrFun a l, b⟩

/-! ## Attention over the nodes: the two products, read at an index -/

section Attention

/-- The dimension numbers of the queries' product with the nodes' keys (lanes contracted; batch and head kept), and of
    the nodes' values' product with the weights (nodes contracted). -/
abbrev dS : DotDims S1x2048x16x128 S1x2047x16x128 S1x16x2048x2047 := dot_S1x2048x16x128_S1x2047x16x128_S1x16x2048x2047_3_3_1_1_02_02
abbrev dF : DotDims S1x2047x16x128 S1x16x2048x2047 S1x16x128x2048 := dot_S1x2047x16x128_S1x16x2048x2047_S1x16x128x2048_1_3_3_2_02_01

theorem dS_lhs_0 (i : S1x16x2048x2047.Idx) (q : dS.contr.Idx) :
    (dS.lhsIdx i q 0).val = (i 0).val := by
  unfold DotDims.lhsIdx
  rw [dif_pos (show (0 : Fin S1x2048x16x128.rank) ∈ dS.lhsBatch by decide)]
  rfl
theorem dS_lhs_1 (i : S1x16x2048x2047.Idx) (q : dS.contr.Idx) :
    (dS.lhsIdx i q 1).val = (i 2).val := by
  unfold DotDims.lhsIdx
  rw [dif_neg (show ¬(1 : Fin S1x2048x16x128.rank) ∈ dS.lhsBatch by decide), dif_pos (show (1 : Fin S1x2048x16x128.rank) ∈ dS.lhsNonContracting by decide)]
  rfl
theorem dS_lhs_2 (i : S1x16x2048x2047.Idx) (q : dS.contr.Idx) :
    (dS.lhsIdx i q 2).val = (i 1).val := by
  unfold DotDims.lhsIdx
  rw [dif_pos (show (2 : Fin S1x2048x16x128.rank) ∈ dS.lhsBatch by decide)]
  rfl
theorem dS_lhs_3 (i : S1x16x2048x2047.Idx) (q : dS.contr.Idx) :
    (dS.lhsIdx i q 3).val = (q ⟨0, by decide⟩).val :=
  dS.lhsIdx_val_of_single rfl i q
theorem dS_rhs_0 (i : S1x16x2048x2047.Idx) (q : dS.contr.Idx) :
    (dS.rhsIdx i q 0).val = (i 0).val := by
  unfold DotDims.rhsIdx
  rw [dif_pos (show (0 : Fin S1x2047x16x128.rank) ∈ dS.rhsBatch by decide)]
  rfl
theorem dS_rhs_1 (i : S1x16x2048x2047.Idx) (q : dS.contr.Idx) :
    (dS.rhsIdx i q 1).val = (i 3).val := by
  unfold DotDims.rhsIdx
  rw [dif_neg (show ¬(1 : Fin S1x2047x16x128.rank) ∈ dS.rhsBatch by decide), dif_pos (show (1 : Fin S1x2047x16x128.rank) ∈ dS.rhsNonContracting by decide)]
  rfl
theorem dS_rhs_2 (i : S1x16x2048x2047.Idx) (q : dS.contr.Idx) :
    (dS.rhsIdx i q 2).val = (i 1).val := by
  unfold DotDims.rhsIdx
  rw [dif_pos (show (2 : Fin S1x2047x16x128.rank) ∈ dS.rhsBatch by decide)]
  rfl
theorem dS_rhs_3 (i : S1x16x2048x2047.Idx) (q : dS.contr.Idx) :
    (dS.rhsIdx i q 3).val = (q ⟨0, by decide⟩).val :=
  dS.rhsIdx_val_of_single rfl i q
theorem dF_lhs_0 (i : S1x16x128x2048.Idx) (q : dF.contr.Idx) :
    (dF.lhsIdx i q 0).val = (i 0).val := by
  unfold DotDims.lhsIdx
  rw [dif_pos (show (0 : Fin S1x2047x16x128.rank) ∈ dF.lhsBatch by decide)]
  rfl
theorem dF_lhs_1 (i : S1x16x128x2048.Idx) (q : dF.contr.Idx) :
    (dF.lhsIdx i q 1).val = (q ⟨0, by decide⟩).val :=
  dF.lhsIdx_val_of_single rfl i q
theorem dF_lhs_2 (i : S1x16x128x2048.Idx) (q : dF.contr.Idx) :
    (dF.lhsIdx i q 2).val = (i 1).val := by
  unfold DotDims.lhsIdx
  rw [dif_pos (show (2 : Fin S1x2047x16x128.rank) ∈ dF.lhsBatch by decide)]
  rfl
theorem dF_lhs_3 (i : S1x16x128x2048.Idx) (q : dF.contr.Idx) :
    (dF.lhsIdx i q 3).val = (i 2).val := by
  unfold DotDims.lhsIdx
  rw [dif_neg (show ¬(3 : Fin S1x2047x16x128.rank) ∈ dF.lhsBatch by decide), dif_pos (show (3 : Fin S1x2047x16x128.rank) ∈ dF.lhsNonContracting by decide)]
  rfl
theorem dF_rhs_0 (i : S1x16x128x2048.Idx) (q : dF.contr.Idx) :
    (dF.rhsIdx i q 0).val = (i 0).val := by
  unfold DotDims.rhsIdx
  rw [dif_pos (show (0 : Fin S1x16x2048x2047.rank) ∈ dF.rhsBatch by decide)]
  rfl
theorem dF_rhs_1 (i : S1x16x128x2048.Idx) (q : dF.contr.Idx) :
    (dF.rhsIdx i q 1).val = (i 1).val := by
  unfold DotDims.rhsIdx
  rw [dif_pos (show (1 : Fin S1x16x2048x2047.rank) ∈ dF.rhsBatch by decide)]
  rfl
theorem dF_rhs_2 (i : S1x16x128x2048.Idx) (q : dF.contr.Idx) :
    (dF.rhsIdx i q 2).val = (i 3).val := by
  unfold DotDims.rhsIdx
  rw [dif_neg (show ¬(2 : Fin S1x16x2048x2047.rank) ∈ dF.rhsBatch by decide), dif_pos (show (2 : Fin S1x16x2048x2047.rank) ∈ dF.rhsNonContracting by decide)]
  rfl
theorem dF_rhs_3 (i : S1x16x128x2048.Idx) (q : dF.contr.Idx) :
    (dF.rhsIdx i q 3).val = (q ⟨0, by decide⟩).val :=
  dF.rhsIdx_val_of_single rfl i q

/-- The scores' product at (0, h, q, k): the inner product of query row q and node key row k of head h. -/
theorem dotS_apply (X : S1x2048x16x128.Idx → EReal) (Y : S1x2047x16x128.Idx → EReal) (h : Fin 16) (q : Fin 2048)
    (k : Fin 2047) :
    Host.dotGeneral (F := Ideal) (φ₁ := .f32) (φ₂ := .f32) dS none X Y (ix4 0 h q k)
      = ∑ i : Fin 128, X (ix4 0 q h i) * Y (ix4 0 k h i) := by
  simp only [Host.dotGeneral]
  rw [Ideal.dotGeneral_apply, ← Equiv.sum_comp (contrEquiv1 dS 128 rfl rfl).symm]
  refine Finset.sum_congr rfl fun c _ => ?_
  have hc := contrEquiv1_symm_val dS 128 rfl rfl c
  have el : dS.lhsIdx (ix4 0 h q k) ((contrEquiv1 dS 128 rfl rfl).symm c) = ix4 0 q h c :=
    funext fun a => Fin.ext (by
      match a with
      | ⟨0, _⟩ => exact dS_lhs_0 _ _
      | ⟨1, _⟩ => exact dS_lhs_1 _ _
      | ⟨2, _⟩ => exact dS_lhs_2 _ _
      | ⟨3, _⟩ => exact (dS_lhs_3 _ _).trans hc)
  have er : dS.rhsIdx (ix4 0 h q k) ((contrEquiv1 dS 128 rfl rfl).symm c) = ix4 0 k h c :=
    funext fun a => Fin.ext (by
      match a with
      | ⟨0, _⟩ => exact dS_rhs_0 _ _
      | ⟨1, _⟩ => exact dS_rhs_1 _ _
      | ⟨2, _⟩ => exact dS_rhs_2 _ _
      | ⟨3, _⟩ => exact (dS_rhs_3 _ _).trans hc)
  rw [el, er]

/-- The last product at (0, h, d, q): the sum over the 2047 nodes of node k's value entry (h, d) times weight (h, q, k). -/
theorem dotF_apply (X : S1x2047x16x128.Idx → EReal) (Y : S1x16x2048x2047.Idx → EReal) (h : Fin 16) (d : Fin 128)
    (q : Fin 2048) :
    Host.dotGeneral (F := Ideal) (φ₁ := .f32) (φ₂ := .f32) dF none X Y (ix4 0 h d q)
      = ∑ k : Fin 2047, X (ix4 0 k h d) * Y (ix4 0 h q k) := by
  simp only [Host.dotGeneral]
  rw [Ideal.dotGeneral_apply, ← Equiv.sum_comp (contrEquiv1 dF 2047 rfl rfl).symm]
  refine Finset.sum_congr rfl fun c _ => ?_
  have hc := contrEquiv1_symm_val dF 2047 rfl rfl c
  have el : dF.lhsIdx (ix4 0 h d q) ((contrEquiv1 dF 2047 rfl rfl).symm c) = ix4 0 c h d :=
    funext fun a => Fin.ext (by
      match a with
      | ⟨0, _⟩ => exact dF_lhs_0 _ _
      | ⟨1, _⟩ => exact (dF_lhs_1 _ _).trans hc
      | ⟨2, _⟩ => exact dF_lhs_2 _ _
      | ⟨3, _⟩ => exact dF_lhs_3 _ _)
  have er : dF.rhsIdx (ix4 0 h d q) ((contrEquiv1 dF 2047 rfl rfl).symm c) = ix4 0 h q c :=
    funext fun a => Fin.ext (by
      match a with
      | ⟨0, _⟩ => exact dF_rhs_0 _ _
      | ⟨1, _⟩ => exact dF_rhs_1 _ _
      | ⟨2, _⟩ => exact dF_rhs_2 _ _
      | ⟨3, _⟩ => exact (dF_rhs_3 _ _).trans hc)
  rw [el, er]

/-- Moving the query axis back in front of head and lane. -/
theorem transpose_0312_apply {α : Type} (x : S1x16x128x2048.Idx → α)
    (hT : S1x16x128x2048.Transposes [0, 3, 1, 2] S1x2048x16x128) (q : Fin 2048) (h : Fin 16) (d : Fin 128) :
    transpose S1x2048x16x128 [0, 3, 1, 2] x hT (ix4 0 q h d) = x (ix4 0 h d q) :=
  transpose_apply _ x hT _ _ fun b => by
    match b with
    | ⟨0, _⟩ => rfl
    | ⟨1, _⟩ => rfl
    | ⟨2, _⟩ => rfl
    | ⟨3, _⟩ => rfl

/-- A [1, 16, 2048] array broadcast along a new unit axis and then over the 2047 nodes reads its entry at every node. -/
theorem bcast_node_apply {α : Type} (x : S1x16x2048.Idx → α)
    (h1 : S1x16x2048.BroadcastsInDim S1x16x2048x1 ![0, 1, 2])
    (h2 : S1x16x2048x1.BroadcastsInDim S1x16x2048x2047 ![0, 1, 2, 3]) (h : Fin 16) (q : Fin 2048) (k : Fin 2047) :
    broadcastInDim S1x16x2048x2047 ![0, 1, 2, 3] h2 (broadcastInDim S1x16x2048x1 ![0, 1, 2] h1 x) (ix4 0 h q k)
      = x (ix3 0 h q) := by
  rw [broadcastInDim_apply _ h2 _ _ (ix4 0 h q 0) (fun a => by
      match a with
      | ⟨0, _⟩ => rfl
      | ⟨1, _⟩ => rfl
      | ⟨2, _⟩ => rfl
      | ⟨3, _⟩ => rfl),
    broadcastInDim_apply _ h1 _ _ (ix3 0 h q) (fun a => by
      match a with
      | ⟨0, _⟩ => rfl
      | ⟨1, _⟩ => rfl
      | ⟨2, _⟩ => rfl)]

end Attention

/-! ## Attention over the nodes: the reductions and the whole term, read at an index -/

section AttentionTerm

/-- The sum over the nodes of a [1, 16, 2048, 2047] array, from a zero initial value. -/
theorem sumNodes_apply (E : S1x16x2048x2047.Idx → EReal) (hR : S1x16x2048x2047.ReducesTo [3] S1x16x2048)
    (hu : 0 < (⟨0, ![]⟩ : Shape).numel) (h : Fin 16) (q : Fin 2048) :
    Host.reduceAdd (F := Ideal) (φ := .f32) E (constant (F := Ideal) ⟨0, ![]⟩ .f32 0x00000000#32) hR hu (ix3 0 h q)
      = ∑ k : Fin 2047, E (ix4 0 h q k) := by
  have hr : S1x16x2048x2047.Reduces [3] S1x16x2048 := by decide
  rw [hostReduceAdd_apply, Ideal.hostReduceAdd_single hR hr, constant_apply, Ideal.ofBits_zero_f32, zero_add]
  refine Finset.sum_congr rfl fun k _ => congrArg E (funext fun a => Fin.ext ?_)
  match a with
  | ⟨0, _⟩ => rfl
  | ⟨1, _⟩ => rfl
  | ⟨2, _⟩ => rfl
  | ⟨3, _⟩ => rfl

/-- The largest over the nodes, folded from minus infinity. -/
theorem maxNodes_apply (S : S1x16x2048x2047.Idx → EReal) (hR : S1x16x2048x2047.ReducesTo [3] S1x16x2048)
    (hu : 0 < (⟨0, ![]⟩ : Shape).numel) (h : Fin 16) (q : Fin 2048) :
    Host.reduce (FloatOps.maximumf (F := Ideal) (φ := .f32)) S (constant (F := Ideal) ⟨0, ![]⟩ .f32 0xFF800000#32) hR hu
        (ix3 0 h q)
      = (Finset.univ : Finset (Fin 2047)).fold max ⊥ (fun k => S (ix4 0 h q k)) := by
  have hr : S1x16x2048x2047.Reduces [3] S1x16x2048 := by decide
  rw [Host.reduce_eq_fold_single (FloatOps.maximumf (F := Ideal) (φ := .f32)) S _ hR hr hu (ix3 0 h q)]
  have e : (S ∘ hr.lift (ix3 0 h q)) = fun k : Fin 2047 => S (ix4 0 h q k) :=
    funext fun k => congrArg S (funext fun a => Fin.ext (by
      match a with
      | ⟨0, _⟩ => rfl
      | ⟨1, _⟩ => rfl
      | ⟨2, _⟩ => rfl
      | ⟨3, _⟩ => rfl))
  show (Finset.univ : Finset (Fin 2047)).fold max (Ideal.ofBits .f32 0xFF800000#32) (S ∘ hr.lift (ix3 0 h q)) = _
  rw [ofBits_neg_inf, e]
  rfl

/-- A row's largest score, as the reference takes it: the larger of minus infinity and the fold. -/
def rowMax (S : S1x16x2048x2047.Idx → EReal) (h : Fin 16) (q : Fin 2048) : EReal :=
  max ⊥ ((Finset.univ : Finset (Fin 2047)).fold max ⊥ (fun k => S (ix4 0 h q k)))

/-- The scaled scores at (0, h, q, k). -/
theorem scoreNodes_apply (X : S1x2048x16x128.Idx → EReal) (Y : S1x2047x16x128.Idx → EReal)
    (hb : (⟨0, ![]⟩ : Shape).BroadcastsInDim S1x16x2048x2047 ![]) (h : Fin 16) (q : Fin 2048) (k : Fin 2047) :
    mulf (F := Ideal) (φ := .f32) (Host.dotGeneral (F := Ideal) (φ₁ := .f32) (φ₂ := .f32) dS none X Y)
        (broadcastInDim S1x16x2048x2047 ![] hb (constant (F := Ideal) ⟨0, ![]⟩ .f32 0x3DB504F3#32)) (ix4 0 h q k)
      = (∑ i : Fin 128, X (ix4 0 q h i) * Y (ix4 0 k h i)) * ((cS : ℝ) : EReal) := by
  rw [mulf_apply, dotS_apply, broadcastInDim_scalar_apply, constant_apply, scale_word]

/-- The exponentials at (0, h, q, k): of the score less the row's largest. -/
theorem expNodes_apply (S : S1x16x2048x2047.Idx → EReal)
    (hb1 : S1x16x2048.BroadcastsInDim S1x16x2048x1 ![0, 1, 2])
    (hb2 : S1x16x2048x1.BroadcastsInDim S1x16x2048x2047 ![0, 1, 2, 3])
    (hb : (⟨0, ![]⟩ : Shape).BroadcastsInDim S1x16x2048 ![])
    (hR : S1x16x2048x2047.ReducesTo [3] S1x16x2048) (hu : 0 < (⟨0, ![]⟩ : Shape).numel)
    (h : Fin 16) (q : Fin 2048) (k : Fin 2047) :
    Host.exp (F := Ideal) (φ := .f32) (subf (F := Ideal) (φ := .f32) S
        (broadcastInDim S1x16x2048x2047 ![0, 1, 2, 3] hb2 (broadcastInDim S1x16x2048x1 ![0, 1, 2] hb1
          (maximumf (F := Ideal) (φ := .f32)
            (broadcastInDim S1x16x2048 ![] hb (constant (F := Ideal) ⟨0, ![]⟩ .f32 0xFF800000#32))
            (Host.reduce (FloatOps.maximumf (F := Ideal) (φ := .f32)) S (constant (F := Ideal) ⟨0, ![]⟩ .f32 0xFF800000#32) hR hu)))))
        (ix4 0 h q k)
      = Ideal.exp (S (ix4 0 h q k) - rowMax S h q) := by
  show Ideal.exp (S (ix4 0 h q k) - _) = _
  rw [bcast_node_apply, maximumf_apply, broadcastInDim_scalar_apply, constant_apply, ofBits_neg_inf, maxNodes_apply]
  rfl

/-- The whole term at (0, q, h, d): the sum over the nodes of node k's value entry times its normalised weight. -/
theorem attnTerm_apply (X : S1x2047x16x128.Idx → EReal) (E : S1x16x2048x2047.Idx → EReal)
    (hT : S1x16x128x2048.Transposes [0, 3, 1, 2] S1x2048x16x128)
    (hb1 : S1x16x2048.BroadcastsInDim S1x16x2048x1 ![0, 1, 2])
    (hb2 : S1x16x2048x1.BroadcastsInDim S1x16x2048x2047 ![0, 1, 2, 3])
    (hR : S1x16x2048x2047.ReducesTo [3] S1x16x2048) (hu : 0 < (⟨0, ![]⟩ : Shape).numel)
    (q : Fin 2048) (h : Fin 16) (d : Fin 128) :
    transpose S1x2048x16x128 [0, 3, 1, 2]
        (Host.dotGeneral (F := Ideal) (φ₁ := .f32) (φ₂ := .f32) dF none X
          (Host.divf (F := Ideal) (φ := .f32) E
            (broadcastInDim S1x16x2048x2047 ![0, 1, 2, 3] hb2 (broadcastInDim S1x16x2048x1 ![0, 1, 2] hb1
              (Host.reduceAdd (F := Ideal) (φ := .f32) E (constant (F := Ideal) ⟨0, ![]⟩ .f32 0x00000000#32) hR hu)))))
        hT (ix4 0 q h d)
      = ∑ k : Fin 2047, X (ix4 0 k h d) * Ideal.div (E (ix4 0 h q k)) (∑ k' : Fin 2047, E (ix4 0 h q k')) := by
  rw [transpose_0312_apply, dotF_apply]
  refine Finset.sum_congr rfl fun k _ => ?_
  rw [hostDivf_apply, bcast_node_apply, sumNodes_apply]

end AttentionTerm

/-! ## The nodes: the eleven levels laid end to end -/

section Nodes

/-- The nodes' key array and value array: the levels' arrays concatenated along the rows. -/
def KK (V : Valuation τ sig (Elt Ideal)) : FVec Ideal S1x2047x16x128 .f32 :=
  concatenate S1x2047x16x128 1 [⟨S1x1024x16x128, (res_main_v4 V)⟩, ⟨S1x512x16x128, (res_main_v59 V)⟩, ⟨S1x256x16x128, (res_main_v114 V)⟩, ⟨S1x128x16x128, (res_main_v169 V)⟩, ⟨S1x64x16x128, (res_main_v224 V)⟩, ⟨S1x32x16x128, (res_main_v279 V)⟩, ⟨S1x16x16x128, (res_main_v334 V)⟩, ⟨S1x8x16x128, (res_main_v389 V)⟩, ⟨S1x4x16x128, (res_main_v444 V)⟩, ⟨S1x2x16x128, (res_main_v499 V)⟩, ⟨S1x1x16x128, (res_main_v554 V)⟩] concatenates_S1x1024x16x128_S1x512x16x128_S1x256x16x128_S1x128x16x128_S1x64x16x128_S1x32x16x128_S1x16x16x128_S1x8x16x128_S1x4x16x128_S1x2x16x128_S1x1x16x128_S1x2047x16x128_d1
def KV (V : Valuation τ sig (Elt Ideal)) : FVec Ideal S1x2047x16x128 .f32 :=
  concatenate S1x2047x16x128 1 [⟨S1x1024x16x128, (res_main_v54 V)⟩, ⟨S1x512x16x128, (res_main_v109 V)⟩, ⟨S1x256x16x128, (res_main_v164 V)⟩, ⟨S1x128x16x128, (res_main_v219 V)⟩, ⟨S1x64x16x128, (res_main_v274 V)⟩, ⟨S1x32x16x128, (res_main_v329 V)⟩, ⟨S1x16x16x128, (res_main_v384 V)⟩, ⟨S1x8x16x128, (res_main_v439 V)⟩, ⟨S1x4x16x128, (res_main_v494 V)⟩, ⟨S1x2x16x128, (res_main_v549 V)⟩, ⟨S1x1x16x128, (addf (addf (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v578 V) (res_main_v586 V)))) (mulf (broadcastInDim S1x1x16x128 ![] bcast_S_S1x1x16x128 (constant S_ .f32 0x3F000000#32)) (addf (Host.slice S1x1x16x128 ![0, 0, 0, 0] ![1, 2, 1, 1] (res_main_v549 V) slicesBy_S1x2x16x128_S1x1x16x128_0s1_0s2_0s1_0s1) (Host.slice S1x1x16x128 ![0, 1, 0, 0] ![1, 2, 1, 1] (res_main_v549 V) slicesBy_S1x2x16x128_S1x1x16x128_0s1_1s2_0s1_0s1)))) (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v580 V) (res_main_v586 V)))) (shapeCast _ (extractStridedSlice S1x1x1x16x128 ![0, 0, 0, 0, 0] (res_main_v561 V) slices_S1x1x2x16x128_S1x1x1x16x128_0_0_0_0_0) shapeCasts_S1x1x1x16x128_S1x1x16x128))) (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v582 V) (res_main_v586 V)))) (shapeCast _ (extractStridedSlice S1x1x1x16x128 ![0, 0, 1, 0, 0] (res_main_v561 V) slices_S1x1x2x16x128_S1x1x1x16x128_0_0_1_0_0) shapeCasts_S1x1x1x16x128_S1x1x16x128)))⟩] concatenates_S1x1024x16x128_S1x512x16x128_S1x256x16x128_S1x128x16x128_S1x64x16x128_S1x32x16x128_S1x16x16x128_S1x8x16x128_S1x4x16x128_S1x2x16x128_S1x1x16x128_S1x2047x16x128_d1

theorem KK_at1 (V : Valuation τ sig (Elt Ideal)) (j : Fin 2047) (r : Fin 1024) (h : Fin 16) (i : Fin 128)
    (hj : j.val = 0 + r.val) : KK V (ix4 0 j h i) = (res_main_v4 (F := Ideal) V) (ix4 0 r h i) := by
  unfold KK
  exact concatenate_apply_piece (1 : Fin S1x2047x16x128.rank) _ _ (ix4 0 j h i) 0 (by show (0 : ℕ) < 11; decide)
    S1x1024x16x128 (res_main_v4 (F := Ideal) V) rfl rfl 0 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at1 (V : Valuation τ sig (Elt Ideal)) (j : Fin 2047) (r : Fin 1024) (h : Fin 16) (i : Fin 128)
    (hj : j.val = 0 + r.val) : KV V (ix4 0 j h i) = (res_main_v54 (F := Ideal) V) (ix4 0 r h i) := by
  unfold KV
  exact concatenate_apply_piece (1 : Fin S1x2047x16x128.rank) _ _ (ix4 0 j h i) 0 (by show (0 : ℕ) < 11; decide)
    S1x1024x16x128 (res_main_v54 (F := Ideal) V) rfl rfl 0 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at2 (V : Valuation τ sig (Elt Ideal)) (j : Fin 2047) (r : Fin 512) (h : Fin 16) (i : Fin 128)
    (hj : j.val = 1024 + r.val) : KK V (ix4 0 j h i) = (res_main_v59 (F := Ideal) V) (ix4 0 r h i) := by
  unfold KK
  exact concatenate_apply_piece (1 : Fin S1x2047x16x128.rank) _ _ (ix4 0 j h i) 1 (by show (1 : ℕ) < 11; decide)
    S1x512x16x128 (res_main_v59 (F := Ideal) V) rfl rfl 1024 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at2 (V : Valuation τ sig (Elt Ideal)) (j : Fin 2047) (r : Fin 512) (h : Fin 16) (i : Fin 128)
    (hj : j.val = 1024 + r.val) : KV V (ix4 0 j h i) = (res_main_v109 (F := Ideal) V) (ix4 0 r h i) := by
  unfold KV
  exact concatenate_apply_piece (1 : Fin S1x2047x16x128.rank) _ _ (ix4 0 j h i) 1 (by show (1 : ℕ) < 11; decide)
    S1x512x16x128 (res_main_v109 (F := Ideal) V) rfl rfl 1024 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at3 (V : Valuation τ sig (Elt Ideal)) (j : Fin 2047) (r : Fin 256) (h : Fin 16) (i : Fin 128)
    (hj : j.val = 1536 + r.val) : KK V (ix4 0 j h i) = (res_main_v114 (F := Ideal) V) (ix4 0 r h i) := by
  unfold KK
  exact concatenate_apply_piece (1 : Fin S1x2047x16x128.rank) _ _ (ix4 0 j h i) 2 (by show (2 : ℕ) < 11; decide)
    S1x256x16x128 (res_main_v114 (F := Ideal) V) rfl rfl 1536 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at3 (V : Valuation τ sig (Elt Ideal)) (j : Fin 2047) (r : Fin 256) (h : Fin 16) (i : Fin 128)
    (hj : j.val = 1536 + r.val) : KV V (ix4 0 j h i) = (res_main_v164 (F := Ideal) V) (ix4 0 r h i) := by
  unfold KV
  exact concatenate_apply_piece (1 : Fin S1x2047x16x128.rank) _ _ (ix4 0 j h i) 2 (by show (2 : ℕ) < 11; decide)
    S1x256x16x128 (res_main_v164 (F := Ideal) V) rfl rfl 1536 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at4 (V : Valuation τ sig (Elt Ideal)) (j : Fin 2047) (r : Fin 128) (h : Fin 16) (i : Fin 128)
    (hj : j.val = 1792 + r.val) : KK V (ix4 0 j h i) = (res_main_v169 (F := Ideal) V) (ix4 0 r h i) := by
  unfold KK
  exact concatenate_apply_piece (1 : Fin S1x2047x16x128.rank) _ _ (ix4 0 j h i) 3 (by show (3 : ℕ) < 11; decide)
    S1x128x16x128 (res_main_v169 (F := Ideal) V) rfl rfl 1792 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at4 (V : Valuation τ sig (Elt Ideal)) (j : Fin 2047) (r : Fin 128) (h : Fin 16) (i : Fin 128)
    (hj : j.val = 1792 + r.val) : KV V (ix4 0 j h i) = (res_main_v219 (F := Ideal) V) (ix4 0 r h i) := by
  unfold KV
  exact concatenate_apply_piece (1 : Fin S1x2047x16x128.rank) _ _ (ix4 0 j h i) 3 (by show (3 : ℕ) < 11; decide)
    S1x128x16x128 (res_main_v219 (F := Ideal) V) rfl rfl 1792 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at5 (V : Valuation τ sig (Elt Ideal)) (j : Fin 2047) (r : Fin 64) (h : Fin 16) (i : Fin 128)
    (hj : j.val = 1920 + r.val) : KK V (ix4 0 j h i) = (res_main_v224 (F := Ideal) V) (ix4 0 r h i) := by
  unfold KK
  exact concatenate_apply_piece (1 : Fin S1x2047x16x128.rank) _ _ (ix4 0 j h i) 4 (by show (4 : ℕ) < 11; decide)
    S1x64x16x128 (res_main_v224 (F := Ideal) V) rfl rfl 1920 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at5 (V : Valuation τ sig (Elt Ideal)) (j : Fin 2047) (r : Fin 64) (h : Fin 16) (i : Fin 128)
    (hj : j.val = 1920 + r.val) : KV V (ix4 0 j h i) = (res_main_v274 (F := Ideal) V) (ix4 0 r h i) := by
  unfold KV
  exact concatenate_apply_piece (1 : Fin S1x2047x16x128.rank) _ _ (ix4 0 j h i) 4 (by show (4 : ℕ) < 11; decide)
    S1x64x16x128 (res_main_v274 (F := Ideal) V) rfl rfl 1920 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at6 (V : Valuation τ sig (Elt Ideal)) (j : Fin 2047) (r : Fin 32) (h : Fin 16) (i : Fin 128)
    (hj : j.val = 1984 + r.val) : KK V (ix4 0 j h i) = (res_main_v279 (F := Ideal) V) (ix4 0 r h i) := by
  unfold KK
  exact concatenate_apply_piece (1 : Fin S1x2047x16x128.rank) _ _ (ix4 0 j h i) 5 (by show (5 : ℕ) < 11; decide)
    S1x32x16x128 (res_main_v279 (F := Ideal) V) rfl rfl 1984 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at6 (V : Valuation τ sig (Elt Ideal)) (j : Fin 2047) (r : Fin 32) (h : Fin 16) (i : Fin 128)
    (hj : j.val = 1984 + r.val) : KV V (ix4 0 j h i) = (res_main_v329 (F := Ideal) V) (ix4 0 r h i) := by
  unfold KV
  exact concatenate_apply_piece (1 : Fin S1x2047x16x128.rank) _ _ (ix4 0 j h i) 5 (by show (5 : ℕ) < 11; decide)
    S1x32x16x128 (res_main_v329 (F := Ideal) V) rfl rfl 1984 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at7 (V : Valuation τ sig (Elt Ideal)) (j : Fin 2047) (r : Fin 16) (h : Fin 16) (i : Fin 128)
    (hj : j.val = 2016 + r.val) : KK V (ix4 0 j h i) = (res_main_v334 (F := Ideal) V) (ix4 0 r h i) := by
  unfold KK
  exact concatenate_apply_piece (1 : Fin S1x2047x16x128.rank) _ _ (ix4 0 j h i) 6 (by show (6 : ℕ) < 11; decide)
    S1x16x16x128 (res_main_v334 (F := Ideal) V) rfl rfl 2016 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at7 (V : Valuation τ sig (Elt Ideal)) (j : Fin 2047) (r : Fin 16) (h : Fin 16) (i : Fin 128)
    (hj : j.val = 2016 + r.val) : KV V (ix4 0 j h i) = (res_main_v384 (F := Ideal) V) (ix4 0 r h i) := by
  unfold KV
  exact concatenate_apply_piece (1 : Fin S1x2047x16x128.rank) _ _ (ix4 0 j h i) 6 (by show (6 : ℕ) < 11; decide)
    S1x16x16x128 (res_main_v384 (F := Ideal) V) rfl rfl 2016 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at8 (V : Valuation τ sig (Elt Ideal)) (j : Fin 2047) (r : Fin 8) (h : Fin 16) (i : Fin 128)
    (hj : j.val = 2032 + r.val) : KK V (ix4 0 j h i) = (res_main_v389 (F := Ideal) V) (ix4 0 r h i) := by
  unfold KK
  exact concatenate_apply_piece (1 : Fin S1x2047x16x128.rank) _ _ (ix4 0 j h i) 7 (by show (7 : ℕ) < 11; decide)
    S1x8x16x128 (res_main_v389 (F := Ideal) V) rfl rfl 2032 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at8 (V : Valuation τ sig (Elt Ideal)) (j : Fin 2047) (r : Fin 8) (h : Fin 16) (i : Fin 128)
    (hj : j.val = 2032 + r.val) : KV V (ix4 0 j h i) = (res_main_v439 (F := Ideal) V) (ix4 0 r h i) := by
  unfold KV
  exact concatenate_apply_piece (1 : Fin S1x2047x16x128.rank) _ _ (ix4 0 j h i) 7 (by show (7 : ℕ) < 11; decide)
    S1x8x16x128 (res_main_v439 (F := Ideal) V) rfl rfl 2032 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at9 (V : Valuation τ sig (Elt Ideal)) (j : Fin 2047) (r : Fin 4) (h : Fin 16) (i : Fin 128)
    (hj : j.val = 2040 + r.val) : KK V (ix4 0 j h i) = (res_main_v444 (F := Ideal) V) (ix4 0 r h i) := by
  unfold KK
  exact concatenate_apply_piece (1 : Fin S1x2047x16x128.rank) _ _ (ix4 0 j h i) 8 (by show (8 : ℕ) < 11; decide)
    S1x4x16x128 (res_main_v444 (F := Ideal) V) rfl rfl 2040 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at9 (V : Valuation τ sig (Elt Ideal)) (j : Fin 2047) (r : Fin 4) (h : Fin 16) (i : Fin 128)
    (hj : j.val = 2040 + r.val) : KV V (ix4 0 j h i) = (res_main_v494 (F := Ideal) V) (ix4 0 r h i) := by
  unfold KV
  exact concatenate_apply_piece (1 : Fin S1x2047x16x128.rank) _ _ (ix4 0 j h i) 8 (by show (8 : ℕ) < 11; decide)
    S1x4x16x128 (res_main_v494 (F := Ideal) V) rfl rfl 2040 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at10 (V : Valuation τ sig (Elt Ideal)) (j : Fin 2047) (r : Fin 2) (h : Fin 16) (i : Fin 128)
    (hj : j.val = 2044 + r.val) : KK V (ix4 0 j h i) = (res_main_v499 (F := Ideal) V) (ix4 0 r h i) := by
  unfold KK
  exact concatenate_apply_piece (1 : Fin S1x2047x16x128.rank) _ _ (ix4 0 j h i) 9 (by show (9 : ℕ) < 11; decide)
    S1x2x16x128 (res_main_v499 (F := Ideal) V) rfl rfl 2044 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at10 (V : Valuation τ sig (Elt Ideal)) (j : Fin 2047) (r : Fin 2) (h : Fin 16) (i : Fin 128)
    (hj : j.val = 2044 + r.val) : KV V (ix4 0 j h i) = (res_main_v549 (F := Ideal) V) (ix4 0 r h i) := by
  unfold KV
  exact concatenate_apply_piece (1 : Fin S1x2047x16x128.rank) _ _ (ix4 0 j h i) 9 (by show (9 : ℕ) < 11; decide)
    S1x2x16x128 (res_main_v549 (F := Ideal) V) rfl rfl 2044 rfl (ix4 0 r h i)
    (fun b hb => by
      match b with
      | ⟨0, _⟩ => rfl
      | ⟨1, _⟩ => exact absurd rfl hb
      | ⟨2, _⟩ => rfl
      | ⟨3, _⟩ => rfl)
    hj.symm

theorem KK_at11 (V : Valuation τ sig (Elt Ideal)) (j : Fin 2047) (r : Fin 1) (h : Fin 16) (i : Fin 128)
    (hj : j.val = 2046 + r.val) : KK V (ix4 0 j h i) = (res_main_v554 (F := Ideal) V) (ix4 0 r h i) := by
  unfold KK
  exact concatenate_apply_piece (1 : Fin S1x2047x16x128.rank) _ _ (ix4 0 j h i) 10 (by show (10 : ℕ) < 11; decide)
    S1x1x16x128 (res_main_v554 (F := Ideal) V) rfl rfl 2046 rfl (ix4 0 r h i)
    (fun b hb => by
      match b with
      | ⟨0, _⟩ => rfl
      | ⟨1, _⟩ => exact absurd rfl hb
      | ⟨2, _⟩ => rfl
      | ⟨3, _⟩ => rfl)
    hj.symm

theorem KV_at11 (V : Valuation τ sig (Elt Ideal)) (j : Fin 2047) (r : Fin 1) (h : Fin 16) (i : Fin 128)
    (hj : j.val = 2046 + r.val) : KV V (ix4 0 j h i) = (res11 V) (ix4 0 r h i) := by
  unfold KV
  exact concatenate_apply_piece (1 : Fin S1x2047x16x128.rank) _ _ (ix4 0 j h i) 10 (by show (10 : ℕ) < 11; decide)
    S1x1x16x128 (res11 V) rfl rfl 2046 rfl (ix4 0 r h i)
    (fun b hb => by
      match b with
      | ⟨0, _⟩ => rfl
      | ⟨1, _⟩ => exact absurd rfl hb
      | ⟨2, _⟩ => rfl
      | ⟨3, _⟩ => rfl)
    hj.symm

/-- Node j's key row and value row in the specification: the level that holds row j of the 2047, at j less the level's
    first row. -/
def nodeK (kk : ℕ → Fin 128 → EReal) (j : ℕ) : Fin 128 → EReal :=
  if j < 1024 then keyL kk 1 (j - 0)
  else if j < 1536 then keyL kk 2 (j - 1024)
  else if j < 1792 then keyL kk 3 (j - 1536)
  else if j < 1920 then keyL kk 4 (j - 1792)
  else if j < 1984 then keyL kk 5 (j - 1920)
  else if j < 2016 then keyL kk 6 (j - 1984)
  else if j < 2032 then keyL kk 7 (j - 2016)
  else if j < 2040 then keyL kk 8 (j - 2032)
  else if j < 2044 then keyL kk 9 (j - 2040)
  else if j < 2046 then keyL kk 10 (j - 2044)
  else keyL kk 11 (j - 2046)
def nodeV (kk vv : ℕ → Fin 128 → EReal) (j : ℕ) : Fin 128 → EReal :=
  if j < 1024 then valRef kk vv 1 (j - 0)
  else if j < 1536 then valRef kk vv 2 (j - 1024)
  else if j < 1792 then valRef kk vv 3 (j - 1536)
  else if j < 1920 then valRef kk vv 4 (j - 1792)
  else if j < 1984 then valRef kk vv 5 (j - 1920)
  else if j < 2016 then valRef kk vv 6 (j - 1984)
  else if j < 2032 then valRef kk vv 7 (j - 2016)
  else if j < 2040 then valRef kk vv 8 (j - 2032)
  else if j < 2044 then valRef kk vv 9 (j - 2040)
  else if j < 2046 then valRef kk vv 10 (j - 2044)
  else valRef kk vv 11 (j - 2046)

theorem KK_node (V : Valuation τ sig (Elt Ideal)) (j : Fin 2047) (h : Fin 16) (i : Fin 128) :
    KK V (ix4 0 j h i) = nodeK (rowsOf (kOf V) h) j.val i := by
  have hj := j.isLt
  unfold nodeK
  by_cases h1 : j.val < 1024
  · rw [if_pos h1]
    exact (KK_at1 V j ⟨j.val - 0, by omega⟩ h i (by show j.val = 0 + (j.val - 0); omega)).trans (level1 V _ h i).1
  rw [if_neg h1]
  by_cases h2 : j.val < 1536
  · rw [if_pos h2]
    exact (KK_at2 V j ⟨j.val - 1024, by omega⟩ h i (by show j.val = 1024 + (j.val - 1024); omega)).trans (level2 V _ h i).1
  rw [if_neg h2]
  by_cases h3 : j.val < 1792
  · rw [if_pos h3]
    exact (KK_at3 V j ⟨j.val - 1536, by omega⟩ h i (by show j.val = 1536 + (j.val - 1536); omega)).trans (level3 V _ h i).1
  rw [if_neg h3]
  by_cases h4 : j.val < 1920
  · rw [if_pos h4]
    exact (KK_at4 V j ⟨j.val - 1792, by omega⟩ h i (by show j.val = 1792 + (j.val - 1792); omega)).trans (level4 V _ h i).1
  rw [if_neg h4]
  by_cases h5 : j.val < 1984
  · rw [if_pos h5]
    exact (KK_at5 V j ⟨j.val - 1920, by omega⟩ h i (by show j.val = 1920 + (j.val - 1920); omega)).trans (level5 V _ h i).1
  rw [if_neg h5]
  by_cases h6 : j.val < 2016
  · rw [if_pos h6]
    exact (KK_at6 V j ⟨j.val - 1984, by omega⟩ h i (by show j.val = 1984 + (j.val - 1984); omega)).trans (level6 V _ h i).1
  rw [if_neg h6]
  by_cases h7 : j.val < 2032
  · rw [if_pos h7]
    exact (KK_at7 V j ⟨j.val - 2016, by omega⟩ h i (by show j.val = 2016 + (j.val - 2016); omega)).trans (level7 V _ h i).1
  rw [if_neg h7]
  by_cases h8 : j.val < 2040
  · rw [if_pos h8]
    exact (KK_at8 V j ⟨j.val - 2032, by omega⟩ h i (by show j.val = 2032 + (j.val - 2032); omega)).trans (level8 V _ h i).1
  rw [if_neg h8]
  by_cases h9 : j.val < 2044
  · rw [if_pos h9]
    exact (KK_at9 V j ⟨j.val - 2040, by omega⟩ h i (by show j.val = 2040 + (j.val - 2040); omega)).trans (level9 V _ h i).1
  rw [if_neg h9]
  by_cases h10 : j.val < 2046
  · rw [if_pos h10]
    exact (KK_at10 V j ⟨j.val - 2044, by omega⟩ h i (by show j.val = 2044 + (j.val - 2044); omega)).trans (level10 V _ h i).1
  rw [if_neg h10]
  exact (KK_at11 V j ⟨j.val - 2046, by omega⟩ h i (by show j.val = 2046 + (j.val - 2046); omega)).trans (level11 V _ h i).1

theorem KV_node (V : Valuation τ sig (Elt Ideal)) (j : Fin 2047) (h : Fin 16) (i : Fin 128) :
    KV V (ix4 0 j h i) = nodeV (rowsOf (kOf V) h) (rowsOf (vOf V) h) j.val i := by
  have hj := j.isLt
  unfold nodeV
  by_cases h1 : j.val < 1024
  · rw [if_pos h1]
    exact (KV_at1 V j ⟨j.val - 0, by omega⟩ h i (by show j.val = 0 + (j.val - 0); omega)).trans (level1 V _ h i).2
  rw [if_neg h1]
  by_cases h2 : j.val < 1536
  · rw [if_pos h2]
    exact (KV_at2 V j ⟨j.val - 1024, by omega⟩ h i (by show j.val = 1024 + (j.val - 1024); omega)).trans (level2 V _ h i).2
  rw [if_neg h2]
  by_cases h3 : j.val < 1792
  · rw [if_pos h3]
    exact (KV_at3 V j ⟨j.val - 1536, by omega⟩ h i (by show j.val = 1536 + (j.val - 1536); omega)).trans (level3 V _ h i).2
  rw [if_neg h3]
  by_cases h4 : j.val < 1920
  · rw [if_pos h4]
    exact (KV_at4 V j ⟨j.val - 1792, by omega⟩ h i (by show j.val = 1792 + (j.val - 1792); omega)).trans (level4 V _ h i).2
  rw [if_neg h4]
  by_cases h5 : j.val < 1984
  · rw [if_pos h5]
    exact (KV_at5 V j ⟨j.val - 1920, by omega⟩ h i (by show j.val = 1920 + (j.val - 1920); omega)).trans (level5 V _ h i).2
  rw [if_neg h5]
  by_cases h6 : j.val < 2016
  · rw [if_pos h6]
    exact (KV_at6 V j ⟨j.val - 1984, by omega⟩ h i (by show j.val = 1984 + (j.val - 1984); omega)).trans (level6 V _ h i).2
  rw [if_neg h6]
  by_cases h7 : j.val < 2032
  · rw [if_pos h7]
    exact (KV_at7 V j ⟨j.val - 2016, by omega⟩ h i (by show j.val = 2016 + (j.val - 2016); omega)).trans (level7 V _ h i).2
  rw [if_neg h7]
  by_cases h8 : j.val < 2040
  · rw [if_pos h8]
    exact (KV_at8 V j ⟨j.val - 2032, by omega⟩ h i (by show j.val = 2032 + (j.val - 2032); omega)).trans (level8 V _ h i).2
  rw [if_neg h8]
  by_cases h9 : j.val < 2044
  · rw [if_pos h9]
    exact (KV_at9 V j ⟨j.val - 2040, by omega⟩ h i (by show j.val = 2040 + (j.val - 2040); omega)).trans (level9 V _ h i).2
  rw [if_neg h9]
  by_cases h10 : j.val < 2046
  · rw [if_pos h10]
    exact (KV_at10 V j ⟨j.val - 2044, by omega⟩ h i (by show j.val = 2044 + (j.val - 2044); omega)).trans (level10 V _ h i).2
  rw [if_neg h10]
  exact (KV_at11 V j ⟨j.val - 2046, by omega⟩ h i (by show j.val = 2046 + (j.val - 2046); omega)).trans (level11 V _ h i).2

end Nodes

/-! ## The reference's result at an index -/

section Result

/-- The reference's result array, as the run states it. -/
def refOut (V : Valuation τ sig (Elt Ideal)) : FVec Ideal S1x2048x16x128 .f32 :=
  transpose S1x2048x16x128 [0, 3, 1, 2] (Host.dotGeneral dot_S1x2047x16x128_S1x16x2048x2047_S1x16x128x2048_1_3_3_2_02_01 none (concatenate S1x2047x16x128 1 [⟨S1x1024x16x128, (res_main_v54 V)⟩, ⟨S1x512x16x128, (res_main_v109 V)⟩, ⟨S1x256x16x128, (res_main_v164 V)⟩, ⟨S1x128x16x128, (res_main_v219 V)⟩, ⟨S1x64x16x128, (res_main_v274 V)⟩, ⟨S1x32x16x128, (res_main_v329 V)⟩, ⟨S1x16x16x128, (res_main_v384 V)⟩, ⟨S1x8x16x128, (res_main_v439 V)⟩, ⟨S1x4x16x128, (res_main_v494 V)⟩, ⟨S1x2x16x128, (res_main_v549 V)⟩, ⟨S1x1x16x128, (addf (addf (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v578 V) (res_main_v586 V)))) (mulf (broadcastInDim S1x1x16x128 ![] bcast_S_S1x1x16x128 (constant S_ .f32 0x3F000000#32)) (addf (Host.slice S1x1x16x128 ![0, 0, 0, 0] ![1, 2, 1, 1] (res_main_v549 V) slicesBy_S1x2x16x128_S1x1x16x128_0s1_0s2_0s1_0s1) (Host.slice S1x1x16x128 ![0, 1, 0, 0] ![1, 2, 1, 1] (res_main_v549 V) slicesBy_S1x2x16x128_S1x1x16x128_0s1_1s2_0s1_0s1)))) (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v580 V) (res_main_v586 V)))) (shapeCast _ (extractStridedSlice S1x1x1x16x128 ![0, 0, 0, 0, 0] (res_main_v561 V) slices_S1x1x2x16x128_S1x1x1x16x128_0_0_0_0_0) shapeCasts_S1x1x1x16x128_S1x1x16x128))) (mulf (broadcastInDim S1x1x16x128 ![0, 1, 2, 3] bcast_S1x1x16x1_S1x1x16x128_0_1_2_3 (broadcastInDim S1x1x16x1 ![0, 1, 2] bcast_S1x1x16_S1x1x16x1_0_1_2 (Host.divf (res_main_v582 V) (res_main_v586 V)))) (shapeCast _ (extractStridedSlice S1x1x1x16x128 ![0, 0, 1, 0, 0] (res_main_v561 V) slices_S1x1x2x16x128_S1x1x1x16x128_0_0_1_0_0) shapeCasts_S1x1x1x16x128_S1x1x16x128)))⟩] concatenates_S1x1024x16x128_S1x512x16x128_S1x256x16x128_S1x128x16x128_S1x64x16x128_S1x32x16x128_S1x16x16x128_S1x8x16x128_S1x4x16x128_S1x2x16x128_S1x1x16x128_S1x2047x16x128_d1) (Host.divf (res_main_v616 V) (broadcastInDim S1x16x2048x2047 ![0, 1, 2, 3] bcast_S1x16x2048x1_S1x16x2048x2047_0_1_2_3 (broadcastInDim S1x16x2048x1 ![0, 1, 2] bcast_S1x16x2048_S1x16x2048x1_0_1_2 (Host.reduceAdd (res_main_v616 V) (constant S_ .f32 0x00000000#32) reducesTo_S1x16x2048x2047_S1x16x2048_d3 h_S_))))) transposes_S1x16x128x2048_S1x2048x16x128_0_3_1_2

/-- Query row q's score against node j in the specification: the inner product with the node's key row, scaled. -/
def nodeScore (V : Valuation τ sig (Elt Ideal)) (h : Fin 16) (q : Fin 2048) (j : Fin 2047) : EReal :=
  (∑ i : Fin 128, qOf V (ix4 0 q h i) * nodeK (rowsOf (kOf V) h) j.val i) * ((cS : ℝ) : EReal)

/-- The row's largest score, as the reference takes it. -/
def nodeMax (V : Valuation τ sig (Elt Ideal)) (h : Fin 16) (q : Fin 2048) : EReal :=
  max ⊥ ((Finset.univ : Finset (Fin 2047)).fold max ⊥ (nodeScore V h q))

set_option maxHeartbeats 2000000 in
/-- The reference's result at (0, q, h, d): the sum over the 2047 nodes of node j's value entry times the softmax weight
    of its score (each exponential taken after subtracting the row's largest score). -/
theorem refOut_apply (V : Valuation τ sig (Elt Ideal)) (q : Fin 2048) (h : Fin 16) (d : Fin 128) :
    refOut V (ix4 0 q h d)
      = ∑ j : Fin 2047, nodeV (rowsOf (kOf V) h) (rowsOf (vOf V) h) j.val d
          * Ideal.div (Ideal.exp (nodeScore V h q j - nodeMax V h q))
              (∑ j' : Fin 2047, Ideal.exp (nodeScore V h q j' - nodeMax V h q)) := by
  have hS : ∀ k : Fin 2047, res_main_v609 (F := Ideal) V (ix4 0 h q k) = nodeScore V h q k := fun k => by
    unfold res_main_v609
    refine (scoreNodes_apply _ _ _ h q k).trans ?_
    unfold nodeScore
    refine congrArg (fun x : EReal => x * ((cS : ℝ) : EReal)) (Finset.sum_congr rfl fun i _ => congrArg (fun x : EReal => qOf V (ix4 0 q h i) * x) ?_)
    exact KK_node V k h i
  have hM : rowMax (res_main_v609 (F := Ideal) V) h q = nodeMax V h q := by
    unfold rowMax nodeMax
    simp only [hS]
  have hE : ∀ k : Fin 2047, res_main_v616 (F := Ideal) V (ix4 0 h q k) = Ideal.exp (nodeScore V h q k - nodeMax V h q) :=
    fun k => by
      unfold res_main_v616
      refine (expNodes_apply _ _ _ _ _ _ h q k).trans ?_
      rw [hS k, hM]
  unfold refOut
  refine (attnTerm_apply _ _ _ _ _ _ _ q h d).trans ?_
  simp only [hE]
  refine Finset.sum_congr rfl fun k _ => congrArg (fun x : EReal => x * _) ?_
  exact KV_node V k h d

end Result

/-! ## Finiteness of what the result is made of, and the run restated -/

section Finite

/-- The head's rows of an array of reals are rows of reals. -/
theorem allFin_rowsOf {x : S1x2048x16x128.Idx → EReal} (hx : AllFin x) (h : Fin 16) (r : ℕ) : AllFin (rowsOf x h r) := by
  intro l
  unfold rowsOf
  split
  · exact hx _
  · exact isFin_zero

variable {kk vv : ℕ → Fin 128 → EReal}

/-- Every node's key row is a row of reals when the keys are. -/
theorem allFin_nodeK (hk : ∀ r, AllFin (kk r)) (j : ℕ) : AllFin (nodeK kk j) := by
  unfold nodeK
  split_ifs <;> exact allFin_keyL hk _ _

/-- Every node's value row is a row of reals when the keys and the values are. -/
theorem allFin_nodeV (hk : ∀ r, AllFin (kk r)) (hv : ∀ r, AllFin (vv r)) (j : ℕ) : AllFin (nodeV kk vv j) := by
  unfold nodeV
  split_ifs <;> exact (valKer_eq_valRef hk hv _ _).2

/-- Every score is a real when the queries and the keys are. -/
theorem isFin_nodeScore (V : Valuation τ sig (Elt Ideal)) (hq : AllFin (qOf V)) (hk : AllFin (kOf V)) (h : Fin 16)
    (q : Fin 2048) (j : Fin 2047) : IsFin (nodeScore V h q j) :=
  isFin_mul (isFin_sum _ _ fun i _ => isFin_mul (hq _) (allFin_nodeK (allFin_rowsOf hk h) j.val i)) (isFin_coe _)

/-- The row's largest score is a real. -/
theorem isFin_nodeMax (V : Valuation τ sig (Elt Ideal)) (hq : AllFin (qOf V)) (hk : AllFin (kOf V)) (h : Fin 16)
    (q : Fin 2048) : IsFin (nodeMax V h q) := by
  haveI : Nonempty (Fin 2047) := ⟨⟨0, by decide⟩⟩
  exact isFin_max_bot_left (isFin_fold_max_univ _ fun j => isFin_nodeScore V hq hk h q j)

end Finite

open Idealize.ShloMosaic.TcCoe Idealize.SL.Sem Idealize.ShloMosaic.StableHlo in
/-- The reference's run, its result named: every weakly fair execution of @main ends with the result buffer at refOut
    of the launch contents and the three arguments unchanged. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v622) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-! ## The result in the specification's own words -/

section InSpec
variable (kk vv : ℕ → Fin 128 → EReal)

/-- Among the 2047 nodes the two ways of laying the levels end to end name the same rows. -/
theorem nodeK_eq_nodeOf {j : ℕ} (hj : j < 2047) : nodeK kk j = nodeOf (keyL kk) j := by
  unfold nodeK nodeOf
  rw [if_pos hj]
  rfl
theorem nodeV_eq_nodeOf {j : ℕ} (hj : j < 2047) : nodeV kk vv j = nodeOf (valRef kk vv) j := by
  unfold nodeV nodeOf
  rw [if_pos hj]
  rfl

end InSpec

/-- The reference's result at (0, r, h, l) is the specification's attention of query row r of head h over the head's
    pooled key and value rows, the exponentials taken after subtracting the row's largest score. -/
theorem ref_spec (V : Valuation τ sig (Elt Ideal)) (r : Fin 2048) (h : Fin 16) (l : Fin 128) :
    refOut V (ix4 0 r h l)
      = attRef (fun i => qOf V (ix4 0 r h i)) (nodeOf (keyL (rowsOf (kOf V) h)))
          (nodeOf (valRef (rowsOf (kOf V) h) (rowsOf (vOf V) h))) (nodeMax V h r) l := by
  have hV : ∀ j : Fin 2047, nodeV (rowsOf (kOf V) h) (rowsOf (vOf V) h) j.val
      = nodeOf (valRef (rowsOf (kOf V) h) (rowsOf (vOf V) h)) j.val := fun j => nodeV_eq_nodeOf _ _ j.isLt
  have hs : ∀ j : Fin 2047, nodeScore V h r j
      = sRef (fun i => qOf V (ix4 0 r h i)) (nodeOf (keyL (rowsOf (kOf V) h))) j.val := fun j => by
    unfold nodeScore sRef
    rw [nodeK_eq_nodeOf _ j.isLt]
  rw [refOut_apply]
  unfold attRef
  simp only [hs, hV]

/-- A valuation taken from a memory at launch holds the memory's argument buffers. -/
theorem qOf_launch (m : (ℓ : Loc nD τ sig) → Buf (Elt Ideal) ℓ) (c : Dev nD) :
    qOf (Idealize.ShloMosaic.StableHlo.launchContents m c) = m ((c.tc : Thread nD τ).loc main_arg0) := rfl
theorem kOf_launch (m : (ℓ : Loc nD τ sig) → Buf (Elt Ideal) ℓ) (c : Dev nD) :
    kOf (Idealize.ShloMosaic.StableHlo.launchContents m c) = m ((c.tc : Thread nD τ).loc main_arg1) := rfl
theorem vOf_launch (m : (ℓ : Loc nD τ sig) → Buf (Elt Ideal) ℓ) (c : Dev nD) :
    vOf (Idealize.ShloMosaic.StableHlo.launchContents m c) = m ((c.tc : Thread nD τ).loc main_arg2) := rfl

end Cert.Proof.RefValue

end
-- ==== Proof.PreFinite.lean ====
/-
  From the precondition to real numbers: every entry of the three inputs is a finite real.

  The precondition compares the absolute value of each entry of q, k and v with the infinity word, takes the conjunction
  over each array, and the conjunction of the three. That it is all ones therefore says of every entry that its absolute
  value is below infinity, that is, that it is the coercion of a real number.
-/
import proofs.«208975_g36283883717458_cont_8to1_b_1954_30_alg».proof.Pre_finite_inputs
import proofs.«208975_g36283883717458_cont_8to1_b_1954_30_alg».proof.Proof.LibEFinite
import Idealize.ShloMosaic.Lib.ReduceAll
import Idealize.ShloMosaic.Lib.ValueIdx

noncomputable section

namespace Cert.Proof.PreFinite

open Idealize.ShloMosaic Cert.Gcn Cert.Pre_finite_inputs

instance : Subsingleton (Cert.Pre_finite_inputs.S_).Idx := ⟨fun a b => funext fun d => d.elim0⟩

variable [hF : Cert.Pre_finite_inputs.Facts]

/-- The precondition, all ones, makes each of the three arrays all-finite. -/
theorem allFin_of_pre (a0 a1 a2 : FVec Ideal S1x2048x16x128 .f32)
    (h : Cert.Pre_finite_inputs.fn (F := Ideal) a0 a1 a2 = fun _ => 1#1) : AllFin a0 ∧ AllFin a1 ∧ AllFin a2 := by
  have h0 := congrFun h ValueIdx.ix0
  dsimp only [Cert.Pre_finite_inputs.fn] at h0
  obtain ⟨h01, h2⟩ := IntOp.andi_eq_one.mp h0
  obtain ⟨h0', h1⟩ := IntOp.andi_eq_one.mp h01
  refine ⟨?_, ?_, ?_⟩
  · exact allFin_of_cmpf_olt_absf (fun _ => rfl) (fun i => Host.reduce_andi_all _ _ _ _ _ h0' i)
  · exact allFin_of_cmpf_olt_absf (fun _ => rfl) (fun i => Host.reduce_andi_all _ _ _ _ _ h1 i)
  · exact allFin_of_cmpf_olt_absf (fun _ => rfl) (fun i => Host.reduce_andi_all _ _ _ _ _ h2 i)

end Cert.Proof.PreFinite

end
-- ==== Proof.Algebraic.lean ====
/-
  The idealized kernel's result is the reference's, on finite inputs.

  At (0, row, head, lane) the kernel's result is its attention of q's row over the head's 2047 pooled rows and one zero
  row, the pooled values in the kernel's arrangement; the reference's is the softmax attention over the 2047 pooled rows,
  the pooled values in its own arrangement. The pooled values agree level by level on finite inputs, the scores agree
  because scaling the query first or the inner product after is the same on finite numbers, and the extra zero row is
  what the kernel's subtracted 1 removes.
-/
import proofs.«208975_g36283883717458_cont_8to1_b_1954_30_alg».proof.Proof.KerOut
import proofs.«208975_g36283883717458_cont_8to1_b_1954_30_alg».proof.Proof.TreeNodes
import proofs.«208975_g36283883717458_cont_8to1_b_1954_30_alg».proof.Proof.RefValue
import proofs.«208975_g36283883717458_cont_8to1_b_1954_30_alg».proof.Proof.PreFinite
import proofs.«208975_g36283883717458_cont_8to1_b_1954_30_alg».proof.Proof.Gen.Pre_finite_inputs
import proofs.«208975_g36283883717458_cont_8to1_b_1954_30_alg».proof.Defs

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

open Idealize.ShloMosaic.ValueIdx Cert.Gcn Cert.PoolLaws Cert.Proof.Spec

variable (m : (ℓ : Loc nD τ sig) → Buf (Elt Ideal) ℓ) (ρ : Dev nD → PrngReg)

/-- The result both programs end with, on device c: at (u, r, h, l) the kernel's attention of q's row r of head h over the
    head's pooled rows. -/
def vOut (c : Dev nD) : FVec Ideal S1x2048x16x128 .f32 := fun idx =>
  attKer (qRow m c (idx 1) (idx 2)) (nodeOf (keyL (kR m c (idx 2)))) (nodeOf (valKer (kR m c (idx 2)) (vR m c (idx 2)))) (idx 3)

/-- The kernel's run with its result named, given the result's reading at an index. -/
theorem ker_run
    (hko : ∀ (d : Dev nD) (W4 : Valuation τ sig (Elt Ideal)), G4 m d W4 → ∀ (r : Fin 2048) (h : Fin 16) (l : Fin 128),
      (opB (F := Ideal)).result W4 (Proc.devRef .tc main_v6) (ix4 (0 : Fin 1) r h l)
        = attKer (qRow m d r h) (nodeOf (keyL (kR m d h))) (nodeOf (valKer (kR m d h) (vR m d h))) l) :
    θ_run (Cert.KernelIdeal.defs (F := Ideal)) (Cert.KernelIdeal.threads (F := Ideal)) ⟨m, fun _ => 0, ρ⟩ (fun r => ∀ c : Dev nD,
      r.2.mem ((c.tc : Thread nD τ).loc main_v6) = vOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => by
    obtain ⟨W4, hG, hb⟩ := h c
    refine ⟨?_, ?_, ?_, ?_⟩
    · refine (hb (Proc.devRef .tc main_v6) (by decide)).trans (funext fun idx => ?_)
      obtain ⟨u, rr, hh, ll, rfl⟩ : ∃ (u : Fin 1) (rr : Fin 2048) (hh : Fin 16) (ll : Fin 128), idx = ix4 u rr hh ll :=
        ⟨idx 0, idx 1, idx 2, idx 3, eq_ix4 idx⟩
      obtain rfl : u = 0 := Subsingleton.elim _ _
      exact hko c W4 hG rr hh ll
    · exact (hb (Proc.devRef .tc main_arg0) (by decide)).trans (arg_kept m c W4 hG main_arg0 (by decide) (by decide) (by decide) (by decide) (by decide) (by decide) (by decide) (by decide))
    · exact (hb (Proc.devRef .tc main_arg1) (by decide)).trans (arg_kept m c W4 hG main_arg1 (by decide) (by decide) (by decide) (by decide) (by decide) (by decide) (by decide) (by decide))
    · exact (hb (Proc.devRef .tc main_arg2) (by decide)).trans (arg_kept m c W4 hG main_arg2 (by decide) (by decide) (by decide) (by decide) (by decide) (by decide) (by decide) (by decide)))
    (run_main (F := Ideal) m ρ)

/-- On finite rows, the kernel's attention over the kernel's arrangement of the pooled values is the reference's attention
    over the reference's arrangement, whatever real M the reference subtracts. -/
theorem out_join {q : Fin 128 → EReal} {kk vv : ℕ → Fin 128 → EReal} (hq : AllFin q) (hk : ∀ r, AllFin (kk r)) (hv : ∀ r, AllFin (vv r))
    {M : EReal} (hM : IsFin M) (l : Fin 128) :
    attKer q (nodeOf (keyL kk)) (nodeOf (valKer kk vv)) l = attRef q (nodeOf (keyL kk)) (nodeOf (valRef kk vv)) M l := by
  have e : nodeOf (valKer kk vv) = nodeOf (valRef kk vv) :=
    funext fun j => nodeOf_congr (fun ℓ r => (valKer_eq_valRef hk hv ℓ r).1) j
  rw [e]
  exact att_join hq (fun j => allFin_nodeOf (allFin_keyL hk) j) (fun j => allFin_nodeOf (fun ℓ r => (valKer_eq_valRef hk hv ℓ r).2) j)
    nodeOf_last nodeOf_last hM l

open Cert.Proof.RefValue in
/-- THE VALUE CLAIM, given the tree kernel's eleven levels read at an index: from memories agreeing on q, k and v, finite,
    both programs run to the end with the same result, entry by entry. -/
theorem algebraic_of (HK : LevelsK) (HV : LevelsV) : Cert.algebraic_KernelIdeal_ReferenceIdeal := by
  intro m ρ m' ρ' hpre hagree
  refine ⟨vOut m, ker_run m ρ (fun d W4 hG r h l => kerOut m (hK_of_levels HK) (hV_of_levels HV) d W4 hG r h l), ?_⟩
  refine (θ_run Cert.ReferenceIdeal.defs _ _).mono (fun _ hr c => ⟨(hr c).1.trans ?_, (hr c).2⟩) (Cert.Proof.RefValue.run_refOut m' ρ')
  obtain ⟨fq, fk, fv⟩ := Cert.Proof.PreFinite.allFin_of_pre _ _ _ (hpre c)
  have eq : qOf (StableHlo.launchContents m' c) = m (c, Proc.devRef .tc main_arg0) := (qOf_launch m' c).trans (hagree c).1
  have ek : kOf (StableHlo.launchContents m' c) = m (c, Proc.devRef .tc main_arg1) := (kOf_launch m' c).trans (hagree c).2.1
  have ev : vOf (StableHlo.launchContents m' c) = m (c, Proc.devRef .tc main_arg2) := (vOf_launch m' c).trans (hagree c).2.2
  funext idx
  obtain ⟨u, r, h, l, rfl⟩ : ∃ (u : Fin 1) (r : Fin 2048) (h : Fin 16) (l : Fin 128), idx = ix4 u r h l :=
    ⟨idx 0, idx 1, idx 2, idx 3, eq_ix4 idx⟩
  obtain rfl : u = 0 := Subsingleton.elim _ _
  have hM : IsFin (nodeMax (StableHlo.launchContents m' c) h r) :=
    isFin_nodeMax _ (by rw [eq]; exact fq) (by rw [ek]; exact fk) h r
  have hqrow : AllFin (qRow m c r h) := fun i => fq _
  have hkrows : ∀ r', AllFin (kR m c h r') := fun r' i => by
    unfold kR; split
    · exact fk _
    · exact ⟨0, EReal.coe_zero.symm⟩
  have hvrows : ∀ r', AllFin (vR m c h r') := fun r' i => by
    unfold vR; split
    · exact fv _
    · exact ⟨0, EReal.coe_zero.symm⟩
  have e1 : (fun i => qOf (StableHlo.launchContents m' c) (ix4 0 r h i)) = qRow m c r h := by
    funext i; rw [eq]; rfl
  have e2 : rowsOf (kOf (StableHlo.launchContents m' c)) h = kR m c h := by rw [ek]; rfl
  have e3 : rowsOf (vOf (StableHlo.launchContents m' c)) h = vR m c h := by rw [ev]; rfl
  rw [ref_spec, e1, e2, e3]
  show _ = attKer (qRow m c r h) (nodeOf (keyL (kR m c h))) (nodeOf (valKer (kR m c h) (vR m c h))) l
  exact (out_join hqrow hkrows hvrows hM l).symm

end Cert.Proof.KI

end
-- ==== Proof.TreePieces.lean ====
/-
  The tree kernel's two output blocks, row by row: which stored payload a row reads.

  A block is the eleven levels laid end to end, written level by level through disjoint blocks of rows; the last two
  rows share one two-row block, whose first row is level 11's row and whose second is the zero row. A row of the
  block lies in exactly one of the eleven blocks of rows, and reads that block's payload at its row within it.
-/
import proofs.«208975_g36283883717458_cont_8to1_b_1954_30_alg».proof.Proof.TreeBody
import Idealize.ShloMosaic.Lib.Pipeline.FrameBody
import Idealize.ShloMosaic.Lib.ValueIdx

set_option maxRecDepth 16384

noncomputable section

namespace Cert.Proof.KI

open Cert.KernelIdeal Cert.KernelIdeal.Gen

open Idealize.ShloMosaic Idealize.ShloMosaic.TcCoe
open Idealize.ShloMosaic.ValueIdx

variable {F : FTy → Type} [FloatOps F]

/-- An index whose row lies outside a block of rows lies outside the block's rectangle. -/
theorem not_mem_rows {size : Fin 3 → ℕ} {o : ℕ} (inb : ∀ a, (![0, o, 0] : Fin 3 → ℕ) a + size a ≤ S1x2048x128.size a) (y : S1x2048x128.Idx)
    (n' : ℕ) (hs1 : size 1 = n') (h : (y 1).val < o ∨ o + n' ≤ (y 1).val) :
    y ∉ (Rect.unit (s := S1x2048x128) ![0, o, 0] size inb).set := by
  intro hm
  have h1 : o ≤ (y 1).val ∧ (y 1).val < o + size 1 := (Rect.mem_set_unit.mp hm) 1
  rw [hs1] at h1; omega

/-! ## The eleven blocks of rows, over any payloads -/

theorem canon_at_2046 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 2) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨2046 + r.val, by have := r.isLt; omega⟩ : Fin 2048) l)
      = p0 (ix3 (0 : Fin 1) r l) := by
  have hr := r.isLt
  have e : (ix3 (0 : Fin 1) (⟨2046 + r.val, by omega⟩ : Fin 2048) l : S1x2048x128.Idx) = tR2046.emb (ix3 (0 : Fin 1) r l) :=
    funext fun a => Fin.ext (by
      match a with
      | ⟨0, _⟩ => rfl
      | ⟨1, _⟩ => show 2046 + r.val = 2046 + 1 * r.val; omega
      | ⟨2, _⟩ => show l.val = 0 + 1 * l.val; omega)
  exact (congrArg (View.canon _) e).trans (View.canon_cons_emb tR2046 p0 _ _)
theorem canon_at_2044 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 2) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨2044 + r.val, by have := r.isLt; omega⟩ : Fin 2048) l)
      = p1 (ix3 (0 : Fin 1) r l) := by
  have hr := r.isLt
  have hn0 : (ix3 (0 : Fin 1) (⟨2044 + r.val, by omega⟩ : Fin 2048) l : S1x2048x128.Idx) ∉ tR2046.set :=
    not_mem_rows inb_S1x2048x128_S1x2x128_0_2046_0 (ix3 (0 : Fin 1) (⟨2044 + r.val, by omega⟩ : Fin 2048) l) 2 rfl (Or.inl (by show 2044 + r.val < 2046; omega))
  refine (View.canon_cons_of_not_mem (⟨tR2046, p0⟩ : View.Piece (Elt F) S1x2048x128 .bf16) _ hn0).trans ?_
  have e : (ix3 (0 : Fin 1) (⟨2044 + r.val, by omega⟩ : Fin 2048) l : S1x2048x128.Idx) = tR2044.emb (ix3 (0 : Fin 1) r l) :=
    funext fun a => Fin.ext (by
      match a with
      | ⟨0, _⟩ => rfl
      | ⟨1, _⟩ => show 2044 + r.val = 2044 + 1 * r.val; omega
      | ⟨2, _⟩ => show l.val = 0 + 1 * l.val; omega)
  exact (congrArg (View.canon _) e).trans (View.canon_cons_emb tR2044 p1 _ _)
theorem canon_at_2040 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 4) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨2040 + r.val, by have := r.isLt; omega⟩ : Fin 2048) l)
      = p2 (ix3 (0 : Fin 1) r l) := by
  have hr := r.isLt
  have hn0 : (ix3 (0 : Fin 1) (⟨2040 + r.val, by omega⟩ : Fin 2048) l : S1x2048x128.Idx) ∉ tR2046.set :=
    not_mem_rows inb_S1x2048x128_S1x2x128_0_2046_0 (ix3 (0 : Fin 1) (⟨2040 + r.val, by omega⟩ : Fin 2048) l) 2 rfl (Or.inl (by show 2040 + r.val < 2046; omega))
  have hn1 : (ix3 (0 : Fin 1) (⟨2040 + r.val, by omega⟩ : Fin 2048) l : S1x2048x128.Idx) ∉ tR2044.set :=
    not_mem_rows inb_S1x2048x128_S1x2x128_0_2044_0 (ix3 (0 : Fin 1) (⟨2040 + r.val, by omega⟩ : Fin 2048) l) 2 rfl (Or.inl (by show 2040 + r.val < 2044; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  have e : (ix3 (0 : Fin 1) (⟨2040 + r.val, by omega⟩ : Fin 2048) l : S1x2048x128.Idx) = tR2040.emb (ix3 (0 : Fin 1) r l) :=
    funext fun a => Fin.ext (by
      match a with
      | ⟨0, _⟩ => rfl
      | ⟨1, _⟩ => show 2040 + r.val = 2040 + 1 * r.val; omega
      | ⟨2, _⟩ => show l.val = 0 + 1 * l.val; omega)
  exact (congrArg (View.canon _) e).trans (View.canon_cons_emb tR2040 p2 _ _)
theorem canon_at_2032 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 8) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨2032 + r.val, by have := r.isLt; omega⟩ : Fin 2048) l)
      = p3 (ix3 (0 : Fin 1) r l) := by
  have hr := r.isLt
  have hn0 : (ix3 (0 : Fin 1) (⟨2032 + r.val, by omega⟩ : Fin 2048) l : S1x2048x128.Idx) ∉ tR2046.set :=
    not_mem_rows inb_S1x2048x128_S1x2x128_0_2046_0 (ix3 (0 : Fin 1) (⟨2032 + r.val, by omega⟩ : Fin 2048) l) 2 rfl (Or.inl (by show 2032 + r.val < 2046; omega))
  have hn1 : (ix3 (0 : Fin 1) (⟨2032 + r.val, by omega⟩ : Fin 2048) l : S1x2048x128.Idx) ∉ tR2044.set :=
    not_mem_rows inb_S1x2048x128_S1x2x128_0_2044_0 (ix3 (0 : Fin 1) (⟨2032 + r.val, by omega⟩ : Fin 2048) l) 2 rfl (Or.inl (by show 2032 + r.val < 2044; omega))
  have hn2 : (ix3 (0 : Fin 1) (⟨2032 + r.val, by omega⟩ : Fin 2048) l : S1x2048x128.Idx) ∉ tR2040.set :=
    not_mem_rows inb_S1x2048x128_S1x4x128_0_2040_0 (ix3 (0 : Fin 1) (⟨2032 + r.val, by omega⟩ : Fin 2048) l) 4 rfl (Or.inl (by show 2032 + r.val < 2040; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  have e : (ix3 (0 : Fin 1) (⟨2032 + r.val, by omega⟩ : Fin 2048) l : S1x2048x128.Idx) = tR2032.emb (ix3 (0 : Fin 1) r l) :=
    funext fun a => Fin.ext (by
      match a with
      | ⟨0, _⟩ => rfl
      | ⟨1, _⟩ => show 2032 + r.val = 2032 + 1 * r.val; omega
      | ⟨2, _⟩ => show l.val = 0 + 1 * l.val; omega)
  exact (congrArg (View.canon _) e).trans (View.canon_cons_emb tR2032 p3 _ _)
theorem canon_at_2016 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 16) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨2016 + r.val, by have := r.isLt; omega⟩ : Fin 2048) l)
      = p4 (ix3 (0 : Fin 1) r l) := by
  have hr := r.isLt
  have hn0 : (ix3 (0 : Fin 1) (⟨2016 + r.val, by omega⟩ : Fin 2048) l : S1x2048x128.Idx) ∉ tR2046.set :=
    not_mem_rows inb_S1x2048x128_S1x2x128_0_2046_0 (ix3 (0 : Fin 1) (⟨2016 + r.val, by omega⟩ : Fin 2048) l) 2 rfl (Or.inl (by show 2016 + r.val < 2046; omega))
  have hn1 : (ix3 (0 : Fin 1) (⟨2016 + r.val, by omega⟩ : Fin 2048) l : S1x2048x128.Idx) ∉ tR2044.set :=
    not_mem_rows inb_S1x2048x128_S1x2x128_0_2044_0 (ix3 (0 : Fin 1) (⟨2016 + r.val, by omega⟩ : Fin 2048) l) 2 rfl (Or.inl (by show 2016 + r.val < 2044; omega))
  have hn2 : (ix3 (0 : Fin 1) (⟨2016 + r.val, by omega⟩ : Fin 2048) l : S1x2048x128.Idx) ∉ tR2040.set :=
    not_mem_rows inb_S1x2048x128_S1x4x128_0_2040_0 (ix3 (0 : Fin 1) (⟨2016 + r.val, by omega⟩ : Fin 2048) l) 4 rfl (Or.inl (by show 2016 + r.val < 2040; omega))
  have hn3 : (ix3 (0 : Fin 1) (⟨2016 + r.val, by omega⟩ : Fin 2048) l : S1x2048x128.Idx) ∉ tR2032.set :=
    not_mem_rows inb_S1x2048x128_S1x8x128_0_2032_0 (ix3 (0 : Fin 1) (⟨2016 + r.val, by omega⟩ : Fin 2048) l) 8 rfl (Or.inl (by show 2016 + r.val < 2032; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  have e : (ix3 (0 : Fin 1) (⟨2016 + r.val, by omega⟩ : Fin 2048) l : S1x2048x128.Idx) = tR2016.emb (ix3 (0 : Fin 1) r l) :=
    funext fun a => Fin.ext (by
      match a with
      | ⟨0, _⟩ => rfl
      | ⟨1, _⟩ => show 2016 + r.val = 2016 + 1 * r.val; omega
      | ⟨2, _⟩ => show l.val = 0 + 1 * l.val; omega)
  exact (congrArg (View.canon _) e).trans (View.canon_cons_emb tR2016 p4 _ _)
theorem canon_at_1984 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 32) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨1984 + r.val, by have := r.isLt; omega⟩ : Fin 2048) l)
      = p5 (ix3 (0 : Fin 1) r l) := by
  have hr := r.isLt
  have hn0 : (ix3 (0 : Fin 1) (⟨1984 + r.val, by omega⟩ : Fin 2048) l : S1x2048x128.Idx) ∉ tR2046.set :=
    not_mem_rows inb_S1x2048x128_S1x2x128_0_2046_0 (ix3 (0 : Fin 1) (⟨1984 + r.val, by omega⟩ : Fin 2048) l) 2 rfl (Or.inl (by show 1984 + r.val < 2046; omega))
  have hn1 : (ix3 (0 : Fin 1) (⟨1984 + r.val, by omega⟩ : Fin 2048) l : S1x2048x128.Idx) ∉ tR2044.set :=
    not_mem_rows inb_S1x2048x128_S1x2x128_0_2044_0 (ix3 (0 : Fin 1) (⟨1984 + r.val, by omega⟩ : Fin 2048) l) 2 rfl (Or.inl (by show 1984 + r.val < 2044; omega))
  have hn2 : (ix3 (0 : Fin 1) (⟨1984 + r.val, by omega⟩ : Fin 2048) l : S1x2048x128.Idx) ∉ tR2040.set :=
    not_mem_rows inb_S1x2048x128_S1x4x128_0_2040_0 (ix3 (0 : Fin 1) (⟨1984 + r.val, by omega⟩ : Fin 2048) l) 4 rfl (Or.inl (by show 1984 + r.val < 2040; omega))
  have hn3 : (ix3 (0 : Fin 1) (⟨1984 + r.val, by omega⟩ : Fin 2048) l : S1x2048x128.Idx) ∉ tR2032.set :=
    not_mem_rows inb_S1x2048x128_S1x8x128_0_2032_0 (ix3 (0 : Fin 1) (⟨1984 + r.val, by omega⟩ : Fin 2048) l) 8 rfl (Or.inl (by show 1984 + r.val < 2032; omega))
  have hn4 : (ix3 (0 : Fin 1) (⟨1984 + r.val, by omega⟩ : Fin 2048) l : S1x2048x128.Idx) ∉ tR2016.set :=
    not_mem_rows inb_S1x2048x128_S1x16x128_0_2016_0 (ix3 (0 : Fin 1) (⟨1984 + r.val, by omega⟩ : Fin 2048) l) 16 rfl (Or.inl (by show 1984 + r.val < 2016; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  refine (View.canon_cons_of_not_mem (⟨tR2016, p4⟩ : View.Piece (Elt F) S1x2048x128 .bf16) _ hn4).trans ?_
  have e : (ix3 (0 : Fin 1) (⟨1984 + r.val, by omega⟩ : Fin 2048) l : S1x2048x128.Idx) = tR1984.emb (ix3 (0 : Fin 1) r l) :=
    funext fun a => Fin.ext (by
      match a with
      | ⟨0, _⟩ => rfl
      | ⟨1, _⟩ => show 1984 + r.val = 1984 + 1 * r.val; omega
      | ⟨2, _⟩ => show l.val = 0 + 1 * l.val; omega)
  exact (congrArg (View.canon _) e).trans (View.canon_cons_emb tR1984 p5 _ _)
theorem canon_at_1920 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 64) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨1920 + r.val, by have := r.isLt; omega⟩ : Fin 2048) l)
      = p6 (ix3 (0 : Fin 1) r l) := by
  have hr := r.isLt
  have hn0 : (ix3 (0 : Fin 1) (⟨1920 + r.val, by omega⟩ : Fin 2048) l : S1x2048x128.Idx) ∉ tR2046.set :=
    not_mem_rows inb_S1x2048x128_S1x2x128_0_2046_0 (ix3 (0 : Fin 1) (⟨1920 + r.val, by omega⟩ : Fin 2048) l) 2 rfl (Or.inl (by show 1920 + r.val < 2046; omega))
  have hn1 : (ix3 (0 : Fin 1) (⟨1920 + r.val, by omega⟩ : Fin 2048) l : S1x2048x128.Idx) ∉ tR2044.set :=
    not_mem_rows inb_S1x2048x128_S1x2x128_0_2044_0 (ix3 (0 : Fin 1) (⟨1920 + r.val, by omega⟩ : Fin 2048) l) 2 rfl (Or.inl (by show 1920 + r.val < 2044; omega))
  have hn2 : (ix3 (0 : Fin 1) (⟨1920 + r.val, by omega⟩ : Fin 2048) l : S1x2048x128.Idx) ∉ tR2040.set :=
    not_mem_rows inb_S1x2048x128_S1x4x128_0_2040_0 (ix3 (0 : Fin 1) (⟨1920 + r.val, by omega⟩ : Fin 2048) l) 4 rfl (Or.inl (by show 1920 + r.val < 2040; omega))
  have hn3 : (ix3 (0 : Fin 1) (⟨1920 + r.val, by omega⟩ : Fin 2048) l : S1x2048x128.Idx) ∉ tR2032.set :=
    not_mem_rows inb_S1x2048x128_S1x8x128_0_2032_0 (ix3 (0 : Fin 1) (⟨1920 + r.val, by omega⟩ : Fin 2048) l) 8 rfl (Or.inl (by show 1920 + r.val < 2032; omega))
  have hn4 : (ix3 (0 : Fin 1) (⟨1920 + r.val, by omega⟩ : Fin 2048) l : S1x2048x128.Idx) ∉ tR2016.set :=
    not_mem_rows inb_S1x2048x128_S1x16x128_0_2016_0 (ix3 (0 : Fin 1) (⟨1920 + r.val, by omega⟩ : Fin 2048) l) 16 rfl (Or.inl (by show 1920 + r.val < 2016; omega))
  have hn5 : (ix3 (0 : Fin 1) (⟨1920 + r.val, by omega⟩ : Fin 2048) l : S1x2048x128.Idx) ∉ tR1984.set :=
    not_mem_rows inb_S1x2048x128_S1x32x128_0_1984_0 (ix3 (0 : Fin 1) (⟨1920 + r.val, by omega⟩ : Fin 2048) l) 32 rfl (Or.inl (by show 1920 + r.val < 1984; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  refine (View.canon_cons_of_not_mem (⟨tR2016, p4⟩ : View.Piece (Elt F) S1x2048x128 .bf16) _ hn4).trans ?_
  refine (View.canon_cons_of_not_mem (⟨tR1984, p5⟩ : View.Piece (Elt F) S1x2048x128 .bf16) _ hn5).trans ?_
  have e : (ix3 (0 : Fin 1) (⟨1920 + r.val, by omega⟩ : Fin 2048) l : S1x2048x128.Idx) = tR1920.emb (ix3 (0 : Fin 1) r l) :=
    funext fun a => Fin.ext (by
      match a with
      | ⟨0, _⟩ => rfl
      | ⟨1, _⟩ => show 1920 + r.val = 1920 + 1 * r.val; omega
      | ⟨2, _⟩ => show l.val = 0 + 1 * l.val; omega)
  exact (congrArg (View.canon _) e).trans (View.canon_cons_emb tR1920 p6 _ _)
theorem canon_at_1792 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 128) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨1792 + r.val, by have := r.isLt; omega⟩ : Fin 2048) l)
      = p7 (ix3 (0 : Fin 1) r l) := by
  have hr := r.isLt
  have hn0 : (ix3 (0 : Fin 1) (⟨1792 + r.val, by omega⟩ : Fin 2048) l : S1x2048x128.Idx) ∉ tR2046.set :=
    not_mem_rows inb_S1x2048x128_S1x2x128_0_2046_0 (ix3 (0 : Fin 1) (⟨1792 + r.val, by omega⟩ : Fin 2048) l) 2 rfl (Or.inl (by show 1792 + r.val < 2046; omega))
  have hn1 : (ix3 (0 : Fin 1) (⟨1792 + r.val, by omega⟩ : Fin 2048) l : S1x2048x128.Idx) ∉ tR2044.set :=
    not_mem_rows inb_S1x2048x128_S1x2x128_0_2044_0 (ix3 (0 : Fin 1) (⟨1792 + r.val, by omega⟩ : Fin 2048) l) 2 rfl (Or.inl (by show 1792 + r.val < 2044; omega))
  have hn2 : (ix3 (0 : Fin 1) (⟨1792 + r.val, by omega⟩ : Fin 2048) l : S1x2048x128.Idx) ∉ tR2040.set :=
    not_mem_rows inb_S1x2048x128_S1x4x128_0_2040_0 (ix3 (0 : Fin 1) (⟨1792 + r.val, by omega⟩ : Fin 2048) l) 4 rfl (Or.inl (by show 1792 + r.val < 2040; omega))
  have hn3 : (ix3 (0 : Fin 1) (⟨1792 + r.val, by omega⟩ : Fin 2048) l : S1x2048x128.Idx) ∉ tR2032.set :=
    not_mem_rows inb_S1x2048x128_S1x8x128_0_2032_0 (ix3 (0 : Fin 1) (⟨1792 + r.val, by omega⟩ : Fin 2048) l) 8 rfl (Or.inl (by show 1792 + r.val < 2032; omega))
  have hn4 : (ix3 (0 : Fin 1) (⟨1792 + r.val, by omega⟩ : Fin 2048) l : S1x2048x128.Idx) ∉ tR2016.set :=
    not_mem_rows inb_S1x2048x128_S1x16x128_0_2016_0 (ix3 (0 : Fin 1) (⟨1792 + r.val, by omega⟩ : Fin 2048) l) 16 rfl (Or.inl (by show 1792 + r.val < 2016; omega))
  have hn5 : (ix3 (0 : Fin 1) (⟨1792 + r.val, by omega⟩ : Fin 2048) l : S1x2048x128.Idx) ∉ tR1984.set :=
    not_mem_rows inb_S1x2048x128_S1x32x128_0_1984_0 (ix3 (0 : Fin 1) (⟨1792 + r.val, by omega⟩ : Fin 2048) l) 32 rfl (Or.inl (by show 1792 + r.val < 1984; omega))
  have hn6 : (ix3 (0 : Fin 1) (⟨1792 + r.val, by omega⟩ : Fin 2048) l : S1x2048x128.Idx) ∉ tR1920.set :=
    not_mem_rows inb_S1x2048x128_S1x64x128_0_1920_0 (ix3 (0 : Fin 1) (⟨1792 + r.val, by omega⟩ : Fin 2048) l) 64 rfl (Or.inl (by show 1792 + r.val < 1920; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  refine (View.canon_cons_of_not_mem (⟨tR2016, p4⟩ : View.Piece (Elt F) S1x2048x128 .bf16) _ hn4).trans ?_
  refine (View.canon_cons_of_not_mem (⟨tR1984, p5⟩ : View.Piece (Elt F) S1x2048x128 .bf16) _ hn5).trans ?_
  refine (View.canon_cons_of_not_mem (⟨tR1920, p6⟩ : View.Piece (Elt F) S1x2048x128 .bf16) _ hn6).trans ?_
  have e : (ix3 (0 : Fin 1) (⟨1792 + r.val, by omega⟩ : Fin 2048) l : S1x2048x128.Idx) = tR1792.emb (ix3 (0 : Fin 1) r l) :=
    funext fun a => Fin.ext (by
      match a with
      | ⟨0, _⟩ => rfl
      | ⟨1, _⟩ => show 1792 + r.val = 1792 + 1 * r.val; omega
      | ⟨2, _⟩ => show l.val = 0 + 1 * l.val; omega)
  exact (congrArg (View.canon _) e).trans (View.canon_cons_emb tR1792 p7 _ _)
theorem canon_at_1536 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 256) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨1536 + r.val, by have := r.isLt; omega⟩ : Fin 2048) l)
      = p8 (ix3 (0 : Fin 1) r l) := by
  have hr := r.isLt
  have hn0 : (ix3 (0 : Fin 1) (⟨1536 + r.val, by omega⟩ : Fin 2048) l : S1x2048x128.Idx) ∉ tR2046.set :=
    not_mem_rows inb_S1x2048x128_S1x2x128_0_2046_0 (ix3 (0 : Fin 1) (⟨1536 + r.val, by omega⟩ : Fin 2048) l) 2 rfl (Or.inl (by show 1536 + r.val < 2046; omega))
  have hn1 : (ix3 (0 : Fin 1) (⟨1536 + r.val, by omega⟩ : Fin 2048) l : S1x2048x128.Idx) ∉ tR2044.set :=
    not_mem_rows inb_S1x2048x128_S1x2x128_0_2044_0 (ix3 (0 : Fin 1) (⟨1536 + r.val, by omega⟩ : Fin 2048) l) 2 rfl (Or.inl (by show 1536 + r.val < 2044; omega))
  have hn2 : (ix3 (0 : Fin 1) (⟨1536 + r.val, by omega⟩ : Fin 2048) l : S1x2048x128.Idx) ∉ tR2040.set :=
    not_mem_rows inb_S1x2048x128_S1x4x128_0_2040_0 (ix3 (0 : Fin 1) (⟨1536 + r.val, by omega⟩ : Fin 2048) l) 4 rfl (Or.inl (by show 1536 + r.val < 2040; omega))
  have hn3 : (ix3 (0 : Fin 1) (⟨1536 + r.val, by omega⟩ : Fin 2048) l : S1x2048x128.Idx) ∉ tR2032.set :=
    not_mem_rows inb_S1x2048x128_S1x8x128_0_2032_0 (ix3 (0 : Fin 1) (⟨1536 + r.val, by omega⟩ : Fin 2048) l) 8 rfl (Or.inl (by show 1536 + r.val < 2032; omega))
  have hn4 : (ix3 (0 : Fin 1) (⟨1536 + r.val, by omega⟩ : Fin 2048) l : S1x2048x128.Idx) ∉ tR2016.set :=
    not_mem_rows inb_S1x2048x128_S1x16x128_0_2016_0 (ix3 (0 : Fin 1) (⟨1536 + r.val, by omega⟩ : Fin 2048) l) 16 rfl (Or.inl (by show 1536 + r.val < 2016; omega))
  have hn5 : (ix3 (0 : Fin 1) (⟨1536 + r.val, by omega⟩ : Fin 2048) l : S1x2048x128.Idx) ∉ tR1984.set :=
    not_mem_rows inb_S1x2048x128_S1x32x128_0_1984_0 (ix3 (0 : Fin 1) (⟨1536 + r.val, by omega⟩ : Fin 2048) l) 32 rfl (Or.inl (by show 1536 + r.val < 1984; omega))
  have hn6 : (ix3 (0 : Fin 1) (⟨1536 + r.val, by omega⟩ : Fin 2048) l : S1x2048x128.Idx) ∉ tR1920.set :=
    not_mem_rows inb_S1x2048x128_S1x64x128_0_1920_0 (ix3 (0 : Fin 1) (⟨1536 + r.val, by omega⟩ : Fin 2048) l) 64 rfl (Or.inl (by show 1536 + r.val < 1920; omega))
  have hn7 : (ix3 (0 : Fin 1) (⟨1536 + r.val, by omega⟩ : Fin 2048) l : S1x2048x128.Idx) ∉ tR1792.set :=
    not_mem_rows inb_S1x2048x128_S1x128x128_0_1792_0 (ix3 (0 : Fin 1) (⟨1536 + r.val, by omega⟩ : Fin 2048) l) 128 rfl (Or.inl (by show 1536 + r.val < 1792; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  refine (View.canon_cons_of_not_mem (⟨tR2016, p4⟩ : View.Piece (Elt F) S1x2048x128 .bf16) _ hn4).trans ?_
  refine (View.canon_cons_of_not_mem (⟨tR1984, p5⟩ : View.Piece (Elt F) S1x2048x128 .bf16) _ hn5).trans ?_
  refine (View.canon_cons_of_not_mem (⟨tR1920, p6⟩ : View.Piece (Elt F) S1x2048x128 .bf16) _ hn6).trans ?_
  refine (View.canon_cons_of_not_mem (⟨tR1792, p7⟩ : View.Piece (Elt F) S1x2048x128 .bf16) _ hn7).trans ?_
  have e : (ix3 (0 : Fin 1) (⟨1536 + r.val, by omega⟩ : Fin 2048) l : S1x2048x128.Idx) = tR1536.emb (ix3 (0 : Fin 1) r l) :=
    funext fun a => Fin.ext (by
      match a with
      | ⟨0, _⟩ => rfl
      | ⟨1, _⟩ => show 1536 + r.val = 1536 + 1 * r.val; omega
      | ⟨2, _⟩ => show l.val = 0 + 1 * l.val; omega)
  exact (congrArg (View.canon _) e).trans (View.canon_cons_emb tR1536 p8 _ _)
theorem canon_at_1024 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 512) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨1024 + r.val, by have := r.isLt; omega⟩ : Fin 2048) l)
      = p9 (ix3 (0 : Fin 1) r l) := by
  have hr := r.isLt
  have hn0 : (ix3 (0 : Fin 1) (⟨1024 + r.val, by omega⟩ : Fin 2048) l : S1x2048x128.Idx) ∉ tR2046.set :=
    not_mem_rows inb_S1x2048x128_S1x2x128_0_2046_0 (ix3 (0 : Fin 1) (⟨1024 + r.val, by omega⟩ : Fin 2048) l) 2 rfl (Or.inl (by show 1024 + r.val < 2046; omega))
  have hn1 : (ix3 (0 : Fin 1) (⟨1024 + r.val, by omega⟩ : Fin 2048) l : S1x2048x128.Idx) ∉ tR2044.set :=
    not_mem_rows inb_S1x2048x128_S1x2x128_0_2044_0 (ix3 (0 : Fin 1) (⟨1024 + r.val, by omega⟩ : Fin 2048) l) 2 rfl (Or.inl (by show 1024 + r.val < 2044; omega))
  have hn2 : (ix3 (0 : Fin 1) (⟨1024 + r.val, by omega⟩ : Fin 2048) l : S1x2048x128.Idx) ∉ tR2040.set :=
    not_mem_rows inb_S1x2048x128_S1x4x128_0_2040_0 (ix3 (0 : Fin 1) (⟨1024 + r.val, by omega⟩ : Fin 2048) l) 4 rfl (Or.inl (by show 1024 + r.val < 2040; omega))
  have hn3 : (ix3 (0 : Fin 1) (⟨1024 + r.val, by omega⟩ : Fin 2048) l : S1x2048x128.Idx) ∉ tR2032.set :=
    not_mem_rows inb_S1x2048x128_S1x8x128_0_2032_0 (ix3 (0 : Fin 1) (⟨1024 + r.val, by omega⟩ : Fin 2048) l) 8 rfl (Or.inl (by show 1024 + r.val < 2032; omega))
  have hn4 : (ix3 (0 : Fin 1) (⟨1024 + r.val, by omega⟩ : Fin 2048) l : S1x2048x128.Idx) ∉ tR2016.set :=
    not_mem_rows inb_S1x2048x128_S1x16x128_0_2016_0 (ix3 (0 : Fin 1) (⟨1024 + r.val, by omega⟩ : Fin 2048) l) 16 rfl (Or.inl (by show 1024 + r.val < 2016; omega))
  have hn5 : (ix3 (0 : Fin 1) (⟨1024 + r.val, by omega⟩ : Fin 2048) l : S1x2048x128.Idx) ∉ tR1984.set :=
    not_mem_rows inb_S1x2048x128_S1x32x128_0_1984_0 (ix3 (0 : Fin 1) (⟨1024 + r.val, by omega⟩ : Fin 2048) l) 32 rfl (Or.inl (by show 1024 + r.val < 1984; omega))
  have hn6 : (ix3 (0 : Fin 1) (⟨1024 + r.val, by omega⟩ : Fin 2048) l : S1x2048x128.Idx) ∉ tR1920.set :=
    not_mem_rows inb_S1x2048x128_S1x64x128_0_1920_0 (ix3 (0 : Fin 1) (⟨1024 + r.val, by omega⟩ : Fin 2048) l) 64 rfl (Or.inl (by show 1024 + r.val < 1920; omega))
  have hn7 : (ix3 (0 : Fin 1) (⟨1024 + r.val, by omega⟩ : Fin 2048) l : S1x2048x128.Idx) ∉ tR1792.set :=
    not_mem_rows inb_S1x2048x128_S1x128x128_0_1792_0 (ix3 (0 : Fin 1) (⟨1024 + r.val, by omega⟩ : Fin 2048) l) 128 rfl (Or.inl (by show 1024 + r.val < 1792; omega))
  have hn8 : (ix3 (0 : Fin 1) (⟨1024 + r.val, by omega⟩ : Fin 2048) l : S1x2048x128.Idx) ∉ tR1536.set :=
    not_mem_rows inb_S1x2048x128_S1x256x128_0_1536_0 (ix3 (0 : Fin 1) (⟨1024 + r.val, by omega⟩ : Fin 2048) l) 256 rfl (Or.inl (by show 1024 + r.val < 1536; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  refine (View.canon_cons_of_not_mem (⟨tR2016, p4⟩ : View.Piece (Elt F) S1x2048x128 .bf16) _ hn4).trans ?_
  refine (View.canon_cons_of_not_mem (⟨tR1984, p5⟩ : View.Piece (Elt F) S1x2048x128 .bf16) _ hn5).trans ?_
  refine (View.canon_cons_of_not_mem (⟨tR1920, p6⟩ : View.Piece (Elt F) S1x2048x128 .bf16) _ hn6).trans ?_
  refine (View.canon_cons_of_not_mem (⟨tR1792, p7⟩ : View.Piece (Elt F) S1x2048x128 .bf16) _ hn7).trans ?_
  refine (View.canon_cons_of_not_mem (⟨tR1536, p8⟩ : View.Piece (Elt F) S1x2048x128 .bf16) _ hn8).trans ?_
  have e : (ix3 (0 : Fin 1) (⟨1024 + r.val, by omega⟩ : Fin 2048) l : S1x2048x128.Idx) = tR1024.emb (ix3 (0 : Fin 1) r l) :=
    funext fun a => Fin.ext (by
      match a with
      | ⟨0, _⟩ => rfl
      | ⟨1, _⟩ => show 1024 + r.val = 1024 + 1 * r.val; omega
      | ⟨2, _⟩ => show l.val = 0 + 1 * l.val; omega)
  exact (congrArg (View.canon _) e).trans (View.canon_cons_emb tR1024 p9 _ _)
theorem canon_at_0 (p0 : Vec F S1x2x128 .bf16) (p1 : Vec F S1x2x128 .bf16) (p2 : Vec F S1x4x128 .bf16) (p3 : Vec F S1x8x128 .bf16) (p4 : Vec F S1x16x128 .bf16) (p5 : Vec F S1x32x128 .bf16) (p6 : Vec F S1x64x128 .bf16) (p7 : Vec F S1x128x128 .bf16) (p8 : Vec F S1x256x128 .bf16) (p9 : Vec F S1x512x128 .bf16) (p10 : Vec F S1x1024x128 .bf16) (r : Fin 1024) (l : Fin 128) :
    View.canon ([⟨tR2046, p0⟩, ⟨tR2044, p1⟩, ⟨tR2040, p2⟩, ⟨tR2032, p3⟩, ⟨tR2016, p4⟩, ⟨tR1984, p5⟩, ⟨tR1920, p6⟩, ⟨tR1792, p7⟩, ⟨tR1536, p8⟩, ⟨tR1024, p9⟩, ⟨tR0, p10⟩] : List (View.Piece (Elt F) S1x2048x128 .bf16))
        (ix3 (0 : Fin 1) (⟨0 + r.val, by have := r.isLt; omega⟩ : Fin 2048) l)
      = p10 (ix3 (0 : Fin 1) r l) := by
  have hr := r.isLt
  have hn0 : (ix3 (0 : Fin 1) (⟨0 + r.val, by omega⟩ : Fin 2048) l : S1x2048x128.Idx) ∉ tR2046.set :=
    not_mem_rows inb_S1x2048x128_S1x2x128_0_2046_0 (ix3 (0 : Fin 1) (⟨0 + r.val, by omega⟩ : Fin 2048) l) 2 rfl (Or.inl (by show 0 + r.val < 2046; omega))
  have hn1 : (ix3 (0 : Fin 1) (⟨0 + r.val, by omega⟩ : Fin 2048) l : S1x2048x128.Idx) ∉ tR2044.set :=
    not_mem_rows inb_S1x2048x128_S1x2x128_0_2044_0 (ix3 (0 : Fin 1) (⟨0 + r.val, by omega⟩ : Fin 2048) l) 2 rfl (Or.inl (by show 0 + r.val < 2044; omega))
  have hn2 : (ix3 (0 : Fin 1) (⟨0 + r.val, by omega⟩ : Fin 2048) l : S1x2048x128.Idx) ∉ tR2040.set :=
    not_mem_rows inb_S1x2048x128_S1x4x128_0_2040_0 (ix3 (0 : Fin 1) (⟨0 + r.val, by omega⟩ : Fin 2048) l) 4 rfl (Or.inl (by show 0 + r.val < 2040; omega))
  have hn3 : (ix3 (0 : Fin 1) (⟨0 + r.val, by omega⟩ : Fin 2048) l : S1x2048x128.Idx) ∉ tR2032.set :=
    not_mem_rows inb_S1x2048x128_S1x8x128_0_2032_0 (ix3 (0 : Fin 1) (⟨0 + r.val, by omega⟩ : Fin 2048) l) 8 rfl (Or.inl (by show 0 + r.val < 2032; omega))
  have hn4 : (ix3 (0 : Fin 1) (⟨0 + r.val, by omega⟩ : Fin 2048) l : S1x2048x128.Idx) ∉ tR2016.set :=
    not_mem_rows inb_S1x2048x128_S1x16x128_0_2016_0 (ix3 (0 : Fin 1) (⟨0 + r.val, by omega⟩ : Fin 2048) l) 16 rfl (Or.inl (by show 0 + r.val < 2016; omega))
  have hn5 : (ix3 (0 : Fin 1) (⟨0 + r.val, by omega⟩ : Fin 2048) l : S1x2048x128.Idx) ∉ tR1984.set :=
    not_mem_rows inb_S1x2048x128_S1x32x128_0_1984_0 (ix3 (0 : Fin 1) (⟨0 + r.val, by omega⟩ : Fin 2048) l) 32 rfl (Or.inl (by show 0 + r.val < 1984; omega))
  have hn6 : (ix3 (0 : Fin 1) (⟨0 + r.val, by omega⟩ : Fin 2048) l : S1x2048x128.Idx) ∉ tR1920.set :=
    not_mem_rows inb_S1x2048x128_S1x64x128_0_1920_0 (ix3 (0 : Fin 1) (⟨0 + r.val, by omega⟩ : Fin 2048) l) 64 rfl (Or.inl (by show 0 + r.val < 1920; omega))
  have hn7 : (ix3 (0 : Fin 1) (⟨0 + r.val, by omega⟩ : Fin 2048) l : S1x2048x128.Idx) ∉ tR1792.set :=
    not_mem_rows inb_S1x2048x128_S1x128x128_0_1792_0 (ix3 (0 : Fin 1) (⟨0 + r.val, by omega⟩ : Fin 2048) l) 128 rfl (Or.inl (by show 0 + r.val < 1792; omega))
  have hn8 : (ix3 (0 : Fin 1) (⟨0 + r.val, by omega⟩ : Fin 2048) l : S1x2048x128.Idx) ∉ tR1536.set :=
    not_mem_rows inb_S1x2048x128_S1x256x128_0_1536_0 (ix3 (0 : Fin 1) (⟨0 + r.val, by omega⟩ : Fin 2048) l) 256 rfl (Or.inl (by show 0 + r.val < 1536; omega))
  have hn9 : (ix3 (0 : Fin 1) (⟨0 + r.val, by omega⟩ : Fin 2048) l : S1x2048x128.Idx) ∉ tR1024.set :=
    not_mem_rows inb_S1x2048x128_S1x512x128_0_1024_0 (ix3 (0 : Fin 1) (⟨0 + r.val, by omega⟩ : Fin 2048) l) 512 rfl (Or.inl (by show 0 + r.val < 1024; omega))
  refine (View.canon_cons_of_not_mem (⟨tR2046, p0⟩ : View.Piece (Elt F) S1x2048x128 .bf16) _ hn0).trans ?_
  refine (View.canon_cons_of_not_mem (⟨tR2044, p1⟩ : View.Piece (Elt F) S1x2048x128 .bf16) _ hn1).trans ?_
  refine (View.canon_cons_of_not_mem (⟨tR2040, p2⟩ : View.Piece (Elt F) S1x2048x128 .bf16) _ hn2).trans ?_
  refine (View.canon_cons_of_not_mem (⟨tR2032, p3⟩ : View.Piece (Elt F) S1x2048x128 .bf16) _ hn3).trans ?_
  refine (View.canon_cons_of_not_mem (⟨tR2016, p4⟩ : View.Piece (Elt F) S1x2048x128 .bf16) _ hn4).trans ?_
  refine (View.canon_cons_of_not_mem (⟨tR1984, p5⟩ : View.Piece (Elt F) S1x2048x128 .bf16) _ hn5).trans ?_
  refine (View.canon_cons_of_not_mem (⟨tR1920, p6⟩ : View.Piece (Elt F) S1x2048x128 .bf16) _ hn6).trans ?_
  refine (View.canon_cons_of_not_mem (⟨tR1792, p7⟩ : View.Piece (Elt F) S1x2048x128 .bf16) _ hn7).trans ?_
  refine (View.canon_cons_of_not_mem (⟨tR1536, p8⟩ : View.Piece (Elt F) S1x2048x128 .bf16) _ hn8).trans ?_
  refine (View.canon_cons_of_not_mem (⟨tR1024, p9⟩ : View.Piece (Elt F) S1x2048x128 .bf16) _ hn9).trans ?_
  have e : (ix3 (0 : Fin 1) (⟨0 + r.val, by omega⟩ : Fin 2048) l : S1x2048x128.Idx) = tR0.emb (ix3 (0 : Fin 1) r l) :=
    funext fun a => Fin.ext (by
      match a with
      | ⟨0, _⟩ => rfl
      | ⟨1, _⟩ => show 0 + r.val = 0 + 1 * r.val; omega
      | ⟨2, _⟩ => show l.val = 0 + 1 * l.val; omega)
  exact (congrArg (View.canon _) e).trans (View.canon_cons_emb tR0 p10 _ _)

/-! ## The two-row block's rows -/

theorem tRows2_row0 (a b : FVec F S1x1x128 .bf16) (l : Fin 128) :
    tRows2 a b (ix3 (0 : Fin 1) (0 : Fin 2) l) = a (ix3 (0 : Fin 1) (0 : Fin 1) l) := by
  have c1 : ¬ ∀ c : Fin S1x2x128.rank, (![0, 1, 0] : Fin 3 → ℕ) c ≤ ((ix3 (0 : Fin 1) (0 : Fin 2) l : S1x2x128.Idx) c).val
      ∧ ((ix3 (0 : Fin 1) (0 : Fin 2) l : S1x2x128.Idx) c).val < (![0, 1, 0] : Fin 3 → ℕ) c + S1x1x128.size (c.cast slices_S1x2x128_S1x1x128_0_1_0.1.symm) :=
    fun h => absurd (show (1 : ℕ) ≤ 0 from (h 1).1) (by omega)
  have c0 := (rows_cover (ix3 (0 : Fin 1) (0 : Fin 2) l) slices_S1x2x128_S1x1x128_0_0_0 slices_S1x2x128_S1x1x128_0_1_0).resolve_right c1
  unfold tRows2
  simp only [updateSlice, dif_neg c1, dif_pos c0]
  exact congrArg a (funext fun c => Fin.ext (by
    match c with
    | ⟨0, _⟩ => rfl
    | ⟨1, _⟩ => rfl
    | ⟨2, _⟩ => rfl))
theorem tRows2_row1 (a b : FVec F S1x1x128 .bf16) (l : Fin 128) :
    tRows2 a b (ix3 (0 : Fin 1) (1 : Fin 2) l) = b (ix3 (0 : Fin 1) (0 : Fin 1) l) := by
  have c0 : ¬ ∀ c : Fin S1x2x128.rank, (![0, 0, 0] : Fin 3 → ℕ) c ≤ ((ix3 (0 : Fin 1) (1 : Fin 2) l : S1x2x128.Idx) c).val
      ∧ ((ix3 (0 : Fin 1) (1 : Fin 2) l : S1x2x128.Idx) c).val < (![0, 0, 0] : Fin 3 → ℕ) c + S1x1x128.size (c.cast slices_S1x2x128_S1x1x128_0_0_0.1.symm) :=
    fun h => absurd (show (1 : ℕ) < 0 + 1 from (h 1).2) (by omega)
  have c1 := (rows_cover (ix3 (0 : Fin 1) (1 : Fin 2) l) slices_S1x2x128_S1x1x128_0_0_0 slices_S1x2x128_S1x1x128_0_1_0).resolve_left c0
  unfold tRows2
  simp only [updateSlice, dif_pos c1]
  exact congrArg b (funext fun c => Fin.ext (by
    match c with
    | ⟨0, _⟩ => rfl
    | ⟨1, _⟩ => rfl
    | ⟨2, _⟩ => rfl))

/-! ## The pooled keys' and the pooled values' blocks, level by level -/

/-- Level 1 of the pooled keys: rows 0 … 1023 of the block hold the level's stored payload. -/
theorem treeK_level1 (i : grid0.Coords) (x0 x1 : Vec F S2048x8x128 .f32) (r : Fin 1024) (l : Fin 128) :
    treeK i x0 x1 (ix3 (0 : Fin 1) (⟨0 + r.val, by have := r.isLt; omega⟩ : Fin 2048) l)
      = (k0_pay19 (t14 i x0 x1)) (ix3 (0 : Fin 1) r l) := by
  unfold treeK treeKtail
  exact canon_at_0 _ _ _ _ _ _ _ _ _ _ _ r l
/-- Level 1 of the pooled values. -/
theorem treeV_level1 (i : grid0.Coords) (x0 x1 : Vec F S2048x8x128 .f32) (r : Fin 1024) (l : Fin 128) :
    treeV i x0 x1 (ix3 (0 : Fin 1) (⟨0 + r.val, by have := r.isLt; omega⟩ : Fin 2048) l)
      = (k0_pay20 (t11 i x0 x1) (t39 i x0 x1) (t44 i x0 x1) (t45 i x0 x1)) (ix3 (0 : Fin 1) r l) := by
  unfold treeV treeVtail
  exact canon_at_0 _ _ _ _ _ _ _ _ _ _ _ r l
/-- Level 2 of the pooled keys: rows 1024 … 1535 of the block hold the level's stored payload. -/
theorem treeK_level2 (i : grid0.Coords) (x0 x1 : Vec F S2048x8x128 .f32) (r : Fin 512) (l : Fin 128) :
    treeK i x0 x1 (ix3 (0 : Fin 1) (⟨1024 + r.val, by have := r.isLt; omega⟩ : Fin 2048) l)
      = (k0_pay36 (t67 i x0 x1)) (ix3 (0 : Fin 1) r l) := by
  unfold treeK treeKtail
  exact canon_at_1024 _ _ _ _ _ _ _ _ _ _ _ r l
/-- Level 2 of the pooled values. -/
theorem treeV_level2 (i : grid0.Coords) (x0 x1 : Vec F S2048x8x128 .f32) (r : Fin 512) (l : Fin 128) :
    treeV i x0 x1 (ix3 (0 : Fin 1) (⟨1024 + r.val, by have := r.isLt; omega⟩ : Fin 2048) l)
      = (k0_pay37 (t63 i x0 x1) (t64 i x0 x1) (t84 i x0 x1) (t86 i x0 x1) (t88 i x0 x1) (t90 i x0 x1) tc22) (ix3 (0 : Fin 1) r l) := by
  unfold treeV treeVtail
  exact canon_at_1024 _ _ _ _ _ _ _ _ _ _ _ r l
/-- Level 3 of the pooled keys: rows 1536 … 1791 of the block hold the level's stored payload. -/
theorem treeK_level3 (i : grid0.Coords) (x0 x1 : Vec F S2048x8x128 .f32) (r : Fin 256) (l : Fin 128) :
    treeK i x0 x1 (ix3 (0 : Fin 1) (⟨1536 + r.val, by have := r.isLt; omega⟩ : Fin 2048) l)
      = (k0_pay49 (t120 i x0 x1)) (ix3 (0 : Fin 1) r l) := by
  unfold treeK treeKtail
  exact canon_at_1536 _ _ _ _ _ _ _ _ _ _ _ r l
/-- Level 3 of the pooled values. -/
theorem treeV_level3 (i : grid0.Coords) (x0 x1 : Vec F S2048x8x128 .f32) (r : Fin 256) (l : Fin 128) :
    treeV i x0 x1 (ix3 (0 : Fin 1) (⟨1536 + r.val, by have := r.isLt; omega⟩ : Fin 2048) l)
      = (k0_pay50 (t116 i x0 x1) (t117 i x0 x1) (t125 i x0 x1) (t130 i x0 x1) (t133 i x0 x1) (t135 i x0 x1)) (ix3 (0 : Fin 1) r l) := by
  unfold treeV treeVtail
  exact canon_at_1536 _ _ _ _ _ _ _ _ _ _ _ r l
/-- Level 4 of the pooled keys: rows 1792 … 1919 of the block hold the level's stored payload. -/
theorem treeK_level4 (i : grid0.Coords) (x0 x1 : Vec F S2048x8x128 .f32) (r : Fin 128) (l : Fin 128) :
    treeK i x0 x1 (ix3 (0 : Fin 1) (⟨1792 + r.val, by have := r.isLt; omega⟩ : Fin 2048) l)
      = (k0_pay60 (t173 i x0 x1)) (ix3 (0 : Fin 1) r l) := by
  unfold treeK treeKtail
  exact canon_at_1792 _ _ _ _ _ _ _ _ _ _ _ r l
/-- Level 4 of the pooled values. -/
theorem treeV_level4 (i : grid0.Coords) (x0 x1 : Vec F S2048x8x128 .f32) (r : Fin 128) (l : Fin 128) :
    treeV i x0 x1 (ix3 (0 : Fin 1) (⟨1792 + r.val, by have := r.isLt; omega⟩ : Fin 2048) l)
      = (k0_pay61 (t169 i x0 x1) (t170 i x0 x1) (t178 i x0 x1) (t181 i x0 x1)) (ix3 (0 : Fin 1) r l) := by
  unfold treeV treeVtail
  exact canon_at_1792 _ _ _ _ _ _ _ _ _ _ _ r l
/-- Level 5 of the pooled keys: rows 1920 … 1983 of the block hold the level's stored payload. -/
theorem treeK_level5 (i : grid0.Coords) (x0 x1 : Vec F S2048x8x128 .f32) (r : Fin 64) (l : Fin 128) :
    treeK i x0 x1 (ix3 (0 : Fin 1) (⟨1920 + r.val, by have := r.isLt; omega⟩ : Fin 2048) l)
      = (k0_pay70 (t226 i x0 x1)) (ix3 (0 : Fin 1) r l) := by
  unfold treeK treeKtail
  exact canon_at_1920 _ _ _ _ _ _ _ _ _ _ _ r l
/-- Level 5 of the pooled values. -/
theorem treeV_level5 (i : grid0.Coords) (x0 x1 : Vec F S2048x8x128 .f32) (r : Fin 64) (l : Fin 128) :
    treeV i x0 x1 (ix3 (0 : Fin 1) (⟨1920 + r.val, by have := r.isLt; omega⟩ : Fin 2048) l)
      = (k0_pay71 (t219 i x0 x1) (t222 i x0 x1) (t223 i x0 x1) (t226 i x0 x1) (t227 i x0 x1)) (ix3 (0 : Fin 1) r l) := by
  unfold treeV treeVtail
  exact canon_at_1920 _ _ _ _ _ _ _ _ _ _ _ r l
/-- Level 6 of the pooled keys: rows 1984 … 2015 of the block hold the level's stored payload. -/
theorem treeK_level6 (i : grid0.Coords) (x0 x1 : Vec F S2048x8x128 .f32) (r : Fin 32) (l : Fin 128) :
    treeK i x0 x1 (ix3 (0 : Fin 1) (⟨1984 + r.val, by have := r.isLt; omega⟩ : Fin 2048) l)
      = (k0_pay77 (t272 i x0 x1) (t273 i x0 x1)) (ix3 (0 : Fin 1) r l) := by
  unfold treeK treeKtail
  exact canon_at_1984 _ _ _ _ _ _ _ _ _ _ _ r l
/-- Level 6 of the pooled values. -/
theorem treeV_level6 (i : grid0.Coords) (x0 x1 : Vec F S2048x8x128 .f32) (r : Fin 32) (l : Fin 128) :
    treeV i x0 x1 (ix3 (0 : Fin 1) (⟨1984 + r.val, by have := r.isLt; omega⟩ : Fin 2048) l)
      = (k0_pay79 (t320 i x0 x1)) (ix3 (0 : Fin 1) r l) := by
  unfold treeV treeVtail
  exact canon_at_1984 _ _ _ _ _ _ _ _ _ _ _ r l
/-- Level 7 of the pooled keys: rows 2016 … 2031 of the block hold the level's stored payload. -/
theorem treeK_level7 (i : grid0.Coords) (x0 x1 : Vec F S2048x8x128 .f32) (r : Fin 16) (l : Fin 128) :
    treeK i x0 x1 (ix3 (0 : Fin 1) (⟨2016 + r.val, by have := r.isLt; omega⟩ : Fin 2048) l)
      = (k0_pay85 (t369 i x0 x1)) (ix3 (0 : Fin 1) r l) := by
  unfold treeK treeKtail
  exact canon_at_2016 _ _ _ _ _ _ _ _ _ _ _ r l
/-- Level 7 of the pooled values. -/
theorem treeV_level7 (i : grid0.Coords) (x0 x1 : Vec F S2048x8x128 .f32) (r : Fin 16) (l : Fin 128) :
    treeV i x0 x1 (ix3 (0 : Fin 1) (⟨2016 + r.val, by have := r.isLt; omega⟩ : Fin 2048) l)
      = (k0_pay86 (t368 i x0 x1)) (ix3 (0 : Fin 1) r l) := by
  unfold treeV treeVtail
  exact canon_at_2016 _ _ _ _ _ _ _ _ _ _ _ r l
/-- Level 8 of the pooled keys: rows 2032 … 2039 of the block hold the level's stored payload. -/
theorem treeK_level8 (i : grid0.Coords) (x0 x1 : Vec F S2048x8x128 .f32) (r : Fin 8) (l : Fin 128) :
    treeK i x0 x1 (ix3 (0 : Fin 1) (⟨2032 + r.val, by have := r.isLt; omega⟩ : Fin 2048) l)
      = (k0_pay104 (t385 i x0 x1)) (ix3 (0 : Fin 1) r l) := by
  unfold treeK treeKtail
  exact canon_at_2032 _ _ _ _ _ _ _ _ _ _ _ r l
/-- Level 8 of the pooled values. -/
theorem treeV_level8 (i : grid0.Coords) (x0 x1 : Vec F S2048x8x128 .f32) (r : Fin 8) (l : Fin 128) :
    treeV i x0 x1 (ix3 (0 : Fin 1) (⟨2032 + r.val, by have := r.isLt; omega⟩ : Fin 2048) l)
      = (k0_pay105 (t381 i x0 x1) (t382 i x0 x1) (t406 i x0 x1) (t410 i x0 x1) (t412 i x0 x1) (t413 i x0 x1)) (ix3 (0 : Fin 1) r l) := by
  unfold treeV treeVtail
  exact canon_at_2032 _ _ _ _ _ _ _ _ _ _ _ r l
/-- Level 9 of the pooled keys: rows 2040 … 2043 of the block hold the level's stored payload. -/
theorem treeK_level9 (i : grid0.Coords) (x0 x1 : Vec F S2048x8x128 .f32) (r : Fin 4) (l : Fin 128) :
    treeK i x0 x1 (ix3 (0 : Fin 1) (⟨2040 + r.val, by have := r.isLt; omega⟩ : Fin 2048) l)
      = (k0_pay120 (t438 i x0 x1)) (ix3 (0 : Fin 1) r l) := by
  unfold treeK treeKtail
  exact canon_at_2040 _ _ _ _ _ _ _ _ _ _ _ r l
/-- Level 9 of the pooled values. -/
theorem treeV_level9 (i : grid0.Coords) (x0 x1 : Vec F S2048x8x128 .f32) (r : Fin 4) (l : Fin 128) :
    treeV i x0 x1 (ix3 (0 : Fin 1) (⟨2040 + r.val, by have := r.isLt; omega⟩ : Fin 2048) l)
      = (k0_pay121 (t434 i x0 x1) (t435 i x0 x1) (t455 i x0 x1) (t457 i x0 x1) (t459 i x0 x1)) (ix3 (0 : Fin 1) r l) := by
  unfold treeV treeVtail
  exact canon_at_2040 _ _ _ _ _ _ _ _ _ _ _ r l
/-- Level 10 of the pooled keys: rows 2044 … 2045 of the block hold the level's stored payload. -/
theorem treeK_level10 (i : grid0.Coords) (x0 x1 : Vec F S2048x8x128 .f32) (r : Fin 2) (l : Fin 128) :
    treeK i x0 x1 (ix3 (0 : Fin 1) (⟨2044 + r.val, by have := r.isLt; omega⟩ : Fin 2048) l)
      = (k0_pay132 (t491 i x0 x1)) (ix3 (0 : Fin 1) r l) := by
  unfold treeK treeKtail
  exact canon_at_2044 _ _ _ _ _ _ _ _ _ _ _ r l
/-- Level 10 of the pooled values. -/
theorem treeV_level10 (i : grid0.Coords) (x0 x1 : Vec F S2048x8x128 .f32) (r : Fin 2) (l : Fin 128) :
    treeV i x0 x1 (ix3 (0 : Fin 1) (⟨2044 + r.val, by have := r.isLt; omega⟩ : Fin 2048) l)
      = (k0_pay133 (t487 i x0 x1) (t488 i x0 x1) (t496 i x0 x1) (t501 i x0 x1) (t503 i x0 x1)) (ix3 (0 : Fin 1) r l) := by
  unfold treeV treeVtail
  exact canon_at_2044 _ _ _ _ _ _ _ _ _ _ _ r l

/-- Row 2046 of the pooled keys is level 11's stored row; row 2047 the stored zero row. -/
theorem treeK_row2046 (i : grid0.Coords) (x0 x1 : Vec F S2048x8x128 .f32) (l : Fin 128) :
    treeK i x0 x1 (ix3 (0 : Fin 1) (⟨2046, by norm_num⟩ : Fin 2048) l) = (k0_pay142 (t544 i x0 x1)) (ix3 (0 : Fin 1) (0 : Fin 1) l) := by
  unfold treeK treeKtail
  exact (canon_at_2046 _ _ _ _ _ _ _ _ _ _ _ (0 : Fin 2) l).trans (tRows2_row0 _ _ l)
theorem treeK_row2047 (i : grid0.Coords) (x0 x1 : Vec F S2048x8x128 .f32) (l : Fin 128) :
    treeK i x0 x1 (ix3 (0 : Fin 1) (⟨2047, by norm_num⟩ : Fin 2048) l) = (k0_pay144 (F := F)) (ix3 (0 : Fin 1) (0 : Fin 1) l) := by
  unfold treeK treeKtail
  exact (canon_at_2046 _ _ _ _ _ _ _ _ _ _ _ (1 : Fin 2) l).trans (tRows2_row1 _ _ l)
/-- The same of the pooled values. -/
theorem treeV_row2046 (i : grid0.Coords) (x0 x1 : Vec F S2048x8x128 .f32) (l : Fin 128) :
    treeV i x0 x1 (ix3 (0 : Fin 1) (⟨2046, by norm_num⟩ : Fin 2048) l) = (k0_pay143 (t540 i x0 x1) (t541 i x0 x1) (t549 i x0 x1) (t550 i x0 x1)) (ix3 (0 : Fin 1) (0 : Fin 1) l) := by
  unfold treeV treeVtail
  exact (canon_at_2046 _ _ _ _ _ _ _ _ _ _ _ (0 : Fin 2) l).trans (tRows2_row0 _ _ l)
theorem treeV_row2047 (i : grid0.Coords) (x0 x1 : Vec F S2048x8x128 .f32) (l : Fin 128) :
    treeV i x0 x1 (ix3 (0 : Fin 1) (⟨2047, by norm_num⟩ : Fin 2048) l) = (k0_pay1 (F := F)) (ix3 (0 : Fin 1) (0 : Fin 1) l) := by
  unfold treeV treeVtail
  exact (canon_at_2046 _ _ _ _ _ _ _ _ _ _ _ (1 : Fin 2) l).trans (tRows2_row1 _ _ l)

end Cert.Proof.KI

end
-- ==== Proof.TreeValue.lean ====
/-
  The first pipeline's arithmetic at one entry, on the extended reals: level by level, the pooled keys and pooled values
  the body stores are the specification's.

  A level pairs the rows of the level below: row r of a level has children rows 2r and 2r+1. Its key row is the mean of
  the children's key rows. Its value row mixes the children's value rows with weights made of three scores: the scaled
  inner products of the key row with itself, with the first child's key row, and twice the first minus the second.
  Read at the extended reals every operation of the body is the exact one and the rounding to bf16 is the identity, so
  each stored entry is the specification's term as written; only the bookkeeping of which entry of which vector an
  operation reads has to be followed.
-/
import proofs.«208975_g36283883717458_cont_8to1_b_1954_30_alg».proof.Proof.TreeBody
import proofs.«208975_g36283883717458_cont_8to1_b_1954_30_alg».proof.Proof.Spec
import proofs.«208975_g36283883717458_cont_8to1_b_1954_30_alg».proof.Proof.LibPoolLaws
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Proof.KI

open Cert.KernelIdeal Cert.KernelIdeal.Gen
open Idealize.ShloMosaic Idealize.ShloMosaic.ValueIdx
open Cert.PoolLaws Cert.Proof.Spec
open scoped BigOperators

/-! ## Which entry an operation reads -/

section Layout

variable {α : Type}

/-- A column [a, 1, b] read as a matrix [a, b]. -/
theorem cast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- Rows paired: a matrix [m, b] read as [a, 2b] (m = 2a), first half of row i is row 2i, -/
theorem pair_first_apply {m a b c : ℕ} (x : (⟨2, ![m, b]⟩ : Shape).Idx → α)
    (h1 : (⟨2, ![m, b]⟩ : Shape).ShapeCasts ⟨2, ![a, c]⟩) (h2 : (⟨2, ![a, c]⟩ : Shape).Slices ![0, 0] ⟨2, ![a, b]⟩)
    (hm : m = 2 * a) (hc : c = 2 * b) (i : Fin a) (j : Fin b) :
    extractStridedSlice ⟨2, ![a, b]⟩ ![0, 0] (shapeCast ⟨2, ![a, c]⟩ x h1) h2 (ix2 i j)
      = x (ix2 ⟨2 * i.val, by omega⟩ j) := by
  subst hm hc
  refine (extractStridedSlice_apply ![0, 0] _ h2 (ix2 i j) (ix2 i ⟨j.val, by omega⟩) fun d => ?_).trans ?_
  · match d with
    | ⟨0, _⟩ => show i.val = 0 + i.val; omega
    | ⟨1, _⟩ => show j.val = 0 + j.val; omega
  · refine shapeCast_apply x h1 _ _ ?_
    rw [Shape.rowMajor_val_two, Shape.rowMajor_val_two]
    show 2 * i.val * b + j.val = i.val * (2 * b) + j.val
    rw [Nat.mul_comm 2 i.val, Nat.mul_assoc]

/-- its second half row 2i + 1. -/
theorem pair_second_apply {m a b c : ℕ} (x : (⟨2, ![m, b]⟩ : Shape).Idx → α)
    (h1 : (⟨2, ![m, b]⟩ : Shape).ShapeCasts ⟨2, ![a, c]⟩) (h2 : (⟨2, ![a, c]⟩ : Shape).Slices ![0, b] ⟨2, ![a, b]⟩)
    (hm : m = 2 * a) (hc : c = 2 * b) (i : Fin a) (j : Fin b) :
    extractStridedSlice ⟨2, ![a, b]⟩ ![0, b] (shapeCast ⟨2, ![a, c]⟩ x h1) h2 (ix2 i j)
      = x (ix2 ⟨2 * i.val + 1, by omega⟩ j) := by
  subst hm hc
  refine (extractStridedSlice_apply ![0, b] _ h2 (ix2 i j) (ix2 i ⟨b + j.val, by omega⟩) fun d => ?_).trans ?_
  · match d with
    | ⟨0, _⟩ => show i.val = 0 + i.val; omega
    | ⟨1, _⟩ => show b + j.val = b + j.val; rfl
  · refine shapeCast_apply x h1 _ _ ?_
    rw [Shape.rowMajor_val_two, Shape.rowMajor_val_two]
    show (2 * i.val + 1) * b + j.val = i.val * (2 * b) + (b + j.val)
    rw [Nat.add_mul, Nat.one_mul, Nat.mul_comm 2 i.val, Nat.mul_assoc, Nat.add_assoc]

/-- A vector [a] read as a column [a, 1]. -/
theorem cast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] spread over the lanes [a, b]. -/
theorem spread_a1_ab_apply {a b : ℕ} (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ fun d => match d with
    | ⟨0, _⟩ => by
      show i.val = if a = 1 then 0 else i.val
      have := i.isLt
      split <;> omega
    | ⟨1, _⟩ => rfl

/-- A row's lane sum. -/
theorem rowsum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  refine Finset.sum_congr rfl fun j _ => congrArg src (funext fun d => ?_)
  match d with
  | ⟨0, _⟩ => rfl
  | ⟨1, _⟩ => rfl

/-- The same, its two side conditions stated as equations between literals. -/
theorem rowsum_apply' {a b : ℕ} (src : FVec Ideal ⟨2, ![a, b]⟩ .f32) (h : (⟨2, ![a, b]⟩ : Shape).Reduces [1] ⟨1, ![a]⟩)
    (hφ : FTy.f32 = FTy.f32 ∨ FTy.f32 = FTy.bf16) (hacc : (0x00000000#32 : BitVec 32) = 0x00000000#32) (i : Fin a) :
    multiReduction .add [1] ⟨1, ![a]⟩ src 0x00000000#32 h hφ hacc (ix1 i) = ∑ j : Fin b, src (ix2 i j) :=
  rowsum_apply src h hφ hacc i

theorem exp_apply {s : Shape} {φ : FTy} (x : FVec Ideal s φ) (i : s.Idx) : exp x i = Ideal.exp (x i) := rfl
theorem scalar_ofBits (φ : FTy) (b : BitVec φ.bits) : (Scalar.ofBits φ b : Ideal φ) = Ideal.ofBits φ b := rfl

end Layout

/-! ## The head's rows -/

/-- The rows of head `h` of a staged block, as rows of 128 lanes indexed by a natural number (zero past the last). -/
def headRows (x : Vec Ideal S2048x8x128 .f32) (h : Fin 8) : ℕ → Fin 128 → EReal :=
  fun r l => if hr : r < 2048 then x (ix3 ⟨r, hr⟩ h l) else 0

section Levels

variable (i : grid0.Coords) (x0 x1 : Vec Ideal S2048x8x128 .f32)

local notation "kR" => headRows x0 (i 1 : Fin 8)
local notation "vR" => headRows x1 (i 1 : Fin 8)

/-- The column the body reads of the keys' block is the head's rows. -/
theorem t1_apply (r : Fin 2048) (l : Fin 128) : t1 i x0 x1 (ix3 r (0 : Fin 1) l) = kR r.val l := by
  unfold t1 headRows
  rw [dif_pos r.isLt]
  show x0 _ = x0 _
  refine congrArg x0 (funext fun d => Fin.ext ?_)
  have e := k0_off1_eq i
  match d with
  | ⟨0, _⟩ => show (k0_off1 i) 0 + 1 * r.val = r.val; rw [e]; show 0 + 1 * r.val = r.val; omega
  | ⟨1, _⟩ => show (k0_off1 i) 1 + 1 * 0 = (i 1).val; rw [e]; rfl
  | ⟨2, _⟩ => show (k0_off1 i) 2 + 1 * l.val = l.val; rw [e]; show 0 + 1 * l.val = l.val; omega

theorem t4_apply (r : Fin 2048) (l : Fin 128) : t4 i x0 x1 (ix3 r (0 : Fin 1) l) = vR r.val l := by
  unfold t4 headRows
  rw [dif_pos r.isLt]
  show x1 _ = x1 _
  refine congrArg x1 (funext fun d => Fin.ext ?_)
  have e := k0_off1_eq i
  match d with
  | ⟨0, _⟩ => show (k0_off1 i) 0 + 1 * r.val = r.val; rw [e]; show 0 + 1 * r.val = r.val; omega
  | ⟨1, _⟩ => show (k0_off1 i) 1 + 1 * 0 = (i 1).val; rw [e]; rfl
  | ⟨2, _⟩ => show (k0_off1 i) 2 + 1 * l.val = l.val; rw [e]; show 0 + 1 * l.val = l.val; omega

/-! ### Level 1 -/

theorem key1 (r : Fin 1024) (l : Fin 128) : t14 i x0 x1 (ix2 r l) = keyL kR 1 r.val l := by
  unfold t14
  simp only [k0_pay6, k0_pay3, k0_pay2, mulf_apply, addf_apply, broadcast_apply, scalar_ofBits, ofBits_half,
    pair_first_apply _ _ _ rfl rfl, pair_second_apply _ _ _ rfl rfl, cast_a1b_ab_apply, t1_apply]
  rfl

theorem key1' (r : Fin 1024) (l : Fin 128) : k0_pay6 (t1 i x0 x1) (ix2 r l) = keyL kR 1 r.val l := key1 i x0 x1 r l

set_option maxHeartbeats 1000000 in
theorem val1 (r : Fin 1024) (l : Fin 128) :
    k0_pay18 (t11 i x0 x1) (t39 i x0 x1) (t44 i x0 x1) (t45 i x0 x1) (ix2 r l) = valKer kR vR 1 r.val l := by
  unfold t11 t39 t44 t45
  simp only [k0_pay18, k0_pay17, k0_pay16, k0_pay15, k0_pay14, k0_pay13, k0_pay12, k0_pay11, k0_pay10, k0_pay9, k0_pay8, k0_pay7,
    k0_pay5, k0_pay4, k0_pay3, k0_pay2,
    mulf_apply, addf_apply, subf_apply, divf_apply, maximumf_apply, exp_apply, broadcast_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 1024) (b := 128), key1', t1_apply, t4_apply]
  rfl

/-! ### Level 2 -/

theorem key2 (r : Fin 512) (l : Fin 128) : t67 i x0 x1 (ix2 r l) = keyL kR 2 r.val l := by
  unfold t67
  simp only [k0_pay26, k0_pay21, k0_pay22, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 512) (b := 128), key1]
  rfl

theorem key2' (r : Fin 512) (l : Fin 128) : k0_pay26 (t14 i x0 x1) (ix2 r l) = keyL kR 2 r.val l := key2 i x0 x1 r l

set_option maxHeartbeats 1000000 in
theorem val2 (r : Fin 512) (l : Fin 128) :
    k0_pay35 (t63 i x0 x1) (t64 i x0 x1) (t84 i x0 x1) (t86 i x0 x1) (t88 i x0 x1) (t90 i x0 x1) tc22 (ix2 r l) = valKer kR vR 2 r.val l := by
  unfold t63 t64 t84 t86 t88 t90
  simp only [k0_pay35, k0_pay24, k0_pay23, k0_pay25, k0_pay31, k0_pay27, k0_pay30, k0_pay28, k0_pay22, k0_pay21, k0_pay29, k0_pay32, k0_pay33, k0_pay34, tc22, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 512) (b := 128), key2', key1, val1]
  rfl

/-! ### Level 3 -/

theorem key3 (r : Fin 256) (l : Fin 128) : t120 i x0 x1 (ix2 r l) = keyL kR 3 r.val l := by
  unfold t120
  simp only [k0_pay43, k0_pay38, k0_pay39, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 256) (b := 128), key2]
  rfl

theorem key3' (r : Fin 256) (l : Fin 128) : k0_pay43 (t67 i x0 x1) (ix2 r l) = keyL kR 3 r.val l := key3 i x0 x1 r l

set_option maxHeartbeats 1000000 in
theorem val3 (r : Fin 256) (l : Fin 128) :
    k0_pay48 (t116 i x0 x1) (t117 i x0 x1) (t125 i x0 x1) (t130 i x0 x1) (t133 i x0 x1) (t135 i x0 x1) (ix2 r l) = valKer kR vR 3 r.val l := by
  unfold t116 t117 t125 t130 t133 t135
  simp only [k0_pay48, k0_pay41, k0_pay40, k0_pay42, k0_pay44, k0_pay45, k0_pay39, k0_pay38, k0_pay46, k0_pay47, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 256) (b := 128), key3', key2, val2]
  rfl

/-! ### Level 4 -/

theorem key4 (r : Fin 128) (l : Fin 128) : t173 i x0 x1 (ix2 r l) = keyL kR 4 r.val l := by
  unfold t173
  simp only [k0_pay56, k0_pay51, k0_pay52, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 128) (b := 128), key3]
  rfl

theorem key4' (r : Fin 128) (l : Fin 128) : k0_pay56 (t120 i x0 x1) (ix2 r l) = keyL kR 4 r.val l := key4 i x0 x1 r l

set_option maxHeartbeats 1000000 in
theorem val4 (r : Fin 128) (l : Fin 128) :
    k0_pay59 (t169 i x0 x1) (t170 i x0 x1) (t178 i x0 x1) (t181 i x0 x1) (ix2 r l) = valKer kR vR 4 r.val l := by
  unfold t169 t170 t178 t181
  simp only [k0_pay59, k0_pay54, k0_pay53, k0_pay55, k0_pay57, k0_pay58, k0_pay52, k0_pay51, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 128) (b := 128), key4', key3, val3]
  rfl

/-! ### Level 5 -/

theorem key5 (r : Fin 64) (l : Fin 128) : t226 i x0 x1 (ix2 r l) = keyL kR 5 r.val l := by
  unfold t226
  simp only [k0_pay67, k0_pay62, k0_pay63, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 64) (b := 128), key4]
  rfl

theorem key5' (r : Fin 64) (l : Fin 128) : k0_pay67 (t173 i x0 x1) (ix2 r l) = keyL kR 5 r.val l := key5 i x0 x1 r l

set_option maxHeartbeats 1000000 in
theorem val5 (r : Fin 64) (l : Fin 128) :
    k0_pay69 (t219 i x0 x1) (t222 i x0 x1) (t223 i x0 x1) (t226 i x0 x1) (t227 i x0 x1) (ix2 r l) = valKer kR vR 5 r.val l := by
  unfold t219 t222 t223 t226 t227
  simp only [k0_pay69, k0_pay63, k0_pay62, k0_pay65, k0_pay64, k0_pay66, k0_pay68, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 64) (b := 128), key5', key4, val4]
  rfl

theorem val5T (r : Fin 64) (l : Fin 128) : t262 i x0 x1 (ix2 r l) = valKer kR vR 5 r.val l := val5 i x0 x1 r l

/-! ### Level 6 -/

theorem key6 (r : Fin 32) (l : Fin 128) : t279 i x0 x1 (ix2 r l) = keyL kR 6 r.val l := by
  unfold t279 t272 t273
  simp only [k0_pay75, k0_pay73, k0_pay72, k0_pay74, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 32) (b := 128), key5]
  rfl

theorem key6' (r : Fin 32) (l : Fin 128) : k0_pay75 (t272 i x0 x1) (t273 i x0 x1) (ix2 r l) = keyL kR 6 r.val l := key6 i x0 x1 r l

set_option maxHeartbeats 1000000 in
theorem val6 (r : Fin 32) (l : Fin 128) :
    k0_pay76 (t262 i x0 x1) (t272 i x0 x1) (t273 i x0 x1) (ix2 r l) = valKer kR vR 6 r.val l := by
  unfold t272 t273
  simp only [k0_pay76, k0_pay75, k0_pay73, k0_pay72, k0_pay74, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 32) (b := 128), key5, val5T]
  rfl

theorem val6T (r : Fin 32) (l : Fin 128) : t315 i x0 x1 (ix2 r l) = valKer kR vR 6 r.val l := val6 i x0 x1 r l

/-! ### Level 7 -/

theorem key7 (r : Fin 16) (l : Fin 128) : t332 i x0 x1 (ix2 r l) = keyL kR 7 r.val l := by
  unfold t332
  simp only [k0_pay82, k0_pay80, k0_pay81, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 16) (b := 128), key6]
  rfl

theorem key7' (r : Fin 16) (l : Fin 128) : k0_pay82 (t279 i x0 x1) (ix2 r l) = keyL kR 7 r.val l := key7 i x0 x1 r l

set_option maxHeartbeats 1000000 in
theorem val7 (r : Fin 16) (l : Fin 128) :
    k0_pay83 (t279 i x0 x1) (t315 i x0 x1) (ix2 r l) = valKer kR vR 7 r.val l := by
  skip
  simp only [k0_pay83, k0_pay81, k0_pay80, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 16) (b := 128), key7', key6, val6T]
  rfl

theorem val7T (r : Fin 16) (l : Fin 128) : t368 i x0 x1 (ix2 r l) = valKer kR vR 7 r.val l := val7 i x0 x1 r l

/-! ### Level 8 -/

theorem key8 (r : Fin 8) (l : Fin 128) : t385 i x0 x1 (ix2 r l) = keyL kR 8 r.val l := by
  unfold t385
  simp only [k0_pay92, k0_pay87, k0_pay88, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 8) (b := 128), key7]
  rfl

theorem key8' (r : Fin 8) (l : Fin 128) : k0_pay92 (t332 i x0 x1) (ix2 r l) = keyL kR 8 r.val l := key8 i x0 x1 r l

set_option maxHeartbeats 1000000 in
theorem val8 (r : Fin 8) (l : Fin 128) :
    k0_pay103 (t381 i x0 x1) (t382 i x0 x1) (t406 i x0 x1) (t410 i x0 x1) (t412 i x0 x1) (t413 i x0 x1) (ix2 r l) = valKer kR vR 8 r.val l := by
  unfold t381 t382 t406 t410 t412 t413
  simp only [k0_pay103, k0_pay90, k0_pay89, k0_pay91, k0_pay99, k0_pay95, k0_pay93, k0_pay94, k0_pay88, k0_pay87, k0_pay96, k0_pay100, k0_pay97, k0_pay98, k0_pay101, k0_pay102, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 8) (b := 128), key8', key7, val7T]
  rfl

/-! ### Level 9 -/

theorem key9 (r : Fin 4) (l : Fin 128) : t438 i x0 x1 (ix2 r l) = keyL kR 9 r.val l := by
  unfold t438
  simp only [k0_pay111, k0_pay106, k0_pay107, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 4) (b := 128), key8]
  rfl

theorem key9' (r : Fin 4) (l : Fin 128) : k0_pay111 (t385 i x0 x1) (ix2 r l) = keyL kR 9 r.val l := key9 i x0 x1 r l

set_option maxHeartbeats 1000000 in
theorem val9 (r : Fin 4) (l : Fin 128) :
    k0_pay119 (t434 i x0 x1) (t435 i x0 x1) (t455 i x0 x1) (t457 i x0 x1) (t459 i x0 x1) (ix2 r l) = valKer kR vR 9 r.val l := by
  unfold t434 t435 t455 t457 t459
  simp only [k0_pay119, k0_pay109, k0_pay108, k0_pay110, k0_pay116, k0_pay112, k0_pay115, k0_pay113, k0_pay107, k0_pay106, k0_pay114, k0_pay117, k0_pay118, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 4) (b := 128), key9', key8, val8]
  rfl

/-! ### Level 10 -/

theorem key10 (r : Fin 2) (l : Fin 128) : t491 i x0 x1 (ix2 r l) = keyL kR 10 r.val l := by
  unfold t491
  simp only [k0_pay127, k0_pay122, k0_pay123, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 2) (b := 128), key9]
  rfl

theorem key10' (r : Fin 2) (l : Fin 128) : k0_pay127 (t438 i x0 x1) (ix2 r l) = keyL kR 10 r.val l := key10 i x0 x1 r l

set_option maxHeartbeats 1000000 in
theorem val10 (r : Fin 2) (l : Fin 128) :
    k0_pay131 (t487 i x0 x1) (t488 i x0 x1) (t496 i x0 x1) (t501 i x0 x1) (t503 i x0 x1) (ix2 r l) = valKer kR vR 10 r.val l := by
  unfold t487 t488 t496 t501 t503
  simp only [k0_pay131, k0_pay125, k0_pay124, k0_pay126, k0_pay128, k0_pay129, k0_pay123, k0_pay122, k0_pay130, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 2) (b := 128), key10', key9, val9]
  rfl

/-! ### Level 11 -/

theorem key11 (r : Fin 1) (l : Fin 128) : t544 i x0 x1 (ix2 r l) = keyL kR 11 r.val l := by
  unfold t544
  simp only [k0_pay139, k0_pay134, k0_pay135, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 1) (b := 128), key10]
  rfl

theorem key11' (r : Fin 1) (l : Fin 128) : k0_pay139 (t491 i x0 x1) (ix2 r l) = keyL kR 11 r.val l := key11 i x0 x1 r l

set_option maxHeartbeats 1000000 in
theorem pieceV11 (u v : Fin 1) (l : Fin 128) :
    k0_pay143 (t540 i x0 x1) (t541 i x0 x1) (t549 i x0 x1) (t550 i x0 x1) (ix3 u v l) = valKer kR vR 11 0 l := by
  obtain rfl : v = 0 := Subsingleton.elim _ _
  unfold t540 t541 t549 t550
  simp only [k0_pay143, k0_pay137, k0_pay136, k0_pay138, k0_pay140, k0_pay141, k0_pay135, k0_pay134, mulf_apply, addf_apply, subf_apply, divf_apply, maximumf_apply, exp_apply, broadcast_apply, truncf_apply, scalar_ofBits,
    ofBits_half, ofBits_two, ofBits_rsqrt128, ofBits_1em9,
    pair_first_apply _ _ _ rfl rfl, pair_second_apply _ _ _ rfl rfl, cast_a1b_ab_apply, cast_a_a1_apply, spread_a1_ab_apply,
    rowsum_apply' (a := 1) (b := 128), shapeCast_ab_1ab_apply, key11', key10, val10]
  rfl

/-! ### What is stored: a level's rows rounded to bf16 and given a leading unit axis — at the extended reals, the rows themselves -/

theorem pieceK1 (u : Fin 1) (r : Fin 1024) (l : Fin 128) : k0_pay19 (t14 i x0 x1) (ix3 u r l) = keyL kR 1 r.val l := by
  simp only [k0_pay19, truncf_apply, shapeCast_ab_1ab_apply, key1]

theorem pieceV1 (u : Fin 1) (r : Fin 1024) (l : Fin 128) : k0_pay20 (t11 i x0 x1) (t39 i x0 x1) (t44 i x0 x1) (t45 i x0 x1) (ix3 u r l) = valKer kR vR 1 r.val l := by
  simp only [k0_pay20, truncf_apply, shapeCast_ab_1ab_apply, val1]

theorem pieceK2 (u : Fin 1) (r : Fin 512) (l : Fin 128) : k0_pay36 (t67 i x0 x1) (ix3 u r l) = keyL kR 2 r.val l := by
  simp only [k0_pay36, truncf_apply, shapeCast_ab_1ab_apply, key2]

theorem pieceV2 (u : Fin 1) (r : Fin 512) (l : Fin 128) : k0_pay37 (t63 i x0 x1) (t64 i x0 x1) (t84 i x0 x1) (t86 i x0 x1) (t88 i x0 x1) (t90 i x0 x1) tc22 (ix3 u r l) = valKer kR vR 2 r.val l := by
  simp only [k0_pay37, truncf_apply, shapeCast_ab_1ab_apply, val2]

theorem pieceK3 (u : Fin 1) (r : Fin 256) (l : Fin 128) : k0_pay49 (t120 i x0 x1) (ix3 u r l) = keyL kR 3 r.val l := by
  simp only [k0_pay49, truncf_apply, shapeCast_ab_1ab_apply, key3]

theorem pieceV3 (u : Fin 1) (r : Fin 256) (l : Fin 128) : k0_pay50 (t116 i x0 x1) (t117 i x0 x1) (t125 i x0 x1) (t130 i x0 x1) (t133 i x0 x1) (t135 i x0 x1) (ix3 u r l) = valKer kR vR 3 r.val l := by
  simp only [k0_pay50, truncf_apply, shapeCast_ab_1ab_apply, val3]

theorem pieceK4 (u : Fin 1) (r : Fin 128) (l : Fin 128) : k0_pay60 (t173 i x0 x1) (ix3 u r l) = keyL kR 4 r.val l := by
  simp only [k0_pay60, truncf_apply, shapeCast_ab_1ab_apply, key4]

theorem pieceV4 (u : Fin 1) (r : Fin 128) (l : Fin 128) : k0_pay61 (t169 i x0 x1) (t170 i x0 x1) (t178 i x0 x1) (t181 i x0 x1) (ix3 u r l) = valKer kR vR 4 r.val l := by
  simp only [k0_pay61, truncf_apply, shapeCast_ab_1ab_apply, val4]

theorem pieceK5 (u : Fin 1) (r : Fin 64) (l : Fin 128) : k0_pay70 (t226 i x0 x1) (ix3 u r l) = keyL kR 5 r.val l := by
  simp only [k0_pay70, truncf_apply, shapeCast_ab_1ab_apply, key5]

theorem pieceV5 (u : Fin 1) (r : Fin 64) (l : Fin 128) : k0_pay71 (t219 i x0 x1) (t222 i x0 x1) (t223 i x0 x1) (t226 i x0 x1) (t227 i x0 x1) (ix3 u r l) = valKer kR vR 5 r.val l := by
  simp only [k0_pay71, truncf_apply, shapeCast_ab_1ab_apply, val5]

theorem pieceK6 (u : Fin 1) (r : Fin 32) (l : Fin 128) : k0_pay77 (t272 i x0 x1) (t273 i x0 x1) (ix3 u r l) = keyL kR 6 r.val l := by
  simp only [k0_pay77, truncf_apply, shapeCast_ab_1ab_apply, key6']

theorem pieceV6 (u : Fin 1) (r : Fin 32) (l : Fin 128) : k0_pay79 (t320 i x0 x1) (ix3 u r l) = valKer kR vR 6 r.val l := by
  unfold t320
  simp only [k0_pay79, k0_pay78, truncf_apply, shapeCast_ab_1ab_apply, val6]

theorem pieceK7 (u : Fin 1) (r : Fin 16) (l : Fin 128) : k0_pay85 (t369 i x0 x1) (ix3 u r l) = keyL kR 7 r.val l := by
  unfold t369
  simp only [k0_pay85, k0_pay84, truncf_apply, shapeCast_ab_1ab_apply, key7']

theorem pieceV7 (u : Fin 1) (r : Fin 16) (l : Fin 128) : k0_pay86 (t368 i x0 x1) (ix3 u r l) = valKer kR vR 7 r.val l := by
  simp only [k0_pay86, truncf_apply, shapeCast_ab_1ab_apply, val7T]

theorem pieceK8 (u : Fin 1) (r : Fin 8) (l : Fin 128) : k0_pay104 (t385 i x0 x1) (ix3 u r l) = keyL kR 8 r.val l := by
  simp only [k0_pay104, truncf_apply, shapeCast_ab_1ab_apply, key8]

theorem pieceV8 (u : Fin 1) (r : Fin 8) (l : Fin 128) : k0_pay105 (t381 i x0 x1) (t382 i x0 x1) (t406 i x0 x1) (t410 i x0 x1) (t412 i x0 x1) (t413 i x0 x1) (ix3 u r l) = valKer kR vR 8 r.val l := by
  simp only [k0_pay105, truncf_apply, shapeCast_ab_1ab_apply, val8]

theorem pieceK9 (u : Fin 1) (r : Fin 4) (l : Fin 128) : k0_pay120 (t438 i x0 x1) (ix3 u r l) = keyL kR 9 r.val l := by
  simp only [k0_pay120, truncf_apply, shapeCast_ab_1ab_apply, key9]

theorem pieceV9 (u : Fin 1) (r : Fin 4) (l : Fin 128) : k0_pay121 (t434 i x0 x1) (t435 i x0 x1) (t455 i x0 x1) (t457 i x0 x1) (t459 i x0 x1) (ix3 u r l) = valKer kR vR 9 r.val l := by
  simp only [k0_pay121, truncf_apply, shapeCast_ab_1ab_apply, val9]

theorem pieceK10 (u : Fin 1) (r : Fin 2) (l : Fin 128) : k0_pay132 (t491 i x0 x1) (ix3 u r l) = keyL kR 10 r.val l := by
  simp only [k0_pay132, truncf_apply, shapeCast_ab_1ab_apply, key10]

theorem pieceV10 (u : Fin 1) (r : Fin 2) (l : Fin 128) : k0_pay133 (t487 i x0 x1) (t488 i x0 x1) (t496 i x0 x1) (t501 i x0 x1) (t503 i x0 x1) (ix3 u r l) = valKer kR vR 10 r.val l := by
  simp only [k0_pay133, truncf_apply, shapeCast_ab_1ab_apply, val10]

theorem pieceK11 (u : Fin 1) (r : Fin 1) (l : Fin 128) : k0_pay142 (t544 i x0 x1) (ix3 u r l) = keyL kR 11 r.val l := by
  simp only [k0_pay142, truncf_apply, shapeCast_ab_1ab_apply, key11]

/-- The last row of both outputs is zero. -/
theorem zeroK (j : S1x1x128.Idx) : k0_pay144 (F := Ideal) j = 0 := by
  simp only [k0_pay144, broadcast_apply, scalar_ofBits, ofBits_zero_bf16, shapeCast, broadcast]
theorem zeroV (j : S1x1x128.Idx) : k0_pay1 (F := Ideal) j = 0 := by
  simp only [k0_pay1, broadcast_apply, scalar_ofBits, ofBits_zero_bf16, shapeCast, broadcast]

end Levels

end Cert.Proof.KI

end
-- ==== Proof.Levels.lean ====
/-
  The tree kernel's two output blocks are, row by row, the specification's pooled rows: a row of a block reads the
  stored payload of its level at its row within the level, and that payload is the level's pooled row; row 2046 is
  level 11's one row, row 2047 is zero.
-/
import proofs.«208975_g36283883717458_cont_8to1_b_1954_30_alg».proof.Proof.TreePieces
import proofs.«208975_g36283883717458_cont_8to1_b_1954_30_alg».proof.Proof.TreeValue
import proofs.«208975_g36283883717458_cont_8to1_b_1954_30_alg».proof.Proof.TreeNodes

set_option maxRecDepth 16384

noncomputable section

namespace Cert.Proof.KI

open Cert.KernelIdeal Cert.KernelIdeal.Gen

open Idealize.ShloMosaic
open Idealize.ShloMosaic.ValueIdx

/-- The rows of a head column of a staged half, under its two names. -/
theorem rowsAt_eq_headRows : rowsAt = headRows := rfl

/-- The eleven levels of the pooled keys, each at its rows of the block, and the zero row. -/
theorem levelsK : LevelsK where
  l1 := fun i x0 x1 r l => (treeK_level1 i x0 x1 r l).trans (pieceK1 i x0 x1 0 r l)
  l2 := fun i x0 x1 r l => (treeK_level2 i x0 x1 r l).trans (pieceK2 i x0 x1 0 r l)
  l3 := fun i x0 x1 r l => (treeK_level3 i x0 x1 r l).trans (pieceK3 i x0 x1 0 r l)
  l4 := fun i x0 x1 r l => (treeK_level4 i x0 x1 r l).trans (pieceK4 i x0 x1 0 r l)
  l5 := fun i x0 x1 r l => (treeK_level5 i x0 x1 r l).trans (pieceK5 i x0 x1 0 r l)
  l6 := fun i x0 x1 r l => (treeK_level6 i x0 x1 r l).trans (pieceK6 i x0 x1 0 r l)
  l7 := fun i x0 x1 r l => (treeK_level7 i x0 x1 r l).trans (pieceK7 i x0 x1 0 r l)
  l8 := fun i x0 x1 r l => (treeK_level8 i x0 x1 r l).trans (pieceK8 i x0 x1 0 r l)
  l9 := fun i x0 x1 r l => (treeK_level9 i x0 x1 r l).trans (pieceK9 i x0 x1 0 r l)
  l10 := fun i x0 x1 r l => (treeK_level10 i x0 x1 r l).trans (pieceK10 i x0 x1 0 r l)
  l11 := fun i x0 x1 r l => by
    obtain rfl : r = 0 := Subsingleton.elim _ _
    exact (treeK_row2046 i x0 x1 l).trans (pieceK11 i x0 x1 0 0 l)
  z := fun i x0 x1 l => (treeK_row2047 i x0 x1 l).trans (zeroK _)

/-- The eleven levels of the pooled values, and the zero row. -/
theorem levelsV : LevelsV where
  l1 := fun i x0 x1 r l => (treeV_level1 i x0 x1 r l).trans (pieceV1 i x0 x1 0 r l)
  l2 := fun i x0 x1 r l => (treeV_level2 i x0 x1 r l).trans (pieceV2 i x0 x1 0 r l)
  l3 := fun i x0 x1 r l => (treeV_level3 i x0 x1 r l).trans (pieceV3 i x0 x1 0 r l)
  l4 := fun i x0 x1 r l => (treeV_level4 i x0 x1 r l).trans (pieceV4 i x0 x1 0 r l)
  l5 := fun i x0 x1 r l => (treeV_level5 i x0 x1 r l).trans (pieceV5 i x0 x1 0 r l)
  l6 := fun i x0 x1 r l => (treeV_level6 i x0 x1 r l).trans (pieceV6 i x0 x1 0 r l)
  l7 := fun i x0 x1 r l => (treeV_level7 i x0 x1 r l).trans (pieceV7 i x0 x1 0 r l)
  l8 := fun i x0 x1 r l => (treeV_level8 i x0 x1 r l).trans (pieceV8 i x0 x1 0 r l)
  l9 := fun i x0 x1 r l => (treeV_level9 i x0 x1 r l).trans (pieceV9 i x0 x1 0 r l)
  l10 := fun i x0 x1 r l => (treeV_level10 i x0 x1 r l).trans (pieceV10 i x0 x1 0 r l)
  l11 := fun i x0 x1 r l => by
    obtain rfl : r = 0 := Subsingleton.elim _ _
    exact (treeV_row2046 i x0 x1 l).trans (pieceV11 i x0 x1 0 0 l)
  z := fun i x0 x1 l => (treeV_row2047 i x0 x1 l).trans (zeroV _)

end Cert.Proof.KI

end
-- ==== Proof.lean ====
/-
  The certificate: both printed programs run to the end on every weakly fair execution of their thirty-five threads
  and leave q, k and v unchanged; the reference's host program does the same; the idealization rewrote nothing; and the
  idealized kernel's result equals the reference's on finite inputs.

  The program builds, per head, eleven levels of pairwise-pooled keys and values (a TensorCore pipeline), reorders the
  queries head-major on the SparseCores' vector subcores, and attends, per head, over the 2047 pooled nodes (a second
  TensorCore pipeline). Its frame is proved once for any float instance (Proof/Frames.lean) and read at the word-level
  instance for the program as printed and at the extended reals for its idealization. The reference's frame is its
  host operations' run (Proof/RefFrame.lean).
-/
import proofs.«208975_g36283883717458_cont_8to1_b_1954_30_alg».proof.Defs
import proofs.«208975_g36283883717458_cont_8to1_b_1954_30_alg».proof.Proof.Gen.Kernel
import proofs.«208975_g36283883717458_cont_8to1_b_1954_30_alg».proof.Proof.Gen.KernelIdeal
import proofs.«208975_g36283883717458_cont_8to1_b_1954_30_alg».proof.Proof.Gen.ReferenceIdeal
import proofs.«208975_g36283883717458_cont_8to1_b_1954_30_alg».proof.Proof.Gen.Pre_finite_inputs
import proofs.«208975_g36283883717458_cont_8to1_b_1954_30_alg».proof.Proof.Frames
import proofs.«208975_g36283883717458_cont_8to1_b_1954_30_alg».proof.Proof.FramesB
import proofs.«208975_g36283883717458_cont_8to1_b_1954_30_alg».proof.Proof.RefFrame
import proofs.«208975_g36283883717458_cont_8to1_b_1954_30_alg».proof.Proof.Algebraic
import proofs.«208975_g36283883717458_cont_8to1_b_1954_30_alg».proof.Proof.Levels

noncomputable section

namespace Cert.Proof

open Idealize.ShloMosaic Idealize.SL.Sem

/-- The program as printed, read at the word-level instance. -/
theorem frame_p : Cert.frame_Kernel := fun m ρ _ => Cert.Proof.KB.frame (F := Bits) m ρ

/-- Its idealization, read at the extended reals. -/
theorem frame_pi : Cert.frame_KernelIdeal := fun m ρ _ => Cert.Proof.KI.frame (F := Ideal) m ρ

/-- The ideal pass rewrote no operation: there is nothing to preserve. -/
theorem preserves : Cert.preserves_Kernel_KernelIdeal := trivial

/-- The idealized kernel's result is the reference's on finite inputs: the kernel's result read back to the three
    arguments, the reference's read index by index, and the two joined by the laws of the pooled levels and of the
    softmax with one zero row added (Proof/Algebraic.lean), the tree kernel's eleven levels read at an index. -/
theorem algebraic : Cert.algebraic_KernelIdeal_ReferenceIdeal := Cert.Proof.KI.algebraic_of Cert.Proof.KI.levelsK Cert.Proof.KI.levelsV

theorem claim : Cert.Claim := ⟨Cert.Kernel.Gen.facts, Cert.KernelIdeal.Gen.facts, Cert.ReferenceIdeal.Gen.facts, Cert.Pre_finite_inputs.Gen.facts,
  frame_p, frame_pi, Cert.Proof.RefFrame.frame_ri, preserves, algebraic⟩

end Cert.Proof

end
